-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x40000x128 : Shape := ⟨3, ![4, 40000, 128]⟩
abbrev S2x320000 : Shape := ⟨2, ![2, 320000]⟩
abbrev S4x128x16x16x16 : Shape := ⟨5, ![4, 128, 16, 16, 16]⟩
abbrev S128x3 : Shape := ⟨2, ![128, 3]⟩
abbrev S_ : Shape := ⟨0, ![]⟩

class Facts : Prop where
  bcast_S_S4x40000x128 : S_.BroadcastsInDim S4x40000x128 (![] : Fin 0 → Fin S4x40000x128.rank)
  reducesTo_S4x40000x128_S_d0_1_2 : S4x40000x128.ReducesTo [0, 1, 2] S_
  h_S_ : 0 < S_.numel
  bcast_S_S4x128x16x16x16 : S_.BroadcastsInDim S4x128x16x16x16 (![] : Fin 0 → Fin S4x128x16x16x16.rank)
  reducesTo_S4x128x16x16x16_S_d0_1_2_3_4 : S4x128x16x16x16.ReducesTo [0, 1, 2, 3, 4] S_
  bcast_S_S128x3 : S_.BroadcastsInDim S128x3 (![] : Fin 0 → Fin S128x3.rank)
  reducesTo_S128x3_S_d0_1 : S128x3.ReducesTo [0, 1] S_

variable [Facts]

def fn {F : FTy → Type} [FloatOps F] (main_arg0 : FVec F S4x40000x128 .f32) (main_arg1 : IVec S2x320000 32) (main_arg2 : FVec F S4x128x16x16x16 .f32) (main_arg3 : FVec F S128x3 .f32) : IVec S_ 1 :=
  let main_v0 : FVec F S4x40000x128 .f32 := Host.absf main_arg0
  let main_cst : FVec F S_ .f32 := constant S_ .f32 0x7F800000#32
  let main_v1 : FVec F S4x40000x128 .f32 := broadcastInDim S4x40000x128 ![] bcast_S_S4x40000x128 main_cst
  let main_v2 : IVec S4x40000x128 1 := cmpf .olt main_v0 main_v1
  let main_c : IVec S_ 1 := constantI S_ 1 1#1
  let main_v3 : IVec S_ 1 := (fun x v => Host.reduce IntOp.andi x v reducesTo_S4x40000x128_S_d0_1_2 h_S_) main_v2 main_c
  let main_v4 : FVec F S4x128x16x16x16 .f32 := Host.absf main_arg2
  let main_cst_0 : FVec F S_ .f32 := constant S_ .f32 0x7F800000#32
  let main_v5 : FVec F S4x128x16x16x16 .f32 := broadcastInDim S4x128x16x16x16 ![] bcast_S_S4x128x16x16x16 main_cst_0
  let main_v6 : IVec S4x128x16x16x16 1 := cmpf .olt main_v4 main_v5
  let main_c_1 : IVec S_ 1 := constantI S_ 1 1#1
  let main_v7 : IVec S_ 1 := (fun x v => Host.reduce IntOp.andi x v reducesTo_S4x128x16x16x16_S_d0_1_2_3_4 h_S_) main_v6 main_c_1
  let main_v8 : IVec S_ 1 := andi main_v3 main_v7
  let main_v9 : FVec F S128x3 .f32 := Host.absf main_arg3
  let main_cst_2 : FVec F S_ .f32 := constant S_ .f32 0x7F800000#32
  let main_v10 : FVec F S128x3 .f32 := broadcastInDim S128x3 ![] bcast_S_S128x3 main_cst_2
  let main_v11 : IVec S128x3 1 := cmpf .olt main_v9 main_v10
  let main_c_3 : IVec S_ 1 := constantI S_ 1 1#1
  let main_v12 : IVec S_ 1 := (fun x v => Host.reduce IntOp.andi x v reducesTo_S128x3_S_d0_1 h_S_) main_v11 main_c_3
  let main_v13 : IVec S_ 1 := andi main_v8 main_v12
  main_v13
-- ==== Kernel.lean ====
abbrev S4x40000x128 : Shape := ⟨3, ![4, 40000, 128]⟩
abbrev S2x320000 : Shape := ⟨2, ![2, 320000]⟩
abbrev S4x128x16x16x16 : Shape := ⟨5, ![4, 128, 16, 16, 16]⟩
abbrev S128x3 : Shape := ⟨2, ![128, 3]⟩
abbrev S4x128x4096 : Shape := ⟨3, ![4, 128, 4096]⟩
abbrev S4x4096x128 : Shape := ⟨3, ![4, 4096, 128]⟩
abbrev S4x40000x259 : Shape := ⟨3, ![4, 40000, 259]⟩
abbrev S4x40000x3 : Shape := ⟨3, ![4, 40000, 3]⟩
abbrev S1x800x128 : Shape := ⟨3, ![1, 800, 128]⟩
abbrev S1x4096x128 : Shape := ⟨3, ![1, 4096, 128]⟩
abbrev S1x800x259 : Shape := ⟨3, ![1, 800, 259]⟩
abbrev S1x800x3 : Shape := ⟨3, ![1, 800, 3]⟩
abbrev S800x128 : Shape := ⟨2, ![800, 128]⟩
abbrev S800x3 : Shape := ⟨2, ![800, 3]⟩
abbrev S800x1 : Shape := ⟨2, ![800, 1]⟩
abbrev S4096x128 : Shape := ⟨2, ![4096, 128]⟩
abbrev S800x4096 : Shape := ⟨2, ![800, 4096]⟩

abbrev nBuf : Space → Nat
  | .hbm => 9
  | .vmem => 9
  | .smem => 0
  | _ => 0

abbrev bufTy : (tb : Table) → Fin (tcTables nBuf tb) → BufTy
  | .hbm, ⟨0, _⟩ => ⟨S4x40000x128, .f32⟩
  | .hbm, ⟨1, _⟩ => ⟨S2x320000, .i32⟩
  | .hbm, ⟨2, _⟩ => ⟨S4x128x16x16x16, .f32⟩
  | .hbm, ⟨3, _⟩ => ⟨S128x3, .f32⟩
  | .hbm, ⟨4, _⟩ => ⟨S4x128x4096, .f32⟩
  | .hbm, ⟨5, _⟩ => ⟨S4x4096x128, .f32⟩
  | .hbm, ⟨6, _⟩ => ⟨S4x4096x128, .bf16⟩
  | .hbm, ⟨7, _⟩ => ⟨S4x40000x259, .f32⟩
  | .hbm, ⟨8, _⟩ => ⟨S4x40000x3, .f32⟩
  | .local _ .vmem, ⟨0, _⟩ => ⟨S1x800x128, .f32⟩
  | .local _ .vmem, ⟨1, _⟩ => ⟨S1x800x128, .f32⟩
  | .local _ .vmem, ⟨2, _⟩ => ⟨S128x3, .f32⟩
  | .local _ .vmem, ⟨3, _⟩ => ⟨S1x4096x128, .bf16⟩
  | .local _ .vmem, ⟨4, _⟩ => ⟨S1x4096x128, .bf16⟩
  | .local _ .vmem, ⟨5, _⟩ => ⟨S1x800x259, .f32⟩
  | .local _ .vmem, ⟨6, _⟩ => ⟨S1x800x259, .f32⟩
  | .local _ .vmem, ⟨7, _⟩ => ⟨S1x800x3, .f32⟩
  | .local _ .vmem, ⟨8, _⟩ => ⟨S1x800x3, .f32⟩
  | _, _ => ⟨S4x40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 50], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x800x259 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x800x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x128x16x16x16_S4x128x4096 : S4x128x16x16x16.ShapeCasts S4x128x4096
  transposes_S4x128x4096_S4x4096x128_0_2_1 : S4x128x4096.Transposes [0, 2, 1] S4x4096x128
  bitsLt_bf16_f32 : FTy.bits .bf16 < FTy.bits .f32
  inb_S1x800x128_S1x800x128_0_0_0 : ∀ a, (![0, 0, 0] : Fin 3 → Nat) a + S1x800x128.size a ≤ S1x800x128.size a
  h_S1x800x128 : 0 < S1x800x128.numel
  shapeCasts_S1x800x128_S800x128 : S1x800x128.ShapeCasts S800x128
  inb_S128x3_S128x3_0_0 : ∀ a, (![0, 0] : Fin 2 → Nat) a + S128x3.size a ≤ S128x3.size a
  h_S128x3 : 0 < S128x3.numel
  slices_S800x3_o0_0_S800x1 : S800x3.Slices ![0, 0] S800x1
  slices_S800x3_o0_1_S800x1 : S800x3.Slices ![0, 1] S800x1
  slices_S800x3_o0_2_S800x1 : S800x3.Slices ![0, 2] S800x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  iota_S800x4096_d1_w32 : S800x4096.Iotas .tc 32 [1]
  broadcasts_S800x1_S800x4096 : S800x1.Broadcasts S800x4096
  natLt_1_32 : 1 < 32
  inb_S1x800x259_S1x800x128_0_0_0 : ∀ a, (![0, 0, 0] : Fin 3 → Nat) a + S1x800x128.size a ≤ S1x800x259.size a
  shapeCasts_S800x128_S1x800x128 : S800x128.ShapeCasts S1x800x128
  inb_S1x800x259_S1x800x128_0_0_128 : ∀ a, (![0, 0, 128] : Fin 3 → Nat) a + S1x800x128.size a ≤ S1x800x259.size a
  inb_S1x800x259_S1x800x3_0_0_256 : ∀ a, (![0, 0, 256] : Fin 3 → Nat) a + S1x800x3.size a ≤ S1x800x259.size a
  h_S1x800x3 : 0 < S1x800x3.numel
  shapeCasts_S1x800x3_S800x3 : S1x800x3.ShapeCasts S800x3
  shapeCasts_S800x3_S1x800x3 : S800x3.ShapeCasts S1x800x3
  inb_S1x800x3_S1x800x3_0_0_0 : ∀ a, (![0, 0, 0] : Fin 3 → Nat) a + S1x800x3.size a ≤ S1x800x3.size a
  dot_S800x128_S128x3_S800x3_1_0_0_1_n_n_wf : DotDims.WF S800x128 S128x3 S800x3 [1] [0] [0] [1] [] []
  dot_S800x4096_S4096x128_S800x128_1_0_0_1_n_n_wf : DotDims.WF S800x4096 S4096x128 S800x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x800x128.size a ≤ S4x40000x128.size a
  hwx0_0 : ∀ i : grid0.Coords, EltTy.bits .f32 = 32 ∨ (Rect.block (s := S4x40000x128) S1x800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S4x4096x128.size a
  hwx0_2 : ∀ i : grid0.Coords, EltTy.bits .bf16 = 32 ∨ (Rect.block (s := S4x4096x128) S1x4096x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x800x259.size a ≤ S4x40000x259.size a
  hwx0_3 : ∀ i : grid0.Coords, EltTy.bits .f32 = 32 ∨ (Rect.block (s := S4x40000x259) S1x800x259.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x800x3.size a ≤ S4x40000x3.size a
  hwx0_4 : ∀ i : grid0.Coords, EltTy.bits .f32 = 32 ∨ (Rect.block (s := S4x40000x3) S1x800x3.size (cc0_transform_4 i) (hinb0_4 i)).WholeWords (EltTy.packing .f32)

variable [Facts₀]

def dot_S800x128_S128x3_S800x3_1_0_0_1_n_n : DotDims S800x128 S128x3 S800x3 where
  lhsContracting := [1]
  rhsContracting := [0]
  lhsNonContracting := [0]
  rhsNonContracting := [1]
  lhsBatch := []
  rhsBatch := []
  wf := dot_S800x128_S128x3_S800x3_1_0_0_1_n_n_wf
def dot_S800x4096_S4096x128_S800x128_1_0_0_1_n_n : DotDims S800x4096 S4096x128 S800x128 where
  lhsContracting := [1]
  rhsContracting := [0]
  lhsNonContracting := [0]
  rhsNonContracting := [1]
  lhsBatch := []
  rhsBatch := []
  wf := dot_S800x4096_S4096x128_S800x128_1_0_0_1_n_n_wf

abbrev win0_0 : Pipeline.Window sig grid0 :=
  Pipeline.Window.ofSpec (Memref.whole main_arg0) S1x800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x800x259.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x800x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x40000x128 : Shape := ⟨3, ![4, 40000, 128]⟩
abbrev S2x320000 : Shape := ⟨2, ![2, 320000]⟩
abbrev S4x128x16x16x16 : Shape := ⟨5, ![4, 128, 16, 16, 16]⟩
abbrev S128x3 : Shape := ⟨2, ![128, 3]⟩
abbrev S4x40000x3 : Shape := ⟨3, ![4, 40000, 3]⟩
abbrev S_ : Shape := ⟨0, ![]⟩
abbrev S4x40000x1 : Shape := ⟨3, ![4, 40000, 1]⟩
abbrev S4x40000 : Shape := ⟨2, ![4, 40000]⟩
abbrev S4x128x4096 : Shape := ⟨3, ![4, 128, 4096]⟩
abbrev S4x1x40000 : Shape := ⟨3, ![4, 1, 40000]⟩
abbrev S1 : Shape := ⟨1, ![1]⟩
abbrev S1x1x1 : Shape := ⟨3, ![1, 1, 1]⟩
abbrev S4x128x40000 : Shape := ⟨3, ![4, 128, 40000]⟩
abbrev S4x40000x259 : Shape := ⟨3, ![4, 40000, 259]⟩

abbrev nBuf : Space → Nat
  | .hbm => 796
  | .vmem => 0
  | .smem => 0
  | _ => 0

abbrev hbmTy0_0 (i : Nat) : BufTy := match i % 128 with
  | 0 => ⟨S4x40000x128, .f32⟩
  | 1 => ⟨S2x320000, .i32⟩
  | 2 => ⟨S4x128x16x16x16, .f32⟩
  | 3 => ⟨S128x3, .f32⟩
  | 4 => ⟨S4x40000x3, .f32⟩
  | 5 => ⟨S_, .f32⟩
  | 6 => ⟨S4x40000x3, .f32⟩
  | 7 => ⟨S4x40000x3, .f32⟩
  | 8 => ⟨S_, .f32⟩
  | 9 => ⟨S4x40000x3, .f32⟩
  | 10 => ⟨S4x40000x3, .f32⟩
  | 11 => ⟨S4x40000x1, .f32⟩
  | 12 => ⟨S4x40000, .f32⟩
  | 13 => ⟨S_, .f32⟩
  | 14 => ⟨S4x40000, .f32⟩
  | 15 => ⟨S4x40000, .f32⟩
  | 16 => ⟨S_, .f32⟩
  | 17 => ⟨S4x40000, .f32⟩
  | 18 => ⟨S4x40000, .f32⟩
  | 19 => ⟨S_, .f32⟩
  | 20 => ⟨S4x40000, .f32⟩
  | 21 => ⟨S4x40000, .f32⟩
  | 22 => ⟨S4x40000x1, .f32⟩
  | 23 => ⟨S4x40000, .f32⟩
  | 24 => ⟨S_, .f32⟩
  | 25 => ⟨S4x40000, .f32⟩
  | 26 => ⟨S4x40000, .f32⟩
  | 27 => ⟨S_, .f32⟩
  | 28 => ⟨S4x40000, .f32⟩
  | 29 => ⟨S4x40000, .f32⟩
  | 30 => ⟨S_, .f32⟩
  | 31 => ⟨S4x40000, .f32⟩
  | 32 => ⟨S4x40000, .f32⟩
  | 33 => ⟨S4x40000x1, .f32⟩
  | 34 => ⟨S4x40000, .f32⟩
  | 35 => ⟨S_, .f32⟩
  | 36 => ⟨S4x40000, .f32⟩
  | 37 => ⟨S4x40000, .f32⟩
  | 38 => ⟨S_, .f32⟩
  | 39 => ⟨S4x40000, .f32⟩
  | 40 => ⟨S4x40000, .f32⟩
  | 41 => ⟨S_, .f32⟩
  | 42 => ⟨S4x40000, .f32⟩
  | 43 => ⟨S4x40000, .f32⟩
  | 44 => ⟨S4x40000, .f32⟩
  | 45 => ⟨S4x40000, .f32⟩
  | 46 => ⟨S4x40000, .f32⟩
  | 47 => ⟨S4x40000, .f32⟩
  | 48 => ⟨S4x40000, .f32⟩
  | 49 => ⟨S4x40000, .f32⟩
  | 50 => ⟨S4x40000, .i32⟩
  | 51 => ⟨S4x40000, .i32⟩
  | 52 => ⟨S4x40000, .i32⟩
  | 53 => ⟨S_, .i32⟩
  | 54 => ⟨S4x40000, .i32⟩
  | 55 => ⟨S4x40000, .i32⟩
  | 56 => ⟨S_, .i32⟩
  | 57 => ⟨S4x40000, .i32⟩
  | 58 => ⟨S4x40000, .i32⟩
  | 59 => ⟨S_, .i32⟩
  | 60 => ⟨S4x40000, .i32⟩
  | 61 => ⟨S4x40000, .i32⟩
  | 62 => ⟨S4x128x4096, .f32⟩
  | 63 => ⟨S_, .f32⟩
  | 64 => ⟨S4x40000, .f32⟩
  | 65 => ⟨S4x40000, .f32⟩
  | 66 => ⟨S_, .f32⟩
  | 67 => ⟨S4x40000, .f32⟩
  | 68 => ⟨S4x40000, .f32⟩
  | 69 => ⟨S4x40000, .f32⟩
  | 70 => ⟨S_, .f32⟩
  | 71 => ⟨S4x40000, .f32⟩
  | 72 => ⟨S4x40000, .f32⟩
  | 73 => ⟨S4x40000, .f32⟩
  | 74 => ⟨S_, .i32⟩
  | 75 => ⟨S4x40000, .i32⟩
  | 76 => ⟨S4x40000, .i1⟩
  | 77 => ⟨S_, .i32⟩
  | 78 => ⟨S4x40000, .i32⟩
  | 79 => ⟨S4x40000, .i1⟩
  | 80 => ⟨S4x40000, .i1⟩
  | 81 => ⟨S_, .i32⟩
  | 82 => ⟨S4x40000, .i32⟩
  | 83 => ⟨S4x40000, .i1⟩
  | 84 => ⟨S4x40000, .i1⟩
  | 85 => ⟨S_, .i32⟩
  | 86 => ⟨S4x40000, .i32⟩
  | 87 => ⟨S4x40000, .i1⟩
  | 88 => ⟨S4x40000, .i1⟩
  | 89 => ⟨S_, .i32⟩
  | 90 => ⟨S4x40000, .i32⟩
  | 91 => ⟨S4x40000, .i1⟩
  | 92 => ⟨S4x40000, .i1⟩
  | 93 => ⟨S_, .i32⟩
  | 94 => ⟨S4x40000, .i32⟩
  | 95 => ⟨S4x40000, .i1⟩
  | 96 => ⟨S4x40000, .i1⟩
  | 97 => ⟨S_, .i32⟩
  | 98 => ⟨S_, .i32⟩
  | 99 => ⟨S_, .i32⟩
  | 100 => ⟨S4x40000, .i32⟩
  | 101 => ⟨S4x40000, .i32⟩
  | 102 => ⟨S_, .i32⟩
  | 103 => ⟨S4x40000, .i32⟩
  | 104 => ⟨S4x40000, .i32⟩
  | 105 => ⟨S_, .i32⟩
  | 106 => ⟨S4x40000, .i32⟩
  | 107 => ⟨S4x40000, .i32⟩
  | 108 => ⟨S_, .i32⟩
  | 109 => ⟨S_, .i32⟩
  | 110 => ⟨S_, .i32⟩
  | 111 => ⟨S4x40000, .i32⟩
  | 112 => ⟨S4x40000, .i32⟩
  | 113 => ⟨S_, .i32⟩
  | 114 => ⟨S4x40000, .i32⟩
  | 115 => ⟨S4x40000, .i32⟩
  | 116 => ⟨S4x40000, .i32⟩
  | 117 => ⟨S_, .i32⟩
  | 118 => ⟨S4x40000, .i32⟩
  | 119 => ⟨S4x40000, .i32⟩
  | 120 => ⟨S_, .i32⟩
  | 121 => ⟨S_, .i32⟩
  | 122 => ⟨S_, .i32⟩
  | 123 => ⟨S4x40000, .i32⟩
  | 124 => ⟨S4x40000, .i32⟩
  | 125 => ⟨S_, .i32⟩
  | 126 => ⟨S4x40000, .i32⟩
  | 127 => ⟨S4x40000, .i32⟩
  | _ => ⟨S4x40000x128, .f32⟩

abbrev hbmTy0_1 (i : Nat) : BufTy := match i % 128 with
  | 0 => ⟨S4x40000, .i32⟩
  | 1 => ⟨S4x1x40000, .i32⟩
  | 2 => ⟨S_, .i32⟩
  | 3 => ⟨S4x1x40000, .i32⟩
  | 4 => ⟨S4x1x40000, .i1⟩
  | 5 => ⟨S_, .i32⟩
  | 6 => ⟨S4x1x40000, .i32⟩
  | 7 => ⟨S4x1x40000, .i32⟩
  | 8 => ⟨S4x1x40000, .i32⟩
  | 9 => ⟨S4x40000x1, .i32⟩
  | 10 => ⟨S1, .i32⟩
  | 11 => ⟨S_, .i32⟩
  | 12 => ⟨S4x40000x1, .i32⟩
  | 13 => ⟨S4x40000x1, .i1⟩
  | 14 => ⟨S1x1x1, .i32⟩
  | 15 => ⟨S4x40000x1, .i32⟩
  | 16 => ⟨S4x40000x1, .i1⟩
  | 17 => ⟨S4x40000x1, .i1⟩
  | 18 => ⟨S_, .i1⟩
  | 19 => ⟨S4x40000, .i1⟩
  | 20 => ⟨S4x128x40000, .f32⟩
  | 21 => ⟨S4x128x40000, .i1⟩
  | 22 => ⟨S_, .f32⟩
  | 23 => ⟨S4x128x40000, .f32⟩
  | 24 => ⟨S4x128x40000, .f32⟩
  | 25 => ⟨S4x40000, .f32⟩
  | 26 => ⟨S4x40000, .f32⟩
  | 27 => ⟨S4x1x40000, .f32⟩
  | 28 => ⟨S4x128x40000, .f32⟩
  | 29 => ⟨S4x128x40000, .f32⟩
  | 30 => ⟨S_, .f32⟩
  | 31 => ⟨S4x40000, .f32⟩
  | 32 => ⟨S4x40000, .f32⟩
  | 33 => ⟨S4x40000, .f32⟩
  | 34 => ⟨S_, .f32⟩
  | 35 => ⟨S4x40000, .f32⟩
  | 36 => ⟨S4x40000, .f32⟩
  | 37 => ⟨S4x40000, .f32⟩
  | 38 => ⟨S_, .i32⟩
  | 39 => ⟨S4x40000, .i32⟩
  | 40 => ⟨S4x40000, .i1⟩
  | 41 => ⟨S_, .i32⟩
  | 42 => ⟨S4x40000, .i32⟩
  | 43 => ⟨S4x40000, .i1⟩
  | 44 => ⟨S4x40000, .i1⟩
  | 45 => ⟨S_, .i32⟩
  | 46 => ⟨S4x40000, .i32⟩
  | 47 => ⟨S4x40000, .i1⟩
  | 48 => ⟨S4x40000, .i1⟩
  | 49 => ⟨S_, .i32⟩
  | 50 => ⟨S4x40000, .i32⟩
  | 51 => ⟨S4x40000, .i1⟩
  | 52 => ⟨S4x40000, .i1⟩
  | 53 => ⟨S_, .i32⟩
  | 54 => ⟨S4x40000, .i32⟩
  | 55 => ⟨S4x40000, .i1⟩
  | 56 => ⟨S4x40000, .i1⟩
  | 57 => ⟨S_, .i32⟩
  | 58 => ⟨S4x40000, .i32⟩
  | 59 => ⟨S4x40000, .i1⟩
  | 60 => ⟨S4x40000, .i1⟩
  | 61 => ⟨S_, .i32⟩
  | 62 => ⟨S_, .i32⟩
  | 63 => ⟨S_, .i32⟩
  | 64 => ⟨S4x40000, .i32⟩
  | 65 => ⟨S4x40000, .i32⟩
  | 66 => ⟨S_, .i32⟩
  | 67 => ⟨S4x40000, .i32⟩
  | 68 => ⟨S4x40000, .i32⟩
  | 69 => ⟨S_, .i32⟩
  | 70 => ⟨S4x40000, .i32⟩
  | 71 => ⟨S4x40000, .i32⟩
  | 72 => ⟨S_, .i32⟩
  | 73 => ⟨S_, .i32⟩
  | 74 => ⟨S_, .i32⟩
  | 75 => ⟨S4x40000, .i32⟩
  | 76 => ⟨S4x40000, .i32⟩
  | 77 => ⟨S_, .i32⟩
  | 78 => ⟨S4x40000, .i32⟩
  | 79 => ⟨S4x40000, .i32⟩
  | 80 => ⟨S4x40000, .i32⟩
  | 81 => ⟨S_, .i32⟩
  | 82 => ⟨S4x40000, .i32⟩
  | 83 => ⟨S4x40000, .i32⟩
  | 84 => ⟨S_, .i32⟩
  | 85 => ⟨S_, .i32⟩
  | 86 => ⟨S_, .i32⟩
  | 87 => ⟨S4x40000, .i32⟩
  | 88 => ⟨S4x40000, .i32⟩
  | 89 => ⟨S_, .i32⟩
  | 90 => ⟨S4x40000, .i32⟩
  | 91 => ⟨S4x40000, .i32⟩
  | 92 => ⟨S4x40000, .i32⟩
  | 93 => ⟨S4x1x40000, .i32⟩
  | 94 => ⟨S_, .i32⟩
  | 95 => ⟨S4x1x40000, .i32⟩
  | 96 => ⟨S4x1x40000, .i1⟩
  | 97 => ⟨S_, .i32⟩
  | 98 => ⟨S4x1x40000, .i32⟩
  | 99 => ⟨S4x1x40000, .i32⟩
  | 100 => ⟨S4x1x40000, .i32⟩
  | 101 => ⟨S4x40000x1, .i32⟩
  | 102 => ⟨S1, .i32⟩
  | 103 => ⟨S_, .i32⟩
  | 104 => ⟨S4x40000x1, .i32⟩
  | 105 => ⟨S4x40000x1, .i1⟩
  | 106 => ⟨S1x1x1, .i32⟩
  | 107 => ⟨S4x40000x1, .i32⟩
  | 108 => ⟨S4x40000x1, .i1⟩
  | 109 => ⟨S4x40000x1, .i1⟩
  | 110 => ⟨S_, .i1⟩
  | 111 => ⟨S4x40000, .i1⟩
  | 112 => ⟨S4x128x40000, .f32⟩
  | 113 => ⟨S4x128x40000, .i1⟩
  | 114 => ⟨S_, .f32⟩
  | 115 => ⟨S4x128x40000, .f32⟩
  | 116 => ⟨S4x128x40000, .f32⟩
  | 117 => ⟨S4x40000, .f32⟩
  | 118 => ⟨S4x40000, .f32⟩
  | 119 => ⟨S4x1x40000, .f32⟩
  | 120 => ⟨S4x128x40000, .f32⟩
  | 121 => ⟨S4x128x40000, .f32⟩
  | 122 => ⟨S4x128x40000, .f32⟩
  | 123 => ⟨S_, .f32⟩
  | 124 => ⟨S4x40000, .f32⟩
  | 125 => ⟨S4x40000, .f32⟩
  | 126 => ⟨S4x40000, .f32⟩
  | 127 => ⟨S_, .f32⟩
  | _ => ⟨S4x40000x128, .f32⟩

abbrev hbmTy0_2 (i : Nat) : BufTy := match i % 128 with
  | 0 => ⟨S4x40000, .f32⟩
  | 1 => ⟨S4x40000, .f32⟩
  | 2 => ⟨S4x40000, .f32⟩
  | 3 => ⟨S_, .i32⟩
  | 4 => ⟨S4x40000, .i32⟩
  | 5 => ⟨S4x40000, .i1⟩
  | 6 => ⟨S_, .i32⟩
  | 7 => ⟨S4x40000, .i32⟩
  | 8 => ⟨S4x40000, .i1⟩
  | 9 => ⟨S4x40000, .i1⟩
  | 10 => ⟨S_, .i32⟩
  | 11 => ⟨S4x40000, .i32⟩
  | 12 => ⟨S4x40000, .i1⟩
  | 13 => ⟨S4x40000, .i1⟩
  | 14 => ⟨S_, .i32⟩
  | 15 => ⟨S4x40000, .i32⟩
  | 16 => ⟨S4x40000, .i1⟩
  | 17 => ⟨S4x40000, .i1⟩
  | 18 => ⟨S_, .i32⟩
  | 19 => ⟨S4x40000, .i32⟩
  | 20 => ⟨S4x40000, .i1⟩
  | 21 => ⟨S4x40000, .i1⟩
  | 22 => ⟨S_, .i32⟩
  | 23 => ⟨S4x40000, .i32⟩
  | 24 => ⟨S4x40000, .i1⟩
  | 25 => ⟨S4x40000, .i1⟩
  | 26 => ⟨S_, .i32⟩
  | 27 => ⟨S_, .i32⟩
  | 28 => ⟨S_, .i32⟩
  | 29 => ⟨S4x40000, .i32⟩
  | 30 => ⟨S4x40000, .i32⟩
  | 31 => ⟨S_, .i32⟩
  | 32 => ⟨S4x40000, .i32⟩
  | 33 => ⟨S4x40000, .i32⟩
  | 34 => ⟨S_, .i32⟩
  | 35 => ⟨S4x40000, .i32⟩
  | 36 => ⟨S4x40000, .i32⟩
  | 37 => ⟨S_, .i32⟩
  | 38 => ⟨S_, .i32⟩
  | 39 => ⟨S_, .i32⟩
  | 40 => ⟨S4x40000, .i32⟩
  | 41 => ⟨S4x40000, .i32⟩
  | 42 => ⟨S_, .i32⟩
  | 43 => ⟨S4x40000, .i32⟩
  | 44 => ⟨S4x40000, .i32⟩
  | 45 => ⟨S4x40000, .i32⟩
  | 46 => ⟨S_, .i32⟩
  | 47 => ⟨S4x40000, .i32⟩
  | 48 => ⟨S4x40000, .i32⟩
  | 49 => ⟨S_, .i32⟩
  | 50 => ⟨S_, .i32⟩
  | 51 => ⟨S_, .i32⟩
  | 52 => ⟨S4x40000, .i32⟩
  | 53 => ⟨S4x40000, .i32⟩
  | 54 => ⟨S_, .i32⟩
  | 55 => ⟨S4x40000, .i32⟩
  | 56 => ⟨S4x40000, .i32⟩
  | 57 => ⟨S4x40000, .i32⟩
  | 58 => ⟨S4x1x40000, .i32⟩
  | 59 => ⟨S_, .i32⟩
  | 60 => ⟨S4x1x40000, .i32⟩
  | 61 => ⟨S4x1x40000, .i1⟩
  | 62 => ⟨S_, .i32⟩
  | 63 => ⟨S4x1x40000, .i32⟩
  | 64 => ⟨S4x1x40000, .i32⟩
  | 65 => ⟨S4x1x40000, .i32⟩
  | 66 => ⟨S4x40000x1, .i32⟩
  | 67 => ⟨S1, .i32⟩
  | 68 => ⟨S_, .i32⟩
  | 69 => ⟨S4x40000x1, .i32⟩
  | 70 => ⟨S4x40000x1, .i1⟩
  | 71 => ⟨S1x1x1, .i32⟩
  | 72 => ⟨S4x40000x1, .i32⟩
  | 73 => ⟨S4x40000x1, .i1⟩
  | 74 => ⟨S4x40000x1, .i1⟩
  | 75 => ⟨S_, .i1⟩
  | 76 => ⟨S4x40000, .i1⟩
  | 77 => ⟨S4x128x40000, .f32⟩
  | 78 => ⟨S4x128x40000, .i1⟩
  | 79 => ⟨S_, .f32⟩
  | 80 => ⟨S4x128x40000, .f32⟩
  | 81 => ⟨S4x128x40000, .f32⟩
  | 82 => ⟨S4x40000, .f32⟩
  | 83 => ⟨S4x40000, .f32⟩
  | 84 => ⟨S4x1x40000, .f32⟩
  | 85 => ⟨S4x128x40000, .f32⟩
  | 86 => ⟨S4x128x40000, .f32⟩
  | 87 => ⟨S4x128x40000, .f32⟩
  | 88 => ⟨S4x40000, .f32⟩
  | 89 => ⟨S_, .f32⟩
  | 90 => ⟨S4x40000, .f32⟩
  | 91 => ⟨S4x40000, .f32⟩
  | 92 => ⟨S4x40000, .f32⟩
  | 93 => ⟨S_, .i32⟩
  | 94 => ⟨S4x40000, .i32⟩
  | 95 => ⟨S4x40000, .i1⟩
  | 96 => ⟨S_, .i32⟩
  | 97 => ⟨S4x40000, .i32⟩
  | 98 => ⟨S4x40000, .i1⟩
  | 99 => ⟨S4x40000, .i1⟩
  | 100 => ⟨S_, .i32⟩
  | 101 => ⟨S4x40000, .i32⟩
  | 102 => ⟨S4x40000, .i1⟩
  | 103 => ⟨S4x40000, .i1⟩
  | 104 => ⟨S_, .i32⟩
  | 105 => ⟨S4x40000, .i32⟩
  | 106 => ⟨S4x40000, .i1⟩
  | 107 => ⟨S4x40000, .i1⟩
  | 108 => ⟨S_, .i32⟩
  | 109 => ⟨S4x40000, .i32⟩
  | 110 => ⟨S4x40000, .i1⟩
  | 111 => ⟨S4x40000, .i1⟩
  | 112 => ⟨S_, .i32⟩
  | 113 => ⟨S4x40000, .i32⟩
  | 114 => ⟨S4x40000, .i1⟩
  | 115 => ⟨S4x40000, .i1⟩
  | 116 => ⟨S_, .i32⟩
  | 117 => ⟨S_, .i32⟩
  | 118 => ⟨S_, .i32⟩
  | 119 => ⟨S4x40000, .i32⟩
  | 120 => ⟨S4x40000, .i32⟩
  | 121 => ⟨S_, .i32⟩
  | 122 => ⟨S4x40000, .i32⟩
  | 123 => ⟨S4x40000, .i32⟩
  | 124 => ⟨S_, .i32⟩
  | 125 => ⟨S4x40000, .i32⟩
  | 126 => ⟨S4x40000, .i32⟩
  | 127 => ⟨S_, .i32⟩
  | _ => ⟨S4x40000x128, .f32⟩

abbrev hbmTy0_3 (i : Nat) : BufTy := match i % 128 with
  | 0 => ⟨S_, .i32⟩
  | 1 => ⟨S_, .i32⟩
  | 2 => ⟨S4x40000, .i32⟩
  | 3 => ⟨S4x40000, .i32⟩
  | 4 => ⟨S_, .i32⟩
  | 5 => ⟨S4x40000, .i32⟩
  | 6 => ⟨S4x40000, .i32⟩
  | 7 => ⟨S4x40000, .i32⟩
  | 8 => ⟨S_, .i32⟩
  | 9 => ⟨S4x40000, .i32⟩
  | 10 => ⟨S4x40000, .i32⟩
  | 11 => ⟨S_, .i32⟩
  | 12 => ⟨S_, .i32⟩
  | 13 => ⟨S_, .i32⟩
  | 14 => ⟨S4x40000, .i32⟩
  | 15 => ⟨S4x40000, .i32⟩
  | 16 => ⟨S_, .i32⟩
  | 17 => ⟨S4x40000, .i32⟩
  | 18 => ⟨S4x40000, .i32⟩
  | 19 => ⟨S4x40000, .i32⟩
  | 20 => ⟨S4x1x40000, .i32⟩
  | 21 => ⟨S_, .i32⟩
  | 22 => ⟨S4x1x40000, .i32⟩
  | 23 => ⟨S4x1x40000, .i1⟩
  | 24 => ⟨S_, .i32⟩
  | 25 => ⟨S4x1x40000, .i32⟩
  | 26 => ⟨S4x1x40000, .i32⟩
  | 27 => ⟨S4x1x40000, .i32⟩
  | 28 => ⟨S4x40000x1, .i32⟩
  | 29 => ⟨S1, .i32⟩
  | 30 => ⟨S_, .i32⟩
  | 31 => ⟨S4x40000x1, .i32⟩
  | 32 => ⟨S4x40000x1, .i1⟩
  | 33 => ⟨S1x1x1, .i32⟩
  | 34 => ⟨S4x40000x1, .i32⟩
  | 35 => ⟨S4x40000x1, .i1⟩
  | 36 => ⟨S4x40000x1, .i1⟩
  | 37 => ⟨S_, .i1⟩
  | 38 => ⟨S4x40000, .i1⟩
  | 39 => ⟨S4x128x40000, .f32⟩
  | 40 => ⟨S4x128x40000, .i1⟩
  | 41 => ⟨S_, .f32⟩
  | 42 => ⟨S4x128x40000, .f32⟩
  | 43 => ⟨S4x128x40000, .f32⟩
  | 44 => ⟨S4x40000, .f32⟩
  | 45 => ⟨S4x40000, .f32⟩
  | 46 => ⟨S4x1x40000, .f32⟩
  | 47 => ⟨S4x128x40000, .f32⟩
  | 48 => ⟨S4x128x40000, .f32⟩
  | 49 => ⟨S4x128x40000, .f32⟩
  | 50 => ⟨S_, .f32⟩
  | 51 => ⟨S4x40000, .f32⟩
  | 52 => ⟨S4x40000, .f32⟩
  | 53 => ⟨S_, .f32⟩
  | 54 => ⟨S4x40000, .f32⟩
  | 55 => ⟨S4x40000, .f32⟩
  | 56 => ⟨S4x40000, .f32⟩
  | 57 => ⟨S4x40000, .f32⟩
  | 58 => ⟨S_, .i32⟩
  | 59 => ⟨S4x40000, .i32⟩
  | 60 => ⟨S4x40000, .i1⟩
  | 61 => ⟨S_, .i32⟩
  | 62 => ⟨S4x40000, .i32⟩
  | 63 => ⟨S4x40000, .i1⟩
  | 64 => ⟨S4x40000, .i1⟩
  | 65 => ⟨S_, .i32⟩
  | 66 => ⟨S4x40000, .i32⟩
  | 67 => ⟨S4x40000, .i1⟩
  | 68 => ⟨S4x40000, .i1⟩
  | 69 => ⟨S_, .i32⟩
  | 70 => ⟨S4x40000, .i32⟩
  | 71 => ⟨S4x40000, .i1⟩
  | 72 => ⟨S4x40000, .i1⟩
  | 73 => ⟨S_, .i32⟩
  | 74 => ⟨S4x40000, .i32⟩
  | 75 => ⟨S4x40000, .i1⟩
  | 76 => ⟨S4x40000, .i1⟩
  | 77 => ⟨S_, .i32⟩
  | 78 => ⟨S4x40000, .i32⟩
  | 79 => ⟨S4x40000, .i1⟩
  | 80 => ⟨S4x40000, .i1⟩
  | 81 => ⟨S_, .i32⟩
  | 82 => ⟨S_, .i32⟩
  | 83 => ⟨S_, .i32⟩
  | 84 => ⟨S4x40000, .i32⟩
  | 85 => ⟨S4x40000, .i32⟩
  | 86 => ⟨S_, .i32⟩
  | 87 => ⟨S4x40000, .i32⟩
  | 88 => ⟨S4x40000, .i32⟩
  | 89 => ⟨S_, .i32⟩
  | 90 => ⟨S4x40000, .i32⟩
  | 91 => ⟨S4x40000, .i32⟩
  | 92 => ⟨S_, .i32⟩
  | 93 => ⟨S_, .i32⟩
  | 94 => ⟨S_, .i32⟩
  | 95 => ⟨S4x40000, .i32⟩
  | 96 => ⟨S4x40000, .i32⟩
  | 97 => ⟨S_, .i32⟩
  | 98 => ⟨S4x40000, .i32⟩
  | 99 => ⟨S4x40000, .i32⟩
  | 100 => ⟨S4x40000, .i32⟩
  | 101 => ⟨S_, .i32⟩
  | 102 => ⟨S4x40000, .i32⟩
  | 103 => ⟨S4x40000, .i32⟩
  | 104 => ⟨S_, .i32⟩
  | 105 => ⟨S_, .i32⟩
  | 106 => ⟨S_, .i32⟩
  | 107 => ⟨S4x40000, .i32⟩
  | 108 => ⟨S4x40000, .i32⟩
  | 109 => ⟨S_, .i32⟩
  | 110 => ⟨S4x40000, .i32⟩
  | 111 => ⟨S4x40000, .i32⟩
  | 112 => ⟨S4x40000, .i32⟩
  | 113 => ⟨S4x1x40000, .i32⟩
  | 114 => ⟨S_, .i32⟩
  | 115 => ⟨S4x1x40000, .i32⟩
  | 116 => ⟨S4x1x40000, .i1⟩
  | 117 => ⟨S_, .i32⟩
  | 118 => ⟨S4x1x40000, .i32⟩
  | 119 => ⟨S4x1x40000, .i32⟩
  | 120 => ⟨S4x1x40000, .i32⟩
  | 121 => ⟨S4x40000x1, .i32⟩
  | 122 => ⟨S1, .i32⟩
  | 123 => ⟨S_, .i32⟩
  | 124 => ⟨S4x40000x1, .i32⟩
  | 125 => ⟨S4x40000x1, .i1⟩
  | 126 => ⟨S1x1x1, .i32⟩
  | 127 => ⟨S4x40000x1, .i32⟩
  | _ => ⟨S4x40000x128, .f32⟩

abbrev hbmTy0_4 (i : Nat) : BufTy := match i % 128 with
  | 0 => ⟨S4x40000x1, .i1⟩
  | 1 => ⟨S4x40000x1, .i1⟩
  | 2 => ⟨S_, .i1⟩
  | 3 => ⟨S4x40000, .i1⟩
  | 4 => ⟨S4x128x40000, .f32⟩
  | 5 => ⟨S4x128x40000, .i1⟩
  | 6 => ⟨S_, .f32⟩
  | 7 => ⟨S4x128x40000, .f32⟩
  | 8 => ⟨S4x128x40000, .f32⟩
  | 9 => ⟨S4x40000, .f32⟩
  | 10 => ⟨S4x40000, .f32⟩
  | 11 => ⟨S4x1x40000, .f32⟩
  | 12 => ⟨S4x128x40000, .f32⟩
  | 13 => ⟨S4x128x40000, .f32⟩
  | 14 => ⟨S4x128x40000, .f32⟩
  | 15 => ⟨S_, .f32⟩
  | 16 => ⟨S4x40000, .f32⟩
  | 17 => ⟨S4x40000, .f32⟩
  | 18 => ⟨S4x40000, .f32⟩
  | 19 => ⟨S4x40000, .f32⟩
  | 20 => ⟨S_, .i32⟩
  | 21 => ⟨S4x40000, .i32⟩
  | 22 => ⟨S4x40000, .i1⟩
  | 23 => ⟨S_, .i32⟩
  | 24 => ⟨S4x40000, .i32⟩
  | 25 => ⟨S4x40000, .i1⟩
  | 26 => ⟨S4x40000, .i1⟩
  | 27 => ⟨S_, .i32⟩
  | 28 => ⟨S4x40000, .i32⟩
  | 29 => ⟨S4x40000, .i1⟩
  | 30 => ⟨S4x40000, .i1⟩
  | 31 => ⟨S_, .i32⟩
  | 32 => ⟨S4x40000, .i32⟩
  | 33 => ⟨S4x40000, .i1⟩
  | 34 => ⟨S4x40000, .i1⟩
  | 35 => ⟨S_, .i32⟩
  | 36 => ⟨S4x40000, .i32⟩
  | 37 => ⟨S4x40000, .i1⟩
  | 38 => ⟨S4x40000, .i1⟩
  | 39 => ⟨S_, .i32⟩
  | 40 => ⟨S4x40000, .i32⟩
  | 41 => ⟨S4x40000, .i1⟩
  | 42 => ⟨S4x40000, .i1⟩
  | 43 => ⟨S_, .i32⟩
  | 44 => ⟨S_, .i32⟩
  | 45 => ⟨S_, .i32⟩
  | 46 => ⟨S4x40000, .i32⟩
  | 47 => ⟨S4x40000, .i32⟩
  | 48 => ⟨S_, .i32⟩
  | 49 => ⟨S4x40000, .i32⟩
  | 50 => ⟨S4x40000, .i32⟩
  | 51 => ⟨S_, .i32⟩
  | 52 => ⟨S4x40000, .i32⟩
  | 53 => ⟨S4x40000, .i32⟩
  | 54 => ⟨S_, .i32⟩
  | 55 => ⟨S_, .i32⟩
  | 56 => ⟨S_, .i32⟩
  | 57 => ⟨S4x40000, .i32⟩
  | 58 => ⟨S4x40000, .i32⟩
  | 59 => ⟨S_, .i32⟩
  | 60 => ⟨S4x40000, .i32⟩
  | 61 => ⟨S4x40000, .i32⟩
  | 62 => ⟨S4x40000, .i32⟩
  | 63 => ⟨S_, .i32⟩
  | 64 => ⟨S4x40000, .i32⟩
  | 65 => ⟨S4x40000, .i32⟩
  | 66 => ⟨S_, .i32⟩
  | 67 => ⟨S_, .i32⟩
  | 68 => ⟨S_, .i32⟩
  | 69 => ⟨S4x40000, .i32⟩
  | 70 => ⟨S4x40000, .i32⟩
  | 71 => ⟨S_, .i32⟩
  | 72 => ⟨S4x40000, .i32⟩
  | 73 => ⟨S4x40000, .i32⟩
  | 74 => ⟨S4x40000, .i32⟩
  | 75 => ⟨S4x1x40000, .i32⟩
  | 76 => ⟨S_, .i32⟩
  | 77 => ⟨S4x1x40000, .i32⟩
  | 78 => ⟨S4x1x40000, .i1⟩
  | 79 => ⟨S_, .i32⟩
  | 80 => ⟨S4x1x40000, .i32⟩
  | 81 => ⟨S4x1x40000, .i32⟩
  | 82 => ⟨S4x1x40000, .i32⟩
  | 83 => ⟨S4x40000x1, .i32⟩
  | 84 => ⟨S1, .i32⟩
  | 85 => ⟨S_, .i32⟩
  | 86 => ⟨S4x40000x1, .i32⟩
  | 87 => ⟨S4x40000x1, .i1⟩
  | 88 => ⟨S1x1x1, .i32⟩
  | 89 => ⟨S4x40000x1, .i32⟩
  | 90 => ⟨S4x40000x1, .i1⟩
  | 91 => ⟨S4x40000x1, .i1⟩
  | 92 => ⟨S_, .i1⟩
  | 93 => ⟨S4x40000, .i1⟩
  | 94 => ⟨S4x128x40000, .f32⟩
  | 95 => ⟨S4x128x40000, .i1⟩
  | 96 => ⟨S_, .f32⟩
  | 97 => ⟨S4x128x40000, .f32⟩
  | 98 => ⟨S4x128x40000, .f32⟩
  | 99 => ⟨S4x40000, .f32⟩
  | 100 => ⟨S4x40000, .f32⟩
  | 101 => ⟨S4x1x40000, .f32⟩
  | 102 => ⟨S4x128x40000, .f32⟩
  | 103 => ⟨S4x128x40000, .f32⟩
  | 104 => ⟨S4x128x40000, .f32⟩
  | 105 => ⟨S_, .f32⟩
  | 106 => ⟨S4x40000, .f32⟩
  | 107 => ⟨S4x40000, .f32⟩
  | 108 => ⟨S4x40000, .f32⟩
  | 109 => ⟨S4x40000, .f32⟩
  | 110 => ⟨S_, .i32⟩
  | 111 => ⟨S4x40000, .i32⟩
  | 112 => ⟨S4x40000, .i1⟩
  | 113 => ⟨S_, .i32⟩
  | 114 => ⟨S4x40000, .i32⟩
  | 115 => ⟨S4x40000, .i1⟩
  | 116 => ⟨S4x40000, .i1⟩
  | 117 => ⟨S_, .i32⟩
  | 118 => ⟨S4x40000, .i32⟩
  | 119 => ⟨S4x40000, .i1⟩
  | 120 => ⟨S4x40000, .i1⟩
  | 121 => ⟨S_, .i32⟩
  | 122 => ⟨S4x40000, .i32⟩
  | 123 => ⟨S4x40000, .i1⟩
  | 124 => ⟨S4x40000, .i1⟩
  | 125 => ⟨S_, .i32⟩
  | 126 => ⟨S4x40000, .i32⟩
  | 127 => ⟨S4x40000, .i1⟩
  | _ => ⟨S4x40000x128, .f32⟩

abbrev hbmTy0_5 (i : Nat) : BufTy := match i % 128 with
  | 0 => ⟨S4x40000, .i1⟩
  | 1 => ⟨S_, .i32⟩
  | 2 => ⟨S4x40000, .i32⟩
  | 3 => ⟨S4x40000, .i1⟩
  | 4 => ⟨S4x40000, .i1⟩
  | 5 => ⟨S_, .i32⟩
  | 6 => ⟨S_, .i32⟩
  | 7 => ⟨S_, .i32⟩
  | 8 => ⟨S4x40000, .i32⟩
  | 9 => ⟨S4x40000, .i32⟩
  | 10 => ⟨S_, .i32⟩
  | 11 => ⟨S4x40000, .i32⟩
  | 12 => ⟨S4x40000, .i32⟩
  | 13 => ⟨S_, .i32⟩
  | 14 => ⟨S4x40000, .i32⟩
  | 15 => ⟨S4x40000, .i32⟩
  | 16 => ⟨S_, .i32⟩
  | 17 => ⟨S_, .i32⟩
  | 18 => ⟨S_, .i32⟩
  | 19 => ⟨S4x40000, .i32⟩
  | 20 => ⟨S4x40000, .i32⟩
  | 21 => ⟨S_, .i32⟩
  | 22 => ⟨S4x40000, .i32⟩
  | 23 => ⟨S4x40000, .i32⟩
  | 24 => ⟨S4x40000, .i32⟩
  | 25 => ⟨S_, .i32⟩
  | 26 => ⟨S4x40000, .i32⟩
  | 27 => ⟨S4x40000, .i32⟩
  | 28 => ⟨S_, .i32⟩
  | 29 => ⟨S_, .i32⟩
  | 30 => ⟨S_, .i32⟩
  | 31 => ⟨S4x40000, .i32⟩
  | 32 => ⟨S4x40000, .i32⟩
  | 33 => ⟨S_, .i32⟩
  | 34 => ⟨S4x40000, .i32⟩
  | 35 => ⟨S4x40000, .i32⟩
  | 36 => ⟨S4x40000, .i32⟩
  | 37 => ⟨S4x1x40000, .i32⟩
  | 38 => ⟨S_, .i32⟩
  | 39 => ⟨S4x1x40000, .i32⟩
  | 40 => ⟨S4x1x40000, .i1⟩
  | 41 => ⟨S_, .i32⟩
  | 42 => ⟨S4x1x40000, .i32⟩
  | 43 => ⟨S4x1x40000, .i32⟩
  | 44 => ⟨S4x1x40000, .i32⟩
  | 45 => ⟨S4x40000x1, .i32⟩
  | 46 => ⟨S1, .i32⟩
  | 47 => ⟨S_, .i32⟩
  | 48 => ⟨S4x40000x1, .i32⟩
  | 49 => ⟨S4x40000x1, .i1⟩
  | 50 => ⟨S1x1x1, .i32⟩
  | 51 => ⟨S4x40000x1, .i32⟩
  | 52 => ⟨S4x40000x1, .i1⟩
  | 53 => ⟨S4x40000x1, .i1⟩
  | 54 => ⟨S_, .i1⟩
  | 55 => ⟨S4x40000, .i1⟩
  | 56 => ⟨S4x128x40000, .f32⟩
  | 57 => ⟨S4x128x40000, .i1⟩
  | 58 => ⟨S_, .f32⟩
  | 59 => ⟨S4x128x40000, .f32⟩
  | 60 => ⟨S4x128x40000, .f32⟩
  | 61 => ⟨S4x40000, .f32⟩
  | 62 => ⟨S4x40000, .f32⟩
  | 63 => ⟨S4x1x40000, .f32⟩
  | 64 => ⟨S4x128x40000, .f32⟩
  | 65 => ⟨S4x128x40000, .f32⟩
  | 66 => ⟨S4x128x40000, .f32⟩
  | 67 => ⟨S4x40000, .f32⟩
  | 68 => ⟨S4x40000, .f32⟩
  | 69 => ⟨S_, .i32⟩
  | 70 => ⟨S4x40000, .i32⟩
  | 71 => ⟨S4x40000, .i1⟩
  | 72 => ⟨S_, .i32⟩
  | 73 => ⟨S4x40000, .i32⟩
  | 74 => ⟨S4x40000, .i1⟩
  | 75 => ⟨S4x40000, .i1⟩
  | 76 => ⟨S_, .i32⟩
  | 77 => ⟨S4x40000, .i32⟩
  | 78 => ⟨S4x40000, .i1⟩
  | 79 => ⟨S4x40000, .i1⟩
  | 80 => ⟨S_, .i32⟩
  | 81 => ⟨S4x40000, .i32⟩
  | 82 => ⟨S4x40000, .i1⟩
  | 83 => ⟨S4x40000, .i1⟩
  | 84 => ⟨S_, .i32⟩
  | 85 => ⟨S4x40000, .i32⟩
  | 86 => ⟨S4x40000, .i1⟩
  | 87 => ⟨S4x40000, .i1⟩
  | 88 => ⟨S_, .i32⟩
  | 89 => ⟨S4x40000, .i32⟩
  | 90 => ⟨S4x40000, .i1⟩
  | 91 => ⟨S4x40000, .i1⟩
  | 92 => ⟨S_, .i32⟩
  | 93 => ⟨S_, .i32⟩
  | 94 => ⟨S_, .i32⟩
  | 95 => ⟨S4x40000, .i32⟩
  | 96 => ⟨S4x40000, .i32⟩
  | 97 => ⟨S_, .i32⟩
  | 98 => ⟨S4x40000, .i32⟩
  | 99 => ⟨S4x40000, .i32⟩
  | 100 => ⟨S_, .i32⟩
  | 101 => ⟨S4x40000, .i32⟩
  | 102 => ⟨S4x40000, .i32⟩
  | 103 => ⟨S_, .i32⟩
  | 104 => ⟨S_, .i32⟩
  | 105 => ⟨S_, .i32⟩
  | 106 => ⟨S4x40000, .i32⟩
  | 107 => ⟨S4x40000, .i32⟩
  | 108 => ⟨S_, .i32⟩
  | 109 => ⟨S4x40000, .i32⟩
  | 110 => ⟨S4x40000, .i32⟩
  | 111 => ⟨S4x40000, .i32⟩
  | 112 => ⟨S_, .i32⟩
  | 113 => ⟨S4x40000, .i32⟩
  | 114 => ⟨S4x40000, .i32⟩
  | 115 => ⟨S_, .i32⟩
  | 116 => ⟨S_, .i32⟩
  | 117 => ⟨S_, .i32⟩
  | 118 => ⟨S4x40000, .i32⟩
  | 119 => ⟨S4x40000, .i32⟩
  | 120 => ⟨S_, .i32⟩
  | 121 => ⟨S4x40000, .i32⟩
  | 122 => ⟨S4x40000, .i32⟩
  | 123 => ⟨S4x40000, .i32⟩
  | 124 => ⟨S4x1x40000, .i32⟩
  | 125 => ⟨S_, .i32⟩
  | 126 => ⟨S4x1x40000, .i32⟩
  | 127 => ⟨S4x1x40000, .i1⟩
  | _ => ⟨S4x40000x128, .f32⟩

abbrev hbmTy0_6 (i : Nat) : BufTy := match i % 128 with
  | 0 => ⟨S_, .i32⟩
  | 1 => ⟨S4x1x40000, .i32⟩
  | 2 => ⟨S4x1x40000, .i32⟩
  | 3 => ⟨S4x1x40000, .i32⟩
  | 4 => ⟨S4x40000x1, .i32⟩
  | 5 => ⟨S1, .i32⟩
  | 6 => ⟨S_, .i32⟩
  | 7 => ⟨S4x40000x1, .i32⟩
  | 8 => ⟨S4x40000x1, .i1⟩
  | 9 => ⟨S1x1x1, .i32⟩
  | 10 => ⟨S4x40000x1, .i32⟩
  | 11 => ⟨S4x40000x1, .i1⟩
  | 12 => ⟨S4x40000x1, .i1⟩
  | 13 => ⟨S_, .i1⟩
  | 14 => ⟨S4x40000, .i1⟩
  | 15 => ⟨S4x128x40000, .f32⟩
  | 16 => ⟨S4x128x40000, .i1⟩
  | 17 => ⟨S_, .f32⟩
  | 18 => ⟨S4x128x40000, .f32⟩
  | 19 => ⟨S4x128x40000, .f32⟩
  | 20 => ⟨S4x40000, .f32⟩
  | 21 => ⟨S4x40000, .f32⟩
  | 22 => ⟨S4x1x40000, .f32⟩
  | 23 => ⟨S4x128x40000, .f32⟩
  | 24 => ⟨S4x128x40000, .f32⟩
  | 25 => ⟨S4x128x40000, .f32⟩
  | 26 => ⟨S4x40000x128, .f32⟩
  | 27 => ⟨S4x40000x259, .f32⟩
  | _ => ⟨S4x40000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x40000x128, .f32⟩

abbrev bufTy : (tb : Table) → Fin (tcTables nBuf tb) → BufTy
  | .hbm, ⟨i, _⟩ => hbmTy i
  | _, _ => ⟨S4x40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_v39 : Ref sig .tc := ⟨.hbm, 55, rfl⟩
abbrev main_c_10 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_15 : Ref sig .tc := ⟨.hbm, 74, rfl⟩
abbrev main_v53 : Ref sig .tc := ⟨.hbm, 75, rfl⟩
abbrev main_v54 : Ref sig .tc := ⟨.hbm, 76, rfl⟩
abbrev main_c_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_17 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_18 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_19 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_20 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_21 : Ref sig .tc := ⟨.hbm, 97, rfl⟩
abbrev main_c_22 : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_v70 : Ref sig .tc := ⟨.hbm, 104, rfl⟩
abbrev main_c_23 : Ref sig .tc := ⟨.hbm, 105, rfl⟩
abbrev main_v71 : Ref sig .tc := ⟨.hbm, 106, rfl⟩
abbrev main_v72 : Ref sig .tc := ⟨.hbm, 107, rfl⟩
abbrev main_c_24 : Ref sig .tc := ⟨.hbm, 108, rfl⟩
abbrev main_c_25 : Ref sig .tc := ⟨.hbm, 109, rfl⟩
abbrev main_call1_v0 : Ref sig .tc := ⟨.hbm, 110, rfl⟩
abbrev main_call1_v1 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_v73 : Ref sig .tc := ⟨.hbm, 115, rfl⟩
abbrev main_v74 : Ref sig .tc := ⟨.hbm, 116, rfl⟩
abbrev main_c_26 : Ref sig .tc := ⟨.hbm, 117, rfl⟩
abbrev main_v75 : Ref sig .tc := ⟨.hbm, 118, rfl⟩
abbrev main_v76 : Ref sig .tc := ⟨.hbm, 119, rfl⟩
abbrev main_c_27 : Ref sig .tc := ⟨.hbm, 120, rfl⟩
abbrev main_c_28 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_call3_c : Ref sig .tc := ⟨.hbm, 130, rfl⟩
abbrev main_call3_v0 : Ref sig .tc := ⟨.hbm, 131, rfl⟩
abbrev main_call3_v1 : Ref sig .tc := ⟨.hbm, 132, rfl⟩
abbrev main_call3_c_0 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_c_1 : Ref sig .tc := ⟨.hbm, 138, rfl⟩
abbrev main_call3_c_2 : Ref sig .tc := ⟨.hbm, 139, rfl⟩
abbrev main_call3_v6 : Ref sig .tc := ⟨.hbm, 140, rfl⟩
abbrev main_call3_v7 : Ref sig .tc := ⟨.hbm, 141, rfl⟩
abbrev main_call3_v8 : Ref sig .tc := ⟨.hbm, 142, rfl⟩
abbrev main_call3_v9 : Ref sig .tc := ⟨.hbm, 143, rfl⟩
abbrev main_call3_v10 : Ref sig .tc := ⟨.hbm, 144, rfl⟩
abbrev main_call3_v11 : Ref sig .tc := ⟨.hbm, 145, rfl⟩
abbrev main_call3_c_3 : Ref sig .tc := ⟨.hbm, 146, rfl⟩
abbrev main_call3_v12 : Ref sig .tc := ⟨.hbm, 147, rfl⟩
abbrev main_call3_v13 : Ref sig .tc := ⟨.hbm, 148, rfl⟩
abbrev main_call3_v14 : Ref sig .tc := ⟨.hbm, 149, rfl⟩
abbrev main_call3_cst : Ref sig .tc := ⟨.hbm, 150, rfl⟩
abbrev main_call3_v15 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_cst_29 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_cst_30 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_c_31 : Ref sig .tc := ⟨.hbm, 166, rfl⟩
abbrev main_v92 : Ref sig .tc := ⟨.hbm, 167, rfl⟩
abbrev main_v93 : Ref sig .tc := ⟨.hbm, 168, rfl⟩
abbrev main_c_32 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_c_33 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_c_34 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_c_35 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_c_36 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_c_37 : Ref sig .tc := ⟨.hbm, 189, rfl⟩
abbrev main_c_38 : Ref sig .tc := ⟨.hbm, 190, rfl⟩
abbrev main_call4_v0 : Ref sig .tc := ⟨.hbm, 191, rfl⟩
abbrev main_call4_v1 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_v109 : Ref sig .tc := ⟨.hbm, 196, rfl⟩
abbrev main_c_39 : Ref sig .tc := ⟨.hbm, 197, rfl⟩
abbrev main_v110 : Ref sig .tc := ⟨.hbm, 198, rfl⟩
abbrev main_v111 : Ref sig .tc := ⟨.hbm, 199, rfl⟩
abbrev main_c_40 : Ref sig .tc := ⟨.hbm, 200, rfl⟩
abbrev main_c_41 : Ref sig .tc := ⟨.hbm, 201, rfl⟩
abbrev main_call5_v0 : Ref sig .tc := ⟨.hbm, 202, rfl⟩
abbrev main_call5_v1 : Ref sig .tc := ⟨.hbm, 203, rfl⟩
abbrev main_call5_v2 : Ref sig .tc := ⟨.hbm, 204, rfl⟩
abbrev main_call5_v3 : Ref sig .tc := ⟨.hbm, 205, rfl⟩
abbrev main_call5_v4 : Ref sig .tc := ⟨.hbm, 206, rfl⟩
abbrev main_v112 : Ref sig .tc := ⟨.hbm, 207, rfl⟩
abbrev main_v113 : Ref sig .tc := ⟨.hbm, 208, rfl⟩
abbrev main_c_42 : Ref sig .tc := ⟨.hbm, 209, rfl⟩
abbrev main_v114 : Ref sig .tc := ⟨.hbm, 210, rfl⟩
abbrev main_v115 : Ref sig .tc := ⟨.hbm, 211, rfl⟩
abbrev main_c_43 : Ref sig .tc := ⟨.hbm, 212, rfl⟩
abbrev main_c_44 : Ref sig .tc := ⟨.hbm, 213, rfl⟩
abbrev main_call6_v0 : Ref sig .tc := ⟨.hbm, 214, rfl⟩
abbrev main_call6_v1 : Ref sig .tc := ⟨.hbm, 215, rfl⟩
abbrev main_call6_v2 : Ref sig .tc := ⟨.hbm, 216, rfl⟩
abbrev main_call6_v3 : Ref sig .tc := ⟨.hbm, 217, rfl⟩
abbrev main_call6_v4 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_call7_c : Ref sig .tc := ⟨.hbm, 222, rfl⟩
abbrev main_call7_v0 : Ref sig .tc := ⟨.hbm, 223, rfl⟩
abbrev main_call7_v1 : Ref sig .tc := ⟨.hbm, 224, rfl⟩
abbrev main_call7_c_0 : Ref sig .tc := ⟨.hbm, 225, rfl⟩
abbrev main_call7_v2 : Ref sig .tc := ⟨.hbm, 226, rfl⟩
abbrev main_call7_v3 : Ref sig .tc := ⟨.hbm, 227, rfl⟩
abbrev main_call7_v4 : Ref sig .tc := ⟨.hbm, 228, rfl⟩
abbrev main_call7_v5 : Ref sig .tc := ⟨.hbm, 229, rfl⟩
abbrev main_call7_c_1 : Ref sig .tc := ⟨.hbm, 230, rfl⟩
abbrev main_call7_c_2 : Ref sig .tc := ⟨.hbm, 231, rfl⟩
abbrev main_call7_v6 : Ref sig .tc := ⟨.hbm, 232, rfl⟩
abbrev main_call7_v7 : Ref sig .tc := ⟨.hbm, 233, rfl⟩
abbrev main_call7_v8 : Ref sig .tc := ⟨.hbm, 234, rfl⟩
abbrev main_call7_v9 : Ref sig .tc := ⟨.hbm, 235, rfl⟩
abbrev main_call7_v10 : Ref sig .tc := ⟨.hbm, 236, rfl⟩
abbrev main_call7_v11 : Ref sig .tc := ⟨.hbm, 237, rfl⟩
abbrev main_call7_c_3 : Ref sig .tc := ⟨.hbm, 238, rfl⟩
abbrev main_call7_v12 : Ref sig .tc := ⟨.hbm, 239, rfl⟩
abbrev main_call7_v13 : Ref sig .tc := ⟨.hbm, 240, rfl⟩
abbrev main_call7_v14 : Ref sig .tc := ⟨.hbm, 241, rfl⟩
abbrev main_call7_cst : Ref sig .tc := ⟨.hbm, 242, rfl⟩
abbrev main_call7_v15 : Ref sig .tc := ⟨.hbm, 243, rfl⟩
abbrev main_v119 : Ref sig .tc := ⟨.hbm, 244, rfl⟩
abbrev main_v120 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_cst_45 : Ref sig .tc := ⟨.hbm, 251, rfl⟩
abbrev main_v126 : Ref sig .tc := ⟨.hbm, 252, rfl⟩
abbrev main_v127 : Ref sig .tc := ⟨.hbm, 253, rfl⟩
abbrev main_v128 : Ref sig .tc := ⟨.hbm, 254, rfl⟩
abbrev main_cst_46 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_c_47 : Ref sig .tc := ⟨.hbm, 259, rfl⟩
abbrev main_v132 : Ref sig .tc := ⟨.hbm, 260, rfl⟩
abbrev main_v133 : Ref sig .tc := ⟨.hbm, 261, rfl⟩
abbrev main_c_48 : Ref sig .tc := ⟨.hbm, 262, rfl⟩
abbrev main_v134 : Ref sig .tc := ⟨.hbm, 263, rfl⟩
abbrev main_v135 : Ref sig .tc := ⟨.hbm, 264, rfl⟩
abbrev main_v136 : Ref sig .tc := ⟨.hbm, 265, rfl⟩
abbrev main_c_49 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩
abbrev main_c_50 : Ref sig .tc := ⟨.hbm, 270, rfl⟩
abbrev main_v140 : Ref sig .tc := ⟨.hbm, 271, rfl⟩
abbrev main_v141 : Ref sig .tc := ⟨.hbm, 272, rfl⟩
abbrev main_v142 : Ref sig .tc := ⟨.hbm, 273, rfl⟩
abbrev main_c_51 : Ref sig .tc := ⟨.hbm, 274, rfl⟩
abbrev main_v143 : Ref sig .tc := ⟨.hbm, 275, rfl⟩
abbrev main_v144 : Ref sig .tc := ⟨.hbm, 276, rfl⟩
abbrev main_v145 : Ref sig .tc := ⟨.hbm, 277, rfl⟩
abbrev main_c_52 : Ref sig .tc := ⟨.hbm, 278, rfl⟩
abbrev main_v146 : Ref sig .tc := ⟨.hbm, 279, rfl⟩
abbrev main_v147 : Ref sig .tc := ⟨.hbm, 280, rfl⟩
abbrev main_v148 : Ref sig .tc := ⟨.hbm, 281, rfl⟩
abbrev main_c_53 : Ref sig .tc := ⟨.hbm, 282, rfl⟩
abbrev main_c_54 : Ref sig .tc := ⟨.hbm, 283, rfl⟩
abbrev main_call8_v0 : Ref sig .tc := ⟨.hbm, 284, rfl⟩
abbrev main_call8_v1 : Ref sig .tc := ⟨.hbm, 285, rfl⟩
abbrev main_call8_v2 : Ref sig .tc := ⟨.hbm, 286, rfl⟩
abbrev main_call8_v3 : Ref sig .tc := ⟨.hbm, 287, rfl⟩
abbrev main_call8_v4 : Ref sig .tc := ⟨.hbm, 288, rfl⟩
abbrev main_v149 : Ref sig .tc := ⟨.hbm, 289, rfl⟩
abbrev main_c_55 : Ref sig .tc := ⟨.hbm, 290, rfl⟩
abbrev main_v150 : Ref sig .tc := ⟨.hbm, 291, rfl⟩
abbrev main_v151 : Ref sig .tc := ⟨.hbm, 292, rfl⟩
abbrev main_c_56 : Ref sig .tc := ⟨.hbm, 293, rfl⟩
abbrev main_c_57 : Ref sig .tc := ⟨.hbm, 294, rfl⟩
abbrev main_call9_v0 : Ref sig .tc := ⟨.hbm, 295, rfl⟩
abbrev main_call9_v1 : Ref sig .tc := ⟨.hbm, 296, rfl⟩
abbrev main_call9_v2 : Ref sig .tc := ⟨.hbm, 297, rfl⟩
abbrev main_call9_v3 : Ref sig .tc := ⟨.hbm, 298, rfl⟩
abbrev main_call9_v4 : Ref sig .tc := ⟨.hbm, 299, rfl⟩
abbrev main_v152 : Ref sig .tc := ⟨.hbm, 300, rfl⟩
abbrev main_v153 : Ref sig .tc := ⟨.hbm, 301, rfl⟩
abbrev main_c_58 : Ref sig .tc := ⟨.hbm, 302, rfl⟩
abbrev main_v154 : Ref sig .tc := ⟨.hbm, 303, rfl⟩
abbrev main_v155 : Ref sig .tc := ⟨.hbm, 304, rfl⟩
abbrev main_c_59 : Ref sig .tc := ⟨.hbm, 305, rfl⟩
abbrev main_c_60 : Ref sig .tc := ⟨.hbm, 306, rfl⟩
abbrev main_call10_v0 : Ref sig .tc := ⟨.hbm, 307, rfl⟩
abbrev main_call10_v1 : Ref sig .tc := ⟨.hbm, 308, rfl⟩
abbrev main_call10_v2 : Ref sig .tc := ⟨.hbm, 309, rfl⟩
abbrev main_call10_v3 : Ref sig .tc := ⟨.hbm, 310, rfl⟩
abbrev main_call10_v4 : Ref sig .tc := ⟨.hbm, 311, rfl⟩
abbrev main_v156 : Ref sig .tc := ⟨.hbm, 312, rfl⟩
abbrev main_v157 : Ref sig .tc := ⟨.hbm, 313, rfl⟩
abbrev main_v158 : Ref sig .tc := ⟨.hbm, 314, rfl⟩
abbrev main_call11_c : Ref sig .tc := ⟨.hbm, 315, rfl⟩
abbrev main_call11_v0 : Ref sig .tc := ⟨.hbm, 316, rfl⟩
abbrev main_call11_v1 : Ref sig .tc := ⟨.hbm, 317, rfl⟩
abbrev main_call11_c_0 : Ref sig .tc := ⟨.hbm, 318, rfl⟩
abbrev main_call11_v2 : Ref sig .tc := ⟨.hbm, 319, rfl⟩
abbrev main_call11_v3 : Ref sig .tc := ⟨.hbm, 320, rfl⟩
abbrev main_call11_v4 : Ref sig .tc := ⟨.hbm, 321, rfl⟩
abbrev main_call11_v5 : Ref sig .tc := ⟨.hbm, 322, rfl⟩
abbrev main_call11_c_1 : Ref sig .tc := ⟨.hbm, 323, rfl⟩
abbrev main_call11_c_2 : Ref sig .tc := ⟨.hbm, 324, rfl⟩
abbrev main_call11_v6 : Ref sig .tc := ⟨.hbm, 325, rfl⟩
abbrev main_call11_v7 : Ref sig .tc := ⟨.hbm, 326, rfl⟩
abbrev main_call11_v8 : Ref sig .tc := ⟨.hbm, 327, rfl⟩
abbrev main_call11_v9 : Ref sig .tc := ⟨.hbm, 328, rfl⟩
abbrev main_call11_v10 : Ref sig .tc := ⟨.hbm, 329, rfl⟩
abbrev main_call11_v11 : Ref sig .tc := ⟨.hbm, 330, rfl⟩
abbrev main_call11_c_3 : Ref sig .tc := ⟨.hbm, 331, rfl⟩
abbrev main_call11_v12 : Ref sig .tc := ⟨.hbm, 332, rfl⟩
abbrev main_call11_v13 : Ref sig .tc := ⟨.hbm, 333, rfl⟩
abbrev main_call11_v14 : Ref sig .tc := ⟨.hbm, 334, rfl⟩
abbrev main_call11_cst : Ref sig .tc := ⟨.hbm, 335, rfl⟩
abbrev main_call11_v15 : Ref sig .tc := ⟨.hbm, 336, rfl⟩
abbrev main_v159 : Ref sig .tc := ⟨.hbm, 337, rfl⟩
abbrev main_v160 : Ref sig .tc := ⟨.hbm, 338, rfl⟩
abbrev main_v161 : Ref sig .tc := ⟨.hbm, 339, rfl⟩
abbrev main_v162 : Ref sig .tc := ⟨.hbm, 340, rfl⟩
abbrev main_v163 : Ref sig .tc := ⟨.hbm, 341, rfl⟩
abbrev main_v164 : Ref sig .tc := ⟨.hbm, 342, rfl⟩
abbrev main_v165 : Ref sig .tc := ⟨.hbm, 343, rfl⟩
abbrev main_v166 : Ref sig .tc := ⟨.hbm, 344, rfl⟩
abbrev main_cst_61 : Ref sig .tc := ⟨.hbm, 345, rfl⟩
abbrev main_v167 : Ref sig .tc := ⟨.hbm, 346, rfl⟩
abbrev main_v168 : Ref sig .tc := ⟨.hbm, 347, rfl⟩
abbrev main_v169 : Ref sig .tc := ⟨.hbm, 348, rfl⟩
abbrev main_c_62 : Ref sig .tc := ⟨.hbm, 349, rfl⟩
abbrev main_v170 : Ref sig .tc := ⟨.hbm, 350, rfl⟩
abbrev main_v171 : Ref sig .tc := ⟨.hbm, 351, rfl⟩
abbrev main_c_63 : Ref sig .tc := ⟨.hbm, 352, rfl⟩
abbrev main_v172 : Ref sig .tc := ⟨.hbm, 353, rfl⟩
abbrev main_v173 : Ref sig .tc := ⟨.hbm, 354, rfl⟩
abbrev main_v174 : Ref sig .tc := ⟨.hbm, 355, rfl⟩
abbrev main_c_64 : Ref sig .tc := ⟨.hbm, 356, rfl⟩
abbrev main_v175 : Ref sig .tc := ⟨.hbm, 357, rfl⟩
abbrev main_v176 : Ref sig .tc := ⟨.hbm, 358, rfl⟩
abbrev main_v177 : Ref sig .tc := ⟨.hbm, 359, rfl⟩
abbrev main_c_65 : Ref sig .tc := ⟨.hbm, 360, rfl⟩
abbrev main_v178 : Ref sig .tc := ⟨.hbm, 361, rfl⟩
abbrev main_v179 : Ref sig .tc := ⟨.hbm, 362, rfl⟩
abbrev main_v180 : Ref sig .tc := ⟨.hbm, 363, rfl⟩
abbrev main_c_66 : Ref sig .tc := ⟨.hbm, 364, rfl⟩
abbrev main_v181 : Ref sig .tc := ⟨.hbm, 365, rfl⟩
abbrev main_v182 : Ref sig .tc := ⟨.hbm, 366, rfl⟩
abbrev main_v183 : Ref sig .tc := ⟨.hbm, 367, rfl⟩
abbrev main_c_67 : Ref sig .tc := ⟨.hbm, 368, rfl⟩
abbrev main_v184 : Ref sig .tc := ⟨.hbm, 369, rfl⟩
abbrev main_v185 : Ref sig .tc := ⟨.hbm, 370, rfl⟩
abbrev main_v186 : Ref sig .tc := ⟨.hbm, 371, rfl⟩
abbrev main_c_68 : Ref sig .tc := ⟨.hbm, 372, rfl⟩
abbrev main_c_69 : Ref sig .tc := ⟨.hbm, 373, rfl⟩
abbrev main_call12_v0 : Ref sig .tc := ⟨.hbm, 374, rfl⟩
abbrev main_call12_v1 : Ref sig .tc := ⟨.hbm, 375, rfl⟩
abbrev main_call12_v2 : Ref sig .tc := ⟨.hbm, 376, rfl⟩
abbrev main_call12_v3 : Ref sig .tc := ⟨.hbm, 377, rfl⟩
abbrev main_call12_v4 : Ref sig .tc := ⟨.hbm, 378, rfl⟩
abbrev main_v187 : Ref sig .tc := ⟨.hbm, 379, rfl⟩
abbrev main_c_70 : Ref sig .tc := ⟨.hbm, 380, rfl⟩
abbrev main_v188 : Ref sig .tc := ⟨.hbm, 381, rfl⟩
abbrev main_v189 : Ref sig .tc := ⟨.hbm, 382, rfl⟩
abbrev main_c_71 : Ref sig .tc := ⟨.hbm, 383, rfl⟩
abbrev main_c_72 : Ref sig .tc := ⟨.hbm, 384, rfl⟩
abbrev main_call13_v0 : Ref sig .tc := ⟨.hbm, 385, rfl⟩
abbrev main_call13_v1 : Ref sig .tc := ⟨.hbm, 386, rfl⟩
abbrev main_call13_v2 : Ref sig .tc := ⟨.hbm, 387, rfl⟩
abbrev main_call13_v3 : Ref sig .tc := ⟨.hbm, 388, rfl⟩
abbrev main_call13_v4 : Ref sig .tc := ⟨.hbm, 389, rfl⟩
abbrev main_v190 : Ref sig .tc := ⟨.hbm, 390, rfl⟩
abbrev main_v191 : Ref sig .tc := ⟨.hbm, 391, rfl⟩
abbrev main_c_73 : Ref sig .tc := ⟨.hbm, 392, rfl⟩
abbrev main_v192 : Ref sig .tc := ⟨.hbm, 393, rfl⟩
abbrev main_v193 : Ref sig .tc := ⟨.hbm, 394, rfl⟩
abbrev main_c_74 : Ref sig .tc := ⟨.hbm, 395, rfl⟩
abbrev main_c_75 : Ref sig .tc := ⟨.hbm, 396, rfl⟩
abbrev main_call14_v0 : Ref sig .tc := ⟨.hbm, 397, rfl⟩
abbrev main_call14_v1 : Ref sig .tc := ⟨.hbm, 398, rfl⟩
abbrev main_call14_v2 : Ref sig .tc := ⟨.hbm, 399, rfl⟩
abbrev main_call14_v3 : Ref sig .tc := ⟨.hbm, 400, rfl⟩
abbrev main_call14_v4 : Ref sig .tc := ⟨.hbm, 401, rfl⟩
abbrev main_v194 : Ref sig .tc := ⟨.hbm, 402, rfl⟩
abbrev main_v195 : Ref sig .tc := ⟨.hbm, 403, rfl⟩
abbrev main_v196 : Ref sig .tc := ⟨.hbm, 404, rfl⟩
abbrev main_call15_c : Ref sig .tc := ⟨.hbm, 405, rfl⟩
abbrev main_call15_v0 : Ref sig .tc := ⟨.hbm, 406, rfl⟩
abbrev main_call15_v1 : Ref sig .tc := ⟨.hbm, 407, rfl⟩
abbrev main_call15_c_0 : Ref sig .tc := ⟨.hbm, 408, rfl⟩
abbrev main_call15_v2 : Ref sig .tc := ⟨.hbm, 409, rfl⟩
abbrev main_call15_v3 : Ref sig .tc := ⟨.hbm, 410, rfl⟩
abbrev main_call15_v4 : Ref sig .tc := ⟨.hbm, 411, rfl⟩
abbrev main_call15_v5 : Ref sig .tc := ⟨.hbm, 412, rfl⟩
abbrev main_call15_c_1 : Ref sig .tc := ⟨.hbm, 413, rfl⟩
abbrev main_call15_c_2 : Ref sig .tc := ⟨.hbm, 414, rfl⟩
abbrev main_call15_v6 : Ref sig .tc := ⟨.hbm, 415, rfl⟩
abbrev main_call15_v7 : Ref sig .tc := ⟨.hbm, 416, rfl⟩
abbrev main_call15_v8 : Ref sig .tc := ⟨.hbm, 417, rfl⟩
abbrev main_call15_v9 : Ref sig .tc := ⟨.hbm, 418, rfl⟩
abbrev main_call15_v10 : Ref sig .tc := ⟨.hbm, 419, rfl⟩
abbrev main_call15_v11 : Ref sig .tc := ⟨.hbm, 420, rfl⟩
abbrev main_call15_c_3 : Ref sig .tc := ⟨.hbm, 421, rfl⟩
abbrev main_call15_v12 : Ref sig .tc := ⟨.hbm, 422, rfl⟩
abbrev main_call15_v13 : Ref sig .tc := ⟨.hbm, 423, rfl⟩
abbrev main_call15_v14 : Ref sig .tc := ⟨.hbm, 424, rfl⟩
abbrev main_call15_cst : Ref sig .tc := ⟨.hbm, 425, rfl⟩
abbrev main_call15_v15 : Ref sig .tc := ⟨.hbm, 426, rfl⟩
abbrev main_v197 : Ref sig .tc := ⟨.hbm, 427, rfl⟩
abbrev main_v198 : Ref sig .tc := ⟨.hbm, 428, rfl⟩
abbrev main_v199 : Ref sig .tc := ⟨.hbm, 429, rfl⟩
abbrev main_v200 : Ref sig .tc := ⟨.hbm, 430, rfl⟩
abbrev main_v201 : Ref sig .tc := ⟨.hbm, 431, rfl⟩
abbrev main_v202 : Ref sig .tc := ⟨.hbm, 432, rfl⟩
abbrev main_v203 : Ref sig .tc := ⟨.hbm, 433, rfl⟩
abbrev main_cst_76 : Ref sig .tc := ⟨.hbm, 434, rfl⟩
abbrev main_v204 : Ref sig .tc := ⟨.hbm, 435, rfl⟩
abbrev main_v205 : Ref sig .tc := ⟨.hbm, 436, rfl⟩
abbrev main_cst_77 : Ref sig .tc := ⟨.hbm, 437, rfl⟩
abbrev main_v206 : Ref sig .tc := ⟨.hbm, 438, rfl⟩
abbrev main_v207 : Ref sig .tc := ⟨.hbm, 439, rfl⟩
abbrev main_v208 : Ref sig .tc := ⟨.hbm, 440, rfl⟩
abbrev main_v209 : Ref sig .tc := ⟨.hbm, 441, rfl⟩
abbrev main_c_78 : Ref sig .tc := ⟨.hbm, 442, rfl⟩
abbrev main_v210 : Ref sig .tc := ⟨.hbm, 443, rfl⟩
abbrev main_v211 : Ref sig .tc := ⟨.hbm, 444, rfl⟩
abbrev main_c_79 : Ref sig .tc := ⟨.hbm, 445, rfl⟩
abbrev main_v212 : Ref sig .tc := ⟨.hbm, 446, rfl⟩
abbrev main_v213 : Ref sig .tc := ⟨.hbm, 447, rfl⟩
abbrev main_v214 : Ref sig .tc := ⟨.hbm, 448, rfl⟩
abbrev main_c_80 : Ref sig .tc := ⟨.hbm, 449, rfl⟩
abbrev main_v215 : Ref sig .tc := ⟨.hbm, 450, rfl⟩
abbrev main_v216 : Ref sig .tc := ⟨.hbm, 451, rfl⟩
abbrev main_v217 : Ref sig .tc := ⟨.hbm, 452, rfl⟩
abbrev main_c_81 : Ref sig .tc := ⟨.hbm, 453, rfl⟩
abbrev main_v218 : Ref sig .tc := ⟨.hbm, 454, rfl⟩
abbrev main_v219 : Ref sig .tc := ⟨.hbm, 455, rfl⟩
abbrev main_v220 : Ref sig .tc := ⟨.hbm, 456, rfl⟩
abbrev main_c_82 : Ref sig .tc := ⟨.hbm, 457, rfl⟩
abbrev main_v221 : Ref sig .tc := ⟨.hbm, 458, rfl⟩
abbrev main_v222 : Ref sig .tc := ⟨.hbm, 459, rfl⟩
abbrev main_v223 : Ref sig .tc := ⟨.hbm, 460, rfl⟩
abbrev main_c_83 : Ref sig .tc := ⟨.hbm, 461, rfl⟩
abbrev main_v224 : Ref sig .tc := ⟨.hbm, 462, rfl⟩
abbrev main_v225 : Ref sig .tc := ⟨.hbm, 463, rfl⟩
abbrev main_v226 : Ref sig .tc := ⟨.hbm, 464, rfl⟩
abbrev main_c_84 : Ref sig .tc := ⟨.hbm, 465, rfl⟩
abbrev main_c_85 : Ref sig .tc := ⟨.hbm, 466, rfl⟩
abbrev main_call16_v0 : Ref sig .tc := ⟨.hbm, 467, rfl⟩
abbrev main_call16_v1 : Ref sig .tc := ⟨.hbm, 468, rfl⟩
abbrev main_call16_v2 : Ref sig .tc := ⟨.hbm, 469, rfl⟩
abbrev main_call16_v3 : Ref sig .tc := ⟨.hbm, 470, rfl⟩
abbrev main_call16_v4 : Ref sig .tc := ⟨.hbm, 471, rfl⟩
abbrev main_v227 : Ref sig .tc := ⟨.hbm, 472, rfl⟩
abbrev main_c_86 : Ref sig .tc := ⟨.hbm, 473, rfl⟩
abbrev main_v228 : Ref sig .tc := ⟨.hbm, 474, rfl⟩
abbrev main_v229 : Ref sig .tc := ⟨.hbm, 475, rfl⟩
abbrev main_c_87 : Ref sig .tc := ⟨.hbm, 476, rfl⟩
abbrev main_c_88 : Ref sig .tc := ⟨.hbm, 477, rfl⟩
abbrev main_call17_v0 : Ref sig .tc := ⟨.hbm, 478, rfl⟩
abbrev main_call17_v1 : Ref sig .tc := ⟨.hbm, 479, rfl⟩
abbrev main_call17_v2 : Ref sig .tc := ⟨.hbm, 480, rfl⟩
abbrev main_call17_v3 : Ref sig .tc := ⟨.hbm, 481, rfl⟩
abbrev main_call17_v4 : Ref sig .tc := ⟨.hbm, 482, rfl⟩
abbrev main_v230 : Ref sig .tc := ⟨.hbm, 483, rfl⟩
abbrev main_v231 : Ref sig .tc := ⟨.hbm, 484, rfl⟩
abbrev main_c_89 : Ref sig .tc := ⟨.hbm, 485, rfl⟩
abbrev main_v232 : Ref sig .tc := ⟨.hbm, 486, rfl⟩
abbrev main_v233 : Ref sig .tc := ⟨.hbm, 487, rfl⟩
abbrev main_c_90 : Ref sig .tc := ⟨.hbm, 488, rfl⟩
abbrev main_c_91 : Ref sig .tc := ⟨.hbm, 489, rfl⟩
abbrev main_call18_v0 : Ref sig .tc := ⟨.hbm, 490, rfl⟩
abbrev main_call18_v1 : Ref sig .tc := ⟨.hbm, 491, rfl⟩
abbrev main_call18_v2 : Ref sig .tc := ⟨.hbm, 492, rfl⟩
abbrev main_call18_v3 : Ref sig .tc := ⟨.hbm, 493, rfl⟩
abbrev main_call18_v4 : Ref sig .tc := ⟨.hbm, 494, rfl⟩
abbrev main_v234 : Ref sig .tc := ⟨.hbm, 495, rfl⟩
abbrev main_v235 : Ref sig .tc := ⟨.hbm, 496, rfl⟩
abbrev main_v236 : Ref sig .tc := ⟨.hbm, 497, rfl⟩
abbrev main_call19_c : Ref sig .tc := ⟨.hbm, 498, rfl⟩
abbrev main_call19_v0 : Ref sig .tc := ⟨.hbm, 499, rfl⟩
abbrev main_call19_v1 : Ref sig .tc := ⟨.hbm, 500, rfl⟩
abbrev main_call19_c_0 : Ref sig .tc := ⟨.hbm, 501, rfl⟩
abbrev main_call19_v2 : Ref sig .tc := ⟨.hbm, 502, rfl⟩
abbrev main_call19_v3 : Ref sig .tc := ⟨.hbm, 503, rfl⟩
abbrev main_call19_v4 : Ref sig .tc := ⟨.hbm, 504, rfl⟩
abbrev main_call19_v5 : Ref sig .tc := ⟨.hbm, 505, rfl⟩
abbrev main_call19_c_1 : Ref sig .tc := ⟨.hbm, 506, rfl⟩
abbrev main_call19_c_2 : Ref sig .tc := ⟨.hbm, 507, rfl⟩
abbrev main_call19_v6 : Ref sig .tc := ⟨.hbm, 508, rfl⟩
abbrev main_call19_v7 : Ref sig .tc := ⟨.hbm, 509, rfl⟩
abbrev main_call19_v8 : Ref sig .tc := ⟨.hbm, 510, rfl⟩
abbrev main_call19_v9 : Ref sig .tc := ⟨.hbm, 511, rfl⟩
abbrev main_call19_v10 : Ref sig .tc := ⟨.hbm, 512, rfl⟩
abbrev main_call19_v11 : Ref sig .tc := ⟨.hbm, 513, rfl⟩
abbrev main_call19_c_3 : Ref sig .tc := ⟨.hbm, 514, rfl⟩
abbrev main_call19_v12 : Ref sig .tc := ⟨.hbm, 515, rfl⟩
abbrev main_call19_v13 : Ref sig .tc := ⟨.hbm, 516, rfl⟩
abbrev main_call19_v14 : Ref sig .tc := ⟨.hbm, 517, rfl⟩
abbrev main_call19_cst : Ref sig .tc := ⟨.hbm, 518, rfl⟩
abbrev main_call19_v15 : Ref sig .tc := ⟨.hbm, 519, rfl⟩
abbrev main_v237 : Ref sig .tc := ⟨.hbm, 520, rfl⟩
abbrev main_v238 : Ref sig .tc := ⟨.hbm, 521, rfl⟩
abbrev main_v239 : Ref sig .tc := ⟨.hbm, 522, rfl⟩
abbrev main_v240 : Ref sig .tc := ⟨.hbm, 523, rfl⟩
abbrev main_v241 : Ref sig .tc := ⟨.hbm, 524, rfl⟩
abbrev main_v242 : Ref sig .tc := ⟨.hbm, 525, rfl⟩
abbrev main_v243 : Ref sig .tc := ⟨.hbm, 526, rfl⟩
abbrev main_cst_92 : Ref sig .tc := ⟨.hbm, 527, rfl⟩
abbrev main_v244 : Ref sig .tc := ⟨.hbm, 528, rfl⟩
abbrev main_v245 : Ref sig .tc := ⟨.hbm, 529, rfl⟩
abbrev main_v246 : Ref sig .tc := ⟨.hbm, 530, rfl⟩
abbrev main_v247 : Ref sig .tc := ⟨.hbm, 531, rfl⟩
abbrev main_c_93 : Ref sig .tc := ⟨.hbm, 532, rfl⟩
abbrev main_v248 : Ref sig .tc := ⟨.hbm, 533, rfl⟩
abbrev main_v249 : Ref sig .tc := ⟨.hbm, 534, rfl⟩
abbrev main_c_94 : Ref sig .tc := ⟨.hbm, 535, rfl⟩
abbrev main_v250 : Ref sig .tc := ⟨.hbm, 536, rfl⟩
abbrev main_v251 : Ref sig .tc := ⟨.hbm, 537, rfl⟩
abbrev main_v252 : Ref sig .tc := ⟨.hbm, 538, rfl⟩
abbrev main_c_95 : Ref sig .tc := ⟨.hbm, 539, rfl⟩
abbrev main_v253 : Ref sig .tc := ⟨.hbm, 540, rfl⟩
abbrev main_v254 : Ref sig .tc := ⟨.hbm, 541, rfl⟩
abbrev main_v255 : Ref sig .tc := ⟨.hbm, 542, rfl⟩
abbrev main_c_96 : Ref sig .tc := ⟨.hbm, 543, rfl⟩
abbrev main_v256 : Ref sig .tc := ⟨.hbm, 544, rfl⟩
abbrev main_v257 : Ref sig .tc := ⟨.hbm, 545, rfl⟩
abbrev main_v258 : Ref sig .tc := ⟨.hbm, 546, rfl⟩
abbrev main_c_97 : Ref sig .tc := ⟨.hbm, 547, rfl⟩
abbrev main_v259 : Ref sig .tc := ⟨.hbm, 548, rfl⟩
abbrev main_v260 : Ref sig .tc := ⟨.hbm, 549, rfl⟩
abbrev main_v261 : Ref sig .tc := ⟨.hbm, 550, rfl⟩
abbrev main_c_98 : Ref sig .tc := ⟨.hbm, 551, rfl⟩
abbrev main_v262 : Ref sig .tc := ⟨.hbm, 552, rfl⟩
abbrev main_v263 : Ref sig .tc := ⟨.hbm, 553, rfl⟩
abbrev main_v264 : Ref sig .tc := ⟨.hbm, 554, rfl⟩
abbrev main_c_99 : Ref sig .tc := ⟨.hbm, 555, rfl⟩
abbrev main_c_100 : Ref sig .tc := ⟨.hbm, 556, rfl⟩
abbrev main_call20_v0 : Ref sig .tc := ⟨.hbm, 557, rfl⟩
abbrev main_call20_v1 : Ref sig .tc := ⟨.hbm, 558, rfl⟩
abbrev main_call20_v2 : Ref sig .tc := ⟨.hbm, 559, rfl⟩
abbrev main_call20_v3 : Ref sig .tc := ⟨.hbm, 560, rfl⟩
abbrev main_call20_v4 : Ref sig .tc := ⟨.hbm, 561, rfl⟩
abbrev main_v265 : Ref sig .tc := ⟨.hbm, 562, rfl⟩
abbrev main_c_101 : Ref sig .tc := ⟨.hbm, 563, rfl⟩
abbrev main_v266 : Ref sig .tc := ⟨.hbm, 564, rfl⟩
abbrev main_v267 : Ref sig .tc := ⟨.hbm, 565, rfl⟩
abbrev main_c_102 : Ref sig .tc := ⟨.hbm, 566, rfl⟩
abbrev main_c_103 : Ref sig .tc := ⟨.hbm, 567, rfl⟩
abbrev main_call21_v0 : Ref sig .tc := ⟨.hbm, 568, rfl⟩
abbrev main_call21_v1 : Ref sig .tc := ⟨.hbm, 569, rfl⟩
abbrev main_call21_v2 : Ref sig .tc := ⟨.hbm, 570, rfl⟩
abbrev main_call21_v3 : Ref sig .tc := ⟨.hbm, 571, rfl⟩
abbrev main_call21_v4 : Ref sig .tc := ⟨.hbm, 572, rfl⟩
abbrev main_v268 : Ref sig .tc := ⟨.hbm, 573, rfl⟩
abbrev main_v269 : Ref sig .tc := ⟨.hbm, 574, rfl⟩
abbrev main_c_104 : Ref sig .tc := ⟨.hbm, 575, rfl⟩
abbrev main_v270 : Ref sig .tc := ⟨.hbm, 576, rfl⟩
abbrev main_v271 : Ref sig .tc := ⟨.hbm, 577, rfl⟩
abbrev main_c_105 : Ref sig .tc := ⟨.hbm, 578, rfl⟩
abbrev main_c_106 : Ref sig .tc := ⟨.hbm, 579, rfl⟩
abbrev main_call22_v0 : Ref sig .tc := ⟨.hbm, 580, rfl⟩
abbrev main_call22_v1 : Ref sig .tc := ⟨.hbm, 581, rfl⟩
abbrev main_call22_v2 : Ref sig .tc := ⟨.hbm, 582, rfl⟩
abbrev main_call22_v3 : Ref sig .tc := ⟨.hbm, 583, rfl⟩
abbrev main_call22_v4 : Ref sig .tc := ⟨.hbm, 584, rfl⟩
abbrev main_v272 : Ref sig .tc := ⟨.hbm, 585, rfl⟩
abbrev main_v273 : Ref sig .tc := ⟨.hbm, 586, rfl⟩
abbrev main_v274 : Ref sig .tc := ⟨.hbm, 587, rfl⟩
abbrev main_call23_c : Ref sig .tc := ⟨.hbm, 588, rfl⟩
abbrev main_call23_v0 : Ref sig .tc := ⟨.hbm, 589, rfl⟩
abbrev main_call23_v1 : Ref sig .tc := ⟨.hbm, 590, rfl⟩
abbrev main_call23_c_0 : Ref sig .tc := ⟨.hbm, 591, rfl⟩
abbrev main_call23_v2 : Ref sig .tc := ⟨.hbm, 592, rfl⟩
abbrev main_call23_v3 : Ref sig .tc := ⟨.hbm, 593, rfl⟩
abbrev main_call23_v4 : Ref sig .tc := ⟨.hbm, 594, rfl⟩
abbrev main_call23_v5 : Ref sig .tc := ⟨.hbm, 595, rfl⟩
abbrev main_call23_c_1 : Ref sig .tc := ⟨.hbm, 596, rfl⟩
abbrev main_call23_c_2 : Ref sig .tc := ⟨.hbm, 597, rfl⟩
abbrev main_call23_v6 : Ref sig .tc := ⟨.hbm, 598, rfl⟩
abbrev main_call23_v7 : Ref sig .tc := ⟨.hbm, 599, rfl⟩
abbrev main_call23_v8 : Ref sig .tc := ⟨.hbm, 600, rfl⟩
abbrev main_call23_v9 : Ref sig .tc := ⟨.hbm, 601, rfl⟩
abbrev main_call23_v10 : Ref sig .tc := ⟨.hbm, 602, rfl⟩
abbrev main_call23_v11 : Ref sig .tc := ⟨.hbm, 603, rfl⟩
abbrev main_call23_c_3 : Ref sig .tc := ⟨.hbm, 604, rfl⟩
abbrev main_call23_v12 : Ref sig .tc := ⟨.hbm, 605, rfl⟩
abbrev main_call23_v13 : Ref sig .tc := ⟨.hbm, 606, rfl⟩
abbrev main_call23_v14 : Ref sig .tc := ⟨.hbm, 607, rfl⟩
abbrev main_call23_cst : Ref sig .tc := ⟨.hbm, 608, rfl⟩
abbrev main_call23_v15 : Ref sig .tc := ⟨.hbm, 609, rfl⟩
abbrev main_v275 : Ref sig .tc := ⟨.hbm, 610, rfl⟩
abbrev main_v276 : Ref sig .tc := ⟨.hbm, 611, rfl⟩
abbrev main_v277 : Ref sig .tc := ⟨.hbm, 612, rfl⟩
abbrev main_v278 : Ref sig .tc := ⟨.hbm, 613, rfl⟩
abbrev main_v279 : Ref sig .tc := ⟨.hbm, 614, rfl⟩
abbrev main_v280 : Ref sig .tc := ⟨.hbm, 615, rfl⟩
abbrev main_v281 : Ref sig .tc := ⟨.hbm, 616, rfl⟩
abbrev main_cst_107 : Ref sig .tc := ⟨.hbm, 617, rfl⟩
abbrev main_v282 : Ref sig .tc := ⟨.hbm, 618, rfl⟩
abbrev main_v283 : Ref sig .tc := ⟨.hbm, 619, rfl⟩
abbrev main_v284 : Ref sig .tc := ⟨.hbm, 620, rfl⟩
abbrev main_v285 : Ref sig .tc := ⟨.hbm, 621, rfl⟩
abbrev main_c_108 : Ref sig .tc := ⟨.hbm, 622, rfl⟩
abbrev main_v286 : Ref sig .tc := ⟨.hbm, 623, rfl⟩
abbrev main_v287 : Ref sig .tc := ⟨.hbm, 624, rfl⟩
abbrev main_c_109 : Ref sig .tc := ⟨.hbm, 625, rfl⟩
abbrev main_v288 : Ref sig .tc := ⟨.hbm, 626, rfl⟩
abbrev main_v289 : Ref sig .tc := ⟨.hbm, 627, rfl⟩
abbrev main_v290 : Ref sig .tc := ⟨.hbm, 628, rfl⟩
abbrev main_c_110 : Ref sig .tc := ⟨.hbm, 629, rfl⟩
abbrev main_v291 : Ref sig .tc := ⟨.hbm, 630, rfl⟩
abbrev main_v292 : Ref sig .tc := ⟨.hbm, 631, rfl⟩
abbrev main_v293 : Ref sig .tc := ⟨.hbm, 632, rfl⟩
abbrev main_c_111 : Ref sig .tc := ⟨.hbm, 633, rfl⟩
abbrev main_v294 : Ref sig .tc := ⟨.hbm, 634, rfl⟩
abbrev main_v295 : Ref sig .tc := ⟨.hbm, 635, rfl⟩
abbrev main_v296 : Ref sig .tc := ⟨.hbm, 636, rfl⟩
abbrev main_c_112 : Ref sig .tc := ⟨.hbm, 637, rfl⟩
abbrev main_v297 : Ref sig .tc := ⟨.hbm, 638, rfl⟩
abbrev main_v298 : Ref sig .tc := ⟨.hbm, 639, rfl⟩
abbrev main_v299 : Ref sig .tc := ⟨.hbm, 640, rfl⟩
abbrev main_c_113 : Ref sig .tc := ⟨.hbm, 641, rfl⟩
abbrev main_v300 : Ref sig .tc := ⟨.hbm, 642, rfl⟩
abbrev main_v301 : Ref sig .tc := ⟨.hbm, 643, rfl⟩
abbrev main_v302 : Ref sig .tc := ⟨.hbm, 644, rfl⟩
abbrev main_c_114 : Ref sig .tc := ⟨.hbm, 645, rfl⟩
abbrev main_c_115 : Ref sig .tc := ⟨.hbm, 646, rfl⟩
abbrev main_call24_v0 : Ref sig .tc := ⟨.hbm, 647, rfl⟩
abbrev main_call24_v1 : Ref sig .tc := ⟨.hbm, 648, rfl⟩
abbrev main_call24_v2 : Ref sig .tc := ⟨.hbm, 649, rfl⟩
abbrev main_call24_v3 : Ref sig .tc := ⟨.hbm, 650, rfl⟩
abbrev main_call24_v4 : Ref sig .tc := ⟨.hbm, 651, rfl⟩
abbrev main_v303 : Ref sig .tc := ⟨.hbm, 652, rfl⟩
abbrev main_c_116 : Ref sig .tc := ⟨.hbm, 653, rfl⟩
abbrev main_v304 : Ref sig .tc := ⟨.hbm, 654, rfl⟩
abbrev main_v305 : Ref sig .tc := ⟨.hbm, 655, rfl⟩
abbrev main_c_117 : Ref sig .tc := ⟨.hbm, 656, rfl⟩
abbrev main_c_118 : Ref sig .tc := ⟨.hbm, 657, rfl⟩
abbrev main_call25_v0 : Ref sig .tc := ⟨.hbm, 658, rfl⟩
abbrev main_call25_v1 : Ref sig .tc := ⟨.hbm, 659, rfl⟩
abbrev main_call25_v2 : Ref sig .tc := ⟨.hbm, 660, rfl⟩
abbrev main_call25_v3 : Ref sig .tc := ⟨.hbm, 661, rfl⟩
abbrev main_call25_v4 : Ref sig .tc := ⟨.hbm, 662, rfl⟩
abbrev main_v306 : Ref sig .tc := ⟨.hbm, 663, rfl⟩
abbrev main_v307 : Ref sig .tc := ⟨.hbm, 664, rfl⟩
abbrev main_c_119 : Ref sig .tc := ⟨.hbm, 665, rfl⟩
abbrev main_v308 : Ref sig .tc := ⟨.hbm, 666, rfl⟩
abbrev main_v309 : Ref sig .tc := ⟨.hbm, 667, rfl⟩
abbrev main_c_120 : Ref sig .tc := ⟨.hbm, 668, rfl⟩
abbrev main_c_121 : Ref sig .tc := ⟨.hbm, 669, rfl⟩
abbrev main_call26_v0 : Ref sig .tc := ⟨.hbm, 670, rfl⟩
abbrev main_call26_v1 : Ref sig .tc := ⟨.hbm, 671, rfl⟩
abbrev main_call26_v2 : Ref sig .tc := ⟨.hbm, 672, rfl⟩
abbrev main_call26_v3 : Ref sig .tc := ⟨.hbm, 673, rfl⟩
abbrev main_call26_v4 : Ref sig .tc := ⟨.hbm, 674, rfl⟩
abbrev main_v310 : Ref sig .tc := ⟨.hbm, 675, rfl⟩
abbrev main_v311 : Ref sig .tc := ⟨.hbm, 676, rfl⟩
abbrev main_v312 : Ref sig .tc := ⟨.hbm, 677, rfl⟩
abbrev main_call27_c : Ref sig .tc := ⟨.hbm, 678, rfl⟩
abbrev main_call27_v0 : Ref sig .tc := ⟨.hbm, 679, rfl⟩
abbrev main_call27_v1 : Ref sig .tc := ⟨.hbm, 680, rfl⟩
abbrev main_call27_c_0 : Ref sig .tc := ⟨.hbm, 681, rfl⟩
abbrev main_call27_v2 : Ref sig .tc := ⟨.hbm, 682, rfl⟩
abbrev main_call27_v3 : Ref sig .tc := ⟨.hbm, 683, rfl⟩
abbrev main_call27_v4 : Ref sig .tc := ⟨.hbm, 684, rfl⟩
abbrev main_call27_v5 : Ref sig .tc := ⟨.hbm, 685, rfl⟩
abbrev main_call27_c_1 : Ref sig .tc := ⟨.hbm, 686, rfl⟩
abbrev main_call27_c_2 : Ref sig .tc := ⟨.hbm, 687, rfl⟩
abbrev main_call27_v6 : Ref sig .tc := ⟨.hbm, 688, rfl⟩
abbrev main_call27_v7 : Ref sig .tc := ⟨.hbm, 689, rfl⟩
abbrev main_call27_v8 : Ref sig .tc := ⟨.hbm, 690, rfl⟩
abbrev main_call27_v9 : Ref sig .tc := ⟨.hbm, 691, rfl⟩
abbrev main_call27_v10 : Ref sig .tc := ⟨.hbm, 692, rfl⟩
abbrev main_call27_v11 : Ref sig .tc := ⟨.hbm, 693, rfl⟩
abbrev main_call27_c_3 : Ref sig .tc := ⟨.hbm, 694, rfl⟩
abbrev main_call27_v12 : Ref sig .tc := ⟨.hbm, 695, rfl⟩
abbrev main_call27_v13 : Ref sig .tc := ⟨.hbm, 696, rfl⟩
abbrev main_call27_v14 : Ref sig .tc := ⟨.hbm, 697, rfl⟩
abbrev main_call27_cst : Ref sig .tc := ⟨.hbm, 698, rfl⟩
abbrev main_call27_v15 : Ref sig .tc := ⟨.hbm, 699, rfl⟩
abbrev main_v313 : Ref sig .tc := ⟨.hbm, 700, rfl⟩
abbrev main_v314 : Ref sig .tc := ⟨.hbm, 701, rfl⟩
abbrev main_v315 : Ref sig .tc := ⟨.hbm, 702, rfl⟩
abbrev main_v316 : Ref sig .tc := ⟨.hbm, 703, rfl⟩
abbrev main_v317 : Ref sig .tc := ⟨.hbm, 704, rfl⟩
abbrev main_v318 : Ref sig .tc := ⟨.hbm, 705, rfl⟩
abbrev main_v319 : Ref sig .tc := ⟨.hbm, 706, rfl⟩
abbrev main_v320 : Ref sig .tc := ⟨.hbm, 707, rfl⟩
abbrev main_v321 : Ref sig .tc := ⟨.hbm, 708, rfl⟩
abbrev main_c_122 : Ref sig .tc := ⟨.hbm, 709, rfl⟩
abbrev main_v322 : Ref sig .tc := ⟨.hbm, 710, rfl⟩
abbrev main_v323 : Ref sig .tc := ⟨.hbm, 711, rfl⟩
abbrev main_c_123 : Ref sig .tc := ⟨.hbm, 712, rfl⟩
abbrev main_v324 : Ref sig .tc := ⟨.hbm, 713, rfl⟩
abbrev main_v325 : Ref sig .tc := ⟨.hbm, 714, rfl⟩
abbrev main_v326 : Ref sig .tc := ⟨.hbm, 715, rfl⟩
abbrev main_c_124 : Ref sig .tc := ⟨.hbm, 716, rfl⟩
abbrev main_v327 : Ref sig .tc := ⟨.hbm, 717, rfl⟩
abbrev main_v328 : Ref sig .tc := ⟨.hbm, 718, rfl⟩
abbrev main_v329 : Ref sig .tc := ⟨.hbm, 719, rfl⟩
abbrev main_c_125 : Ref sig .tc := ⟨.hbm, 720, rfl⟩
abbrev main_v330 : Ref sig .tc := ⟨.hbm, 721, rfl⟩
abbrev main_v331 : Ref sig .tc := ⟨.hbm, 722, rfl⟩
abbrev main_v332 : Ref sig .tc := ⟨.hbm, 723, rfl⟩
abbrev main_c_126 : Ref sig .tc := ⟨.hbm, 724, rfl⟩
abbrev main_v333 : Ref sig .tc := ⟨.hbm, 725, rfl⟩
abbrev main_v334 : Ref sig .tc := ⟨.hbm, 726, rfl⟩
abbrev main_v335 : Ref sig .tc := ⟨.hbm, 727, rfl⟩
abbrev main_c_127 : Ref sig .tc := ⟨.hbm, 728, rfl⟩
abbrev main_v336 : Ref sig .tc := ⟨.hbm, 729, rfl⟩
abbrev main_v337 : Ref sig .tc := ⟨.hbm, 730, rfl⟩
abbrev main_v338 : Ref sig .tc := ⟨.hbm, 731, rfl⟩
abbrev main_c_128 : Ref sig .tc := ⟨.hbm, 732, rfl⟩
abbrev main_c_129 : Ref sig .tc := ⟨.hbm, 733, rfl⟩
abbrev main_call28_v0 : Ref sig .tc := ⟨.hbm, 734, rfl⟩
abbrev main_call28_v1 : Ref sig .tc := ⟨.hbm, 735, rfl⟩
abbrev main_call28_v2 : Ref sig .tc := ⟨.hbm, 736, rfl⟩
abbrev main_call28_v3 : Ref sig .tc := ⟨.hbm, 737, rfl⟩
abbrev main_call28_v4 : Ref sig .tc := ⟨.hbm, 738, rfl⟩
abbrev main_v339 : Ref sig .tc := ⟨.hbm, 739, rfl⟩
abbrev main_c_130 : Ref sig .tc := ⟨.hbm, 740, rfl⟩
abbrev main_v340 : Ref sig .tc := ⟨.hbm, 741, rfl⟩
abbrev main_v341 : Ref sig .tc := ⟨.hbm, 742, rfl⟩
abbrev main_c_131 : Ref sig .tc := ⟨.hbm, 743, rfl⟩
abbrev main_c_132 : Ref sig .tc := ⟨.hbm, 744, rfl⟩
abbrev main_call29_v0 : Ref sig .tc := ⟨.hbm, 745, rfl⟩
abbrev main_call29_v1 : Ref sig .tc := ⟨.hbm, 746, rfl⟩
abbrev main_call29_v2 : Ref sig .tc := ⟨.hbm, 747, rfl⟩
abbrev main_call29_v3 : Ref sig .tc := ⟨.hbm, 748, rfl⟩
abbrev main_call29_v4 : Ref sig .tc := ⟨.hbm, 749, rfl⟩
abbrev main_v342 : Ref sig .tc := ⟨.hbm, 750, rfl⟩
abbrev main_v343 : Ref sig .tc := ⟨.hbm, 751, rfl⟩
abbrev main_c_133 : Ref sig .tc := ⟨.hbm, 752, rfl⟩
abbrev main_v344 : Ref sig .tc := ⟨.hbm, 753, rfl⟩
abbrev main_v345 : Ref sig .tc := ⟨.hbm, 754, rfl⟩
abbrev main_c_134 : Ref sig .tc := ⟨.hbm, 755, rfl⟩
abbrev main_c_135 : Ref sig .tc := ⟨.hbm, 756, rfl⟩
abbrev main_call30_v0 : Ref sig .tc := ⟨.hbm, 757, rfl⟩
abbrev main_call30_v1 : Ref sig .tc := ⟨.hbm, 758, rfl⟩
abbrev main_call30_v2 : Ref sig .tc := ⟨.hbm, 759, rfl⟩
abbrev main_call30_v3 : Ref sig .tc := ⟨.hbm, 760, rfl⟩
abbrev main_call30_v4 : Ref sig .tc := ⟨.hbm, 761, rfl⟩
abbrev main_v346 : Ref sig .tc := ⟨.hbm, 762, rfl⟩
abbrev main_v347 : Ref sig .tc := ⟨.hbm, 763, rfl⟩
abbrev main_v348 : Ref sig .tc := ⟨.hbm, 764, rfl⟩
abbrev main_call31_c : Ref sig .tc := ⟨.hbm, 765, rfl⟩
abbrev main_call31_v0 : Ref sig .tc := ⟨.hbm, 766, rfl⟩
abbrev main_call31_v1 : Ref sig .tc := ⟨.hbm, 767, rfl⟩
abbrev main_call31_c_0 : Ref sig .tc := ⟨.hbm, 768, rfl⟩
abbrev main_call31_v2 : Ref sig .tc := ⟨.hbm, 769, rfl⟩
abbrev main_call31_v3 : Ref sig .tc := ⟨.hbm, 770, rfl⟩
abbrev main_call31_v4 : Ref sig .tc := ⟨.hbm, 771, rfl⟩
abbrev main_call31_v5 : Ref sig .tc := ⟨.hbm, 772, rfl⟩
abbrev main_call31_c_1 : Ref sig .tc := ⟨.hbm, 773, rfl⟩
abbrev main_call31_c_2 : Ref sig .tc := ⟨.hbm, 774, rfl⟩
abbrev main_call31_v6 : Ref sig .tc := ⟨.hbm, 775, rfl⟩
abbrev main_call31_v7 : Ref sig .tc := ⟨.hbm, 776, rfl⟩
abbrev main_call31_v8 : Ref sig .tc := ⟨.hbm, 777, rfl⟩
abbrev main_call31_v9 : Ref sig .tc := ⟨.hbm, 778, rfl⟩
abbrev main_call31_v10 : Ref sig .tc := ⟨.hbm, 779, rfl⟩
abbrev main_call31_v11 : Ref sig .tc := ⟨.hbm, 780, rfl⟩
abbrev main_call31_c_3 : Ref sig .tc := ⟨.hbm, 781, rfl⟩
abbrev main_call31_v12 : Ref sig .tc := ⟨.hbm, 782, rfl⟩
abbrev main_call31_v13 : Ref sig .tc := ⟨.hbm, 783, rfl⟩
abbrev main_call31_v14 : Ref sig .tc := ⟨.hbm, 784, rfl⟩
abbrev main_call31_cst : Ref sig .tc := ⟨.hbm, 785, rfl⟩
abbrev main_call31_v15 : Ref sig .tc := ⟨.hbm, 786, rfl⟩
abbrev main_v349 : Ref sig .tc := ⟨.hbm, 787, rfl⟩
abbrev main_v350 : Ref sig .tc := ⟨.hbm, 788, rfl⟩
abbrev main_v351 : Ref sig .tc := ⟨.hbm, 789, rfl⟩
abbrev main_v352 : Ref sig .tc := ⟨.hbm, 790, rfl⟩
abbrev main_v353 : Ref sig .tc := ⟨.hbm, 791, rfl⟩
abbrev main_v354 : Ref sig .tc := ⟨.hbm, 792, rfl⟩
abbrev main_v355 : Ref sig .tc := ⟨.hbm, 793, rfl⟩
abbrev main_v356 : Ref sig .tc := ⟨.hbm, 794, rfl⟩
abbrev main_v357 : Ref sig .tc := ⟨.hbm, 795, rfl⟩

abbrev nD : Nat := 1
abbrev τ : Topo := Topo.v7x

variable {F : FTy → Type} [FloatOps F]

class Facts₀ : Prop where
  bcast_S_S4x40000x3 : S_.BroadcastsInDim S4x40000x3 (![] : Fin 0 → Fin S4x40000x3.rank)
  slices_S4x40000x3_S4x40000x1_0_0_0 : S4x40000x3.Slices ![0, 0, 0] S4x40000x1
  shapeCasts_S4x40000x1_S4x40000 : S4x40000x1.ShapeCasts S4x40000
  bcast_S_S4x40000 : S_.BroadcastsInDim S4x40000 (![] : Fin 0 → Fin S4x40000.rank)
  slices_S4x40000x3_S4x40000x1_0_0_1 : S4x40000x3.Slices ![0, 0, 1] S4x40000x1
  slices_S4x40000x3_S4x40000x1_0_0_2 : S4x40000x3.Slices ![0, 0, 2] S4x40000x1
  shapeCasts_S4x128x16x16x16_S4x128x4096 : S4x128x16x16x16.ShapeCasts S4x128x4096
  bcast_S4x40000_S4x1x40000_0_2 : S4x40000.BroadcastsInDim S4x1x40000 (![0, 2] : Fin 2 → Fin S4x1x40000.rank)
  bcast_S_S4x1x40000 : S_.BroadcastsInDim S4x1x40000 (![] : Fin 0 → Fin S4x1x40000.rank)
  shapeCasts_S4x1x40000_S4x40000x1 : S4x1x40000.ShapeCasts S4x40000x1
  bcast_S_S4x40000x1 : S_.BroadcastsInDim S4x40000x1 (![] : Fin 0 → Fin S4x40000x1.rank)
  bcast_S1_S1x1x1_2 : S1.BroadcastsInDim S1x1x1 (![2] : Fin 1 → Fin S1x1x1.rank)
  bcast_S1x1x1_S4x40000x1_0_1_2 : S1x1x1.BroadcastsInDim S4x40000x1 (![0, 1, 2] : Fin 3 → Fin S4x40000x1.rank)
  reducesTo_S4x40000x1_S4x40000_d2 : S4x40000x1.ReducesTo [2] S4x40000
  h_S_ : 0 < S_.numel
  bcast_S4x40000_S4x128x40000_0_2 : S4x40000.BroadcastsInDim S4x128x40000 (![0, 2] : Fin 2 → Fin S4x128x40000.rank)
  bcast_S_S4x128x40000 : S_.BroadcastsInDim S4x128x40000 (![] : Fin 0 → Fin S4x128x40000.rank)
  bcast_S4x1x40000_S4x128x40000_0_1_2 : S4x1x40000.BroadcastsInDim S4x128x40000 (![0, 1, 2] : Fin 3 → Fin S4x128x40000.rank)
  transposes_S4x128x40000_S4x40000x128_0_2_1 : S4x128x40000.Transposes [0, 2, 1] S4x40000x128
  concatenates_S4x40000x128_S4x40000x128_S4x40000x3_S4x40000x259_d2 : Shape.Concatenates [S4x40000x128, S4x40000x128, S4x40000x3] S4x40000x259 2
  dot_S4x40000x128_S128x3_S4x40000x3_2_0_01_1_n_n_wf : DotDims.WF S4x40000x128 S128x3 S4x40000x3 [2] [0] [0, 1] [1] [] []
  gather_S4x128x4096_S4x40000x1_S4x128x40000_1_2_0_0_2_2_11281_wf : GatherDims.WF S4x128x4096 S4x40000x1 S4x128x40000 [1] [2] [0] [2] [0] 2 ![1, 128, 1]

variable [Facts₀]

def dot_S4x40000x128_S128x3_S4x40000x3_2_0_01_1_n_n : DotDims S4x40000x128 S128x3 S4x40000x3 where
  lhsContracting := [2]
  rhsContracting := [0]
  lhsNonContracting := [0, 1]
  rhsNonContracting := [1]
  lhsBatch := []
  rhsBatch := []
  wf := dot_S4x40000x128_S128x3_S4x40000x3_2_0_01_1_n_n_wf
def gather_S4x128x4096_S4x40000x1_S4x128x40000_1_2_0_0_2_2_11281 : GatherDims S4x128x4096 S4x40000x1 S4x128x40000 where
  offsetDims := [1]
  collapsedSliceDims := [2]
  operandBatchingDims := [0]
  startIndicesBatchingDims := [0]
  startIndexMap := [2]
  indexVectorDim := 2
  sliceSizes := ![1, 128, 1]
  wf := gather_S4x128x4096_S4x40000x1_S4x128x40000_1_2_0_0_2_2_11281_wf

class Facts : Prop extends Facts₀ where

variable [Facts]
-- ==== Proof.TriSpec.lean ====
/-
  Trilinear sampling of a 16×16×16 volume, one row at a time, as plain functions on the extended reals.

  A row has three positions; each position `p` gives a grid coordinate `g = 2·p − 1`, a voxel coordinate
  `((g + 1)·½)·15`, its floor, its fractional part, and the two neighbouring cells `lo` and `hi = lo + 1`
  (as 32-bit words: the float-to-integer conversion saturates). A corner of the enclosing cube is a choice of
  `lo` or `hi` on each axis; it is inside the volume when every coordinate lies in [0, 16), its flat voxel
  number is computed from the coordinates clipped to [0, 15], and its weight is a product of fractional parts
  and their complements.

  Two spellings of the sampled value are stated: `skipK`, a contraction over all 4096 voxels against a row of
  eight superposed one-hot selectors scaled by the masked weights, and `skipR`, the eight looked-up voxels
  times their weights times the inside bit. `skipK_eq_skipR` says they agree whenever the volume entries and the
  positions are finite: over the reals this is the sifting property of a one-hot row and distributivity.
-/
import Idealize.ShloMosaic.PureOps.Ideal
import Idealize.ShloMosaic.Lib.ValueIdx

noncomputable section

namespace Cert.Tri

open Idealize.ShloMosaic

/-! ## The literals, kept as the words both programs print -/

def one : EReal := Ideal.ofBits .f32 0x3F800000#32
def two : EReal := Ideal.ofBits .f32 0x40000000#32
def half : EReal := Ideal.ofBits .f32 0x3F000000#32
def fifteen : EReal := Ideal.ofBits .f32 0x41700000#32
def zero : EReal := Ideal.ofBits .f32 0x00000000#32

/-! ## One axis -/

/-- The grid coordinate `2·p − 1` of a position. -/
def grid (p : EReal) : EReal := two * p - one
/-- The voxel coordinate `((g + 1)·½)·15` of a grid coordinate. -/
def coord (g : EReal) : EReal := ((g + one) * half) * fifteen
/-- Its floor (the infinities fixed). -/
def flo (g : EReal) : EReal := Ideal.liftRound Int.floor (coord g)
/-- Its fractional part. -/
def fra (g : EReal) : EReal := coord g - flo g
/-- The lower neighbouring cell, as a saturating 32-bit word. -/
def lo (g : EReal) : BitVec 32 := Ideal.fptosi 32 (flo g)
/-- The upper neighbouring cell. -/
def hi (g : EReal) : BitVec 32 := IntOp.addi (lo g) 1#32

/-! ## One corner -/

/-- The corner `(a, b, c)` lies inside the volume: `0 ≤ a < 16`, `0 ≤ b < 16`, `0 ≤ c < 16`, as one bit. -/
def inside (a b c : BitVec 32) : BitVec 1 :=
  IntOp.andi (IntOp.andi (IntOp.andi (IntOp.andi (IntOp.andi (IntOp.cmpi .sge a 0#32) (IntOp.cmpi .slt a 16#32))
    (IntOp.cmpi .sge b 0#32)) (IntOp.cmpi .slt b 16#32)) (IntOp.cmpi .sge c 0#32)) (IntOp.cmpi .slt c 16#32)
/-- A coordinate clipped to [0, 15]. -/
def clip (a : BitVec 32) : BitVec 32 := IntOp.minsi 15#32 (IntOp.maxsi 0#32 a)
/-- The flat voxel number `(clip c · 16 + clip b) · 16 + clip a` of the corner. -/
def flat (a b c : BitVec 32) : BitVec 32 :=
  IntOp.addi (IntOp.muli (IntOp.addi (IntOp.muli (clip c) 16#32) (clip b)) 16#32) (clip a)
/-- The same number as an index into the 4096 voxels. -/
def cellIx (a b c : BitVec 32) : Fin 4096 := ⟨(flat a b c).toNat % 4096, Nat.mod_lt _ (by decide)⟩

/-! ## The eight weights of a row -/

def w1 (gx gy gz : EReal) : EReal := ((one - fra gx) * (one - fra gy)) * (one - fra gz)
def w2 (gx gy gz : EReal) : EReal := (fra gx * (one - fra gy)) * (one - fra gz)
def w3 (gx gy gz : EReal) : EReal := ((one - fra gx) * fra gy) * (one - fra gz)
def w4 (gx gy gz : EReal) : EReal := (fra gx * fra gy) * (one - fra gz)
def w5 (gx gy gz : EReal) : EReal := ((one - fra gx) * (one - fra gy)) * fra gz
def w6 (gx gy gz : EReal) : EReal := (fra gx * (one - fra gy)) * fra gz
def w7 (gx gy gz : EReal) : EReal := ((one - fra gx) * fra gy) * fra gz
def w8 (gx gy gz : EReal) : EReal := (fra gx * fra gy) * fra gz

/-! ## The contraction spelling -/

/-- One corner's entry of the selector row at voxel `v`: the indicator of `v = flat a b c` (a bit widened to a
    word and read as a signed integer) times the weight masked by the inside bit. -/
def hot (a b c : BitVec 32) (w : EReal) (v : Fin 4096) : EReal :=
  ((((IntOp.cmpi .eq (BitVec.ofNat 32 v.val) (flat a b c)).setWidth 32).toInt : ℝ) : EReal)
    * Scalar.select (inside a b c) w zero

/-- The selector row of a row of positions: the eight corners' entries added in the order
    (lo,lo,lo), (hi,lo,lo), (lo,hi,lo), (hi,hi,lo), (lo,lo,hi), (hi,lo,hi), (lo,hi,hi), (hi,hi,hi). -/
def mix (gx gy gz : EReal) (v : Fin 4096) : EReal :=
  ((((((hot (lo gx) (lo gy) (lo gz) (w1 gx gy gz) v + hot (hi gx) (lo gy) (lo gz) (w2 gx gy gz) v)
    + hot (lo gx) (hi gy) (lo gz) (w3 gx gy gz) v) + hot (hi gx) (hi gy) (lo gz) (w4 gx gy gz) v)
    + hot (lo gx) (lo gy) (hi gz) (w5 gx gy gz) v) + hot (hi gx) (lo gy) (hi gz) (w6 gx gy gz) v)
    + hot (lo gx) (hi gy) (hi gz) (w7 gx gy gz) v) + hot (hi gx) (hi gy) (hi gz) (w8 gx gy gz) v

/-- The sampled value as a contraction of the selector row with the 4096 voxels of one channel. -/
def skipK (gx gy gz : EReal) (vol : Fin 4096 → EReal) : EReal := ∑ v : Fin 4096, mix gx gy gz v * vol v

/-! ## The look-up spelling -/

/-- One corner's term: the looked-up voxel times (the weight times the inside bit read as 0 or 1). -/
def tk (vol : Fin 4096 → EReal) (a b c : BitVec 32) (w : EReal) : EReal :=
  vol (cellIx a b c) * (w * (((inside a b c).toNat : ℝ) : EReal))

/-- The sampled value as the eight corner terms added in the same order. -/
def skipR (gx gy gz : EReal) (vol : Fin 4096 → EReal) : EReal :=
  ((((((tk vol (lo gx) (lo gy) (lo gz) (w1 gx gy gz) + tk vol (hi gx) (lo gy) (lo gz) (w2 gx gy gz))
    + tk vol (lo gx) (hi gy) (lo gz) (w3 gx gy gz)) + tk vol (hi gx) (hi gy) (lo gz) (w4 gx gy gz))
    + tk vol (lo gx) (lo gy) (hi gz) (w5 gx gy gz)) + tk vol (hi gx) (lo gy) (hi gz) (w6 gx gy gz))
    + tk vol (lo gx) (hi gy) (hi gz) (w7 gx gy gz)) + tk vol (hi gx) (hi gy) (hi gz) (w8 gx gy gz)

/-! ## A row of positions -/

/-- The inner product of a row of 128 features with a column of 128 weights. -/
def dot128 (x w : Fin 128 → EReal) : EReal := ∑ f : Fin 128, x f * w f

end Cert.Tri

end
-- ==== Proof.TriLaws.lean ====
/-
  Laws of the trilinear sampling functions: the clipped coordinates and the flat voxel number are small, a
  one-hot entry is a Kronecker delta, every row quantity of finite positions is a real number, and the
  contraction spelling of the sample equals the look-up spelling when the volume and the positions are finite.
-/
import proofs.«120255_j59700045415095_2_alg».proof.Proof.TriSpec
import Idealize.ShloMosaic.PureOps.Ideal.Laws

noncomputable section

namespace Cert.Tri

open Idealize.ShloMosaic

/-! ## Real numbers among the extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.floor {x : EReal} (hx : IsReal x) : IsReal (Ideal.liftRound Int.floor x) := by
  obtain ⟨a, rfl⟩ := hx; exact ⟨((⌊a⌋ : ℤ) : ℝ), rfl⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A finite sum of real numbers, taken among the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem zero_eq : zero = 0 := Ideal.ofBits_zero_f32

theorem isReal_zero : IsReal zero := ⟨0, by rw [zero_eq]; rfl⟩
theorem isReal_one : IsReal one := by
  unfold one IsReal; simp [Ideal.ofBits, Ideal.ieee]; exact ⟨_, (EReal.coe_mul _ _).symm⟩
theorem isReal_two : IsReal two := by
  unfold two IsReal; simp [Ideal.ofBits, Ideal.ieee]; exact ⟨_, (EReal.coe_mul _ _).symm⟩
theorem isReal_half : IsReal half := by
  unfold half IsReal; simp [Ideal.ofBits, Ideal.ieee]; exact ⟨_, (EReal.coe_mul _ _).symm⟩
theorem isReal_fifteen : IsReal fifteen := by
  unfold fifteen IsReal; simp [Ideal.ofBits, Ideal.ieee]; exact ⟨_, (EReal.coe_mul _ _).symm⟩

/-! ## Words: the clipped coordinates and the flat voxel number -/

theorem clip_toNat_le (a : BitVec 32) : (clip a).toNat ≤ 15 := by
  have key : ∀ y : BitVec 32, ¬ y.slt 0#32 = true → (IntOp.minsi 15#32 y).toNat ≤ 15 := by
    intro y hy
    unfold IntOp.minsi
    by_cases h2 : (15#32).slt y = true
    · rw [if_pos h2]; decide
    · rw [if_neg h2]
      have e1 : ¬ y.toInt < 0 := by
        intro hlt; apply hy; rw [BitVec.slt_iff_toInt_lt]; simpa using hlt
      have e2 : ¬ (15 : Int) < y.toInt := by
        intro hlt; apply h2; rw [BitVec.slt_iff_toInt_lt]; simpa using hlt
      have := BitVec.toInt_eq_toNat_cond y
      have hlt := y.isLt
      split at this <;> omega
  unfold clip
  apply key
  unfold IntOp.maxsi
  by_cases h1 : a.slt 0#32 = true
  · rw [if_pos h1]; decide
  · rw [if_neg h1]; exact h1

theorem flat_toNat (a b c : BitVec 32) :
    (flat a b c).toNat = ((clip c).toNat * 16 + (clip b).toNat) * 16 + (clip a).toNat := by
  have ha := clip_toNat_le a; have hb := clip_toNat_le b; have hc := clip_toNat_le c
  unfold flat IntOp.addi IntOp.muli
  simp only [BitVec.toNat_add, BitVec.toNat_mul, BitVec.toNat_ofNat]
  omega

theorem flat_toNat_lt (a b c : BitVec 32) : (flat a b c).toNat < 4096 := by
  have ha := clip_toNat_le a; have hb := clip_toNat_le b; have hc := clip_toNat_le c
  rw [flat_toNat]; omega

theorem cellIx_val (a b c : BitVec 32) : (cellIx a b c).val = (flat a b c).toNat := by
  unfold cellIx; exact Nat.mod_eq_of_lt (flat_toNat_lt a b c)

/-- The masked weight of a corner: the weight inside the volume, zero outside. -/
def masked (a b c : BitVec 32) (w : EReal) : EReal := Scalar.select (inside a b c) w zero

theorem masked_eq (a b c : BitVec 32) (w : EReal) :
    w * (((inside a b c).toNat : ℝ) : EReal) = masked a b c w := by
  unfold masked Scalar.select
  by_cases h : inside a b c = 1
  · rw [if_pos h, h]; simp
  · rw [if_neg h, ValueIdx.eq_zero_of_ne_one h, zero_eq]; simp

theorem IsReal.masked {a b c : BitVec 32} {w : EReal} (hw : IsReal w) : IsReal (masked a b c w) := by
  unfold Tri.masked Scalar.select; split
  · exact hw
  · exact isReal_zero

theorem bit_toInt (t : Bool) : ((((BitVec.ofBool t).setWidth 32).toInt : ℝ) : EReal) = if t = true then 1 else 0 := by
  have k1 : ((BitVec.ofBool true).setWidth 32).toInt = 1 := by decide
  have k0 : ((BitVec.ofBool false).setWidth 32).toInt = 0 := by decide
  cases t
  · rw [k0]; simp
  · rw [k1]; simp

/-- A one-hot entry is the Kronecker delta at the corner's voxel, times the masked weight. -/
theorem hot_eq (a b c : BitVec 32) (w : EReal) (v : Fin 4096) :
    hot a b c w v = (if v = cellIx a b c then (1 : EReal) else 0) * masked a b c w := by
  unfold hot masked
  congr 1
  show ((((BitVec.ofBool (BitVec.ofNat 32 v.val == flat a b c)).setWidth 32).toInt : ℝ) : EReal) = _
  rw [bit_toInt]
  have hv : v.val < 2 ^ 32 := lt_trans v.isLt (by norm_num)
  refine if_congr ?_ rfl rfl
  rw [beq_iff_eq]
  constructor
  · intro e; apply Fin.ext
    rw [cellIx_val, ← e, BitVec.toNat_ofNat, Nat.mod_eq_of_lt hv]
  · intro h
    apply BitVec.eq_of_toNat_eq
    rw [BitVec.toNat_ofNat, Nat.mod_eq_of_lt hv, h, cellIx_val]

/-! ## Finite rows -/

theorem isReal_grid {p : EReal} (hp : IsReal p) : IsReal (grid p) := (isReal_two.mul hp).sub isReal_one
theorem isReal_coord {g : EReal} (hg : IsReal g) : IsReal (coord g) :=
  ((hg.add isReal_one).mul isReal_half).mul isReal_fifteen
theorem isReal_flo {g : EReal} (hg : IsReal g) : IsReal (flo g) := (isReal_coord hg).floor
theorem isReal_fra {g : EReal} (hg : IsReal g) : IsReal (fra g) := (isReal_coord hg).sub (isReal_flo hg)
theorem isReal_cofra {g : EReal} (hg : IsReal g) : IsReal (one - fra g) := isReal_one.sub (isReal_fra hg)

theorem isReal_dot128 {x w : Fin 128 → EReal} (hx : ∀ f, IsReal (x f)) (hw : ∀ f, IsReal (w f)) : IsReal (dot128 x w) :=
  IsReal.sum _ _ fun f => (hx f).mul (hw f)

section weights
variable {gx gy gz : EReal} (hx : IsReal gx) (hy : IsReal gy) (hz : IsReal gz)
include hx hy hz
theorem isReal_w1 : IsReal (w1 gx gy gz) := ((isReal_cofra hx).mul (isReal_cofra hy)).mul (isReal_cofra hz)
theorem isReal_w2 : IsReal (w2 gx gy gz) := ((isReal_fra hx).mul (isReal_cofra hy)).mul (isReal_cofra hz)
theorem isReal_w3 : IsReal (w3 gx gy gz) := ((isReal_cofra hx).mul (isReal_fra hy)).mul (isReal_cofra hz)
theorem isReal_w4 : IsReal (w4 gx gy gz) := ((isReal_fra hx).mul (isReal_fra hy)).mul (isReal_cofra hz)
theorem isReal_w5 : IsReal (w5 gx gy gz) := ((isReal_cofra hx).mul (isReal_cofra hy)).mul (isReal_fra hz)
theorem isReal_w6 : IsReal (w6 gx gy gz) := ((isReal_fra hx).mul (isReal_cofra hy)).mul (isReal_fra hz)
theorem isReal_w7 : IsReal (w7 gx gy gz) := ((isReal_cofra hx).mul (isReal_fra hy)).mul (isReal_fra hz)
theorem isReal_w8 : IsReal (w8 gx gy gz) := ((isReal_fra hx).mul (isReal_fra hy)).mul (isReal_fra hz)
end weights

/-! ## The sifting law -/

/-- Eight superposed scaled one-hot rows contracted with a finite column pick out the eight entries: over the reals
    `∑ v, (∑ k, δ(v, i k) · m k) · vol v = ∑ k, vol (i k) · m k`, each side associated as the two programs add. -/
theorem sift (vol : Fin 4096 → EReal) (hvol : ∀ v, IsReal (vol v))
    (m1 m2 m3 m4 m5 m6 m7 m8 : EReal) (h1 : IsReal m1) (h2 : IsReal m2) (h3 : IsReal m3) (h4 : IsReal m4)
    (h5 : IsReal m5) (h6 : IsReal m6) (h7 : IsReal m7) (h8 : IsReal m8) (i1 i2 i3 i4 i5 i6 i7 i8 : Fin 4096) :
    (∑ v : Fin 4096, ((((((((if v = i1 then (1 : EReal) else 0) * m1 + (if v = i2 then (1 : EReal) else 0) * m2)
      + (if v = i3 then (1 : EReal) else 0) * m3) + (if v = i4 then (1 : EReal) else 0) * m4)
      + (if v = i5 then (1 : EReal) else 0) * m5) + (if v = i6 then (1 : EReal) else 0) * m6)
      + (if v = i7 then (1 : EReal) else 0) * m7) + (if v = i8 then (1 : EReal) else 0) * m8) * vol v)
    = ((((((vol i1 * m1 + vol i2 * m2) + vol i3 * m3) + vol i4 * m4) + vol i5 * m5) + vol i6 * m6) + vol i7 * m7)
      + vol i8 * m8 := by
  obtain ⟨r1, rfl⟩ := h1; obtain ⟨r2, rfl⟩ := h2; obtain ⟨r3, rfl⟩ := h3; obtain ⟨r4, rfl⟩ := h4
  obtain ⟨r5, rfl⟩ := h5; obtain ⟨r6, rfl⟩ := h6; obtain ⟨r7, rfl⟩ := h7; obtain ⟨r8, rfl⟩ := h8
  choose volr hvolr using hvol
  have hd : ∀ (v i : Fin 4096), (if v = i then (1 : EReal) else 0) = (((if v = i then (1 : ℝ) else 0) : ℝ) : EReal) := by
    intro v i; split <;> simp
  simp only [hvolr, hd, ← EReal.coe_mul, ← EReal.coe_add]
  rw [coe_sum, EReal.coe_eq_coe_iff]
  simp only [add_mul, Finset.sum_add_distrib, ite_mul, one_mul, zero_mul, Finset.sum_ite_eq', Finset.mem_univ, if_true]
  ring

/-- The two spellings of the sampled value agree for finite grid coordinates and a finite channel. -/
theorem skipK_eq_skipR (gx gy gz : EReal) (vol : Fin 4096 → EReal) (hx : IsReal gx) (hy : IsReal gy) (hz : IsReal gz)
    (hvol : ∀ v, IsReal (vol v)) : skipK gx gy gz vol = skipR gx gy gz vol := by
  unfold skipK skipR mix tk
  simp only [hot_eq, masked_eq]
  exact sift vol hvol _ _ _ _ _ _ _ _ (isReal_w1 hx hy hz).masked (isReal_w2 hx hy hz).masked (isReal_w3 hx hy hz).masked
    (isReal_w4 hx hy hz).masked (isReal_w5 hx hy hz).masked (isReal_w6 hx hy hz).masked (isReal_w7 hx hy hz).masked
    (isReal_w8 hx hy hz).masked _ _ _ _ _ _ _ _

end Cert.Tri

end
-- ==== Proof.Finite.lean ====
/-
  From the precondition to real entries. The precondition is the conjunction, over the three float arguments, of
  "every entry's absolute value is below +∞"; at the extended reals an entry with max(x, −x) < ⊤ is neither
  infinity, that is, a real number.
-/
import proofs.«120255_j59700045415095_2_alg».proof.Pre_finite_inputs
import proofs.«120255_j59700045415095_2_alg».proof.Proof.TriLaws
import Idealize.ShloMosaic.Lib.ReduceAll

noncomputable section

namespace Cert.Finite

open Idealize.ShloMosaic Cert.Pre_finite_inputs Cert.Tri

instance : Subsingleton S_.Idx := ⟨fun _ _ => funext fun d => d.elim0⟩

/-- An extended real whose absolute value compares below the pattern of +∞ is a real number. -/
theorem isReal_of_abs_lt (x : EReal)
    (h : FloatOps.cmpf (F := Ideal) (φ := .f32) .olt (FloatOps.hostAbsf x) (FloatOps.ofBits .f32 0x7F800000#32) = 1#1) :
    IsReal x := by
  have htop : Ideal.ofBits .f32 0x7F800000#32 = ⊤ := by simp [Ideal.ofBits, Ideal.ieee]
  have h' : max x (-x) < ⊤ := by
    have : Ideal.cmp .olt (max x (-x)) (Ideal.ofBits .f32 0x7F800000#32) = 1#1 := h
    rw [htop] at this
    have hb : decide (max x (-x) < (⊤ : EReal)) = true := by
      by_contra hne
      rw [Bool.not_eq_true] at hne
      rw [show Ideal.cmp .olt (max x (-x)) ⊤ = BitVec.ofBool (decide (max x (-x) < ⊤)) from rfl, hne] at this
      exact absurd this (by decide)
    exact of_decide_eq_true hb
  induction x using EReal.rec with
  | bot => simp at h'
  | top => simp at h'
  | coe r => exact ⟨r, rfl⟩

/-- Under the precondition every entry of the three float arguments is a real number. -/
theorem real_of_pre [Facts] (a0 : FVec Ideal S4x40000x128 .f32) (a1 : IVec S2x320000 32)
    (a2 : FVec Ideal S4x128x16x16x16 .f32) (a3 : FVec Ideal S128x3 .f32)
    (h : fn (F := Ideal) a0 a1 a2 a3 = fun _ => 1#1) :
    (∀ i, IsReal (a0 i)) ∧ (∀ i, IsReal (a2 i)) ∧ (∀ i, IsReal (a3 i)) := by
  have h0 := congrFun h ValueIdx.ix0
  dsimp only [fn] at h0
  obtain ⟨h01, h3⟩ := IntOp.andi_eq_one.1 h0
  obtain ⟨h1, h2⟩ := IntOp.andi_eq_one.1 h01
  refine ⟨fun i => isReal_of_abs_lt _ ?_, fun i => isReal_of_abs_lt _ ?_, fun i => isReal_of_abs_lt _ ?_⟩
  · exact Host.reduce_andi_all _ _ _ _ _ h1 i
  · exact Host.reduce_andi_all _ _ _ _ _ h2 i
  · exact Host.reduce_andi_all _ _ _ _ _ h3 i

end Cert.Finite

end
-- ==== Proof.KTerms.lean ====
/-
  The kernel body's values as pure terms of the three loaded blocks (the block of x, the weight matrix, the block of
  the transposed volume): the body is one straight line, so each intermediate value is the composition of the
  generated payload terms in program order. `wsel` is the selector matrix after all eight corners have been added,
  `skipBlk` the block stored into columns 128…255 of the output block, `posBlk` the positions.
-/
import proofs.«120255_j59700045415095_2_alg».proof.Proof.Gen.KernelIdeal.Skeleton

noncomputable section

namespace Cert.KernelIdeal.Body

open Cert.KernelIdeal Cert.KernelIdeal.Gen Idealize.ShloMosaic

variable {F : FTy → Type} [FloatOps F]

/-- The column index 0 … 4095 along the voxel axis, as the body builds it. -/
def iotaV : IVec S800x4096 32 := iota .tc S800x4096 32 [1] iota_S800x4096_d1_w32

/-- The positions `x · W` of the block's 800 rows. -/
def posBlk (x0 : Vec F S1x800x128 .f32) (x1 : Vec F S128x3 .f32) : FVec F S800x3 .f32 := k0_pay6 x0 x1

/-- The selector matrix and the last corner's masked weight and indicator, in program order. -/
def skipBlk (x0 : Vec F S1x800x128 .f32) (x1 : Vec F S128x3 .f32) (x2 : Vec F S1x4096x128 .bf16) : FVec F S1x800x128 .f32 :=
  let v34 := k0_pay14 x0 x1; let v35 := k0_pay15 x0 x1; let v36 := k0_pay16 x0 x1
  let v37 := k0_pay17 x0 x1; let v38 := k0_pay18 x0 x1; let v39 := k0_pay19 x0 x1
  let v41 := k0_pay20 v37 1#32; let v43 := k0_pay21 v38; let v45 := k0_pay22 v39
  let v47 := k0_pay23 x2; let v48 : IVec S800x4096 32 := iotaV
  let v56 := k0_pay24 v34 v35 v36; let v73 := k0_pay25 v37 v38 v39; let v77 := k0_pay26 v37; let v81 := k0_pay27 v38
  let v100 := k0_pay28 v39 v48 v56 v73 v77 v81; let v106 := k0_pay29 v34 v35 v36; let v123 := k0_pay30 v38 v39 v41
  let v125 := k0_pay31 v41; let v126 : IVec S800x1 32 := k0_pay32
  let v151 := k0_pay33 v38 v39 v48 v100 v106 v123 v125 v126; let v157 := k0_pay34 v34 v35 v36; let v171 := k0_pay35 v37 v39 v43
  let v202 := k0_pay36 v37 v39 v43 v48 v151 v157 v171 16#32; let v206 := k0_pay37 v34 v35 v36; let v217 := k0_pay38 v41 v43
  let v251 := k0_pay39 v39 v41 v43 v48 v202 v206 v217; let v257 := k0_pay40 v34 v35 v36; let v262 := k0_pay41 v37
  let v302 := k0_pay42 v37 v38 v45 v48 v251 v257 v262; let v306 := k0_pay43 v34 v35 v36; let v307 : IVec S800x1 32 := k0_pay44
  let v351 := k0_pay45 v38 v41 v45 v48 v302 v306 v307; let v352 : FVec F S800x1 .f32 := k0_pay46
  let v396 : FVec F S800x4096 .f32 := k0_pay47 v37 v43 v45 v48; let v397 := k0_pay48 v34 v35 v36 v37 v43 v45 v352
  let v400 := k0_pay49 v351 v396 v397; let v439 := k0_pay50 v34 v35 v36 v41 v43 v45; let v442 := k0_pay51 v41 v43 v45 v48
  k0_pay2 v47 v400 v439 v442

end Cert.KernelIdeal.Body

end
-- ==== Proof.KPayA.lean ====
/-
  The positions of a block of 800 rows, read at an index: each is the inner product of the row's 128 features with
  one column of the weight matrix.
-/
import proofs.«120255_j59700045415095_2_alg».proof.Proof.KTerms
import proofs.«120255_j59700045415095_2_alg».proof.Proof.TriSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The position of row `r` on axis `o`: the inner product of the row's 128 features with column `o` of the weights. -/
def posK (x0 : Vec Ideal S1x800x128 .f32) (x1 : Vec Ideal S128x3 .f32) (r : Fin 800) (o : Fin 3) : EReal :=
  Cert.Tri.dot128 (fun f => x0 (ix3 (0 : Fin 1) r f)) (fun f => x1 (ix2 f o))

/-! ## The positions: a product of the block's rows with the weight matrix into a zero accumulator -/

theorem posDot_lhs0 (i : S800x3.Idx) (q : dot_S800x128_S128x3_S800x3_1_0_0_1_n_n.contr.Idx) :
    (dot_S800x128_S128x3_S800x3_1_0_0_1_n_n.lhsIdx i q 0).val = (i 0).val := by
  unfold DotDims.lhsIdx
  rw [dif_neg (show ¬(0 : Fin S800x128.rank) ∈ dot_S800x128_S128x3_S800x3_1_0_0_1_n_n.lhsBatch by decide), dif_pos (show (0 : Fin S800x128.rank) ∈ dot_S800x128_S128x3_S800x3_1_0_0_1_n_n.lhsNonContracting by decide)]
  rfl
theorem posDot_lhs1 (i : S800x3.Idx) (q : dot_S800x128_S128x3_S800x3_1_0_0_1_n_n.contr.Idx) :
    (dot_S800x128_S128x3_S800x3_1_0_0_1_n_n.lhsIdx i q 1).val = (q ⟨0, by decide⟩).val :=
  dot_S800x128_S128x3_S800x3_1_0_0_1_n_n.lhsIdx_val_of_single rfl i q
theorem posDot_rhs0 (i : S800x3.Idx) (q : dot_S800x128_S128x3_S800x3_1_0_0_1_n_n.contr.Idx) :
    (dot_S800x128_S128x3_S800x3_1_0_0_1_n_n.rhsIdx i q 0).val = (q ⟨0, by decide⟩).val :=
  dot_S800x128_S128x3_S800x3_1_0_0_1_n_n.rhsIdx_val_of_single rfl i q
theorem posDot_rhs1 (i : S800x3.Idx) (q : dot_S800x128_S128x3_S800x3_1_0_0_1_n_n.contr.Idx) :
    (dot_S800x128_S128x3_S800x3_1_0_0_1_n_n.rhsIdx i q 1).val = (i 1).val := by
  unfold DotDims.rhsIdx
  rw [dif_neg (show ¬(1 : Fin S128x3.rank) ∈ dot_S800x128_S128x3_S800x3_1_0_0_1_n_n.rhsBatch by decide), dif_pos (show (1 : Fin S128x3.rank) ∈ dot_S800x128_S128x3_S800x3_1_0_0_1_n_n.rhsNonContracting by decide)]
  rfl

/-- The positions' block at `(r, o)` is the inner product of row `r` of the block of features with column `o` of
    the weights: the contraction runs over the one shared axis of 128 features, the accumulator is zero, and the
    change of float format on the way in is the identity on extended reals. -/
theorem posBlk_apply (x0 : Vec Ideal S1x800x128 .f32) (x1 : Vec Ideal S128x3 .f32) (r : Fin 800) (o : Fin 3) :
    posBlk (F := Ideal) x0 x1 (ix2 r o) = posK x0 x1 r o := by
  unfold posBlk k0_pay6 k0_pay5
  refine (Ideal.matmul_constant_zero_apply dot_S800x128_S128x3_S800x3_1_0_0_1_n_n none _ _ (ix2 r o)).trans ?_
  rw [← Equiv.sum_comp (contrEquiv1 dot_S800x128_S128x3_S800x3_1_0_0_1_n_n 128 rfl rfl).symm]
  unfold posK Cert.Tri.dot128
  refine Finset.sum_congr rfl fun k _ => ?_
  have hk := contrEquiv1_symm_val dot_S800x128_S128x3_S800x3_1_0_0_1_n_n 128 rfl rfl k
  have el : dot_S800x128_S128x3_S800x3_1_0_0_1_n_n.lhsIdx (ix2 r o) ((contrEquiv1 dot_S800x128_S128x3_S800x3_1_0_0_1_n_n 128 rfl rfl).symm k) = ix2 r k := funext fun a => Fin.ext (by
    match a with
    | ⟨0, _⟩ => exact posDot_lhs0 _ _
    | ⟨1, _⟩ => exact (posDot_lhs1 _ _).trans hk)
  have er : dot_S800x128_S128x3_S800x3_1_0_0_1_n_n.rhsIdx (ix2 r o) ((contrEquiv1 dot_S800x128_S128x3_S800x3_1_0_0_1_n_n 128 rfl rfl).symm k) = ix2 k o := funext fun a => Fin.ext (by
    match a with
    | ⟨0, _⟩ => exact (posDot_rhs0 _ _).trans hk
    | ⟨1, _⟩ => exact posDot_rhs1 _ _)
  rw [el, er]
  show shapeCast S800x128 x0 shapeCasts_S1x800x128_S800x128 (ix2 r k) * x1 (ix2 k o) = x0 (ix3 (0 : Fin 1) r k) * x1 (ix2 k o)
  rw [shapeCast_1ab_ab_apply]

end Cert.KernelIdeal.Body

end
-- ==== Proof.OutSpec.lean ====
/-
  The two result arrays as whole-array functions of the arguments, index by index: the positions
  `p[b,n,o] = ∑ f, x[b,n,f] · W[f,o]`, and the 259-wide rows `x[b,n,·] ‖ sample[b,n,·] ‖ p[b,n,·]`, where
  `sample[b,n,c]` is the trilinear sample of channel `c` of volume `b` (flattened to 4096 voxels) at the grid
  coordinates `2·p − 1`. The sample is stated in its contraction spelling (`outK`) and in its look-up spelling
  (`outR`); for finite arguments they are one function.
-/
import proofs.«120255_j59700045415095_2_alg».proof.Proof.TriLaws

noncomputable section

namespace Cert.Tri

open Idealize.ShloMosaic Idealize.ShloMosaic.ValueIdx

abbrev SX : Shape := ⟨3, ![4, 40000, 128]⟩
abbrev SW : Shape := ⟨2, ![128, 3]⟩
abbrev SVol : Shape := ⟨3, ![4, 128, 4096]⟩
abbrev SOut : Shape := ⟨3, ![4, 40000, 259]⟩
abbrev SPos : Shape := ⟨3, ![4, 40000, 3]⟩

/-- The position `o` of row `n` of batch `b`. -/
def posAt (a0 : SX.Idx → EReal) (a3 : SW.Idx → EReal) (b : Fin 4) (n : Fin 40000) (o : Fin 3) : EReal :=
  dot128 (fun f => a0 (ix3 b n f)) (fun f => a3 (ix2 f o))

/-- Its grid coordinate. -/
def gAt (a0 : SX.Idx → EReal) (a3 : SW.Idx → EReal) (b : Fin 4) (n : Fin 40000) (o : Fin 3) : EReal :=
  grid (posAt a0 a3 b n o)

/-- A 259-wide row: 128 features, 128 samples, 3 positions. -/
def outRow (x s : Fin 128 → EReal) (p : Fin 3 → EReal) (j : Fin 259) : EReal :=
  if h : j.val < 128 then x ⟨j.val, h⟩
  else if h2 : j.val < 256 then s ⟨j.val - 128, by omega⟩ else p ⟨j.val - 256, by omega⟩

theorem outRow_x (x s : Fin 128 → EReal) (p : Fin 3 → EReal) (f : Fin 128) :
    outRow x s p ⟨f.val, by omega⟩ = x f := by
  unfold outRow; rw [dif_pos f.isLt]

theorem outRow_s (x s : Fin 128 → EReal) (p : Fin 3 → EReal) (c : Fin 128) :
    outRow x s p ⟨128 + c.val, by omega⟩ = s c := by
  unfold outRow
  rw [dif_neg (by show ¬ 128 + c.val < 128; omega), dif_pos (by show 128 + c.val < 256; omega)]
  congr 1; apply Fin.ext; show 128 + c.val - 128 = c.val; omega

theorem outRow_p (x s : Fin 128 → EReal) (p : Fin 3 → EReal) (o : Fin 3) :
    outRow x s p ⟨256 + o.val, by omega⟩ = p o := by
  unfold outRow
  rw [dif_neg (by show ¬ 256 + o.val < 128; omega), dif_neg (by show ¬ 256 + o.val < 256; omega)]
  congr 1; apply Fin.ext; show 256 + o.val - 256 = o.val; omega

/-- Every index of a 259-wide row is a feature, a sample or a position. -/
theorem row_cases (j : Fin 259) :
    (∃ f : Fin 128, j = ⟨f.val, by omega⟩) ∨ (∃ c : Fin 128, j = ⟨128 + c.val, by omega⟩)
      ∨ (∃ o : Fin 3, j = ⟨256 + o.val, by omega⟩) := by
  by_cases h1 : j.val < 128
  · exact Or.inl ⟨⟨j.val, h1⟩, rfl⟩
  · by_cases h2 : j.val < 256
    · exact Or.inr (Or.inl ⟨⟨j.val - 128, by omega⟩, Fin.ext (by show j.val = 128 + (j.val - 128); omega)⟩)
    · exact Or.inr (Or.inr ⟨⟨j.val - 256, by omega⟩, Fin.ext (by show j.val = 256 + (j.val - 256); omega)⟩)

/-- The positions array. -/
def posArr (a0 : SX.Idx → EReal) (a3 : SW.Idx → EReal) : SPos.Idx → EReal :=
  fun i => posAt a0 a3 (i 0) (i 1) (i 2)

/-- The wide array, the sample spelt as a contraction over the voxels. -/
def outK (a0 : SX.Idx → EReal) (vol : SVol.Idx → EReal) (a3 : SW.Idx → EReal) : SOut.Idx → EReal :=
  fun i => outRow (fun f => a0 (ix3 (i 0) (i 1) f))
    (fun c => skipK (gAt a0 a3 (i 0) (i 1) 0) (gAt a0 a3 (i 0) (i 1) 1) (gAt a0 a3 (i 0) (i 1) 2) (fun v => vol (ix3 (i 0) c v)))
    (fun o => posAt a0 a3 (i 0) (i 1) o) (i 2)

/-- The wide array, the sample spelt as eight look-ups. -/
def outR (a0 : SX.Idx → EReal) (vol : SVol.Idx → EReal) (a3 : SW.Idx → EReal) : SOut.Idx → EReal :=
  fun i => outRow (fun f => a0 (ix3 (i 0) (i 1) f))
    (fun c => skipR (gAt a0 a3 (i 0) (i 1) 0) (gAt a0 a3 (i 0) (i 1) 1) (gAt a0 a3 (i 0) (i 1) 2) (fun v => vol (ix3 (i 0) c v)))
    (fun o => posAt a0 a3 (i 0) (i 1) o) (i 2)

theorem isReal_gAt {a0 : SX.Idx → EReal} {a3 : SW.Idx → EReal} (h0 : ∀ i, IsReal (a0 i)) (h3 : ∀ i, IsReal (a3 i))
    (b : Fin 4) (n : Fin 40000) (o : Fin 3) : IsReal (gAt a0 a3 b n o) :=
  isReal_grid (isReal_dot128 (fun _ => h0 _) (fun _ => h3 _))

/-- For finite arguments the two spellings are one array. -/
theorem outK_eq_outR {a0 : SX.Idx → EReal} {vol : SVol.Idx → EReal} {a3 : SW.Idx → EReal}
    (h0 : ∀ i, IsReal (a0 i)) (hv : ∀ i, IsReal (vol i)) (h3 : ∀ i, IsReal (a3 i)) : outK a0 vol a3 = outR a0 vol a3 := by
  funext i
  unfold outK outR
  congr 1
  funext c
  exact skipK_eq_skipR _ _ _ _ (isReal_gAt h0 h3 _ _ _) (isReal_gAt h0 h3 _ _ _) (isReal_gAt h0 h3 _ _ _) (fun _ => hv _)

end Cert.Tri

end
-- ==== Proof.KPieces.lean ====
/-
  What the kernel body's stores leave in the two output staging buffers, read at an index: the first 128 columns of the
  259-wide block are the block of x, columns 128…255 the trilinear samples, columns 256…258 the positions; the 3-wide
  block holds the positions.
-/
import proofs.«120255_j59700045415095_2_alg».proof.Proof.Gen.KernelIdeal.Frame
import proofs.«120255_j59700045415095_2_alg».proof.Proof.KTerms
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.ValueIdx Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl

theorem hz2 : (![0, 0] : Fin 2 → Nat) = fun _ => 0 := funext fun a => by fin_cases a <;> rfl

/-- The 3-wide block is written by one store of the whole block: the positions behind a leading unit axis. -/
theorem out4_eq (c : Dev nD) (i : grid0.Coords) (arg2 : Memref sig .tc .vmem S1x800x128 .f32) (harg2 : arg2.IsWhole) (arg3 : Memref sig .tc .vmem S128x3 .f32) (harg3 : arg3.IsWhole) (arg4 : Memref sig .tc .vmem S1x4096x128 .bf16) (harg4 : arg4.IsWhole) (arg5 : Memref sig .tc .vmem S1x800x259 .f32) (harg5 : arg5.IsWhole) (arg6 : Memref sig .tc .vmem S1x800x3 .f32) (harg6 : arg6.IsWhole)
    (x0 : Vec F S1x800x128 .f32) (x1 : Vec F S128x3 .f32) (x2 : Vec F S1x4096x128 .bf16) :
    out0_A_4 c i arg2 harg2 arg3 harg3 arg4 harg4 arg5 harg5 arg6 harg6 x0 x1 x2 = k0_pay4 (posBlk x0 x1) := by
  unfold out0_A_4
  rw [View.read_writes_junk_eq_canon]
  unfold kernelRun0_A
  dsimp only
  sl_unfold_words
  rw [View.canon_unit_zero (S := S1x800x3) hz3]
  simp only [View.readAt_eq_ld, harg2.read_unread, harg3.read_unread, View.ld_unit_zero (S := S1x800x128) hz3,
    View.ld_unit_zero (S := S128x3) hz2]
  rfl

/-- Row `r`, column `o` of the 3-wide block is position `o` of row `r`. -/
theorem out4_pos (c : Dev nD) (i : grid0.Coords) (arg2 : Memref sig .tc .vmem S1x800x128 .f32) (harg2 : arg2.IsWhole) (arg3 : Memref sig .tc .vmem S128x3 .f32) (harg3 : arg3.IsWhole) (arg4 : Memref sig .tc .vmem S1x4096x128 .bf16) (harg4 : arg4.IsWhole) (arg5 : Memref sig .tc .vmem S1x800x259 .f32) (harg5 : arg5.IsWhole) (arg6 : Memref sig .tc .vmem S1x800x3 .f32) (harg6 : arg6.IsWhole)
    (x0 : Vec F S1x800x128 .f32) (x1 : Vec F S128x3 .f32) (x2 : Vec F S1x4096x128 .bf16) (r : Fin 800) (o : Fin 3) :
    out0_A_4 c i arg2 harg2 arg3 harg3 arg4 harg4 arg5 harg5 arg6 harg6 x0 x1 x2 (ix3 (0 : Fin 1) r o) = posBlk x0 x1 (ix2 r o) := by
  rw [out4_eq]
  unfold k0_pay4
  refine (shapeCast_addUnit_apply ![800, 3] _ _ _).trans ?_
  exact congrArg _ (funext fun a => by match a with | ⟨0, _⟩ => rfl | ⟨1, _⟩ => rfl)

/-! ## The 259-wide block: three stores into disjoint column ranges -/

/-- Columns 256…258 (the last store), -/
abbrev rPos : Rect S1x800x259 := Rect.unit ![0, 0, 256] S1x800x3.size inb_S1x800x259_S1x800x3_0_0_256
/-- columns 128…255 (the second store), -/
abbrev rSkip : Rect S1x800x259 := Rect.unit ![0, 0, 128] S1x800x128.size inb_S1x800x259_S1x800x128_0_0_128
/-- columns 0…127 (the first store). -/
abbrev rX : Rect S1x800x259 := Rect.unit ![0, 0, 0] S1x800x128.size inb_S1x800x259_S1x800x128_0_0_0

/-- What the three stores leave, as the overlay of their payloads (last store first). -/
theorem out3_canon (c : Dev nD) (i : grid0.Coords) (arg2 : Memref sig .tc .vmem S1x800x128 .f32) (harg2 : arg2.IsWhole) (arg3 : Memref sig .tc .vmem S128x3 .f32) (harg3 : arg3.IsWhole) (arg4 : Memref sig .tc .vmem S1x4096x128 .bf16) (harg4 : arg4.IsWhole) (arg5 : Memref sig .tc .vmem S1x800x259 .f32) (harg5 : arg5.IsWhole) (arg6 : Memref sig .tc .vmem S1x800x3 .f32) (harg6 : arg6.IsWhole)
    (x0 : Vec F S1x800x128 .f32) (x1 : Vec F S128x3 .f32) (x2 : Vec F S1x4096x128 .bf16) :
    out0_A_3 c i arg2 harg2 arg3 harg3 arg4 harg4 arg5 harg5 arg6 harg6 x0 x1 x2 = View.canon
      [(⟨rPos, k0_pay3 (posBlk x0 x1)⟩ : View.Piece (Elt F) S1x800x259 .f32),
       ⟨rSkip, skipBlk x0 x1 x2⟩, ⟨rX, k0_pay1 (k0_pay5 x0)⟩] := by
  unfold out0_A_3
  rw [View.read_writes_junk_eq_canon]
  unfold kernelRun0_A
  dsimp only
  sl_unfold_words
  simp only [View.readAt_eq_ld, harg2.read_unread, harg3.read_unread, harg4.read_unread, View.ld_unit_zero (S := S1x800x128) hz3,
    View.ld_unit_zero (S := S128x3) hz2, View.ld_unit_zero (S := S1x4096x128) hz3]
  rfl

/-- Off the last write's rectangle the overlay is the overlay of the earlier writes; -/
theorem canon_skip {S : Shape} {e : EltTy} (rr : Rect S) (w : rr.shape.Idx → Elt F e) (L : List (View.Piece (Elt F) S e))
    (y : S.Idx) (h : y ∉ rr.set) : View.canon ((⟨rr, w⟩ : View.Piece (Elt F) S e) :: L) y = View.canon L y :=
  View.canon_cons_of_not_mem ⟨rr, w⟩ L h

/-- on it, that write's payload. -/
theorem canon_hit {S : Shape} {e : EltTy} (rr : Rect S) (w : rr.shape.Idx → Elt F e) (L : List (View.Piece (Elt F) S e))
    (x : rr.shape.Idx) (y : S.Idx) (h : rr.emb x = y) : View.canon ((⟨rr, w⟩ : View.Piece (Elt F) S e) :: L) y = w x := by
  subst h; exact View.canon_cons_emb rr w L x

/-- A column below 256 is outside the last store's rectangle, -/
theorem not_mem_rPos (r : Fin 800) (k : Fin 259) (hk : k.val < 256) : (ix3 (0 : Fin 1) r k : S1x800x259.Idx) ∉ rPos.set := fun h => by
  have h2 := (Rect.mem_set_unit.mp h (2 : Fin 3)).1
  have h3 : (256 : Nat) ≤ k.val := h2
  omega

/-- a column below 128 outside the second store's. -/
theorem not_mem_rSkip (r : Fin 800) (k : Fin 259) (hk : k.val < 128) : (ix3 (0 : Fin 1) r k : S1x800x259.Idx) ∉ rSkip.set := fun h => by
  have h2 := (Rect.mem_set_unit.mp h (2 : Fin 3)).1
  have h3 : (128 : Nat) ≤ k.val := h2
  omega

theorem emb_rPos (r : Fin 800) (o : Fin 3) :
    rPos.emb (ix3 (0 : Fin 1) r o) = (ix3 (0 : Fin 1) r (⟨256 + o.val, by omega⟩ : Fin 259) : S1x800x259.Idx) :=
  funext fun a => Fin.ext (by
    match a with
    | ⟨0, _⟩ => show 0 + 1 * (0 : Fin 1).val = (0 : Fin 1).val; omega
    | ⟨1, _⟩ => show 0 + 1 * r.val = r.val; omega
    | ⟨2, _⟩ => show 256 + 1 * o.val = 256 + o.val; omega)

theorem emb_rSkip (r : Fin 800) (ch : Fin 128) :
    rSkip.emb (ix3 (0 : Fin 1) r ch) = (ix3 (0 : Fin 1) r (⟨128 + ch.val, by omega⟩ : Fin 259) : S1x800x259.Idx) :=
  funext fun a => Fin.ext (by
    match a with
    | ⟨0, _⟩ => show 0 + 1 * (0 : Fin 1).val = (0 : Fin 1).val; omega
    | ⟨1, _⟩ => show 0 + 1 * r.val = r.val; omega
    | ⟨2, _⟩ => show 128 + 1 * ch.val = 128 + ch.val; omega)

theorem emb_rX (r : Fin 800) (f : Fin 128) :
    rX.emb (ix3 (0 : Fin 1) r f) = (ix3 (0 : Fin 1) r (⟨f.val, by omega⟩ : Fin 259) : S1x800x259.Idx) :=
  funext fun a => Fin.ext (by
    match a with
    | ⟨0, _⟩ => show 0 + 1 * (0 : Fin 1).val = (0 : Fin 1).val; omega
    | ⟨1, _⟩ => show 0 + 1 * r.val = r.val; omega
    | ⟨2, _⟩ => show 0 + 1 * f.val = f.val; omega)

/-- Columns 256…258 of row `r` hold the positions of row `r`. -/
theorem out3_pos (c : Dev nD) (i : grid0.Coords) (arg2 : Memref sig .tc .vmem S1x800x128 .f32) (harg2 : arg2.IsWhole) (arg3 : Memref sig .tc .vmem S128x3 .f32) (harg3 : arg3.IsWhole) (arg4 : Memref sig .tc .vmem S1x4096x128 .bf16) (harg4 : arg4.IsWhole) (arg5 : Memref sig .tc .vmem S1x800x259 .f32) (harg5 : arg5.IsWhole) (arg6 : Memref sig .tc .vmem S1x800x3 .f32) (harg6 : arg6.IsWhole)
    (x0 : Vec F S1x800x128 .f32) (x1 : Vec F S128x3 .f32) (x2 : Vec F S1x4096x128 .bf16) (r : Fin 800) (o : Fin 3) :
    out0_A_3 c i arg2 harg2 arg3 harg3 arg4 harg4 arg5 harg5 arg6 harg6 x0 x1 x2 (ix3 (0 : Fin 1) r (⟨256 + o.val, by omega⟩ : Fin 259)) = posBlk x0 x1 (ix2 r o) := by
  rw [out3_canon]
  refine (canon_hit rPos _ _ (ix3 (0 : Fin 1) r o) _ (emb_rPos r o)).trans ?_
  unfold k0_pay3
  refine (shapeCast_addUnit_apply ![800, 3] _ _ _).trans ?_
  exact congrArg _ (funext fun a => by match a with | ⟨0, _⟩ => rfl | ⟨1, _⟩ => rfl)

/-- Columns 128…255 of row `r` hold the stored sample block's row `r`. -/
theorem out3_skip (c : Dev nD) (i : grid0.Coords) (arg2 : Memref sig .tc .vmem S1x800x128 .f32) (harg2 : arg2.IsWhole) (arg3 : Memref sig .tc .vmem S128x3 .f32) (harg3 : arg3.IsWhole) (arg4 : Memref sig .tc .vmem S1x4096x128 .bf16) (harg4 : arg4.IsWhole) (arg5 : Memref sig .tc .vmem S1x800x259 .f32) (harg5 : arg5.IsWhole) (arg6 : Memref sig .tc .vmem S1x800x3 .f32) (harg6 : arg6.IsWhole)
    (x0 : Vec F S1x800x128 .f32) (x1 : Vec F S128x3 .f32) (x2 : Vec F S1x4096x128 .bf16) (r : Fin 800) (ch : Fin 128) :
    out0_A_3 c i arg2 harg2 arg3 harg3 arg4 harg4 arg5 harg5 arg6 harg6 x0 x1 x2 (ix3 (0 : Fin 1) r (⟨128 + ch.val, by omega⟩ : Fin 259)) = skipBlk x0 x1 x2 (ix3 (0 : Fin 1) r ch) := by
  rw [out3_canon]
  refine (canon_skip rPos _ _ _ (not_mem_rPos r _ (by show 128 + ch.val < 256; omega))).trans ?_
  exact canon_hit rSkip _ _ (ix3 (0 : Fin 1) r ch) _ (emb_rSkip r ch)

/-- Columns 0…127 of row `r` hold row `r` of the block of x (its two shape casts, dropping and adding the leading unit axis, cancel). -/
theorem out3_x (c : Dev nD) (i : grid0.Coords) (arg2 : Memref sig .tc .vmem S1x800x128 .f32) (harg2 : arg2.IsWhole) (arg3 : Memref sig .tc .vmem S128x3 .f32) (harg3 : arg3.IsWhole) (arg4 : Memref sig .tc .vmem S1x4096x128 .bf16) (harg4 : arg4.IsWhole) (arg5 : Memref sig .tc .vmem S1x800x259 .f32) (harg5 : arg5.IsWhole) (arg6 : Memref sig .tc .vmem S1x800x3 .f32) (harg6 : arg6.IsWhole)
    (x0 : Vec F S1x800x128 .f32) (x1 : Vec F S128x3 .f32) (x2 : Vec F S1x4096x128 .bf16) (r : Fin 800) (f : Fin 128) :
    out0_A_3 c i arg2 harg2 arg3 harg3 arg4 harg4 arg5 harg5 arg6 harg6 x0 x1 x2 (ix3 (0 : Fin 1) r (⟨f.val, by omega⟩ : Fin 259)) = x0 (ix3 (0 : Fin 1) r f) := by
  rw [out3_canon]
  refine (canon_skip rPos _ _ _ (not_mem_rPos r _ (by show f.val < 256; omega))).trans ?_
  refine (canon_skip rSkip _ _ _ (not_mem_rSkip r _ (by show f.val < 128; omega))).trans ?_
  refine (canon_hit rX _ _ (ix3 (0 : Fin 1) r f) _ (emb_rX r f)).trans ?_
  unfold k0_pay1 k0_pay5
  rw [shapeCast_shapeCast]

end Cert.KernelIdeal.Body

end
-- ==== Proof.KPayB.lean ====
/-
  One row of the block at a time: the grid coordinate, voxel coordinate, floor, fractional part and lower cell of each
  axis as the kernel computes them, each corner's entry of the selector row, and the sum of the eight corners as the
  selector row of the row's six quantities.
-/
import proofs.«120255_j59700045415095_2_alg».proof.Proof.KPayA

noncomputable section

namespace Cert.KernelIdeal.Body

open Cert.KernelIdeal Cert.KernelIdeal.Gen Idealize.ShloMosaic Idealize.ShloMosaic.ValueIdx

/-! ## One row's three axes: grid coordinate, voxel coordinate, floor, fractional part, lower cell -/

/-- The grid coordinates `2·p − 1` at `(r, o)`. -/
theorem grid_apply (x0 : Vec Ideal S1x800x128 .f32) (x1 : Vec Ideal S128x3 .f32) (r : Fin 800) (o : Fin 3) :
    k0_pay7 (F := Ideal) x0 x1 (ix2 r o) = Cert.Tri.grid (posK x0 x1 r o) := by
  unfold k0_pay7
  show Ideal.ofBits .f32 0x40000000#32 * k0_pay6 x0 x1 (ix2 r o) - Ideal.ofBits .f32 0x3F800000#32 = _
  rw [show k0_pay6 x0 x1 (ix2 r o) = posK x0 x1 r o from posBlk_apply x0 x1 r o]
  rfl

/-- Column 0 of the grid coordinates, rescaled to voxel coordinates. -/
theorem coord0_apply (x0 : Vec Ideal S1x800x128 .f32) (x1 : Vec Ideal S128x3 .f32) (r : Fin 800) :
    k0_pay8 (F := Ideal) x0 x1 (ix2 r (0 : Fin 1)) = Cert.Tri.coord (Cert.Tri.grid (posK x0 x1 r 0)) := by
  have e := (slice2_axis1_apply 0 (k0_pay7 (F := Ideal) x0 x1) slices_S800x3_o0_0_S800x1 r (0 : Fin 1) (0 : Fin 3) rfl).trans
    (grid_apply x0 x1 r 0)
  unfold k0_pay8
  exact congrArg (fun t => ((t + Cert.Tri.one) * Cert.Tri.half) * Cert.Tri.fifteen) e
/-- Column 1. -/
theorem coord1_apply (x0 : Vec Ideal S1x800x128 .f32) (x1 : Vec Ideal S128x3 .f32) (r : Fin 800) :
    k0_pay9 (F := Ideal) x0 x1 (ix2 r (0 : Fin 1)) = Cert.Tri.coord (Cert.Tri.grid (posK x0 x1 r 1)) := by
  have e := (slice2_axis1_apply 1 (k0_pay7 (F := Ideal) x0 x1) slices_S800x3_o0_1_S800x1 r (0 : Fin 1) (1 : Fin 3) rfl).trans
    (grid_apply x0 x1 r 1)
  unfold k0_pay9
  exact congrArg (fun t => ((t + Cert.Tri.one) * Cert.Tri.half) * Cert.Tri.fifteen) e
/-- Column 2. -/
theorem coord2_apply (x0 : Vec Ideal S1x800x128 .f32) (x1 : Vec Ideal S128x3 .f32) (r : Fin 800) :
    k0_pay10 (F := Ideal) x0 x1 (ix2 r (0 : Fin 1)) = Cert.Tri.coord (Cert.Tri.grid (posK x0 x1 r 2)) := by
  have e := (slice2_axis1_apply 2 (k0_pay7 (F := Ideal) x0 x1) slices_S800x3_o0_2_S800x1 r (0 : Fin 1) (2 : Fin 3) rfl).trans
    (grid_apply x0 x1 r 2)
  unfold k0_pay10
  exact congrArg (fun t => ((t + Cert.Tri.one) * Cert.Tri.half) * Cert.Tri.fifteen) e

/-- The floors. -/
theorem flo0_apply (x0 : Vec Ideal S1x800x128 .f32) (x1 : Vec Ideal S128x3 .f32) (r : Fin 800) :
    k0_pay11 (F := Ideal) x0 x1 (ix2 r (0 : Fin 1)) = Cert.Tri.flo (Cert.Tri.grid (posK x0 x1 r 0)) :=
  congrArg (Ideal.liftRound Int.floor) (coord0_apply x0 x1 r)
theorem flo1_apply (x0 : Vec Ideal S1x800x128 .f32) (x1 : Vec Ideal S128x3 .f32) (r : Fin 800) :
    k0_pay12 (F := Ideal) x0 x1 (ix2 r (0 : Fin 1)) = Cert.Tri.flo (Cert.Tri.grid (posK x0 x1 r 1)) :=
  congrArg (Ideal.liftRound Int.floor) (coord1_apply x0 x1 r)
theorem flo2_apply (x0 : Vec Ideal S1x800x128 .f32) (x1 : Vec Ideal S128x3 .f32) (r : Fin 800) :
    k0_pay13 (F := Ideal) x0 x1 (ix2 r (0 : Fin 1)) = Cert.Tri.flo (Cert.Tri.grid (posK x0 x1 r 2)) :=
  congrArg (Ideal.liftRound Int.floor) (coord2_apply x0 x1 r)

/-- The fractional parts. -/
theorem fra0_apply (x0 : Vec Ideal S1x800x128 .f32) (x1 : Vec Ideal S128x3 .f32) (r : Fin 800) :
    k0_pay14 (F := Ideal) x0 x1 (ix2 r (0 : Fin 1)) = Cert.Tri.fra (Cert.Tri.grid (posK x0 x1 r 0)) :=
  congrArg₂ (fun a b : EReal => a - b) (coord0_apply x0 x1 r) (flo0_apply x0 x1 r)
theorem fra1_apply (x0 : Vec Ideal S1x800x128 .f32) (x1 : Vec Ideal S128x3 .f32) (r : Fin 800) :
    k0_pay15 (F := Ideal) x0 x1 (ix2 r (0 : Fin 1)) = Cert.Tri.fra (Cert.Tri.grid (posK x0 x1 r 1)) :=
  congrArg₂ (fun a b : EReal => a - b) (coord1_apply x0 x1 r) (flo1_apply x0 x1 r)
theorem fra2_apply (x0 : Vec Ideal S1x800x128 .f32) (x1 : Vec Ideal S128x3 .f32) (r : Fin 800) :
    k0_pay16 (F := Ideal) x0 x1 (ix2 r (0 : Fin 1)) = Cert.Tri.fra (Cert.Tri.grid (posK x0 x1 r 2)) :=
  congrArg₂ (fun a b : EReal => a - b) (coord2_apply x0 x1 r) (flo2_apply x0 x1 r)

/-- The lower cells. -/
theorem lo0_apply (x0 : Vec Ideal S1x800x128 .f32) (x1 : Vec Ideal S128x3 .f32) (r : Fin 800) :
    k0_pay17 (F := Ideal) x0 x1 (ix2 r (0 : Fin 1)) = Cert.Tri.lo (Cert.Tri.grid (posK x0 x1 r 0)) :=
  congrArg (Ideal.fptosi 32) (flo0_apply x0 x1 r)
theorem lo1_apply (x0 : Vec Ideal S1x800x128 .f32) (x1 : Vec Ideal S128x3 .f32) (r : Fin 800) :
    k0_pay18 (F := Ideal) x0 x1 (ix2 r (0 : Fin 1)) = Cert.Tri.lo (Cert.Tri.grid (posK x0 x1 r 1)) :=
  congrArg (Ideal.fptosi 32) (flo1_apply x0 x1 r)
theorem lo2_apply (x0 : Vec Ideal S1x800x128 .f32) (x1 : Vec Ideal S128x3 .f32) (r : Fin 800) :
    k0_pay19 (F := Ideal) x0 x1 (ix2 r (0 : Fin 1)) = Cert.Tri.lo (Cert.Tri.grid (posK x0 x1 r 2)) :=
  congrArg (Ideal.fptosi 32) (flo2_apply x0 x1 r)

/-! ## A column laid along every voxel, and the voxel counter -/

/-- A column of 800 entries broadcast over 4096 voxels reads, at `(r, v)`, the column's entry of row `r`. -/
theorem bcast_col_eq {α : Type} (x : S800x1.Idx → α) :
    broadcastTo S800x4096 x broadcasts_S800x1_S800x4096 = fun j => x (ix2 (j 0 : Fin 800) (0 : Fin 1)) :=
  funext fun j => broadcastTo_apply x broadcasts_S800x1_S800x4096 j (ix2 (j 0 : Fin 800) (0 : Fin 1)) fun a => by
    match a with
    | ⟨0, _⟩ => rfl
    | ⟨1, _⟩ => rfl

/-- The voxel counter at `(r, v)` is `v` as a 32-bit word. -/
theorem iotaV_apply (r : Fin 800) (v : Fin 4096) : iotaV (ix2 r v) = BitVec.ofNat 32 v.val := by
  show BitVec.ofNat 32 (0 * 4096 + v.val) = _
  rw [Nat.zero_mul, Nat.zero_add]

/-! ## One corner's selector entry -/

/-- A corner's entry from its four ingredients: the voxel counter's word, the corner's flat voxel number, its inside
    bit and its weight. -/
def hotAt (iv fl : BitVec 32) (ins : BitVec 1) (w : EReal) : EReal :=
  ((((IntOp.cmpi .eq iv fl).setWidth 32).toInt : ℝ) : EReal) * Scalar.select ins w Cert.Tri.zero

/-- A flat voxel number from three already clipped coordinates. -/
def flatC (ca cb cc : BitVec 32) : BitVec 32 :=
  IntOp.addi (IntOp.muli (IntOp.addi (IntOp.muli cc 16#32) cb) 16#32) ca

theorem hot_eq_hotAt (a b c : BitVec 32) (w : EReal) (v : Fin 4096) :
    Cert.Tri.hot a b c w v = hotAt (BitVec.ofNat 32 v.val) (flatC (Cert.Tri.clip a) (Cert.Tri.clip b) (Cert.Tri.clip c))
      (Cert.Tri.inside a b c) w := rfl

section Corners
variable (v34 v35 v36 : FVec Ideal S800x1 .f32) (v37 v38 v39 v41 v43 v45 : IVec S800x1 32) (v48 : IVec S800x4096 32)
  (r : Fin 800) (v : Fin 4096)

/-- Corner (lo, lo, lo). -/
theorem pay28_apply (v56 : FVec Ideal S800x1 .f32) (v73 : IVec S800x1 1) (v77 v81 : IVec S800x1 32) :
    k0_pay28 (F := Ideal) v39 v48 v56 v73 v77 v81 (ix2 r v)
      = hotAt (v48 (ix2 r v)) (flatC (v77 (ix2 r (0 : Fin 1))) (v81 (ix2 r (0 : Fin 1))) (Cert.Tri.clip (v39 (ix2 r (0 : Fin 1)))))
          (v73 (ix2 r (0 : Fin 1))) (v56 (ix2 r (0 : Fin 1))) := by
  unfold k0_pay28
  simp only [bcast_col_eq]
  rfl

/-- Corner (hi, lo, lo), added to the entries so far. -/
theorem pay33_apply (v100 : FVec Ideal S800x4096 .bf16) (v106 : FVec Ideal S800x1 .f32) (v123 : IVec S800x1 1)
    (v125 v126 : IVec S800x1 32) :
    k0_pay33 (F := Ideal) v38 v39 v48 v100 v106 v123 v125 v126 (ix2 r v)
      = v100 (ix2 r v) + hotAt (v48 (ix2 r v))
          (flatC (IntOp.minsi (v126 (ix2 r (0 : Fin 1))) (v125 (ix2 r (0 : Fin 1)))) (Cert.Tri.clip (v38 (ix2 r (0 : Fin 1))))
            (Cert.Tri.clip (v39 (ix2 r (0 : Fin 1)))))
          (v123 (ix2 r (0 : Fin 1))) (v106 (ix2 r (0 : Fin 1))) := by
  unfold k0_pay33
  simp only [bcast_col_eq]
  rfl

/-- Corner (lo, hi, lo). -/
theorem pay36_apply (v151 : FVec Ideal S800x4096 .bf16) (v157 : FVec Ideal S800x1 .f32) (v171 : IVec S800x1 1) (c16 : BitVec 32) :
    k0_pay36 (F := Ideal) v37 v39 v43 v48 v151 v157 v171 c16 (ix2 r v)
      = v151 (ix2 r v) + hotAt (v48 (ix2 r v))
          (flatC (Cert.Tri.clip (v37 (ix2 r (0 : Fin 1)))) (Cert.Tri.clip (v43 (ix2 r (0 : Fin 1)))) (Cert.Tri.clip (v39 (ix2 r (0 : Fin 1)))))
          (IntOp.andi (v171 (ix2 r (0 : Fin 1))) (IntOp.cmpi .slt (v39 (ix2 r (0 : Fin 1))) c16)) (v157 (ix2 r (0 : Fin 1))) := by
  unfold k0_pay36
  simp only [bcast_col_eq]
  rfl

/-- Corner (hi, hi, lo). -/
theorem pay39_apply (v202 : FVec Ideal S800x4096 .bf16) (v206 : FVec Ideal S800x1 .f32) (v217 : IVec S800x1 1) :
    k0_pay39 (F := Ideal) v39 v41 v43 v48 v202 v206 v217 (ix2 r v)
      = v202 (ix2 r v) + hotAt (v48 (ix2 r v))
          (flatC (Cert.Tri.clip (v41 (ix2 r (0 : Fin 1)))) (Cert.Tri.clip (v43 (ix2 r (0 : Fin 1)))) (Cert.Tri.clip (v39 (ix2 r (0 : Fin 1)))))
          (IntOp.andi (IntOp.andi (v217 (ix2 r (0 : Fin 1))) (IntOp.cmpi .sge (v39 (ix2 r (0 : Fin 1))) 0#32))
            (IntOp.cmpi .slt (v39 (ix2 r (0 : Fin 1))) 16#32)) (v206 (ix2 r (0 : Fin 1))) := by
  unfold k0_pay39
  simp only [bcast_col_eq]
  rfl

/-- Corner (lo, lo, hi). -/
theorem pay42_apply (v251 : FVec Ideal S800x4096 .bf16) (v257 : FVec Ideal S800x1 .f32) (v262 : IVec S800x1 1) :
    k0_pay42 (F := Ideal) v37 v38 v45 v48 v251 v257 v262 (ix2 r v)
      = v251 (ix2 r v) + hotAt (v48 (ix2 r v))
          (flatC (Cert.Tri.clip (v37 (ix2 r (0 : Fin 1)))) (Cert.Tri.clip (v38 (ix2 r (0 : Fin 1)))) (Cert.Tri.clip (v45 (ix2 r (0 : Fin 1)))))
          (IntOp.andi (IntOp.andi (IntOp.andi (IntOp.andi (v262 (ix2 r (0 : Fin 1))) (IntOp.cmpi .sge (v38 (ix2 r (0 : Fin 1))) 0#32))
            (IntOp.cmpi .slt (v38 (ix2 r (0 : Fin 1))) 16#32)) (IntOp.cmpi .sge (v45 (ix2 r (0 : Fin 1))) 0#32))
            (IntOp.cmpi .slt (v45 (ix2 r (0 : Fin 1))) 16#32)) (v257 (ix2 r (0 : Fin 1))) := by
  unfold k0_pay42
  simp only [bcast_col_eq]
  rfl

/-- Corner (hi, lo, hi). -/
theorem pay45_apply (v302 : FVec Ideal S800x4096 .bf16) (v306 : FVec Ideal S800x1 .f32) (v307 : IVec S800x1 32) :
    k0_pay45 (F := Ideal) v38 v41 v45 v48 v302 v306 v307 (ix2 r v)
      = v302 (ix2 r v) + hotAt (v48 (ix2 r v))
          (flatC (Cert.Tri.clip (v41 (ix2 r (0 : Fin 1)))) (Cert.Tri.clip (v38 (ix2 r (0 : Fin 1)))) (Cert.Tri.clip (v45 (ix2 r (0 : Fin 1)))))
          (IntOp.andi (IntOp.andi (IntOp.andi (IntOp.andi (IntOp.andi
            (IntOp.cmpi .sge (v41 (ix2 r (0 : Fin 1))) (v307 (ix2 r (0 : Fin 1)))) (IntOp.cmpi .slt (v41 (ix2 r (0 : Fin 1))) 16#32))
            (IntOp.cmpi .sge (v38 (ix2 r (0 : Fin 1))) 0#32)) (IntOp.cmpi .slt (v38 (ix2 r (0 : Fin 1))) 16#32))
            (IntOp.cmpi .sge (v45 (ix2 r (0 : Fin 1))) 0#32)) (IntOp.cmpi .slt (v45 (ix2 r (0 : Fin 1))) 16#32))
          (v306 (ix2 r (0 : Fin 1))) := by
  unfold k0_pay45
  simp only [bcast_col_eq]
  rfl

/-- Corner (lo, hi, hi): its indicator … -/
theorem pay47_apply :
    k0_pay47 (F := Ideal) v37 v43 v45 v48 (ix2 r v)
      = ((((IntOp.cmpi .eq (v48 (ix2 r v))
          (flatC (Cert.Tri.clip (v37 (ix2 r (0 : Fin 1)))) (Cert.Tri.clip (v43 (ix2 r (0 : Fin 1)))) (Cert.Tri.clip (v45 (ix2 r (0 : Fin 1)))))).setWidth 32).toInt : ℝ) : EReal) := by
  unfold k0_pay47
  simp only [bcast_col_eq]
  rfl

/-- … and its masked weight. -/
theorem pay48_apply (v352 : FVec Ideal S800x1 .f32) :
    k0_pay48 (F := Ideal) v34 v35 v36 v37 v43 v45 v352 (ix2 r v)
      = Scalar.select (Cert.Tri.inside (v37 (ix2 r (0 : Fin 1))) (v43 (ix2 r (0 : Fin 1))) (v45 (ix2 r (0 : Fin 1))))
          (((v352 (ix2 r (0 : Fin 1)) - v34 (ix2 r (0 : Fin 1))) * v35 (ix2 r (0 : Fin 1))) * v36 (ix2 r (0 : Fin 1))) Cert.Tri.zero := by
  unfold k0_pay48
  simp only [bcast_col_eq]
  rfl

/-- Corner (hi, hi, hi): its indicator as a word. -/
theorem pay51_apply :
    k0_pay51 v41 v43 v45 v48 (ix2 r v)
      = (IntOp.cmpi .eq (v48 (ix2 r v))
          (flatC (Cert.Tri.clip (v41 (ix2 r (0 : Fin 1)))) (Cert.Tri.clip (v43 (ix2 r (0 : Fin 1)))) (Cert.Tri.clip (v45 (ix2 r (0 : Fin 1)))))).setWidth 32 := by
  unfold k0_pay51
  simp only [bcast_col_eq]
  rfl

end Corners

/-! ## The selector row, corner by corner, from one row's six vectors -/

/-- The selector row written over the three fractional parts and the three lower cells of a row. -/
def mixRaw (f1 f2 f3 : EReal) (a b c : BitVec 32) (v : Fin 4096) : EReal :=
  ((((((Cert.Tri.hot a b c (((Cert.Tri.one - f1) * (Cert.Tri.one - f2)) * (Cert.Tri.one - f3)) v
    + Cert.Tri.hot (IntOp.addi a 1#32) b c ((f1 * (Cert.Tri.one - f2)) * (Cert.Tri.one - f3)) v)
    + Cert.Tri.hot a (IntOp.addi b 1#32) c (((Cert.Tri.one - f1) * f2) * (Cert.Tri.one - f3)) v)
    + Cert.Tri.hot (IntOp.addi a 1#32) (IntOp.addi b 1#32) c ((f1 * f2) * (Cert.Tri.one - f3)) v)
    + Cert.Tri.hot a b (IntOp.addi c 1#32) (((Cert.Tri.one - f1) * (Cert.Tri.one - f2)) * f3) v)
    + Cert.Tri.hot (IntOp.addi a 1#32) b (IntOp.addi c 1#32) ((f1 * (Cert.Tri.one - f2)) * f3) v)
    + Cert.Tri.hot a (IntOp.addi b 1#32) (IntOp.addi c 1#32) (((Cert.Tri.one - f1) * f2) * f3) v)
    + Cert.Tri.hot (IntOp.addi a 1#32) (IntOp.addi b 1#32) (IntOp.addi c 1#32) ((f1 * f2) * f3) v

theorem mix_eq_mixRaw (gx gy gz : EReal) (v : Fin 4096) :
    Cert.Tri.mix gx gy gz v
      = mixRaw (Cert.Tri.fra gx) (Cert.Tri.fra gy) (Cert.Tri.fra gz) (Cert.Tri.lo gx) (Cert.Tri.lo gy) (Cert.Tri.lo gz) v := rfl

section Mix
variable (v34 v35 v36 : FVec Ideal S800x1 .f32) (v37 v38 v39 : IVec S800x1 32) (v48 : IVec S800x4096 32)

/-- The upper cells of the three axes. -/
def hiX : IVec S800x1 32 := k0_pay20 v37 1#32
def hiY : IVec S800x1 32 := k0_pay21 v38
def hiZ : IVec S800x1 32 := k0_pay22 v39

/-- The selector matrix after one, two, … seven corners, in program order. -/
def sel1 : FVec Ideal S800x4096 .bf16 :=
  k0_pay28 v39 v48 (k0_pay24 v34 v35 v36) (k0_pay25 v37 v38 v39) (k0_pay26 v37) (k0_pay27 v38)
def sel2 : FVec Ideal S800x4096 .bf16 :=
  k0_pay33 v38 v39 v48 (sel1 v34 v35 v36 v37 v38 v39 v48) (k0_pay29 v34 v35 v36) (k0_pay30 v38 v39 (hiX v37)) (k0_pay31 (hiX v37)) k0_pay32
def sel3 : FVec Ideal S800x4096 .bf16 :=
  k0_pay36 v37 v39 (hiY v38) v48 (sel2 v34 v35 v36 v37 v38 v39 v48) (k0_pay34 v34 v35 v36) (k0_pay35 v37 v39 (hiY v38)) 16#32
def sel4 : FVec Ideal S800x4096 .bf16 :=
  k0_pay39 v39 (hiX v37) (hiY v38) v48 (sel3 v34 v35 v36 v37 v38 v39 v48) (k0_pay37 v34 v35 v36) (k0_pay38 (hiX v37) (hiY v38))
def sel5 : FVec Ideal S800x4096 .bf16 :=
  k0_pay42 v37 v38 (hiZ v39) v48 (sel4 v34 v35 v36 v37 v38 v39 v48) (k0_pay40 v34 v35 v36) (k0_pay41 v37)
def sel6 : FVec Ideal S800x4096 .bf16 :=
  k0_pay45 v38 (hiX v37) (hiZ v39) v48 (sel5 v34 v35 v36 v37 v38 v39 v48) (k0_pay43 v34 v35 v36) k0_pay44
def sel7 : FVec Ideal S800x4096 .bf16 :=
  k0_pay49 (sel6 v34 v35 v36 v37 v38 v39 v48) (k0_pay47 v37 (hiY v38) (hiZ v39) v48)
    (k0_pay48 v34 v35 v36 v37 (hiY v38) (hiZ v39) k0_pay46)
/-- The last corner's masked weight and indicator word. -/
def w8m : FVec Ideal S800x1 .f32 := k0_pay50 v34 v35 v36 (hiX v37) (hiY v38) (hiZ v39)
def ind8 : IVec S800x4096 32 := k0_pay51 (hiX v37) (hiY v38) (hiZ v39) v48

variable (r : Fin 800) (v : Fin 4096)

local notation "f1" => v34 (ix2 r (0 : Fin 1))
local notation "f2" => v35 (ix2 r (0 : Fin 1))
local notation "f3" => v36 (ix2 r (0 : Fin 1))
local notation "ca" => v37 (ix2 r (0 : Fin 1))
local notation "cb" => v38 (ix2 r (0 : Fin 1))
local notation "cc" => v39 (ix2 r (0 : Fin 1))
local notation "ca'" => IntOp.addi (v37 (ix2 r (0 : Fin 1))) 1#32
local notation "cb'" => IntOp.addi (v38 (ix2 r (0 : Fin 1))) 1#32
local notation "cc'" => IntOp.addi (v39 (ix2 r (0 : Fin 1))) 1#32
local notation "iv" => v48 (ix2 r v)
local notation "one" => Cert.Tri.one

/-- A corner's entry over the voxel counter's word. -/
def hotW (w48 a b c : BitVec 32) (w : EReal) : EReal :=
  hotAt w48 (flatC (Cert.Tri.clip a) (Cert.Tri.clip b) (Cert.Tri.clip c)) (Cert.Tri.inside a b c) w

theorem sel1_apply : sel1 v34 v35 v36 v37 v38 v39 v48 (ix2 r v)
    = hotW iv ca cb cc (((one - f1) * (one - f2)) * (one - f3)) := by
  unfold sel1; exact (pay28_apply ..).trans rfl
theorem sel2_apply : sel2 v34 v35 v36 v37 v38 v39 v48 (ix2 r v)
    = sel1 v34 v35 v36 v37 v38 v39 v48 (ix2 r v) + hotW iv ca' cb cc ((f1 * (one - f2)) * (one - f3)) := by
  unfold sel2; exact (pay33_apply ..).trans rfl
theorem sel3_apply : sel3 v34 v35 v36 v37 v38 v39 v48 (ix2 r v)
    = sel2 v34 v35 v36 v37 v38 v39 v48 (ix2 r v) + hotW iv ca cb' cc (((one - f1) * f2) * (one - f3)) := by
  unfold sel3; exact (pay36_apply ..).trans rfl
theorem sel4_apply : sel4 v34 v35 v36 v37 v38 v39 v48 (ix2 r v)
    = sel3 v34 v35 v36 v37 v38 v39 v48 (ix2 r v) + hotW iv ca' cb' cc ((f1 * f2) * (one - f3)) := by
  unfold sel4; exact (pay39_apply ..).trans rfl
theorem sel5_apply : sel5 v34 v35 v36 v37 v38 v39 v48 (ix2 r v)
    = sel4 v34 v35 v36 v37 v38 v39 v48 (ix2 r v) + hotW iv ca cb cc' (((one - f1) * (one - f2)) * f3) := by
  unfold sel5; exact (pay42_apply ..).trans rfl
theorem sel6_apply : sel6 v34 v35 v36 v37 v38 v39 v48 (ix2 r v)
    = sel5 v34 v35 v36 v37 v38 v39 v48 (ix2 r v) + hotW iv ca' cb cc' ((f1 * (one - f2)) * f3) := by
  unfold sel6; exact (pay45_apply ..).trans rfl
theorem sel7_apply : sel7 v34 v35 v36 v37 v38 v39 v48 (ix2 r v)
    = sel6 v34 v35 v36 v37 v38 v39 v48 (ix2 r v) + hotW iv ca cb' cc' (((one - f1) * f2) * f3) := by
  unfold sel7 k0_pay49
  exact (congrArg₂ (fun s t : EReal => sel6 v34 v35 v36 v37 v38 v39 v48 (ix2 r v) + s * t) (pay47_apply ..) (pay48_apply ..)).trans rfl
theorem last_apply :
    ((((ind8 v37 v38 v39 v48 (ix2 r v)).toInt : ℝ) : EReal)) * w8m v34 v35 v36 v37 v38 v39 (ix2 r (0 : Fin 1))
      = hotW iv ca' cb' cc' ((f1 * f2) * f3) := by
  unfold ind8
  exact (congrArg (fun w : BitVec 32 => (((w.toInt : ℝ) : EReal)) * w8m v34 v35 v36 v37 v38 v39 (ix2 r (0 : Fin 1))) (pay51_apply ..)).trans rfl

/-- All eight corners: the matrix after seven plus the last corner's product is the selector row of the row's six
    quantities, whenever the voxel counter reads `v` at `(r, v)`. -/
theorem wsel_apply (h48 : v48 (ix2 r v) = BitVec.ofNat 32 v.val) :
    sel7 v34 v35 v36 v37 v38 v39 v48 (ix2 r v)
        + ((((ind8 v37 v38 v39 v48 (ix2 r v)).toInt : ℝ) : EReal)) * w8m v34 v35 v36 v37 v38 v39 (ix2 r (0 : Fin 1))
      = mixRaw f1 f2 f3 ca cb cc v := by
  rw [last_apply, sel7_apply, sel6_apply, sel5_apply, sel4_apply, sel3_apply, sel2_apply, sel1_apply, h48]
  rfl

end Mix

end Cert.KernelIdeal.Body

end
-- ==== Proof.KPayC.lean ====
/-
  The block of sampled values: the product of the selector matrix with the transposed volume, read at an index, is the
  contraction spelling of the trilinear sample.
-/
import proofs.«120255_j59700045415095_2_alg».proof.Proof.KPayB

noncomputable section

namespace Cert.KernelIdeal.Body

open Cert.KernelIdeal Cert.KernelIdeal.Gen Idealize.ShloMosaic Idealize.ShloMosaic.ValueIdx

/-! ## The sampled block: the selector matrix times the transposed volume -/

theorem skipDot_lhs0 (i : S800x128.Idx) (q : dot_S800x4096_S4096x128_S800x128_1_0_0_1_n_n.contr.Idx) :
    (dot_S800x4096_S4096x128_S800x128_1_0_0_1_n_n.lhsIdx i q 0).val = (i 0).val := by
  unfold DotDims.lhsIdx
  rw [dif_neg (show ¬(0 : Fin S800x4096.rank) ∈ dot_S800x4096_S4096x128_S800x128_1_0_0_1_n_n.lhsBatch by decide), dif_pos (show (0 : Fin S800x4096.rank) ∈ dot_S800x4096_S4096x128_S800x128_1_0_0_1_n_n.lhsNonContracting by decide)]
  rfl
theorem skipDot_lhs1 (i : S800x128.Idx) (q : dot_S800x4096_S4096x128_S800x128_1_0_0_1_n_n.contr.Idx) :
    (dot_S800x4096_S4096x128_S800x128_1_0_0_1_n_n.lhsIdx i q 1).val = (q ⟨0, by decide⟩).val :=
  dot_S800x4096_S4096x128_S800x128_1_0_0_1_n_n.lhsIdx_val_of_single rfl i q
theorem skipDot_rhs0 (i : S800x128.Idx) (q : dot_S800x4096_S4096x128_S800x128_1_0_0_1_n_n.contr.Idx) :
    (dot_S800x4096_S4096x128_S800x128_1_0_0_1_n_n.rhsIdx i q 0).val = (q ⟨0, by decide⟩).val :=
  dot_S800x4096_S4096x128_S800x128_1_0_0_1_n_n.rhsIdx_val_of_single rfl i q
theorem skipDot_rhs1 (i : S800x128.Idx) (q : dot_S800x4096_S4096x128_S800x128_1_0_0_1_n_n.contr.Idx) :
    (dot_S800x4096_S4096x128_S800x128_1_0_0_1_n_n.rhsIdx i q 1).val = (i 1).val := by
  unfold DotDims.rhsIdx
  rw [dif_neg (show ¬(1 : Fin S4096x128.rank) ∈ dot_S800x4096_S4096x128_S800x128_1_0_0_1_n_n.rhsBatch by decide), dif_pos (show (1 : Fin S4096x128.rank) ∈ dot_S800x4096_S4096x128_S800x128_1_0_0_1_n_n.rhsNonContracting by decide)]
  rfl

/-- The stored block at `(0, r, ch)`: the contraction over the 4096 voxels of the finished selector row (seven corners
    plus the last corner's product) with channel `ch` of the volume. -/
theorem pay2_apply (v47 : FVec Ideal S4096x128 .bf16) (v400 : FVec Ideal S800x4096 .bf16) (v439 : FVec Ideal S800x1 .f32)
    (v442 : IVec S800x4096 32) (r : Fin 800) (ch : Fin 128) :
    k0_pay2 (F := Ideal) v47 v400 v439 v442 (ix3 (0 : Fin 1) r ch)
      = ∑ v : Fin 4096, (v400 (ix2 r v) + ((((v442 (ix2 r v)).toInt : ℝ) : EReal)) * v439 (ix2 r (0 : Fin 1))) * v47 (ix2 v ch) := by
  unfold k0_pay2
  simp only [bcast_col_eq]
  refine (shapeCast_ab_1ab_apply _ shapeCasts_S800x128_S1x800x128 (0 : Fin 1) r ch).trans ?_
  refine (Ideal.matmul_constant_zero_apply dot_S800x4096_S4096x128_S800x128_1_0_0_1_n_n none _ _ (ix2 r ch)).trans ?_
  rw [← Equiv.sum_comp (contrEquiv1 dot_S800x4096_S4096x128_S800x128_1_0_0_1_n_n 4096 rfl rfl).symm]
  refine Finset.sum_congr rfl fun k _ => ?_
  have hk := contrEquiv1_symm_val dot_S800x4096_S4096x128_S800x128_1_0_0_1_n_n 4096 rfl rfl k
  have el : dot_S800x4096_S4096x128_S800x128_1_0_0_1_n_n.lhsIdx (ix2 r ch) ((contrEquiv1 dot_S800x4096_S4096x128_S800x128_1_0_0_1_n_n 4096 rfl rfl).symm k) = ix2 r k := funext fun a => Fin.ext (by
    match a with
    | ⟨0, _⟩ => exact skipDot_lhs0 _ _
    | ⟨1, _⟩ => exact (skipDot_lhs1 _ _).trans hk)
  have er : dot_S800x4096_S4096x128_S800x128_1_0_0_1_n_n.rhsIdx (ix2 r ch) ((contrEquiv1 dot_S800x4096_S4096x128_S800x128_1_0_0_1_n_n 4096 rfl rfl).symm k) = ix2 k ch := funext fun a => Fin.ext (by
    match a with
    | ⟨0, _⟩ => exact (skipDot_rhs0 _ _).trans hk
    | ⟨1, _⟩ => exact skipDot_rhs1 _ _)
  rw [el, er]
  rfl

/-- The block stored into columns 128 … 255 at `(0, r, ch)` is the contraction spelling of the trilinear sample of
    channel `ch` at row `r`'s three grid coordinates. -/
theorem skipBlk_apply (x0 : Vec Ideal S1x800x128 .f32) (x1 : Vec Ideal S128x3 .f32) (x2 : Vec Ideal S1x4096x128 .bf16)
    (r : Fin 800) (ch : Fin 128) :
    skipBlk (F := Ideal) x0 x1 x2 (ix3 (0 : Fin 1) r ch)
      = Cert.Tri.skipK (Cert.Tri.grid (posK x0 x1 r 0)) (Cert.Tri.grid (posK x0 x1 r 1)) (Cert.Tri.grid (posK x0 x1 r 2))
          (fun v => x2 (ix3 (0 : Fin 1) v ch)) := by
  show k0_pay2 (F := Ideal) (k0_pay23 x2)
      (sel7 (k0_pay14 x0 x1) (k0_pay15 x0 x1) (k0_pay16 x0 x1) (k0_pay17 x0 x1) (k0_pay18 x0 x1) (k0_pay19 x0 x1) iotaV)
      (w8m (k0_pay14 x0 x1) (k0_pay15 x0 x1) (k0_pay16 x0 x1) (k0_pay17 x0 x1) (k0_pay18 x0 x1) (k0_pay19 x0 x1))
      (ind8 (k0_pay17 x0 x1) (k0_pay18 x0 x1) (k0_pay19 x0 x1) iotaV) (ix3 (0 : Fin 1) r ch) = _
  refine (pay2_apply _ _ _ _ r ch).trans ?_
  unfold Cert.Tri.skipK
  refine Finset.sum_congr rfl fun v _ => ?_
  refine congrArg₂ (fun s t : EReal => s * t) ?_ ?_
  · refine (wsel_apply _ _ _ _ _ _ _ r v (iotaV_apply r v)).trans ?_
    rw [fra0_apply, fra1_apply, fra2_apply, lo0_apply, lo1_apply, lo2_apply]
    exact (mix_eq_mixRaw _ _ _ v).symm
  · unfold k0_pay23
    exact shapeCast_1ab_ab_apply x2 shapeCasts_S1x4096x128_S4096x128 v ch

end Cert.KernelIdeal.Body

end
-- ==== Proof.KVol.lean ====
/-
  The volume as the kernel's region finds it. Before the region the program reshapes the volume from
  [4, 128, 16, 16, 16] to [4, 128, 4096], swaps its last two axes and narrows the element format. Over the extended
  reals the narrowing is the identity, so the entry (b, v, ch) of the array the region reads is the entry
  (b, ch, v) of the reshaped volume.
-/
import proofs.«120255_j59700045415095_2_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Body

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The array the region reads the volume from, as a term of the launch contents: reshape, transpose, narrow. -/
theorem V_v2_eq (c : Dev nD) :
    (Gen.V (F := Ideal) m c main_v2 : S4x4096x128.Idx → EReal)
      = (truncf (F := Ideal) .bf16 (transpose S4x4096x128 [0, 2, 1]
          (shapeCast S4x128x4096 (m ((c : Thread nD τ).loc main_arg2)) shapeCasts_S4x128x16x16x16_S4x128x4096)
          transposes_S4x128x4096_S4x4096x128_0_2_1) bitsLt_bf16_f32 : S4x4096x128.Idx → EReal) := by
  dsimp only [Gen.V, Gen.hostOps0]
  after_results
  rfl

/-- Read at (b, v, ch): the reshaped volume at (b, ch, v). -/
theorem V_v2_apply (c : Dev nD) (b : Fin 4) (v : Fin 4096) (ch : Fin 128) :
    (Gen.V (F := Ideal) m c main_v2 : S4x4096x128.Idx → EReal) (ix3 b v ch)
      = shapeCast S4x128x4096 (m ((c : Thread nD τ).loc main_arg2)) shapeCasts_S4x128x16x16x16_S4x128x4096 (ix3 b ch v) := by
  rw [V_v2_eq]
  exact transpose_ix3_021_apply
    (shapeCast S4x128x4096 (m ((c : Thread nD τ).loc main_arg2)) shapeCasts_S4x128x16x16x16_S4x128x4096)
    transposes_S4x128x4096_S4x4096x128_0_2_1 b v ch

end Cert.KernelIdeal.Body

end
-- ==== Proof.KArray.lean ====
/-
  From blocks to arrays. Point t = (b, k) of the 4 × 50 grid reads rows 800·k … 800·k + 799 of batch b of x, the whole
  weight matrix, and batch b of the transposed volume, and writes back rows 800·k … of batch b of the two results.
  Every row of a result lies in exactly one point's block, so each result array is one function of the argument
  arrays: the block written at a point is that function restricted to the block.
-/
import proofs.«120255_j59700045415095_2_alg».proof.Proof.Gen.KernelIdeal.Value
import proofs.«120255_j59700045415095_2_alg».proof.Proof.KTerms
import proofs.«120255_j59700045415095_2_alg».proof.Proof.KPayA
import proofs.«120255_j59700045415095_2_alg».proof.Proof.OutSpec
import proofs.«120255_j59700045415095_2_alg».proof.Proof.KPieces
import proofs.«120255_j59700045415095_2_alg».proof.Proof.KPayC
import proofs.«120255_j59700045415095_2_alg».proof.Proof.KVol
import Idealize.ShloMosaic.Lib.Pipeline.Value
import Idealize.ShloMosaic.Lib.ValueIdx

set_option maxRecDepth 16384

noncomputable section

namespace Cert.KernelIdeal.Arr

open Cert.KernelIdeal Cert.KernelIdeal.Gen Cert.KernelIdeal.Value Cert.KernelIdeal.Body Cert.Tri
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The volume argument flattened to 4096 voxels per channel. -/
abbrev volOf (a2 : S4x128x16x16x16.Idx → EReal) : S4x128x4096.Idx → EReal :=
  shapeCast S4x128x4096 a2 shapeCasts_S4x128x16x16x16_S4x128x4096

/-- The printed index maps over the grid: x, both results and the volume move with the batch coordinate, x and the
    results also with the row-tile coordinate; the weight matrix never moves. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 3 ∧ win0_3.index t (1 : Fin 3) ≤ 49 ∧ win0_3.index t (2 : Fin 3) = 0 :=
  (by decide +kernel : ∀ t : Fin grid0.N, _)

/-- Every (batch, row tile) is some point's. -/
theorem idx_onto : ∀ (q0 : Fin 4) (q1 : Fin 50), ∃ t : Fin cfg0.N,
    win0_3.index t (0 : Fin 3) = q0.val ∧ win0_3.index t (1 : Fin 3) = q1.val :=
  (by decide +kernel : ∀ (q0 : Fin 4) (q1 : Fin 50), ∃ t : Fin grid0.N,
    win0_3.index t (0 : Fin 3) = q0.val ∧ win0_3.index t (1 : Fin 3) = q1.val)

/-! ## Where a block's entries sit in their arrays -/

section emb
variable (t : Fin cfg0.N)

/-- The batch and the first row of point `t`. -/
def bOf : Fin 4 := ⟨win0_3.index t (0 : Fin 3), by have := (idx_facts t).2.2.2.2.2.2.2.2.2.2.2.1; omega⟩
def nOf (r : Fin 800) : Fin 40000 :=
  ⟨win0_3.index t (1 : Fin 3) * 800 + r.val, by have := (idx_facts t).2.2.2.2.2.2.2.2.2.2.2.2.1; have := r.isLt; omega⟩

theorem emb0 (r : Fin 800) (f : Fin 128) :
    ((cfg0.win 0).blk t).view.emb (ix3 (0 : Fin 1) r f) = ix3 (bOf t) (nOf t r) f := by
  obtain ⟨e00, e01, e02, -⟩ := idx_facts t
  funext a; apply Fin.ext
  match a with
  | ⟨0, _⟩ => show win0_0.index t (0 : Fin 3) * 1 + 1 * 0 = win0_3.index t (0 : Fin 3); omega
  | ⟨1, _⟩ => show win0_0.index t (1 : Fin 3) * 800 + 1 * r.val = win0_3.index t (1 : Fin 3) * 800 + r.val; omega
  | ⟨2, _⟩ => show win0_0.index t (2 : Fin 3) * 128 + 1 * f.val = f.val; omega

theorem emb1 (f : Fin 128) (o : Fin 3) : ((cfg0.win 1).blk t).view.emb (ix2 f o) = ix2 f o := by
  obtain ⟨-, -, -, e10, e11, -⟩ := idx_facts t
  funext a; apply Fin.ext
  match a with
  | ⟨0, _⟩ => show win0_1.index t (0 : Fin 2) * 128 + 1 * f.val = f.val; omega
  | ⟨1, _⟩ => show win0_1.index t (1 : Fin 2) * 3 + 1 * o.val = o.val; omega

theorem emb2 (v : Fin 4096) (ch : Fin 128) :
    ((cfg0.win 2).blk t).view.emb (ix3 (0 : Fin 1) v ch) = ix3 (bOf t) v ch := by
  obtain ⟨-, -, -, -, -, e20, e21, e22, -⟩ := idx_facts t
  funext a; apply Fin.ext
  match a with
  | ⟨0, _⟩ => show win0_2.index t (0 : Fin 3) * 1 + 1 * 0 = win0_3.index t (0 : Fin 3); omega
  | ⟨1, _⟩ => show win0_2.index t (1 : Fin 3) * 4096 + 1 * v.val = v.val; omega
  | ⟨2, _⟩ => show win0_2.index t (2 : Fin 3) * 128 + 1 * ch.val = ch.val; omega

theorem emb3 (r : Fin 800) (j : Fin 259) :
    ((cfg0.win 3).blk t).view.emb (ix3 (0 : Fin 1) r j) = ix3 (bOf t) (nOf t r) j := by
  obtain ⟨-, -, -, -, -, -, -, -, -, -, -, -, -, e32⟩ := idx_facts t
  funext a; apply Fin.ext
  match a with
  | ⟨0, _⟩ => show win0_3.index t (0 : Fin 3) * 1 + 1 * 0 = win0_3.index t (0 : Fin 3); omega
  | ⟨1, _⟩ => show win0_3.index t (1 : Fin 3) * 800 + 1 * r.val = win0_3.index t (1 : Fin 3) * 800 + r.val; omega
  | ⟨2, _⟩ => show win0_3.index t (2 : Fin 3) * 259 + 1 * j.val = j.val; omega

theorem emb4 (r : Fin 800) (o : Fin 3) :
    ((cfg0.win 4).blk t).view.emb (ix3 (0 : Fin 1) r o) = ix3 (bOf t) (nOf t r) o := by
  obtain ⟨-, -, -, -, -, -, -, -, e40, e41, e42, -⟩ := idx_facts t
  funext a; apply Fin.ext
  match a with
  | ⟨0, _⟩ => show win0_4.index t (0 : Fin 3) * 1 + 1 * 0 = win0_3.index t (0 : Fin 3); omega
  | ⟨1, _⟩ => show win0_4.index t (1 : Fin 3) * 800 + 1 * r.val = win0_3.index t (1 : Fin 3) * 800 + r.val; omega
  | ⟨2, _⟩ => show win0_4.index t (2 : Fin 3) * 3 + 1 * o.val = o.val; omega

end emb

/-! ## The blocks a point reads, entry by entry -/

theorem iblk0_apply (c : Dev nD) (t : Fin cfg0.N) (r : Fin 800) (f : Fin 128) :
    iblk m c 0 t (ix3 (0 : Fin 1) r f) = V m c main_arg0 (ix3 (bOf t) (nOf t r) f) := by
  show V m c main_arg0 (((cfg0.win 0).blk t).view.emb (ix3 (0 : Fin 1) r f)) = _
  rw [emb0]

theorem iblk1_apply (c : Dev nD) (t : Fin cfg0.N) (f : Fin 128) (o : Fin 3) :
    iblk m c 1 t (ix2 f o) = V m c main_arg3 (ix2 f o) := by
  show V m c main_arg3 (((cfg0.win 1).blk t).view.emb (ix2 f o)) = _
  rw [emb1]

theorem iblk2_apply (c : Dev nD) (t : Fin cfg0.N) (v : Fin 4096) (ch : Fin 128) :
    iblk m c 2 t (ix3 (0 : Fin 1) v ch) = volOf (m ((c : Thread nD τ).loc main_arg2)) (ix3 (bOf t) ch v) := by
  show V m c main_v2 (((cfg0.win 2).blk t).view.emb (ix3 (0 : Fin 1) v ch)) = _
  rw [emb2]
  exact V_v2_apply m c (bOf t) v ch

/-- The positions a point computes are the positions of its rows. -/
theorem posK_blk (c : Dev nD) (t : Fin cfg0.N) (r : Fin 800) (o : Fin 3) :
    posK (iblk m c 0 t) (iblk m c 1 t) r o = posAt (V m c main_arg0) (V m c main_arg3) (bOf t) (nOf t r) o := by
  unfold posK posAt
  congr 1
  · funext f; exact iblk0_apply m c t r f
  · funext f; exact iblk1_apply m c t f o

/-! ## What a point writes back -/

/-- Point `t` writes back block `t` of the positions array. -/
theorem flushed4_eq (c : Dev nD) (t : Fin cfg0.N) :
    (dats m 0 c).flushed 4 t
      = ((cfg0.win 4).blk t).view.read (Elt Ideal) (posArr (V m c main_arg0) (V m c main_arg3)) := by
  rw [flushed4_A]
  funext j
  obtain ⟨z, r, o, rfl⟩ : ∃ (z : Fin 1) (r : Fin 800) (o : Fin 3), j = ix3 z r o := ⟨j 0, j 1, j 2, eq_ix3 j⟩
  obtain rfl : z = 0 := Subsingleton.elim _ _
  show out0_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (ix3 (0 : Fin 1) r o)
    = posArr (V m c main_arg0) (V m c main_arg3) (((cfg0.win 4).blk t).view.emb (ix3 (0 : Fin 1) r o))
  rw [out4_pos, posBlk_apply, posK_blk, emb4]
  rfl

/-- Point `t` writes back block `t` of the wide array. -/
theorem flushed3_eq (c : Dev nD) (t : Fin cfg0.N) :
    (dats m 0 c).flushed 3 t
      = ((cfg0.win 3).blk t).view.read (Elt Ideal)
          (outK (V m c main_arg0) (volOf (m ((c : Thread nD τ).loc main_arg2))) (V m c main_arg3)) := by
  rw [flushed3_A]
  funext j
  obtain ⟨z, r, jj, rfl⟩ : ∃ (z : Fin 1) (r : Fin 800) (jj : Fin 259), j = ix3 z r jj := ⟨j 0, j 1, j 2, eq_ix3 j⟩
  obtain rfl : z = 0 := Subsingleton.elim _ _
  show out0_A_3 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) (iblk m c 2 t) (ix3 (0 : Fin 1) r jj)
    = outK (V m c main_arg0) (volOf (m ((c : Thread nD τ).loc main_arg2))) (V m c main_arg3)
        (((cfg0.win 3).blk t).view.emb (ix3 (0 : Fin 1) r jj))
  rw [emb3]
  show _ = outRow (fun f => V m c main_arg0 (ix3 (bOf t) (nOf t r) f))
    (fun ch => skipK (gAt (V m c main_arg0) (V m c main_arg3) (bOf t) (nOf t r) 0) (gAt (V m c main_arg0) (V m c main_arg3) (bOf t) (nOf t r) 1)
      (gAt (V m c main_arg0) (V m c main_arg3) (bOf t) (nOf t r) 2) (fun v => volOf (m ((c : Thread nD τ).loc main_arg2)) (ix3 (bOf t) ch v)))
    (fun o => posAt (V m c main_arg0) (V m c main_arg3) (bOf t) (nOf t r) o) jj
  rcases row_cases jj with ⟨f, rfl⟩ | ⟨ch, rfl⟩ | ⟨o, rfl⟩
  · rw [out3_x, outRow_x, iblk0_apply]
  · rw [out3_skip, outRow_s, skipBlk_apply, posK_blk, posK_blk, posK_blk]
    have hv : (fun v => iblk m c 2 t (ix3 (0 : Fin 1) v ch))
        = fun v => volOf (m ((c : Thread nD τ).loc main_arg2)) (ix3 (bOf t) ch v) := funext fun v => iblk2_apply m c t v ch
    rw [hv]
    rfl
  · rw [out3_pos, outRow_p, posBlk_apply, posK_blk]

/-! ## The blocks cover the arrays -/

theorem cover3 (i : S4x40000x259.Idx) :
    ∃ t : Fin cfg0.N, (cfg0.win 3).flush t = true ∧ i ∈ ((cfg0.win 3).blk t).view.set := by
  have h0 : (i 0).val < 4 := (i 0).isLt
  have h1 : (i 1).val < 40000 := (i 1).isLt
  have h2 : (i 2).val < 259 := (i 2).isLt
  obtain ⟨t, q0, q1⟩ := idx_onto ⟨(i 0).val, h0⟩ ⟨(i 1).val / 800, by omega⟩
  have q0' : win0_3.index t (0 : Fin 3) = (i 0).val := q0
  have q1' : win0_3.index t (1 : Fin 3) = (i 1).val / 800 := q1
  have q2 : win0_3.index t (2 : Fin 3) = 0 := (idx_facts t).2.2.2.2.2.2.2.2.2.2.2.2.2
  refine ⟨t, flush0_3 t, ?_⟩
  show i ∈ ((View.whole main_v3_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 800 ≤ (i 1).val ∧ (i 1).val < win0_3.index t (1 : Fin 3) * 800 + 800; omega
  | ⟨2, _⟩ => show win0_3.index t (2 : Fin 3) * 259 ≤ (i 2).val ∧ (i 2).val < win0_3.index t (2 : Fin 3) * 259 + 259; omega

theorem cover4 (i : S4x40000x3.Idx) :
    ∃ t : Fin cfg0.N, (cfg0.win 4).flush t = true ∧ i ∈ ((cfg0.win 4).blk t).view.set := by
  have h0 : (i 0).val < 4 := (i 0).isLt
  have h1 : (i 1).val < 40000 := (i 1).isLt
  have h2 : (i 2).val < 3 := (i 2).isLt
  obtain ⟨t, q0, q1⟩ := idx_onto ⟨(i 0).val, h0⟩ ⟨(i 1).val / 800, by omega⟩
  have q0' : win0_3.index t (0 : Fin 3) = (i 0).val := q0
  have q1' : win0_3.index t (1 : Fin 3) = (i 1).val / 800 := q1
  obtain ⟨-, -, -, -, -, -, -, -, e40, e41, e42, -⟩ := idx_facts t
  refine ⟨t, flush0_4 t, ?_⟩
  show i ∈ ((View.whole main_v3_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 800 ≤ (i 1).val ∧ (i 1).val < win0_4.index t (1 : Fin 3) * 800 + 800; omega
  | ⟨2, _⟩ => show win0_4.index t (2 : Fin 3) * 3 ≤ (i 2).val ∧ (i 2).val < win0_4.index t (2 : Fin 3) * 3 + 3; omega

/-! ## The arrays after the run -/

theorem final3 (c : Dev nD) :
    (dats m 0 c).arrAt 3 cfg0.N
      = outK (m ((c : Thread nD τ).loc main_arg0)) (volOf (m ((c : Thread nD τ).loc main_arg2))) (m ((c : Thread nD τ).loc main_arg3)) := by
  rw [← V_main_arg0 m c, ← V_main_arg3 m c]
  exact (dats m 0 c).arrAt_eq_of_cover 3 _ (fun t _ => flushed3_eq m c t) cover3

theorem final4 (c : Dev nD) :
    (dats m 0 c).arrAt 4 cfg0.N = posArr (m ((c : Thread nD τ).loc main_arg0)) (m ((c : Thread nD τ).loc main_arg3)) := by
  rw [← V_main_arg0 m c, ← V_main_arg3 m c]
  exact (dats m 0 c).arrAt_eq_of_cover 4 _ (fun t _ => flushed4_eq m c t) cover4

/-- The kernel's run, read: each result array at its function of the arguments, the arguments unchanged. -/
theorem run : θ_run defs (onTc (τ := τ) (main (F := Ideal))) ⟨m, fun _ => 0, ρ⟩ fun r => ∀ c : Dev nD,
      r.2.mem ((c : Thread nD τ).loc main_v3_0)
        = outK (m ((c : Thread nD τ).loc main_arg0)) (volOf (m ((c : Thread nD τ).loc main_arg2))) (m ((c : Thread nD τ).loc main_arg3))
      ∧ r.2.mem ((c : Thread nD τ).loc main_v3_1) = posArr (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final3 m c), (h c).2.1.trans (final4 m c), (h c).2.2⟩)
    (run_blocks m ρ)

end Cert.KernelIdeal.Arr

end
-- ==== Proof.RefRows.lean ====
/-
  The reference program's per-row stages, read at a batch `b` and a row `n`, are the row functions of the shared
  specification: the positions are inner products of the row of features with the three weight columns; each
  position gives a grid coordinate, its fractional part and its two neighbouring cells; and each of the eight
  corners of the enclosing cube gives a flat voxel number and a weight masked by the inside bit.

  Every stage between the positions and a corner's two results is a pointwise operation or the broadcast of a
  scalar constant, so at a fixed index it is, by unfolding, the scalar expression the specification writes; the
  only layout operations are the three slice-and-reshape pairs that split the grid array into its coordinates.
-/
import proofs.«120255_j59700045415095_2_alg».proof.Proof.RefRead
import proofs.«120255_j59700045415095_2_alg».proof.Proof.TriSpec

noncomputable section

namespace Cert.ReferenceIdeal.Rows

open Cert Cert.ReferenceIdeal Cert.ReferenceIdeal.Gen Idealize.ShloMosaic Idealize.ShloMosaic.ValueIdx

variable (a0 : (⟨S4x40000x128, .f32⟩ : BufTy).Contents (Elt Ideal)) (a3 : (⟨S128x3, .f32⟩ : BufTy).Contents (Elt Ideal))
  (b : Fin 4) (n : Fin 40000)

/-! ## Positions -/

/-- The position `o` of row `(b, n)`: the inner product of the row's 128 features with column `o` of the weights. -/
def posR (o : Fin 3) : EReal := Tri.dot128 (fun f => a0 (ix3 b n f)) (fun f => a3 (ix2 f o))

/-- The contraction reads the left operand along the row. -/
theorem lidx_at (o : Fin 3) (k : Fin 128) : Read.lidx_main_v0 (ix3 b n o) k = ix3 b n k := by
  funext a
  match a with
  | ⟨0, _⟩ => rfl
  | ⟨1, _⟩ => rfl
  | ⟨2, _⟩ => rfl

/-- The contraction reads the right operand down the column. -/
theorem ridx_at (o : Fin 3) (k : Fin 128) : Read.ridx_main_v0 (ix3 b n o) k = ix2 k o := by
  funext a
  match a with
  | ⟨0, _⟩ => rfl
  | ⟨1, _⟩ => rfl

theorem pos_at (o : Fin 3) : Read.val_main_v0 (F := Ideal) a0 a3 (ix3 b n o) = posR a0 a3 b n o := by
  rw [Read.val_main_v0_apply]
  unfold posR Tri.dot128
  refine Finset.sum_congr rfl fun k _ => ?_
  rw [lidx_at, ridx_at]

/-- The grid array `2·p − 1` at a row and a coordinate. -/
theorem grid_at (o : Fin 3) : Read.val_main_v4 (F := Ideal) a0 a3 (ix3 b n o) = Tri.grid (posR a0 a3 b n o) := by
  rw [← pos_at]
  rfl

/-! ## The three coordinates -/

/-- The grid coordinates of row `(b, n)`. -/
abbrev gx : EReal := Tri.grid (posR a0 a3 b n 0)
abbrev gy : EReal := Tri.grid (posR a0 a3 b n 1)
abbrev gz : EReal := Tri.grid (posR a0 a3 b n 2)

/-- Slicing coordinate 0 out of the grid array and dropping the unit axis reads it at `(b, n, 0)`. -/
theorem gx_at : Read.val_main_v6 (F := Ideal) a0 a3 (ix2 b n) = gx a0 a3 b n := by
  have hb := b.isLt
  have hn := n.isLt
  rw [Read.val_main_v6_apply, Read.val_main_v5_apply]
  refine Eq.trans (congrArg (Read.val_main_v4 (F := Ideal) a0 a3) ?_) (grid_at a0 a3 b n 0)
  funext a
  match a with
  | ⟨0, _⟩ => exact Fin.ext (by show (b.val * 40000 + n.val) / 40000 = b.val; omega)
  | ⟨1, _⟩ => exact Fin.ext (by show (b.val * 40000 + n.val) / 1 % 40000 = n.val; omega)
  | ⟨2, _⟩ => rfl

theorem gy_at : Read.val_main_v14 (F := Ideal) a0 a3 (ix2 b n) = gy a0 a3 b n := by
  have hb := b.isLt
  have hn := n.isLt
  rw [Read.val_main_v14_apply, Read.val_main_v13_apply]
  refine Eq.trans (congrArg (Read.val_main_v4 (F := Ideal) a0 a3) ?_) (grid_at a0 a3 b n 1)
  funext a
  match a with
  | ⟨0, _⟩ => exact Fin.ext (by show (b.val * 40000 + n.val) / 40000 = b.val; omega)
  | ⟨1, _⟩ => exact Fin.ext (by show (b.val * 40000 + n.val) / 1 % 40000 = n.val; omega)
  | ⟨2, _⟩ => rfl

theorem gz_at : Read.val_main_v22 (F := Ideal) a0 a3 (ix2 b n) = gz a0 a3 b n := by
  have hb := b.isLt
  have hn := n.isLt
  rw [Read.val_main_v22_apply, Read.val_main_v21_apply]
  refine Eq.trans (congrArg (Read.val_main_v4 (F := Ideal) a0 a3) ?_) (grid_at a0 a3 b n 2)
  funext a
  match a with
  | ⟨0, _⟩ => exact Fin.ext (by show (b.val * 40000 + n.val) / 40000 = b.val; omega)
  | ⟨1, _⟩ => exact Fin.ext (by show (b.val * 40000 + n.val) / 1 % 40000 = n.val; omega)
  | ⟨2, _⟩ => rfl

/-! ## Fractional parts and cells

  From a coordinate array on, every stage is pointwise: at the index it is the specification's scalar function of
  the coordinate. -/

theorem fra_x_at : Read.val_main_v32 (F := Ideal) a0 a3 (ix2 b n) = Tri.fra (gx a0 a3 b n) := by
  rw [← gx_at]; rfl
theorem fra_y_at : Read.val_main_v33 (F := Ideal) a0 a3 (ix2 b n) = Tri.fra (gy a0 a3 b n) := by
  rw [← gy_at]; rfl
theorem fra_z_at : Read.val_main_v34 (F := Ideal) a0 a3 (ix2 b n) = Tri.fra (gz a0 a3 b n) := by
  rw [← gz_at]; rfl

theorem lo_x_at : Read.val_main_v35 (F := Ideal) a0 a3 (ix2 b n) = Tri.lo (gx a0 a3 b n) := by
  rw [← gx_at]; rfl
theorem lo_y_at : Read.val_main_v36 (F := Ideal) a0 a3 (ix2 b n) = Tri.lo (gy a0 a3 b n) := by
  rw [← gy_at]; rfl
theorem lo_z_at : Read.val_main_v37 (F := Ideal) a0 a3 (ix2 b n) = Tri.lo (gz a0 a3 b n) := by
  rw [← gz_at]; rfl

theorem hi_x_at : Read.val_main_v39 (F := Ideal) a0 a3 (ix2 b n) = Tri.hi (gx a0 a3 b n) := by
  rw [← gx_at]; rfl
theorem hi_y_at : Read.val_main_v41 (F := Ideal) a0 a3 (ix2 b n) = Tri.hi (gy a0 a3 b n) := by
  rw [← gy_at]; rfl
theorem hi_z_at : Read.val_main_v43 (F := Ideal) a0 a3 (ix2 b n) = Tri.hi (gz a0 a3 b n) := by
  rw [← gz_at]; rfl

/-! ## The eight corners

  A corner's flat voxel number is `(clip z · 16 + clip y) · 16 + clip x` of its three cells, and its masked weight
  is the product of three fractional parts or complements times the inside bit read as 0 or 1. -/

/-- Corner 1: cells (lo, lo, lo). -/
theorem flat_1_at : Read.val_main_v78 (F := Ideal) a0 a3 (ix2 b n)
    = Tri.flat (Tri.lo (gx a0 a3 b n)) (Tri.lo (gy a0 a3 b n)) (Tri.lo (gz a0 a3 b n)) := by
  rw [← lo_x_at, ← lo_y_at, ← lo_z_at]; rfl
theorem wv_1_at : Read.val_main_v82 (F := Ideal) a0 a3 (ix2 b n)
    = Tri.w1 (gx a0 a3 b n) (gy a0 a3 b n) (gz a0 a3 b n)
      * (((Tri.inside (Tri.lo (gx a0 a3 b n)) (Tri.lo (gy a0 a3 b n)) (Tri.lo (gz a0 a3 b n))).toNat : ℝ) : EReal) := by
  unfold Tri.w1
  rw [← fra_x_at, ← fra_y_at, ← fra_z_at, ← lo_x_at, ← lo_y_at, ← lo_z_at]; rfl

/-- Corner 2: cells (hi, lo, lo). -/
theorem flat_2_at : Read.val_main_v117 (F := Ideal) a0 a3 (ix2 b n)
    = Tri.flat (Tri.hi (gx a0 a3 b n)) (Tri.lo (gy a0 a3 b n)) (Tri.lo (gz a0 a3 b n)) := by
  rw [← hi_x_at, ← lo_y_at, ← lo_z_at]; rfl
theorem wv_2_at : Read.val_main_v121 (F := Ideal) a0 a3 (ix2 b n)
    = Tri.w2 (gx a0 a3 b n) (gy a0 a3 b n) (gz a0 a3 b n)
      * (((Tri.inside (Tri.hi (gx a0 a3 b n)) (Tri.lo (gy a0 a3 b n)) (Tri.lo (gz a0 a3 b n))).toNat : ℝ) : EReal) := by
  unfold Tri.w2
  rw [← fra_x_at, ← fra_y_at, ← fra_z_at, ← hi_x_at, ← lo_y_at, ← lo_z_at]; rfl

/-- Corner 3: cells (lo, hi, lo). -/
theorem flat_3_at : Read.val_main_v157 (F := Ideal) a0 a3 (ix2 b n)
    = Tri.flat (Tri.lo (gx a0 a3 b n)) (Tri.hi (gy a0 a3 b n)) (Tri.lo (gz a0 a3 b n)) := by
  rw [← lo_x_at, ← hi_y_at, ← lo_z_at]; rfl
theorem wv_3_at : Read.val_main_v161 (F := Ideal) a0 a3 (ix2 b n)
    = Tri.w3 (gx a0 a3 b n) (gy a0 a3 b n) (gz a0 a3 b n)
      * (((Tri.inside (Tri.lo (gx a0 a3 b n)) (Tri.hi (gy a0 a3 b n)) (Tri.lo (gz a0 a3 b n))).toNat : ℝ) : EReal) := by
  unfold Tri.w3
  rw [← fra_x_at, ← fra_y_at, ← fra_z_at, ← lo_x_at, ← hi_y_at, ← lo_z_at]; rfl

/-- Corner 4: cells (hi, hi, lo). -/
theorem flat_4_at : Read.val_main_v195 (F := Ideal) a0 a3 (ix2 b n)
    = Tri.flat (Tri.hi (gx a0 a3 b n)) (Tri.hi (gy a0 a3 b n)) (Tri.lo (gz a0 a3 b n)) := by
  rw [← hi_x_at, ← hi_y_at, ← lo_z_at]; rfl
theorem wv_4_at : Read.val_main_v199 (F := Ideal) a0 a3 (ix2 b n)
    = Tri.w4 (gx a0 a3 b n) (gy a0 a3 b n) (gz a0 a3 b n)
      * (((Tri.inside (Tri.hi (gx a0 a3 b n)) (Tri.hi (gy a0 a3 b n)) (Tri.lo (gz a0 a3 b n))).toNat : ℝ) : EReal) := by
  unfold Tri.w4
  rw [← fra_x_at, ← fra_y_at, ← fra_z_at, ← hi_x_at, ← hi_y_at, ← lo_z_at]; rfl

/-- Corner 5: cells (lo, lo, hi). -/
theorem flat_5_at : Read.val_main_v235 (F := Ideal) a0 a3 (ix2 b n)
    = Tri.flat (Tri.lo (gx a0 a3 b n)) (Tri.lo (gy a0 a3 b n)) (Tri.hi (gz a0 a3 b n)) := by
  rw [← lo_x_at, ← lo_y_at, ← hi_z_at]; rfl
theorem wv_5_at : Read.val_main_v239 (F := Ideal) a0 a3 (ix2 b n)
    = Tri.w5 (gx a0 a3 b n) (gy a0 a3 b n) (gz a0 a3 b n)
      * (((Tri.inside (Tri.lo (gx a0 a3 b n)) (Tri.lo (gy a0 a3 b n)) (Tri.hi (gz a0 a3 b n))).toNat : ℝ) : EReal) := by
  unfold Tri.w5
  rw [← fra_x_at, ← fra_y_at, ← fra_z_at, ← lo_x_at, ← lo_y_at, ← hi_z_at]; rfl

/-- Corner 6: cells (hi, lo, hi). -/
theorem flat_6_at : Read.val_main_v273 (F := Ideal) a0 a3 (ix2 b n)
    = Tri.flat (Tri.hi (gx a0 a3 b n)) (Tri.lo (gy a0 a3 b n)) (Tri.hi (gz a0 a3 b n)) := by
  rw [← hi_x_at, ← lo_y_at, ← hi_z_at]; rfl
theorem wv_6_at : Read.val_main_v277 (F := Ideal) a0 a3 (ix2 b n)
    = Tri.w6 (gx a0 a3 b n) (gy a0 a3 b n) (gz a0 a3 b n)
      * (((Tri.inside (Tri.hi (gx a0 a3 b n)) (Tri.lo (gy a0 a3 b n)) (Tri.hi (gz a0 a3 b n))).toNat : ℝ) : EReal) := by
  unfold Tri.w6
  rw [← fra_x_at, ← fra_y_at, ← fra_z_at, ← hi_x_at, ← lo_y_at, ← hi_z_at]; rfl

/-- Corner 7: cells (lo, hi, hi). -/
theorem flat_7_at : Read.val_main_v311 (F := Ideal) a0 a3 (ix2 b n)
    = Tri.flat (Tri.lo (gx a0 a3 b n)) (Tri.hi (gy a0 a3 b n)) (Tri.hi (gz a0 a3 b n)) := by
  rw [← lo_x_at, ← hi_y_at, ← hi_z_at]; rfl
theorem wv_7_at : Read.val_main_v315 (F := Ideal) a0 a3 (ix2 b n)
    = Tri.w7 (gx a0 a3 b n) (gy a0 a3 b n) (gz a0 a3 b n)
      * (((Tri.inside (Tri.lo (gx a0 a3 b n)) (Tri.hi (gy a0 a3 b n)) (Tri.hi (gz a0 a3 b n))).toNat : ℝ) : EReal) := by
  unfold Tri.w7
  rw [← fra_x_at, ← fra_y_at, ← fra_z_at, ← lo_x_at, ← hi_y_at, ← hi_z_at]; rfl

/-- Corner 8: cells (hi, hi, hi). -/
theorem flat_8_at : Read.val_main_v347 (F := Ideal) a0 a3 (ix2 b n)
    = Tri.flat (Tri.hi (gx a0 a3 b n)) (Tri.hi (gy a0 a3 b n)) (Tri.hi (gz a0 a3 b n)) := by
  rw [← hi_x_at, ← hi_y_at, ← hi_z_at]; rfl
theorem wv_8_at : Read.val_main_v351 (F := Ideal) a0 a3 (ix2 b n)
    = Tri.w8 (gx a0 a3 b n) (gy a0 a3 b n) (gz a0 a3 b n)
      * (((Tri.inside (Tri.hi (gx a0 a3 b n)) (Tri.hi (gy a0 a3 b n)) (Tri.hi (gz a0 a3 b n))).toNat : ℝ) : EReal) := by
  unfold Tri.w8
  rw [← fra_x_at, ← fra_y_at, ← fra_z_at, ← hi_x_at, ← hi_y_at, ← hi_z_at]; rfl

end Cert.ReferenceIdeal.Rows

end
-- ==== Proof.RefTake.lean ====
/-
  Taking voxels along the last axis of a volume: the pattern "wrap a negative index around, check it against
  [0, 4095], gather, answer an out-of-range index by a NaN" read at one index.

  The volume is [4, 128, 4096], the start indices [4, 1, 40000] 32-bit words. When the word given for (b, n) is below
  4096 it is non-negative as a signed number, so the wrap-around keeps it, both bound checks hold, the and over the
  one-element axis is 1, the gather's clamped start index is the word itself, and the result at (b, c, n) is the volume at
  (b, c, that word).

  Last, the concatenation [4, 40000, 128 + 128 + 3] of three pieces along the last axis read at an index of each piece.
-/
import proofs.«120255_j59700045415095_2_alg».proof.Proof.Gen.ReferenceIdeal
import Idealize.ShloMosaic.Lib.Pipeline.Value
import Idealize.ShloMosaic.Lib.ValueIdx
import Idealize.ShloMosaic.Lib.Affine
import Idealize.ShloMosaic.PureOps.Reduce

noncomputable section

namespace Cert.ReferenceIdeal.Take

open Cert.ReferenceIdeal Cert.ReferenceIdeal.Gen Idealize.ShloMosaic Idealize.ShloMosaic.TcCoe Idealize.SL.Sem Idealize.ShloMosaic.StableHlo Idealize.ShloMosaic.ValueIdx

variable {F : FTy → Type} [FloatOps F]

/-! ## Words below 4096 -/

theorem toInt_small (v : BitVec 32) (h : v.toNat < 4096) : v.toInt = (v.toNat : Int) :=
  BitVec.toInt_eq_toNat_of_lt (by omega)

theorem wrap_small (v : BitVec 32) (h : v.toNat < 4096) :
    Scalar.select (IntOp.cmpi .slt v 0#32) (IntOp.addi v 4096#32) v = v := by
  unfold Scalar.select
  rw [if_neg]
  intro hc
  have := IntOp.cmpi_slt.1 hc
  rw [toInt_small v h] at this
  simp at this
  omega

theorem inb_small (v : BitVec 32) (h : v.toNat < 4096) :
    IntOp.andi (IntOp.cmpi .sge v 0#32) (IntOp.cmpi .sle v 4095#32) = 1#1 := by
  refine IntOp.andi_eq_one.2 ⟨IntOp.cmpi_sge.2 ?_, IntOp.cmpi_sle.2 ?_⟩
  · rw [toInt_small v h]; simp
  · rw [toInt_small v h]; simp; omega

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-! ## The start indices -/

/-- The start indices as the gather reads them: a negative word wrapped around by 4096, the array reshaped to
    [4, 40000, 1]. -/
def wrapIdx (I : IVec S4x1x40000 32) : IVec S4x40000x1 32 :=
  shapeCast _ (select (cmpi .slt I (broadcastInDim S4x1x40000 ![] bcast_S_S4x1x40000 (constantI S_ 32 0#32)))
    (addi I (broadcastInDim S4x1x40000 ![] bcast_S_S4x1x40000 (constantI S_ 32 4096#32))) I) shapeCasts_S4x1x40000_S4x40000x1

/-- The gather of a volume [4, 128, 4096] along its last axis at start indices [4, 1, 40000], out-of-range
    indices answered by a NaN. -/
def takeFn (vol : FVec F S4x128x4096 .f32) (I : IVec S4x1x40000 32) : FVec F S4x128x40000 .f32 :=
  select
    (broadcastInDim S4x128x40000 ![0, 2] bcast_S4x40000_S4x128x40000_0_2
      (Host.reduce IntOp.andi
        (andi (cmpi .sge (wrapIdx I) (broadcastInDim S4x40000x1 ![] bcast_S_S4x40000x1 (constantI S_ 32 0#32)))
          (cmpi .sle (wrapIdx I) (broadcastInDim S4x40000x1 ![0, 1, 2] bcast_S1x1x1_S4x40000x1_0_1_2
            (broadcastInDim S1x1x1 ![2] bcast_S1_S1x1x1_2 (constantI S1 32 4095#32)))))
        (constantI S_ 1 1#1) reducesTo_S4x40000x1_S4x40000_d2 h_S_))
    (Host.gather gather_S4x128x4096_S4x40000x1_S4x128x40000_1_2_0_0_2_2_11281 vol (wrapIdx I))
    (broadcastInDim S4x128x40000 ![] bcast_S_S4x128x40000 (constant S_ .f32 0x7FC00000#32))

/-- At an index whose first two coordinates are b and n the start index is the word given for (b, n), when that word
    is below 4096. -/
theorem wrapIdx_apply (I : IVec S4x1x40000 32) (b : Fin 4) (n : Fin 40000) (h : (I (ix3 b 0 n)).toNat < 4096)
    (i : S4x40000x1.Idx) (h0 : (i 0).val = b.val) (h1 : (i 1).val = n.val) : wrapIdx I i = I (ix3 b 0 n) := by
  unfold wrapIdx
  rw [shapeCast_apply _ shapeCasts_S4x1x40000_S4x40000x1 i (ix3 b 0 n) (by
    rewrite [Shape.rowMajor_val_three, Shape.rowMajor_val_three]
    have h2 : (i 2).val < 1 := (i 2).isLt
    show (b.val * 1 + 0) * 40000 + n.val = ((i 0).val * 40000 + (i 1).val) * 1 + (i 2).val
    omega)]
  exact wrap_small _ h

local notation "gd" => gather_S4x128x4096_S4x40000x1_S4x128x40000_1_2_0_0_2_2_11281

/-! ## The bound check -/

/-- A reduce by and from the constant 1 is 1 at a result index over which every operand element is 1. -/
theorem reduce_andi_one {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, hr.drop i = j → x i = 1#1) : Host.reduce IntOp.andi x init hr hu j = 1#1 := by
  rw [Host.reduce_eq_foldl, hinit]
  refine foldl_andi_one x _ (fun i hi => hx i ?_)
  have := (List.mem_filter.1 hi).2
  simpa using this

/-- The volume read at the clamped start index, the select kept because the start index is within [0, 4095]. -/
theorem takeFn_apply (vol : FVec F S4x128x4096 .f32) (I : IVec S4x1x40000 32) (b : Fin 4) (c : Fin 128) (n : Fin 40000)
    (h : (I (ix3 b 0 n)).toNat < 4096) :
    takeFn vol I (ix3 b c n) = vol (ix3 b c ⟨(I (ix3 b 0 n)).toNat, h⟩) := by
  unfold takeFn
  rw [select_apply]
  rw [broadcastInDim_apply _ bcast_S4x40000_S4x128x40000_0_2 _ (ix3 b c n) (ix2 b n) (fun a => match a with
    | ⟨0, _⟩ => by show b.val = if (4 : Nat) = 1 then 0 else b.val; rw [if_neg (by decide)]
    | ⟨1, _⟩ => by show n.val = if (40000 : Nat) = 1 then 0 else n.val; rw [if_neg (by decide)])]
  rw [reduce_andi_one _ _ reducesTo_S4x40000x1_S4x40000_d2 h_S_ (ix2 b n) rfl (fun i hi => by
    have e0 : (i 0).val = b.val := by
      rw [← Shape.ReducesTo.drop_apply_val_of_eq reducesTo_S4x40000x1_S4x40000_d2 i 0 0, hi]
    have e1 : (i 1).val = n.val := by
      rw [← Shape.ReducesTo.drop_apply_val_of_eq reducesTo_S4x40000x1_S4x40000_d2 i 1 1, hi]
    show IntOp.andi (IntOp.cmpi .sge (wrapIdx I i) 0#32) (IntOp.cmpi .sle (wrapIdx I i) 4095#32) = 1#1
    rw [wrapIdx_apply I b n h i e0 e1]
    exact inb_small _ h)]
  rw [select_one]
  unfold Host.gather
  have e0 : (gd).start (ix3 b c n) (wrapIdx I) ⟨0, by decide⟩ + (gd).batchCoord (ix3 b c n) ⟨0, by decide⟩
      + (gd).offCoord (ix3 b c n) ⟨0, by decide⟩ = b.val := by
    rw [GatherDims.start_batching gd (ix3 b c n) (wrapIdx I) ⟨0, by decide⟩ (by decide),
      GatherDims.offCoord_eq_zero gd (ix3 b c n) ⟨0, by decide⟩ (by decide)]
    unfold GatherDims.batchCoord
    rw [dif_pos (by decide), Nat.zero_add, Nat.add_zero]
    rfl
  have e1 : (gd).start (ix3 b c n) (wrapIdx I) ⟨1, by decide⟩ + (gd).batchCoord (ix3 b c n) ⟨1, by decide⟩
      + (gd).offCoord (ix3 b c n) ⟨1, by decide⟩ = c.val := by
    rw [GatherDims.batchCoord_eq_zero gd (ix3 b c n) ⟨1, by decide⟩ (by decide)]
    unfold GatherDims.start GatherDims.offCoord
    rw [dif_neg (by decide), dif_pos (by decide), Nat.zero_add]
    rfl
  have e2 : (gd).start (ix3 b c n) (wrapIdx I) ⟨2, by decide⟩ + (gd).batchCoord (ix3 b c n) ⟨2, by decide⟩
      + (gd).offCoord (ix3 b c n) ⟨2, by decide⟩ = (I (ix3 b 0 n)).toNat := by
    rw [GatherDims.batchCoord_eq_zero gd (ix3 b c n) ⟨2, by decide⟩ (by decide),
      GatherDims.offCoord_eq_zero gd (ix3 b c n) ⟨2, by decide⟩ (by decide)]
    unfold GatherDims.start
    rw [dif_pos (by decide)]
    rw [wrapIdx_apply I b n h _ rfl rfl]
    show min (I (ix3 b 0 n)).toInt.toNat (4096 - 1) + 0 + 0 = (I (ix3 b 0 n)).toNat
    rw [toInt_small _ h, Int.toNat_natCast]
    omega
  refine congrArg vol (funext fun a => Fin.ext ?_)
  match a with
  | ⟨0, _⟩ => exact e0
  | ⟨1, _⟩ => exact e1
  | ⟨2, _⟩ => exact e2

/-! ## The concatenation of three pieces along the last axis, read at an index -/

section Cat
variable {α : Type}

/-- The three-piece concatenation [4, 40000, 128 + 128 + 3] along the last axis. -/
def cat3 (x y : S4x40000x128.Idx → α) (z : S4x40000x3.Idx → α) : S4x40000x259.Idx → α :=
  concatenate S4x40000x259 2 [⟨S4x40000x128, x⟩, ⟨S4x40000x128, y⟩, ⟨S4x40000x3, z⟩]
    concatenates_S4x40000x128_S4x40000x128_S4x40000x3_S4x40000x259_d2

theorem cat3_apply_0 (x y : S4x40000x128.Idx → α) (z : S4x40000x3.Idx → α) (b : Fin 4) (n : Fin 40000) (f : Fin 128) :
    cat3 x y z (ix3 b n ⟨f.val, by omega⟩) = x (ix3 b n f) := by
  unfold cat3
  refine concatenate_apply_piece (2 : Fin S4x40000x259.rank) [⟨S4x40000x128, x⟩, ⟨S4x40000x128, y⟩, ⟨S4x40000x3, z⟩] _ _ 0 (by simp) S4x40000x128 x rfl rfl 0 rfl (ix3 b n f) (fun a ha => ?_) ?_
  · match a with
    | ⟨0, _⟩ => rfl
    | ⟨1, _⟩ => rfl
    | ⟨2, _⟩ => exact absurd rfl ha
  · show 0 + f.val = f.val
    omega

theorem cat3_apply_1 (x y : S4x40000x128.Idx → α) (z : S4x40000x3.Idx → α) (b : Fin 4) (n : Fin 40000) (ch : Fin 128) :
    cat3 x y z (ix3 b n ⟨128 + ch.val, by omega⟩) = y (ix3 b n ch) := by
  unfold cat3
  refine concatenate_apply_piece (2 : Fin S4x40000x259.rank) [⟨S4x40000x128, x⟩, ⟨S4x40000x128, y⟩, ⟨S4x40000x3, z⟩] _ _ 1 (by simp) S4x40000x128 y rfl rfl 128 rfl (ix3 b n ch) (fun a ha => ?_) ?_
  · match a with
    | ⟨0, _⟩ => rfl
    | ⟨1, _⟩ => rfl
    | ⟨2, _⟩ => exact absurd rfl ha
  · rfl

theorem cat3_apply_2 (x y : S4x40000x128.Idx → α) (z : S4x40000x3.Idx → α) (b : Fin 4) (n : Fin 40000) (o : Fin 3) :
    cat3 x y z (ix3 b n ⟨256 + o.val, by omega⟩) = z (ix3 b n o) := by
  unfold cat3
  refine concatenate_apply_piece (2 : Fin S4x40000x259.rank) [⟨S4x40000x128, x⟩, ⟨S4x40000x128, y⟩, ⟨S4x40000x3, z⟩] _ _ 2 (by simp) S4x40000x3 z rfl rfl 256 rfl (ix3 b n o) (fun a ha => ?_) ?_
  · match a with
    | ⟨0, _⟩ => rfl
    | ⟨1, _⟩ => rfl
    | ⟨2, _⟩ => exact absurd rfl ha
  · rfl

end Cat

end Cert.ReferenceIdeal.Take

end
-- ==== Proof.RefOut.lean ====
/-
  The reference's two results from its per-row stages.

  Each of the eight corners contributes, at batch b, channel c and row n, the voxel of channel c that the corner's flat
  number names times the corner's weight (already masked by its inside bit); the eight products are added in the
  corners' order, the sum is transposed to [4, 40000, 128], and the result row is the concatenation of the 128 features,
  the 128 sampled channels and the 3 positions.
-/
import proofs.«120255_j59700045415095_2_alg».proof.Proof.RefRead
import proofs.«120255_j59700045415095_2_alg».proof.Proof.RefTake
import proofs.«120255_j59700045415095_2_alg».proof.Proof.TriSpec

noncomputable section

namespace Cert.ReferenceIdeal.Take

open Cert.ReferenceIdeal Cert.ReferenceIdeal.Gen Idealize.ShloMosaic Idealize.ShloMosaic.TcCoe Idealize.SL.Sem Idealize.ShloMosaic.StableHlo Idealize.ShloMosaic.ValueIdx

variable (a0 : FVec Ideal S4x40000x128 .f32) (a2 : FVec Ideal S4x128x16x16x16 .f32) (a3 : FVec Ideal S128x3 .f32)

/-- The gather read at an index, the start word named by an equation. -/
theorem takeFn_apply_of_eq (vol : FVec Ideal S4x128x4096 .f32) (I : IVec S4x1x40000 32) (b : Fin 4) (c : Fin 128)
    (n : Fin 40000) (v : BitVec 32) (hv : I (ix3 b 0 n) = v) (h : v.toNat < 4096) :
    takeFn vol I (ix3 b c n) = vol (ix3 b c ⟨v.toNat, h⟩) := by
  subst hv
  exact takeFn_apply vol I b c n h

/-! ## The eight gathers are the one pattern -/

theorem take_1 : Read.val_main_v80 (F := Ideal) a0 a2 a3 = takeFn (F := Ideal) (Read.val_main_v44 (F := Ideal) a2) (Read.val_main_v79 (F := Ideal) a0 a3) := rfl
theorem take_2 : Read.val_main_v119 (F := Ideal) a0 a2 a3 = takeFn (F := Ideal) (Read.val_main_v44 (F := Ideal) a2) (Read.val_main_v118 (F := Ideal) a0 a3) := rfl
theorem take_3 : Read.val_main_v159 (F := Ideal) a0 a2 a3 = takeFn (F := Ideal) (Read.val_main_v44 (F := Ideal) a2) (Read.val_main_v158 (F := Ideal) a0 a3) := rfl
theorem take_4 : Read.val_main_v197 (F := Ideal) a0 a2 a3 = takeFn (F := Ideal) (Read.val_main_v44 (F := Ideal) a2) (Read.val_main_v196 (F := Ideal) a0 a3) := rfl
theorem take_5 : Read.val_main_v237 (F := Ideal) a0 a2 a3 = takeFn (F := Ideal) (Read.val_main_v44 (F := Ideal) a2) (Read.val_main_v236 (F := Ideal) a0 a3) := rfl
theorem take_6 : Read.val_main_v275 (F := Ideal) a0 a2 a3 = takeFn (F := Ideal) (Read.val_main_v44 (F := Ideal) a2) (Read.val_main_v274 (F := Ideal) a0 a3) := rfl
theorem take_7 : Read.val_main_v313 (F := Ideal) a0 a2 a3 = takeFn (F := Ideal) (Read.val_main_v44 (F := Ideal) a2) (Read.val_main_v312 (F := Ideal) a0 a3) := rfl
theorem take_8 : Read.val_main_v349 (F := Ideal) a0 a2 a3 = takeFn (F := Ideal) (Read.val_main_v44 (F := Ideal) a2) (Read.val_main_v348 (F := Ideal) a0 a3) := rfl

/-! ## A corner's product at (b, c, n): the looked-up voxel times the masked weight -/

theorem prod_1 (b : Fin 4) (c : Fin 128) (n : Fin 40000) (h : (Read.val_main_v78 (F := Ideal) a0 a3 (ix2 b n)).toNat < 4096) :
    Read.val_main_v85 (F := Ideal) a0 a2 a3 (ix3 b c n)
      = Read.val_main_v44 (F := Ideal) a2 (ix3 b c ⟨(Read.val_main_v78 (F := Ideal) a0 a3 (ix2 b n)).toNat, h⟩) * Read.val_main_v82 (F := Ideal) a0 a3 (ix2 b n) := by
  have hI : Read.val_main_v79 (F := Ideal) a0 a3 (ix3 b 0 n) = Read.val_main_v78 (F := Ideal) a0 a3 (ix2 b n) := by
    rw [Read.val_main_v79_apply]
    exact congrArg _ (funext fun a => match a with | ⟨0, _⟩ => rfl | ⟨1, _⟩ => rfl)
  have hW : Read.val_main_v84 (F := Ideal) a0 a3 (ix3 b c n) = Read.val_main_v82 (F := Ideal) a0 a3 (ix2 b n) := by
    rw [Read.val_main_v84_apply, Read.val_main_v83_apply]
    exact congrArg _ (funext fun a => match a with | ⟨0, _⟩ => rfl | ⟨1, _⟩ => rfl)
  rw [Read.val_main_v85_apply, take_1, hW, takeFn_apply_of_eq _ _ b c n _ hI h]
  rfl

theorem prod_2 (b : Fin 4) (c : Fin 128) (n : Fin 40000) (h : (Read.val_main_v117 (F := Ideal) a0 a3 (ix2 b n)).toNat < 4096) :
    Read.val_main_v124 (F := Ideal) a0 a2 a3 (ix3 b c n)
      = Read.val_main_v44 (F := Ideal) a2 (ix3 b c ⟨(Read.val_main_v117 (F := Ideal) a0 a3 (ix2 b n)).toNat, h⟩) * Read.val_main_v121 (F := Ideal) a0 a3 (ix2 b n) := by
  have hI : Read.val_main_v118 (F := Ideal) a0 a3 (ix3 b 0 n) = Read.val_main_v117 (F := Ideal) a0 a3 (ix2 b n) := by
    rw [Read.val_main_v118_apply]
    exact congrArg _ (funext fun a => match a with | ⟨0, _⟩ => rfl | ⟨1, _⟩ => rfl)
  have hW : Read.val_main_v123 (F := Ideal) a0 a3 (ix3 b c n) = Read.val_main_v121 (F := Ideal) a0 a3 (ix2 b n) := by
    rw [Read.val_main_v123_apply, Read.val_main_v122_apply]
    exact congrArg _ (funext fun a => match a with | ⟨0, _⟩ => rfl | ⟨1, _⟩ => rfl)
  rw [Read.val_main_v124_apply, take_2, hW, takeFn_apply_of_eq _ _ b c n _ hI h]
  rfl

theorem prod_3 (b : Fin 4) (c : Fin 128) (n : Fin 40000) (h : (Read.val_main_v157 (F := Ideal) a0 a3 (ix2 b n)).toNat < 4096) :
    Read.val_main_v164 (F := Ideal) a0 a2 a3 (ix3 b c n)
      = Read.val_main_v44 (F := Ideal) a2 (ix3 b c ⟨(Read.val_main_v157 (F := Ideal) a0 a3 (ix2 b n)).toNat, h⟩) * Read.val_main_v161 (F := Ideal) a0 a3 (ix2 b n) := by
  have hI : Read.val_main_v158 (F := Ideal) a0 a3 (ix3 b 0 n) = Read.val_main_v157 (F := Ideal) a0 a3 (ix2 b n) := by
    rw [Read.val_main_v158_apply]
    exact congrArg _ (funext fun a => match a with | ⟨0, _⟩ => rfl | ⟨1, _⟩ => rfl)
  have hW : Read.val_main_v163 (F := Ideal) a0 a3 (ix3 b c n) = Read.val_main_v161 (F := Ideal) a0 a3 (ix2 b n) := by
    rw [Read.val_main_v163_apply, Read.val_main_v162_apply]
    exact congrArg _ (funext fun a => match a with | ⟨0, _⟩ => rfl | ⟨1, _⟩ => rfl)
  rw [Read.val_main_v164_apply, take_3, hW, takeFn_apply_of_eq _ _ b c n _ hI h]
  rfl

theorem prod_4 (b : Fin 4) (c : Fin 128) (n : Fin 40000) (h : (Read.val_main_v195 (F := Ideal) a0 a3 (ix2 b n)).toNat < 4096) :
    Read.val_main_v202 (F := Ideal) a0 a2 a3 (ix3 b c n)
      = Read.val_main_v44 (F := Ideal) a2 (ix3 b c ⟨(Read.val_main_v195 (F := Ideal) a0 a3 (ix2 b n)).toNat, h⟩) * Read.val_main_v199 (F := Ideal) a0 a3 (ix2 b n) := by
  have hI : Read.val_main_v196 (F := Ideal) a0 a3 (ix3 b 0 n) = Read.val_main_v195 (F := Ideal) a0 a3 (ix2 b n) := by
    rw [Read.val_main_v196_apply]
    exact congrArg _ (funext fun a => match a with | ⟨0, _⟩ => rfl | ⟨1, _⟩ => rfl)
  have hW : Read.val_main_v201 (F := Ideal) a0 a3 (ix3 b c n) = Read.val_main_v199 (F := Ideal) a0 a3 (ix2 b n) := by
    rw [Read.val_main_v201_apply, Read.val_main_v200_apply]
    exact congrArg _ (funext fun a => match a with | ⟨0, _⟩ => rfl | ⟨1, _⟩ => rfl)
  rw [Read.val_main_v202_apply, take_4, hW, takeFn_apply_of_eq _ _ b c n _ hI h]
  rfl

theorem prod_5 (b : Fin 4) (c : Fin 128) (n : Fin 40000) (h : (Read.val_main_v235 (F := Ideal) a0 a3 (ix2 b n)).toNat < 4096) :
    Read.val_main_v242 (F := Ideal) a0 a2 a3 (ix3 b c n)
      = Read.val_main_v44 (F := Ideal) a2 (ix3 b c ⟨(Read.val_main_v235 (F := Ideal) a0 a3 (ix2 b n)).toNat, h⟩) * Read.val_main_v239 (F := Ideal) a0 a3 (ix2 b n) := by
  have hI : Read.val_main_v236 (F := Ideal) a0 a3 (ix3 b 0 n) = Read.val_main_v235 (F := Ideal) a0 a3 (ix2 b n) := by
    rw [Read.val_main_v236_apply]
    exact congrArg _ (funext fun a => match a with | ⟨0, _⟩ => rfl | ⟨1, _⟩ => rfl)
  have hW : Read.val_main_v241 (F := Ideal) a0 a3 (ix3 b c n) = Read.val_main_v239 (F := Ideal) a0 a3 (ix2 b n) := by
    rw [Read.val_main_v241_apply, Read.val_main_v240_apply]
    exact congrArg _ (funext fun a => match a with | ⟨0, _⟩ => rfl | ⟨1, _⟩ => rfl)
  rw [Read.val_main_v242_apply, take_5, hW, takeFn_apply_of_eq _ _ b c n _ hI h]
  rfl

theorem prod_6 (b : Fin 4) (c : Fin 128) (n : Fin 40000) (h : (Read.val_main_v273 (F := Ideal) a0 a3 (ix2 b n)).toNat < 4096) :
    Read.val_main_v280 (F := Ideal) a0 a2 a3 (ix3 b c n)
      = Read.val_main_v44 (F := Ideal) a2 (ix3 b c ⟨(Read.val_main_v273 (F := Ideal) a0 a3 (ix2 b n)).toNat, h⟩) * Read.val_main_v277 (F := Ideal) a0 a3 (ix2 b n) := by
  have hI : Read.val_main_v274 (F := Ideal) a0 a3 (ix3 b 0 n) = Read.val_main_v273 (F := Ideal) a0 a3 (ix2 b n) := by
    rw [Read.val_main_v274_apply]
    exact congrArg _ (funext fun a => match a with | ⟨0, _⟩ => rfl | ⟨1, _⟩ => rfl)
  have hW : Read.val_main_v279 (F := Ideal) a0 a3 (ix3 b c n) = Read.val_main_v277 (F := Ideal) a0 a3 (ix2 b n) := by
    rw [Read.val_main_v279_apply, Read.val_main_v278_apply]
    exact congrArg _ (funext fun a => match a with | ⟨0, _⟩ => rfl | ⟨1, _⟩ => rfl)
  rw [Read.val_main_v280_apply, take_6, hW, takeFn_apply_of_eq _ _ b c n _ hI h]
  rfl

theorem prod_7 (b : Fin 4) (c : Fin 128) (n : Fin 40000) (h : (Read.val_main_v311 (F := Ideal) a0 a3 (ix2 b n)).toNat < 4096) :
    Read.val_main_v318 (F := Ideal) a0 a2 a3 (ix3 b c n)
      = Read.val_main_v44 (F := Ideal) a2 (ix3 b c ⟨(Read.val_main_v311 (F := Ideal) a0 a3 (ix2 b n)).toNat, h⟩) * Read.val_main_v315 (F := Ideal) a0 a3 (ix2 b n) := by
  have hI : Read.val_main_v312 (F := Ideal) a0 a3 (ix3 b 0 n) = Read.val_main_v311 (F := Ideal) a0 a3 (ix2 b n) := by
    rw [Read.val_main_v312_apply]
    exact congrArg _ (funext fun a => match a with | ⟨0, _⟩ => rfl | ⟨1, _⟩ => rfl)
  have hW : Read.val_main_v317 (F := Ideal) a0 a3 (ix3 b c n) = Read.val_main_v315 (F := Ideal) a0 a3 (ix2 b n) := by
    rw [Read.val_main_v317_apply, Read.val_main_v316_apply]
    exact congrArg _ (funext fun a => match a with | ⟨0, _⟩ => rfl | ⟨1, _⟩ => rfl)
  rw [Read.val_main_v318_apply, take_7, hW, takeFn_apply_of_eq _ _ b c n _ hI h]
  rfl

theorem prod_8 (b : Fin 4) (c : Fin 128) (n : Fin 40000) (h : (Read.val_main_v347 (F := Ideal) a0 a3 (ix2 b n)).toNat < 4096) :
    Read.val_main_v354 (F := Ideal) a0 a2 a3 (ix3 b c n)
      = Read.val_main_v44 (F := Ideal) a2 (ix3 b c ⟨(Read.val_main_v347 (F := Ideal) a0 a3 (ix2 b n)).toNat, h⟩) * Read.val_main_v351 (F := Ideal) a0 a3 (ix2 b n) := by
  have hI : Read.val_main_v348 (F := Ideal) a0 a3 (ix3 b 0 n) = Read.val_main_v347 (F := Ideal) a0 a3 (ix2 b n) := by
    rw [Read.val_main_v348_apply]
    exact congrArg _ (funext fun a => match a with | ⟨0, _⟩ => rfl | ⟨1, _⟩ => rfl)
  have hW : Read.val_main_v353 (F := Ideal) a0 a3 (ix3 b c n) = Read.val_main_v351 (F := Ideal) a0 a3 (ix2 b n) := by
    rw [Read.val_main_v353_apply, Read.val_main_v352_apply]
    exact congrArg _ (funext fun a => match a with | ⟨0, _⟩ => rfl | ⟨1, _⟩ => rfl)
  rw [Read.val_main_v354_apply, take_8, hW, takeFn_apply_of_eq _ _ b c n _ hI h]
  rfl

/-! ## The sum of the eight products, its transpose, and the result row -/

/-- The eight products added in the corners' order, each sum taken with the next product on its right. -/
theorem sum_apply (i : S4x128x40000.Idx) :
    Read.val_main_v355 (F := Ideal) a0 a2 a3 i
      = ((((((Read.val_main_v85 (F := Ideal) a0 a2 a3 i + Read.val_main_v124 (F := Ideal) a0 a2 a3 i)
        + Read.val_main_v164 (F := Ideal) a0 a2 a3 i) + Read.val_main_v202 (F := Ideal) a0 a2 a3 i)
        + Read.val_main_v242 (F := Ideal) a0 a2 a3 i) + Read.val_main_v280 (F := Ideal) a0 a2 a3 i)
        + Read.val_main_v318 (F := Ideal) a0 a2 a3 i) + Read.val_main_v354 (F := Ideal) a0 a2 a3 i := rfl

/-- The transposed sum at (b, n, c) is the sum at (b, c, n). -/
theorem transposed_apply (b : Fin 4) (n : Fin 40000) (c : Fin 128) :
    Read.val_main_v356 (F := Ideal) a0 a2 a3 (ix3 b n c) = Read.val_main_v355 (F := Ideal) a0 a2 a3 (ix3 b c n) := by
  rw [Read.val_main_v356_apply]
  exact congrArg _ (funext fun a => match a with | ⟨0, _⟩ => rfl | ⟨1, _⟩ => rfl | ⟨2, _⟩ => rfl)

/-- The result is the concatenation of the features, the transposed sum and the positions. -/
theorem out_eq_cat3 : Read.val_main_v357 (F := Ideal) a0 a2 a3
    = cat3 a0 (Read.val_main_v356 (F := Ideal) a0 a2 a3) (Read.val_main_v0 (F := Ideal) a0 a3) := rfl

/-- Columns 0 … 127 of a result row are the row's features. -/
theorem out_apply_feat (b : Fin 4) (n : Fin 40000) (f : Fin 128) :
    Read.val_main_v357 (F := Ideal) a0 a2 a3 (ix3 b n ⟨f.val, by omega⟩) = a0 (ix3 b n f) := by
  rw [out_eq_cat3]; exact cat3_apply_0 _ _ _ b n f

/-- Columns 128 … 255 are the transposed sum's channels. -/
theorem out_apply_skip (b : Fin 4) (n : Fin 40000) (ch : Fin 128) :
    Read.val_main_v357 (F := Ideal) a0 a2 a3 (ix3 b n ⟨128 + ch.val, by omega⟩) = Read.val_main_v356 (F := Ideal) a0 a2 a3 (ix3 b n ch) := by
  rw [out_eq_cat3]; exact cat3_apply_1 _ _ _ b n ch

/-- Columns 256 … 258 are the row's positions. -/
theorem out_apply_pos (b : Fin 4) (n : Fin 40000) (o : Fin 3) :
    Read.val_main_v357 (F := Ideal) a0 a2 a3 (ix3 b n ⟨256 + o.val, by omega⟩) = Read.val_main_v0 (F := Ideal) a0 a3 (ix3 b n o) := by
  rw [out_eq_cat3]; exact cat3_apply_2 _ _ _ b n o

end Cert.ReferenceIdeal.Take

end
-- ==== Proof.RefFinal.lean ====
/-
  The reference program's two results as whole arrays: the positions are the inner products of the rows with the
  weight columns, and the 259-wide rows are the features, the trilinear samples and the positions side by side.

  A sample at (b, n, c) is the transposed sum of the eight corner products at (b, c, n). A corner's product is the
  volume's channel c at the corner's flat voxel number times the corner's masked weight; the flat number is below
  4096, so as an index into the 4096 voxels it is the specification's cell index, and the product is the
  specification's corner term. The eight terms are added in the specification's order.
-/
import proofs.«120255_j59700045415095_2_alg».proof.Proof.RefRows
import proofs.«120255_j59700045415095_2_alg».proof.Proof.RefOut
import proofs.«120255_j59700045415095_2_alg».proof.Proof.OutSpec

noncomputable section

namespace Cert.ReferenceIdeal.Final

open Cert Cert.ReferenceIdeal Cert.ReferenceIdeal.Gen Idealize.ShloMosaic Idealize.ShloMosaic.ValueIdx
open Cert.ReferenceIdeal.Rows

/-! ## One corner -/

/-- A voxel looked up at a word below 4096 that is a corner's flat number, times that corner's masked weight, is
    the corner's term. -/
theorem corner_of (vol : S4x128x4096.Idx → EReal) (b : Fin 4) (c : Fin 128) (I : BitVec 32) (W : EReal)
    (A B C : BitVec 32) (w : EReal) (hI : I = Tri.flat A B C)
    (hW : W = w * (((Tri.inside A B C).toNat : ℝ) : EReal)) (h : I.toNat < 4096) :
    vol (ix3 b c ⟨I.toNat, h⟩) * W = Tri.tk (fun v => vol (ix3 b c v)) A B C w := by
  subst hI hW
  unfold Tri.tk
  have e : (⟨(Tri.flat A B C).toNat, h⟩ : Fin 4096) = Tri.cellIx A B C := Fin.ext (Tri.cellIx_val A B C).symm
  rw [e]

variable (a0 : (⟨S4x40000x128, .f32⟩ : BufTy).Contents (Elt Ideal)) (a2 : (⟨S4x128x16x16x16, .f32⟩ : BufTy).Contents (Elt Ideal))
  (a3 : (⟨S128x3, .f32⟩ : BufTy).Contents (Elt Ideal)) (b : Fin 4) (n : Fin 40000) (c : Fin 128)

/-- Channel `c` of volume `b`, flattened to its 4096 voxels. -/
abbrev chan : Fin 4096 → EReal := fun v => Read.val_main_v44 (F := Ideal) a2 (ix3 b c v)

theorem corner_1 : Read.val_main_v85 (F := Ideal) a0 a2 a3 (ix3 b c n)
    = Tri.tk (chan a2 b c) (Tri.lo (gx a0 a3 b n)) (Tri.lo (gy a0 a3 b n)) (Tri.lo (gz a0 a3 b n))
        (Tri.w1 (gx a0 a3 b n) (gy a0 a3 b n) (gz a0 a3 b n)) := by
  have h : (Read.val_main_v78 (F := Ideal) a0 a3 (ix2 b n)).toNat < 4096 := by
    rw [flat_1_at]; exact Tri.flat_toNat_lt _ _ _
  rw [Take.prod_1 a0 a2 a3 b c n h]
  exact corner_of (Read.val_main_v44 (F := Ideal) a2) b c _ _ _ _ _ _ (flat_1_at a0 a3 b n) (wv_1_at a0 a3 b n) h

theorem corner_2 : Read.val_main_v124 (F := Ideal) a0 a2 a3 (ix3 b c n)
    = Tri.tk (chan a2 b c) (Tri.hi (gx a0 a3 b n)) (Tri.lo (gy a0 a3 b n)) (Tri.lo (gz a0 a3 b n))
        (Tri.w2 (gx a0 a3 b n) (gy a0 a3 b n) (gz a0 a3 b n)) := by
  have h : (Read.val_main_v117 (F := Ideal) a0 a3 (ix2 b n)).toNat < 4096 := by
    rw [flat_2_at]; exact Tri.flat_toNat_lt _ _ _
  rw [Take.prod_2 a0 a2 a3 b c n h]
  exact corner_of (Read.val_main_v44 (F := Ideal) a2) b c _ _ _ _ _ _ (flat_2_at a0 a3 b n) (wv_2_at a0 a3 b n) h

theorem corner_3 : Read.val_main_v164 (F := Ideal) a0 a2 a3 (ix3 b c n)
    = Tri.tk (chan a2 b c) (Tri.lo (gx a0 a3 b n)) (Tri.hi (gy a0 a3 b n)) (Tri.lo (gz a0 a3 b n))
        (Tri.w3 (gx a0 a3 b n) (gy a0 a3 b n) (gz a0 a3 b n)) := by
  have h : (Read.val_main_v157 (F := Ideal) a0 a3 (ix2 b n)).toNat < 4096 := by
    rw [flat_3_at]; exact Tri.flat_toNat_lt _ _ _
  rw [Take.prod_3 a0 a2 a3 b c n h]
  exact corner_of (Read.val_main_v44 (F := Ideal) a2) b c _ _ _ _ _ _ (flat_3_at a0 a3 b n) (wv_3_at a0 a3 b n) h

theorem corner_4 : Read.val_main_v202 (F := Ideal) a0 a2 a3 (ix3 b c n)
    = Tri.tk (chan a2 b c) (Tri.hi (gx a0 a3 b n)) (Tri.hi (gy a0 a3 b n)) (Tri.lo (gz a0 a3 b n))
        (Tri.w4 (gx a0 a3 b n) (gy a0 a3 b n) (gz a0 a3 b n)) := by
  have h : (Read.val_main_v195 (F := Ideal) a0 a3 (ix2 b n)).toNat < 4096 := by
    rw [flat_4_at]; exact Tri.flat_toNat_lt _ _ _
  rw [Take.prod_4 a0 a2 a3 b c n h]
  exact corner_of (Read.val_main_v44 (F := Ideal) a2) b c _ _ _ _ _ _ (flat_4_at a0 a3 b n) (wv_4_at a0 a3 b n) h

theorem corner_5 : Read.val_main_v242 (F := Ideal) a0 a2 a3 (ix3 b c n)
    = Tri.tk (chan a2 b c) (Tri.lo (gx a0 a3 b n)) (Tri.lo (gy a0 a3 b n)) (Tri.hi (gz a0 a3 b n))
        (Tri.w5 (gx a0 a3 b n) (gy a0 a3 b n) (gz a0 a3 b n)) := by
  have h : (Read.val_main_v235 (F := Ideal) a0 a3 (ix2 b n)).toNat < 4096 := by
    rw [flat_5_at]; exact Tri.flat_toNat_lt _ _ _
  rw [Take.prod_5 a0 a2 a3 b c n h]
  exact corner_of (Read.val_main_v44 (F := Ideal) a2) b c _ _ _ _ _ _ (flat_5_at a0 a3 b n) (wv_5_at a0 a3 b n) h

theorem corner_6 : Read.val_main_v280 (F := Ideal) a0 a2 a3 (ix3 b c n)
    = Tri.tk (chan a2 b c) (Tri.hi (gx a0 a3 b n)) (Tri.lo (gy a0 a3 b n)) (Tri.hi (gz a0 a3 b n))
        (Tri.w6 (gx a0 a3 b n) (gy a0 a3 b n) (gz a0 a3 b n)) := by
  have h : (Read.val_main_v273 (F := Ideal) a0 a3 (ix2 b n)).toNat < 4096 := by
    rw [flat_6_at]; exact Tri.flat_toNat_lt _ _ _
  rw [Take.prod_6 a0 a2 a3 b c n h]
  exact corner_of (Read.val_main_v44 (F := Ideal) a2) b c _ _ _ _ _ _ (flat_6_at a0 a3 b n) (wv_6_at a0 a3 b n) h

theorem corner_7 : Read.val_main_v318 (F := Ideal) a0 a2 a3 (ix3 b c n)
    = Tri.tk (chan a2 b c) (Tri.lo (gx a0 a3 b n)) (Tri.hi (gy a0 a3 b n)) (Tri.hi (gz a0 a3 b n))
        (Tri.w7 (gx a0 a3 b n) (gy a0 a3 b n) (gz a0 a3 b n)) := by
  have h : (Read.val_main_v311 (F := Ideal) a0 a3 (ix2 b n)).toNat < 4096 := by
    rw [flat_7_at]; exact Tri.flat_toNat_lt _ _ _
  rw [Take.prod_7 a0 a2 a3 b c n h]
  exact corner_of (Read.val_main_v44 (F := Ideal) a2) b c _ _ _ _ _ _ (flat_7_at a0 a3 b n) (wv_7_at a0 a3 b n) h

theorem corner_8 : Read.val_main_v354 (F := Ideal) a0 a2 a3 (ix3 b c n)
    = Tri.tk (chan a2 b c) (Tri.hi (gx a0 a3 b n)) (Tri.hi (gy a0 a3 b n)) (Tri.hi (gz a0 a3 b n))
        (Tri.w8 (gx a0 a3 b n) (gy a0 a3 b n) (gz a0 a3 b n)) := by
  have h : (Read.val_main_v347 (F := Ideal) a0 a3 (ix2 b n)).toNat < 4096 := by
    rw [flat_8_at]; exact Tri.flat_toNat_lt _ _ _
  rw [Take.prod_8 a0 a2 a3 b c n h]
  exact corner_of (Read.val_main_v44 (F := Ideal) a2) b c _ _ _ _ _ _ (flat_8_at a0 a3 b n) (wv_8_at a0 a3 b n) h

/-! ## A sample -/

/-- The transposed sum at (b, n, c) is the look-up spelling of the sample of channel `c`. -/
theorem sample_at : Read.val_main_v356 (F := Ideal) a0 a2 a3 (ix3 b n c)
    = Tri.skipR (gx a0 a3 b n) (gy a0 a3 b n) (gz a0 a3 b n) (chan a2 b c) := by
  rw [Take.transposed_apply, Take.sum_apply, corner_1, corner_2, corner_3, corner_4, corner_5, corner_6, corner_7,
    corner_8]
  rfl

/-! ## The two results -/

theorem ref_pos (a0 : (⟨S4x40000x128, .f32⟩ : BufTy).Contents (Elt Ideal)) (a3 : (⟨S128x3, .f32⟩ : BufTy).Contents (Elt Ideal)) :
    Read.val_main_v0 (F := Ideal) a0 a3 = Tri.posArr a0 a3 := by
  funext i
  obtain ⟨b, n, o, rfl⟩ : ∃ (b : Fin 4) (n : Fin 40000) (o : Fin 3), i = ix3 b n o := ⟨i 0, i 1, i 2, eq_ix3 i⟩
  exact pos_at a0 a3 b n o

theorem ref_out (a0 : (⟨S4x40000x128, .f32⟩ : BufTy).Contents (Elt Ideal)) (a2 : (⟨S4x128x16x16x16, .f32⟩ : BufTy).Contents (Elt Ideal))
    (a3 : (⟨S128x3, .f32⟩ : BufTy).Contents (Elt Ideal)) :
    Read.val_main_v357 (F := Ideal) a0 a2 a3 = Tri.outR a0 (Read.val_main_v44 (F := Ideal) a2) a3 := by
  funext i
  obtain ⟨b, n, j, rfl⟩ : ∃ (b : Fin 4) (n : Fin 40000) (j : Fin 259), i = ix3 b n j := ⟨i 0, i 1, i 2, eq_ix3 i⟩
  show _ = Tri.outRow (fun f => a0 (ix3 b n f))
    (fun c => Tri.skipR (Tri.gAt a0 a3 b n 0) (Tri.gAt a0 a3 b n 1) (Tri.gAt a0 a3 b n 2)
      (fun v => Read.val_main_v44 (F := Ideal) a2 (ix3 b c v)))
    (fun o => Tri.posAt a0 a3 b n o) j
  rcases Tri.row_cases j with ⟨f, rfl⟩ | ⟨c, rfl⟩ | ⟨o, rfl⟩
  · rw [Take.out_apply_feat, Tri.outRow_x]
  · rw [Take.out_apply_skip, Tri.outRow_s, sample_at]
    rfl
  · rw [Take.out_apply_pos, Tri.outRow_p]
    exact pos_at a0 a3 b n o

end Cert.ReferenceIdeal.Final

end
-- ==== Proof.LibHostLine.lean ====
/-
  Reading a straight line of host operations stage by stage.

  A line in single-assignment form — every operation writes one buffer of its own, whose index is larger than that of
  every buffer written before it — is read one operation at a time. The invariant is a LIST of facts "this buffer holds
  this value" together with a bound on the indices of the buffers recorded so far; an operation adds the fact of the
  buffer it writes, proved from the facts of its operands, and leaves the recorded facts alone because its buffer's
  index is at least the bound. The value of a buffer is never written out as a composed term of the arguments: each
  fact names the stage's own value, and the step from the operands' values to the result's is one unfolding.
-/
import Idealize.ShloMosaic.Lib.StableHlo.Run

noncomputable section

namespace Cert.HostLine

open Idealize.ShloMosaic Idealize.ShloMosaic.StableHlo Idealize.ShloMosaic.TcCoe

variable {τ : Topo} {sig : RefSig} {Val : EltTy → Type}

/-- A buffer with the contents recorded for it. -/
abbrev Fact (sig : RefSig) (Val : EltTy → Type) := Σ r : Ref sig .tc, r.ty.Contents Val

/-- The valuation holds every recorded fact, and every recorded buffer has index below `b`. -/
def Inv (W : Valuation τ sig Val) (L : List (Fact sig Val)) (b : Nat) : Prop :=
  ∀ p ∈ L, W (Proc.devRef .tc p.1) = p.2 ∧ p.1.idx.val < b

theorem Inv.get {W : Valuation τ sig Val} {L : List (Fact sig Val)} {b : Nat} (h : Inv W L b) (p : Fact sig Val) (hp : p ∈ L) :
    W (Proc.devRef .tc p.1) = p.2 := (h p hp).1

/-- The same with the buffer and its contents given apart. -/
theorem Inv.get' {W : Valuation τ sig Val} {L : List (Fact sig Val)} {b : Nat} (h : Inv W L b) (r : Ref sig .tc)
    (v : r.ty.Contents Val) (hp : (⟨r, v⟩ : Fact sig Val) ∈ L) : W (Proc.devRef .tc r) = v := (h _ hp).1

/-- One operation that writes exactly `y`, whose index no recorded buffer reaches: the facts survive and `y`'s is added. -/
theorem Inv.step {W : Valuation τ sig Val} {L : List (Fact sig Val)} {b : Nat} (h : Inv W L b)
    (op : HloOp τ sig Val) (y : Ref sig .tc) (vy : y.ty.Contents Val)
    (hw : op.writes = {Proc.devRef .tc y}) (hb : b ≤ y.idx.val) (hy : op.result W (Proc.devRef .tc y) = vy) :
    Inv (op.result W) ((⟨y, vy⟩ : Fact sig Val) :: L) (y.idx.val + 1) := by
  intro p hp
  rcases List.mem_cons.mp hp with rfl | hp
  · exact ⟨hy, Nat.lt_succ_self _⟩
  · obtain ⟨h1, h2⟩ := h p hp
    have hne : p.1 ≠ y := fun e => by
      have e' : p.1.idx.val = y.idx.val := congrArg (fun r : Ref sig .tc => r.idx.val) e
      omega
    refine ⟨?_, by omega⟩
    rw [op.result_of_not_mem W (by rw [hw, Finset.mem_singleton]; exact devRef_ne_of_ne hne)]
    exact h1

/-- The same with the rest of the line run from the new valuation, which the continuation names afresh. -/
theorem Inv.cons {W : Valuation τ sig Val} {L : List (Fact sig Val)} {b : Nat} (h : Inv W L b)
    (op : HloOp τ sig Val) (rest : List (HloOp τ sig Val)) (y : Ref sig .tc) (vy : y.ty.Contents Val)
    (hw : op.writes = {Proc.devRef .tc y}) (hb : b ≤ y.idx.val) (hy : op.result W (Proc.devRef .tc y) = vy)
    {L' : List (Fact sig Val)} {b' : Nat}
    (k : ∀ W' : Valuation τ sig Val, Inv W' ((⟨y, vy⟩ : Fact sig Val) :: L) (y.idx.val + 1) → Inv (after rest W') L' b') :
    Inv (after (op :: rest) W) L' b' := k _ (h.step op y vy hw hb hy)

/-- A line run after another is their concatenation run as one. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Two stretches of a line, the second read from the facts the first leaves. -/
theorem Inv.append {l₁ l₂ : List (HloOp τ sig Val)} {W : Valuation τ sig Val} {L₁ L₂ : List (Fact sig Val)} {b₁ b₂ : Nat}
    (h₁ : Inv (after l₁ W) L₁ b₁) (k : ∀ W' : Valuation τ sig Val, Inv W' L₁ b₁ → Inv (after l₂ W') L₂ b₂) :
    Inv (after (l₁ ++ l₂) W) L₂ b₂ := by
  rw [after_app]; exact k _ h₁

/-! ### What each kind of operation leaves in its result buffer, from its operands' facts -/

section Results
variable {x a b c y : Ref sig .tc} {W : Valuation τ sig Val}

theorem res_nullary {v : y.ty.Contents Val} {hy} : (nullary (τ := τ) y v hy).result W (Proc.devRef .tc y) = v :=
  nullary_result y v hy W
theorem res_unary {f : x.ty.Contents Val → y.ty.Contents Val} {hx hy} {vx : x.ty.Contents Val}
    (ex : W (Proc.devRef .tc x) = vx) : (unary (τ := τ) x y f hx hy).result W (Proc.devRef .tc y) = f vx := by
  rw [unary_result, ex]
theorem res_binary {f : a.ty.Contents Val → b.ty.Contents Val → y.ty.Contents Val} {ha hb hy}
    {va : a.ty.Contents Val} {vb : b.ty.Contents Val} (ea : W (Proc.devRef .tc a) = va) (eb : W (Proc.devRef .tc b) = vb) :
    (binary (τ := τ) a b y f ha hb hy).result W (Proc.devRef .tc y) = f va vb := by
  rw [binary_result, ea, eb]
theorem res_ternary {f : c.ty.Contents Val → a.ty.Contents Val → b.ty.Contents Val → y.ty.Contents Val} {hc ha hb hy}
    {vc : c.ty.Contents Val} {va : a.ty.Contents Val} {vb : b.ty.Contents Val}
    (ec : W (Proc.devRef .tc c) = vc) (ea : W (Proc.devRef .tc a) = va) (eb : W (Proc.devRef .tc b) = vb) :
    (ternary (τ := τ) c a b y f hc ha hb hy).result W (Proc.devRef .tc y) = f vc va vb := by
  rw [ternary_result, ec, ea, eb]
theorem res_reshape {he hn hx hy} {vx : x.ty.Contents Val} (ex : W (Proc.devRef .tc x) = vx) :
    (reshape (τ := τ) (Val := Val) x y he hn hx hy).result W (Proc.devRef .tc y)
      = fun i => he ▸ shapeCast y.ty.shape vx hn i := by
  rw [reshape_result, ex]
end Results

/-! ### The same for operations over typed references

A typed reference carries the type of the value it holds; the operation's function is stated at that type and moved to
the buffer's own type along the equality of the two. The lemmas below state each result with the function applied to
values AT THE CARRIED TYPES, the transport confined to one outer `toBuf`: so a stage value meets the function's result
with no transport in between. -/

section Typed
variable {T Tx Ta Tb Tc Ty : BufTy} {W : Valuation τ sig Val}

/-- Contents at the carried type, moved to the buffer's type, are the contents they are equal to across the two types. -/
theorem toBuf_of_heq (x : TRef sig T) {v : T.Contents Val} {w : x.ref.ty.Contents Val} (e : HEq w v) : x.toBuf v = w := by
  obtain ⟨r, rfl, _, _⟩ := x; exact (eq_of_heq e).symm

/-- A recorded fact of a typed reference's buffer, with the value at the carried type. -/
theorem Inv.tget {L : List (Fact sig Val)} {b : Nat} (h : Inv W L b) (x : TRef sig T) (v : T.Contents Val)
    (w : x.ref.ty.Contents Val) (e : HEq w v) (hp : (⟨x.ref, w⟩ : Fact sig Val) ∈ L) :
    W (Proc.devRef .tc x.ref) = x.toBuf v :=
  (h.get _ hp).trans (toBuf_of_heq x e).symm

theorem res_tnullary (y : TRef sig Ty) (v : Ty.Contents Val) :
    (TRef.nullary (τ := τ) y v).result W (Proc.devRef .tc y.ref) = y.toBuf v := nullary_result _ _ _ W
theorem res_tunary (x : TRef sig Tx) (y : TRef sig Ty) (f : Tx.Contents Val → Ty.Contents Val) {vx : Tx.Contents Val}
    (ex : W (Proc.devRef .tc x.ref) = x.toBuf vx) :
    (TRef.unary (τ := τ) x y f).result W (Proc.devRef .tc y.ref) = y.toBuf (f vx) := by
  obtain ⟨x, rfl, _, _⟩ := x; obtain ⟨y, rfl, _, _⟩ := y
  exact res_unary ex
theorem res_tbinary (a : TRef sig Ta) (b : TRef sig Tb) (y : TRef sig Ty) (f : Ta.Contents Val → Tb.Contents Val → Ty.Contents Val)
    {va : Ta.Contents Val} {vb : Tb.Contents Val}
    (ea : W (Proc.devRef .tc a.ref) = a.toBuf va) (eb : W (Proc.devRef .tc b.ref) = b.toBuf vb) :
    (TRef.binary (τ := τ) a b y f).result W (Proc.devRef .tc y.ref) = y.toBuf (f va vb) := by
  obtain ⟨a, rfl, _, _⟩ := a; obtain ⟨b, rfl, _, _⟩ := b; obtain ⟨y, rfl, _, _⟩ := y
  exact res_binary ea eb
theorem res_tternary (c : TRef sig Tc) (a : TRef sig Ta) (b : TRef sig Tb) (y : TRef sig Ty)
    (f : Tc.Contents Val → Ta.Contents Val → Tb.Contents Val → Ty.Contents Val)
    {vc : Tc.Contents Val} {va : Ta.Contents Val} {vb : Tb.Contents Val}
    (ec : W (Proc.devRef .tc c.ref) = c.toBuf vc) (ea : W (Proc.devRef .tc a.ref) = a.toBuf va)
    (eb : W (Proc.devRef .tc b.ref) = b.toBuf vb) :
    (TRef.ternary (τ := τ) c a b y f).result W (Proc.devRef .tc y.ref) = y.toBuf (f vc va vb) := by
  obtain ⟨c, rfl, _, _⟩ := c; obtain ⟨a, rfl, _, _⟩ := a; obtain ⟨b, rfl, _, _⟩ := b; obtain ⟨y, rfl, _, _⟩ := y
  exact res_ternary ec ea eb
theorem res_treshape (x : TRef sig Tx) (y : TRef sig Ty) (he : Tx.elt = Ty.elt) (hn : Tx.shape.ShapeCasts Ty.shape)
    {vx : Tx.Contents Val} (ex : W (Proc.devRef .tc x.ref) = x.toBuf vx) :
    (TRef.reshape (τ := τ) (Val := Val) x y he hn).result W (Proc.devRef .tc y.ref)
      = y.toBuf (fun i => he ▸ shapeCast Ty.shape vx hn i) := by
  obtain ⟨x, rfl, _, _⟩ := x; obtain ⟨y, rfl, _, _⟩ := y
  exact res_reshape ex
end Typed

/-! ### Membership in a literal list, by position -/

open Lean in
/-- `memAt% n`: the entry at position `n` of a literal list is in it. -/
macro "memAt% " n:num : term => do
  let mut t ← `(List.Mem.head _)
  for _ in [0:n.getNat] do t ← `(List.Mem.tail _ $t)
  return t
open Lean in
/-- `memUp% n h`: membership in a list carried past `n` entries consed in front of it. -/
macro "memUp% " n:num h:term:max : term => do
  let mut r := h
  for _ in [0:n.getNat] do r ← `(List.Mem.tail _ $r)
  return r

/-- A property of every entry of two lists holds of every entry of their concatenation. -/
theorem forall_append {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

end Cert.HostLine

end
-- ==== Proof.RefLineA.lean ====
/-
  The reference's straight line read stage by stage, operations 1 … 254: after each stretch every buffer
  written so far holds its stage value (the stage functions of the arguments), each operation's step by one unfolding
  of its stage's definition.
-/
import proofs.«120255_j59700045415095_2_alg».proof.Proof.RefRead
import proofs.«120255_j59700045415095_2_alg».proof.Proof.LibHostLine

noncomputable section

namespace Cert.ReferenceIdeal.Line

open Cert.ReferenceIdeal Cert.ReferenceIdeal.Gen Cert.ReferenceIdeal.Read Cert.HostLine Idealize.ShloMosaic Idealize.ShloMosaic.TcCoe Idealize.SL.Sem Idealize.ShloMosaic.StableHlo

variable {F : FTy → Type} [FloatOps F]

/-- The arguments' facts. -/
def factsArgs (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  [⟨main_arg3, x3⟩, ⟨main_arg2, x2⟩, ⟨main_arg1, x1⟩, ⟨main_arg0, x0⟩]

/-- Operations 1 … 30 of the line. -/
abbrev seg0 : List (HloOp τ sig (Elt F)) :=
  [ binary main_arg0 main_arg3 main_v0 ((fun l r => Host.dotGeneral dot_S4x40000x128_S128x3_S4x40000x3_2_0_01_1_n_n none l r) : (⟨S4x40000x128, .f32⟩ : BufTy).Contents (Elt F) → (⟨S128x3, .f32⟩ : BufTy).Contents (Elt F) → (⟨S4x40000x3, .f32⟩ : BufTy).Contents (Elt F)),
    nullary main_cst (constant S_ .f32 0x40000000#32),
    unary main_cst main_v1 (broadcastInDim S4x40000x3 ![] bcast_S_S4x40000x3 : (⟨S_, .f32⟩ : BufTy).Contents (Elt F) → (⟨S4x40000x3, .f32⟩ : BufTy).Contents (Elt F)),
    binary main_v1 main_v0 main_v2 (mulf : (⟨S4x40000x3, .f32⟩ : BufTy).Contents (Elt F) → (⟨S4x40000x3, .f32⟩ : BufTy).Contents (Elt F) → (⟨S4x40000x3, .f32⟩ : BufTy).Contents (Elt F)),
    nullary main_cst_0 (constant S_ .f32 0x3F800000#32),
    unary main_cst_0 main_v3 (broadcastInDim S4x40000x3 ![] bcast_S_S4x40000x3 : (⟨S_, .f32⟩ : BufTy).Contents (Elt F) → (⟨S4x40000x3, .f32⟩ : BufTy).Contents (Elt F)),
    binary main_v2 main_v3 main_v4 (subf : (⟨S4x40000x3, .f32⟩ : BufTy).Contents (Elt F) → (⟨S4x40000x3, .f32⟩ : BufTy).Contents (Elt F) → (⟨S4x40000x3, .f32⟩ : BufTy).Contents (Elt F)),
    unary main_v4 main_v5 ((extractStridedSlice S4x40000x1 ![0, 0, 0] · slices_S4x40000x3_S4x40000x1_0_0_0) : (⟨S4x40000x3, .f32⟩ : BufTy).Contents (Elt F) → (⟨S4x40000x1, .f32⟩ : BufTy).Contents (Elt F)),
    reshape main_v5 main_v6 rfl shapeCasts_S4x40000x1_S4x40000,
    nullary main_cst_1 (constant S_ .f32 0x3F800000#32),
    unary main_cst_1 main_v7 (broadcastInDim S4x40000 ![] bcast_S_S4x40000 : (⟨S_, .f32⟩ : BufTy).Contents (Elt F) → (⟨S4x40000, .f32⟩ : BufTy).Contents (Elt F)),
    binary main_v6 main_v7 main_v8 (addf : (⟨S4x40000, .f32⟩ : BufTy).Contents (Elt F) → (⟨S4x40000, .f32⟩ : BufTy).Contents (Elt F) → (⟨S4x40000, .f32⟩ : BufTy).Contents (Elt F)),
    nullary main_cst_2 (constant S_ .f32 0x3F000000#32),
    unary main_cst_2 main_v9 (broadcastInDim S4x40000 ![] bcast_S_S4x40000 : (⟨S_, .f32⟩ : BufTy).Contents (Elt F) → (⟨S4x40000, .f32⟩ : BufTy).Contents (Elt F)),
    binary main_v8 main_v9 main_v10 (mulf : (⟨S4x40000, .f32⟩ : BufTy).Contents (Elt F) → (⟨S4x40000, .f32⟩ : BufTy).Contents (Elt F) → (⟨S4x40000, .f32⟩ : BufTy).Contents (Elt F)),
    nullary main_cst_3 (constant S_ .f32 0x41700000#32),
    unary main_cst_3 main_v11 (broadcastInDim S4x40000 ![] bcast_S_S4x40000 : (⟨S_, .f32⟩ : BufTy).Contents (Elt F) → (⟨S4x40000, .f32⟩ : BufTy).Contents (Elt F)),
    binary main_v10 main_v11 main_v12 (mulf : (⟨S4x40000, .f32⟩ : BufTy).Contents (Elt F) → (⟨S4x40000, .f32⟩ : BufTy).Contents (Elt F) → (⟨S4x40000, .f32⟩ : BufTy).Contents (Elt F)),
    unary main_v4 main_v13 ((extractStridedSlice S4x40000x1 ![0, 0, 1] · slices_S4x40000x3_S4x40000x1_0_0_1) : (⟨S4x40000x3, .f32⟩ : BufTy).Contents (Elt F) → (⟨S4x40000x1, .f32⟩ : BufTy).Contents (Elt F)),
    reshape main_v13 main_v14 rfl shapeCasts_S4x40000x1_S4x40000,
    nullary main_cst_4 (constant S_ .f32 0x3F800000#32),
    unary main_cst_4 main_v15 (broadcastInDim S4x40000 ![] bcast_S_S4x40000 : (⟨S_, .f32⟩ : BufTy).Contents (Elt F) → (⟨S4x40000, .f32⟩ : BufTy).Contents (Elt F)),
    binary main_v14 main_v15 main_v16 (addf : (⟨S4x40000, .f32⟩ : BufTy).Contents (Elt F) → (⟨S4x40000, .f32⟩ : BufTy).Contents (Elt F) → (⟨S4x40000, .f32⟩ : BufTy).Contents (Elt F)),
    nullary main_cst_5 (constant S_ .f32 0x3F000000#32),
    unary main_cst_5 main_v17 (broadcastInDim S4x40000 ![] bcast_S_S4x40000 : (⟨S_, .f32⟩ : BufTy).Contents (Elt F) → (⟨S4x40000, .f32⟩ : BufTy).Contents (Elt F)),
    binary main_v16 main_v17 main_v18 (mulf : (⟨S4x40000, .f32⟩ : BufTy).Contents (Elt F) → (⟨S4x40000, .f32⟩ : BufTy).Contents (Elt F) → (⟨S4x40000, .f32⟩ : BufTy).Contents (Elt F)),
    nullary main_cst_6 (constant S_ .f32 0x41700000#32),
    unary main_cst_6 main_v19 (broadcastInDim S4x40000 ![] bcast_S_S4x40000 : (⟨S_, .f32⟩ : BufTy).Contents (Elt F) → (⟨S4x40000, .f32⟩ : BufTy).Contents (Elt F)),
    binary main_v18 main_v19 main_v20 (mulf : (⟨S4x40000, .f32⟩ : BufTy).Contents (Elt F) → (⟨S4x40000, .f32⟩ : BufTy).Contents (Elt F) → (⟨S4x40000, .f32⟩ : BufTy).Contents (Elt F)),
    unary main_v4 main_v21 ((extractStridedSlice S4x40000x1 ![0, 0, 2] · slices_S4x40000x3_S4x40000x1_0_0_2) : (⟨S4x40000x3, .f32⟩ : BufTy).Contents (Elt F) → (⟨S4x40000x1, .f32⟩ : BufTy).Contents (Elt F)) ]

/-- The facts after operation 30: each buffer written so far at its stage value. -/
def facts0 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v21, val_main_v21 (F := F) x0 x3⟩ ::
  ⟨main_v20, val_main_v20 (F := F) x0 x3⟩ ::
  ⟨main_v19, val_main_v19 (F := F)⟩ ::
  ⟨main_cst_6, val_main_cst_6 (F := F)⟩ ::
  ⟨main_v18, val_main_v18 (F := F) x0 x3⟩ ::
  ⟨main_v17, val_main_v17 (F := F)⟩ ::
  ⟨main_cst_5, val_main_cst_5 (F := F)⟩ ::
  ⟨main_v16, val_main_v16 (F := F) x0 x3⟩ ::
  ⟨main_v15, val_main_v15 (F := F)⟩ ::
  ⟨main_cst_4, val_main_cst_4 (F := F)⟩ ::
  ⟨main_v14, val_main_v14 (F := F) x0 x3⟩ ::
  ⟨main_v13, val_main_v13 (F := F) x0 x3⟩ ::
  ⟨main_v12, val_main_v12 (F := F) x0 x3⟩ ::
  ⟨main_v11, val_main_v11 (F := F)⟩ ::
  ⟨main_cst_3, val_main_cst_3 (F := F)⟩ ::
  ⟨main_v10, val_main_v10 (F := F) x0 x3⟩ ::
  ⟨main_v9, val_main_v9 (F := F)⟩ ::
  ⟨main_cst_2, val_main_cst_2 (F := F)⟩ ::
  ⟨main_v8, val_main_v8 (F := F) x0 x3⟩ ::
  ⟨main_v7, val_main_v7 (F := F)⟩ ::
  ⟨main_cst_1, val_main_cst_1 (F := F)⟩ ::
  ⟨main_v6, val_main_v6 (F := F) x0 x3⟩ ::
  ⟨main_v5, val_main_v5 (F := F) x0 x3⟩ ::
  ⟨main_v4, val_main_v4 (F := F) x0 x3⟩ ::
  ⟨main_v3, val_main_v3 (F := F)⟩ ::
  ⟨main_cst_0, val_main_cst_0 (F := F)⟩ ::
  ⟨main_v2, val_main_v2 (F := F) x0 x3⟩ ::
  ⟨main_v1, val_main_v1 (F := F)⟩ ::
  ⟨main_cst, val_main_cst (F := F)⟩ ::
  ⟨main_v0, val_main_v0 (F := F) x0 x3⟩ ::
  factsArgs x0 x1 x2 x3

theorem up0 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ factsArgs x0 x1 x2 x3) : p ∈ facts0 x0 x1 x2 x3 :=
  memUp% 30 hp

set_option maxRecDepth 8192 in
set_option maxHeartbeats 2000000 in
/-- Operations 1 … 30: each adds the fact of the buffer it writes. -/
theorem run0 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (factsArgs x0 x1 x2 x3) 4) :
    Inv (after seg0 W) (facts0 x0 x1 x2 x3) 34 := by
  have r := res_binary (τ := τ) (a := main_arg0) (b := main_arg3) (y := main_v0) (f := ((fun l r => Host.dotGeneral dot_S4x40000x128_S128x3_S4x40000x3_2_0_01_1_n_n none l r) : (⟨S4x40000x128, .f32⟩ : BufTy).Contents (Elt F) → (⟨S128x3, .f32⟩ : BufTy).Contents (Elt F) → (⟨S4x40000x3, .f32⟩ : BufTy).Contents (Elt F))) (ha := ⟨by decide, rfl⟩) (hb := ⟨by decide, rfl⟩) (hy := ⟨by decide, rfl⟩) (h.get' main_arg0 (x0) (memUp% 0 (memAt% 3 : (⟨main_arg0, x0⟩ : Fact sig (Elt F)) ∈ factsArgs x0 x1 x2 x3))) (h.get' main_arg3 (x3) (memUp% 0 (memAt% 0 : (⟨main_arg3, x3⟩ : Fact sig (Elt F)) ∈ factsArgs x0 x1 x2 x3)))
  refine Inv.cons h _ _ main_v0 (val_main_v0 (F := F) x0 x3) rfl (by decide) (r.trans ?_) (fun W h => ?_)
  · rfl
  have r := res_nullary (τ := τ) (W := W) (y := main_cst) (v := (constant S_ .f32 0x40000000#32)) (hy := ⟨by decide, rfl⟩)
  refine Inv.cons h _ _ main_cst (val_main_cst (F := F)) rfl (by decide) (r.trans ?_) (fun W h => ?_)
  · rfl
  have r := res_unary (τ := τ) (x := main_cst) (y := main_v1) (f := (broadcastInDim S4x40000x3 ![] bcast_S_S4x40000x3 : (⟨S_, .f32⟩ : BufTy).Contents (Elt F) → (⟨S4x40000x3, .f32⟩ : BufTy).Contents (Elt F))) (hx := ⟨by decide, rfl⟩) (hy := ⟨by decide, rfl⟩) (h.get' main_cst (val_main_cst (F := F)) (memAt% 0))
  refine Inv.cons h _ _ main_v1 (val_main_v1 (F := F)) rfl (by decide) (r.trans ?_) (fun W h => ?_)
  · rfl
  have r := res_binary (τ := τ) (a := main_v1) (b := main_v0) (y := main_v2) (f := (mulf : (⟨S4x40000x3, .f32⟩ : BufTy).Contents (Elt F) → (⟨S4x40000x3, .f32⟩ : BufTy).Contents (Elt F) → (⟨S4x40000x3, .f32⟩ : BufTy).Contents (Elt F))) (ha := ⟨by decide, rfl⟩) (hb := ⟨by decide, rfl⟩) (hy := ⟨by decide, rfl⟩) (h.get' main_v1 (val_main_v1 (F := F)) (memAt% 0)) (h.get' main_v0 (val_main_v0 (F := F) x0 x3) (memAt% 2))
  refine Inv.cons h _ _ main_v2 (val_main_v2 (F := F) x0 x3) rfl (by decide) (r.trans ?_) (fun W h => ?_)
  · rfl
  have r := res_nullary (τ := τ) (W := W) (y := main_cst_0) (v := (constant S_ .f32 0x3F800000#32)) (hy := ⟨by decide, rfl⟩)
  refine Inv.cons h _ _ main_cst_0 (val_main_cst_0 (F := F)) rfl (by decide) (r.trans ?_) (fun W h => ?_)
  · rfl
  have r := res_unary (τ := τ) (x := main_cst_0) (y := main_v3) (f := (broadcastInDim S4x40000x3 ![] bcast_S_S4x40000x3 : (⟨S_, .f32⟩ : BufTy).Contents (Elt F) → (⟨S4x40000x3, .f32⟩ : BufTy).Contents (Elt F))) (hx := ⟨by decide, rfl⟩) (hy := ⟨by decide, rfl⟩) (h.get' main_cst_0 (val_main_cst_0 (F := F)) (memAt% 0))
  refine Inv.cons h _ _ main_v3 (val_main_v3 (F := F)) rfl (by decide) (r.trans ?_) (fun W h => ?_)
  · rfl
  have r := res_binary (τ := τ) (a := main_v2) (b := main_v3) (y := main_v4) (f := (subf : (⟨S4x40000x3, .f32⟩ : BufTy).Contents (Elt F) → (⟨S4x40000x3, .f32⟩ : BufTy).Contents (Elt F) → (⟨S4x40000x3, .f32⟩ : BufTy).Contents (Elt F))) (ha := ⟨by decide, rfl⟩) (hb := ⟨by decide, rfl⟩) (hy := ⟨by decide, rfl⟩) (h.get' main_v2 (val_main_v2 (F := F) x0 x3) (memAt% 2)) (h.get' main_v3 (val_main_v3 (F := F)) (memAt% 0))
  refine Inv.cons h _ _ main_v4 (val_main_v4 (F := F) x0 x3) rfl (by decide) (r.trans ?_) (fun W h => ?_)
  · rfl
  have r := res_unary (τ := τ) (x := main_v4) (y := main_v5) (f := ((extractStridedSlice S4x40000x1 ![0, 0, 0] · slices_S4x40000x3_S4x40000x1_0_0_0) : (⟨S4x40000x3, .f32⟩ : BufTy).Contents (Elt F) → (⟨S4x40000x1, .f32⟩ : BufTy).Contents (Elt F))) (hx := ⟨by decide, rfl⟩) (hy := ⟨by decide, rfl⟩) (h.get' main_v4 (val_main_v4 (F := F) x0 x3) (memAt% 0))
  refine Inv.cons h _ _ main_v5 (val_main_v5 (F := F) x0 x3) rfl (by decide) (r.trans ?_) (fun W h => ?_)
  · rfl
  have r := res_reshape (τ := τ) (x := main_v5) (y := main_v6) (he := rfl) (hn := shapeCasts_S4x40000x1_S4x40000) (hx := ⟨by decide, rfl⟩) (hy := ⟨by decide, rfl⟩) (h.get' main_v5 (val_main_v5 (F := F) x0 x3) (memAt% 0))
  refine Inv.cons h _ _ main_v6 (val_main_v6 (F := F) x0 x3) rfl (by decide) (r.trans ?_) (fun W h => ?_)
  · rfl
  have r := res_nullary (τ := τ) (W := W) (y := main_cst_1) (v := (constant S_ .f32 0x3F800000#32)) (hy := ⟨by decide, rfl⟩)
  refine Inv.cons h _ _ main_cst_1 (val_main_cst_1 (F := F)) rfl (by decide) (r.trans ?_) (fun W h => ?_)
  · rfl
  have r := res_unary (τ := τ) (x := main_cst_1) (y := main_v7) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_1 (val_main_cst_1 (F := F)) (memAt% 0))
  refine Inv.cons h _ _ main_v7 (val_main_v7 (F := F)) rfl (by decide) (r.trans ?_) (fun W h => ?_)
  · rfl
  have r := res_binary (τ := τ) (a := main_v6) (b := main_v7) (y := main_v8) (f := (addf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v6 (val_main_v6 (F := F) x0 x3) (memAt% 2)) (h.get' main_v7 (val_main_v7 (F := F)) (memAt% 0))
  refine Inv.cons h _ _ main_v8 (val_main_v8 (F := F) x0 x3) rfl (by decide) (r.trans ?_) (fun W h => ?_)
  · rfl
  have r := res_nullary (τ := τ) (W := W) (y := main_cst_2) (v := (constant S_ .f32 0x3F000000#32)) (hy := ⟨by decide, rfl⟩)
  refine Inv.cons h _ _ main_cst_2 (val_main_cst_2 (F := F)) rfl (by decide) (r.trans ?_) (fun W h => ?_)
  · rfl
  have r := res_unary (τ := τ) (x := main_cst_2) (y := main_v9) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_2 (val_main_cst_2 (F := F)) (memAt% 0))
  refine Inv.cons h _ _ main_v9 (val_main_v9 (F := F)) rfl (by decide) (r.trans ?_) (fun W h => ?_)
  · rfl
  have r := res_binary (τ := τ) (a := main_v8) (b := main_v9) (y := main_v10) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v8 (val_main_v8 (F := F) x0 x3) (memAt% 2)) (h.get' main_v9 (val_main_v9 (F := F)) (memAt% 0))
  refine Inv.cons h _ _ main_v10 (val_main_v10 (F := F) x0 x3) rfl (by decide) (r.trans ?_) (fun W h => ?_)
  · rfl
  have r := res_nullary (τ := τ) (W := W) (y := main_cst_3) (v := (constant S_ .f32 0x41700000#32)) (hy := ⟨by decide, rfl⟩)
  refine Inv.cons h _ _ main_cst_3 (val_main_cst_3 (F := F)) rfl (by decide) (r.trans ?_) (fun W h => ?_)
  · rfl
  have r := res_unary (τ := τ) (x := main_cst_3) (y := main_v11) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_3 (val_main_cst_3 (F := F)) (memAt% 0))
  refine Inv.cons h _ _ main_v11 (val_main_v11 (F := F)) rfl (by decide) (r.trans ?_) (fun W h => ?_)
  · rfl
  have r := res_binary (τ := τ) (a := main_v10) (b := main_v11) (y := main_v12) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v10 (val_main_v10 (F := F) x0 x3) (memAt% 2)) (h.get' main_v11 (val_main_v11 (F := F)) (memAt% 0))
  refine Inv.cons h _ _ main_v12 (val_main_v12 (F := F) x0 x3) rfl (by decide) (r.trans ?_) (fun W h => ?_)
  · rfl
  have r := res_unary (τ := τ) (x := main_v4) (y := main_v13) (f := ((extractStridedSlice S4x40000x1 ![0, 0, 1] · slices_S4x40000x3_S4x40000x1_0_0_1) : (⟨S4x40000x3, .f32⟩ : BufTy).Contents (Elt F) → (⟨S4x40000x1, .f32⟩ : BufTy).Contents (Elt F))) (hx := ⟨by decide, rfl⟩) (hy := ⟨by decide, rfl⟩) (h.get' main_v4 (val_main_v4 (F := F) x0 x3) (memAt% 11))
  refine Inv.cons h _ _ main_v13 (val_main_v13 (F := F) x0 x3) rfl (by decide) (r.trans ?_) (fun W h => ?_)
  · rfl
  have r := res_reshape (τ := τ) (x := main_v13) (y := main_v14) (he := rfl) (hn := shapeCasts_S4x40000x1_S4x40000) (hx := ⟨by decide, rfl⟩) (hy := ⟨by decide, rfl⟩) (h.get' main_v13 (val_main_v13 (F := F) x0 x3) (memAt% 0))
  refine Inv.cons h _ _ main_v14 (val_main_v14 (F := F) x0 x3) rfl (by decide) (r.trans ?_) (fun W h => ?_)
  · rfl
  have r := res_nullary (τ := τ) (W := W) (y := main_cst_4) (v := (constant S_ .f32 0x3F800000#32)) (hy := ⟨by decide, rfl⟩)
  refine Inv.cons h _ _ main_cst_4 (val_main_cst_4 (F := F)) rfl (by decide) (r.trans ?_) (fun W h => ?_)
  · rfl
  have r := res_unary (τ := τ) (x := main_cst_4) (y := main_v15) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_4 (val_main_cst_4 (F := F)) (memAt% 0))
  refine Inv.cons h _ _ main_v15 (val_main_v15 (F := F)) rfl (by decide) (r.trans ?_) (fun W h => ?_)
  · rfl
  have r := res_binary (τ := τ) (a := main_v14) (b := main_v15) (y := main_v16) (f := (addf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v14 (val_main_v14 (F := F) x0 x3) (memAt% 2)) (h.get' main_v15 (val_main_v15 (F := F)) (memAt% 0))
  refine Inv.cons h _ _ main_v16 (val_main_v16 (F := F) x0 x3) rfl (by decide) (r.trans ?_) (fun W h => ?_)
  · rfl
  have r := res_nullary (τ := τ) (W := W) (y := main_cst_5) (v := (constant S_ .f32 0x3F000000#32)) (hy := ⟨by decide, rfl⟩)
  refine Inv.cons h _ _ main_cst_5 (val_main_cst_5 (F := F)) rfl (by decide) (r.trans ?_) (fun W h => ?_)
  · rfl
  have r := res_unary (τ := τ) (x := main_cst_5) (y := main_v17) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_5 (val_main_cst_5 (F := F)) (memAt% 0))
  refine Inv.cons h _ _ main_v17 (val_main_v17 (F := F)) rfl (by decide) (r.trans ?_) (fun W h => ?_)
  · rfl
  have r := res_binary (τ := τ) (a := main_v16) (b := main_v17) (y := main_v18) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v16 (val_main_v16 (F := F) x0 x3) (memAt% 2)) (h.get' main_v17 (val_main_v17 (F := F)) (memAt% 0))
  refine Inv.cons h _ _ main_v18 (val_main_v18 (F := F) x0 x3) rfl (by decide) (r.trans ?_) (fun W h => ?_)
  · rfl
  have r := res_nullary (τ := τ) (W := W) (y := main_cst_6) (v := (constant S_ .f32 0x41700000#32)) (hy := ⟨by decide, rfl⟩)
  refine Inv.cons h _ _ main_cst_6 (val_main_cst_6 (F := F)) rfl (by decide) (r.trans ?_) (fun W h => ?_)
  · rfl
  have r := res_unary (τ := τ) (x := main_cst_6) (y := main_v19) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_6 (val_main_cst_6 (F := F)) (memAt% 0))
  refine Inv.cons h _ _ main_v19 (val_main_v19 (F := F)) rfl (by decide) (r.trans ?_) (fun W h => ?_)
  · rfl
  have r := res_binary (τ := τ) (a := main_v18) (b := main_v19) (y := main_v20) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v18 (val_main_v18 (F := F) x0 x3) (memAt% 2)) (h.get' main_v19 (val_main_v19 (F := F)) (memAt% 0))
  refine Inv.cons h _ _ main_v20 (val_main_v20 (F := F) x0 x3) rfl (by decide) (r.trans ?_) (fun W h => ?_)
  · rfl
  have r := res_unary (τ := τ) (x := main_v4) (y := main_v21) (f := ((extractStridedSlice S4x40000x1 ![0, 0, 2] · slices_S4x40000x3_S4x40000x1_0_0_2) : (⟨S4x40000x3, .f32⟩ : BufTy).Contents (Elt F) → (⟨S4x40000x1, .f32⟩ : BufTy).Contents (Elt F))) (hx := ⟨by decide, rfl⟩) (hy := ⟨by decide, rfl⟩) (h.get' main_v4 (val_main_v4 (F := F) x0 x3) (memAt% 22))
  refine Inv.cons h _ _ main_v21 (val_main_v21 (F := F) x0 x3) rfl (by decide) (r.trans ?_) (fun W h => ?_)
  · rfl
  exact h

/-- Operations 31 … 60 of the line. -/
abbrev seg1 : List (HloOp τ sig (Elt F)) :=
  [ reshape main_v21 main_v22 rfl shapeCasts_S4x40000x1_S4x40000,
    nullary main_cst_7 (constant S_ .f32 0x3F800000#32),
    unary main_cst_7 main_v23 (broadcastInDim S4x40000 ![] bcast_S_S4x40000 : (⟨S_, .f32⟩ : BufTy).Contents (Elt F) → (⟨S4x40000, .f32⟩ : BufTy).Contents (Elt F)),
    binary main_v22 main_v23 main_v24 (addf : (⟨S4x40000, .f32⟩ : BufTy).Contents (Elt F) → (⟨S4x40000, .f32⟩ : BufTy).Contents (Elt F) → (⟨S4x40000, .f32⟩ : BufTy).Contents (Elt F)),
    nullary main_cst_8 (constant S_ .f32 0x3F000000#32),
    unary main_cst_8 main_v25 (broadcastInDim S4x40000 ![] bcast_S_S4x40000 : (⟨S_, .f32⟩ : BufTy).Contents (Elt F) → (⟨S4x40000, .f32⟩ : BufTy).Contents (Elt F)),
    binary main_v24 main_v25 main_v26 (mulf : (⟨S4x40000, .f32⟩ : BufTy).Contents (Elt F) → (⟨S4x40000, .f32⟩ : BufTy).Contents (Elt F) → (⟨S4x40000, .f32⟩ : BufTy).Contents (Elt F)),
    nullary main_cst_9 (constant S_ .f32 0x41700000#32),
    unary main_cst_9 main_v27 (broadcastInDim S4x40000 ![] bcast_S_S4x40000 : (⟨S_, .f32⟩ : BufTy).Contents (Elt F) → (⟨S4x40000, .f32⟩ : BufTy).Contents (Elt F)),
    binary main_v26 main_v27 main_v28 (mulf : (⟨S4x40000, .f32⟩ : BufTy).Contents (Elt F) → (⟨S4x40000, .f32⟩ : BufTy).Contents (Elt F) → (⟨S4x40000, .f32⟩ : BufTy).Contents (Elt F)),
    unary main_v12 main_v29 (Host.floor : (⟨S4x40000, .f32⟩ : BufTy).Contents (Elt F) → (⟨S4x40000, .f32⟩ : BufTy).Contents (Elt F)),
    unary main_v20 main_v30 (Host.floor : (⟨S4x40000, .f32⟩ : BufTy).Contents (Elt F) → (⟨S4x40000, .f32⟩ : BufTy).Contents (Elt F)),
    unary main_v28 main_v31 (Host.floor : (⟨S4x40000, .f32⟩ : BufTy).Contents (Elt F) → (⟨S4x40000, .f32⟩ : BufTy).Contents (Elt F)),
    binary main_v12 main_v29 main_v32 (subf : (⟨S4x40000, .f32⟩ : BufTy).Contents (Elt F) → (⟨S4x40000, .f32⟩ : BufTy).Contents (Elt F) → (⟨S4x40000, .f32⟩ : BufTy).Contents (Elt F)),
    binary main_v20 main_v30 main_v33 (subf : (⟨S4x40000, .f32⟩ : BufTy).Contents (Elt F) → (⟨S4x40000, .f32⟩ : BufTy).Contents (Elt F) → (⟨S4x40000, .f32⟩ : BufTy).Contents (Elt F)),
    binary main_v28 main_v31 main_v34 (subf : (⟨S4x40000, .f32⟩ : BufTy).Contents (Elt F) → (⟨S4x40000, .f32⟩ : BufTy).Contents (Elt F) → (⟨S4x40000, .f32⟩ : BufTy).Contents (Elt F)),
    unary main_v29 main_v35 (fptosi 32 : (⟨S4x40000, .f32⟩ : BufTy).Contents (Elt F) → (⟨S4x40000, .i32⟩ : BufTy).Contents (Elt F)),
    unary main_v30 main_v36 (fptosi 32 : (⟨S4x40000, .f32⟩ : BufTy).Contents (Elt F) → (⟨S4x40000, .i32⟩ : BufTy).Contents (Elt F)),
    unary main_v31 main_v37 (fptosi 32 : (⟨S4x40000, .f32⟩ : BufTy).Contents (Elt F) → (⟨S4x40000, .i32⟩ : BufTy).Contents (Elt F)),
    nullary main_c (constantI S_ 32 1#32),
    unary main_c main_v38 (broadcastInDim S4x40000 ![] bcast_S_S4x40000 : (⟨S_, .i32⟩ : BufTy).Contents (Elt F) → (⟨S4x40000, .i32⟩ : BufTy).Contents (Elt F)),
    binary main_v35 main_v38 main_v39 (addi : (⟨S4x40000, .i32⟩ : BufTy).Contents (Elt F) → (⟨S4x40000, .i32⟩ : BufTy).Contents (Elt F) → (⟨S4x40000, .i32⟩ : BufTy).Contents (Elt F)),
    nullary main_c_10 (constantI S_ 32 1#32),
    unary main_c_10 main_v40 (broadcastInDim S4x40000 ![] bcast_S_S4x40000 : (⟨S_, .i32⟩ : BufTy).Contents (Elt F) → (⟨S4x40000, .i32⟩ : BufTy).Contents (Elt F)),
    binary main_v36 main_v40 main_v41 (addi : (⟨S4x40000, .i32⟩ : BufTy).Contents (Elt F) → (⟨S4x40000, .i32⟩ : BufTy).Contents (Elt F) → (⟨S4x40000, .i32⟩ : BufTy).Contents (Elt F)),
    nullary main_c_11 (constantI S_ 32 1#32),
    unary main_c_11 main_v42 (broadcastInDim S4x40000 ![] bcast_S_S4x40000 : (⟨S_, .i32⟩ : BufTy).Contents (Elt F) → (⟨S4x40000, .i32⟩ : BufTy).Contents (Elt F)),
    binary main_v37 main_v42 main_v43 (addi : (⟨S4x40000, .i32⟩ : BufTy).Contents (Elt F) → (⟨S4x40000, .i32⟩ : BufTy).Contents (Elt F) → (⟨S4x40000, .i32⟩ : BufTy).Contents (Elt F)),
    reshape main_arg2 main_v44 rfl shapeCasts_S4x128x16x16x16_S4x128x4096,
    nullary main_cst_12 (constant S_ .f32 0x3F800000#32) ]

/-- The facts after operation 60: each buffer written so far at its stage value. -/
def facts1 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_cst_12, val_main_cst_12 (F := F)⟩ ::
  ⟨main_v44, val_main_v44 (F := F) x2⟩ ::
  ⟨main_v43, val_main_v43 (F := F) x0 x3⟩ ::
  ⟨main_v42, val_main_v42 (F := F)⟩ ::
  ⟨main_c_11, val_main_c_11 (F := F)⟩ ::
  ⟨main_v41, val_main_v41 (F := F) x0 x3⟩ ::
  ⟨main_v40, val_main_v40 (F := F)⟩ ::
  ⟨main_c_10, val_main_c_10 (F := F)⟩ ::
  ⟨main_v39, val_main_v39 (F := F) x0 x3⟩ ::
  ⟨main_v38, val_main_v38 (F := F)⟩ ::
  ⟨main_c, val_main_c (F := F)⟩ ::
  ⟨main_v37, val_main_v37 (F := F) x0 x3⟩ ::
  ⟨main_v36, val_main_v36 (F := F) x0 x3⟩ ::
  ⟨main_v35, val_main_v35 (F := F) x0 x3⟩ ::
  ⟨main_v34, val_main_v34 (F := F) x0 x3⟩ ::
  ⟨main_v33, val_main_v33 (F := F) x0 x3⟩ ::
  ⟨main_v32, val_main_v32 (F := F) x0 x3⟩ ::
  ⟨main_v31, val_main_v31 (F := F) x0 x3⟩ ::
  ⟨main_v30, val_main_v30 (F := F) x0 x3⟩ ::
  ⟨main_v29, val_main_v29 (F := F) x0 x3⟩ ::
  ⟨main_v28, val_main_v28 (F := F) x0 x3⟩ ::
  ⟨main_v27, val_main_v27 (F := F)⟩ ::
  ⟨main_cst_9, val_main_cst_9 (F := F)⟩ ::
  ⟨main_v26, val_main_v26 (F := F) x0 x3⟩ ::
  ⟨main_v25, val_main_v25 (F := F)⟩ ::
  ⟨main_cst_8, val_main_cst_8 (F := F)⟩ ::
  ⟨main_v24, val_main_v24 (F := F) x0 x3⟩ ::
  ⟨main_v23, val_main_v23 (F := F)⟩ ::
  ⟨main_cst_7, val_main_cst_7 (F := F)⟩ ::
  ⟨main_v22, val_main_v22 (F := F) x0 x3⟩ ::
  facts0 x0 x1 x2 x3

theorem up1 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts0 x0 x1 x2 x3) : p ∈ facts1 x0 x1 x2 x3 :=
  memUp% 30 hp

set_option maxRecDepth 8192 in
set_option maxHeartbeats 2000000 in
/-- Operations 31 … 60: each adds the fact of the buffer it writes. -/
theorem run1 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts0 x0 x1 x2 x3) 34) :
    Inv (after seg1 W) (facts1 x0 x1 x2 x3) 64 := by
  have r := res_reshape (τ := τ) (x := main_v21) (y := main_v22) (he := rfl) (hn := shapeCasts_S4x40000x1_S4x40000) (hx := ⟨by decide, rfl⟩) (hy := ⟨by decide, rfl⟩) (h.get' main_v21 (val_main_v21 (F := F) x0 x3) (memUp% 0 (memAt% 0 : (⟨main_v21, val_main_v21 (F := F) x0 x3⟩ : Fact sig (Elt F)) ∈ facts0 x0 x1 x2 x3)))
  refine Inv.cons h _ _ main_v22 (val_main_v22 (F := F) x0 x3) rfl (by decide) (r.trans ?_) (fun W h => ?_)
  · rfl
  have r := res_nullary (τ := τ) (W := W) (y := main_cst_7) (v := (constant S_ .f32 0x3F800000#32)) (hy := ⟨by decide, rfl⟩)
  refine Inv.cons h _ _ main_cst_7 (val_main_cst_7 (F := F)) rfl (by decide) (r.trans ?_) (fun W h => ?_)
  · rfl
  have r := res_unary (τ := τ) (x := main_cst_7) (y := main_v23) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_7 (val_main_cst_7 (F := F)) (memAt% 0))
  refine Inv.cons h _ _ main_v23 (val_main_v23 (F := F)) rfl (by decide) (r.trans ?_) (fun W h => ?_)
  · rfl
  have r := res_binary (τ := τ) (a := main_v22) (b := main_v23) (y := main_v24) (f := (addf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v22 (val_main_v22 (F := F) x0 x3) (memAt% 2)) (h.get' main_v23 (val_main_v23 (F := F)) (memAt% 0))
  refine Inv.cons h _ _ main_v24 (val_main_v24 (F := F) x0 x3) rfl (by decide) (r.trans ?_) (fun W h => ?_)
  · rfl
  have r := res_nullary (τ := τ) (W := W) (y := main_cst_8) (v := (constant S_ .f32 0x3F000000#32)) (hy := ⟨by decide, rfl⟩)
  refine Inv.cons h _ _ main_cst_8 (val_main_cst_8 (F := F)) rfl (by decide) (r.trans ?_) (fun W h => ?_)
  · rfl
  have r := res_unary (τ := τ) (x := main_cst_8) (y := main_v25) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_8 (val_main_cst_8 (F := F)) (memAt% 0))
  refine Inv.cons h _ _ main_v25 (val_main_v25 (F := F)) rfl (by decide) (r.trans ?_) (fun W h => ?_)
  · rfl
  have r := res_binary (τ := τ) (a := main_v24) (b := main_v25) (y := main_v26) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v24 (val_main_v24 (F := F) x0 x3) (memAt% 2)) (h.get' main_v25 (val_main_v25 (F := F)) (memAt% 0))
  refine Inv.cons h _ _ main_v26 (val_main_v26 (F := F) x0 x3) rfl (by decide) (r.trans ?_) (fun W h => ?_)
  · rfl
  have r := res_nullary (τ := τ) (W := W) (y := main_cst_9) (v := (constant S_ .f32 0x41700000#32)) (hy := ⟨by decide, rfl⟩)
  refine Inv.cons h _ _ main_cst_9 (val_main_cst_9 (F := F)) rfl (by decide) (r.trans ?_) (fun W h => ?_)
  · rfl
  have r := res_unary (τ := τ) (x := main_cst_9) (y := main_v27) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_9 (val_main_cst_9 (F := F)) (memAt% 0))
  refine Inv.cons h _ _ main_v27 (val_main_v27 (F := F)) rfl (by decide) (r.trans ?_) (fun W h => ?_)
  · rfl
  have r := res_binary (τ := τ) (a := main_v26) (b := main_v27) (y := main_v28) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v26 (val_main_v26 (F := F) x0 x3) (memAt% 2)) (h.get' main_v27 (val_main_v27 (F := F)) (memAt% 0))
  refine Inv.cons h _ _ main_v28 (val_main_v28 (F := F) x0 x3) rfl (by decide) (r.trans ?_) (fun W h => ?_)
  · rfl
  have r := res_unary (τ := τ) (x := main_v12) (y := main_v29) (f := (Host.floor : (⟨S4x40000, .f32⟩ : BufTy).Contents (Elt F) → (⟨S4x40000, .f32⟩ : BufTy).Contents (Elt F))) (hx := ⟨by decide, rfl⟩) (hy := ⟨by decide, rfl⟩) (h.get' main_v12 (val_main_v12 (F := F) x0 x3) (memUp% 10 (memAt% 12 : (⟨main_v12, val_main_v12 (F := F) x0 x3⟩ : Fact sig (Elt F)) ∈ facts0 x0 x1 x2 x3)))
  refine Inv.cons h _ _ main_v29 (val_main_v29 (F := F) x0 x3) rfl (by decide) (r.trans ?_) (fun W h => ?_)
  · rfl
  have r := res_unary (τ := τ) (x := main_v20) (y := main_v30) (f := (Host.floor : (⟨S4x40000, .f32⟩ : BufTy).Contents (Elt F) → (⟨S4x40000, .f32⟩ : BufTy).Contents (Elt F))) (hx := ⟨by decide, rfl⟩) (hy := ⟨by decide, rfl⟩) (h.get' main_v20 (val_main_v20 (F := F) x0 x3) (memUp% 11 (memAt% 1 : (⟨main_v20, val_main_v20 (F := F) x0 x3⟩ : Fact sig (Elt F)) ∈ facts0 x0 x1 x2 x3)))
  refine Inv.cons h _ _ main_v30 (val_main_v30 (F := F) x0 x3) rfl (by decide) (r.trans ?_) (fun W h => ?_)
  · rfl
  have r := res_unary (τ := τ) (x := main_v28) (y := main_v31) (f := (Host.floor : (⟨S4x40000, .f32⟩ : BufTy).Contents (Elt F) → (⟨S4x40000, .f32⟩ : BufTy).Contents (Elt F))) (hx := ⟨by decide, rfl⟩) (hy := ⟨by decide, rfl⟩) (h.get' main_v28 (val_main_v28 (F := F) x0 x3) (memAt% 2))
  refine Inv.cons h _ _ main_v31 (val_main_v31 (F := F) x0 x3) rfl (by decide) (r.trans ?_) (fun W h => ?_)
  · rfl
  have r := res_binary (τ := τ) (a := main_v12) (b := main_v29) (y := main_v32) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v12 (val_main_v12 (F := F) x0 x3) (memUp% 13 (memAt% 12 : (⟨main_v12, val_main_v12 (F := F) x0 x3⟩ : Fact sig (Elt F)) ∈ facts0 x0 x1 x2 x3))) (h.get' main_v29 (val_main_v29 (F := F) x0 x3) (memAt% 2))
  refine Inv.cons h _ _ main_v32 (val_main_v32 (F := F) x0 x3) rfl (by decide) (r.trans ?_) (fun W h => ?_)
  · rfl
  have r := res_binary (τ := τ) (a := main_v20) (b := main_v30) (y := main_v33) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v20 (val_main_v20 (F := F) x0 x3) (memUp% 14 (memAt% 1 : (⟨main_v20, val_main_v20 (F := F) x0 x3⟩ : Fact sig (Elt F)) ∈ facts0 x0 x1 x2 x3))) (h.get' main_v30 (val_main_v30 (F := F) x0 x3) (memAt% 2))
  refine Inv.cons h _ _ main_v33 (val_main_v33 (F := F) x0 x3) rfl (by decide) (r.trans ?_) (fun W h => ?_)
  · rfl
  have r := res_binary (τ := τ) (a := main_v28) (b := main_v31) (y := main_v34) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v28 (val_main_v28 (F := F) x0 x3) (memAt% 5)) (h.get' main_v31 (val_main_v31 (F := F) x0 x3) (memAt% 2))
  refine Inv.cons h _ _ main_v34 (val_main_v34 (F := F) x0 x3) rfl (by decide) (r.trans ?_) (fun W h => ?_)
  · rfl
  have r := res_unary (τ := τ) (x := main_v29) (y := main_v35) (f := (fptosi 32 : (⟨S4x40000, .f32⟩ : BufTy).Contents (Elt F) → (⟨S4x40000, .i32⟩ : BufTy).Contents (Elt F))) (hx := ⟨by decide, rfl⟩) (hy := ⟨by decide, rfl⟩) (h.get' main_v29 (val_main_v29 (F := F) x0 x3) (memAt% 5))
  refine Inv.cons h _ _ main_v35 (val_main_v35 (F := F) x0 x3) rfl (by decide) (r.trans ?_) (fun W h => ?_)
  · rfl
  have r := res_unary (τ := τ) (x := main_v30) (y := main_v36) (f := (fptosi 32 : (⟨S4x40000, .f32⟩ : BufTy).Contents (Elt F) → (⟨S4x40000, .i32⟩ : BufTy).Contents (Elt F))) (hx := ⟨by decide, rfl⟩) (hy := ⟨by decide, rfl⟩) (h.get' main_v30 (val_main_v30 (F := F) x0 x3) (memAt% 5))
  refine Inv.cons h _ _ main_v36 (val_main_v36 (F := F) x0 x3) rfl (by decide) (r.trans ?_) (fun W h => ?_)
  · rfl
  have r := res_unary (τ := τ) (x := main_v31) (y := main_v37) (f := (fptosi 32 : (⟨S4x40000, .f32⟩ : BufTy).Contents (Elt F) → (⟨S4x40000, .i32⟩ : BufTy).Contents (Elt F))) (hx := ⟨by decide, rfl⟩) (hy := ⟨by decide, rfl⟩) (h.get' main_v31 (val_main_v31 (F := F) x0 x3) (memAt% 5))
  refine Inv.cons h _ _ main_v37 (val_main_v37 (F := F) x0 x3) rfl (by decide) (r.trans ?_) (fun W h => ?_)
  · rfl
  have r := res_nullary (τ := τ) (W := W) (y := main_c) (v := (constantI S_ 32 1#32)) (hy := ⟨by decide, rfl⟩)
  refine Inv.cons h _ _ main_c (val_main_c (F := F)) rfl (by decide) (r.trans ?_) (fun W h => ?_)
  · rfl
  have r := res_unary (τ := τ) (x := main_c) (y := main_v38) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c (val_main_c (F := F)) (memAt% 0))
  refine Inv.cons h _ _ main_v38 (val_main_v38 (F := F)) rfl (by decide) (r.trans ?_) (fun W h => ?_)
  · rfl
  have r := res_binary (τ := τ) (a := main_v35) (b := main_v38) (y := main_v39) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v35 (val_main_v35 (F := F) x0 x3) (memAt% 4)) (h.get' main_v38 (val_main_v38 (F := F)) (memAt% 0))
  refine Inv.cons h _ _ main_v39 (val_main_v39 (F := F) x0 x3) rfl (by decide) (r.trans ?_) (fun W h => ?_)
  · rfl
  have r := res_nullary (τ := τ) (W := W) (y := main_c_10) (v := (constantI S_ 32 1#32)) (hy := ⟨by decide, rfl⟩)
  refine Inv.cons h _ _ main_c_10 (val_main_c_10 (F := F)) rfl (by decide) (r.trans ?_) (fun W h => ?_)
  · rfl
  have r := res_unary (τ := τ) (x := main_c_10) (y := main_v40) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_10 (val_main_c_10 (F := F)) (memAt% 0))
  refine Inv.cons h _ _ main_v40 (val_main_v40 (F := F)) rfl (by decide) (r.trans ?_) (fun W h => ?_)
  · rfl
  have r := res_binary (τ := τ) (a := main_v36) (b := main_v40) (y := main_v41) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v36 (val_main_v36 (F := F) x0 x3) (memAt% 6)) (h.get' main_v40 (val_main_v40 (F := F)) (memAt% 0))
  refine Inv.cons h _ _ main_v41 (val_main_v41 (F := F) x0 x3) rfl (by decide) (r.trans ?_) (fun W h => ?_)
  · rfl
  have r := res_nullary (τ := τ) (W := W) (y := main_c_11) (v := (constantI S_ 32 1#32)) (hy := ⟨by decide, rfl⟩)
  refine Inv.cons h _ _ main_c_11 (val_main_c_11 (F := F)) rfl (by decide) (r.trans ?_) (fun W h => ?_)
  · rfl
  have r := res_unary (τ := τ) (x := main_c_11) (y := main_v42) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_11 (val_main_c_11 (F := F)) (memAt% 0))
  refine Inv.cons h _ _ main_v42 (val_main_v42 (F := F)) rfl (by decide) (r.trans ?_) (fun W h => ?_)
  · rfl
  have r := res_binary (τ := τ) (a := main_v37) (b := main_v42) (y := main_v43) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v37 (val_main_v37 (F := F) x0 x3) (memAt% 8)) (h.get' main_v42 (val_main_v42 (F := F)) (memAt% 0))
  refine Inv.cons h _ _ main_v43 (val_main_v43 (F := F) x0 x3) rfl (by decide) (r.trans ?_) (fun W h => ?_)
  · rfl
  have r := res_reshape (τ := τ) (x := main_arg2) (y := main_v44) (he := rfl) (hn := shapeCasts_S4x128x16x16x16_S4x128x4096) (hx := ⟨by decide, rfl⟩) (hy := ⟨by decide, rfl⟩) (h.get' main_arg2 (x2) (memUp% 28 (up0 x0 x1 x2 x3 (memAt% 1 : (⟨main_arg2, x2⟩ : Fact sig (Elt F)) ∈ factsArgs x0 x1 x2 x3))))
  refine Inv.cons h _ _ main_v44 (val_main_v44 (F := F) x2) rfl (by decide) (r.trans ?_) (fun W h => ?_)
  · rfl
  have r := res_nullary (τ := τ) (W := W) (y := main_cst_12) (v := (constant S_ .f32 0x3F800000#32)) (hy := ⟨by decide, rfl⟩)
  refine Inv.cons h _ _ main_cst_12 (val_main_cst_12 (F := F)) rfl (by decide) (r.trans ?_) (fun W h => ?_)
  · rfl
  exact h

/-- Operations 61 … 85 of the line. -/
abbrev seg2 : List (HloOp τ sig (Elt F)) :=
  [ unary main_cst_12 main_v45 (broadcastInDim S4x40000 ![] bcast_S_S4x40000 : (⟨S_, .f32⟩ : BufTy).Contents (Elt F) → (⟨S4x40000, .f32⟩ : BufTy).Contents (Elt F)),
    binary main_v45 main_v32 main_v46 (subf : (⟨S4x40000, .f32⟩ : BufTy).Contents (Elt F) → (⟨S4x40000, .f32⟩ : BufTy).Contents (Elt F) → (⟨S4x40000, .f32⟩ : BufTy).Contents (Elt F)),
    nullary main_cst_13 (constant S_ .f32 0x3F800000#32),
    unary main_cst_13 main_v47 (broadcastInDim S4x40000 ![] bcast_S_S4x40000 : (⟨S_, .f32⟩ : BufTy).Contents (Elt F) → (⟨S4x40000, .f32⟩ : BufTy).Contents (Elt F)),
    binary main_v47 main_v33 main_v48 (subf : (⟨S4x40000, .f32⟩ : BufTy).Contents (Elt F) → (⟨S4x40000, .f32⟩ : BufTy).Contents (Elt F) → (⟨S4x40000, .f32⟩ : BufTy).Contents (Elt F)),
    binary main_v46 main_v48 main_v49 (mulf : (⟨S4x40000, .f32⟩ : BufTy).Contents (Elt F) → (⟨S4x40000, .f32⟩ : BufTy).Contents (Elt F) → (⟨S4x40000, .f32⟩ : BufTy).Contents (Elt F)),
    nullary main_cst_14 (constant S_ .f32 0x3F800000#32),
    unary main_cst_14 main_v50 (broadcastInDim S4x40000 ![] bcast_S_S4x40000 : (⟨S_, .f32⟩ : BufTy).Contents (Elt F) → (⟨S4x40000, .f32⟩ : BufTy).Contents (Elt F)),
    binary main_v50 main_v34 main_v51 (subf : (⟨S4x40000, .f32⟩ : BufTy).Contents (Elt F) → (⟨S4x40000, .f32⟩ : BufTy).Contents (Elt F) → (⟨S4x40000, .f32⟩ : BufTy).Contents (Elt F)),
    binary main_v49 main_v51 main_v52 (mulf : (⟨S4x40000, .f32⟩ : BufTy).Contents (Elt F) → (⟨S4x40000, .f32⟩ : BufTy).Contents (Elt F) → (⟨S4x40000, .f32⟩ : BufTy).Contents (Elt F)),
    nullary main_c_15 (constantI S_ 32 0#32),
    unary main_c_15 main_v53 (broadcastInDim S4x40000 ![] bcast_S_S4x40000 : (⟨S_, .i32⟩ : BufTy).Contents (Elt F) → (⟨S4x40000, .i32⟩ : BufTy).Contents (Elt F)),
    binary main_v35 main_v53 main_v54 (cmpi .sge : (⟨S4x40000, .i32⟩ : BufTy).Contents (Elt F) → (⟨S4x40000, .i32⟩ : BufTy).Contents (Elt F) → (⟨S4x40000, .i1⟩ : BufTy).Contents (Elt F)),
    nullary main_c_16 (constantI S_ 32 16#32),
    unary main_c_16 main_v55 (broadcastInDim S4x40000 ![] bcast_S_S4x40000 : (⟨S_, .i32⟩ : BufTy).Contents (Elt F) → (⟨S4x40000, .i32⟩ : BufTy).Contents (Elt F)),
    binary main_v35 main_v55 main_v56 (cmpi .slt : (⟨S4x40000, .i32⟩ : BufTy).Contents (Elt F) → (⟨S4x40000, .i32⟩ : BufTy).Contents (Elt F) → (⟨S4x40000, .i1⟩ : BufTy).Contents (Elt F)),
    binary main_v54 main_v56 main_v57 (andi : (⟨S4x40000, .i1⟩ : BufTy).Contents (Elt F) → (⟨S4x40000, .i1⟩ : BufTy).Contents (Elt F) → (⟨S4x40000, .i1⟩ : BufTy).Contents (Elt F)),
    nullary main_c_17 (constantI S_ 32 0#32),
    unary main_c_17 main_v58 (broadcastInDim S4x40000 ![] bcast_S_S4x40000 : (⟨S_, .i32⟩ : BufTy).Contents (Elt F) → (⟨S4x40000, .i32⟩ : BufTy).Contents (Elt F)),
    binary main_v36 main_v58 main_v59 (cmpi .sge : (⟨S4x40000, .i32⟩ : BufTy).Contents (Elt F) → (⟨S4x40000, .i32⟩ : BufTy).Contents (Elt F) → (⟨S4x40000, .i1⟩ : BufTy).Contents (Elt F)),
    binary main_v57 main_v59 main_v60 (andi : (⟨S4x40000, .i1⟩ : BufTy).Contents (Elt F) → (⟨S4x40000, .i1⟩ : BufTy).Contents (Elt F) → (⟨S4x40000, .i1⟩ : BufTy).Contents (Elt F)),
    nullary main_c_18 (constantI S_ 32 16#32),
    unary main_c_18 main_v61 (broadcastInDim S4x40000 ![] bcast_S_S4x40000 : (⟨S_, .i32⟩ : BufTy).Contents (Elt F) → (⟨S4x40000, .i32⟩ : BufTy).Contents (Elt F)),
    binary main_v36 main_v61 main_v62 (cmpi .slt : (⟨S4x40000, .i32⟩ : BufTy).Contents (Elt F) → (⟨S4x40000, .i32⟩ : BufTy).Contents (Elt F) → (⟨S4x40000, .i1⟩ : BufTy).Contents (Elt F)),
    binary main_v60 main_v62 main_v63 (andi : (⟨S4x40000, .i1⟩ : BufTy).Contents (Elt F) → (⟨S4x40000, .i1⟩ : BufTy).Contents (Elt F) → (⟨S4x40000, .i1⟩ : BufTy).Contents (Elt F)) ]

/-- The facts after operation 85: each buffer written so far at its stage value. -/
def facts2 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v63, val_main_v63 (F := F) x0 x3⟩ ::
  ⟨main_v62, val_main_v62 (F := F) x0 x3⟩ ::
  ⟨main_v61, val_main_v61 (F := F)⟩ ::
  ⟨main_c_18, val_main_c_18 (F := F)⟩ ::
  ⟨main_v60, val_main_v60 (F := F) x0 x3⟩ ::
  ⟨main_v59, val_main_v59 (F := F) x0 x3⟩ ::
  ⟨main_v58, val_main_v58 (F := F)⟩ ::
  ⟨main_c_17, val_main_c_17 (F := F)⟩ ::
  ⟨main_v57, val_main_v57 (F := F) x0 x3⟩ ::
  ⟨main_v56, val_main_v56 (F := F) x0 x3⟩ ::
  ⟨main_v55, val_main_v55 (F := F)⟩ ::
  ⟨main_c_16, val_main_c_16 (F := F)⟩ ::
  ⟨main_v54, val_main_v54 (F := F) x0 x3⟩ ::
  ⟨main_v53, val_main_v53 (F := F)⟩ ::
  ⟨main_c_15, val_main_c_15 (F := F)⟩ ::
  ⟨main_v52, val_main_v52 (F := F) x0 x3⟩ ::
  ⟨main_v51, val_main_v51 (F := F) x0 x3⟩ ::
  ⟨main_v50, val_main_v50 (F := F)⟩ ::
  ⟨main_cst_14, val_main_cst_14 (F := F)⟩ ::
  ⟨main_v49, val_main_v49 (F := F) x0 x3⟩ ::
  ⟨main_v48, val_main_v48 (F := F) x0 x3⟩ ::
  ⟨main_v47, val_main_v47 (F := F)⟩ ::
  ⟨main_cst_13, val_main_cst_13 (F := F)⟩ ::
  ⟨main_v46, val_main_v46 (F := F) x0 x3⟩ ::
  ⟨main_v45, val_main_v45 (F := F)⟩ ::
  facts1 x0 x1 x2 x3

theorem up2 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts1 x0 x1 x2 x3) : p ∈ facts2 x0 x1 x2 x3 :=
  memUp% 25 hp

set_option maxRecDepth 8192 in
set_option maxHeartbeats 2000000 in
/-- Operations 61 … 85: each adds the fact of the buffer it writes. -/
theorem run2 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts1 x0 x1 x2 x3) 64) :
    Inv (after seg2 W) (facts2 x0 x1 x2 x3) 89 := by
  have r := res_unary (τ := τ) (x := main_cst_12) (y := main_v45) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_12 (val_main_cst_12 (F := F)) (memUp% 0 (memAt% 0 : (⟨main_cst_12, val_main_cst_12 (F := F)⟩ : Fact sig (Elt F)) ∈ facts1 x0 x1 x2 x3)))
  refine Inv.cons h _ _ main_v45 (val_main_v45 (F := F)) rfl (by decide) (r.trans ?_) (fun W h => ?_)
  · rfl
  have r := res_binary (τ := τ) (a := main_v45) (b := main_v32) (y := main_v46) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v45 (val_main_v45 (F := F)) (memAt% 0)) (h.get' main_v32 (val_main_v32 (F := F) x0 x3) (memUp% 1 (memAt% 16 : (⟨main_v32, val_main_v32 (F := F) x0 x3⟩ : Fact sig (Elt F)) ∈ facts1 x0 x1 x2 x3)))
  refine Inv.cons h _ _ main_v46 (val_main_v46 (F := F) x0 x3) rfl (by decide) (r.trans ?_) (fun W h => ?_)
  · rfl
  have r := res_nullary (τ := τ) (W := W) (y := main_cst_13) (v := (constant S_ .f32 0x3F800000#32)) (hy := ⟨by decide, rfl⟩)
  refine Inv.cons h _ _ main_cst_13 (val_main_cst_13 (F := F)) rfl (by decide) (r.trans ?_) (fun W h => ?_)
  · rfl
  have r := res_unary (τ := τ) (x := main_cst_13) (y := main_v47) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_13 (val_main_cst_13 (F := F)) (memAt% 0))
  refine Inv.cons h _ _ main_v47 (val_main_v47 (F := F)) rfl (by decide) (r.trans ?_) (fun W h => ?_)
  · rfl
  have r := res_binary (τ := τ) (a := main_v47) (b := main_v33) (y := main_v48) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v47 (val_main_v47 (F := F)) (memAt% 0)) (h.get' main_v33 (val_main_v33 (F := F) x0 x3) (memUp% 4 (memAt% 15 : (⟨main_v33, val_main_v33 (F := F) x0 x3⟩ : Fact sig (Elt F)) ∈ facts1 x0 x1 x2 x3)))
  refine Inv.cons h _ _ main_v48 (val_main_v48 (F := F) x0 x3) rfl (by decide) (r.trans ?_) (fun W h => ?_)
  · rfl
  have r := res_binary (τ := τ) (a := main_v46) (b := main_v48) (y := main_v49) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v46 (val_main_v46 (F := F) x0 x3) (memAt% 3)) (h.get' main_v48 (val_main_v48 (F := F) x0 x3) (memAt% 0))
  refine Inv.cons h _ _ main_v49 (val_main_v49 (F := F) x0 x3) rfl (by decide) (r.trans ?_) (fun W h => ?_)
  · rfl
  have r := res_nullary (τ := τ) (W := W) (y := main_cst_14) (v := (constant S_ .f32 0x3F800000#32)) (hy := ⟨by decide, rfl⟩)
  refine Inv.cons h _ _ main_cst_14 (val_main_cst_14 (F := F)) rfl (by decide) (r.trans ?_) (fun W h => ?_)
  · rfl
  have r := res_unary (τ := τ) (x := main_cst_14) (y := main_v50) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_14 (val_main_cst_14 (F := F)) (memAt% 0))
  refine Inv.cons h _ _ main_v50 (val_main_v50 (F := F)) rfl (by decide) (r.trans ?_) (fun W h => ?_)
  · rfl
  have r := res_binary (τ := τ) (a := main_v50) (b := main_v34) (y := main_v51) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v50 (val_main_v50 (F := F)) (memAt% 0)) (h.get' main_v34 (val_main_v34 (F := F) x0 x3) (memUp% 8 (memAt% 14 : (⟨main_v34, val_main_v34 (F := F) x0 x3⟩ : Fact sig (Elt F)) ∈ facts1 x0 x1 x2 x3)))
  refine Inv.cons h _ _ main_v51 (val_main_v51 (F := F) x0 x3) rfl (by decide) (r.trans ?_) (fun W h => ?_)
  · rfl
  have r := res_binary (τ := τ) (a := main_v49) (b := main_v51) (y := main_v52) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v49 (val_main_v49 (F := F) x0 x3) (memAt% 3)) (h.get' main_v51 (val_main_v51 (F := F) x0 x3) (memAt% 0))
  refine Inv.cons h _ _ main_v52 (val_main_v52 (F := F) x0 x3) rfl (by decide) (r.trans ?_) (fun W h => ?_)
  · rfl
  have r := res_nullary (τ := τ) (W := W) (y := main_c_15) (v := (constantI S_ 32 0#32)) (hy := ⟨by decide, rfl⟩)
  refine Inv.cons h _ _ main_c_15 (val_main_c_15 (F := F)) rfl (by decide) (r.trans ?_) (fun W h => ?_)
  · rfl
  have r := res_unary (τ := τ) (x := main_c_15) (y := main_v53) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_15 (val_main_c_15 (F := F)) (memAt% 0))
  refine Inv.cons h _ _ main_v53 (val_main_v53 (F := F)) rfl (by decide) (r.trans ?_) (fun W h => ?_)
  · rfl
  have r := res_binary (τ := τ) (a := main_v35) (b := main_v53) (y := main_v54) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 12 (memAt% 13 : (⟨main_v35, val_main_v35 (F := F) x0 x3⟩ : Fact sig (Elt F)) ∈ facts1 x0 x1 x2 x3))) (h.get' main_v53 (val_main_v53 (F := F)) (memAt% 0))
  refine Inv.cons h _ _ main_v54 (val_main_v54 (F := F) x0 x3) rfl (by decide) (r.trans ?_) (fun W h => ?_)
  · rfl
  have r := res_nullary (τ := τ) (W := W) (y := main_c_16) (v := (constantI S_ 32 16#32)) (hy := ⟨by decide, rfl⟩)
  refine Inv.cons h _ _ main_c_16 (val_main_c_16 (F := F)) rfl (by decide) (r.trans ?_) (fun W h => ?_)
  · rfl
  have r := res_unary (τ := τ) (x := main_c_16) (y := main_v55) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_16 (val_main_c_16 (F := F)) (memAt% 0))
  refine Inv.cons h _ _ main_v55 (val_main_v55 (F := F)) rfl (by decide) (r.trans ?_) (fun W h => ?_)
  · rfl
  have r := res_binary (τ := τ) (a := main_v35) (b := main_v55) (y := main_v56) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 15 (memAt% 13 : (⟨main_v35, val_main_v35 (F := F) x0 x3⟩ : Fact sig (Elt F)) ∈ facts1 x0 x1 x2 x3))) (h.get' main_v55 (val_main_v55 (F := F)) (memAt% 0))
  refine Inv.cons h _ _ main_v56 (val_main_v56 (F := F) x0 x3) rfl (by decide) (r.trans ?_) (fun W h => ?_)
  · rfl
  have r := res_binary (τ := τ) (a := main_v54) (b := main_v56) (y := main_v57) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v54 (val_main_v54 (F := F) x0 x3) (memAt% 3)) (h.get' main_v56 (val_main_v56 (F := F) x0 x3) (memAt% 0))
  refine Inv.cons h _ _ main_v57 (val_main_v57 (F := F) x0 x3) rfl (by decide) (r.trans ?_) (fun W h => ?_)
  · rfl
  have r := res_nullary (τ := τ) (W := W) (y := main_c_17) (v := (constantI S_ 32 0#32)) (hy := ⟨by decide, rfl⟩)
  refine Inv.cons h _ _ main_c_17 (val_main_c_17 (F := F)) rfl (by decide) (r.trans ?_) (fun W h => ?_)
  · rfl
  have r := res_unary (τ := τ) (x := main_c_17) (y := main_v58) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_17 (val_main_c_17 (F := F)) (memAt% 0))
  refine Inv.cons h _ _ main_v58 (val_main_v58 (F := F)) rfl (by decide) (r.trans ?_) (fun W h => ?_)
  · rfl
  have r := res_binary (τ := τ) (a := main_v36) (b := main_v58) (y := main_v59) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 19 (memAt% 12 : (⟨main_v36, val_main_v36 (F := F) x0 x3⟩ : Fact sig (Elt F)) ∈ facts1 x0 x1 x2 x3))) (h.get' main_v58 (val_main_v58 (F := F)) (memAt% 0))
  refine Inv.cons h _ _ main_v59 (val_main_v59 (F := F) x0 x3) rfl (by decide) (r.trans ?_) (fun W h => ?_)
  · rfl
  have r := res_binary (τ := τ) (a := main_v57) (b := main_v59) (y := main_v60) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v57 (val_main_v57 (F := F) x0 x3) (memAt% 3)) (h.get' main_v59 (val_main_v59 (F := F) x0 x3) (memAt% 0))
  refine Inv.cons h _ _ main_v60 (val_main_v60 (F := F) x0 x3) rfl (by decide) (r.trans ?_) (fun W h => ?_)
  · rfl
  have r := res_nullary (τ := τ) (W := W) (y := main_c_18) (v := (constantI S_ 32 16#32)) (hy := ⟨by decide, rfl⟩)
  refine Inv.cons h _ _ main_c_18 (val_main_c_18 (F := F)) rfl (by decide) (r.trans ?_) (fun W h => ?_)
  · rfl
  have r := res_unary (τ := τ) (x := main_c_18) (y := main_v61) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_18 (val_main_c_18 (F := F)) (memAt% 0))
  refine Inv.cons h _ _ main_v61 (val_main_v61 (F := F)) rfl (by decide) (r.trans ?_) (fun W h => ?_)
  · rfl
  have r := res_binary (τ := τ) (a := main_v36) (b := main_v61) (y := main_v62) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 23 (memAt% 12 : (⟨main_v36, val_main_v36 (F := F) x0 x3⟩ : Fact sig (Elt F)) ∈ facts1 x0 x1 x2 x3))) (h.get' main_v61 (val_main_v61 (F := F)) (memAt% 0))
  refine Inv.cons h _ _ main_v62 (val_main_v62 (F := F) x0 x3) rfl (by decide) (r.trans ?_) (fun W h => ?_)
  · rfl
  have r := res_binary (τ := τ) (a := main_v60) (b := main_v62) (y := main_v63) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v60 (val_main_v60 (F := F) x0 x3) (memAt% 3)) (h.get' main_v62 (val_main_v62 (F := F) x0 x3) (memAt% 0))
  refine Inv.cons h _ _ main_v63 (val_main_v63 (F := F) x0 x3) rfl (by decide) (r.trans ?_) (fun W h => ?_)
  · rfl
  exact h

/-- Operations 86 … 109 of the line. -/
abbrev seg3 : List (HloOp τ sig (Elt F)) :=
  [ nullary main_c_19 (constantI S_ 32 0#32),
    unary main_c_19 main_v64 (broadcastInDim S4x40000 ![] bcast_S_S4x40000 : (⟨S_, .i32⟩ : BufTy).Contents (Elt F) → (⟨S4x40000, .i32⟩ : BufTy).Contents (Elt F)),
    binary main_v37 main_v64 main_v65 (cmpi .sge : (⟨S4x40000, .i32⟩ : BufTy).Contents (Elt F) → (⟨S4x40000, .i32⟩ : BufTy).Contents (Elt F) → (⟨S4x40000, .i1⟩ : BufTy).Contents (Elt F)),
    binary main_v63 main_v65 main_v66 (andi : (⟨S4x40000, .i1⟩ : BufTy).Contents (Elt F) → (⟨S4x40000, .i1⟩ : BufTy).Contents (Elt F) → (⟨S4x40000, .i1⟩ : BufTy).Contents (Elt F)),
    nullary main_c_20 (constantI S_ 32 16#32),
    unary main_c_20 main_v67 (broadcastInDim S4x40000 ![] bcast_S_S4x40000 : (⟨S_, .i32⟩ : BufTy).Contents (Elt F) → (⟨S4x40000, .i32⟩ : BufTy).Contents (Elt F)),
    binary main_v37 main_v67 main_v68 (cmpi .slt : (⟨S4x40000, .i32⟩ : BufTy).Contents (Elt F) → (⟨S4x40000, .i32⟩ : BufTy).Contents (Elt F) → (⟨S4x40000, .i1⟩ : BufTy).Contents (Elt F)),
    binary main_v66 main_v68 main_v69 (andi : (⟨S4x40000, .i1⟩ : BufTy).Contents (Elt F) → (⟨S4x40000, .i1⟩ : BufTy).Contents (Elt F) → (⟨S4x40000, .i1⟩ : BufTy).Contents (Elt F)),
    nullary main_c_21 (constantI S_ 32 0#32),
    nullary main_c_22 (constantI S_ 32 15#32),
    TRef.unary (TRef.of (T := ⟨S_, .i32⟩) main_c_21) (TRef.of (T := ⟨S_, .i32⟩) main_call0_v0) id,
    TRef.unary (TRef.of (T := ⟨S_, .i32⟩) main_call0_v0) (TRef.of (T := ⟨S4x40000, .i32⟩) main_call0_v1) (broadcastInDim S4x40000 ![] bcast_S_S4x40000),
    TRef.binary (TRef.of (T := ⟨S4x40000, .i32⟩) main_call0_v1) (TRef.of (T := ⟨S4x40000, .i32⟩) main_v37) (TRef.of (T := ⟨S4x40000, .i32⟩) main_call0_v2) maxsi,
    TRef.unary (TRef.of (T := ⟨S_, .i32⟩) main_c_22) (TRef.of (T := ⟨S_, .i32⟩) main_call0_v3) id,
    TRef.unary (TRef.of (T := ⟨S_, .i32⟩) main_call0_v3) (TRef.of (T := ⟨S4x40000, .i32⟩) main_call0_v4) (broadcastInDim S4x40000 ![] bcast_S_S4x40000),
    TRef.binary (TRef.of (T := ⟨S4x40000, .i32⟩) main_call0_v4) (TRef.of (T := ⟨S4x40000, .i32⟩) main_call0_v2) (TRef.of (T := ⟨S4x40000, .i32⟩) main_v70) minsi,
    nullary main_c_23 (constantI S_ 32 16#32),
    unary main_c_23 main_v71 (broadcastInDim S4x40000 ![] bcast_S_S4x40000 : (⟨S_, .i32⟩ : BufTy).Contents (Elt F) → (⟨S4x40000, .i32⟩ : BufTy).Contents (Elt F)),
    binary main_v70 main_v71 main_v72 (muli : (⟨S4x40000, .i32⟩ : BufTy).Contents (Elt F) → (⟨S4x40000, .i32⟩ : BufTy).Contents (Elt F) → (⟨S4x40000, .i32⟩ : BufTy).Contents (Elt F)),
    nullary main_c_24 (constantI S_ 32 0#32),
    nullary main_c_25 (constantI S_ 32 15#32),
    TRef.unary (TRef.of (T := ⟨S_, .i32⟩) main_c_24) (TRef.of (T := ⟨S_, .i32⟩) main_call1_v0) id,
    TRef.unary (TRef.of (T := ⟨S_, .i32⟩) main_call1_v0) (TRef.of (T := ⟨S4x40000, .i32⟩) main_call1_v1) (broadcastInDim S4x40000 ![] bcast_S_S4x40000),
    TRef.binary (TRef.of (T := ⟨S4x40000, .i32⟩) main_call1_v1) (TRef.of (T := ⟨S4x40000, .i32⟩) main_v36) (TRef.of (T := ⟨S4x40000, .i32⟩) main_call1_v2) maxsi ]

/-- The facts after operation 109: each buffer written so far at its stage value. -/
def facts3 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call1_v2, val_main_call1_v2 (F := F) x0 x3⟩ ::
  ⟨main_call1_v1, val_main_call1_v1 (F := F)⟩ ::
  ⟨main_call1_v0, val_main_call1_v0 (F := F)⟩ ::
  ⟨main_c_25, val_main_c_25 (F := F)⟩ ::
  ⟨main_c_24, val_main_c_24 (F := F)⟩ ::
  ⟨main_v72, val_main_v72 (F := F) x0 x3⟩ ::
  ⟨main_v71, val_main_v71 (F := F)⟩ ::
  ⟨main_c_23, val_main_c_23 (F := F)⟩ ::
  ⟨main_v70, val_main_v70 (F := F) x0 x3⟩ ::
  ⟨main_call0_v4, val_main_call0_v4 (F := F)⟩ ::
  ⟨main_call0_v3, val_main_call0_v3 (F := F)⟩ ::
  ⟨main_call0_v2, val_main_call0_v2 (F := F) x0 x3⟩ ::
  ⟨main_call0_v1, val_main_call0_v1 (F := F)⟩ ::
  ⟨main_call0_v0, val_main_call0_v0 (F := F)⟩ ::
  ⟨main_c_22, val_main_c_22 (F := F)⟩ ::
  ⟨main_c_21, val_main_c_21 (F := F)⟩ ::
  ⟨main_v69, val_main_v69 (F := F) x0 x3⟩ ::
  ⟨main_v68, val_main_v68 (F := F) x0 x3⟩ ::
  ⟨main_v67, val_main_v67 (F := F)⟩ ::
  ⟨main_c_20, val_main_c_20 (F := F)⟩ ::
  ⟨main_v66, val_main_v66 (F := F) x0 x3⟩ ::
  ⟨main_v65, val_main_v65 (F := F) x0 x3⟩ ::
  ⟨main_v64, val_main_v64 (F := F)⟩ ::
  ⟨main_c_19, val_main_c_19 (F := F)⟩ ::
  facts2 x0 x1 x2 x3

theorem up3 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts2 x0 x1 x2 x3) : p ∈ facts3 x0 x1 x2 x3 :=
  memUp% 24 hp

set_option maxRecDepth 8192 in
set_option maxHeartbeats 2000000 in
/-- Operations 86 … 109: each adds the fact of the buffer it writes. -/
theorem run3 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts2 x0 x1 x2 x3) 89) :
    Inv (after seg3 W) (facts3 x0 x1 x2 x3) 113 := by
  have r := res_nullary (τ := τ) (W := W) (y := main_c_19) (v := (constantI S_ 32 0#32)) (hy := ⟨by decide, rfl⟩)
  refine Inv.cons h _ _ main_c_19 (val_main_c_19 (F := F)) rfl (by decide) (r.trans ?_) (fun W h => ?_)
  · rfl
  have r := res_unary (τ := τ) (x := main_c_19) (y := main_v64) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_19 (val_main_c_19 (F := F)) (memAt% 0))
  refine Inv.cons h _ _ main_v64 (val_main_v64 (F := F)) rfl (by decide) (r.trans ?_) (fun W h => ?_)
  · rfl
  have r := res_binary (τ := τ) (a := main_v37) (b := main_v64) (y := main_v65) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 2 (up2 x0 x1 x2 x3 (memAt% 11 : (⟨main_v37, val_main_v37 (F := F) x0 x3⟩ : Fact sig (Elt F)) ∈ facts1 x0 x1 x2 x3)))) (h.get' main_v64 (val_main_v64 (F := F)) (memAt% 0))
  refine Inv.cons h _ _ main_v65 (val_main_v65 (F := F) x0 x3) rfl (by decide) (r.trans ?_) (fun W h => ?_)
  · rfl
  have r := res_binary (τ := τ) (a := main_v63) (b := main_v65) (y := main_v66) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v63 (val_main_v63 (F := F) x0 x3) (memUp% 3 (memAt% 0 : (⟨main_v63, val_main_v63 (F := F) x0 x3⟩ : Fact sig (Elt F)) ∈ facts2 x0 x1 x2 x3))) (h.get' main_v65 (val_main_v65 (F := F) x0 x3) (memAt% 0))
  refine Inv.cons h _ _ main_v66 (val_main_v66 (F := F) x0 x3) rfl (by decide) (r.trans ?_) (fun W h => ?_)
  · rfl
  have r := res_nullary (τ := τ) (W := W) (y := main_c_20) (v := (constantI S_ 32 16#32)) (hy := ⟨by decide, rfl⟩)
  refine Inv.cons h _ _ main_c_20 (val_main_c_20 (F := F)) rfl (by decide) (r.trans ?_) (fun W h => ?_)
  · rfl
  have r := res_unary (τ := τ) (x := main_c_20) (y := main_v67) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_20 (val_main_c_20 (F := F)) (memAt% 0))
  refine Inv.cons h _ _ main_v67 (val_main_v67 (F := F)) rfl (by decide) (r.trans ?_) (fun W h => ?_)
  · rfl
  have r := res_binary (τ := τ) (a := main_v37) (b := main_v67) (y := main_v68) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 6 (up2 x0 x1 x2 x3 (memAt% 11 : (⟨main_v37, val_main_v37 (F := F) x0 x3⟩ : Fact sig (Elt F)) ∈ facts1 x0 x1 x2 x3)))) (h.get' main_v67 (val_main_v67 (F := F)) (memAt% 0))
  refine Inv.cons h _ _ main_v68 (val_main_v68 (F := F) x0 x3) rfl (by decide) (r.trans ?_) (fun W h => ?_)
  · rfl
  have r := res_binary (τ := τ) (a := main_v66) (b := main_v68) (y := main_v69) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v66 (val_main_v66 (F := F) x0 x3) (memAt% 3)) (h.get' main_v68 (val_main_v68 (F := F) x0 x3) (memAt% 0))
  refine Inv.cons h _ _ main_v69 (val_main_v69 (F := F) x0 x3) rfl (by decide) (r.trans ?_) (fun W h => ?_)
  · rfl
  have r := res_nullary (τ := τ) (W := W) (y := main_c_21) (v := (constantI S_ 32 0#32)) (hy := ⟨by decide, rfl⟩)
  refine Inv.cons h _ _ main_c_21 (val_main_c_21 (F := F)) rfl (by decide) (r.trans ?_) (fun W h => ?_)
  · rfl
  have r := res_nullary (τ := τ) (W := W) (y := main_c_22) (v := (constantI S_ 32 15#32)) (hy := ⟨by decide, rfl⟩)
  refine Inv.cons h _ _ main_c_22 (val_main_c_22 (F := F)) rfl (by decide) (r.trans ?_) (fun W h => ?_)
  · rfl
  have r := res_tunary (τ := τ) (TRef.of (T := ⟨S_, .i32⟩) main_c_21) (TRef.of (T := ⟨S_, .i32⟩) main_call0_v0) id (h.tget (TRef.of (T := ⟨S_, .i32⟩) main_c_21) (val_main_c_21 (F := F)) (val_main_c_21 (F := F)) HEq.rfl (memAt% 1))
  refine Inv.cons h _ _ main_call0_v0 (val_main_call0_v0 (F := F)) rfl (by decide) (r.trans (toBuf_of_heq (TRef.of (T := ⟨S_, .i32⟩) main_call0_v0) (w := val_main_call0_v0 (F := F)) ?_)) (fun W h => ?_)
  · exact HEq.rfl
  have r := res_tunary (τ := τ) (TRef.of (T := ⟨S_, .i32⟩) main_call0_v0) (TRef.of (T := ⟨S4x40000, .i32⟩) main_call0_v1) (broadcastInDim S4x40000 ![] bcast_S_S4x40000) (h.tget (TRef.of (T := ⟨S_, .i32⟩) main_call0_v0) (val_main_call0_v0 (F := F)) (val_main_call0_v0 (F := F)) HEq.rfl (memAt% 0))
  refine Inv.cons h _ _ main_call0_v1 (val_main_call0_v1 (F := F)) rfl (by decide) (r.trans (toBuf_of_heq (TRef.of (T := ⟨S4x40000, .i32⟩) main_call0_v1) (w := val_main_call0_v1 (F := F)) ?_)) (fun W h => ?_)
  · exact HEq.rfl
  have r := res_tbinary (τ := τ) (TRef.of (T := ⟨S4x40000, .i32⟩) main_call0_v1) (TRef.of (T := ⟨S4x40000, .i32⟩) main_v37) (TRef.of (T := ⟨S4x40000, .i32⟩) main_call0_v2) maxsi (h.tget (TRef.of (T := ⟨S4x40000, .i32⟩) main_call0_v1) (val_main_call0_v1 (F := F)) (val_main_call0_v1 (F := F)) HEq.rfl (memAt% 0)) (h.tget (TRef.of (T := ⟨S4x40000, .i32⟩) main_v37) (val_main_v37 (F := F) x0 x3) (val_main_v37 (F := F) x0 x3) HEq.rfl (memUp% 12 (up2 x0 x1 x2 x3 (memAt% 11 : (⟨main_v37, val_main_v37 (F := F) x0 x3⟩ : Fact sig (Elt F)) ∈ facts1 x0 x1 x2 x3))))
  refine Inv.cons h _ _ main_call0_v2 (val_main_call0_v2 (F := F) x0 x3) rfl (by decide) (r.trans (toBuf_of_heq (TRef.of (T := ⟨S4x40000, .i32⟩) main_call0_v2) (w := val_main_call0_v2 (F := F) x0 x3) ?_)) (fun W h => ?_)
  · exact HEq.rfl
  have r := res_tunary (τ := τ) (TRef.of (T := ⟨S_, .i32⟩) main_c_22) (TRef.of (T := ⟨S_, .i32⟩) main_call0_v3) id (h.tget (TRef.of (T := ⟨S_, .i32⟩) main_c_22) (val_main_c_22 (F := F)) (val_main_c_22 (F := F)) HEq.rfl (memAt% 3))
  refine Inv.cons h _ _ main_call0_v3 (val_main_call0_v3 (F := F)) rfl (by decide) (r.trans (toBuf_of_heq (TRef.of (T := ⟨S_, .i32⟩) main_call0_v3) (w := val_main_call0_v3 (F := F)) ?_)) (fun W h => ?_)
  · exact HEq.rfl
  have r := res_tunary (τ := τ) (TRef.of (T := ⟨S_, .i32⟩) main_call0_v3) (TRef.of (T := ⟨S4x40000, .i32⟩) main_call0_v4) (broadcastInDim S4x40000 ![] bcast_S_S4x40000) (h.tget (TRef.of (T := ⟨S_, .i32⟩) main_call0_v3) (val_main_call0_v3 (F := F)) (val_main_call0_v3 (F := F)) HEq.rfl (memAt% 0))
  refine Inv.cons h _ _ main_call0_v4 (val_main_call0_v4 (F := F)) rfl (by decide) (r.trans (toBuf_of_heq (TRef.of (T := ⟨S4x40000, .i32⟩) main_call0_v4) (w := val_main_call0_v4 (F := F)) ?_)) (fun W h => ?_)
  · exact HEq.rfl
  have r := res_tbinary (τ := τ) (TRef.of (T := ⟨S4x40000, .i32⟩) main_call0_v4) (TRef.of (T := ⟨S4x40000, .i32⟩) main_call0_v2) (TRef.of (T := ⟨S4x40000, .i32⟩) main_v70) minsi (h.tget (TRef.of (T := ⟨S4x40000, .i32⟩) main_call0_v4) (val_main_call0_v4 (F := F)) (val_main_call0_v4 (F := F)) HEq.rfl (memAt% 0)) (h.tget (TRef.of (T := ⟨S4x40000, .i32⟩) main_call0_v2) (val_main_call0_v2 (F := F) x0 x3) (val_main_call0_v2 (F := F) x0 x3) HEq.rfl (memAt% 2))
  refine Inv.cons h _ _ main_v70 (val_main_v70 (F := F) x0 x3) rfl (by decide) (r.trans (toBuf_of_heq (TRef.of (T := ⟨S4x40000, .i32⟩) main_v70) (w := val_main_v70 (F := F) x0 x3) ?_)) (fun W h => ?_)
  · exact HEq.rfl
  have r := res_nullary (τ := τ) (W := W) (y := main_c_23) (v := (constantI S_ 32 16#32)) (hy := ⟨by decide, rfl⟩)
  refine Inv.cons h _ _ main_c_23 (val_main_c_23 (F := F)) rfl (by decide) (r.trans ?_) (fun W h => ?_)
  · rfl
  have r := res_unary (τ := τ) (x := main_c_23) (y := main_v71) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_23 (val_main_c_23 (F := F)) (memAt% 0))
  refine Inv.cons h _ _ main_v71 (val_main_v71 (F := F)) rfl (by decide) (r.trans ?_) (fun W h => ?_)
  · rfl
  have r := res_binary (τ := τ) (a := main_v70) (b := main_v71) (y := main_v72) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v70 (val_main_v70 (F := F) x0 x3) (memAt% 2)) (h.get' main_v71 (val_main_v71 (F := F)) (memAt% 0))
  refine Inv.cons h _ _ main_v72 (val_main_v72 (F := F) x0 x3) rfl (by decide) (r.trans ?_) (fun W h => ?_)
  · rfl
  have r := res_nullary (τ := τ) (W := W) (y := main_c_24) (v := (constantI S_ 32 0#32)) (hy := ⟨by decide, rfl⟩)
  refine Inv.cons h _ _ main_c_24 (val_main_c_24 (F := F)) rfl (by decide) (r.trans ?_) (fun W h => ?_)
  · rfl
  have r := res_nullary (τ := τ) (W := W) (y := main_c_25) (v := (constantI S_ 32 15#32)) (hy := ⟨by decide, rfl⟩)
  refine Inv.cons h _ _ main_c_25 (val_main_c_25 (F := F)) rfl (by decide) (r.trans ?_) (fun W h => ?_)
  · rfl
  have r := res_tunary (τ := τ) (TRef.of (T := ⟨S_, .i32⟩) main_c_24) (TRef.of (T := ⟨S_, .i32⟩) main_call1_v0) id (h.tget (TRef.of (T := ⟨S_, .i32⟩) main_c_24) (val_main_c_24 (F := F)) (val_main_c_24 (F := F)) HEq.rfl (memAt% 1))
  refine Inv.cons h _ _ main_call1_v0 (val_main_call1_v0 (F := F)) rfl (by decide) (r.trans (toBuf_of_heq (TRef.of (T := ⟨S_, .i32⟩) main_call1_v0) (w := val_main_call1_v0 (F := F)) ?_)) (fun W h => ?_)
  · exact HEq.rfl
  have r := res_tunary (τ := τ) (TRef.of (T := ⟨S_, .i32⟩) main_call1_v0) (TRef.of (T := ⟨S4x40000, .i32⟩) main_call1_v1) (broadcastInDim S4x40000 ![] bcast_S_S4x40000) (h.tget (TRef.of (T := ⟨S_, .i32⟩) main_call1_v0) (val_main_call1_v0 (F := F)) (val_main_call1_v0 (F := F)) HEq.rfl (memAt% 0))
  refine Inv.cons h _ _ main_call1_v1 (val_main_call1_v1 (F := F)) rfl (by decide) (r.trans (toBuf_of_heq (TRef.of (T := ⟨S4x40000, .i32⟩) main_call1_v1) (w := val_main_call1_v1 (F := F)) ?_)) (fun W h => ?_)
  · exact HEq.rfl
  have r := res_tbinary (τ := τ) (TRef.of (T := ⟨S4x40000, .i32⟩) main_call1_v1) (TRef.of (T := ⟨S4x40000, .i32⟩) main_v36) (TRef.of (T := ⟨S4x40000, .i32⟩) main_call1_v2) maxsi (h.tget (TRef.of (T := ⟨S4x40000, .i32⟩) main_call1_v1) (val_main_call1_v1 (F := F)) (val_main_call1_v1 (F := F)) HEq.rfl (memAt% 0)) (h.tget (TRef.of (T := ⟨S4x40000, .i32⟩) main_v36) (val_main_v36 (F := F) x0 x3) (val_main_v36 (F := F) x0 x3) HEq.rfl (memUp% 23 (up2 x0 x1 x2 x3 (memAt% 12 : (⟨main_v36, val_main_v36 (F := F) x0 x3⟩ : Fact sig (Elt F)) ∈ facts1 x0 x1 x2 x3))))
  refine Inv.cons h _ _ main_call1_v2 (val_main_call1_v2 (F := F) x0 x3) rfl (by decide) (r.trans (toBuf_of_heq (TRef.of (T := ⟨S4x40000, .i32⟩) main_call1_v2) (w := val_main_call1_v2 (F := F) x0 x3) ?_)) (fun W h => ?_)
  · exact HEq.rfl
  exact h

/-- Operations 110 … 133 of the line. -/
abbrev seg4 : List (HloOp τ sig (Elt F)) :=
  [ TRef.unary (TRef.of (T := ⟨S_, .i32⟩) main_c_25) (TRef.of (T := ⟨S_, .i32⟩) main_call1_v3) id,
    TRef.unary (TRef.of (T := ⟨S_, .i32⟩) main_call1_v3) (TRef.of (T := ⟨S4x40000, .i32⟩) main_call1_v4) (broadcastInDim S4x40000 ![] bcast_S_S4x40000),
    TRef.binary (TRef.of (T := ⟨S4x40000, .i32⟩) main_call1_v4) (TRef.of (T := ⟨S4x40000, .i32⟩) main_call1_v2) (TRef.of (T := ⟨S4x40000, .i32⟩) main_v73) minsi,
    binary main_v72 main_v73 main_v74 (addi : (⟨S4x40000, .i32⟩ : BufTy).Contents (Elt F) → (⟨S4x40000, .i32⟩ : BufTy).Contents (Elt F) → (⟨S4x40000, .i32⟩ : BufTy).Contents (Elt F)),
    nullary main_c_26 (constantI S_ 32 16#32),
    unary main_c_26 main_v75 (broadcastInDim S4x40000 ![] bcast_S_S4x40000 : (⟨S_, .i32⟩ : BufTy).Contents (Elt F) → (⟨S4x40000, .i32⟩ : BufTy).Contents (Elt F)),
    binary main_v74 main_v75 main_v76 (muli : (⟨S4x40000, .i32⟩ : BufTy).Contents (Elt F) → (⟨S4x40000, .i32⟩ : BufTy).Contents (Elt F) → (⟨S4x40000, .i32⟩ : BufTy).Contents (Elt F)),
    nullary main_c_27 (constantI S_ 32 0#32),
    nullary main_c_28 (constantI S_ 32 15#32),
    TRef.unary (TRef.of (T := ⟨S_, .i32⟩) main_c_27) (TRef.of (T := ⟨S_, .i32⟩) main_call2_v0) id,
    TRef.unary (TRef.of (T := ⟨S_, .i32⟩) main_call2_v0) (TRef.of (T := ⟨S4x40000, .i32⟩) main_call2_v1) (broadcastInDim S4x40000 ![] bcast_S_S4x40000),
    TRef.binary (TRef.of (T := ⟨S4x40000, .i32⟩) main_call2_v1) (TRef.of (T := ⟨S4x40000, .i32⟩) main_v35) (TRef.of (T := ⟨S4x40000, .i32⟩) main_call2_v2) maxsi,
    TRef.unary (TRef.of (T := ⟨S_, .i32⟩) main_c_28) (TRef.of (T := ⟨S_, .i32⟩) main_call2_v3) id,
    TRef.unary (TRef.of (T := ⟨S_, .i32⟩) main_call2_v3) (TRef.of (T := ⟨S4x40000, .i32⟩) main_call2_v4) (broadcastInDim S4x40000 ![] bcast_S_S4x40000),
    TRef.binary (TRef.of (T := ⟨S4x40000, .i32⟩) main_call2_v4) (TRef.of (T := ⟨S4x40000, .i32⟩) main_call2_v2) (TRef.of (T := ⟨S4x40000, .i32⟩) main_v77) minsi,
    binary main_v76 main_v77 main_v78 (addi : (⟨S4x40000, .i32⟩ : BufTy).Contents (Elt F) → (⟨S4x40000, .i32⟩ : BufTy).Contents (Elt F) → (⟨S4x40000, .i32⟩ : BufTy).Contents (Elt F)),
    unary main_v78 main_v79 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4x1x40000, .i32⟩) main_call3_v0) (broadcastInDim S4x1x40000 ![] bcast_S_S4x1x40000),
    TRef.binary (TRef.of (T := ⟨S4x1x40000, .i32⟩) main_v79) (TRef.of (T := ⟨S4x1x40000, .i32⟩) main_call3_v0) (TRef.of (T := ⟨S4x1x40000, .i1⟩) main_call3_v1) (cmpi .slt),
    TRef.nullary (TRef.of (T := ⟨S_, .i32⟩) main_call3_c_0) (constantI S_ 32 4096#32),
    TRef.unary (TRef.of (T := ⟨S_, .i32⟩) main_call3_c_0) (TRef.of (T := ⟨S4x1x40000, .i32⟩) main_call3_v2) (broadcastInDim S4x1x40000 ![] bcast_S_S4x1x40000),
    TRef.binary (TRef.of (T := ⟨S4x1x40000, .i32⟩) main_v79) (TRef.of (T := ⟨S4x1x40000, .i32⟩) main_call3_v2) (TRef.of (T := ⟨S4x1x40000, .i32⟩) main_call3_v3) addi,
    TRef.ternary (TRef.of (T := ⟨S4x1x40000, .i1⟩) main_call3_v1) (TRef.of (T := ⟨S4x1x40000, .i32⟩) main_call3_v3) (TRef.of (T := ⟨S4x1x40000, .i32⟩) main_v79) (TRef.of (T := ⟨S4x1x40000, .i32⟩) main_call3_v4) select ]

/-- The facts after operation 133: each buffer written so far at its stage value. -/
def facts4 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call3_v4, val_main_call3_v4 (F := F) x0 x3⟩ ::
  ⟨main_call3_v3, val_main_call3_v3 (F := F) x0 x3⟩ ::
  ⟨main_call3_v2, val_main_call3_v2 (F := F)⟩ ::
  ⟨main_call3_c_0, val_main_call3_c_0 (F := F)⟩ ::
  ⟨main_call3_v1, val_main_call3_v1 (F := F) x0 x3⟩ ::
  ⟨main_call3_v0, val_main_call3_v0 (F := F)⟩ ::
  ⟨main_call3_c, val_main_call3_c (F := F)⟩ ::
  ⟨main_v79, val_main_v79 (F := F) x0 x3⟩ ::
  ⟨main_v78, val_main_v78 (F := F) x0 x3⟩ ::
  ⟨main_v77, val_main_v77 (F := F) x0 x3⟩ ::
  ⟨main_call2_v4, val_main_call2_v4 (F := F)⟩ ::
  ⟨main_call2_v3, val_main_call2_v3 (F := F)⟩ ::
  ⟨main_call2_v2, val_main_call2_v2 (F := F) x0 x3⟩ ::
  ⟨main_call2_v1, val_main_call2_v1 (F := F)⟩ ::
  ⟨main_call2_v0, val_main_call2_v0 (F := F)⟩ ::
  ⟨main_c_28, val_main_c_28 (F := F)⟩ ::
  ⟨main_c_27, val_main_c_27 (F := F)⟩ ::
  ⟨main_v76, val_main_v76 (F := F) x0 x3⟩ ::
  ⟨main_v75, val_main_v75 (F := F)⟩ ::
  ⟨main_c_26, val_main_c_26 (F := F)⟩ ::
  ⟨main_v74, val_main_v74 (F := F) x0 x3⟩ ::
  ⟨main_v73, val_main_v73 (F := F) x0 x3⟩ ::
  ⟨main_call1_v4, val_main_call1_v4 (F := F)⟩ ::
  ⟨main_call1_v3, val_main_call1_v3 (F := F)⟩ ::
  facts3 x0 x1 x2 x3

theorem up4 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts3 x0 x1 x2 x3) : p ∈ facts4 x0 x1 x2 x3 :=
  memUp% 24 hp

set_option maxRecDepth 8192 in
set_option maxHeartbeats 2000000 in
/-- Operations 110 … 133: each adds the fact of the buffer it writes. -/
theorem run4 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts3 x0 x1 x2 x3) 113) :
    Inv (after seg4 W) (facts4 x0 x1 x2 x3) 137 := by
  have r := res_tunary (τ := τ) (TRef.of (T := ⟨S_, .i32⟩) main_c_25) (TRef.of (T := ⟨S_, .i32⟩) main_call1_v3) id (h.tget (TRef.of (T := ⟨S_, .i32⟩) main_c_25) (val_main_c_25 (F := F)) (val_main_c_25 (F := F)) HEq.rfl (memUp% 0 (memAt% 3 : (⟨main_c_25, val_main_c_25 (F := F)⟩ : Fact sig (Elt F)) ∈ facts3 x0 x1 x2 x3)))
  refine Inv.cons h _ _ main_call1_v3 (val_main_call1_v3 (F := F)) rfl (by decide) (r.trans (toBuf_of_heq (TRef.of (T := ⟨S_, .i32⟩) main_call1_v3) (w := val_main_call1_v3 (F := F)) ?_)) (fun W h => ?_)
  · exact HEq.rfl
  have r := res_tunary (τ := τ) (TRef.of (T := ⟨S_, .i32⟩) main_call1_v3) (TRef.of (T := ⟨S4x40000, .i32⟩) main_call1_v4) (broadcastInDim S4x40000 ![] bcast_S_S4x40000) (h.tget (TRef.of (T := ⟨S_, .i32⟩) main_call1_v3) (val_main_call1_v3 (F := F)) (val_main_call1_v3 (F := F)) HEq.rfl (memAt% 0))
  refine Inv.cons h _ _ main_call1_v4 (val_main_call1_v4 (F := F)) rfl (by decide) (r.trans (toBuf_of_heq (TRef.of (T := ⟨S4x40000, .i32⟩) main_call1_v4) (w := val_main_call1_v4 (F := F)) ?_)) (fun W h => ?_)
  · exact HEq.rfl
  have r := res_tbinary (τ := τ) (TRef.of (T := ⟨S4x40000, .i32⟩) main_call1_v4) (TRef.of (T := ⟨S4x40000, .i32⟩) main_call1_v2) (TRef.of (T := ⟨S4x40000, .i32⟩) main_v73) minsi (h.tget (TRef.of (T := ⟨S4x40000, .i32⟩) main_call1_v4) (val_main_call1_v4 (F := F)) (val_main_call1_v4 (F := F)) HEq.rfl (memAt% 0)) (h.tget (TRef.of (T := ⟨S4x40000, .i32⟩) main_call1_v2) (val_main_call1_v2 (F := F) x0 x3) (val_main_call1_v2 (F := F) x0 x3) HEq.rfl (memUp% 2 (memAt% 0 : (⟨main_call1_v2, val_main_call1_v2 (F := F) x0 x3⟩ : Fact sig (Elt F)) ∈ facts3 x0 x1 x2 x3)))
  refine Inv.cons h _ _ main_v73 (val_main_v73 (F := F) x0 x3) rfl (by decide) (r.trans (toBuf_of_heq (TRef.of (T := ⟨S4x40000, .i32⟩) main_v73) (w := val_main_v73 (F := F) x0 x3) ?_)) (fun W h => ?_)
  · exact HEq.rfl
  have r := res_binary (τ := τ) (a := main_v72) (b := main_v73) (y := main_v74) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v72 (val_main_v72 (F := F) x0 x3) (memUp% 3 (memAt% 5 : (⟨main_v72, val_main_v72 (F := F) x0 x3⟩ : Fact sig (Elt F)) ∈ facts3 x0 x1 x2 x3))) (h.get' main_v73 (val_main_v73 (F := F) x0 x3) (memAt% 0))
  refine Inv.cons h _ _ main_v74 (val_main_v74 (F := F) x0 x3) rfl (by decide) (r.trans ?_) (fun W h => ?_)
  · rfl
  have r := res_nullary (τ := τ) (W := W) (y := main_c_26) (v := (constantI S_ 32 16#32)) (hy := ⟨by decide, rfl⟩)
  refine Inv.cons h _ _ main_c_26 (val_main_c_26 (F := F)) rfl (by decide) (r.trans ?_) (fun W h => ?_)
  · rfl
  have r := res_unary (τ := τ) (x := main_c_26) (y := main_v75) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_26 (val_main_c_26 (F := F)) (memAt% 0))
  refine Inv.cons h _ _ main_v75 (val_main_v75 (F := F)) rfl (by decide) (r.trans ?_) (fun W h => ?_)
  · rfl
  have r := res_binary (τ := τ) (a := main_v74) (b := main_v75) (y := main_v76) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v74 (val_main_v74 (F := F) x0 x3) (memAt% 2)) (h.get' main_v75 (val_main_v75 (F := F)) (memAt% 0))
  refine Inv.cons h _ _ main_v76 (val_main_v76 (F := F) x0 x3) rfl (by decide) (r.trans ?_) (fun W h => ?_)
  · rfl
  have r := res_nullary (τ := τ) (W := W) (y := main_c_27) (v := (constantI S_ 32 0#32)) (hy := ⟨by decide, rfl⟩)
  refine Inv.cons h _ _ main_c_27 (val_main_c_27 (F := F)) rfl (by decide) (r.trans ?_) (fun W h => ?_)
  · rfl
  have r := res_nullary (τ := τ) (W := W) (y := main_c_28) (v := (constantI S_ 32 15#32)) (hy := ⟨by decide, rfl⟩)
  refine Inv.cons h _ _ main_c_28 (val_main_c_28 (F := F)) rfl (by decide) (r.trans ?_) (fun W h => ?_)
  · rfl
  have r := res_tunary (τ := τ) (TRef.of (T := ⟨S_, .i32⟩) main_c_27) (TRef.of (T := ⟨S_, .i32⟩) main_call2_v0) id (h.tget (TRef.of (T := ⟨S_, .i32⟩) main_c_27) (val_main_c_27 (F := F)) (val_main_c_27 (F := F)) HEq.rfl (memAt% 1))
  refine Inv.cons h _ _ main_call2_v0 (val_main_call2_v0 (F := F)) rfl (by decide) (r.trans (toBuf_of_heq (TRef.of (T := ⟨S_, .i32⟩) main_call2_v0) (w := val_main_call2_v0 (F := F)) ?_)) (fun W h => ?_)
  · exact HEq.rfl
  have r := res_tunary (τ := τ) (TRef.of (T := ⟨S_, .i32⟩) main_call2_v0) (TRef.of (T := ⟨S4x40000, .i32⟩) main_call2_v1) (broadcastInDim S4x40000 ![] bcast_S_S4x40000) (h.tget (TRef.of (T := ⟨S_, .i32⟩) main_call2_v0) (val_main_call2_v0 (F := F)) (val_main_call2_v0 (F := F)) HEq.rfl (memAt% 0))
  refine Inv.cons h _ _ main_call2_v1 (val_main_call2_v1 (F := F)) rfl (by decide) (r.trans (toBuf_of_heq (TRef.of (T := ⟨S4x40000, .i32⟩) main_call2_v1) (w := val_main_call2_v1 (F := F)) ?_)) (fun W h => ?_)
  · exact HEq.rfl
  have r := res_tbinary (τ := τ) (TRef.of (T := ⟨S4x40000, .i32⟩) main_call2_v1) (TRef.of (T := ⟨S4x40000, .i32⟩) main_v35) (TRef.of (T := ⟨S4x40000, .i32⟩) main_call2_v2) maxsi (h.tget (TRef.of (T := ⟨S4x40000, .i32⟩) main_call2_v1) (val_main_call2_v1 (F := F)) (val_main_call2_v1 (F := F)) HEq.rfl (memAt% 0)) (h.tget (TRef.of (T := ⟨S4x40000, .i32⟩) main_v35) (val_main_v35 (F := F) x0 x3) (val_main_v35 (F := F) x0 x3) HEq.rfl (memUp% 11 (up3 x0 x1 x2 x3 (up2 x0 x1 x2 x3 (memAt% 13 : (⟨main_v35, val_main_v35 (F := F) x0 x3⟩ : Fact sig (Elt F)) ∈ facts1 x0 x1 x2 x3)))))
  refine Inv.cons h _ _ main_call2_v2 (val_main_call2_v2 (F := F) x0 x3) rfl (by decide) (r.trans (toBuf_of_heq (TRef.of (T := ⟨S4x40000, .i32⟩) main_call2_v2) (w := val_main_call2_v2 (F := F) x0 x3) ?_)) (fun W h => ?_)
  · exact HEq.rfl
  have r := res_tunary (τ := τ) (TRef.of (T := ⟨S_, .i32⟩) main_c_28) (TRef.of (T := ⟨S_, .i32⟩) main_call2_v3) id (h.tget (TRef.of (T := ⟨S_, .i32⟩) main_c_28) (val_main_c_28 (F := F)) (val_main_c_28 (F := F)) HEq.rfl (memAt% 3))
  refine Inv.cons h _ _ main_call2_v3 (val_main_call2_v3 (F := F)) rfl (by decide) (r.trans (toBuf_of_heq (TRef.of (T := ⟨S_, .i32⟩) main_call2_v3) (w := val_main_call2_v3 (F := F)) ?_)) (fun W h => ?_)
  · exact HEq.rfl
  have r := res_tunary (τ := τ) (TRef.of (T := ⟨S_, .i32⟩) main_call2_v3) (TRef.of (T := ⟨S4x40000, .i32⟩) main_call2_v4) (broadcastInDim S4x40000 ![] bcast_S_S4x40000) (h.tget (TRef.of (T := ⟨S_, .i32⟩) main_call2_v3) (val_main_call2_v3 (F := F)) (val_main_call2_v3 (F := F)) HEq.rfl (memAt% 0))
  refine Inv.cons h _ _ main_call2_v4 (val_main_call2_v4 (F := F)) rfl (by decide) (r.trans (toBuf_of_heq (TRef.of (T := ⟨S4x40000, .i32⟩) main_call2_v4) (w := val_main_call2_v4 (F := F)) ?_)) (fun W h => ?_)
  · exact HEq.rfl
  have r := res_tbinary (τ := τ) (TRef.of (T := ⟨S4x40000, .i32⟩) main_call2_v4) (TRef.of (T := ⟨S4x40000, .i32⟩) main_call2_v2) (TRef.of (T := ⟨S4x40000, .i32⟩) main_v77) minsi (h.tget (TRef.of (T := ⟨S4x40000, .i32⟩) main_call2_v4) (val_main_call2_v4 (F := F)) (val_main_call2_v4 (F := F)) HEq.rfl (memAt% 0)) (h.tget (TRef.of (T := ⟨S4x40000, .i32⟩) main_call2_v2) (val_main_call2_v2 (F := F) x0 x3) (val_main_call2_v2 (F := F) x0 x3) HEq.rfl (memAt% 2))
  refine Inv.cons h _ _ main_v77 (val_main_v77 (F := F) x0 x3) rfl (by decide) (r.trans (toBuf_of_heq (TRef.of (T := ⟨S4x40000, .i32⟩) main_v77) (w := val_main_v77 (F := F) x0 x3) ?_)) (fun W h => ?_)
  · exact HEq.rfl
  have r := res_binary (τ := τ) (a := main_v76) (b := main_v77) (y := main_v78) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v76 (val_main_v76 (F := F) x0 x3) (memAt% 8)) (h.get' main_v77 (val_main_v77 (F := F) x0 x3) (memAt% 0))
  refine Inv.cons h _ _ main_v78 (val_main_v78 (F := F) x0 x3) rfl (by decide) (r.trans ?_) (fun W h => ?_)
  · rfl
  have r := res_unary (τ := τ) (x := main_v78) (y := main_v79) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v78 (val_main_v78 (F := F) x0 x3) (memAt% 0))
  refine Inv.cons h _ _ main_v79 (val_main_v79 (F := F) x0 x3) rfl (by decide) (r.trans ?_) (fun W h => ?_)
  · rfl
  have r := res_tnullary (τ := τ) (W := W) (TRef.of (T := ⟨S_, .i32⟩) main_call3_c) (constantI S_ 32 0#32)
  refine Inv.cons h _ _ main_call3_c (val_main_call3_c (F := F)) rfl (by decide) (r.trans (toBuf_of_heq (TRef.of (T := ⟨S_, .i32⟩) main_call3_c) (w := val_main_call3_c (F := F)) ?_)) (fun W h => ?_)
  · exact HEq.rfl
  have r := res_tunary (τ := τ) (TRef.of (T := ⟨S_, .i32⟩) main_call3_c) (TRef.of (T := ⟨S4x1x40000, .i32⟩) main_call3_v0) (broadcastInDim S4x1x40000 ![] bcast_S_S4x1x40000) (h.tget (TRef.of (T := ⟨S_, .i32⟩) main_call3_c) (val_main_call3_c (F := F)) (val_main_call3_c (F := F)) HEq.rfl (memAt% 0))
  refine Inv.cons h _ _ main_call3_v0 (val_main_call3_v0 (F := F)) rfl (by decide) (r.trans (toBuf_of_heq (TRef.of (T := ⟨S4x1x40000, .i32⟩) main_call3_v0) (w := val_main_call3_v0 (F := F)) ?_)) (fun W h => ?_)
  · exact HEq.rfl
  have r := res_tbinary (τ := τ) (TRef.of (T := ⟨S4x1x40000, .i32⟩) main_v79) (TRef.of (T := ⟨S4x1x40000, .i32⟩) main_call3_v0) (TRef.of (T := ⟨S4x1x40000, .i1⟩) main_call3_v1) (cmpi .slt) (h.tget (TRef.of (T := ⟨S4x1x40000, .i32⟩) main_v79) (val_main_v79 (F := F) x0 x3) (val_main_v79 (F := F) x0 x3) HEq.rfl (memAt% 2)) (h.tget (TRef.of (T := ⟨S4x1x40000, .i32⟩) main_call3_v0) (val_main_call3_v0 (F := F)) (val_main_call3_v0 (F := F)) HEq.rfl (memAt% 0))
  refine Inv.cons h _ _ main_call3_v1 (val_main_call3_v1 (F := F) x0 x3) rfl (by decide) (r.trans (toBuf_of_heq (TRef.of (T := ⟨S4x1x40000, .i1⟩) main_call3_v1) (w := val_main_call3_v1 (F := F) x0 x3) ?_)) (fun W h => ?_)
  · exact HEq.rfl
  have r := res_tnullary (τ := τ) (W := W) (TRef.of (T := ⟨S_, .i32⟩) main_call3_c_0) (constantI S_ 32 4096#32)
  refine Inv.cons h _ _ main_call3_c_0 (val_main_call3_c_0 (F := F)) rfl (by decide) (r.trans (toBuf_of_heq (TRef.of (T := ⟨S_, .i32⟩) main_call3_c_0) (w := val_main_call3_c_0 (F := F)) ?_)) (fun W h => ?_)
  · exact HEq.rfl
  have r := res_tunary (τ := τ) (TRef.of (T := ⟨S_, .i32⟩) main_call3_c_0) (TRef.of (T := ⟨S4x1x40000, .i32⟩) main_call3_v2) (broadcastInDim S4x1x40000 ![] bcast_S_S4x1x40000) (h.tget (TRef.of (T := ⟨S_, .i32⟩) main_call3_c_0) (val_main_call3_c_0 (F := F)) (val_main_call3_c_0 (F := F)) HEq.rfl (memAt% 0))
  refine Inv.cons h _ _ main_call3_v2 (val_main_call3_v2 (F := F)) rfl (by decide) (r.trans (toBuf_of_heq (TRef.of (T := ⟨S4x1x40000, .i32⟩) main_call3_v2) (w := val_main_call3_v2 (F := F)) ?_)) (fun W h => ?_)
  · exact HEq.rfl
  have r := res_tbinary (τ := τ) (TRef.of (T := ⟨S4x1x40000, .i32⟩) main_v79) (TRef.of (T := ⟨S4x1x40000, .i32⟩) main_call3_v2) (TRef.of (T := ⟨S4x1x40000, .i32⟩) main_call3_v3) addi (h.tget (TRef.of (T := ⟨S4x1x40000, .i32⟩) main_v79) (val_main_v79 (F := F) x0 x3) (val_main_v79 (F := F) x0 x3) HEq.rfl (memAt% 5)) (h.tget (TRef.of (T := ⟨S4x1x40000, .i32⟩) main_call3_v2) (val_main_call3_v2 (F := F)) (val_main_call3_v2 (F := F)) HEq.rfl (memAt% 0))
  refine Inv.cons h _ _ main_call3_v3 (val_main_call3_v3 (F := F) x0 x3) rfl (by decide) (r.trans (toBuf_of_heq (TRef.of (T := ⟨S4x1x40000, .i32⟩) main_call3_v3) (w := val_main_call3_v3 (F := F) x0 x3) ?_)) (fun W h => ?_)
  · exact HEq.rfl
  have r := res_tternary (τ := τ) (TRef.of (T := ⟨S4x1x40000, .i1⟩) main_call3_v1) (TRef.of (T := ⟨S4x1x40000, .i32⟩) main_call3_v3) (TRef.of (T := ⟨S4x1x40000, .i32⟩) main_v79) (TRef.of (T := ⟨S4x1x40000, .i32⟩) main_call3_v4) select (h.tget (TRef.of (T := ⟨S4x1x40000, .i1⟩) main_call3_v1) (val_main_call3_v1 (F := F) x0 x3) (val_main_call3_v1 (F := F) x0 x3) HEq.rfl (memAt% 3)) (h.tget (TRef.of (T := ⟨S4x1x40000, .i32⟩) main_call3_v3) (val_main_call3_v3 (F := F) x0 x3) (val_main_call3_v3 (F := F) x0 x3) HEq.rfl (memAt% 0)) (h.tget (TRef.of (T := ⟨S4x1x40000, .i32⟩) main_v79) (val_main_v79 (F := F) x0 x3) (val_main_v79 (F := F) x0 x3) HEq.rfl (memAt% 6))
  refine Inv.cons h _ _ main_call3_v4 (val_main_call3_v4 (F := F) x0 x3) rfl (by decide) (r.trans (toBuf_of_heq (TRef.of (T := ⟨S4x1x40000, .i32⟩) main_call3_v4) (w := val_main_call3_v4 (F := F) x0 x3) ?_)) (fun W h => ?_)
  · exact HEq.rfl
  exact h

/-- Operations 134 … 157 of the line. -/
abbrev seg5 : List (HloOp τ sig (Elt F)) :=
  [ TRef.reshape (TRef.of (T := ⟨S4x1x40000, .i32⟩) main_call3_v4) (TRef.of (T := ⟨S4x40000x1, .i32⟩) main_call3_v5) rfl shapeCasts_S4x1x40000_S4x40000x1,
    TRef.nullary (TRef.of (T := ⟨S1, .i32⟩) main_call3_c_1) (constantI S1 32 4095#32),
    TRef.nullary (TRef.of (T := ⟨S_, .i32⟩) main_call3_c_2) (constantI S_ 32 0#32),
    TRef.unary (TRef.of (T := ⟨S_, .i32⟩) main_call3_c_2) (TRef.of (T := ⟨S4x40000x1, .i32⟩) main_call3_v6) (broadcastInDim S4x40000x1 ![] bcast_S_S4x40000x1),
    TRef.binary (TRef.of (T := ⟨S4x40000x1, .i32⟩) main_call3_v5) (TRef.of (T := ⟨S4x40000x1, .i32⟩) main_call3_v6) (TRef.of (T := ⟨S4x40000x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S4x40000x1, .i32⟩) main_call3_v9) (broadcastInDim S4x40000x1 ![0, 1, 2] bcast_S1x1x1_S4x40000x1_0_1_2),
    TRef.binary (TRef.of (T := ⟨S4x40000x1, .i32⟩) main_call3_v5) (TRef.of (T := ⟨S4x40000x1, .i32⟩) main_call3_v9) (TRef.of (T := ⟨S4x40000x1, .i1⟩) main_call3_v10) (cmpi .sle),
    TRef.binary (TRef.of (T := ⟨S4x40000x1, .i1⟩) main_call3_v7) (TRef.of (T := ⟨S4x40000x1, .i1⟩) main_call3_v10) (TRef.of (T := ⟨S4x40000x1, .i1⟩) main_call3_v11) andi,
    TRef.nullary (TRef.of (T := ⟨S_, .i1⟩) main_call3_c_3) (constantI S_ 1 1#1),
    TRef.binary (TRef.of (T := ⟨S4x40000x1, .i1⟩) main_call3_v11) (TRef.of (T := ⟨S_, .i1⟩) main_call3_c_3) (TRef.of (T := ⟨S4x40000, .i1⟩) main_call3_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call3_v5) (TRef.of (T := ⟨S4x128x40000, .f32⟩) main_call3_v13) (fun x i => Host.gather gather_S4x128x4096_S4x40000x1_S4x128x40000_1_2_0_0_2_2_11281 x i),
    TRef.unary (TRef.of (T := ⟨S4x40000, .i1⟩) main_call3_v12) (TRef.of (T := ⟨S4x128x40000, .i1⟩) main_call3_v14) (broadcastInDim S4x128x40000 ![0, 2] bcast_S4x40000_S4x128x40000_0_2),
    TRef.nullary (TRef.of (T := ⟨S_, .f32⟩) main_call3_cst) (constant S_ .f32 0x7FC00000#32),
    TRef.unary (TRef.of (T := ⟨S_, .f32⟩) main_call3_cst) (TRef.of (T := ⟨S4x128x40000, .f32⟩) main_call3_v15) (broadcastInDim S4x128x40000 ![] bcast_S_S4x128x40000),
    TRef.ternary (TRef.of (T := ⟨S4x128x40000, .i1⟩) main_call3_v14) (TRef.of (T := ⟨S4x128x40000, .f32⟩) main_call3_v13) (TRef.of (T := ⟨S4x128x40000, .f32⟩) main_call3_v15) (TRef.of (T := ⟨S4x128x40000, .f32⟩) main_v80) select,
    unary main_v69 main_v81 (uitofp .f32 : (⟨S4x40000, .i1⟩ : BufTy).Contents (Elt F) → (⟨S4x40000, .f32⟩ : BufTy).Contents (Elt F)),
    binary main_v52 main_v81 main_v82 (mulf : (⟨S4x40000, .f32⟩ : BufTy).Contents (Elt F) → (⟨S4x40000, .f32⟩ : BufTy).Contents (Elt F) → (⟨S4x40000, .f32⟩ : BufTy).Contents (Elt F)),
    unary main_v82 main_v83 (broadcastInDim S4x1x40000 ![0, 2] bcast_S4x40000_S4x1x40000_0_2 : (⟨S4x40000, .f32⟩ : BufTy).Contents (Elt F) → (⟨S4x1x40000, .f32⟩ : BufTy).Contents (Elt F)),
    unary main_v83 main_v84 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v80 main_v84 main_v85 (mulf : (⟨S4x128x40000, .f32⟩ : BufTy).Contents (Elt F) → (⟨S4x128x40000, .f32⟩ : BufTy).Contents (Elt F) → (⟨S4x128x40000, .f32⟩ : BufTy).Contents (Elt F)),
    nullary main_cst_29 (constant S_ .f32 0x3F800000#32),
    unary main_cst_29 main_v86 (broadcastInDim S4x40000 ![] bcast_S_S4x40000 : (⟨S_, .f32⟩ : BufTy).Contents (Elt F) → (⟨S4x40000, .f32⟩ : BufTy).Contents (Elt F)),
    binary main_v86 main_v33 main_v87 (subf : (⟨S4x40000, .f32⟩ : BufTy).Contents (Elt F) → (⟨S4x40000, .f32⟩ : BufTy).Contents (Elt F) → (⟨S4x40000, .f32⟩ : BufTy).Contents (Elt F)) ]

/-- The facts after operation 157: each buffer written so far at its stage value. -/
def facts5 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v87, val_main_v87 (F := F) x0 x3⟩ ::
  ⟨main_v86, val_main_v86 (F := F)⟩ ::
  ⟨main_cst_29, val_main_cst_29 (F := F)⟩ ::
  ⟨main_v85, val_main_v85 (F := F) x0 x2 x3⟩ ::
  ⟨main_v84, val_main_v84 (F := F) x0 x3⟩ ::
  ⟨main_v83, val_main_v83 (F := F) x0 x3⟩ ::
  ⟨main_v82, val_main_v82 (F := F) x0 x3⟩ ::
  ⟨main_v81, val_main_v81 (F := F) x0 x3⟩ ::
  ⟨main_v80, val_main_v80 (F := F) x0 x2 x3⟩ ::
  ⟨main_call3_v15, val_main_call3_v15 (F := F)⟩ ::
  ⟨main_call3_cst, val_main_call3_cst (F := F)⟩ ::
  ⟨main_call3_v14, val_main_call3_v14 (F := F) x0 x3⟩ ::
  ⟨main_call3_v13, val_main_call3_v13 (F := F) x0 x2 x3⟩ ::
  ⟨main_call3_v12, val_main_call3_v12 (F := F) x0 x3⟩ ::
  ⟨main_call3_c_3, val_main_call3_c_3 (F := F)⟩ ::
  ⟨main_call3_v11, val_main_call3_v11 (F := F) x0 x3⟩ ::
  ⟨main_call3_v10, val_main_call3_v10 (F := F) x0 x3⟩ ::
  ⟨main_call3_v9, val_main_call3_v9 (F := F)⟩ ::
  ⟨main_call3_v8, val_main_call3_v8 (F := F)⟩ ::
  ⟨main_call3_v7, val_main_call3_v7 (F := F) x0 x3⟩ ::
  ⟨main_call3_v6, val_main_call3_v6 (F := F)⟩ ::
  ⟨main_call3_c_2, val_main_call3_c_2 (F := F)⟩ ::
  ⟨main_call3_c_1, val_main_call3_c_1 (F := F)⟩ ::
  ⟨main_call3_v5, val_main_call3_v5 (F := F) x0 x3⟩ ::
  facts4 x0 x1 x2 x3

theorem up5 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts4 x0 x1 x2 x3) : p ∈ facts5 x0 x1 x2 x3 :=
  memUp% 24 hp

set_option maxRecDepth 8192 in
set_option maxHeartbeats 2000000 in
/-- Operations 134 … 157: each adds the fact of the buffer it writes. -/
theorem run5 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts4 x0 x1 x2 x3) 137) :
    Inv (after seg5 W) (facts5 x0 x1 x2 x3) 161 := by
  have r := res_treshape (τ := τ) (TRef.of (T := ⟨S4x1x40000, .i32⟩) main_call3_v4) (TRef.of (T := ⟨S4x40000x1, .i32⟩) main_call3_v5) rfl shapeCasts_S4x1x40000_S4x40000x1 (h.tget (TRef.of (T := ⟨S4x1x40000, .i32⟩) main_call3_v4) (val_main_call3_v4 (F := F) x0 x3) (val_main_call3_v4 (F := F) x0 x3) HEq.rfl (memUp% 0 (memAt% 0 : (⟨main_call3_v4, val_main_call3_v4 (F := F) x0 x3⟩ : Fact sig (Elt F)) ∈ facts4 x0 x1 x2 x3)))
  refine Inv.cons h _ _ main_call3_v5 (val_main_call3_v5 (F := F) x0 x3) rfl (by decide) (r.trans (toBuf_of_heq (TRef.of (T := ⟨S4x40000x1, .i32⟩) main_call3_v5) (w := val_main_call3_v5 (F := F) x0 x3) ?_)) (fun W h => ?_)
  · exact HEq.rfl
  have r := res_tnullary (τ := τ) (W := W) (TRef.of (T := ⟨S1, .i32⟩) main_call3_c_1) (constantI S1 32 4095#32)
  refine Inv.cons h _ _ main_call3_c_1 (val_main_call3_c_1 (F := F)) rfl (by decide) (r.trans (toBuf_of_heq (TRef.of (T := ⟨S1, .i32⟩) main_call3_c_1) (w := val_main_call3_c_1 (F := F)) ?_)) (fun W h => ?_)
  · exact HEq.rfl
  have r := res_tnullary (τ := τ) (W := W) (TRef.of (T := ⟨S_, .i32⟩) main_call3_c_2) (constantI S_ 32 0#32)
  refine Inv.cons h _ _ main_call3_c_2 (val_main_call3_c_2 (F := F)) rfl (by decide) (r.trans (toBuf_of_heq (TRef.of (T := ⟨S_, .i32⟩) main_call3_c_2) (w := val_main_call3_c_2 (F := F)) ?_)) (fun W h => ?_)
  · exact HEq.rfl
  have r := res_tunary (τ := τ) (TRef.of (T := ⟨S_, .i32⟩) main_call3_c_2) (TRef.of (T := ⟨S4x40000x1, .i32⟩) main_call3_v6) (broadcastInDim S4x40000x1 ![] bcast_S_S4x40000x1) (h.tget (TRef.of (T := ⟨S_, .i32⟩) main_call3_c_2) (val_main_call3_c_2 (F := F)) (val_main_call3_c_2 (F := F)) HEq.rfl (memAt% 0))
  refine Inv.cons h _ _ main_call3_v6 (val_main_call3_v6 (F := F)) rfl (by decide) (r.trans (toBuf_of_heq (TRef.of (T := ⟨S4x40000x1, .i32⟩) main_call3_v6) (w := val_main_call3_v6 (F := F)) ?_)) (fun W h => ?_)
  · exact HEq.rfl
  have r := res_tbinary (τ := τ) (TRef.of (T := ⟨S4x40000x1, .i32⟩) main_call3_v5) (TRef.of (T := ⟨S4x40000x1, .i32⟩) main_call3_v6) (TRef.of (T := ⟨S4x40000x1, .i1⟩) main_call3_v7) (cmpi .sge) (h.tget (TRef.of (T := ⟨S4x40000x1, .i32⟩) main_call3_v5) (val_main_call3_v5 (F := F) x0 x3) (val_main_call3_v5 (F := F) x0 x3) HEq.rfl (memAt% 3)) (h.tget (TRef.of (T := ⟨S4x40000x1, .i32⟩) main_call3_v6) (val_main_call3_v6 (F := F)) (val_main_call3_v6 (F := F)) HEq.rfl (memAt% 0))
  refine Inv.cons h _ _ main_call3_v7 (val_main_call3_v7 (F := F) x0 x3) rfl (by decide) (r.trans (toBuf_of_heq (TRef.of (T := ⟨S4x40000x1, .i1⟩) main_call3_v7) (w := val_main_call3_v7 (F := F) x0 x3) ?_)) (fun W h => ?_)
  · exact HEq.rfl
  have r := res_tunary (τ := τ) (TRef.of (T := ⟨S1, .i32⟩) main_call3_c_1) (TRef.of (T := ⟨S1x1x1, .i32⟩) main_call3_v8) (broadcastInDim S1x1x1 ![2] bcast_S1_S1x1x1_2) (h.tget (TRef.of (T := ⟨S1, .i32⟩) main_call3_c_1) (val_main_call3_c_1 (F := F)) (val_main_call3_c_1 (F := F)) HEq.rfl (memAt% 3))
  refine Inv.cons h _ _ main_call3_v8 (val_main_call3_v8 (F := F)) rfl (by decide) (r.trans (toBuf_of_heq (TRef.of (T := ⟨S1x1x1, .i32⟩) main_call3_v8) (w := val_main_call3_v8 (F := F)) ?_)) (fun W h => ?_)
  · exact HEq.rfl
  have r := res_tunary (τ := τ) (TRef.of (T := ⟨S1x1x1, .i32⟩) main_call3_v8) (TRef.of (T := ⟨S4x40000x1, .i32⟩) main_call3_v9) (broadcastInDim S4x40000x1 ![0, 1, 2] bcast_S1x1x1_S4x40000x1_0_1_2) (h.tget (TRef.of (T := ⟨S1x1x1, .i32⟩) main_call3_v8) (val_main_call3_v8 (F := F)) (val_main_call3_v8 (F := F)) HEq.rfl (memAt% 0))
  refine Inv.cons h _ _ main_call3_v9 (val_main_call3_v9 (F := F)) rfl (by decide) (r.trans (toBuf_of_heq (TRef.of (T := ⟨S4x40000x1, .i32⟩) main_call3_v9) (w := val_main_call3_v9 (F := F)) ?_)) (fun W h => ?_)
  · exact HEq.rfl
  have r := res_tbinary (τ := τ) (TRef.of (T := ⟨S4x40000x1, .i32⟩) main_call3_v5) (TRef.of (T := ⟨S4x40000x1, .i32⟩) main_call3_v9) (TRef.of (T := ⟨S4x40000x1, .i1⟩) main_call3_v10) (cmpi .sle) (h.tget (TRef.of (T := ⟨S4x40000x1, .i32⟩) main_call3_v5) (val_main_call3_v5 (F := F) x0 x3) (val_main_call3_v5 (F := F) x0 x3) HEq.rfl (memAt% 6)) (h.tget (TRef.of (T := ⟨S4x40000x1, .i32⟩) main_call3_v9) (val_main_call3_v9 (F := F)) (val_main_call3_v9 (F := F)) HEq.rfl (memAt% 0))
  refine Inv.cons h _ _ main_call3_v10 (val_main_call3_v10 (F := F) x0 x3) rfl (by decide) (r.trans (toBuf_of_heq (TRef.of (T := ⟨S4x40000x1, .i1⟩) main_call3_v10) (w := val_main_call3_v10 (F := F) x0 x3) ?_)) (fun W h => ?_)
  · exact HEq.rfl
  have r := res_tbinary (τ := τ) (TRef.of (T := ⟨S4x40000x1, .i1⟩) main_call3_v7) (TRef.of (T := ⟨S4x40000x1, .i1⟩) main_call3_v10) (TRef.of (T := ⟨S4x40000x1, .i1⟩) main_call3_v11) andi (h.tget (TRef.of (T := ⟨S4x40000x1, .i1⟩) main_call3_v7) (val_main_call3_v7 (F := F) x0 x3) (val_main_call3_v7 (F := F) x0 x3) HEq.rfl (memAt% 3)) (h.tget (TRef.of (T := ⟨S4x40000x1, .i1⟩) main_call3_v10) (val_main_call3_v10 (F := F) x0 x3) (val_main_call3_v10 (F := F) x0 x3) HEq.rfl (memAt% 0))
  refine Inv.cons h _ _ main_call3_v11 (val_main_call3_v11 (F := F) x0 x3) rfl (by decide) (r.trans (toBuf_of_heq (TRef.of (T := ⟨S4x40000x1, .i1⟩) main_call3_v11) (w := val_main_call3_v11 (F := F) x0 x3) ?_)) (fun W h => ?_)
  · exact HEq.rfl
  have r := res_tnullary (τ := τ) (W := W) (TRef.of (T := ⟨S_, .i1⟩) main_call3_c_3) (constantI S_ 1 1#1)
  refine Inv.cons h _ _ main_call3_c_3 (val_main_call3_c_3 (F := F)) rfl (by decide) (r.trans (toBuf_of_heq (TRef.of (T := ⟨S_, .i1⟩) main_call3_c_3) (w := val_main_call3_c_3 (F := F)) ?_)) (fun W h => ?_)
  · exact HEq.rfl
  have r := res_tbinary (τ := τ) (TRef.of (T := ⟨S4x40000x1, .i1⟩) main_call3_v11) (TRef.of (T := ⟨S_, .i1⟩) main_call3_c_3) (TRef.of (T := ⟨S4x40000, .i1⟩) main_call3_v12) (fun x v => Host.reduce IntOp.andi x v reducesTo_S4x40000x1_S4x40000_d2 h_S_) (h.tget (TRef.of (T := ⟨S4x40000x1, .i1⟩) main_call3_v11) (val_main_call3_v11 (F := F) x0 x3) (val_main_call3_v11 (F := F) x0 x3) HEq.rfl (memAt% 1)) (h.tget (TRef.of (T := ⟨S_, .i1⟩) main_call3_c_3) (val_main_call3_c_3 (F := F)) (val_main_call3_c_3 (F := F)) HEq.rfl (memAt% 0))
  refine Inv.cons h _ _ main_call3_v12 (val_main_call3_v12 (F := F) x0 x3) rfl (by decide) (r.trans (toBuf_of_heq (TRef.of (T := ⟨S4x40000, .i1⟩) main_call3_v12) (w := val_main_call3_v12 (F := F) x0 x3) ?_)) (fun W h => ?_)
  · exact HEq.rfl
  have r := res_tbinary (τ := τ) (TRef.of (T := ⟨S4x128x4096, .f32⟩) main_v44) (TRef.of (T := ⟨S4x40000x1, .i32⟩) main_call3_v5) (TRef.of (T := ⟨S4x128x40000, .f32⟩) main_call3_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 11 (up4 x0 x1 x2 x3 (up3 x0 x1 x2 x3 (up2 x0 x1 x2 x3 (memAt% 1 : (⟨main_v44, val_main_v44 (F := F) x2⟩ : Fact sig (Elt F)) ∈ facts1 x0 x1 x2 x3)))))) (h.tget (TRef.of (T := ⟨S4x40000x1, .i32⟩) main_call3_v5) (val_main_call3_v5 (F := F) x0 x3) (val_main_call3_v5 (F := F) x0 x3) HEq.rfl (memAt% 10))
  refine Inv.cons h _ _ main_call3_v13 (val_main_call3_v13 (F := F) x0 x2 x3) rfl (by decide) (r.trans (toBuf_of_heq (TRef.of (T := ⟨S4x128x40000, .f32⟩) main_call3_v13) (w := val_main_call3_v13 (F := F) x0 x2 x3) ?_)) (fun W h => ?_)
  · exact HEq.rfl
  have r := res_tunary (τ := τ) (TRef.of (T := ⟨S4x40000, .i1⟩) main_call3_v12) (TRef.of (T := ⟨S4x128x40000, .i1⟩) main_call3_v14) (broadcastInDim S4x128x40000 ![0, 2] bcast_S4x40000_S4x128x40000_0_2) (h.tget (TRef.of (T := ⟨S4x40000, .i1⟩) main_call3_v12) (val_main_call3_v12 (F := F) x0 x3) (val_main_call3_v12 (F := F) x0 x3) HEq.rfl (memAt% 1))
  refine Inv.cons h _ _ main_call3_v14 (val_main_call3_v14 (F := F) x0 x3) rfl (by decide) (r.trans (toBuf_of_heq (TRef.of (T := ⟨S4x128x40000, .i1⟩) main_call3_v14) (w := val_main_call3_v14 (F := F) x0 x3) ?_)) (fun W h => ?_)
  · exact HEq.rfl
  have r := res_tnullary (τ := τ) (W := W) (TRef.of (T := ⟨S_, .f32⟩) main_call3_cst) (constant S_ .f32 0x7FC00000#32)
  refine Inv.cons h _ _ main_call3_cst (val_main_call3_cst (F := F)) rfl (by decide) (r.trans (toBuf_of_heq (TRef.of (T := ⟨S_, .f32⟩) main_call3_cst) (w := val_main_call3_cst (F := F)) ?_)) (fun W h => ?_)
  · exact HEq.rfl
  have r := res_tunary (τ := τ) (TRef.of (T := ⟨S_, .f32⟩) main_call3_cst) (TRef.of (T := ⟨S4x128x40000, .f32⟩) main_call3_v15) (broadcastInDim S4x128x40000 ![] bcast_S_S4x128x40000) (h.tget (TRef.of (T := ⟨S_, .f32⟩) main_call3_cst) (val_main_call3_cst (F := F)) (val_main_call3_cst (F := F)) HEq.rfl (memAt% 0))
  refine Inv.cons h _ _ main_call3_v15 (val_main_call3_v15 (F := F)) rfl (by decide) (r.trans (toBuf_of_heq (TRef.of (T := ⟨S4x128x40000, .f32⟩) main_call3_v15) (w := val_main_call3_v15 (F := F)) ?_)) (fun W h => ?_)
  · exact HEq.rfl
  have r := res_tternary (τ := τ) (TRef.of (T := ⟨S4x128x40000, .i1⟩) main_call3_v14) (TRef.of (T := ⟨S4x128x40000, .f32⟩) main_call3_v13) (TRef.of (T := ⟨S4x128x40000, .f32⟩) main_call3_v15) (TRef.of (T := ⟨S4x128x40000, .f32⟩) main_v80) select (h.tget (TRef.of (T := ⟨S4x128x40000, .i1⟩) main_call3_v14) (val_main_call3_v14 (F := F) x0 x3) (val_main_call3_v14 (F := F) x0 x3) HEq.rfl (memAt% 2)) (h.tget (TRef.of (T := ⟨S4x128x40000, .f32⟩) main_call3_v13) (val_main_call3_v13 (F := F) x0 x2 x3) (val_main_call3_v13 (F := F) x0 x2 x3) HEq.rfl (memAt% 3)) (h.tget (TRef.of (T := ⟨S4x128x40000, .f32⟩) main_call3_v15) (val_main_call3_v15 (F := F)) (val_main_call3_v15 (F := F)) HEq.rfl (memAt% 0))
  refine Inv.cons h _ _ main_v80 (val_main_v80 (F := F) x0 x2 x3) rfl (by decide) (r.trans (toBuf_of_heq (TRef.of (T := ⟨S4x128x40000, .f32⟩) main_v80) (w := val_main_v80 (F := F) x0 x2 x3) ?_)) (fun W h => ?_)
  · exact HEq.rfl
  have r := res_unary (τ := τ) (x := main_v69) (y := main_v81) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v69 (val_main_v69 (F := F) x0 x3) (memUp% 16 (up4 x0 x1 x2 x3 (memAt% 16 : (⟨main_v69, val_main_v69 (F := F) x0 x3⟩ : Fact sig (Elt F)) ∈ facts3 x0 x1 x2 x3))))
  refine Inv.cons h _ _ main_v81 (val_main_v81 (F := F) x0 x3) rfl (by decide) (r.trans ?_) (fun W h => ?_)
  · rfl
  have r := res_binary (τ := τ) (a := main_v52) (b := main_v81) (y := main_v82) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v52 (val_main_v52 (F := F) x0 x3) (memUp% 17 (up4 x0 x1 x2 x3 (up3 x0 x1 x2 x3 (memAt% 15 : (⟨main_v52, val_main_v52 (F := F) x0 x3⟩ : Fact sig (Elt F)) ∈ facts2 x0 x1 x2 x3))))) (h.get' main_v81 (val_main_v81 (F := F) x0 x3) (memAt% 0))
  refine Inv.cons h _ _ main_v82 (val_main_v82 (F := F) x0 x3) rfl (by decide) (r.trans ?_) (fun W h => ?_)
  · rfl
  have r := res_unary (τ := τ) (x := main_v82) (y := main_v83) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v82 (val_main_v82 (F := F) x0 x3) (memAt% 0))
  refine Inv.cons h _ _ main_v83 (val_main_v83 (F := F) x0 x3) rfl (by decide) (r.trans ?_) (fun W h => ?_)
  · rfl
  have r := res_unary (τ := τ) (x := main_v83) (y := main_v84) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v83 (val_main_v83 (F := F) x0 x3) (memAt% 0))
  refine Inv.cons h _ _ main_v84 (val_main_v84 (F := F) x0 x3) rfl (by decide) (r.trans ?_) (fun W h => ?_)
  · rfl
  have r := res_binary (τ := τ) (a := main_v80) (b := main_v84) (y := main_v85) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v80 (val_main_v80 (F := F) x0 x2 x3) (memAt% 4)) (h.get' main_v84 (val_main_v84 (F := F) x0 x3) (memAt% 0))
  refine Inv.cons h _ _ main_v85 (val_main_v85 (F := F) x0 x2 x3) rfl (by decide) (r.trans ?_) (fun W h => ?_)
  · rfl
  have r := res_nullary (τ := τ) (W := W) (y := main_cst_29) (v := (constant S_ .f32 0x3F800000#32)) (hy := ⟨by decide, rfl⟩)
  refine Inv.cons h _ _ main_cst_29 (val_main_cst_29 (F := F)) rfl (by decide) (r.trans ?_) (fun W h => ?_)
  · rfl
  have r := res_unary (τ := τ) (x := main_cst_29) (y := main_v86) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_29 (val_main_cst_29 (F := F)) (memAt% 0))
  refine Inv.cons h _ _ main_v86 (val_main_v86 (F := F)) rfl (by decide) (r.trans ?_) (fun W h => ?_)
  · rfl
  have r := res_binary (τ := τ) (a := main_v86) (b := main_v33) (y := main_v87) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v86 (val_main_v86 (F := F)) (memAt% 0)) (h.get' main_v33 (val_main_v33 (F := F) x0 x3) (memUp% 23 (up4 x0 x1 x2 x3 (up3 x0 x1 x2 x3 (up2 x0 x1 x2 x3 (memAt% 15 : (⟨main_v33, val_main_v33 (F := F) x0 x3⟩ : Fact sig (Elt F)) ∈ facts1 x0 x1 x2 x3))))))
  refine Inv.cons h _ _ main_v87 (val_main_v87 (F := F) x0 x3) rfl (by decide) (r.trans ?_) (fun W h => ?_)
  · rfl
  exact h

/-- Operations 158 … 182 of the line. -/
abbrev seg6 : List (HloOp τ sig (Elt F)) :=
  [ binary main_v32 main_v87 main_v88 (mulf : (⟨S4x40000, .f32⟩ : BufTy).Contents (Elt F) → (⟨S4x40000, .f32⟩ : BufTy).Contents (Elt F) → (⟨S4x40000, .f32⟩ : BufTy).Contents (Elt F)),
    nullary main_cst_30 (constant S_ .f32 0x3F800000#32),
    unary main_cst_30 main_v89 (broadcastInDim S4x40000 ![] bcast_S_S4x40000 : (⟨S_, .f32⟩ : BufTy).Contents (Elt F) → (⟨S4x40000, .f32⟩ : BufTy).Contents (Elt F)),
    binary main_v89 main_v34 main_v90 (subf : (⟨S4x40000, .f32⟩ : BufTy).Contents (Elt F) → (⟨S4x40000, .f32⟩ : BufTy).Contents (Elt F) → (⟨S4x40000, .f32⟩ : BufTy).Contents (Elt F)),
    binary main_v88 main_v90 main_v91 (mulf : (⟨S4x40000, .f32⟩ : BufTy).Contents (Elt F) → (⟨S4x40000, .f32⟩ : BufTy).Contents (Elt F) → (⟨S4x40000, .f32⟩ : BufTy).Contents (Elt F)),
    nullary main_c_31 (constantI S_ 32 0#32),
    unary main_c_31 main_v92 (broadcastInDim S4x40000 ![] bcast_S_S4x40000 : (⟨S_, .i32⟩ : BufTy).Contents (Elt F) → (⟨S4x40000, .i32⟩ : BufTy).Contents (Elt F)),
    binary main_v39 main_v92 main_v93 (cmpi .sge : (⟨S4x40000, .i32⟩ : BufTy).Contents (Elt F) → (⟨S4x40000, .i32⟩ : BufTy).Contents (Elt F) → (⟨S4x40000, .i1⟩ : BufTy).Contents (Elt F)),
    nullary main_c_32 (constantI S_ 32 16#32),
    unary main_c_32 main_v94 (broadcastInDim S4x40000 ![] bcast_S_S4x40000 : (⟨S_, .i32⟩ : BufTy).Contents (Elt F) → (⟨S4x40000, .i32⟩ : BufTy).Contents (Elt F)),
    binary main_v39 main_v94 main_v95 (cmpi .slt : (⟨S4x40000, .i32⟩ : BufTy).Contents (Elt F) → (⟨S4x40000, .i32⟩ : BufTy).Contents (Elt F) → (⟨S4x40000, .i1⟩ : BufTy).Contents (Elt F)),
    binary main_v93 main_v95 main_v96 (andi : (⟨S4x40000, .i1⟩ : BufTy).Contents (Elt F) → (⟨S4x40000, .i1⟩ : BufTy).Contents (Elt F) → (⟨S4x40000, .i1⟩ : BufTy).Contents (Elt F)),
    nullary main_c_33 (constantI S_ 32 0#32),
    unary main_c_33 main_v97 (broadcastInDim S4x40000 ![] bcast_S_S4x40000 : (⟨S_, .i32⟩ : BufTy).Contents (Elt F) → (⟨S4x40000, .i32⟩ : BufTy).Contents (Elt F)),
    binary main_v36 main_v97 main_v98 (cmpi .sge : (⟨S4x40000, .i32⟩ : BufTy).Contents (Elt F) → (⟨S4x40000, .i32⟩ : BufTy).Contents (Elt F) → (⟨S4x40000, .i1⟩ : BufTy).Contents (Elt F)),
    binary main_v96 main_v98 main_v99 (andi : (⟨S4x40000, .i1⟩ : BufTy).Contents (Elt F) → (⟨S4x40000, .i1⟩ : BufTy).Contents (Elt F) → (⟨S4x40000, .i1⟩ : BufTy).Contents (Elt F)),
    nullary main_c_34 (constantI S_ 32 16#32),
    unary main_c_34 main_v100 (broadcastInDim S4x40000 ![] bcast_S_S4x40000 : (⟨S_, .i32⟩ : BufTy).Contents (Elt F) → (⟨S4x40000, .i32⟩ : BufTy).Contents (Elt F)),
    binary main_v36 main_v100 main_v101 (cmpi .slt : (⟨S4x40000, .i32⟩ : BufTy).Contents (Elt F) → (⟨S4x40000, .i32⟩ : BufTy).Contents (Elt F) → (⟨S4x40000, .i1⟩ : BufTy).Contents (Elt F)),
    binary main_v99 main_v101 main_v102 (andi : (⟨S4x40000, .i1⟩ : BufTy).Contents (Elt F) → (⟨S4x40000, .i1⟩ : BufTy).Contents (Elt F) → (⟨S4x40000, .i1⟩ : BufTy).Contents (Elt F)),
    nullary main_c_35 (constantI S_ 32 0#32),
    unary main_c_35 main_v103 (broadcastInDim S4x40000 ![] bcast_S_S4x40000 : (⟨S_, .i32⟩ : BufTy).Contents (Elt F) → (⟨S4x40000, .i32⟩ : BufTy).Contents (Elt F)),
    binary main_v37 main_v103 main_v104 (cmpi .sge : (⟨S4x40000, .i32⟩ : BufTy).Contents (Elt F) → (⟨S4x40000, .i32⟩ : BufTy).Contents (Elt F) → (⟨S4x40000, .i1⟩ : BufTy).Contents (Elt F)),
    binary main_v102 main_v104 main_v105 (andi : (⟨S4x40000, .i1⟩ : BufTy).Contents (Elt F) → (⟨S4x40000, .i1⟩ : BufTy).Contents (Elt F) → (⟨S4x40000, .i1⟩ : BufTy).Contents (Elt F)),
    nullary main_c_36 (constantI S_ 32 16#32) ]

/-- The facts after operation 182: each buffer written so far at its stage value. -/
def facts6 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_36, val_main_c_36 (F := F)⟩ ::
  ⟨main_v105, val_main_v105 (F := F) x0 x3⟩ ::
  ⟨main_v104, val_main_v104 (F := F) x0 x3⟩ ::
  ⟨main_v103, val_main_v103 (F := F)⟩ ::
  ⟨main_c_35, val_main_c_35 (F := F)⟩ ::
  ⟨main_v102, val_main_v102 (F := F) x0 x3⟩ ::
  ⟨main_v101, val_main_v101 (F := F) x0 x3⟩ ::
  ⟨main_v100, val_main_v100 (F := F)⟩ ::
  ⟨main_c_34, val_main_c_34 (F := F)⟩ ::
  ⟨main_v99, val_main_v99 (F := F) x0 x3⟩ ::
  ⟨main_v98, val_main_v98 (F := F) x0 x3⟩ ::
  ⟨main_v97, val_main_v97 (F := F)⟩ ::
  ⟨main_c_33, val_main_c_33 (F := F)⟩ ::
  ⟨main_v96, val_main_v96 (F := F) x0 x3⟩ ::
  ⟨main_v95, val_main_v95 (F := F) x0 x3⟩ ::
  ⟨main_v94, val_main_v94 (F := F)⟩ ::
  ⟨main_c_32, val_main_c_32 (F := F)⟩ ::
  ⟨main_v93, val_main_v93 (F := F) x0 x3⟩ ::
  ⟨main_v92, val_main_v92 (F := F)⟩ ::
  ⟨main_c_31, val_main_c_31 (F := F)⟩ ::
  ⟨main_v91, val_main_v91 (F := F) x0 x3⟩ ::
  ⟨main_v90, val_main_v90 (F := F) x0 x3⟩ ::
  ⟨main_v89, val_main_v89 (F := F)⟩ ::
  ⟨main_cst_30, val_main_cst_30 (F := F)⟩ ::
  ⟨main_v88, val_main_v88 (F := F) x0 x3⟩ ::
  facts5 x0 x1 x2 x3

theorem up6 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts5 x0 x1 x2 x3) : p ∈ facts6 x0 x1 x2 x3 :=
  memUp% 25 hp

set_option maxRecDepth 8192 in
set_option maxHeartbeats 2000000 in
/-- Operations 158 … 182: each adds the fact of the buffer it writes. -/
theorem run6 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts5 x0 x1 x2 x3) 161) :
    Inv (after seg6 W) (facts6 x0 x1 x2 x3) 186 := by
  have r := res_binary (τ := τ) (a := main_v32) (b := main_v87) (y := main_v88) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v32 (val_main_v32 (F := F) x0 x3) (memUp% 0 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3))))))) (h.get' main_v87 (val_main_v87 (F := F) x0 x3) (memUp% 0 (memAt% 0 : (⟨main_v87, val_main_v87 (F := F) x0 x3⟩ : Fact sig (Elt F)) ∈ facts5 x0 x1 x2 x3)))
  refine Inv.cons h _ _ main_v88 (val_main_v88 (F := F) x0 x3) rfl (by decide) (r.trans ?_) (fun W h => ?_)
  · rfl
  have r := res_nullary (τ := τ) (W := W) (y := main_cst_30) (v := (constant S_ .f32 0x3F800000#32)) (hy := ⟨by decide, rfl⟩)
  refine Inv.cons h _ _ main_cst_30 (val_main_cst_30 (F := F)) rfl (by decide) (r.trans ?_) (fun W h => ?_)
  · rfl
  have r := res_unary (τ := τ) (x := main_cst_30) (y := main_v89) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_30 (val_main_cst_30 (F := F)) (memAt% 0))
  refine Inv.cons h _ _ main_v89 (val_main_v89 (F := F)) rfl (by decide) (r.trans ?_) (fun W h => ?_)
  · rfl
  have r := res_binary (τ := τ) (a := main_v89) (b := main_v34) (y := main_v90) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v89 (val_main_v89 (F := F)) (memAt% 0)) (h.get' main_v34 (val_main_v34 (F := F) x0 x3) (memUp% 3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3)))))))
  refine Inv.cons h _ _ main_v90 (val_main_v90 (F := F) x0 x3) rfl (by decide) (r.trans ?_) (fun W h => ?_)
  · rfl
  have r := res_binary (τ := τ) (a := main_v88) (b := main_v90) (y := main_v91) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v88 (val_main_v88 (F := F) x0 x3) (memAt% 3)) (h.get' main_v90 (val_main_v90 (F := F) x0 x3) (memAt% 0))
  refine Inv.cons h _ _ main_v91 (val_main_v91 (F := F) x0 x3) rfl (by decide) (r.trans ?_) (fun W h => ?_)
  · rfl
  have r := res_nullary (τ := τ) (W := W) (y := main_c_31) (v := (constantI S_ 32 0#32)) (hy := ⟨by decide, rfl⟩)
  refine Inv.cons h _ _ main_c_31 (val_main_c_31 (F := F)) rfl (by decide) (r.trans ?_) (fun W h => ?_)
  · rfl
  have r := res_unary (τ := τ) (x := main_c_31) (y := main_v92) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_31 (val_main_c_31 (F := F)) (memAt% 0))
  refine Inv.cons h _ _ main_v92 (val_main_v92 (F := F)) rfl (by decide) (r.trans ?_) (fun W h => ?_)
  · rfl
  have r := res_binary (τ := τ) (a := main_v39) (b := main_v92) (y := main_v93) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 7 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3))))))) (h.get' main_v92 (val_main_v92 (F := F)) (memAt% 0))
  refine Inv.cons h _ _ main_v93 (val_main_v93 (F := F) x0 x3) rfl (by decide) (r.trans ?_) (fun W h => ?_)
  · rfl
  have r := res_nullary (τ := τ) (W := W) (y := main_c_32) (v := (constantI S_ 32 16#32)) (hy := ⟨by decide, rfl⟩)
  refine Inv.cons h _ _ main_c_32 (val_main_c_32 (F := F)) rfl (by decide) (r.trans ?_) (fun W h => ?_)
  · rfl
  have r := res_unary (τ := τ) (x := main_c_32) (y := main_v94) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_32 (val_main_c_32 (F := F)) (memAt% 0))
  refine Inv.cons h _ _ main_v94 (val_main_v94 (F := F)) rfl (by decide) (r.trans ?_) (fun W h => ?_)
  · rfl
  have r := res_binary (τ := τ) (a := main_v39) (b := main_v94) (y := main_v95) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 10 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3))))))) (h.get' main_v94 (val_main_v94 (F := F)) (memAt% 0))
  refine Inv.cons h _ _ main_v95 (val_main_v95 (F := F) x0 x3) rfl (by decide) (r.trans ?_) (fun W h => ?_)
  · rfl
  have r := res_binary (τ := τ) (a := main_v93) (b := main_v95) (y := main_v96) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v93 (val_main_v93 (F := F) x0 x3) (memAt% 3)) (h.get' main_v95 (val_main_v95 (F := F) x0 x3) (memAt% 0))
  refine Inv.cons h _ _ main_v96 (val_main_v96 (F := F) x0 x3) rfl (by decide) (r.trans ?_) (fun W h => ?_)
  · rfl
  have r := res_nullary (τ := τ) (W := W) (y := main_c_33) (v := (constantI S_ 32 0#32)) (hy := ⟨by decide, rfl⟩)
  refine Inv.cons h _ _ main_c_33 (val_main_c_33 (F := F)) rfl (by decide) (r.trans ?_) (fun W h => ?_)
  · rfl
  have r := res_unary (τ := τ) (x := main_c_33) (y := main_v97) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_33 (val_main_c_33 (F := F)) (memAt% 0))
  refine Inv.cons h _ _ main_v97 (val_main_v97 (F := F)) rfl (by decide) (r.trans ?_) (fun W h => ?_)
  · rfl
  have r := res_binary (τ := τ) (a := main_v36) (b := main_v97) (y := main_v98) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 14 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3))))))) (h.get' main_v97 (val_main_v97 (F := F)) (memAt% 0))
  refine Inv.cons h _ _ main_v98 (val_main_v98 (F := F) x0 x3) rfl (by decide) (r.trans ?_) (fun W h => ?_)
  · rfl
  have r := res_binary (τ := τ) (a := main_v96) (b := main_v98) (y := main_v99) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v96 (val_main_v96 (F := F) x0 x3) (memAt% 3)) (h.get' main_v98 (val_main_v98 (F := F) x0 x3) (memAt% 0))
  refine Inv.cons h _ _ main_v99 (val_main_v99 (F := F) x0 x3) rfl (by decide) (r.trans ?_) (fun W h => ?_)
  · rfl
  have r := res_nullary (τ := τ) (W := W) (y := main_c_34) (v := (constantI S_ 32 16#32)) (hy := ⟨by decide, rfl⟩)
  refine Inv.cons h _ _ main_c_34 (val_main_c_34 (F := F)) rfl (by decide) (r.trans ?_) (fun W h => ?_)
  · rfl
  have r := res_unary (τ := τ) (x := main_c_34) (y := main_v100) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_34 (val_main_c_34 (F := F)) (memAt% 0))
  refine Inv.cons h _ _ main_v100 (val_main_v100 (F := F)) rfl (by decide) (r.trans ?_) (fun W h => ?_)
  · rfl
  have r := res_binary (τ := τ) (a := main_v36) (b := main_v100) (y := main_v101) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 18 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3))))))) (h.get' main_v100 (val_main_v100 (F := F)) (memAt% 0))
  refine Inv.cons h _ _ main_v101 (val_main_v101 (F := F) x0 x3) rfl (by decide) (r.trans ?_) (fun W h => ?_)
  · rfl
  have r := res_binary (τ := τ) (a := main_v99) (b := main_v101) (y := main_v102) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v99 (val_main_v99 (F := F) x0 x3) (memAt% 3)) (h.get' main_v101 (val_main_v101 (F := F) x0 x3) (memAt% 0))
  refine Inv.cons h _ _ main_v102 (val_main_v102 (F := F) x0 x3) rfl (by decide) (r.trans ?_) (fun W h => ?_)
  · rfl
  have r := res_nullary (τ := τ) (W := W) (y := main_c_35) (v := (constantI S_ 32 0#32)) (hy := ⟨by decide, rfl⟩)
  refine Inv.cons h _ _ main_c_35 (val_main_c_35 (F := F)) rfl (by decide) (r.trans ?_) (fun W h => ?_)
  · rfl
  have r := res_unary (τ := τ) (x := main_c_35) (y := main_v103) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_35 (val_main_c_35 (F := F)) (memAt% 0))
  refine Inv.cons h _ _ main_v103 (val_main_v103 (F := F)) rfl (by decide) (r.trans ?_) (fun W h => ?_)
  · rfl
  have r := res_binary (τ := τ) (a := main_v37) (b := main_v103) (y := main_v104) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 22 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))) (h.get' main_v103 (val_main_v103 (F := F)) (memAt% 0))
  refine Inv.cons h _ _ main_v104 (val_main_v104 (F := F) x0 x3) rfl (by decide) (r.trans ?_) (fun W h => ?_)
  · rfl
  have r := res_binary (τ := τ) (a := main_v102) (b := main_v104) (y := main_v105) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v102 (val_main_v102 (F := F) x0 x3) (memAt% 3)) (h.get' main_v104 (val_main_v104 (F := F) x0 x3) (memAt% 0))
  refine Inv.cons h _ _ main_v105 (val_main_v105 (F := F) x0 x3) rfl (by decide) (r.trans ?_) (fun W h => ?_)
  · rfl
  have r := res_nullary (τ := τ) (W := W) (y := main_c_36) (v := (constantI S_ 32 16#32)) (hy := ⟨by decide, rfl⟩)
  refine Inv.cons h _ _ main_c_36 (val_main_c_36 (F := F)) rfl (by decide) (r.trans ?_) (fun W h => ?_)
  · rfl
  exact h

/-- Operations 183 … 206 of the line. -/
abbrev seg7 : List (HloOp τ sig (Elt F)) :=
  [ unary main_c_36 main_v106 (broadcastInDim S4x40000 ![] bcast_S_S4x40000 : (⟨S_, .i32⟩ : BufTy).Contents (Elt F) → (⟨S4x40000, .i32⟩ : BufTy).Contents (Elt F)),
    binary main_v37 main_v106 main_v107 (cmpi .slt : (⟨S4x40000, .i32⟩ : BufTy).Contents (Elt F) → (⟨S4x40000, .i32⟩ : BufTy).Contents (Elt F) → (⟨S4x40000, .i1⟩ : BufTy).Contents (Elt F)),
    binary main_v105 main_v107 main_v108 (andi : (⟨S4x40000, .i1⟩ : BufTy).Contents (Elt F) → (⟨S4x40000, .i1⟩ : BufTy).Contents (Elt F) → (⟨S4x40000, .i1⟩ : BufTy).Contents (Elt F)),
    nullary main_c_37 (constantI S_ 32 0#32),
    nullary main_c_38 (constantI S_ 32 15#32),
    TRef.unary (TRef.of (T := ⟨S_, .i32⟩) main_c_37) (TRef.of (T := ⟨S_, .i32⟩) main_call4_v0) id,
    TRef.unary (TRef.of (T := ⟨S_, .i32⟩) main_call4_v0) (TRef.of (T := ⟨S4x40000, .i32⟩) main_call4_v1) (broadcastInDim S4x40000 ![] bcast_S_S4x40000),
    TRef.binary (TRef.of (T := ⟨S4x40000, .i32⟩) main_call4_v1) (TRef.of (T := ⟨S4x40000, .i32⟩) main_v37) (TRef.of (T := ⟨S4x40000, .i32⟩) main_call4_v2) maxsi,
    TRef.unary (TRef.of (T := ⟨S_, .i32⟩) main_c_38) (TRef.of (T := ⟨S_, .i32⟩) main_call4_v3) id,
    TRef.unary (TRef.of (T := ⟨S_, .i32⟩) main_call4_v3) (TRef.of (T := ⟨S4x40000, .i32⟩) main_call4_v4) (broadcastInDim S4x40000 ![] bcast_S_S4x40000),
    TRef.binary (TRef.of (T := ⟨S4x40000, .i32⟩) main_call4_v4) (TRef.of (T := ⟨S4x40000, .i32⟩) main_call4_v2) (TRef.of (T := ⟨S4x40000, .i32⟩) main_v109) minsi,
    nullary main_c_39 (constantI S_ 32 16#32),
    unary main_c_39 main_v110 (broadcastInDim S4x40000 ![] bcast_S_S4x40000 : (⟨S_, .i32⟩ : BufTy).Contents (Elt F) → (⟨S4x40000, .i32⟩ : BufTy).Contents (Elt F)),
    binary main_v109 main_v110 main_v111 (muli : (⟨S4x40000, .i32⟩ : BufTy).Contents (Elt F) → (⟨S4x40000, .i32⟩ : BufTy).Contents (Elt F) → (⟨S4x40000, .i32⟩ : BufTy).Contents (Elt F)),
    nullary main_c_40 (constantI S_ 32 0#32),
    nullary main_c_41 (constantI S_ 32 15#32),
    TRef.unary (TRef.of (T := ⟨S_, .i32⟩) main_c_40) (TRef.of (T := ⟨S_, .i32⟩) main_call5_v0) id,
    TRef.unary (TRef.of (T := ⟨S_, .i32⟩) main_call5_v0) (TRef.of (T := ⟨S4x40000, .i32⟩) main_call5_v1) (broadcastInDim S4x40000 ![] bcast_S_S4x40000),
    TRef.binary (TRef.of (T := ⟨S4x40000, .i32⟩) main_call5_v1) (TRef.of (T := ⟨S4x40000, .i32⟩) main_v36) (TRef.of (T := ⟨S4x40000, .i32⟩) main_call5_v2) maxsi,
    TRef.unary (TRef.of (T := ⟨S_, .i32⟩) main_c_41) (TRef.of (T := ⟨S_, .i32⟩) main_call5_v3) id,
    TRef.unary (TRef.of (T := ⟨S_, .i32⟩) main_call5_v3) (TRef.of (T := ⟨S4x40000, .i32⟩) main_call5_v4) (broadcastInDim S4x40000 ![] bcast_S_S4x40000),
    TRef.binary (TRef.of (T := ⟨S4x40000, .i32⟩) main_call5_v4) (TRef.of (T := ⟨S4x40000, .i32⟩) main_call5_v2) (TRef.of (T := ⟨S4x40000, .i32⟩) main_v112) minsi,
    binary main_v111 main_v112 main_v113 (addi : (⟨S4x40000, .i32⟩ : BufTy).Contents (Elt F) → (⟨S4x40000, .i32⟩ : BufTy).Contents (Elt F) → (⟨S4x40000, .i32⟩ : BufTy).Contents (Elt F)),
    nullary main_c_42 (constantI S_ 32 16#32) ]

/-- The facts after operation 206: each buffer written so far at its stage value. -/
def facts7 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_42, val_main_c_42 (F := F)⟩ ::
  ⟨main_v113, val_main_v113 (F := F) x0 x3⟩ ::
  ⟨main_v112, val_main_v112 (F := F) x0 x3⟩ ::
  ⟨main_call5_v4, val_main_call5_v4 (F := F)⟩ ::
  ⟨main_call5_v3, val_main_call5_v3 (F := F)⟩ ::
  ⟨main_call5_v2, val_main_call5_v2 (F := F) x0 x3⟩ ::
  ⟨main_call5_v1, val_main_call5_v1 (F := F)⟩ ::
  ⟨main_call5_v0, val_main_call5_v0 (F := F)⟩ ::
  ⟨main_c_41, val_main_c_41 (F := F)⟩ ::
  ⟨main_c_40, val_main_c_40 (F := F)⟩ ::
  ⟨main_v111, val_main_v111 (F := F) x0 x3⟩ ::
  ⟨main_v110, val_main_v110 (F := F)⟩ ::
  ⟨main_c_39, val_main_c_39 (F := F)⟩ ::
  ⟨main_v109, val_main_v109 (F := F) x0 x3⟩ ::
  ⟨main_call4_v4, val_main_call4_v4 (F := F)⟩ ::
  ⟨main_call4_v3, val_main_call4_v3 (F := F)⟩ ::
  ⟨main_call4_v2, val_main_call4_v2 (F := F) x0 x3⟩ ::
  ⟨main_call4_v1, val_main_call4_v1 (F := F)⟩ ::
  ⟨main_call4_v0, val_main_call4_v0 (F := F)⟩ ::
  ⟨main_c_38, val_main_c_38 (F := F)⟩ ::
  ⟨main_c_37, val_main_c_37 (F := F)⟩ ::
  ⟨main_v108, val_main_v108 (F := F) x0 x3⟩ ::
  ⟨main_v107, val_main_v107 (F := F) x0 x3⟩ ::
  ⟨main_v106, val_main_v106 (F := F)⟩ ::
  facts6 x0 x1 x2 x3

theorem up7 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts6 x0 x1 x2 x3) : p ∈ facts7 x0 x1 x2 x3 :=
  memUp% 24 hp

set_option maxRecDepth 8192 in
set_option maxHeartbeats 2000000 in
/-- Operations 183 … 206: each adds the fact of the buffer it writes. -/
theorem run7 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts6 x0 x1 x2 x3) 186) :
    Inv (after seg7 W) (facts7 x0 x1 x2 x3) 210 := by
  have r := res_unary (τ := τ) (x := main_c_36) (y := main_v106) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_36 (val_main_c_36 (F := F)) (memUp% 0 (memAt% 0 : (⟨main_c_36, val_main_c_36 (F := F)⟩ : Fact sig (Elt F)) ∈ facts6 x0 x1 x2 x3)))
  refine Inv.cons h _ _ main_v106 (val_main_v106 (F := F)) rfl (by decide) (r.trans ?_) (fun W h => ?_)
  · rfl
  have r := res_binary (τ := τ) (a := main_v37) (b := main_v106) (y := main_v107) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 1 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3)))))))) (h.get' main_v106 (val_main_v106 (F := F)) (memAt% 0))
  refine Inv.cons h _ _ main_v107 (val_main_v107 (F := F) x0 x3) rfl (by decide) (r.trans ?_) (fun W h => ?_)
  · rfl
  have r := res_binary (τ := τ) (a := main_v105) (b := main_v107) (y := main_v108) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v105 (val_main_v105 (F := F) x0 x3) (memUp% 2 (memAt% 1 : (⟨main_v105, val_main_v105 (F := F) x0 x3⟩ : Fact sig (Elt F)) ∈ facts6 x0 x1 x2 x3))) (h.get' main_v107 (val_main_v107 (F := F) x0 x3) (memAt% 0))
  refine Inv.cons h _ _ main_v108 (val_main_v108 (F := F) x0 x3) rfl (by decide) (r.trans ?_) (fun W h => ?_)
  · rfl
  have r := res_nullary (τ := τ) (W := W) (y := main_c_37) (v := (constantI S_ 32 0#32)) (hy := ⟨by decide, rfl⟩)
  refine Inv.cons h _ _ main_c_37 (val_main_c_37 (F := F)) rfl (by decide) (r.trans ?_) (fun W h => ?_)
  · rfl
  have r := res_nullary (τ := τ) (W := W) (y := main_c_38) (v := (constantI S_ 32 15#32)) (hy := ⟨by decide, rfl⟩)
  refine Inv.cons h _ _ main_c_38 (val_main_c_38 (F := F)) rfl (by decide) (r.trans ?_) (fun W h => ?_)
  · rfl
  have r := res_tunary (τ := τ) (TRef.of (T := ⟨S_, .i32⟩) main_c_37) (TRef.of (T := ⟨S_, .i32⟩) main_call4_v0) id (h.tget (TRef.of (T := ⟨S_, .i32⟩) main_c_37) (val_main_c_37 (F := F)) (val_main_c_37 (F := F)) HEq.rfl (memAt% 1))
  refine Inv.cons h _ _ main_call4_v0 (val_main_call4_v0 (F := F)) rfl (by decide) (r.trans (toBuf_of_heq (TRef.of (T := ⟨S_, .i32⟩) main_call4_v0) (w := val_main_call4_v0 (F := F)) ?_)) (fun W h => ?_)
  · exact HEq.rfl
  have r := res_tunary (τ := τ) (TRef.of (T := ⟨S_, .i32⟩) main_call4_v0) (TRef.of (T := ⟨S4x40000, .i32⟩) main_call4_v1) (broadcastInDim S4x40000 ![] bcast_S_S4x40000) (h.tget (TRef.of (T := ⟨S_, .i32⟩) main_call4_v0) (val_main_call4_v0 (F := F)) (val_main_call4_v0 (F := F)) HEq.rfl (memAt% 0))
  refine Inv.cons h _ _ main_call4_v1 (val_main_call4_v1 (F := F)) rfl (by decide) (r.trans (toBuf_of_heq (TRef.of (T := ⟨S4x40000, .i32⟩) main_call4_v1) (w := val_main_call4_v1 (F := F)) ?_)) (fun W h => ?_)
  · exact HEq.rfl
  have r := res_tbinary (τ := τ) (TRef.of (T := ⟨S4x40000, .i32⟩) main_call4_v1) (TRef.of (T := ⟨S4x40000, .i32⟩) main_v37) (TRef.of (T := ⟨S4x40000, .i32⟩) main_call4_v2) maxsi (h.tget (TRef.of (T := ⟨S4x40000, .i32⟩) main_call4_v1) (val_main_call4_v1 (F := F)) (val_main_call4_v1 (F := F)) HEq.rfl (memAt% 0)) (h.tget (TRef.of (T := ⟨S4x40000, .i32⟩) main_v37) (val_main_v37 (F := F) x0 x3) (val_main_v37 (F := F) x0 x3) HEq.rfl (memUp% 7 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))))
  refine Inv.cons h _ _ main_call4_v2 (val_main_call4_v2 (F := F) x0 x3) rfl (by decide) (r.trans (toBuf_of_heq (TRef.of (T := ⟨S4x40000, .i32⟩) main_call4_v2) (w := val_main_call4_v2 (F := F) x0 x3) ?_)) (fun W h => ?_)
  · exact HEq.rfl
  have r := res_tunary (τ := τ) (TRef.of (T := ⟨S_, .i32⟩) main_c_38) (TRef.of (T := ⟨S_, .i32⟩) main_call4_v3) id (h.tget (TRef.of (T := ⟨S_, .i32⟩) main_c_38) (val_main_c_38 (F := F)) (val_main_c_38 (F := F)) HEq.rfl (memAt% 3))
  refine Inv.cons h _ _ main_call4_v3 (val_main_call4_v3 (F := F)) rfl (by decide) (r.trans (toBuf_of_heq (TRef.of (T := ⟨S_, .i32⟩) main_call4_v3) (w := val_main_call4_v3 (F := F)) ?_)) (fun W h => ?_)
  · exact HEq.rfl
  have r := res_tunary (τ := τ) (TRef.of (T := ⟨S_, .i32⟩) main_call4_v3) (TRef.of (T := ⟨S4x40000, .i32⟩) main_call4_v4) (broadcastInDim S4x40000 ![] bcast_S_S4x40000) (h.tget (TRef.of (T := ⟨S_, .i32⟩) main_call4_v3) (val_main_call4_v3 (F := F)) (val_main_call4_v3 (F := F)) HEq.rfl (memAt% 0))
  refine Inv.cons h _ _ main_call4_v4 (val_main_call4_v4 (F := F)) rfl (by decide) (r.trans (toBuf_of_heq (TRef.of (T := ⟨S4x40000, .i32⟩) main_call4_v4) (w := val_main_call4_v4 (F := F)) ?_)) (fun W h => ?_)
  · exact HEq.rfl
  have r := res_tbinary (τ := τ) (TRef.of (T := ⟨S4x40000, .i32⟩) main_call4_v4) (TRef.of (T := ⟨S4x40000, .i32⟩) main_call4_v2) (TRef.of (T := ⟨S4x40000, .i32⟩) main_v109) minsi (h.tget (TRef.of (T := ⟨S4x40000, .i32⟩) main_call4_v4) (val_main_call4_v4 (F := F)) (val_main_call4_v4 (F := F)) HEq.rfl (memAt% 0)) (h.tget (TRef.of (T := ⟨S4x40000, .i32⟩) main_call4_v2) (val_main_call4_v2 (F := F) x0 x3) (val_main_call4_v2 (F := F) x0 x3) HEq.rfl (memAt% 2))
  refine Inv.cons h _ _ main_v109 (val_main_v109 (F := F) x0 x3) rfl (by decide) (r.trans (toBuf_of_heq (TRef.of (T := ⟨S4x40000, .i32⟩) main_v109) (w := val_main_v109 (F := F) x0 x3) ?_)) (fun W h => ?_)
  · exact HEq.rfl
  have r := res_nullary (τ := τ) (W := W) (y := main_c_39) (v := (constantI S_ 32 16#32)) (hy := ⟨by decide, rfl⟩)
  refine Inv.cons h _ _ main_c_39 (val_main_c_39 (F := F)) rfl (by decide) (r.trans ?_) (fun W h => ?_)
  · rfl
  have r := res_unary (τ := τ) (x := main_c_39) (y := main_v110) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_39 (val_main_c_39 (F := F)) (memAt% 0))
  refine Inv.cons h _ _ main_v110 (val_main_v110 (F := F)) rfl (by decide) (r.trans ?_) (fun W h => ?_)
  · rfl
  have r := res_binary (τ := τ) (a := main_v109) (b := main_v110) (y := main_v111) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v109 (val_main_v109 (F := F) x0 x3) (memAt% 2)) (h.get' main_v110 (val_main_v110 (F := F)) (memAt% 0))
  refine Inv.cons h _ _ main_v111 (val_main_v111 (F := F) x0 x3) rfl (by decide) (r.trans ?_) (fun W h => ?_)
  · rfl
  have r := res_nullary (τ := τ) (W := W) (y := main_c_40) (v := (constantI S_ 32 0#32)) (hy := ⟨by decide, rfl⟩)
  refine Inv.cons h _ _ main_c_40 (val_main_c_40 (F := F)) rfl (by decide) (r.trans ?_) (fun W h => ?_)
  · rfl
  have r := res_nullary (τ := τ) (W := W) (y := main_c_41) (v := (constantI S_ 32 15#32)) (hy := ⟨by decide, rfl⟩)
  refine Inv.cons h _ _ main_c_41 (val_main_c_41 (F := F)) rfl (by decide) (r.trans ?_) (fun W h => ?_)
  · rfl
  have r := res_tunary (τ := τ) (TRef.of (T := ⟨S_, .i32⟩) main_c_40) (TRef.of (T := ⟨S_, .i32⟩) main_call5_v0) id (h.tget (TRef.of (T := ⟨S_, .i32⟩) main_c_40) (val_main_c_40 (F := F)) (val_main_c_40 (F := F)) HEq.rfl (memAt% 1))
  refine Inv.cons h _ _ main_call5_v0 (val_main_call5_v0 (F := F)) rfl (by decide) (r.trans (toBuf_of_heq (TRef.of (T := ⟨S_, .i32⟩) main_call5_v0) (w := val_main_call5_v0 (F := F)) ?_)) (fun W h => ?_)
  · exact HEq.rfl
  have r := res_tunary (τ := τ) (TRef.of (T := ⟨S_, .i32⟩) main_call5_v0) (TRef.of (T := ⟨S4x40000, .i32⟩) main_call5_v1) (broadcastInDim S4x40000 ![] bcast_S_S4x40000) (h.tget (TRef.of (T := ⟨S_, .i32⟩) main_call5_v0) (val_main_call5_v0 (F := F)) (val_main_call5_v0 (F := F)) HEq.rfl (memAt% 0))
  refine Inv.cons h _ _ main_call5_v1 (val_main_call5_v1 (F := F)) rfl (by decide) (r.trans (toBuf_of_heq (TRef.of (T := ⟨S4x40000, .i32⟩) main_call5_v1) (w := val_main_call5_v1 (F := F)) ?_)) (fun W h => ?_)
  · exact HEq.rfl
  have r := res_tbinary (τ := τ) (TRef.of (T := ⟨S4x40000, .i32⟩) main_call5_v1) (TRef.of (T := ⟨S4x40000, .i32⟩) main_v36) (TRef.of (T := ⟨S4x40000, .i32⟩) main_call5_v2) maxsi (h.tget (TRef.of (T := ⟨S4x40000, .i32⟩) main_call5_v1) (val_main_call5_v1 (F := F)) (val_main_call5_v1 (F := F)) HEq.rfl (memAt% 0)) (h.tget (TRef.of (T := ⟨S4x40000, .i32⟩) main_v36) (val_main_v36 (F := F) x0 x3) (val_main_v36 (F := F) x0 x3) HEq.rfl (memUp% 18 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3))))))))
  refine Inv.cons h _ _ main_call5_v2 (val_main_call5_v2 (F := F) x0 x3) rfl (by decide) (r.trans (toBuf_of_heq (TRef.of (T := ⟨S4x40000, .i32⟩) main_call5_v2) (w := val_main_call5_v2 (F := F) x0 x3) ?_)) (fun W h => ?_)
  · exact HEq.rfl
  have r := res_tunary (τ := τ) (TRef.of (T := ⟨S_, .i32⟩) main_c_41) (TRef.of (T := ⟨S_, .i32⟩) main_call5_v3) id (h.tget (TRef.of (T := ⟨S_, .i32⟩) main_c_41) (val_main_c_41 (F := F)) (val_main_c_41 (F := F)) HEq.rfl (memAt% 3))
  refine Inv.cons h _ _ main_call5_v3 (val_main_call5_v3 (F := F)) rfl (by decide) (r.trans (toBuf_of_heq (TRef.of (T := ⟨S_, .i32⟩) main_call5_v3) (w := val_main_call5_v3 (F := F)) ?_)) (fun W h => ?_)
  · exact HEq.rfl
  have r := res_tunary (τ := τ) (TRef.of (T := ⟨S_, .i32⟩) main_call5_v3) (TRef.of (T := ⟨S4x40000, .i32⟩) main_call5_v4) (broadcastInDim S4x40000 ![] bcast_S_S4x40000) (h.tget (TRef.of (T := ⟨S_, .i32⟩) main_call5_v3) (val_main_call5_v3 (F := F)) (val_main_call5_v3 (F := F)) HEq.rfl (memAt% 0))
  refine Inv.cons h _ _ main_call5_v4 (val_main_call5_v4 (F := F)) rfl (by decide) (r.trans (toBuf_of_heq (TRef.of (T := ⟨S4x40000, .i32⟩) main_call5_v4) (w := val_main_call5_v4 (F := F)) ?_)) (fun W h => ?_)
  · exact HEq.rfl
  have r := res_tbinary (τ := τ) (TRef.of (T := ⟨S4x40000, .i32⟩) main_call5_v4) (TRef.of (T := ⟨S4x40000, .i32⟩) main_call5_v2) (TRef.of (T := ⟨S4x40000, .i32⟩) main_v112) minsi (h.tget (TRef.of (T := ⟨S4x40000, .i32⟩) main_call5_v4) (val_main_call5_v4 (F := F)) (val_main_call5_v4 (F := F)) HEq.rfl (memAt% 0)) (h.tget (TRef.of (T := ⟨S4x40000, .i32⟩) main_call5_v2) (val_main_call5_v2 (F := F) x0 x3) (val_main_call5_v2 (F := F) x0 x3) HEq.rfl (memAt% 2))
  refine Inv.cons h _ _ main_v112 (val_main_v112 (F := F) x0 x3) rfl (by decide) (r.trans (toBuf_of_heq (TRef.of (T := ⟨S4x40000, .i32⟩) main_v112) (w := val_main_v112 (F := F) x0 x3) ?_)) (fun W h => ?_)
  · exact HEq.rfl
  have r := res_binary (τ := τ) (a := main_v111) (b := main_v112) (y := main_v113) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v111 (val_main_v111 (F := F) x0 x3) (memAt% 8)) (h.get' main_v112 (val_main_v112 (F := F) x0 x3) (memAt% 0))
  refine Inv.cons h _ _ main_v113 (val_main_v113 (F := F) x0 x3) rfl (by decide) (r.trans ?_) (fun W h => ?_)
  · rfl
  have r := res_nullary (τ := τ) (W := W) (y := main_c_42) (v := (constantI S_ 32 16#32)) (hy := ⟨by decide, rfl⟩)
  refine Inv.cons h _ _ main_c_42 (val_main_c_42 (F := F)) rfl (by decide) (r.trans ?_) (fun W h => ?_)
  · rfl
  exact h

/-- Operations 207 … 230 of the line. -/
abbrev seg8 : List (HloOp τ sig (Elt F)) :=
  [ unary main_c_42 main_v114 (broadcastInDim S4x40000 ![] bcast_S_S4x40000 : (⟨S_, .i32⟩ : BufTy).Contents (Elt F) → (⟨S4x40000, .i32⟩ : BufTy).Contents (Elt F)),
    binary main_v113 main_v114 main_v115 (muli : (⟨S4x40000, .i32⟩ : BufTy).Contents (Elt F) → (⟨S4x40000, .i32⟩ : BufTy).Contents (Elt F) → (⟨S4x40000, .i32⟩ : BufTy).Contents (Elt F)),
    nullary main_c_43 (constantI S_ 32 0#32),
    nullary main_c_44 (constantI S_ 32 15#32),
    TRef.unary (TRef.of (T := ⟨S_, .i32⟩) main_c_43) (TRef.of (T := ⟨S_, .i32⟩) main_call6_v0) id,
    TRef.unary (TRef.of (T := ⟨S_, .i32⟩) main_call6_v0) (TRef.of (T := ⟨S4x40000, .i32⟩) main_call6_v1) (broadcastInDim S4x40000 ![] bcast_S_S4x40000),
    TRef.binary (TRef.of (T := ⟨S4x40000, .i32⟩) main_call6_v1) (TRef.of (T := ⟨S4x40000, .i32⟩) main_v39) (TRef.of (T := ⟨S4x40000, .i32⟩) main_call6_v2) maxsi,
    TRef.unary (TRef.of (T := ⟨S_, .i32⟩) main_c_44) (TRef.of (T := ⟨S_, .i32⟩) main_call6_v3) id,
    TRef.unary (TRef.of (T := ⟨S_, .i32⟩) main_call6_v3) (TRef.of (T := ⟨S4x40000, .i32⟩) main_call6_v4) (broadcastInDim S4x40000 ![] bcast_S_S4x40000),
    TRef.binary (TRef.of (T := ⟨S4x40000, .i32⟩) main_call6_v4) (TRef.of (T := ⟨S4x40000, .i32⟩) main_call6_v2) (TRef.of (T := ⟨S4x40000, .i32⟩) main_v116) minsi,
    binary main_v115 main_v116 main_v117 (addi : (⟨S4x40000, .i32⟩ : BufTy).Contents (Elt F) → (⟨S4x40000, .i32⟩ : BufTy).Contents (Elt F) → (⟨S4x40000, .i32⟩ : BufTy).Contents (Elt F)),
    unary main_v117 main_v118 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S4x1x40000, .i32⟩) main_call7_v0) (broadcastInDim S4x1x40000 ![] bcast_S_S4x1x40000),
    TRef.binary (TRef.of (T := ⟨S4x1x40000, .i32⟩) main_v118) (TRef.of (T := ⟨S4x1x40000, .i32⟩) main_call7_v0) (TRef.of (T := ⟨S4x1x40000, .i1⟩) main_call7_v1) (cmpi .slt),
    TRef.nullary (TRef.of (T := ⟨S_, .i32⟩) main_call7_c_0) (constantI S_ 32 4096#32),
    TRef.unary (TRef.of (T := ⟨S_, .i32⟩) main_call7_c_0) (TRef.of (T := ⟨S4x1x40000, .i32⟩) main_call7_v2) (broadcastInDim S4x1x40000 ![] bcast_S_S4x1x40000),
    TRef.binary (TRef.of (T := ⟨S4x1x40000, .i32⟩) main_v118) (TRef.of (T := ⟨S4x1x40000, .i32⟩) main_call7_v2) (TRef.of (T := ⟨S4x1x40000, .i32⟩) main_call7_v3) addi,
    TRef.ternary (TRef.of (T := ⟨S4x1x40000, .i1⟩) main_call7_v1) (TRef.of (T := ⟨S4x1x40000, .i32⟩) main_call7_v3) (TRef.of (T := ⟨S4x1x40000, .i32⟩) main_v118) (TRef.of (T := ⟨S4x1x40000, .i32⟩) main_call7_v4) select,
    TRef.reshape (TRef.of (T := ⟨S4x1x40000, .i32⟩) main_call7_v4) (TRef.of (T := ⟨S4x40000x1, .i32⟩) main_call7_v5) rfl shapeCasts_S4x1x40000_S4x40000x1,
    TRef.nullary (TRef.of (T := ⟨S1, .i32⟩) main_call7_c_1) (constantI S1 32 4095#32),
    TRef.nullary (TRef.of (T := ⟨S_, .i32⟩) main_call7_c_2) (constantI S_ 32 0#32),
    TRef.unary (TRef.of (T := ⟨S_, .i32⟩) main_call7_c_2) (TRef.of (T := ⟨S4x40000x1, .i32⟩) main_call7_v6) (broadcastInDim S4x40000x1 ![] bcast_S_S4x40000x1),
    TRef.binary (TRef.of (T := ⟨S4x40000x1, .i32⟩) main_call7_v5) (TRef.of (T := ⟨S4x40000x1, .i32⟩) main_call7_v6) (TRef.of (T := ⟨S4x40000x1, .i1⟩) main_call7_v7) (cmpi .sge) ]

/-- The facts after operation 230: each buffer written so far at its stage value. -/
def facts8 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call7_v7, val_main_call7_v7 (F := F) x0 x3⟩ ::
  ⟨main_call7_v6, val_main_call7_v6 (F := F)⟩ ::
  ⟨main_call7_c_2, val_main_call7_c_2 (F := F)⟩ ::
  ⟨main_call7_c_1, val_main_call7_c_1 (F := F)⟩ ::
  ⟨main_call7_v5, val_main_call7_v5 (F := F) x0 x3⟩ ::
  ⟨main_call7_v4, val_main_call7_v4 (F := F) x0 x3⟩ ::
  ⟨main_call7_v3, val_main_call7_v3 (F := F) x0 x3⟩ ::
  ⟨main_call7_v2, val_main_call7_v2 (F := F)⟩ ::
  ⟨main_call7_c_0, val_main_call7_c_0 (F := F)⟩ ::
  ⟨main_call7_v1, val_main_call7_v1 (F := F) x0 x3⟩ ::
  ⟨main_call7_v0, val_main_call7_v0 (F := F)⟩ ::
  ⟨main_call7_c, val_main_call7_c (F := F)⟩ ::
  ⟨main_v118, val_main_v118 (F := F) x0 x3⟩ ::
  ⟨main_v117, val_main_v117 (F := F) x0 x3⟩ ::
  ⟨main_v116, val_main_v116 (F := F) x0 x3⟩ ::
  ⟨main_call6_v4, val_main_call6_v4 (F := F)⟩ ::
  ⟨main_call6_v3, val_main_call6_v3 (F := F)⟩ ::
  ⟨main_call6_v2, val_main_call6_v2 (F := F) x0 x3⟩ ::
  ⟨main_call6_v1, val_main_call6_v1 (F := F)⟩ ::
  ⟨main_call6_v0, val_main_call6_v0 (F := F)⟩ ::
  ⟨main_c_44, val_main_c_44 (F := F)⟩ ::
  ⟨main_c_43, val_main_c_43 (F := F)⟩ ::
  ⟨main_v115, val_main_v115 (F := F) x0 x3⟩ ::
  ⟨main_v114, val_main_v114 (F := F)⟩ ::
  facts7 x0 x1 x2 x3

theorem up8 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts7 x0 x1 x2 x3) : p ∈ facts8 x0 x1 x2 x3 :=
  memUp% 24 hp

set_option maxRecDepth 8192 in
set_option maxHeartbeats 2000000 in
/-- Operations 207 … 230: each adds the fact of the buffer it writes. -/
theorem run8 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts7 x0 x1 x2 x3) 210) :
    Inv (after seg8 W) (facts8 x0 x1 x2 x3) 234 := by
  have r := res_unary (τ := τ) (x := main_c_42) (y := main_v114) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_42 (val_main_c_42 (F := F)) (memUp% 0 (memAt% 0 : (⟨main_c_42, val_main_c_42 (F := F)⟩ : Fact sig (Elt F)) ∈ facts7 x0 x1 x2 x3)))
  refine Inv.cons h _ _ main_v114 (val_main_v114 (F := F)) rfl (by decide) (r.trans ?_) (fun W h => ?_)
  · rfl
  have r := res_binary (τ := τ) (a := main_v113) (b := main_v114) (y := main_v115) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v113 (val_main_v113 (F := F) x0 x3) (memUp% 1 (memAt% 1 : (⟨main_v113, val_main_v113 (F := F) x0 x3⟩ : Fact sig (Elt F)) ∈ facts7 x0 x1 x2 x3))) (h.get' main_v114 (val_main_v114 (F := F)) (memAt% 0))
  refine Inv.cons h _ _ main_v115 (val_main_v115 (F := F) x0 x3) rfl (by decide) (r.trans ?_) (fun W h => ?_)
  · rfl
  have r := res_nullary (τ := τ) (W := W) (y := main_c_43) (v := (constantI S_ 32 0#32)) (hy := ⟨by decide, rfl⟩)
  refine Inv.cons h _ _ main_c_43 (val_main_c_43 (F := F)) rfl (by decide) (r.trans ?_) (fun W h => ?_)
  · rfl
  have r := res_nullary (τ := τ) (W := W) (y := main_c_44) (v := (constantI S_ 32 15#32)) (hy := ⟨by decide, rfl⟩)
  refine Inv.cons h _ _ main_c_44 (val_main_c_44 (F := F)) rfl (by decide) (r.trans ?_) (fun W h => ?_)
  · rfl
  have r := res_tunary (τ := τ) (TRef.of (T := ⟨S_, .i32⟩) main_c_43) (TRef.of (T := ⟨S_, .i32⟩) main_call6_v0) id (h.tget (TRef.of (T := ⟨S_, .i32⟩) main_c_43) (val_main_c_43 (F := F)) (val_main_c_43 (F := F)) HEq.rfl (memAt% 1))
  refine Inv.cons h _ _ main_call6_v0 (val_main_call6_v0 (F := F)) rfl (by decide) (r.trans (toBuf_of_heq (TRef.of (T := ⟨S_, .i32⟩) main_call6_v0) (w := val_main_call6_v0 (F := F)) ?_)) (fun W h => ?_)
  · exact HEq.rfl
  have r := res_tunary (τ := τ) (TRef.of (T := ⟨S_, .i32⟩) main_call6_v0) (TRef.of (T := ⟨S4x40000, .i32⟩) main_call6_v1) (broadcastInDim S4x40000 ![] bcast_S_S4x40000) (h.tget (TRef.of (T := ⟨S_, .i32⟩) main_call6_v0) (val_main_call6_v0 (F := F)) (val_main_call6_v0 (F := F)) HEq.rfl (memAt% 0))
  refine Inv.cons h _ _ main_call6_v1 (val_main_call6_v1 (F := F)) rfl (by decide) (r.trans (toBuf_of_heq (TRef.of (T := ⟨S4x40000, .i32⟩) main_call6_v1) (w := val_main_call6_v1 (F := F)) ?_)) (fun W h => ?_)
  · exact HEq.rfl
  have r := res_tbinary (τ := τ) (TRef.of (T := ⟨S4x40000, .i32⟩) main_call6_v1) (TRef.of (T := ⟨S4x40000, .i32⟩) main_v39) (TRef.of (T := ⟨S4x40000, .i32⟩) main_call6_v2) maxsi (h.tget (TRef.of (T := ⟨S4x40000, .i32⟩) main_call6_v1) (val_main_call6_v1 (F := F)) (val_main_call6_v1 (F := F)) HEq.rfl (memAt% 0)) (h.tget (TRef.of (T := ⟨S4x40000, .i32⟩) main_v39) (val_main_v39 (F := F) x0 x3) (val_main_v39 (F := F) x0 x3) HEq.rfl (memUp% 6 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3)))))))))
  refine Inv.cons h _ _ main_call6_v2 (val_main_call6_v2 (F := F) x0 x3) rfl (by decide) (r.trans (toBuf_of_heq (TRef.of (T := ⟨S4x40000, .i32⟩) main_call6_v2) (w := val_main_call6_v2 (F := F) x0 x3) ?_)) (fun W h => ?_)
  · exact HEq.rfl
  have r := res_tunary (τ := τ) (TRef.of (T := ⟨S_, .i32⟩) main_c_44) (TRef.of (T := ⟨S_, .i32⟩) main_call6_v3) id (h.tget (TRef.of (T := ⟨S_, .i32⟩) main_c_44) (val_main_c_44 (F := F)) (val_main_c_44 (F := F)) HEq.rfl (memAt% 3))
  refine Inv.cons h _ _ main_call6_v3 (val_main_call6_v3 (F := F)) rfl (by decide) (r.trans (toBuf_of_heq (TRef.of (T := ⟨S_, .i32⟩) main_call6_v3) (w := val_main_call6_v3 (F := F)) ?_)) (fun W h => ?_)
  · exact HEq.rfl
  have r := res_tunary (τ := τ) (TRef.of (T := ⟨S_, .i32⟩) main_call6_v3) (TRef.of (T := ⟨S4x40000, .i32⟩) main_call6_v4) (broadcastInDim S4x40000 ![] bcast_S_S4x40000) (h.tget (TRef.of (T := ⟨S_, .i32⟩) main_call6_v3) (val_main_call6_v3 (F := F)) (val_main_call6_v3 (F := F)) HEq.rfl (memAt% 0))
  refine Inv.cons h _ _ main_call6_v4 (val_main_call6_v4 (F := F)) rfl (by decide) (r.trans (toBuf_of_heq (TRef.of (T := ⟨S4x40000, .i32⟩) main_call6_v4) (w := val_main_call6_v4 (F := F)) ?_)) (fun W h => ?_)
  · exact HEq.rfl
  have r := res_tbinary (τ := τ) (TRef.of (T := ⟨S4x40000, .i32⟩) main_call6_v4) (TRef.of (T := ⟨S4x40000, .i32⟩) main_call6_v2) (TRef.of (T := ⟨S4x40000, .i32⟩) main_v116) minsi (h.tget (TRef.of (T := ⟨S4x40000, .i32⟩) main_call6_v4) (val_main_call6_v4 (F := F)) (val_main_call6_v4 (F := F)) HEq.rfl (memAt% 0)) (h.tget (TRef.of (T := ⟨S4x40000, .i32⟩) main_call6_v2) (val_main_call6_v2 (F := F) x0 x3) (val_main_call6_v2 (F := F) x0 x3) HEq.rfl (memAt% 2))
  refine Inv.cons h _ _ main_v116 (val_main_v116 (F := F) x0 x3) rfl (by decide) (r.trans (toBuf_of_heq (TRef.of (T := ⟨S4x40000, .i32⟩) main_v116) (w := val_main_v116 (F := F) x0 x3) ?_)) (fun W h => ?_)
  · exact HEq.rfl
  have r := res_binary (τ := τ) (a := main_v115) (b := main_v116) (y := main_v117) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v115 (val_main_v115 (F := F) x0 x3) (memAt% 8)) (h.get' main_v116 (val_main_v116 (F := F) x0 x3) (memAt% 0))
  refine Inv.cons h _ _ main_v117 (val_main_v117 (F := F) x0 x3) rfl (by decide) (r.trans ?_) (fun W h => ?_)
  · rfl
  have r := res_unary (τ := τ) (x := main_v117) (y := main_v118) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v117 (val_main_v117 (F := F) x0 x3) (memAt% 0))
  refine Inv.cons h _ _ main_v118 (val_main_v118 (F := F) x0 x3) rfl (by decide) (r.trans ?_) (fun W h => ?_)
  · rfl
  have r := res_tnullary (τ := τ) (W := W) (TRef.of (T := ⟨S_, .i32⟩) main_call7_c) (constantI S_ 32 0#32)
  refine Inv.cons h _ _ main_call7_c (val_main_call7_c (F := F)) rfl (by decide) (r.trans (toBuf_of_heq (TRef.of (T := ⟨S_, .i32⟩) main_call7_c) (w := val_main_call7_c (F := F)) ?_)) (fun W h => ?_)
  · exact HEq.rfl
  have r := res_tunary (τ := τ) (TRef.of (T := ⟨S_, .i32⟩) main_call7_c) (TRef.of (T := ⟨S4x1x40000, .i32⟩) main_call7_v0) (broadcastInDim S4x1x40000 ![] bcast_S_S4x1x40000) (h.tget (TRef.of (T := ⟨S_, .i32⟩) main_call7_c) (val_main_call7_c (F := F)) (val_main_call7_c (F := F)) HEq.rfl (memAt% 0))
  refine Inv.cons h _ _ main_call7_v0 (val_main_call7_v0 (F := F)) rfl (by decide) (r.trans (toBuf_of_heq (TRef.of (T := ⟨S4x1x40000, .i32⟩) main_call7_v0) (w := val_main_call7_v0 (F := F)) ?_)) (fun W h => ?_)
  · exact HEq.rfl
  have r := res_tbinary (τ := τ) (TRef.of (T := ⟨S4x1x40000, .i32⟩) main_v118) (TRef.of (T := ⟨S4x1x40000, .i32⟩) main_call7_v0) (TRef.of (T := ⟨S4x1x40000, .i1⟩) main_call7_v1) (cmpi .slt) (h.tget (TRef.of (T := ⟨S4x1x40000, .i32⟩) main_v118) (val_main_v118 (F := F) x0 x3) (val_main_v118 (F := F) x0 x3) HEq.rfl (memAt% 2)) (h.tget (TRef.of (T := ⟨S4x1x40000, .i32⟩) main_call7_v0) (val_main_call7_v0 (F := F)) (val_main_call7_v0 (F := F)) HEq.rfl (memAt% 0))
  refine Inv.cons h _ _ main_call7_v1 (val_main_call7_v1 (F := F) x0 x3) rfl (by decide) (r.trans (toBuf_of_heq (TRef.of (T := ⟨S4x1x40000, .i1⟩) main_call7_v1) (w := val_main_call7_v1 (F := F) x0 x3) ?_)) (fun W h => ?_)
  · exact HEq.rfl
  have r := res_tnullary (τ := τ) (W := W) (TRef.of (T := ⟨S_, .i32⟩) main_call7_c_0) (constantI S_ 32 4096#32)
  refine Inv.cons h _ _ main_call7_c_0 (val_main_call7_c_0 (F := F)) rfl (by decide) (r.trans (toBuf_of_heq (TRef.of (T := ⟨S_, .i32⟩) main_call7_c_0) (w := val_main_call7_c_0 (F := F)) ?_)) (fun W h => ?_)
  · exact HEq.rfl
  have r := res_tunary (τ := τ) (TRef.of (T := ⟨S_, .i32⟩) main_call7_c_0) (TRef.of (T := ⟨S4x1x40000, .i32⟩) main_call7_v2) (broadcastInDim S4x1x40000 ![] bcast_S_S4x1x40000) (h.tget (TRef.of (T := ⟨S_, .i32⟩) main_call7_c_0) (val_main_call7_c_0 (F := F)) (val_main_call7_c_0 (F := F)) HEq.rfl (memAt% 0))
  refine Inv.cons h _ _ main_call7_v2 (val_main_call7_v2 (F := F)) rfl (by decide) (r.trans (toBuf_of_heq (TRef.of (T := ⟨S4x1x40000, .i32⟩) main_call7_v2) (w := val_main_call7_v2 (F := F)) ?_)) (fun W h => ?_)
  · exact HEq.rfl
  have r := res_tbinary (τ := τ) (TRef.of (T := ⟨S4x1x40000, .i32⟩) main_v118) (TRef.of (T := ⟨S4x1x40000, .i32⟩) main_call7_v2) (TRef.of (T := ⟨S4x1x40000, .i32⟩) main_call7_v3) addi (h.tget (TRef.of (T := ⟨S4x1x40000, .i32⟩) main_v118) (val_main_v118 (F := F) x0 x3) (val_main_v118 (F := F) x0 x3) HEq.rfl (memAt% 5)) (h.tget (TRef.of (T := ⟨S4x1x40000, .i32⟩) main_call7_v2) (val_main_call7_v2 (F := F)) (val_main_call7_v2 (F := F)) HEq.rfl (memAt% 0))
  refine Inv.cons h _ _ main_call7_v3 (val_main_call7_v3 (F := F) x0 x3) rfl (by decide) (r.trans (toBuf_of_heq (TRef.of (T := ⟨S4x1x40000, .i32⟩) main_call7_v3) (w := val_main_call7_v3 (F := F) x0 x3) ?_)) (fun W h => ?_)
  · exact HEq.rfl
  have r := res_tternary (τ := τ) (TRef.of (T := ⟨S4x1x40000, .i1⟩) main_call7_v1) (TRef.of (T := ⟨S4x1x40000, .i32⟩) main_call7_v3) (TRef.of (T := ⟨S4x1x40000, .i32⟩) main_v118) (TRef.of (T := ⟨S4x1x40000, .i32⟩) main_call7_v4) select (h.tget (TRef.of (T := ⟨S4x1x40000, .i1⟩) main_call7_v1) (val_main_call7_v1 (F := F) x0 x3) (val_main_call7_v1 (F := F) x0 x3) HEq.rfl (memAt% 3)) (h.tget (TRef.of (T := ⟨S4x1x40000, .i32⟩) main_call7_v3) (val_main_call7_v3 (F := F) x0 x3) (val_main_call7_v3 (F := F) x0 x3) HEq.rfl (memAt% 0)) (h.tget (TRef.of (T := ⟨S4x1x40000, .i32⟩) main_v118) (val_main_v118 (F := F) x0 x3) (val_main_v118 (F := F) x0 x3) HEq.rfl (memAt% 6))
  refine Inv.cons h _ _ main_call7_v4 (val_main_call7_v4 (F := F) x0 x3) rfl (by decide) (r.trans (toBuf_of_heq (TRef.of (T := ⟨S4x1x40000, .i32⟩) main_call7_v4) (w := val_main_call7_v4 (F := F) x0 x3) ?_)) (fun W h => ?_)
  · exact HEq.rfl
  have r := res_treshape (τ := τ) (TRef.of (T := ⟨S4x1x40000, .i32⟩) main_call7_v4) (TRef.of (T := ⟨S4x40000x1, .i32⟩) main_call7_v5) rfl shapeCasts_S4x1x40000_S4x40000x1 (h.tget (TRef.of (T := ⟨S4x1x40000, .i32⟩) main_call7_v4) (val_main_call7_v4 (F := F) x0 x3) (val_main_call7_v4 (F := F) x0 x3) HEq.rfl (memAt% 0))
  refine Inv.cons h _ _ main_call7_v5 (val_main_call7_v5 (F := F) x0 x3) rfl (by decide) (r.trans (toBuf_of_heq (TRef.of (T := ⟨S4x40000x1, .i32⟩) main_call7_v5) (w := val_main_call7_v5 (F := F) x0 x3) ?_)) (fun W h => ?_)
  · exact HEq.rfl
  have r := res_tnullary (τ := τ) (W := W) (TRef.of (T := ⟨S1, .i32⟩) main_call7_c_1) (constantI S1 32 4095#32)
  refine Inv.cons h _ _ main_call7_c_1 (val_main_call7_c_1 (F := F)) rfl (by decide) (r.trans (toBuf_of_heq (TRef.of (T := ⟨S1, .i32⟩) main_call7_c_1) (w := val_main_call7_c_1 (F := F)) ?_)) (fun W h => ?_)
  · exact HEq.rfl
  have r := res_tnullary (τ := τ) (W := W) (TRef.of (T := ⟨S_, .i32⟩) main_call7_c_2) (constantI S_ 32 0#32)
  refine Inv.cons h _ _ main_call7_c_2 (val_main_call7_c_2 (F := F)) rfl (by decide) (r.trans (toBuf_of_heq (TRef.of (T := ⟨S_, .i32⟩) main_call7_c_2) (w := val_main_call7_c_2 (F := F)) ?_)) (fun W h => ?_)
  · exact HEq.rfl
  have r := res_tunary (τ := τ) (TRef.of (T := ⟨S_, .i32⟩) main_call7_c_2) (TRef.of (T := ⟨S4x40000x1, .i32⟩) main_call7_v6) (broadcastInDim S4x40000x1 ![] bcast_S_S4x40000x1) (h.tget (TRef.of (T := ⟨S_, .i32⟩) main_call7_c_2) (val_main_call7_c_2 (F := F)) (val_main_call7_c_2 (F := F)) HEq.rfl (memAt% 0))
  refine Inv.cons h _ _ main_call7_v6 (val_main_call7_v6 (F := F)) rfl (by decide) (r.trans (toBuf_of_heq (TRef.of (T := ⟨S4x40000x1, .i32⟩) main_call7_v6) (w := val_main_call7_v6 (F := F)) ?_)) (fun W h => ?_)
  · exact HEq.rfl
  have r := res_tbinary (τ := τ) (TRef.of (T := ⟨S4x40000x1, .i32⟩) main_call7_v5) (TRef.of (T := ⟨S4x40000x1, .i32⟩) main_call7_v6) (TRef.of (T := ⟨S4x40000x1, .i1⟩) main_call7_v7) (cmpi .sge) (h.tget (TRef.of (T := ⟨S4x40000x1, .i32⟩) main_call7_v5) (val_main_call7_v5 (F := F) x0 x3) (val_main_call7_v5 (F := F) x0 x3) HEq.rfl (memAt% 3)) (h.tget (TRef.of (T := ⟨S4x40000x1, .i32⟩) main_call7_v6) (val_main_call7_v6 (F := F)) (val_main_call7_v6 (F := F)) HEq.rfl (memAt% 0))
  refine Inv.cons h _ _ main_call7_v7 (val_main_call7_v7 (F := F) x0 x3) rfl (by decide) (r.trans (toBuf_of_heq (TRef.of (T := ⟨S4x40000x1, .i1⟩) main_call7_v7) (w := val_main_call7_v7 (F := F) x0 x3) ?_)) (fun W h => ?_)
  · exact HEq.rfl
  exact h

/-- Operations 231 … 254 of the line. -/
abbrev seg9 : List (HloOp τ sig (Elt F)) :=
  [ TRef.unary (TRef.of (T := ⟨S1, .i32⟩) main_call7_c_1) (TRef.of (T := ⟨S1x1x1, .i32⟩) main_call7_v8) (broadcastInDim S1x1x1 ![2] bcast_S1_S1x1x1_2),
    TRef.unary (TRef.of (T := ⟨S1x1x1, .i32⟩) main_call7_v8) (TRef.of (T := ⟨S4x40000x1, .i32⟩) main_call7_v9) (broadcastInDim S4x40000x1 ![0, 1, 2] bcast_S1x1x1_S4x40000x1_0_1_2),
    TRef.binary (TRef.of (T := ⟨S4x40000x1, .i32⟩) main_call7_v5) (TRef.of (T := ⟨S4x40000x1, .i32⟩) main_call7_v9) (TRef.of (T := ⟨S4x40000x1, .i1⟩) main_call7_v10) (cmpi .sle),
    TRef.binary (TRef.of (T := ⟨S4x40000x1, .i1⟩) main_call7_v7) (TRef.of (T := ⟨S4x40000x1, .i1⟩) main_call7_v10) (TRef.of (T := ⟨S4x40000x1, .i1⟩) main_call7_v11) andi,
    TRef.nullary (TRef.of (T := ⟨S_, .i1⟩) main_call7_c_3) (constantI S_ 1 1#1),
    TRef.binary (TRef.of (T := ⟨S4x40000x1, .i1⟩) main_call7_v11) (TRef.of (T := ⟨S_, .i1⟩) main_call7_c_3) (TRef.of (T := ⟨S4x40000, .i1⟩) main_call7_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call7_v5) (TRef.of (T := ⟨S4x128x40000, .f32⟩) main_call7_v13) (fun x i => Host.gather gather_S4x128x4096_S4x40000x1_S4x128x40000_1_2_0_0_2_2_11281 x i),
    TRef.unary (TRef.of (T := ⟨S4x40000, .i1⟩) main_call7_v12) (TRef.of (T := ⟨S4x128x40000, .i1⟩) main_call7_v14) (broadcastInDim S4x128x40000 ![0, 2] bcast_S4x40000_S4x128x40000_0_2),
    TRef.nullary (TRef.of (T := ⟨S_, .f32⟩) main_call7_cst) (constant S_ .f32 0x7FC00000#32),
    TRef.unary (TRef.of (T := ⟨S_, .f32⟩) main_call7_cst) (TRef.of (T := ⟨S4x128x40000, .f32⟩) main_call7_v15) (broadcastInDim S4x128x40000 ![] bcast_S_S4x128x40000),
    TRef.ternary (TRef.of (T := ⟨S4x128x40000, .i1⟩) main_call7_v14) (TRef.of (T := ⟨S4x128x40000, .f32⟩) main_call7_v13) (TRef.of (T := ⟨S4x128x40000, .f32⟩) main_call7_v15) (TRef.of (T := ⟨S4x128x40000, .f32⟩) main_v119) select,
    unary main_v108 main_v120 (uitofp .f32 : (⟨S4x40000, .i1⟩ : BufTy).Contents (Elt F) → (⟨S4x40000, .f32⟩ : BufTy).Contents (Elt F)),
    binary main_v91 main_v120 main_v121 (mulf : (⟨S4x40000, .f32⟩ : BufTy).Contents (Elt F) → (⟨S4x40000, .f32⟩ : BufTy).Contents (Elt F) → (⟨S4x40000, .f32⟩ : BufTy).Contents (Elt F)),
    unary main_v121 main_v122 (broadcastInDim S4x1x40000 ![0, 2] bcast_S4x40000_S4x1x40000_0_2 : (⟨S4x40000, .f32⟩ : BufTy).Contents (Elt F) → (⟨S4x1x40000, .f32⟩ : BufTy).Contents (Elt F)),
    unary main_v122 main_v123 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v119 main_v123 main_v124 (mulf : (⟨S4x128x40000, .f32⟩ : BufTy).Contents (Elt F) → (⟨S4x128x40000, .f32⟩ : BufTy).Contents (Elt F) → (⟨S4x128x40000, .f32⟩ : BufTy).Contents (Elt F)),
    binary main_v85 main_v124 main_v125 (addf : (⟨S4x128x40000, .f32⟩ : BufTy).Contents (Elt F) → (⟨S4x128x40000, .f32⟩ : BufTy).Contents (Elt F) → (⟨S4x128x40000, .f32⟩ : BufTy).Contents (Elt F)),
    nullary main_cst_45 (constant S_ .f32 0x3F800000#32),
    unary main_cst_45 main_v126 (broadcastInDim S4x40000 ![] bcast_S_S4x40000 : (⟨S_, .f32⟩ : BufTy).Contents (Elt F) → (⟨S4x40000, .f32⟩ : BufTy).Contents (Elt F)),
    binary main_v126 main_v32 main_v127 (subf : (⟨S4x40000, .f32⟩ : BufTy).Contents (Elt F) → (⟨S4x40000, .f32⟩ : BufTy).Contents (Elt F) → (⟨S4x40000, .f32⟩ : BufTy).Contents (Elt F)),
    binary main_v127 main_v33 main_v128 (mulf : (⟨S4x40000, .f32⟩ : BufTy).Contents (Elt F) → (⟨S4x40000, .f32⟩ : BufTy).Contents (Elt F) → (⟨S4x40000, .f32⟩ : BufTy).Contents (Elt F)),
    nullary main_cst_46 (constant S_ .f32 0x3F800000#32),
    unary main_cst_46 main_v129 (broadcastInDim S4x40000 ![] bcast_S_S4x40000 : (⟨S_, .f32⟩ : BufTy).Contents (Elt F) → (⟨S4x40000, .f32⟩ : BufTy).Contents (Elt F)),
    binary main_v129 main_v34 main_v130 (subf : (⟨S4x40000, .f32⟩ : BufTy).Contents (Elt F) → (⟨S4x40000, .f32⟩ : BufTy).Contents (Elt F) → (⟨S4x40000, .f32⟩ : BufTy).Contents (Elt F)) ]

/-- The facts after operation 254: each buffer written so far at its stage value. -/
def facts9 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v130, val_main_v130 (F := F) x0 x3⟩ ::
  ⟨main_v129, val_main_v129 (F := F)⟩ ::
  ⟨main_cst_46, val_main_cst_46 (F := F)⟩ ::
  ⟨main_v128, val_main_v128 (F := F) x0 x3⟩ ::
  ⟨main_v127, val_main_v127 (F := F) x0 x3⟩ ::
  ⟨main_v126, val_main_v126 (F := F)⟩ ::
  ⟨main_cst_45, val_main_cst_45 (F := F)⟩ ::
  ⟨main_v125, val_main_v125 (F := F) x0 x2 x3⟩ ::
  ⟨main_v124, val_main_v124 (F := F) x0 x2 x3⟩ ::
  ⟨main_v123, val_main_v123 (F := F) x0 x3⟩ ::
  ⟨main_v122, val_main_v122 (F := F) x0 x3⟩ ::
  ⟨main_v121, val_main_v121 (F := F) x0 x3⟩ ::
  ⟨main_v120, val_main_v120 (F := F) x0 x3⟩ ::
  ⟨main_v119, val_main_v119 (F := F) x0 x2 x3⟩ ::
  ⟨main_call7_v15, val_main_call7_v15 (F := F)⟩ ::
  ⟨main_call7_cst, val_main_call7_cst (F := F)⟩ ::
  ⟨main_call7_v14, val_main_call7_v14 (F := F) x0 x3⟩ ::
  ⟨main_call7_v13, val_main_call7_v13 (F := F) x0 x2 x3⟩ ::
  ⟨main_call7_v12, val_main_call7_v12 (F := F) x0 x3⟩ ::
  ⟨main_call7_c_3, val_main_call7_c_3 (F := F)⟩ ::
  ⟨main_call7_v11, val_main_call7_v11 (F := F) x0 x3⟩ ::
  ⟨main_call7_v10, val_main_call7_v10 (F := F) x0 x3⟩ ::
  ⟨main_call7_v9, val_main_call7_v9 (F := F)⟩ ::
  ⟨main_call7_v8, val_main_call7_v8 (F := F)⟩ ::
  facts8 x0 x1 x2 x3

theorem up9 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts8 x0 x1 x2 x3) : p ∈ facts9 x0 x1 x2 x3 :=
  memUp% 24 hp

set_option maxRecDepth 8192 in
set_option maxHeartbeats 2000000 in
/-- Operations 231 … 254: each adds the fact of the buffer it writes. -/
theorem run9 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts8 x0 x1 x2 x3) 234) :
    Inv (after seg9 W) (facts9 x0 x1 x2 x3) 258 := by
  have r := res_tunary (τ := τ) (TRef.of (T := ⟨S1, .i32⟩) main_call7_c_1) (TRef.of (T := ⟨S1x1x1, .i32⟩) main_call7_v8) (broadcastInDim S1x1x1 ![2] bcast_S1_S1x1x1_2) (h.tget (TRef.of (T := ⟨S1, .i32⟩) main_call7_c_1) (val_main_call7_c_1 (F := F)) (val_main_call7_c_1 (F := F)) HEq.rfl (memUp% 0 (memAt% 3 : (⟨main_call7_c_1, val_main_call7_c_1 (F := F)⟩ : Fact sig (Elt F)) ∈ facts8 x0 x1 x2 x3)))
  refine Inv.cons h _ _ main_call7_v8 (val_main_call7_v8 (F := F)) rfl (by decide) (r.trans (toBuf_of_heq (TRef.of (T := ⟨S1x1x1, .i32⟩) main_call7_v8) (w := val_main_call7_v8 (F := F)) ?_)) (fun W h => ?_)
  · exact HEq.rfl
  have r := res_tunary (τ := τ) (TRef.of (T := ⟨S1x1x1, .i32⟩) main_call7_v8) (TRef.of (T := ⟨S4x40000x1, .i32⟩) main_call7_v9) (broadcastInDim S4x40000x1 ![0, 1, 2] bcast_S1x1x1_S4x40000x1_0_1_2) (h.tget (TRef.of (T := ⟨S1x1x1, .i32⟩) main_call7_v8) (val_main_call7_v8 (F := F)) (val_main_call7_v8 (F := F)) HEq.rfl (memAt% 0))
  refine Inv.cons h _ _ main_call7_v9 (val_main_call7_v9 (F := F)) rfl (by decide) (r.trans (toBuf_of_heq (TRef.of (T := ⟨S4x40000x1, .i32⟩) main_call7_v9) (w := val_main_call7_v9 (F := F)) ?_)) (fun W h => ?_)
  · exact HEq.rfl
  have r := res_tbinary (τ := τ) (TRef.of (T := ⟨S4x40000x1, .i32⟩) main_call7_v5) (TRef.of (T := ⟨S4x40000x1, .i32⟩) main_call7_v9) (TRef.of (T := ⟨S4x40000x1, .i1⟩) main_call7_v10) (cmpi .sle) (h.tget (TRef.of (T := ⟨S4x40000x1, .i32⟩) main_call7_v5) (val_main_call7_v5 (F := F) x0 x3) (val_main_call7_v5 (F := F) x0 x3) HEq.rfl (memUp% 2 (memAt% 4 : (⟨main_call7_v5, val_main_call7_v5 (F := F) x0 x3⟩ : Fact sig (Elt F)) ∈ facts8 x0 x1 x2 x3))) (h.tget (TRef.of (T := ⟨S4x40000x1, .i32⟩) main_call7_v9) (val_main_call7_v9 (F := F)) (val_main_call7_v9 (F := F)) HEq.rfl (memAt% 0))
  refine Inv.cons h _ _ main_call7_v10 (val_main_call7_v10 (F := F) x0 x3) rfl (by decide) (r.trans (toBuf_of_heq (TRef.of (T := ⟨S4x40000x1, .i1⟩) main_call7_v10) (w := val_main_call7_v10 (F := F) x0 x3) ?_)) (fun W h => ?_)
  · exact HEq.rfl
  have r := res_tbinary (τ := τ) (TRef.of (T := ⟨S4x40000x1, .i1⟩) main_call7_v7) (TRef.of (T := ⟨S4x40000x1, .i1⟩) main_call7_v10) (TRef.of (T := ⟨S4x40000x1, .i1⟩) main_call7_v11) andi (h.tget (TRef.of (T := ⟨S4x40000x1, .i1⟩) main_call7_v7) (val_main_call7_v7 (F := F) x0 x3) (val_main_call7_v7 (F := F) x0 x3) HEq.rfl (memUp% 3 (memAt% 0 : (⟨main_call7_v7, val_main_call7_v7 (F := F) x0 x3⟩ : Fact sig (Elt F)) ∈ facts8 x0 x1 x2 x3))) (h.tget (TRef.of (T := ⟨S4x40000x1, .i1⟩) main_call7_v10) (val_main_call7_v10 (F := F) x0 x3) (val_main_call7_v10 (F := F) x0 x3) HEq.rfl (memAt% 0))
  refine Inv.cons h _ _ main_call7_v11 (val_main_call7_v11 (F := F) x0 x3) rfl (by decide) (r.trans (toBuf_of_heq (TRef.of (T := ⟨S4x40000x1, .i1⟩) main_call7_v11) (w := val_main_call7_v11 (F := F) x0 x3) ?_)) (fun W h => ?_)
  · exact HEq.rfl
  have r := res_tnullary (τ := τ) (W := W) (TRef.of (T := ⟨S_, .i1⟩) main_call7_c_3) (constantI S_ 1 1#1)
  refine Inv.cons h _ _ main_call7_c_3 (val_main_call7_c_3 (F := F)) rfl (by decide) (r.trans (toBuf_of_heq (TRef.of (T := ⟨S_, .i1⟩) main_call7_c_3) (w := val_main_call7_c_3 (F := F)) ?_)) (fun W h => ?_)
  · exact HEq.rfl
  have r := res_tbinary (τ := τ) (TRef.of (T := ⟨S4x40000x1, .i1⟩) main_call7_v11) (TRef.of (T := ⟨S_, .i1⟩) main_call7_c_3) (TRef.of (T := ⟨S4x40000, .i1⟩) main_call7_v12) (fun x v => Host.reduce IntOp.andi x v reducesTo_S4x40000x1_S4x40000_d2 h_S_) (h.tget (TRef.of (T := ⟨S4x40000x1, .i1⟩) main_call7_v11) (val_main_call7_v11 (F := F) x0 x3) (val_main_call7_v11 (F := F) x0 x3) HEq.rfl (memAt% 1)) (h.tget (TRef.of (T := ⟨S_, .i1⟩) main_call7_c_3) (val_main_call7_c_3 (F := F)) (val_main_call7_c_3 (F := F)) HEq.rfl (memAt% 0))
  refine Inv.cons h _ _ main_call7_v12 (val_main_call7_v12 (F := F) x0 x3) rfl (by decide) (r.trans (toBuf_of_heq (TRef.of (T := ⟨S4x40000, .i1⟩) main_call7_v12) (w := val_main_call7_v12 (F := F) x0 x3) ?_)) (fun W h => ?_)
  · exact HEq.rfl
  have r := res_tbinary (τ := τ) (TRef.of (T := ⟨S4x128x4096, .f32⟩) main_v44) (TRef.of (T := ⟨S4x40000x1, .i32⟩) main_call7_v5) (TRef.of (T := ⟨S4x128x40000, .f32⟩) main_call7_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 6 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3)))))))))) (h.tget (TRef.of (T := ⟨S4x40000x1, .i32⟩) main_call7_v5) (val_main_call7_v5 (F := F) x0 x3) (val_main_call7_v5 (F := F) x0 x3) HEq.rfl (memUp% 6 (memAt% 4 : (⟨main_call7_v5, val_main_call7_v5 (F := F) x0 x3⟩ : Fact sig (Elt F)) ∈ facts8 x0 x1 x2 x3)))
  refine Inv.cons h _ _ main_call7_v13 (val_main_call7_v13 (F := F) x0 x2 x3) rfl (by decide) (r.trans (toBuf_of_heq (TRef.of (T := ⟨S4x128x40000, .f32⟩) main_call7_v13) (w := val_main_call7_v13 (F := F) x0 x2 x3) ?_)) (fun W h => ?_)
  · exact HEq.rfl
  have r := res_tunary (τ := τ) (TRef.of (T := ⟨S4x40000, .i1⟩) main_call7_v12) (TRef.of (T := ⟨S4x128x40000, .i1⟩) main_call7_v14) (broadcastInDim S4x128x40000 ![0, 2] bcast_S4x40000_S4x128x40000_0_2) (h.tget (TRef.of (T := ⟨S4x40000, .i1⟩) main_call7_v12) (val_main_call7_v12 (F := F) x0 x3) (val_main_call7_v12 (F := F) x0 x3) HEq.rfl (memAt% 1))
  refine Inv.cons h _ _ main_call7_v14 (val_main_call7_v14 (F := F) x0 x3) rfl (by decide) (r.trans (toBuf_of_heq (TRef.of (T := ⟨S4x128x40000, .i1⟩) main_call7_v14) (w := val_main_call7_v14 (F := F) x0 x3) ?_)) (fun W h => ?_)
  · exact HEq.rfl
  have r := res_tnullary (τ := τ) (W := W) (TRef.of (T := ⟨S_, .f32⟩) main_call7_cst) (constant S_ .f32 0x7FC00000#32)
  refine Inv.cons h _ _ main_call7_cst (val_main_call7_cst (F := F)) rfl (by decide) (r.trans (toBuf_of_heq (TRef.of (T := ⟨S_, .f32⟩) main_call7_cst) (w := val_main_call7_cst (F := F)) ?_)) (fun W h => ?_)
  · exact HEq.rfl
  have r := res_tunary (τ := τ) (TRef.of (T := ⟨S_, .f32⟩) main_call7_cst) (TRef.of (T := ⟨S4x128x40000, .f32⟩) main_call7_v15) (broadcastInDim S4x128x40000 ![] bcast_S_S4x128x40000) (h.tget (TRef.of (T := ⟨S_, .f32⟩) main_call7_cst) (val_main_call7_cst (F := F)) (val_main_call7_cst (F := F)) HEq.rfl (memAt% 0))
  refine Inv.cons h _ _ main_call7_v15 (val_main_call7_v15 (F := F)) rfl (by decide) (r.trans (toBuf_of_heq (TRef.of (T := ⟨S4x128x40000, .f32⟩) main_call7_v15) (w := val_main_call7_v15 (F := F)) ?_)) (fun W h => ?_)
  · exact HEq.rfl
  have r := res_tternary (τ := τ) (TRef.of (T := ⟨S4x128x40000, .i1⟩) main_call7_v14) (TRef.of (T := ⟨S4x128x40000, .f32⟩) main_call7_v13) (TRef.of (T := ⟨S4x128x40000, .f32⟩) main_call7_v15) (TRef.of (T := ⟨S4x128x40000, .f32⟩) main_v119) select (h.tget (TRef.of (T := ⟨S4x128x40000, .i1⟩) main_call7_v14) (val_main_call7_v14 (F := F) x0 x3) (val_main_call7_v14 (F := F) x0 x3) HEq.rfl (memAt% 2)) (h.tget (TRef.of (T := ⟨S4x128x40000, .f32⟩) main_call7_v13) (val_main_call7_v13 (F := F) x0 x2 x3) (val_main_call7_v13 (F := F) x0 x2 x3) HEq.rfl (memAt% 3)) (h.tget (TRef.of (T := ⟨S4x128x40000, .f32⟩) main_call7_v15) (val_main_call7_v15 (F := F)) (val_main_call7_v15 (F := F)) HEq.rfl (memAt% 0))
  refine Inv.cons h _ _ main_v119 (val_main_v119 (F := F) x0 x2 x3) rfl (by decide) (r.trans (toBuf_of_heq (TRef.of (T := ⟨S4x128x40000, .f32⟩) main_v119) (w := val_main_v119 (F := F) x0 x2 x3) ?_)) (fun W h => ?_)
  · exact HEq.rfl
  have r := res_unary (τ := τ) (x := main_v108) (y := main_v120) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v108 (val_main_v108 (F := F) x0 x3) (memUp% 11 (up8 x0 x1 x2 x3 (memAt% 21 : (⟨main_v108, val_main_v108 (F := F) x0 x3⟩ : Fact sig (Elt F)) ∈ facts7 x0 x1 x2 x3))))
  refine Inv.cons h _ _ main_v120 (val_main_v120 (F := F) x0 x3) rfl (by decide) (r.trans ?_) (fun W h => ?_)
  · rfl
  have r := res_binary (τ := τ) (a := main_v91) (b := main_v120) (y := main_v121) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v91 (val_main_v91 (F := F) x0 x3) (memUp% 12 (up8 x0 x1 x2 x3 (up7 x0 x1 x2 x3 (memAt% 20 : (⟨main_v91, val_main_v91 (F := F) x0 x3⟩ : Fact sig (Elt F)) ∈ facts6 x0 x1 x2 x3))))) (h.get' main_v120 (val_main_v120 (F := F) x0 x3) (memAt% 0))
  refine Inv.cons h _ _ main_v121 (val_main_v121 (F := F) x0 x3) rfl (by decide) (r.trans ?_) (fun W h => ?_)
  · rfl
  have r := res_unary (τ := τ) (x := main_v121) (y := main_v122) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v121 (val_main_v121 (F := F) x0 x3) (memAt% 0))
  refine Inv.cons h _ _ main_v122 (val_main_v122 (F := F) x0 x3) rfl (by decide) (r.trans ?_) (fun W h => ?_)
  · rfl
  have r := res_unary (τ := τ) (x := main_v122) (y := main_v123) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v122 (val_main_v122 (F := F) x0 x3) (memAt% 0))
  refine Inv.cons h _ _ main_v123 (val_main_v123 (F := F) x0 x3) rfl (by decide) (r.trans ?_) (fun W h => ?_)
  · rfl
  have r := res_binary (τ := τ) (a := main_v119) (b := main_v123) (y := main_v124) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v119 (val_main_v119 (F := F) x0 x2 x3) (memAt% 4)) (h.get' main_v123 (val_main_v123 (F := F) x0 x3) (memAt% 0))
  refine Inv.cons h _ _ main_v124 (val_main_v124 (F := F) x0 x2 x3) rfl (by decide) (r.trans ?_) (fun W h => ?_)
  · rfl
  have r := res_binary (τ := τ) (a := main_v85) (b := main_v124) (y := main_v125) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v85 (val_main_v85 (F := F) x0 x2 x3) (memUp% 16 (up8 x0 x1 x2 x3 (up7 x0 x1 x2 x3 (up6 x0 x1 x2 x3 (memAt% 3 : (⟨main_v85, val_main_v85 (F := F) x0 x2 x3⟩ : Fact sig (Elt F)) ∈ facts5 x0 x1 x2 x3)))))) (h.get' main_v124 (val_main_v124 (F := F) x0 x2 x3) (memAt% 0))
  refine Inv.cons h _ _ main_v125 (val_main_v125 (F := F) x0 x2 x3) rfl (by decide) (r.trans ?_) (fun W h => ?_)
  · rfl
  have r := res_nullary (τ := τ) (W := W) (y := main_cst_45) (v := (constant S_ .f32 0x3F800000#32)) (hy := ⟨by decide, rfl⟩)
  refine Inv.cons h _ _ main_cst_45 (val_main_cst_45 (F := F)) rfl (by decide) (r.trans ?_) (fun W h => ?_)
  · rfl
  have r := res_unary (τ := τ) (x := main_cst_45) (y := main_v126) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_45 (val_main_cst_45 (F := F)) (memAt% 0))
  refine Inv.cons h _ _ main_v126 (val_main_v126 (F := F)) rfl (by decide) (r.trans ?_) (fun W h => ?_)
  · rfl
  have r := res_binary (τ := τ) (a := main_v126) (b := main_v32) (y := main_v127) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v126 (val_main_v126 (F := F)) (memAt% 0)) (h.get' main_v32 (val_main_v32 (F := F) x0 x3) (memUp% 19 (up8 x0 x1 x2 x3 (up7 x0 x1 x2 x3 (up6 x0 x1 x2 x3 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3))))))))))
  refine Inv.cons h _ _ main_v127 (val_main_v127 (F := F) x0 x3) rfl (by decide) (r.trans ?_) (fun W h => ?_)
  · rfl
  have r := res_binary (τ := τ) (a := main_v127) (b := main_v33) (y := main_v128) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v127 (val_main_v127 (F := F) x0 x3) (memAt% 0)) (h.get' main_v33 (val_main_v33 (F := F) x0 x3) (memUp% 20 (up8 x0 x1 x2 x3 (up7 x0 x1 x2 x3 (up6 x0 x1 x2 x3 (up5 x0 x1 x2 x3 (up4 x0 x1 x2 x3 (up3 x0 x1 x2 x3 (up2 x0 x1 x2 x3 (memAt% 15 : (⟨main_v33, val_main_v33 (F := F) x0 x3⟩ : Fact sig (Elt F)) ∈ facts1 x0 x1 x2 x3))))))))))
  refine Inv.cons h _ _ main_v128 (val_main_v128 (F := F) x0 x3) rfl (by decide) (r.trans ?_) (fun W h => ?_)
  · rfl
  have r := res_nullary (τ := τ) (W := W) (y := main_cst_46) (v := (constant S_ .f32 0x3F800000#32)) (hy := ⟨by decide, rfl⟩)
  refine Inv.cons h _ _ main_cst_46 (val_main_cst_46 (F := F)) rfl (by decide) (r.trans ?_) (fun W h => ?_)
  · rfl
  have r := res_unary (τ := τ) (x := main_cst_46) (y := main_v129) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_46 (val_main_cst_46 (F := F)) (memAt% 0))
  refine Inv.cons h _ _ main_v129 (val_main_v129 (F := F)) rfl (by decide) (r.trans ?_) (fun W h => ?_)
  · rfl
  have r := res_binary (τ := τ) (a := main_v129) (b := main_v34) (y := main_v130) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v129 (val_main_v129 (F := F)) (memAt% 0)) (h.get' main_v34 (val_main_v34 (F := F) x0 x3) (memUp% 23 (up8 x0 x1 x2 x3 (up7 x0 x1 x2 x3 (up6 x0 x1 x2 x3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3))))))))))
  refine Inv.cons h _ _ main_v130 (val_main_v130 (F := F) x0 x3) rfl (by decide) (r.trans ?_) (fun W h => ?_)
  · rfl
  exact h

end Cert.ReferenceIdeal.Line

end
-- ==== Proof.RefLineB.lean ====
/-
  The reference's straight line read stage by stage, operations 255 … 545: after each stretch every buffer
  written so far holds its stage value (the stage functions of the arguments), each operation's step by one unfolding
  of its stage's definition.
-/
import proofs.«120255_j59700045415095_2_alg».proof.Proof.RefLineA

noncomputable section

namespace Cert.ReferenceIdeal.Line

open Cert.ReferenceIdeal Cert.ReferenceIdeal.Gen Cert.ReferenceIdeal.Read Cert.HostLine Idealize.ShloMosaic Idealize.ShloMosaic.TcCoe Idealize.SL.Sem Idealize.ShloMosaic.StableHlo

variable {F : FTy → Type} [FloatOps F]

/-- Operations 255 … 279 of the line. -/
abbrev seg10 : List (HloOp τ sig (Elt F)) :=
  [ binary main_v128 main_v130 main_v131 (mulf : (⟨S4x40000, .f32⟩ : BufTy).Contents (Elt F) → (⟨S4x40000, .f32⟩ : BufTy).Contents (Elt F) → (⟨S4x40000, .f32⟩ : BufTy).Contents (Elt F)),
    nullary main_c_47 (constantI S_ 32 0#32),
    unary main_c_47 main_v132 (broadcastInDim S4x40000 ![] bcast_S_S4x40000 : (⟨S_, .i32⟩ : BufTy).Contents (Elt F) → (⟨S4x40000, .i32⟩ : BufTy).Contents (Elt F)),
    binary main_v35 main_v132 main_v133 (cmpi .sge : (⟨S4x40000, .i32⟩ : BufTy).Contents (Elt F) → (⟨S4x40000, .i32⟩ : BufTy).Contents (Elt F) → (⟨S4x40000, .i1⟩ : BufTy).Contents (Elt F)),
    nullary main_c_48 (constantI S_ 32 16#32),
    unary main_c_48 main_v134 (broadcastInDim S4x40000 ![] bcast_S_S4x40000 : (⟨S_, .i32⟩ : BufTy).Contents (Elt F) → (⟨S4x40000, .i32⟩ : BufTy).Contents (Elt F)),
    binary main_v35 main_v134 main_v135 (cmpi .slt : (⟨S4x40000, .i32⟩ : BufTy).Contents (Elt F) → (⟨S4x40000, .i32⟩ : BufTy).Contents (Elt F) → (⟨S4x40000, .i1⟩ : BufTy).Contents (Elt F)),
    binary main_v133 main_v135 main_v136 (andi : (⟨S4x40000, .i1⟩ : BufTy).Contents (Elt F) → (⟨S4x40000, .i1⟩ : BufTy).Contents (Elt F) → (⟨S4x40000, .i1⟩ : BufTy).Contents (Elt F)),
    nullary main_c_49 (constantI S_ 32 0#32),
    unary main_c_49 main_v137 (broadcastInDim S4x40000 ![] bcast_S_S4x40000 : (⟨S_, .i32⟩ : BufTy).Contents (Elt F) → (⟨S4x40000, .i32⟩ : BufTy).Contents (Elt F)),
    binary main_v41 main_v137 main_v138 (cmpi .sge : (⟨S4x40000, .i32⟩ : BufTy).Contents (Elt F) → (⟨S4x40000, .i32⟩ : BufTy).Contents (Elt F) → (⟨S4x40000, .i1⟩ : BufTy).Contents (Elt F)),
    binary main_v136 main_v138 main_v139 (andi : (⟨S4x40000, .i1⟩ : BufTy).Contents (Elt F) → (⟨S4x40000, .i1⟩ : BufTy).Contents (Elt F) → (⟨S4x40000, .i1⟩ : BufTy).Contents (Elt F)),
    nullary main_c_50 (constantI S_ 32 16#32),
    unary main_c_50 main_v140 (broadcastInDim S4x40000 ![] bcast_S_S4x40000 : (⟨S_, .i32⟩ : BufTy).Contents (Elt F) → (⟨S4x40000, .i32⟩ : BufTy).Contents (Elt F)),
    binary main_v41 main_v140 main_v141 (cmpi .slt : (⟨S4x40000, .i32⟩ : BufTy).Contents (Elt F) → (⟨S4x40000, .i32⟩ : BufTy).Contents (Elt F) → (⟨S4x40000, .i1⟩ : BufTy).Contents (Elt F)),
    binary main_v139 main_v141 main_v142 (andi : (⟨S4x40000, .i1⟩ : BufTy).Contents (Elt F) → (⟨S4x40000, .i1⟩ : BufTy).Contents (Elt F) → (⟨S4x40000, .i1⟩ : BufTy).Contents (Elt F)),
    nullary main_c_51 (constantI S_ 32 0#32),
    unary main_c_51 main_v143 (broadcastInDim S4x40000 ![] bcast_S_S4x40000 : (⟨S_, .i32⟩ : BufTy).Contents (Elt F) → (⟨S4x40000, .i32⟩ : BufTy).Contents (Elt F)),
    binary main_v37 main_v143 main_v144 (cmpi .sge : (⟨S4x40000, .i32⟩ : BufTy).Contents (Elt F) → (⟨S4x40000, .i32⟩ : BufTy).Contents (Elt F) → (⟨S4x40000, .i1⟩ : BufTy).Contents (Elt F)),
    binary main_v142 main_v144 main_v145 (andi : (⟨S4x40000, .i1⟩ : BufTy).Contents (Elt F) → (⟨S4x40000, .i1⟩ : BufTy).Contents (Elt F) → (⟨S4x40000, .i1⟩ : BufTy).Contents (Elt F)),
    nullary main_c_52 (constantI S_ 32 16#32),
    unary main_c_52 main_v146 (broadcastInDim S4x40000 ![] bcast_S_S4x40000 : (⟨S_, .i32⟩ : BufTy).Contents (Elt F) → (⟨S4x40000, .i32⟩ : BufTy).Contents (Elt F)),
    binary main_v37 main_v146 main_v147 (cmpi .slt : (⟨S4x40000, .i32⟩ : BufTy).Contents (Elt F) → (⟨S4x40000, .i32⟩ : BufTy).Contents (Elt F) → (⟨S4x40000, .i1⟩ : BufTy).Contents (Elt F)),
    binary main_v145 main_v147 main_v148 (andi : (⟨S4x40000, .i1⟩ : BufTy).Contents (Elt F) → (⟨S4x40000, .i1⟩ : BufTy).Contents (Elt F) → (⟨S4x40000, .i1⟩ : BufTy).Contents (Elt F)),
    nullary main_c_53 (constantI S_ 32 0#32) ]

/-- The facts after operation 279: each buffer written so far at its stage value. -/
def facts10 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_53, val_main_c_53 (F := F)⟩ ::
  ⟨main_v148, val_main_v148 (F := F) x0 x3⟩ ::
  ⟨main_v147, val_main_v147 (F := F) x0 x3⟩ ::
  ⟨main_v146, val_main_v146 (F := F)⟩ ::
  ⟨main_c_52, val_main_c_52 (F := F)⟩ ::
  ⟨main_v145, val_main_v145 (F := F) x0 x3⟩ ::
  ⟨main_v144, val_main_v144 (F := F) x0 x3⟩ ::
  ⟨main_v143, val_main_v143 (F := F)⟩ ::
  ⟨main_c_51, val_main_c_51 (F := F)⟩ ::
  ⟨main_v142, val_main_v142 (F := F) x0 x3⟩ ::
  ⟨main_v141, val_main_v141 (F := F) x0 x3⟩ ::
  ⟨main_v140, val_main_v140 (F := F)⟩ ::
  ⟨main_c_50, val_main_c_50 (F := F)⟩ ::
  ⟨main_v139, val_main_v139 (F := F) x0 x3⟩ ::
  ⟨main_v138, val_main_v138 (F := F) x0 x3⟩ ::
  ⟨main_v137, val_main_v137 (F := F)⟩ ::
  ⟨main_c_49, val_main_c_49 (F := F)⟩ ::
  ⟨main_v136, val_main_v136 (F := F) x0 x3⟩ ::
  ⟨main_v135, val_main_v135 (F := F) x0 x3⟩ ::
  ⟨main_v134, val_main_v134 (F := F)⟩ ::
  ⟨main_c_48, val_main_c_48 (F := F)⟩ ::
  ⟨main_v133, val_main_v133 (F := F) x0 x3⟩ ::
  ⟨main_v132, val_main_v132 (F := F)⟩ ::
  ⟨main_c_47, val_main_c_47 (F := F)⟩ ::
  ⟨main_v131, val_main_v131 (F := F) x0 x3⟩ ::
  facts9 x0 x1 x2 x3

theorem up10 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts9 x0 x1 x2 x3) : p ∈ facts10 x0 x1 x2 x3 :=
  memUp% 25 hp

set_option maxRecDepth 8192 in
set_option maxHeartbeats 2000000 in
/-- Operations 255 … 279: each adds the fact of the buffer it writes. -/
theorem run10 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts9 x0 x1 x2 x3) 258) :
    Inv (after seg10 W) (facts10 x0 x1 x2 x3) 283 := by
  have r := res_binary (τ := τ) (a := main_v128) (b := main_v130) (y := main_v131) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v128 (val_main_v128 (F := F) x0 x3) (memUp% 0 (memAt% 3 : (⟨main_v128, val_main_v128 (F := F) x0 x3⟩ : Fact sig (Elt F)) ∈ facts9 x0 x1 x2 x3))) (h.get' main_v130 (val_main_v130 (F := F) x0 x3) (memUp% 0 (memAt% 0 : (⟨main_v130, val_main_v130 (F := F) x0 x3⟩ : Fact sig (Elt F)) ∈ facts9 x0 x1 x2 x3)))
  refine Inv.cons h _ _ main_v131 (val_main_v131 (F := F) x0 x3) rfl (by decide) (r.trans ?_) (fun W h => ?_)
  · rfl
  have r := res_nullary (τ := τ) (W := W) (y := main_c_47) (v := (constantI S_ 32 0#32)) (hy := ⟨by decide, rfl⟩)
  refine Inv.cons h _ _ main_c_47 (val_main_c_47 (F := F)) rfl (by decide) (r.trans ?_) (fun W h => ?_)
  · rfl
  have r := res_unary (τ := τ) (x := main_c_47) (y := main_v132) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_47 (val_main_c_47 (F := F)) (memAt% 0))
  refine Inv.cons h _ _ main_v132 (val_main_v132 (F := F)) rfl (by decide) (r.trans ?_) (fun W h => ?_)
  · rfl
  have r := res_binary (τ := τ) (a := main_v35) (b := main_v132) (y := main_v133) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3))))))))))) (h.get' main_v132 (val_main_v132 (F := F)) (memAt% 0))
  refine Inv.cons h _ _ main_v133 (val_main_v133 (F := F) x0 x3) rfl (by decide) (r.trans ?_) (fun W h => ?_)
  · rfl
  have r := res_nullary (τ := τ) (W := W) (y := main_c_48) (v := (constantI S_ 32 16#32)) (hy := ⟨by decide, rfl⟩)
  refine Inv.cons h _ _ main_c_48 (val_main_c_48 (F := F)) rfl (by decide) (r.trans ?_) (fun W h => ?_)
  · rfl
  have r := res_unary (τ := τ) (x := main_c_48) (y := main_v134) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_48 (val_main_c_48 (F := F)) (memAt% 0))
  refine Inv.cons h _ _ main_v134 (val_main_v134 (F := F)) rfl (by decide) (r.trans ?_) (fun W h => ?_)
  · rfl
  have r := res_binary (τ := τ) (a := main_v35) (b := main_v134) (y := main_v135) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 6 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3))))))))))) (h.get' main_v134 (val_main_v134 (F := F)) (memAt% 0))
  refine Inv.cons h _ _ main_v135 (val_main_v135 (F := F) x0 x3) rfl (by decide) (r.trans ?_) (fun W h => ?_)
  · rfl
  have r := res_binary (τ := τ) (a := main_v133) (b := main_v135) (y := main_v136) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v133 (val_main_v133 (F := F) x0 x3) (memAt% 3)) (h.get' main_v135 (val_main_v135 (F := F) x0 x3) (memAt% 0))
  refine Inv.cons h _ _ main_v136 (val_main_v136 (F := F) x0 x3) rfl (by decide) (r.trans ?_) (fun W h => ?_)
  · rfl
  have r := res_nullary (τ := τ) (W := W) (y := main_c_49) (v := (constantI S_ 32 0#32)) (hy := ⟨by decide, rfl⟩)
  refine Inv.cons h _ _ main_c_49 (val_main_c_49 (F := F)) rfl (by decide) (r.trans ?_) (fun W h => ?_)
  · rfl
  have r := res_unary (τ := τ) (x := main_c_49) (y := main_v137) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_49 (val_main_c_49 (F := F)) (memAt% 0))
  refine Inv.cons h _ _ main_v137 (val_main_v137 (F := F)) rfl (by decide) (r.trans ?_) (fun W h => ?_)
  · rfl
  have r := res_binary (τ := τ) (a := main_v41) (b := main_v137) (y := main_v138) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 10 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))) (h.get' main_v137 (val_main_v137 (F := F)) (memAt% 0))
  refine Inv.cons h _ _ main_v138 (val_main_v138 (F := F) x0 x3) rfl (by decide) (r.trans ?_) (fun W h => ?_)
  · rfl
  have r := res_binary (τ := τ) (a := main_v136) (b := main_v138) (y := main_v139) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v136 (val_main_v136 (F := F) x0 x3) (memAt% 3)) (h.get' main_v138 (val_main_v138 (F := F) x0 x3) (memAt% 0))
  refine Inv.cons h _ _ main_v139 (val_main_v139 (F := F) x0 x3) rfl (by decide) (r.trans ?_) (fun W h => ?_)
  · rfl
  have r := res_nullary (τ := τ) (W := W) (y := main_c_50) (v := (constantI S_ 32 16#32)) (hy := ⟨by decide, rfl⟩)
  refine Inv.cons h _ _ main_c_50 (val_main_c_50 (F := F)) rfl (by decide) (r.trans ?_) (fun W h => ?_)
  · rfl
  have r := res_unary (τ := τ) (x := main_c_50) (y := main_v140) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_50 (val_main_c_50 (F := F)) (memAt% 0))
  refine Inv.cons h _ _ main_v140 (val_main_v140 (F := F)) rfl (by decide) (r.trans ?_) (fun W h => ?_)
  · rfl
  have r := res_binary (τ := τ) (a := main_v41) (b := main_v140) (y := main_v141) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 14 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))) (h.get' main_v140 (val_main_v140 (F := F)) (memAt% 0))
  refine Inv.cons h _ _ main_v141 (val_main_v141 (F := F) x0 x3) rfl (by decide) (r.trans ?_) (fun W h => ?_)
  · rfl
  have r := res_binary (τ := τ) (a := main_v139) (b := main_v141) (y := main_v142) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v139 (val_main_v139 (F := F) x0 x3) (memAt% 3)) (h.get' main_v141 (val_main_v141 (F := F) x0 x3) (memAt% 0))
  refine Inv.cons h _ _ main_v142 (val_main_v142 (F := F) x0 x3) rfl (by decide) (r.trans ?_) (fun W h => ?_)
  · rfl
  have r := res_nullary (τ := τ) (W := W) (y := main_c_51) (v := (constantI S_ 32 0#32)) (hy := ⟨by decide, rfl⟩)
  refine Inv.cons h _ _ main_c_51 (val_main_c_51 (F := F)) rfl (by decide) (r.trans ?_) (fun W h => ?_)
  · rfl
  have r := res_unary (τ := τ) (x := main_c_51) (y := main_v143) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_51 (val_main_c_51 (F := F)) (memAt% 0))
  refine Inv.cons h _ _ main_v143 (val_main_v143 (F := F)) rfl (by decide) (r.trans ?_) (fun W h => ?_)
  · rfl
  have r := res_binary (τ := τ) (a := main_v37) (b := main_v143) (y := main_v144) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 18 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))))))) (h.get' main_v143 (val_main_v143 (F := F)) (memAt% 0))
  refine Inv.cons h _ _ main_v144 (val_main_v144 (F := F) x0 x3) rfl (by decide) (r.trans ?_) (fun W h => ?_)
  · rfl
  have r := res_binary (τ := τ) (a := main_v142) (b := main_v144) (y := main_v145) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v142 (val_main_v142 (F := F) x0 x3) (memAt% 3)) (h.get' main_v144 (val_main_v144 (F := F) x0 x3) (memAt% 0))
  refine Inv.cons h _ _ main_v145 (val_main_v145 (F := F) x0 x3) rfl (by decide) (r.trans ?_) (fun W h => ?_)
  · rfl
  have r := res_nullary (τ := τ) (W := W) (y := main_c_52) (v := (constantI S_ 32 16#32)) (hy := ⟨by decide, rfl⟩)
  refine Inv.cons h _ _ main_c_52 (val_main_c_52 (F := F)) rfl (by decide) (r.trans ?_) (fun W h => ?_)
  · rfl
  have r := res_unary (τ := τ) (x := main_c_52) (y := main_v146) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_52 (val_main_c_52 (F := F)) (memAt% 0))
  refine Inv.cons h _ _ main_v146 (val_main_v146 (F := F)) rfl (by decide) (r.trans ?_) (fun W h => ?_)
  · rfl
  have r := res_binary (τ := τ) (a := main_v37) (b := main_v146) (y := main_v147) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 22 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))))))) (h.get' main_v146 (val_main_v146 (F := F)) (memAt% 0))
  refine Inv.cons h _ _ main_v147 (val_main_v147 (F := F) x0 x3) rfl (by decide) (r.trans ?_) (fun W h => ?_)
  · rfl
  have r := res_binary (τ := τ) (a := main_v145) (b := main_v147) (y := main_v148) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v145 (val_main_v145 (F := F) x0 x3) (memAt% 3)) (h.get' main_v147 (val_main_v147 (F := F) x0 x3) (memAt% 0))
  refine Inv.cons h _ _ main_v148 (val_main_v148 (F := F) x0 x3) rfl (by decide) (r.trans ?_) (fun W h => ?_)
  · rfl
  have r := res_nullary (τ := τ) (W := W) (y := main_c_53) (v := (constantI S_ 32 0#32)) (hy := ⟨by decide, rfl⟩)
  refine Inv.cons h _ _ main_c_53 (val_main_c_53 (F := F)) rfl (by decide) (r.trans ?_) (fun W h => ?_)
  · rfl
  exact h

/-- Operations 280 … 303 of the line. -/
abbrev seg11 : List (HloOp τ sig (Elt F)) :=
  [ nullary main_c_54 (constantI S_ 32 15#32),
    TRef.unary (TRef.of (T := ⟨S_, .i32⟩) main_c_53) (TRef.of (T := ⟨S_, .i32⟩) main_call8_v0) id,
    TRef.unary (TRef.of (T := ⟨S_, .i32⟩) main_call8_v0) (TRef.of (T := ⟨S4x40000, .i32⟩) main_call8_v1) (broadcastInDim S4x40000 ![] bcast_S_S4x40000),
    TRef.binary (TRef.of (T := ⟨S4x40000, .i32⟩) main_call8_v1) (TRef.of (T := ⟨S4x40000, .i32⟩) main_v37) (TRef.of (T := ⟨S4x40000, .i32⟩) main_call8_v2) maxsi,
    TRef.unary (TRef.of (T := ⟨S_, .i32⟩) main_c_54) (TRef.of (T := ⟨S_, .i32⟩) main_call8_v3) id,
    TRef.unary (TRef.of (T := ⟨S_, .i32⟩) main_call8_v3) (TRef.of (T := ⟨S4x40000, .i32⟩) main_call8_v4) (broadcastInDim S4x40000 ![] bcast_S_S4x40000),
    TRef.binary (TRef.of (T := ⟨S4x40000, .i32⟩) main_call8_v4) (TRef.of (T := ⟨S4x40000, .i32⟩) main_call8_v2) (TRef.of (T := ⟨S4x40000, .i32⟩) main_v149) minsi,
    nullary main_c_55 (constantI S_ 32 16#32),
    unary main_c_55 main_v150 (broadcastInDim S4x40000 ![] bcast_S_S4x40000 : (⟨S_, .i32⟩ : BufTy).Contents (Elt F) → (⟨S4x40000, .i32⟩ : BufTy).Contents (Elt F)),
    binary main_v149 main_v150 main_v151 (muli : (⟨S4x40000, .i32⟩ : BufTy).Contents (Elt F) → (⟨S4x40000, .i32⟩ : BufTy).Contents (Elt F) → (⟨S4x40000, .i32⟩ : BufTy).Contents (Elt F)),
    nullary main_c_56 (constantI S_ 32 0#32),
    nullary main_c_57 (constantI S_ 32 15#32),
    TRef.unary (TRef.of (T := ⟨S_, .i32⟩) main_c_56) (TRef.of (T := ⟨S_, .i32⟩) main_call9_v0) id,
    TRef.unary (TRef.of (T := ⟨S_, .i32⟩) main_call9_v0) (TRef.of (T := ⟨S4x40000, .i32⟩) main_call9_v1) (broadcastInDim S4x40000 ![] bcast_S_S4x40000),
    TRef.binary (TRef.of (T := ⟨S4x40000, .i32⟩) main_call9_v1) (TRef.of (T := ⟨S4x40000, .i32⟩) main_v41) (TRef.of (T := ⟨S4x40000, .i32⟩) main_call9_v2) maxsi,
    TRef.unary (TRef.of (T := ⟨S_, .i32⟩) main_c_57) (TRef.of (T := ⟨S_, .i32⟩) main_call9_v3) id,
    TRef.unary (TRef.of (T := ⟨S_, .i32⟩) main_call9_v3) (TRef.of (T := ⟨S4x40000, .i32⟩) main_call9_v4) (broadcastInDim S4x40000 ![] bcast_S_S4x40000),
    TRef.binary (TRef.of (T := ⟨S4x40000, .i32⟩) main_call9_v4) (TRef.of (T := ⟨S4x40000, .i32⟩) main_call9_v2) (TRef.of (T := ⟨S4x40000, .i32⟩) main_v152) minsi,
    binary main_v151 main_v152 main_v153 (addi : (⟨S4x40000, .i32⟩ : BufTy).Contents (Elt F) → (⟨S4x40000, .i32⟩ : BufTy).Contents (Elt F) → (⟨S4x40000, .i32⟩ : BufTy).Contents (Elt F)),
    nullary main_c_58 (constantI S_ 32 16#32),
    unary main_c_58 main_v154 (broadcastInDim S4x40000 ![] bcast_S_S4x40000 : (⟨S_, .i32⟩ : BufTy).Contents (Elt F) → (⟨S4x40000, .i32⟩ : BufTy).Contents (Elt F)),
    binary main_v153 main_v154 main_v155 (muli : (⟨S4x40000, .i32⟩ : BufTy).Contents (Elt F) → (⟨S4x40000, .i32⟩ : BufTy).Contents (Elt F) → (⟨S4x40000, .i32⟩ : BufTy).Contents (Elt F)),
    nullary main_c_59 (constantI S_ 32 0#32),
    nullary main_c_60 (constantI S_ 32 15#32) ]

/-- The facts after operation 303: each buffer written so far at its stage value. -/
def facts11 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_60, val_main_c_60 (F := F)⟩ ::
  ⟨main_c_59, val_main_c_59 (F := F)⟩ ::
  ⟨main_v155, val_main_v155 (F := F) x0 x3⟩ ::
  ⟨main_v154, val_main_v154 (F := F)⟩ ::
  ⟨main_c_58, val_main_c_58 (F := F)⟩ ::
  ⟨main_v153, val_main_v153 (F := F) x0 x3⟩ ::
  ⟨main_v152, val_main_v152 (F := F) x0 x3⟩ ::
  ⟨main_call9_v4, val_main_call9_v4 (F := F)⟩ ::
  ⟨main_call9_v3, val_main_call9_v3 (F := F)⟩ ::
  ⟨main_call9_v2, val_main_call9_v2 (F := F) x0 x3⟩ ::
  ⟨main_call9_v1, val_main_call9_v1 (F := F)⟩ ::
  ⟨main_call9_v0, val_main_call9_v0 (F := F)⟩ ::
  ⟨main_c_57, val_main_c_57 (F := F)⟩ ::
  ⟨main_c_56, val_main_c_56 (F := F)⟩ ::
  ⟨main_v151, val_main_v151 (F := F) x0 x3⟩ ::
  ⟨main_v150, val_main_v150 (F := F)⟩ ::
  ⟨main_c_55, val_main_c_55 (F := F)⟩ ::
  ⟨main_v149, val_main_v149 (F := F) x0 x3⟩ ::
  ⟨main_call8_v4, val_main_call8_v4 (F := F)⟩ ::
  ⟨main_call8_v3, val_main_call8_v3 (F := F)⟩ ::
  ⟨main_call8_v2, val_main_call8_v2 (F := F) x0 x3⟩ ::
  ⟨main_call8_v1, val_main_call8_v1 (F := F)⟩ ::
  ⟨main_call8_v0, val_main_call8_v0 (F := F)⟩ ::
  ⟨main_c_54, val_main_c_54 (F := F)⟩ ::
  facts10 x0 x1 x2 x3

theorem up11 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts10 x0 x1 x2 x3) : p ∈ facts11 x0 x1 x2 x3 :=
  memUp% 24 hp

set_option maxRecDepth 8192 in
set_option maxHeartbeats 2000000 in
/-- Operations 280 … 303: each adds the fact of the buffer it writes. -/
theorem run11 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts10 x0 x1 x2 x3) 283) :
    Inv (after seg11 W) (facts11 x0 x1 x2 x3) 307 := by
  have r := res_nullary (τ := τ) (W := W) (y := main_c_54) (v := (constantI S_ 32 15#32)) (hy := ⟨by decide, rfl⟩)
  refine Inv.cons h _ _ main_c_54 (val_main_c_54 (F := F)) rfl (by decide) (r.trans ?_) (fun W h => ?_)
  · rfl
  have r := res_tunary (τ := τ) (TRef.of (T := ⟨S_, .i32⟩) main_c_53) (TRef.of (T := ⟨S_, .i32⟩) main_call8_v0) id (h.tget (TRef.of (T := ⟨S_, .i32⟩) main_c_53) (val_main_c_53 (F := F)) (val_main_c_53 (F := F)) HEq.rfl (memUp% 1 (memAt% 0 : (⟨main_c_53, val_main_c_53 (F := F)⟩ : Fact sig (Elt F)) ∈ facts10 x0 x1 x2 x3)))
  refine Inv.cons h _ _ main_call8_v0 (val_main_call8_v0 (F := F)) rfl (by decide) (r.trans (toBuf_of_heq (TRef.of (T := ⟨S_, .i32⟩) main_call8_v0) (w := val_main_call8_v0 (F := F)) ?_)) (fun W h => ?_)
  · exact HEq.rfl
  have r := res_tunary (τ := τ) (TRef.of (T := ⟨S_, .i32⟩) main_call8_v0) (TRef.of (T := ⟨S4x40000, .i32⟩) main_call8_v1) (broadcastInDim S4x40000 ![] bcast_S_S4x40000) (h.tget (TRef.of (T := ⟨S_, .i32⟩) main_call8_v0) (val_main_call8_v0 (F := F)) (val_main_call8_v0 (F := F)) HEq.rfl (memAt% 0))
  refine Inv.cons h _ _ main_call8_v1 (val_main_call8_v1 (F := F)) rfl (by decide) (r.trans (toBuf_of_heq (TRef.of (T := ⟨S4x40000, .i32⟩) main_call8_v1) (w := val_main_call8_v1 (F := F)) ?_)) (fun W h => ?_)
  · exact HEq.rfl
  have r := res_tbinary (τ := τ) (TRef.of (T := ⟨S4x40000, .i32⟩) main_call8_v1) (TRef.of (T := ⟨S4x40000, .i32⟩) main_v37) (TRef.of (T := ⟨S4x40000, .i32⟩) main_call8_v2) maxsi (h.tget (TRef.of (T := ⟨S4x40000, .i32⟩) main_call8_v1) (val_main_call8_v1 (F := F)) (val_main_call8_v1 (F := F)) HEq.rfl (memAt% 0)) (h.tget (TRef.of (T := ⟨S4x40000, .i32⟩) main_v37) (val_main_v37 (F := F) x0 x3) (val_main_v37 (F := F) x0 x3) HEq.rfl (memUp% 3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))))))))
  refine Inv.cons h _ _ main_call8_v2 (val_main_call8_v2 (F := F) x0 x3) rfl (by decide) (r.trans (toBuf_of_heq (TRef.of (T := ⟨S4x40000, .i32⟩) main_call8_v2) (w := val_main_call8_v2 (F := F) x0 x3) ?_)) (fun W h => ?_)
  · exact HEq.rfl
  have r := res_tunary (τ := τ) (TRef.of (T := ⟨S_, .i32⟩) main_c_54) (TRef.of (T := ⟨S_, .i32⟩) main_call8_v3) id (h.tget (TRef.of (T := ⟨S_, .i32⟩) main_c_54) (val_main_c_54 (F := F)) (val_main_c_54 (F := F)) HEq.rfl (memAt% 3))
  refine Inv.cons h _ _ main_call8_v3 (val_main_call8_v3 (F := F)) rfl (by decide) (r.trans (toBuf_of_heq (TRef.of (T := ⟨S_, .i32⟩) main_call8_v3) (w := val_main_call8_v3 (F := F)) ?_)) (fun W h => ?_)
  · exact HEq.rfl
  have r := res_tunary (τ := τ) (TRef.of (T := ⟨S_, .i32⟩) main_call8_v3) (TRef.of (T := ⟨S4x40000, .i32⟩) main_call8_v4) (broadcastInDim S4x40000 ![] bcast_S_S4x40000) (h.tget (TRef.of (T := ⟨S_, .i32⟩) main_call8_v3) (val_main_call8_v3 (F := F)) (val_main_call8_v3 (F := F)) HEq.rfl (memAt% 0))
  refine Inv.cons h _ _ main_call8_v4 (val_main_call8_v4 (F := F)) rfl (by decide) (r.trans (toBuf_of_heq (TRef.of (T := ⟨S4x40000, .i32⟩) main_call8_v4) (w := val_main_call8_v4 (F := F)) ?_)) (fun W h => ?_)
  · exact HEq.rfl
  have r := res_tbinary (τ := τ) (TRef.of (T := ⟨S4x40000, .i32⟩) main_call8_v4) (TRef.of (T := ⟨S4x40000, .i32⟩) main_call8_v2) (TRef.of (T := ⟨S4x40000, .i32⟩) main_v149) minsi (h.tget (TRef.of (T := ⟨S4x40000, .i32⟩) main_call8_v4) (val_main_call8_v4 (F := F)) (val_main_call8_v4 (F := F)) HEq.rfl (memAt% 0)) (h.tget (TRef.of (T := ⟨S4x40000, .i32⟩) main_call8_v2) (val_main_call8_v2 (F := F) x0 x3) (val_main_call8_v2 (F := F) x0 x3) HEq.rfl (memAt% 2))
  refine Inv.cons h _ _ main_v149 (val_main_v149 (F := F) x0 x3) rfl (by decide) (r.trans (toBuf_of_heq (TRef.of (T := ⟨S4x40000, .i32⟩) main_v149) (w := val_main_v149 (F := F) x0 x3) ?_)) (fun W h => ?_)
  · exact HEq.rfl
  have r := res_nullary (τ := τ) (W := W) (y := main_c_55) (v := (constantI S_ 32 16#32)) (hy := ⟨by decide, rfl⟩)
  refine Inv.cons h _ _ main_c_55 (val_main_c_55 (F := F)) rfl (by decide) (r.trans ?_) (fun W h => ?_)
  · rfl
  have r := res_unary (τ := τ) (x := main_c_55) (y := main_v150) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_55 (val_main_c_55 (F := F)) (memAt% 0))
  refine Inv.cons h _ _ main_v150 (val_main_v150 (F := F)) rfl (by decide) (r.trans ?_) (fun W h => ?_)
  · rfl
  have r := res_binary (τ := τ) (a := main_v149) (b := main_v150) (y := main_v151) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v149 (val_main_v149 (F := F) x0 x3) (memAt% 2)) (h.get' main_v150 (val_main_v150 (F := F)) (memAt% 0))
  refine Inv.cons h _ _ main_v151 (val_main_v151 (F := F) x0 x3) rfl (by decide) (r.trans ?_) (fun W h => ?_)
  · rfl
  have r := res_nullary (τ := τ) (W := W) (y := main_c_56) (v := (constantI S_ 32 0#32)) (hy := ⟨by decide, rfl⟩)
  refine Inv.cons h _ _ main_c_56 (val_main_c_56 (F := F)) rfl (by decide) (r.trans ?_) (fun W h => ?_)
  · rfl
  have r := res_nullary (τ := τ) (W := W) (y := main_c_57) (v := (constantI S_ 32 15#32)) (hy := ⟨by decide, rfl⟩)
  refine Inv.cons h _ _ main_c_57 (val_main_c_57 (F := F)) rfl (by decide) (r.trans ?_) (fun W h => ?_)
  · rfl
  have r := res_tunary (τ := τ) (TRef.of (T := ⟨S_, .i32⟩) main_c_56) (TRef.of (T := ⟨S_, .i32⟩) main_call9_v0) id (h.tget (TRef.of (T := ⟨S_, .i32⟩) main_c_56) (val_main_c_56 (F := F)) (val_main_c_56 (F := F)) HEq.rfl (memAt% 1))
  refine Inv.cons h _ _ main_call9_v0 (val_main_call9_v0 (F := F)) rfl (by decide) (r.trans (toBuf_of_heq (TRef.of (T := ⟨S_, .i32⟩) main_call9_v0) (w := val_main_call9_v0 (F := F)) ?_)) (fun W h => ?_)
  · exact HEq.rfl
  have r := res_tunary (τ := τ) (TRef.of (T := ⟨S_, .i32⟩) main_call9_v0) (TRef.of (T := ⟨S4x40000, .i32⟩) main_call9_v1) (broadcastInDim S4x40000 ![] bcast_S_S4x40000) (h.tget (TRef.of (T := ⟨S_, .i32⟩) main_call9_v0) (val_main_call9_v0 (F := F)) (val_main_call9_v0 (F := F)) HEq.rfl (memAt% 0))
  refine Inv.cons h _ _ main_call9_v1 (val_main_call9_v1 (F := F)) rfl (by decide) (r.trans (toBuf_of_heq (TRef.of (T := ⟨S4x40000, .i32⟩) main_call9_v1) (w := val_main_call9_v1 (F := F)) ?_)) (fun W h => ?_)
  · exact HEq.rfl
  have r := res_tbinary (τ := τ) (TRef.of (T := ⟨S4x40000, .i32⟩) main_call9_v1) (TRef.of (T := ⟨S4x40000, .i32⟩) main_v41) (TRef.of (T := ⟨S4x40000, .i32⟩) main_call9_v2) maxsi (h.tget (TRef.of (T := ⟨S4x40000, .i32⟩) main_call9_v1) (val_main_call9_v1 (F := F)) (val_main_call9_v1 (F := F)) HEq.rfl (memAt% 0)) (h.tget (TRef.of (T := ⟨S4x40000, .i32⟩) main_v41) (val_main_v41 (F := F) x0 x3) (val_main_v41 (F := F) x0 x3) HEq.rfl (memUp% 14 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))
  refine Inv.cons h _ _ main_call9_v2 (val_main_call9_v2 (F := F) x0 x3) rfl (by decide) (r.trans (toBuf_of_heq (TRef.of (T := ⟨S4x40000, .i32⟩) main_call9_v2) (w := val_main_call9_v2 (F := F) x0 x3) ?_)) (fun W h => ?_)
  · exact HEq.rfl
  have r := res_tunary (τ := τ) (TRef.of (T := ⟨S_, .i32⟩) main_c_57) (TRef.of (T := ⟨S_, .i32⟩) main_call9_v3) id (h.tget (TRef.of (T := ⟨S_, .i32⟩) main_c_57) (val_main_c_57 (F := F)) (val_main_c_57 (F := F)) HEq.rfl (memAt% 3))
  refine Inv.cons h _ _ main_call9_v3 (val_main_call9_v3 (F := F)) rfl (by decide) (r.trans (toBuf_of_heq (TRef.of (T := ⟨S_, .i32⟩) main_call9_v3) (w := val_main_call9_v3 (F := F)) ?_)) (fun W h => ?_)
  · exact HEq.rfl
  have r := res_tunary (τ := τ) (TRef.of (T := ⟨S_, .i32⟩) main_call9_v3) (TRef.of (T := ⟨S4x40000, .i32⟩) main_call9_v4) (broadcastInDim S4x40000 ![] bcast_S_S4x40000) (h.tget (TRef.of (T := ⟨S_, .i32⟩) main_call9_v3) (val_main_call9_v3 (F := F)) (val_main_call9_v3 (F := F)) HEq.rfl (memAt% 0))
  refine Inv.cons h _ _ main_call9_v4 (val_main_call9_v4 (F := F)) rfl (by decide) (r.trans (toBuf_of_heq (TRef.of (T := ⟨S4x40000, .i32⟩) main_call9_v4) (w := val_main_call9_v4 (F := F)) ?_)) (fun W h => ?_)
  · exact HEq.rfl
  have r := res_tbinary (τ := τ) (TRef.of (T := ⟨S4x40000, .i32⟩) main_call9_v4) (TRef.of (T := ⟨S4x40000, .i32⟩) main_call9_v2) (TRef.of (T := ⟨S4x40000, .i32⟩) main_v152) minsi (h.tget (TRef.of (T := ⟨S4x40000, .i32⟩) main_call9_v4) (val_main_call9_v4 (F := F)) (val_main_call9_v4 (F := F)) HEq.rfl (memAt% 0)) (h.tget (TRef.of (T := ⟨S4x40000, .i32⟩) main_call9_v2) (val_main_call9_v2 (F := F) x0 x3) (val_main_call9_v2 (F := F) x0 x3) HEq.rfl (memAt% 2))
  refine Inv.cons h _ _ main_v152 (val_main_v152 (F := F) x0 x3) rfl (by decide) (r.trans (toBuf_of_heq (TRef.of (T := ⟨S4x40000, .i32⟩) main_v152) (w := val_main_v152 (F := F) x0 x3) ?_)) (fun W h => ?_)
  · exact HEq.rfl
  have r := res_binary (τ := τ) (a := main_v151) (b := main_v152) (y := main_v153) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v151 (val_main_v151 (F := F) x0 x3) (memAt% 8)) (h.get' main_v152 (val_main_v152 (F := F) x0 x3) (memAt% 0))
  refine Inv.cons h _ _ main_v153 (val_main_v153 (F := F) x0 x3) rfl (by decide) (r.trans ?_) (fun W h => ?_)
  · rfl
  have r := res_nullary (τ := τ) (W := W) (y := main_c_58) (v := (constantI S_ 32 16#32)) (hy := ⟨by decide, rfl⟩)
  refine Inv.cons h _ _ main_c_58 (val_main_c_58 (F := F)) rfl (by decide) (r.trans ?_) (fun W h => ?_)
  · rfl
  have r := res_unary (τ := τ) (x := main_c_58) (y := main_v154) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_58 (val_main_c_58 (F := F)) (memAt% 0))
  refine Inv.cons h _ _ main_v154 (val_main_v154 (F := F)) rfl (by decide) (r.trans ?_) (fun W h => ?_)
  · rfl
  have r := res_binary (τ := τ) (a := main_v153) (b := main_v154) (y := main_v155) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v153 (val_main_v153 (F := F) x0 x3) (memAt% 2)) (h.get' main_v154 (val_main_v154 (F := F)) (memAt% 0))
  refine Inv.cons h _ _ main_v155 (val_main_v155 (F := F) x0 x3) rfl (by decide) (r.trans ?_) (fun W h => ?_)
  · rfl
  have r := res_nullary (τ := τ) (W := W) (y := main_c_59) (v := (constantI S_ 32 0#32)) (hy := ⟨by decide, rfl⟩)
  refine Inv.cons h _ _ main_c_59 (val_main_c_59 (F := F)) rfl (by decide) (r.trans ?_) (fun W h => ?_)
  · rfl
  have r := res_nullary (τ := τ) (W := W) (y := main_c_60) (v := (constantI S_ 32 15#32)) (hy := ⟨by decide, rfl⟩)
  refine Inv.cons h _ _ main_c_60 (val_main_c_60 (F := F)) rfl (by decide) (r.trans ?_) (fun W h => ?_)
  · rfl
  exact h

/-- Operations 304 … 327 of the line. -/
abbrev seg12 : List (HloOp τ sig (Elt F)) :=
  [ TRef.unary (TRef.of (T := ⟨S_, .i32⟩) main_c_59) (TRef.of (T := ⟨S_, .i32⟩) main_call10_v0) id,
    TRef.unary (TRef.of (T := ⟨S_, .i32⟩) main_call10_v0) (TRef.of (T := ⟨S4x40000, .i32⟩) main_call10_v1) (broadcastInDim S4x40000 ![] bcast_S_S4x40000),
    TRef.binary (TRef.of (T := ⟨S4x40000, .i32⟩) main_call10_v1) (TRef.of (T := ⟨S4x40000, .i32⟩) main_v35) (TRef.of (T := ⟨S4x40000, .i32⟩) main_call10_v2) maxsi,
    TRef.unary (TRef.of (T := ⟨S_, .i32⟩) main_c_60) (TRef.of (T := ⟨S_, .i32⟩) main_call10_v3) id,
    TRef.unary (TRef.of (T := ⟨S_, .i32⟩) main_call10_v3) (TRef.of (T := ⟨S4x40000, .i32⟩) main_call10_v4) (broadcastInDim S4x40000 ![] bcast_S_S4x40000),
    TRef.binary (TRef.of (T := ⟨S4x40000, .i32⟩) main_call10_v4) (TRef.of (T := ⟨S4x40000, .i32⟩) main_call10_v2) (TRef.of (T := ⟨S4x40000, .i32⟩) main_v156) minsi,
    binary main_v155 main_v156 main_v157 (addi : (⟨S4x40000, .i32⟩ : BufTy).Contents (Elt F) → (⟨S4x40000, .i32⟩ : BufTy).Contents (Elt F) → (⟨S4x40000, .i32⟩ : BufTy).Contents (Elt F)),
    unary main_v157 main_v158 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call11_c) (constantI S_ 32 0#32),
    TRef.unary (TRef.of (T := ⟨S_, .i32⟩) main_call11_c) (TRef.of (T := ⟨S4x1x40000, .i32⟩) main_call11_v0) (broadcastInDim S4x1x40000 ![] bcast_S_S4x1x40000),
    TRef.binary (TRef.of (T := ⟨S4x1x40000, .i32⟩) main_v158) (TRef.of (T := ⟨S4x1x40000, .i32⟩) main_call11_v0) (TRef.of (T := ⟨S4x1x40000, .i1⟩) main_call11_v1) (cmpi .slt),
    TRef.nullary (TRef.of (T := ⟨S_, .i32⟩) main_call11_c_0) (constantI S_ 32 4096#32),
    TRef.unary (TRef.of (T := ⟨S_, .i32⟩) main_call11_c_0) (TRef.of (T := ⟨S4x1x40000, .i32⟩) main_call11_v2) (broadcastInDim S4x1x40000 ![] bcast_S_S4x1x40000),
    TRef.binary (TRef.of (T := ⟨S4x1x40000, .i32⟩) main_v158) (TRef.of (T := ⟨S4x1x40000, .i32⟩) main_call11_v2) (TRef.of (T := ⟨S4x1x40000, .i32⟩) main_call11_v3) addi,
    TRef.ternary (TRef.of (T := ⟨S4x1x40000, .i1⟩) main_call11_v1) (TRef.of (T := ⟨S4x1x40000, .i32⟩) main_call11_v3) (TRef.of (T := ⟨S4x1x40000, .i32⟩) main_v158) (TRef.of (T := ⟨S4x1x40000, .i32⟩) main_call11_v4) select,
    TRef.reshape (TRef.of (T := ⟨S4x1x40000, .i32⟩) main_call11_v4) (TRef.of (T := ⟨S4x40000x1, .i32⟩) main_call11_v5) rfl shapeCasts_S4x1x40000_S4x40000x1,
    TRef.nullary (TRef.of (T := ⟨S1, .i32⟩) main_call11_c_1) (constantI S1 32 4095#32),
    TRef.nullary (TRef.of (T := ⟨S_, .i32⟩) main_call11_c_2) (constantI S_ 32 0#32),
    TRef.unary (TRef.of (T := ⟨S_, .i32⟩) main_call11_c_2) (TRef.of (T := ⟨S4x40000x1, .i32⟩) main_call11_v6) (broadcastInDim S4x40000x1 ![] bcast_S_S4x40000x1),
    TRef.binary (TRef.of (T := ⟨S4x40000x1, .i32⟩) main_call11_v5) (TRef.of (T := ⟨S4x40000x1, .i32⟩) main_call11_v6) (TRef.of (T := ⟨S4x40000x1, .i1⟩) main_call11_v7) (cmpi .sge),
    TRef.unary (TRef.of (T := ⟨S1, .i32⟩) main_call11_c_1) (TRef.of (T := ⟨S1x1x1, .i32⟩) main_call11_v8) (broadcastInDim S1x1x1 ![2] bcast_S1_S1x1x1_2),
    TRef.unary (TRef.of (T := ⟨S1x1x1, .i32⟩) main_call11_v8) (TRef.of (T := ⟨S4x40000x1, .i32⟩) main_call11_v9) (broadcastInDim S4x40000x1 ![0, 1, 2] bcast_S1x1x1_S4x40000x1_0_1_2),
    TRef.binary (TRef.of (T := ⟨S4x40000x1, .i32⟩) main_call11_v5) (TRef.of (T := ⟨S4x40000x1, .i32⟩) main_call11_v9) (TRef.of (T := ⟨S4x40000x1, .i1⟩) main_call11_v10) (cmpi .sle),
    TRef.binary (TRef.of (T := ⟨S4x40000x1, .i1⟩) main_call11_v7) (TRef.of (T := ⟨S4x40000x1, .i1⟩) main_call11_v10) (TRef.of (T := ⟨S4x40000x1, .i1⟩) main_call11_v11) andi ]

/-- The facts after operation 327: each buffer written so far at its stage value. -/
def facts12 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call11_v11, val_main_call11_v11 (F := F) x0 x3⟩ ::
  ⟨main_call11_v10, val_main_call11_v10 (F := F) x0 x3⟩ ::
  ⟨main_call11_v9, val_main_call11_v9 (F := F)⟩ ::
  ⟨main_call11_v8, val_main_call11_v8 (F := F)⟩ ::
  ⟨main_call11_v7, val_main_call11_v7 (F := F) x0 x3⟩ ::
  ⟨main_call11_v6, val_main_call11_v6 (F := F)⟩ ::
  ⟨main_call11_c_2, val_main_call11_c_2 (F := F)⟩ ::
  ⟨main_call11_c_1, val_main_call11_c_1 (F := F)⟩ ::
  ⟨main_call11_v5, val_main_call11_v5 (F := F) x0 x3⟩ ::
  ⟨main_call11_v4, val_main_call11_v4 (F := F) x0 x3⟩ ::
  ⟨main_call11_v3, val_main_call11_v3 (F := F) x0 x3⟩ ::
  ⟨main_call11_v2, val_main_call11_v2 (F := F)⟩ ::
  ⟨main_call11_c_0, val_main_call11_c_0 (F := F)⟩ ::
  ⟨main_call11_v1, val_main_call11_v1 (F := F) x0 x3⟩ ::
  ⟨main_call11_v0, val_main_call11_v0 (F := F)⟩ ::
  ⟨main_call11_c, val_main_call11_c (F := F)⟩ ::
  ⟨main_v158, val_main_v158 (F := F) x0 x3⟩ ::
  ⟨main_v157, val_main_v157 (F := F) x0 x3⟩ ::
  ⟨main_v156, val_main_v156 (F := F) x0 x3⟩ ::
  ⟨main_call10_v4, val_main_call10_v4 (F := F)⟩ ::
  ⟨main_call10_v3, val_main_call10_v3 (F := F)⟩ ::
  ⟨main_call10_v2, val_main_call10_v2 (F := F) x0 x3⟩ ::
  ⟨main_call10_v1, val_main_call10_v1 (F := F)⟩ ::
  ⟨main_call10_v0, val_main_call10_v0 (F := F)⟩ ::
  facts11 x0 x1 x2 x3

theorem up12 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts11 x0 x1 x2 x3) : p ∈ facts12 x0 x1 x2 x3 :=
  memUp% 24 hp

set_option maxRecDepth 8192 in
set_option maxHeartbeats 2000000 in
/-- Operations 304 … 327: each adds the fact of the buffer it writes. -/
theorem run12 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts11 x0 x1 x2 x3) 307) :
    Inv (after seg12 W) (facts12 x0 x1 x2 x3) 331 := by
  have r := res_tunary (τ := τ) (TRef.of (T := ⟨S_, .i32⟩) main_c_59) (TRef.of (T := ⟨S_, .i32⟩) main_call10_v0) id (h.tget (TRef.of (T := ⟨S_, .i32⟩) main_c_59) (val_main_c_59 (F := F)) (val_main_c_59 (F := F)) HEq.rfl (memUp% 0 (memAt% 1 : (⟨main_c_59, val_main_c_59 (F := F)⟩ : Fact sig (Elt F)) ∈ facts11 x0 x1 x2 x3)))
  refine Inv.cons h _ _ main_call10_v0 (val_main_call10_v0 (F := F)) rfl (by decide) (r.trans (toBuf_of_heq (TRef.of (T := ⟨S_, .i32⟩) main_call10_v0) (w := val_main_call10_v0 (F := F)) ?_)) (fun W h => ?_)
  · exact HEq.rfl
  have r := res_tunary (τ := τ) (TRef.of (T := ⟨S_, .i32⟩) main_call10_v0) (TRef.of (T := ⟨S4x40000, .i32⟩) main_call10_v1) (broadcastInDim S4x40000 ![] bcast_S_S4x40000) (h.tget (TRef.of (T := ⟨S_, .i32⟩) main_call10_v0) (val_main_call10_v0 (F := F)) (val_main_call10_v0 (F := F)) HEq.rfl (memAt% 0))
  refine Inv.cons h _ _ main_call10_v1 (val_main_call10_v1 (F := F)) rfl (by decide) (r.trans (toBuf_of_heq (TRef.of (T := ⟨S4x40000, .i32⟩) main_call10_v1) (w := val_main_call10_v1 (F := F)) ?_)) (fun W h => ?_)
  · exact HEq.rfl
  have r := res_tbinary (τ := τ) (TRef.of (T := ⟨S4x40000, .i32⟩) main_call10_v1) (TRef.of (T := ⟨S4x40000, .i32⟩) main_v35) (TRef.of (T := ⟨S4x40000, .i32⟩) main_call10_v2) maxsi (h.tget (TRef.of (T := ⟨S4x40000, .i32⟩) main_call10_v1) (val_main_call10_v1 (F := F)) (val_main_call10_v1 (F := F)) HEq.rfl (memAt% 0)) (h.tget (TRef.of (T := ⟨S4x40000, .i32⟩) main_v35) (val_main_v35 (F := F) x0 x3) (val_main_v35 (F := F) x0 x3) HEq.rfl (memUp% 2 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3)))))))))))))
  refine Inv.cons h _ _ main_call10_v2 (val_main_call10_v2 (F := F) x0 x3) rfl (by decide) (r.trans (toBuf_of_heq (TRef.of (T := ⟨S4x40000, .i32⟩) main_call10_v2) (w := val_main_call10_v2 (F := F) x0 x3) ?_)) (fun W h => ?_)
  · exact HEq.rfl
  have r := res_tunary (τ := τ) (TRef.of (T := ⟨S_, .i32⟩) main_c_60) (TRef.of (T := ⟨S_, .i32⟩) main_call10_v3) id (h.tget (TRef.of (T := ⟨S_, .i32⟩) main_c_60) (val_main_c_60 (F := F)) (val_main_c_60 (F := F)) HEq.rfl (memUp% 3 (memAt% 0 : (⟨main_c_60, val_main_c_60 (F := F)⟩ : Fact sig (Elt F)) ∈ facts11 x0 x1 x2 x3)))
  refine Inv.cons h _ _ main_call10_v3 (val_main_call10_v3 (F := F)) rfl (by decide) (r.trans (toBuf_of_heq (TRef.of (T := ⟨S_, .i32⟩) main_call10_v3) (w := val_main_call10_v3 (F := F)) ?_)) (fun W h => ?_)
  · exact HEq.rfl
  have r := res_tunary (τ := τ) (TRef.of (T := ⟨S_, .i32⟩) main_call10_v3) (TRef.of (T := ⟨S4x40000, .i32⟩) main_call10_v4) (broadcastInDim S4x40000 ![] bcast_S_S4x40000) (h.tget (TRef.of (T := ⟨S_, .i32⟩) main_call10_v3) (val_main_call10_v3 (F := F)) (val_main_call10_v3 (F := F)) HEq.rfl (memAt% 0))
  refine Inv.cons h _ _ main_call10_v4 (val_main_call10_v4 (F := F)) rfl (by decide) (r.trans (toBuf_of_heq (TRef.of (T := ⟨S4x40000, .i32⟩) main_call10_v4) (w := val_main_call10_v4 (F := F)) ?_)) (fun W h => ?_)
  · exact HEq.rfl
  have r := res_tbinary (τ := τ) (TRef.of (T := ⟨S4x40000, .i32⟩) main_call10_v4) (TRef.of (T := ⟨S4x40000, .i32⟩) main_call10_v2) (TRef.of (T := ⟨S4x40000, .i32⟩) main_v156) minsi (h.tget (TRef.of (T := ⟨S4x40000, .i32⟩) main_call10_v4) (val_main_call10_v4 (F := F)) (val_main_call10_v4 (F := F)) HEq.rfl (memAt% 0)) (h.tget (TRef.of (T := ⟨S4x40000, .i32⟩) main_call10_v2) (val_main_call10_v2 (F := F) x0 x3) (val_main_call10_v2 (F := F) x0 x3) HEq.rfl (memAt% 2))
  refine Inv.cons h _ _ main_v156 (val_main_v156 (F := F) x0 x3) rfl (by decide) (r.trans (toBuf_of_heq (TRef.of (T := ⟨S4x40000, .i32⟩) main_v156) (w := val_main_v156 (F := F) x0 x3) ?_)) (fun W h => ?_)
  · exact HEq.rfl
  have r := res_binary (τ := τ) (a := main_v155) (b := main_v156) (y := main_v157) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v155 (val_main_v155 (F := F) x0 x3) (memUp% 6 (memAt% 2 : (⟨main_v155, val_main_v155 (F := F) x0 x3⟩ : Fact sig (Elt F)) ∈ facts11 x0 x1 x2 x3))) (h.get' main_v156 (val_main_v156 (F := F) x0 x3) (memAt% 0))
  refine Inv.cons h _ _ main_v157 (val_main_v157 (F := F) x0 x3) rfl (by decide) (r.trans ?_) (fun W h => ?_)
  · rfl
  have r := res_unary (τ := τ) (x := main_v157) (y := main_v158) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v157 (val_main_v157 (F := F) x0 x3) (memAt% 0))
  refine Inv.cons h _ _ main_v158 (val_main_v158 (F := F) x0 x3) rfl (by decide) (r.trans ?_) (fun W h => ?_)
  · rfl
  have r := res_tnullary (τ := τ) (W := W) (TRef.of (T := ⟨S_, .i32⟩) main_call11_c) (constantI S_ 32 0#32)
  refine Inv.cons h _ _ main_call11_c (val_main_call11_c (F := F)) rfl (by decide) (r.trans (toBuf_of_heq (TRef.of (T := ⟨S_, .i32⟩) main_call11_c) (w := val_main_call11_c (F := F)) ?_)) (fun W h => ?_)
  · exact HEq.rfl
  have r := res_tunary (τ := τ) (TRef.of (T := ⟨S_, .i32⟩) main_call11_c) (TRef.of (T := ⟨S4x1x40000, .i32⟩) main_call11_v0) (broadcastInDim S4x1x40000 ![] bcast_S_S4x1x40000) (h.tget (TRef.of (T := ⟨S_, .i32⟩) main_call11_c) (val_main_call11_c (F := F)) (val_main_call11_c (F := F)) HEq.rfl (memAt% 0))
  refine Inv.cons h _ _ main_call11_v0 (val_main_call11_v0 (F := F)) rfl (by decide) (r.trans (toBuf_of_heq (TRef.of (T := ⟨S4x1x40000, .i32⟩) main_call11_v0) (w := val_main_call11_v0 (F := F)) ?_)) (fun W h => ?_)
  · exact HEq.rfl
  have r := res_tbinary (τ := τ) (TRef.of (T := ⟨S4x1x40000, .i32⟩) main_v158) (TRef.of (T := ⟨S4x1x40000, .i32⟩) main_call11_v0) (TRef.of (T := ⟨S4x1x40000, .i1⟩) main_call11_v1) (cmpi .slt) (h.tget (TRef.of (T := ⟨S4x1x40000, .i32⟩) main_v158) (val_main_v158 (F := F) x0 x3) (val_main_v158 (F := F) x0 x3) HEq.rfl (memAt% 2)) (h.tget (TRef.of (T := ⟨S4x1x40000, .i32⟩) main_call11_v0) (val_main_call11_v0 (F := F)) (val_main_call11_v0 (F := F)) HEq.rfl (memAt% 0))
  refine Inv.cons h _ _ main_call11_v1 (val_main_call11_v1 (F := F) x0 x3) rfl (by decide) (r.trans (toBuf_of_heq (TRef.of (T := ⟨S4x1x40000, .i1⟩) main_call11_v1) (w := val_main_call11_v1 (F := F) x0 x3) ?_)) (fun W h => ?_)
  · exact HEq.rfl
  have r := res_tnullary (τ := τ) (W := W) (TRef.of (T := ⟨S_, .i32⟩) main_call11_c_0) (constantI S_ 32 4096#32)
  refine Inv.cons h _ _ main_call11_c_0 (val_main_call11_c_0 (F := F)) rfl (by decide) (r.trans (toBuf_of_heq (TRef.of (T := ⟨S_, .i32⟩) main_call11_c_0) (w := val_main_call11_c_0 (F := F)) ?_)) (fun W h => ?_)
  · exact HEq.rfl
  have r := res_tunary (τ := τ) (TRef.of (T := ⟨S_, .i32⟩) main_call11_c_0) (TRef.of (T := ⟨S4x1x40000, .i32⟩) main_call11_v2) (broadcastInDim S4x1x40000 ![] bcast_S_S4x1x40000) (h.tget (TRef.of (T := ⟨S_, .i32⟩) main_call11_c_0) (val_main_call11_c_0 (F := F)) (val_main_call11_c_0 (F := F)) HEq.rfl (memAt% 0))
  refine Inv.cons h _ _ main_call11_v2 (val_main_call11_v2 (F := F)) rfl (by decide) (r.trans (toBuf_of_heq (TRef.of (T := ⟨S4x1x40000, .i32⟩) main_call11_v2) (w := val_main_call11_v2 (F := F)) ?_)) (fun W h => ?_)
  · exact HEq.rfl
  have r := res_tbinary (τ := τ) (TRef.of (T := ⟨S4x1x40000, .i32⟩) main_v158) (TRef.of (T := ⟨S4x1x40000, .i32⟩) main_call11_v2) (TRef.of (T := ⟨S4x1x40000, .i32⟩) main_call11_v3) addi (h.tget (TRef.of (T := ⟨S4x1x40000, .i32⟩) main_v158) (val_main_v158 (F := F) x0 x3) (val_main_v158 (F := F) x0 x3) HEq.rfl (memAt% 5)) (h.tget (TRef.of (T := ⟨S4x1x40000, .i32⟩) main_call11_v2) (val_main_call11_v2 (F := F)) (val_main_call11_v2 (F := F)) HEq.rfl (memAt% 0))
  refine Inv.cons h _ _ main_call11_v3 (val_main_call11_v3 (F := F) x0 x3) rfl (by decide) (r.trans (toBuf_of_heq (TRef.of (T := ⟨S4x1x40000, .i32⟩) main_call11_v3) (w := val_main_call11_v3 (F := F) x0 x3) ?_)) (fun W h => ?_)
  · exact HEq.rfl
  have r := res_tternary (τ := τ) (TRef.of (T := ⟨S4x1x40000, .i1⟩) main_call11_v1) (TRef.of (T := ⟨S4x1x40000, .i32⟩) main_call11_v3) (TRef.of (T := ⟨S4x1x40000, .i32⟩) main_v158) (TRef.of (T := ⟨S4x1x40000, .i32⟩) main_call11_v4) select (h.tget (TRef.of (T := ⟨S4x1x40000, .i1⟩) main_call11_v1) (val_main_call11_v1 (F := F) x0 x3) (val_main_call11_v1 (F := F) x0 x3) HEq.rfl (memAt% 3)) (h.tget (TRef.of (T := ⟨S4x1x40000, .i32⟩) main_call11_v3) (val_main_call11_v3 (F := F) x0 x3) (val_main_call11_v3 (F := F) x0 x3) HEq.rfl (memAt% 0)) (h.tget (TRef.of (T := ⟨S4x1x40000, .i32⟩) main_v158) (val_main_v158 (F := F) x0 x3) (val_main_v158 (F := F) x0 x3) HEq.rfl (memAt% 6))
  refine Inv.cons h _ _ main_call11_v4 (val_main_call11_v4 (F := F) x0 x3) rfl (by decide) (r.trans (toBuf_of_heq (TRef.of (T := ⟨S4x1x40000, .i32⟩) main_call11_v4) (w := val_main_call11_v4 (F := F) x0 x3) ?_)) (fun W h => ?_)
  · exact HEq.rfl
  have r := res_treshape (τ := τ) (TRef.of (T := ⟨S4x1x40000, .i32⟩) main_call11_v4) (TRef.of (T := ⟨S4x40000x1, .i32⟩) main_call11_v5) rfl shapeCasts_S4x1x40000_S4x40000x1 (h.tget (TRef.of (T := ⟨S4x1x40000, .i32⟩) main_call11_v4) (val_main_call11_v4 (F := F) x0 x3) (val_main_call11_v4 (F := F) x0 x3) HEq.rfl (memAt% 0))
  refine Inv.cons h _ _ main_call11_v5 (val_main_call11_v5 (F := F) x0 x3) rfl (by decide) (r.trans (toBuf_of_heq (TRef.of (T := ⟨S4x40000x1, .i32⟩) main_call11_v5) (w := val_main_call11_v5 (F := F) x0 x3) ?_)) (fun W h => ?_)
  · exact HEq.rfl
  have r := res_tnullary (τ := τ) (W := W) (TRef.of (T := ⟨S1, .i32⟩) main_call11_c_1) (constantI S1 32 4095#32)
  refine Inv.cons h _ _ main_call11_c_1 (val_main_call11_c_1 (F := F)) rfl (by decide) (r.trans (toBuf_of_heq (TRef.of (T := ⟨S1, .i32⟩) main_call11_c_1) (w := val_main_call11_c_1 (F := F)) ?_)) (fun W h => ?_)
  · exact HEq.rfl
  have r := res_tnullary (τ := τ) (W := W) (TRef.of (T := ⟨S_, .i32⟩) main_call11_c_2) (constantI S_ 32 0#32)
  refine Inv.cons h _ _ main_call11_c_2 (val_main_call11_c_2 (F := F)) rfl (by decide) (r.trans (toBuf_of_heq (TRef.of (T := ⟨S_, .i32⟩) main_call11_c_2) (w := val_main_call11_c_2 (F := F)) ?_)) (fun W h => ?_)
  · exact HEq.rfl
  have r := res_tunary (τ := τ) (TRef.of (T := ⟨S_, .i32⟩) main_call11_c_2) (TRef.of (T := ⟨S4x40000x1, .i32⟩) main_call11_v6) (broadcastInDim S4x40000x1 ![] bcast_S_S4x40000x1) (h.tget (TRef.of (T := ⟨S_, .i32⟩) main_call11_c_2) (val_main_call11_c_2 (F := F)) (val_main_call11_c_2 (F := F)) HEq.rfl (memAt% 0))
  refine Inv.cons h _ _ main_call11_v6 (val_main_call11_v6 (F := F)) rfl (by decide) (r.trans (toBuf_of_heq (TRef.of (T := ⟨S4x40000x1, .i32⟩) main_call11_v6) (w := val_main_call11_v6 (F := F)) ?_)) (fun W h => ?_)
  · exact HEq.rfl
  have r := res_tbinary (τ := τ) (TRef.of (T := ⟨S4x40000x1, .i32⟩) main_call11_v5) (TRef.of (T := ⟨S4x40000x1, .i32⟩) main_call11_v6) (TRef.of (T := ⟨S4x40000x1, .i1⟩) main_call11_v7) (cmpi .sge) (h.tget (TRef.of (T := ⟨S4x40000x1, .i32⟩) main_call11_v5) (val_main_call11_v5 (F := F) x0 x3) (val_main_call11_v5 (F := F) x0 x3) HEq.rfl (memAt% 3)) (h.tget (TRef.of (T := ⟨S4x40000x1, .i32⟩) main_call11_v6) (val_main_call11_v6 (F := F)) (val_main_call11_v6 (F := F)) HEq.rfl (memAt% 0))
  refine Inv.cons h _ _ main_call11_v7 (val_main_call11_v7 (F := F) x0 x3) rfl (by decide) (r.trans (toBuf_of_heq (TRef.of (T := ⟨S4x40000x1, .i1⟩) main_call11_v7) (w := val_main_call11_v7 (F := F) x0 x3) ?_)) (fun W h => ?_)
  · exact HEq.rfl
  have r := res_tunary (τ := τ) (TRef.of (T := ⟨S1, .i32⟩) main_call11_c_1) (TRef.of (T := ⟨S1x1x1, .i32⟩) main_call11_v8) (broadcastInDim S1x1x1 ![2] bcast_S1_S1x1x1_2) (h.tget (TRef.of (T := ⟨S1, .i32⟩) main_call11_c_1) (val_main_call11_c_1 (F := F)) (val_main_call11_c_1 (F := F)) HEq.rfl (memAt% 3))
  refine Inv.cons h _ _ main_call11_v8 (val_main_call11_v8 (F := F)) rfl (by decide) (r.trans (toBuf_of_heq (TRef.of (T := ⟨S1x1x1, .i32⟩) main_call11_v8) (w := val_main_call11_v8 (F := F)) ?_)) (fun W h => ?_)
  · exact HEq.rfl
  have r := res_tunary (τ := τ) (TRef.of (T := ⟨S1x1x1, .i32⟩) main_call11_v8) (TRef.of (T := ⟨S4x40000x1, .i32⟩) main_call11_v9) (broadcastInDim S4x40000x1 ![0, 1, 2] bcast_S1x1x1_S4x40000x1_0_1_2) (h.tget (TRef.of (T := ⟨S1x1x1, .i32⟩) main_call11_v8) (val_main_call11_v8 (F := F)) (val_main_call11_v8 (F := F)) HEq.rfl (memAt% 0))
  refine Inv.cons h _ _ main_call11_v9 (val_main_call11_v9 (F := F)) rfl (by decide) (r.trans (toBuf_of_heq (TRef.of (T := ⟨S4x40000x1, .i32⟩) main_call11_v9) (w := val_main_call11_v9 (F := F)) ?_)) (fun W h => ?_)
  · exact HEq.rfl
  have r := res_tbinary (τ := τ) (TRef.of (T := ⟨S4x40000x1, .i32⟩) main_call11_v5) (TRef.of (T := ⟨S4x40000x1, .i32⟩) main_call11_v9) (TRef.of (T := ⟨S4x40000x1, .i1⟩) main_call11_v10) (cmpi .sle) (h.tget (TRef.of (T := ⟨S4x40000x1, .i32⟩) main_call11_v5) (val_main_call11_v5 (F := F) x0 x3) (val_main_call11_v5 (F := F) x0 x3) HEq.rfl (memAt% 6)) (h.tget (TRef.of (T := ⟨S4x40000x1, .i32⟩) main_call11_v9) (val_main_call11_v9 (F := F)) (val_main_call11_v9 (F := F)) HEq.rfl (memAt% 0))
  refine Inv.cons h _ _ main_call11_v10 (val_main_call11_v10 (F := F) x0 x3) rfl (by decide) (r.trans (toBuf_of_heq (TRef.of (T := ⟨S4x40000x1, .i1⟩) main_call11_v10) (w := val_main_call11_v10 (F := F) x0 x3) ?_)) (fun W h => ?_)
  · exact HEq.rfl
  have r := res_tbinary (τ := τ) (TRef.of (T := ⟨S4x40000x1, .i1⟩) main_call11_v7) (TRef.of (T := ⟨S4x40000x1, .i1⟩) main_call11_v10) (TRef.of (T := ⟨S4x40000x1, .i1⟩) main_call11_v11) andi (h.tget (TRef.of (T := ⟨S4x40000x1, .i1⟩) main_call11_v7) (val_main_call11_v7 (F := F) x0 x3) (val_main_call11_v7 (F := F) x0 x3) HEq.rfl (memAt% 3)) (h.tget (TRef.of (T := ⟨S4x40000x1, .i1⟩) main_call11_v10) (val_main_call11_v10 (F := F) x0 x3) (val_main_call11_v10 (F := F) x0 x3) HEq.rfl (memAt% 0))
  refine Inv.cons h _ _ main_call11_v11 (val_main_call11_v11 (F := F) x0 x3) rfl (by decide) (r.trans (toBuf_of_heq (TRef.of (T := ⟨S4x40000x1, .i1⟩) main_call11_v11) (w := val_main_call11_v11 (F := F) x0 x3) ?_)) (fun W h => ?_)
  · exact HEq.rfl
  exact h

/-- Operations 328 … 351 of the line. -/
abbrev seg13 : List (HloOp τ sig (Elt F)) :=
  [ TRef.nullary (TRef.of (T := ⟨S_, .i1⟩) main_call11_c_3) (constantI S_ 1 1#1),
    TRef.binary (TRef.of (T := ⟨S4x40000x1, .i1⟩) main_call11_v11) (TRef.of (T := ⟨S_, .i1⟩) main_call11_c_3) (TRef.of (T := ⟨S4x40000, .i1⟩) main_call11_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call11_v5) (TRef.of (T := ⟨S4x128x40000, .f32⟩) main_call11_v13) (fun x i => Host.gather gather_S4x128x4096_S4x40000x1_S4x128x40000_1_2_0_0_2_2_11281 x i),
    TRef.unary (TRef.of (T := ⟨S4x40000, .i1⟩) main_call11_v12) (TRef.of (T := ⟨S4x128x40000, .i1⟩) main_call11_v14) (broadcastInDim S4x128x40000 ![0, 2] bcast_S4x40000_S4x128x40000_0_2),
    TRef.nullary (TRef.of (T := ⟨S_, .f32⟩) main_call11_cst) (constant S_ .f32 0x7FC00000#32),
    TRef.unary (TRef.of (T := ⟨S_, .f32⟩) main_call11_cst) (TRef.of (T := ⟨S4x128x40000, .f32⟩) main_call11_v15) (broadcastInDim S4x128x40000 ![] bcast_S_S4x128x40000),
    TRef.ternary (TRef.of (T := ⟨S4x128x40000, .i1⟩) main_call11_v14) (TRef.of (T := ⟨S4x128x40000, .f32⟩) main_call11_v13) (TRef.of (T := ⟨S4x128x40000, .f32⟩) main_call11_v15) (TRef.of (T := ⟨S4x128x40000, .f32⟩) main_v159) select,
    unary main_v148 main_v160 (uitofp .f32 : (⟨S4x40000, .i1⟩ : BufTy).Contents (Elt F) → (⟨S4x40000, .f32⟩ : BufTy).Contents (Elt F)),
    binary main_v131 main_v160 main_v161 (mulf : (⟨S4x40000, .f32⟩ : BufTy).Contents (Elt F) → (⟨S4x40000, .f32⟩ : BufTy).Contents (Elt F) → (⟨S4x40000, .f32⟩ : BufTy).Contents (Elt F)),
    unary main_v161 main_v162 (broadcastInDim S4x1x40000 ![0, 2] bcast_S4x40000_S4x1x40000_0_2 : (⟨S4x40000, .f32⟩ : BufTy).Contents (Elt F) → (⟨S4x1x40000, .f32⟩ : BufTy).Contents (Elt F)),
    unary main_v162 main_v163 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v159 main_v163 main_v164 (mulf : (⟨S4x128x40000, .f32⟩ : BufTy).Contents (Elt F) → (⟨S4x128x40000, .f32⟩ : BufTy).Contents (Elt F) → (⟨S4x128x40000, .f32⟩ : BufTy).Contents (Elt F)),
    binary main_v125 main_v164 main_v165 (addf : (⟨S4x128x40000, .f32⟩ : BufTy).Contents (Elt F) → (⟨S4x128x40000, .f32⟩ : BufTy).Contents (Elt F) → (⟨S4x128x40000, .f32⟩ : BufTy).Contents (Elt F)),
    binary main_v32 main_v33 main_v166 (mulf : (⟨S4x40000, .f32⟩ : BufTy).Contents (Elt F) → (⟨S4x40000, .f32⟩ : BufTy).Contents (Elt F) → (⟨S4x40000, .f32⟩ : BufTy).Contents (Elt F)),
    nullary main_cst_61 (constant S_ .f32 0x3F800000#32),
    unary main_cst_61 main_v167 (broadcastInDim S4x40000 ![] bcast_S_S4x40000 : (⟨S_, .f32⟩ : BufTy).Contents (Elt F) → (⟨S4x40000, .f32⟩ : BufTy).Contents (Elt F)),
    binary main_v167 main_v34 main_v168 (subf : (⟨S4x40000, .f32⟩ : BufTy).Contents (Elt F) → (⟨S4x40000, .f32⟩ : BufTy).Contents (Elt F) → (⟨S4x40000, .f32⟩ : BufTy).Contents (Elt F)),
    binary main_v166 main_v168 main_v169 (mulf : (⟨S4x40000, .f32⟩ : BufTy).Contents (Elt F) → (⟨S4x40000, .f32⟩ : BufTy).Contents (Elt F) → (⟨S4x40000, .f32⟩ : BufTy).Contents (Elt F)),
    nullary main_c_62 (constantI S_ 32 0#32),
    unary main_c_62 main_v170 (broadcastInDim S4x40000 ![] bcast_S_S4x40000 : (⟨S_, .i32⟩ : BufTy).Contents (Elt F) → (⟨S4x40000, .i32⟩ : BufTy).Contents (Elt F)),
    binary main_v39 main_v170 main_v171 (cmpi .sge : (⟨S4x40000, .i32⟩ : BufTy).Contents (Elt F) → (⟨S4x40000, .i32⟩ : BufTy).Contents (Elt F) → (⟨S4x40000, .i1⟩ : BufTy).Contents (Elt F)),
    nullary main_c_63 (constantI S_ 32 16#32),
    unary main_c_63 main_v172 (broadcastInDim S4x40000 ![] bcast_S_S4x40000 : (⟨S_, .i32⟩ : BufTy).Contents (Elt F) → (⟨S4x40000, .i32⟩ : BufTy).Contents (Elt F)),
    binary main_v39 main_v172 main_v173 (cmpi .slt : (⟨S4x40000, .i32⟩ : BufTy).Contents (Elt F) → (⟨S4x40000, .i32⟩ : BufTy).Contents (Elt F) → (⟨S4x40000, .i1⟩ : BufTy).Contents (Elt F)) ]

/-- The facts after operation 351: each buffer written so far at its stage value. -/
def facts13 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v173, val_main_v173 (F := F) x0 x3⟩ ::
  ⟨main_v172, val_main_v172 (F := F)⟩ ::
  ⟨main_c_63, val_main_c_63 (F := F)⟩ ::
  ⟨main_v171, val_main_v171 (F := F) x0 x3⟩ ::
  ⟨main_v170, val_main_v170 (F := F)⟩ ::
  ⟨main_c_62, val_main_c_62 (F := F)⟩ ::
  ⟨main_v169, val_main_v169 (F := F) x0 x3⟩ ::
  ⟨main_v168, val_main_v168 (F := F) x0 x3⟩ ::
  ⟨main_v167, val_main_v167 (F := F)⟩ ::
  ⟨main_cst_61, val_main_cst_61 (F := F)⟩ ::
  ⟨main_v166, val_main_v166 (F := F) x0 x3⟩ ::
  ⟨main_v165, val_main_v165 (F := F) x0 x2 x3⟩ ::
  ⟨main_v164, val_main_v164 (F := F) x0 x2 x3⟩ ::
  ⟨main_v163, val_main_v163 (F := F) x0 x3⟩ ::
  ⟨main_v162, val_main_v162 (F := F) x0 x3⟩ ::
  ⟨main_v161, val_main_v161 (F := F) x0 x3⟩ ::
  ⟨main_v160, val_main_v160 (F := F) x0 x3⟩ ::
  ⟨main_v159, val_main_v159 (F := F) x0 x2 x3⟩ ::
  ⟨main_call11_v15, val_main_call11_v15 (F := F)⟩ ::
  ⟨main_call11_cst, val_main_call11_cst (F := F)⟩ ::
  ⟨main_call11_v14, val_main_call11_v14 (F := F) x0 x3⟩ ::
  ⟨main_call11_v13, val_main_call11_v13 (F := F) x0 x2 x3⟩ ::
  ⟨main_call11_v12, val_main_call11_v12 (F := F) x0 x3⟩ ::
  ⟨main_call11_c_3, val_main_call11_c_3 (F := F)⟩ ::
  facts12 x0 x1 x2 x3

theorem up13 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts12 x0 x1 x2 x3) : p ∈ facts13 x0 x1 x2 x3 :=
  memUp% 24 hp

set_option maxRecDepth 8192 in
set_option maxHeartbeats 2000000 in
/-- Operations 328 … 351: each adds the fact of the buffer it writes. -/
theorem run13 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts12 x0 x1 x2 x3) 331) :
    Inv (after seg13 W) (facts13 x0 x1 x2 x3) 355 := by
  have r := res_tnullary (τ := τ) (W := W) (TRef.of (T := ⟨S_, .i1⟩) main_call11_c_3) (constantI S_ 1 1#1)
  refine Inv.cons h _ _ main_call11_c_3 (val_main_call11_c_3 (F := F)) rfl (by decide) (r.trans (toBuf_of_heq (TRef.of (T := ⟨S_, .i1⟩) main_call11_c_3) (w := val_main_call11_c_3 (F := F)) ?_)) (fun W h => ?_)
  · exact HEq.rfl
  have r := res_tbinary (τ := τ) (TRef.of (T := ⟨S4x40000x1, .i1⟩) main_call11_v11) (TRef.of (T := ⟨S_, .i1⟩) main_call11_c_3) (TRef.of (T := ⟨S4x40000, .i1⟩) main_call11_v12) (fun x v => Host.reduce IntOp.andi x v reducesTo_S4x40000x1_S4x40000_d2 h_S_) (h.tget (TRef.of (T := ⟨S4x40000x1, .i1⟩) main_call11_v11) (val_main_call11_v11 (F := F) x0 x3) (val_main_call11_v11 (F := F) x0 x3) HEq.rfl (memUp% 1 (memAt% 0 : (⟨main_call11_v11, val_main_call11_v11 (F := F) x0 x3⟩ : Fact sig (Elt F)) ∈ facts12 x0 x1 x2 x3))) (h.tget (TRef.of (T := ⟨S_, .i1⟩) main_call11_c_3) (val_main_call11_c_3 (F := F)) (val_main_call11_c_3 (F := F)) HEq.rfl (memAt% 0))
  refine Inv.cons h _ _ main_call11_v12 (val_main_call11_v12 (F := F) x0 x3) rfl (by decide) (r.trans (toBuf_of_heq (TRef.of (T := ⟨S4x40000, .i1⟩) main_call11_v12) (w := val_main_call11_v12 (F := F) x0 x3) ?_)) (fun W h => ?_)
  · exact HEq.rfl
  have r := res_tbinary (τ := τ) (TRef.of (T := ⟨S4x128x4096, .f32⟩) main_v44) (TRef.of (T := ⟨S4x40000x1, .i32⟩) main_call11_v5) (TRef.of (T := ⟨S4x128x40000, .f32⟩) main_call11_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 2 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3)))))))))))))) (h.tget (TRef.of (T := ⟨S4x40000x1, .i32⟩) main_call11_v5) (val_main_call11_v5 (F := F) x0 x3) (val_main_call11_v5 (F := F) x0 x3) HEq.rfl (memUp% 2 (memAt% 8 : (⟨main_call11_v5, val_main_call11_v5 (F := F) x0 x3⟩ : Fact sig (Elt F)) ∈ facts12 x0 x1 x2 x3)))
  refine Inv.cons h _ _ main_call11_v13 (val_main_call11_v13 (F := F) x0 x2 x3) rfl (by decide) (r.trans (toBuf_of_heq (TRef.of (T := ⟨S4x128x40000, .f32⟩) main_call11_v13) (w := val_main_call11_v13 (F := F) x0 x2 x3) ?_)) (fun W h => ?_)
  · exact HEq.rfl
  have r := res_tunary (τ := τ) (TRef.of (T := ⟨S4x40000, .i1⟩) main_call11_v12) (TRef.of (T := ⟨S4x128x40000, .i1⟩) main_call11_v14) (broadcastInDim S4x128x40000 ![0, 2] bcast_S4x40000_S4x128x40000_0_2) (h.tget (TRef.of (T := ⟨S4x40000, .i1⟩) main_call11_v12) (val_main_call11_v12 (F := F) x0 x3) (val_main_call11_v12 (F := F) x0 x3) HEq.rfl (memAt% 1))
  refine Inv.cons h _ _ main_call11_v14 (val_main_call11_v14 (F := F) x0 x3) rfl (by decide) (r.trans (toBuf_of_heq (TRef.of (T := ⟨S4x128x40000, .i1⟩) main_call11_v14) (w := val_main_call11_v14 (F := F) x0 x3) ?_)) (fun W h => ?_)
  · exact HEq.rfl
  have r := res_tnullary (τ := τ) (W := W) (TRef.of (T := ⟨S_, .f32⟩) main_call11_cst) (constant S_ .f32 0x7FC00000#32)
  refine Inv.cons h _ _ main_call11_cst (val_main_call11_cst (F := F)) rfl (by decide) (r.trans (toBuf_of_heq (TRef.of (T := ⟨S_, .f32⟩) main_call11_cst) (w := val_main_call11_cst (F := F)) ?_)) (fun W h => ?_)
  · exact HEq.rfl
  have r := res_tunary (τ := τ) (TRef.of (T := ⟨S_, .f32⟩) main_call11_cst) (TRef.of (T := ⟨S4x128x40000, .f32⟩) main_call11_v15) (broadcastInDim S4x128x40000 ![] bcast_S_S4x128x40000) (h.tget (TRef.of (T := ⟨S_, .f32⟩) main_call11_cst) (val_main_call11_cst (F := F)) (val_main_call11_cst (F := F)) HEq.rfl (memAt% 0))
  refine Inv.cons h _ _ main_call11_v15 (val_main_call11_v15 (F := F)) rfl (by decide) (r.trans (toBuf_of_heq (TRef.of (T := ⟨S4x128x40000, .f32⟩) main_call11_v15) (w := val_main_call11_v15 (F := F)) ?_)) (fun W h => ?_)
  · exact HEq.rfl
  have r := res_tternary (τ := τ) (TRef.of (T := ⟨S4x128x40000, .i1⟩) main_call11_v14) (TRef.of (T := ⟨S4x128x40000, .f32⟩) main_call11_v13) (TRef.of (T := ⟨S4x128x40000, .f32⟩) main_call11_v15) (TRef.of (T := ⟨S4x128x40000, .f32⟩) main_v159) select (h.tget (TRef.of (T := ⟨S4x128x40000, .i1⟩) main_call11_v14) (val_main_call11_v14 (F := F) x0 x3) (val_main_call11_v14 (F := F) x0 x3) HEq.rfl (memAt% 2)) (h.tget (TRef.of (T := ⟨S4x128x40000, .f32⟩) main_call11_v13) (val_main_call11_v13 (F := F) x0 x2 x3) (val_main_call11_v13 (F := F) x0 x2 x3) HEq.rfl (memAt% 3)) (h.tget (TRef.of (T := ⟨S4x128x40000, .f32⟩) main_call11_v15) (val_main_call11_v15 (F := F)) (val_main_call11_v15 (F := F)) HEq.rfl (memAt% 0))
  refine Inv.cons h _ _ main_v159 (val_main_v159 (F := F) x0 x2 x3) rfl (by decide) (r.trans (toBuf_of_heq (TRef.of (T := ⟨S4x128x40000, .f32⟩) main_v159) (w := val_main_v159 (F := F) x0 x2 x3) ?_)) (fun W h => ?_)
  · exact HEq.rfl
  have r := res_unary (τ := τ) (x := main_v148) (y := main_v160) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v148 (val_main_v148 (F := F) x0 x3) (memUp% 7 (up12 x0 x1 x2 x3 (up11 x0 x1 x2 x3 (memAt% 1 : (⟨main_v148, val_main_v148 (F := F) x0 x3⟩ : Fact sig (Elt F)) ∈ facts10 x0 x1 x2 x3)))))
  refine Inv.cons h _ _ main_v160 (val_main_v160 (F := F) x0 x3) rfl (by decide) (r.trans ?_) (fun W h => ?_)
  · rfl
  have r := res_binary (τ := τ) (a := main_v131) (b := main_v160) (y := main_v161) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v131 (val_main_v131 (F := F) x0 x3) (memUp% 8 (up12 x0 x1 x2 x3 (up11 x0 x1 x2 x3 (memAt% 24 : (⟨main_v131, val_main_v131 (F := F) x0 x3⟩ : Fact sig (Elt F)) ∈ facts10 x0 x1 x2 x3))))) (h.get' main_v160 (val_main_v160 (F := F) x0 x3) (memAt% 0))
  refine Inv.cons h _ _ main_v161 (val_main_v161 (F := F) x0 x3) rfl (by decide) (r.trans ?_) (fun W h => ?_)
  · rfl
  have r := res_unary (τ := τ) (x := main_v161) (y := main_v162) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v161 (val_main_v161 (F := F) x0 x3) (memAt% 0))
  refine Inv.cons h _ _ main_v162 (val_main_v162 (F := F) x0 x3) rfl (by decide) (r.trans ?_) (fun W h => ?_)
  · rfl
  have r := res_unary (τ := τ) (x := main_v162) (y := main_v163) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v162 (val_main_v162 (F := F) x0 x3) (memAt% 0))
  refine Inv.cons h _ _ main_v163 (val_main_v163 (F := F) x0 x3) rfl (by decide) (r.trans ?_) (fun W h => ?_)
  · rfl
  have r := res_binary (τ := τ) (a := main_v159) (b := main_v163) (y := main_v164) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v159 (val_main_v159 (F := F) x0 x2 x3) (memAt% 4)) (h.get' main_v163 (val_main_v163 (F := F) x0 x3) (memAt% 0))
  refine Inv.cons h _ _ main_v164 (val_main_v164 (F := F) x0 x2 x3) rfl (by decide) (r.trans ?_) (fun W h => ?_)
  · rfl
  have r := res_binary (τ := τ) (a := main_v125) (b := main_v164) (y := main_v165) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v125 (val_main_v125 (F := F) x0 x2 x3) (memUp% 12 (up12 x0 x1 x2 x3 (up11 x0 x1 x2 x3 (up10 x0 x1 x2 x3 (memAt% 7 : (⟨main_v125, val_main_v125 (F := F) x0 x2 x3⟩ : Fact sig (Elt F)) ∈ facts9 x0 x1 x2 x3)))))) (h.get' main_v164 (val_main_v164 (F := F) x0 x2 x3) (memAt% 0))
  refine Inv.cons h _ _ main_v165 (val_main_v165 (F := F) x0 x2 x3) rfl (by decide) (r.trans ?_) (fun W h => ?_)
  · rfl
  have r := res_binary (τ := τ) (a := main_v32) (b := main_v33) (y := main_v166) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v32 (val_main_v32 (F := F) x0 x3) (memUp% 13 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3)))))))))))))) (h.get' main_v33 (val_main_v33 (F := F) x0 x3) (memUp% 13 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 15 : (⟨main_v33, val_main_v33 (F := F) x0 x3⟩ : Fact sig (Elt F)) ∈ facts1 x0 x1 x2 x3))))))))))))))
  refine Inv.cons h _ _ main_v166 (val_main_v166 (F := F) x0 x3) rfl (by decide) (r.trans ?_) (fun W h => ?_)
  · rfl
  have r := res_nullary (τ := τ) (W := W) (y := main_cst_61) (v := (constant S_ .f32 0x3F800000#32)) (hy := ⟨by decide, rfl⟩)
  refine Inv.cons h _ _ main_cst_61 (val_main_cst_61 (F := F)) rfl (by decide) (r.trans ?_) (fun W h => ?_)
  · rfl
  have r := res_unary (τ := τ) (x := main_cst_61) (y := main_v167) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_61 (val_main_cst_61 (F := F)) (memAt% 0))
  refine Inv.cons h _ _ main_v167 (val_main_v167 (F := F)) rfl (by decide) (r.trans ?_) (fun W h => ?_)
  · rfl
  have r := res_binary (τ := τ) (a := main_v167) (b := main_v34) (y := main_v168) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v167 (val_main_v167 (F := F)) (memAt% 0)) (h.get' main_v34 (val_main_v34 (F := F) x0 x3) (memUp% 16 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3))))))))))))))
  refine Inv.cons h _ _ main_v168 (val_main_v168 (F := F) x0 x3) rfl (by decide) (r.trans ?_) (fun W h => ?_)
  · rfl
  have r := res_binary (τ := τ) (a := main_v166) (b := main_v168) (y := main_v169) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v166 (val_main_v166 (F := F) x0 x3) (memAt% 3)) (h.get' main_v168 (val_main_v168 (F := F) x0 x3) (memAt% 0))
  refine Inv.cons h _ _ main_v169 (val_main_v169 (F := F) x0 x3) rfl (by decide) (r.trans ?_) (fun W h => ?_)
  · rfl
  have r := res_nullary (τ := τ) (W := W) (y := main_c_62) (v := (constantI S_ 32 0#32)) (hy := ⟨by decide, rfl⟩)
  refine Inv.cons h _ _ main_c_62 (val_main_c_62 (F := F)) rfl (by decide) (r.trans ?_) (fun W h => ?_)
  · rfl
  have r := res_unary (τ := τ) (x := main_c_62) (y := main_v170) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_62 (val_main_c_62 (F := F)) (memAt% 0))
  refine Inv.cons h _ _ main_v170 (val_main_v170 (F := F)) rfl (by decide) (r.trans ?_) (fun W h => ?_)
  · rfl
  have r := res_binary (τ := τ) (a := main_v39) (b := main_v170) (y := main_v171) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 20 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3)))))))))))))) (h.get' main_v170 (val_main_v170 (F := F)) (memAt% 0))
  refine Inv.cons h _ _ main_v171 (val_main_v171 (F := F) x0 x3) rfl (by decide) (r.trans ?_) (fun W h => ?_)
  · rfl
  have r := res_nullary (τ := τ) (W := W) (y := main_c_63) (v := (constantI S_ 32 16#32)) (hy := ⟨by decide, rfl⟩)
  refine Inv.cons h _ _ main_c_63 (val_main_c_63 (F := F)) rfl (by decide) (r.trans ?_) (fun W h => ?_)
  · rfl
  have r := res_unary (τ := τ) (x := main_c_63) (y := main_v172) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_63 (val_main_c_63 (F := F)) (memAt% 0))
  refine Inv.cons h _ _ main_v172 (val_main_v172 (F := F)) rfl (by decide) (r.trans ?_) (fun W h => ?_)
  · rfl
  have r := res_binary (τ := τ) (a := main_v39) (b := main_v172) (y := main_v173) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 23 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3)))))))))))))) (h.get' main_v172 (val_main_v172 (F := F)) (memAt% 0))
  refine Inv.cons h _ _ main_v173 (val_main_v173 (F := F) x0 x3) rfl (by decide) (r.trans ?_) (fun W h => ?_)
  · rfl
  exact h

/-- Operations 352 … 376 of the line. -/
abbrev seg14 : List (HloOp τ sig (Elt F)) :=
  [ binary main_v171 main_v173 main_v174 (andi : (⟨S4x40000, .i1⟩ : BufTy).Contents (Elt F) → (⟨S4x40000, .i1⟩ : BufTy).Contents (Elt F) → (⟨S4x40000, .i1⟩ : BufTy).Contents (Elt F)),
    nullary main_c_64 (constantI S_ 32 0#32),
    unary main_c_64 main_v175 (broadcastInDim S4x40000 ![] bcast_S_S4x40000 : (⟨S_, .i32⟩ : BufTy).Contents (Elt F) → (⟨S4x40000, .i32⟩ : BufTy).Contents (Elt F)),
    binary main_v41 main_v175 main_v176 (cmpi .sge : (⟨S4x40000, .i32⟩ : BufTy).Contents (Elt F) → (⟨S4x40000, .i32⟩ : BufTy).Contents (Elt F) → (⟨S4x40000, .i1⟩ : BufTy).Contents (Elt F)),
    binary main_v174 main_v176 main_v177 (andi : (⟨S4x40000, .i1⟩ : BufTy).Contents (Elt F) → (⟨S4x40000, .i1⟩ : BufTy).Contents (Elt F) → (⟨S4x40000, .i1⟩ : BufTy).Contents (Elt F)),
    nullary main_c_65 (constantI S_ 32 16#32),
    unary main_c_65 main_v178 (broadcastInDim S4x40000 ![] bcast_S_S4x40000 : (⟨S_, .i32⟩ : BufTy).Contents (Elt F) → (⟨S4x40000, .i32⟩ : BufTy).Contents (Elt F)),
    binary main_v41 main_v178 main_v179 (cmpi .slt : (⟨S4x40000, .i32⟩ : BufTy).Contents (Elt F) → (⟨S4x40000, .i32⟩ : BufTy).Contents (Elt F) → (⟨S4x40000, .i1⟩ : BufTy).Contents (Elt F)),
    binary main_v177 main_v179 main_v180 (andi : (⟨S4x40000, .i1⟩ : BufTy).Contents (Elt F) → (⟨S4x40000, .i1⟩ : BufTy).Contents (Elt F) → (⟨S4x40000, .i1⟩ : BufTy).Contents (Elt F)),
    nullary main_c_66 (constantI S_ 32 0#32),
    unary main_c_66 main_v181 (broadcastInDim S4x40000 ![] bcast_S_S4x40000 : (⟨S_, .i32⟩ : BufTy).Contents (Elt F) → (⟨S4x40000, .i32⟩ : BufTy).Contents (Elt F)),
    binary main_v37 main_v181 main_v182 (cmpi .sge : (⟨S4x40000, .i32⟩ : BufTy).Contents (Elt F) → (⟨S4x40000, .i32⟩ : BufTy).Contents (Elt F) → (⟨S4x40000, .i1⟩ : BufTy).Contents (Elt F)),
    binary main_v180 main_v182 main_v183 (andi : (⟨S4x40000, .i1⟩ : BufTy).Contents (Elt F) → (⟨S4x40000, .i1⟩ : BufTy).Contents (Elt F) → (⟨S4x40000, .i1⟩ : BufTy).Contents (Elt F)),
    nullary main_c_67 (constantI S_ 32 16#32),
    unary main_c_67 main_v184 (broadcastInDim S4x40000 ![] bcast_S_S4x40000 : (⟨S_, .i32⟩ : BufTy).Contents (Elt F) → (⟨S4x40000, .i32⟩ : BufTy).Contents (Elt F)),
    binary main_v37 main_v184 main_v185 (cmpi .slt : (⟨S4x40000, .i32⟩ : BufTy).Contents (Elt F) → (⟨S4x40000, .i32⟩ : BufTy).Contents (Elt F) → (⟨S4x40000, .i1⟩ : BufTy).Contents (Elt F)),
    binary main_v183 main_v185 main_v186 (andi : (⟨S4x40000, .i1⟩ : BufTy).Contents (Elt F) → (⟨S4x40000, .i1⟩ : BufTy).Contents (Elt F) → (⟨S4x40000, .i1⟩ : BufTy).Contents (Elt F)),
    nullary main_c_68 (constantI S_ 32 0#32),
    nullary main_c_69 (constantI S_ 32 15#32),
    TRef.unary (TRef.of (T := ⟨S_, .i32⟩) main_c_68) (TRef.of (T := ⟨S_, .i32⟩) main_call12_v0) id,
    TRef.unary (TRef.of (T := ⟨S_, .i32⟩) main_call12_v0) (TRef.of (T := ⟨S4x40000, .i32⟩) main_call12_v1) (broadcastInDim S4x40000 ![] bcast_S_S4x40000),
    TRef.binary (TRef.of (T := ⟨S4x40000, .i32⟩) main_call12_v1) (TRef.of (T := ⟨S4x40000, .i32⟩) main_v37) (TRef.of (T := ⟨S4x40000, .i32⟩) main_call12_v2) maxsi,
    TRef.unary (TRef.of (T := ⟨S_, .i32⟩) main_c_69) (TRef.of (T := ⟨S_, .i32⟩) main_call12_v3) id,
    TRef.unary (TRef.of (T := ⟨S_, .i32⟩) main_call12_v3) (TRef.of (T := ⟨S4x40000, .i32⟩) main_call12_v4) (broadcastInDim S4x40000 ![] bcast_S_S4x40000),
    TRef.binary (TRef.of (T := ⟨S4x40000, .i32⟩) main_call12_v4) (TRef.of (T := ⟨S4x40000, .i32⟩) main_call12_v2) (TRef.of (T := ⟨S4x40000, .i32⟩) main_v187) minsi ]

/-- The facts after operation 376: each buffer written so far at its stage value. -/
def facts14 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v187, val_main_v187 (F := F) x0 x3⟩ ::
  ⟨main_call12_v4, val_main_call12_v4 (F := F)⟩ ::
  ⟨main_call12_v3, val_main_call12_v3 (F := F)⟩ ::
  ⟨main_call12_v2, val_main_call12_v2 (F := F) x0 x3⟩ ::
  ⟨main_call12_v1, val_main_call12_v1 (F := F)⟩ ::
  ⟨main_call12_v0, val_main_call12_v0 (F := F)⟩ ::
  ⟨main_c_69, val_main_c_69 (F := F)⟩ ::
  ⟨main_c_68, val_main_c_68 (F := F)⟩ ::
  ⟨main_v186, val_main_v186 (F := F) x0 x3⟩ ::
  ⟨main_v185, val_main_v185 (F := F) x0 x3⟩ ::
  ⟨main_v184, val_main_v184 (F := F)⟩ ::
  ⟨main_c_67, val_main_c_67 (F := F)⟩ ::
  ⟨main_v183, val_main_v183 (F := F) x0 x3⟩ ::
  ⟨main_v182, val_main_v182 (F := F) x0 x3⟩ ::
  ⟨main_v181, val_main_v181 (F := F)⟩ ::
  ⟨main_c_66, val_main_c_66 (F := F)⟩ ::
  ⟨main_v180, val_main_v180 (F := F) x0 x3⟩ ::
  ⟨main_v179, val_main_v179 (F := F) x0 x3⟩ ::
  ⟨main_v178, val_main_v178 (F := F)⟩ ::
  ⟨main_c_65, val_main_c_65 (F := F)⟩ ::
  ⟨main_v177, val_main_v177 (F := F) x0 x3⟩ ::
  ⟨main_v176, val_main_v176 (F := F) x0 x3⟩ ::
  ⟨main_v175, val_main_v175 (F := F)⟩ ::
  ⟨main_c_64, val_main_c_64 (F := F)⟩ ::
  ⟨main_v174, val_main_v174 (F := F) x0 x3⟩ ::
  facts13 x0 x1 x2 x3

theorem up14 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts13 x0 x1 x2 x3) : p ∈ facts14 x0 x1 x2 x3 :=
  memUp% 25 hp

set_option maxRecDepth 8192 in
set_option maxHeartbeats 2000000 in
/-- Operations 352 … 376: each adds the fact of the buffer it writes. -/
theorem run14 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts13 x0 x1 x2 x3) 355) :
    Inv (after seg14 W) (facts14 x0 x1 x2 x3) 380 := by
  have r := res_binary (τ := τ) (a := main_v171) (b := main_v173) (y := main_v174) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v171 (val_main_v171 (F := F) x0 x3) (memUp% 0 (memAt% 3 : (⟨main_v171, val_main_v171 (F := F) x0 x3⟩ : Fact sig (Elt F)) ∈ facts13 x0 x1 x2 x3))) (h.get' main_v173 (val_main_v173 (F := F) x0 x3) (memUp% 0 (memAt% 0 : (⟨main_v173, val_main_v173 (F := F) x0 x3⟩ : Fact sig (Elt F)) ∈ facts13 x0 x1 x2 x3)))
  refine Inv.cons h _ _ main_v174 (val_main_v174 (F := F) x0 x3) rfl (by decide) (r.trans ?_) (fun W h => ?_)
  · rfl
  have r := res_nullary (τ := τ) (W := W) (y := main_c_64) (v := (constantI S_ 32 0#32)) (hy := ⟨by decide, rfl⟩)
  refine Inv.cons h _ _ main_c_64 (val_main_c_64 (F := F)) rfl (by decide) (r.trans ?_) (fun W h => ?_)
  · rfl
  have r := res_unary (τ := τ) (x := main_c_64) (y := main_v175) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_64 (val_main_c_64 (F := F)) (memAt% 0))
  refine Inv.cons h _ _ main_v175 (val_main_v175 (F := F)) rfl (by decide) (r.trans ?_) (fun W h => ?_)
  · rfl
  have r := res_binary (τ := τ) (a := main_v41) (b := main_v175) (y := main_v176) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))))) (h.get' main_v175 (val_main_v175 (F := F)) (memAt% 0))
  refine Inv.cons h _ _ main_v176 (val_main_v176 (F := F) x0 x3) rfl (by decide) (r.trans ?_) (fun W h => ?_)
  · rfl
  have r := res_binary (τ := τ) (a := main_v174) (b := main_v176) (y := main_v177) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v174 (val_main_v174 (F := F) x0 x3) (memAt% 3)) (h.get' main_v176 (val_main_v176 (F := F) x0 x3) (memAt% 0))
  refine Inv.cons h _ _ main_v177 (val_main_v177 (F := F) x0 x3) rfl (by decide) (r.trans ?_) (fun W h => ?_)
  · rfl
  have r := res_nullary (τ := τ) (W := W) (y := main_c_65) (v := (constantI S_ 32 16#32)) (hy := ⟨by decide, rfl⟩)
  refine Inv.cons h _ _ main_c_65 (val_main_c_65 (F := F)) rfl (by decide) (r.trans ?_) (fun W h => ?_)
  · rfl
  have r := res_unary (τ := τ) (x := main_c_65) (y := main_v178) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_65 (val_main_c_65 (F := F)) (memAt% 0))
  refine Inv.cons h _ _ main_v178 (val_main_v178 (F := F)) rfl (by decide) (r.trans ?_) (fun W h => ?_)
  · rfl
  have r := res_binary (τ := τ) (a := main_v41) (b := main_v178) (y := main_v179) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 7 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))))) (h.get' main_v178 (val_main_v178 (F := F)) (memAt% 0))
  refine Inv.cons h _ _ main_v179 (val_main_v179 (F := F) x0 x3) rfl (by decide) (r.trans ?_) (fun W h => ?_)
  · rfl
  have r := res_binary (τ := τ) (a := main_v177) (b := main_v179) (y := main_v180) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v177 (val_main_v177 (F := F) x0 x3) (memAt% 3)) (h.get' main_v179 (val_main_v179 (F := F) x0 x3) (memAt% 0))
  refine Inv.cons h _ _ main_v180 (val_main_v180 (F := F) x0 x3) rfl (by decide) (r.trans ?_) (fun W h => ?_)
  · rfl
  have r := res_nullary (τ := τ) (W := W) (y := main_c_66) (v := (constantI S_ 32 0#32)) (hy := ⟨by decide, rfl⟩)
  refine Inv.cons h _ _ main_c_66 (val_main_c_66 (F := F)) rfl (by decide) (r.trans ?_) (fun W h => ?_)
  · rfl
  have r := res_unary (τ := τ) (x := main_c_66) (y := main_v181) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_66 (val_main_c_66 (F := F)) (memAt% 0))
  refine Inv.cons h _ _ main_v181 (val_main_v181 (F := F)) rfl (by decide) (r.trans ?_) (fun W h => ?_)
  · rfl
  have r := res_binary (τ := τ) (a := main_v37) (b := main_v181) (y := main_v182) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 11 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))))))))))) (h.get' main_v181 (val_main_v181 (F := F)) (memAt% 0))
  refine Inv.cons h _ _ main_v182 (val_main_v182 (F := F) x0 x3) rfl (by decide) (r.trans ?_) (fun W h => ?_)
  · rfl
  have r := res_binary (τ := τ) (a := main_v180) (b := main_v182) (y := main_v183) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v180 (val_main_v180 (F := F) x0 x3) (memAt% 3)) (h.get' main_v182 (val_main_v182 (F := F) x0 x3) (memAt% 0))
  refine Inv.cons h _ _ main_v183 (val_main_v183 (F := F) x0 x3) rfl (by decide) (r.trans ?_) (fun W h => ?_)
  · rfl
  have r := res_nullary (τ := τ) (W := W) (y := main_c_67) (v := (constantI S_ 32 16#32)) (hy := ⟨by decide, rfl⟩)
  refine Inv.cons h _ _ main_c_67 (val_main_c_67 (F := F)) rfl (by decide) (r.trans ?_) (fun W h => ?_)
  · rfl
  have r := res_unary (τ := τ) (x := main_c_67) (y := main_v184) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_67 (val_main_c_67 (F := F)) (memAt% 0))
  refine Inv.cons h _ _ main_v184 (val_main_v184 (F := F)) rfl (by decide) (r.trans ?_) (fun W h => ?_)
  · rfl
  have r := res_binary (τ := τ) (a := main_v37) (b := main_v184) (y := main_v185) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v37 (val_main_v37 (F := F) x0 x3) (memUp% 15 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3))))))))))))))) (h.get' main_v184 (val_main_v184 (F := F)) (memAt% 0))
  refine Inv.cons h _ _ main_v185 (val_main_v185 (F := F) x0 x3) rfl (by decide) (r.trans ?_) (fun W h => ?_)
  · rfl
  have r := res_binary (τ := τ) (a := main_v183) (b := main_v185) (y := main_v186) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v183 (val_main_v183 (F := F) x0 x3) (memAt% 3)) (h.get' main_v185 (val_main_v185 (F := F) x0 x3) (memAt% 0))
  refine Inv.cons h _ _ main_v186 (val_main_v186 (F := F) x0 x3) rfl (by decide) (r.trans ?_) (fun W h => ?_)
  · rfl
  have r := res_nullary (τ := τ) (W := W) (y := main_c_68) (v := (constantI S_ 32 0#32)) (hy := ⟨by decide, rfl⟩)
  refine Inv.cons h _ _ main_c_68 (val_main_c_68 (F := F)) rfl (by decide) (r.trans ?_) (fun W h => ?_)
  · rfl
  have r := res_nullary (τ := τ) (W := W) (y := main_c_69) (v := (constantI S_ 32 15#32)) (hy := ⟨by decide, rfl⟩)
  refine Inv.cons h _ _ main_c_69 (val_main_c_69 (F := F)) rfl (by decide) (r.trans ?_) (fun W h => ?_)
  · rfl
  have r := res_tunary (τ := τ) (TRef.of (T := ⟨S_, .i32⟩) main_c_68) (TRef.of (T := ⟨S_, .i32⟩) main_call12_v0) id (h.tget (TRef.of (T := ⟨S_, .i32⟩) main_c_68) (val_main_c_68 (F := F)) (val_main_c_68 (F := F)) HEq.rfl (memAt% 1))
  refine Inv.cons h _ _ main_call12_v0 (val_main_call12_v0 (F := F)) rfl (by decide) (r.trans (toBuf_of_heq (TRef.of (T := ⟨S_, .i32⟩) main_call12_v0) (w := val_main_call12_v0 (F := F)) ?_)) (fun W h => ?_)
  · exact HEq.rfl
  have r := res_tunary (τ := τ) (TRef.of (T := ⟨S_, .i32⟩) main_call12_v0) (TRef.of (T := ⟨S4x40000, .i32⟩) main_call12_v1) (broadcastInDim S4x40000 ![] bcast_S_S4x40000) (h.tget (TRef.of (T := ⟨S_, .i32⟩) main_call12_v0) (val_main_call12_v0 (F := F)) (val_main_call12_v0 (F := F)) HEq.rfl (memAt% 0))
  refine Inv.cons h _ _ main_call12_v1 (val_main_call12_v1 (F := F)) rfl (by decide) (r.trans (toBuf_of_heq (TRef.of (T := ⟨S4x40000, .i32⟩) main_call12_v1) (w := val_main_call12_v1 (F := F)) ?_)) (fun W h => ?_)
  · exact HEq.rfl
  have r := res_tbinary (τ := τ) (TRef.of (T := ⟨S4x40000, .i32⟩) main_call12_v1) (TRef.of (T := ⟨S4x40000, .i32⟩) main_v37) (TRef.of (T := ⟨S4x40000, .i32⟩) main_call12_v2) maxsi (h.tget (TRef.of (T := ⟨S4x40000, .i32⟩) main_call12_v1) (val_main_call12_v1 (F := F)) (val_main_call12_v1 (F := F)) HEq.rfl (memAt% 0)) (h.tget (TRef.of (T := ⟨S4x40000, .i32⟩) main_v37) (val_main_v37 (F := F) x0 x3) (val_main_v37 (F := F) x0 x3) HEq.rfl (memUp% 21 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 11 : (⟨main_v37, val_main_v37 (F := F) x0 x3⟩ : Fact sig (Elt F)) ∈ facts1 x0 x1 x2 x3)))))))))))))))
  refine Inv.cons h _ _ main_call12_v2 (val_main_call12_v2 (F := F) x0 x3) rfl (by decide) (r.trans (toBuf_of_heq (TRef.of (T := ⟨S4x40000, .i32⟩) main_call12_v2) (w := val_main_call12_v2 (F := F) x0 x3) ?_)) (fun W h => ?_)
  · exact HEq.rfl
  have r := res_tunary (τ := τ) (TRef.of (T := ⟨S_, .i32⟩) main_c_69) (TRef.of (T := ⟨S_, .i32⟩) main_call12_v3) id (h.tget (TRef.of (T := ⟨S_, .i32⟩) main_c_69) (val_main_c_69 (F := F)) (val_main_c_69 (F := F)) HEq.rfl (memAt% 3))
  refine Inv.cons h _ _ main_call12_v3 (val_main_call12_v3 (F := F)) rfl (by decide) (r.trans (toBuf_of_heq (TRef.of (T := ⟨S_, .i32⟩) main_call12_v3) (w := val_main_call12_v3 (F := F)) ?_)) (fun W h => ?_)
  · exact HEq.rfl
  have r := res_tunary (τ := τ) (TRef.of (T := ⟨S_, .i32⟩) main_call12_v3) (TRef.of (T := ⟨S4x40000, .i32⟩) main_call12_v4) (broadcastInDim S4x40000 ![] bcast_S_S4x40000) (h.tget (TRef.of (T := ⟨S_, .i32⟩) main_call12_v3) (val_main_call12_v3 (F := F)) (val_main_call12_v3 (F := F)) HEq.rfl (memAt% 0))
  refine Inv.cons h _ _ main_call12_v4 (val_main_call12_v4 (F := F)) rfl (by decide) (r.trans (toBuf_of_heq (TRef.of (T := ⟨S4x40000, .i32⟩) main_call12_v4) (w := val_main_call12_v4 (F := F)) ?_)) (fun W h => ?_)
  · exact HEq.rfl
  have r := res_tbinary (τ := τ) (TRef.of (T := ⟨S4x40000, .i32⟩) main_call12_v4) (TRef.of (T := ⟨S4x40000, .i32⟩) main_call12_v2) (TRef.of (T := ⟨S4x40000, .i32⟩) main_v187) minsi (h.tget (TRef.of (T := ⟨S4x40000, .i32⟩) main_call12_v4) (val_main_call12_v4 (F := F)) (val_main_call12_v4 (F := F)) HEq.rfl (memAt% 0)) (h.tget (TRef.of (T := ⟨S4x40000, .i32⟩) main_call12_v2) (val_main_call12_v2 (F := F) x0 x3) (val_main_call12_v2 (F := F) x0 x3) HEq.rfl (memAt% 2))
  refine Inv.cons h _ _ main_v187 (val_main_v187 (F := F) x0 x3) rfl (by decide) (r.trans (toBuf_of_heq (TRef.of (T := ⟨S4x40000, .i32⟩) main_v187) (w := val_main_v187 (F := F) x0 x3) ?_)) (fun W h => ?_)
  · exact HEq.rfl
  exact h

/-- Operations 377 … 400 of the line. -/
abbrev seg15 : List (HloOp τ sig (Elt F)) :=
  [ nullary main_c_70 (constantI S_ 32 16#32),
    unary main_c_70 main_v188 (broadcastInDim S4x40000 ![] bcast_S_S4x40000 : (⟨S_, .i32⟩ : BufTy).Contents (Elt F) → (⟨S4x40000, .i32⟩ : BufTy).Contents (Elt F)),
    binary main_v187 main_v188 main_v189 (muli : (⟨S4x40000, .i32⟩ : BufTy).Contents (Elt F) → (⟨S4x40000, .i32⟩ : BufTy).Contents (Elt F) → (⟨S4x40000, .i32⟩ : BufTy).Contents (Elt F)),
    nullary main_c_71 (constantI S_ 32 0#32),
    nullary main_c_72 (constantI S_ 32 15#32),
    TRef.unary (TRef.of (T := ⟨S_, .i32⟩) main_c_71) (TRef.of (T := ⟨S_, .i32⟩) main_call13_v0) id,
    TRef.unary (TRef.of (T := ⟨S_, .i32⟩) main_call13_v0) (TRef.of (T := ⟨S4x40000, .i32⟩) main_call13_v1) (broadcastInDim S4x40000 ![] bcast_S_S4x40000),
    TRef.binary (TRef.of (T := ⟨S4x40000, .i32⟩) main_call13_v1) (TRef.of (T := ⟨S4x40000, .i32⟩) main_v41) (TRef.of (T := ⟨S4x40000, .i32⟩) main_call13_v2) maxsi,
    TRef.unary (TRef.of (T := ⟨S_, .i32⟩) main_c_72) (TRef.of (T := ⟨S_, .i32⟩) main_call13_v3) id,
    TRef.unary (TRef.of (T := ⟨S_, .i32⟩) main_call13_v3) (TRef.of (T := ⟨S4x40000, .i32⟩) main_call13_v4) (broadcastInDim S4x40000 ![] bcast_S_S4x40000),
    TRef.binary (TRef.of (T := ⟨S4x40000, .i32⟩) main_call13_v4) (TRef.of (T := ⟨S4x40000, .i32⟩) main_call13_v2) (TRef.of (T := ⟨S4x40000, .i32⟩) main_v190) minsi,
    binary main_v189 main_v190 main_v191 (addi : (⟨S4x40000, .i32⟩ : BufTy).Contents (Elt F) → (⟨S4x40000, .i32⟩ : BufTy).Contents (Elt F) → (⟨S4x40000, .i32⟩ : BufTy).Contents (Elt F)),
    nullary main_c_73 (constantI S_ 32 16#32),
    unary main_c_73 main_v192 (broadcastInDim S4x40000 ![] bcast_S_S4x40000 : (⟨S_, .i32⟩ : BufTy).Contents (Elt F) → (⟨S4x40000, .i32⟩ : BufTy).Contents (Elt F)),
    binary main_v191 main_v192 main_v193 (muli : (⟨S4x40000, .i32⟩ : BufTy).Contents (Elt F) → (⟨S4x40000, .i32⟩ : BufTy).Contents (Elt F) → (⟨S4x40000, .i32⟩ : BufTy).Contents (Elt F)),
    nullary main_c_74 (constantI S_ 32 0#32),
    nullary main_c_75 (constantI S_ 32 15#32),
    TRef.unary (TRef.of (T := ⟨S_, .i32⟩) main_c_74) (TRef.of (T := ⟨S_, .i32⟩) main_call14_v0) id,
    TRef.unary (TRef.of (T := ⟨S_, .i32⟩) main_call14_v0) (TRef.of (T := ⟨S4x40000, .i32⟩) main_call14_v1) (broadcastInDim S4x40000 ![] bcast_S_S4x40000),
    TRef.binary (TRef.of (T := ⟨S4x40000, .i32⟩) main_call14_v1) (TRef.of (T := ⟨S4x40000, .i32⟩) main_v39) (TRef.of (T := ⟨S4x40000, .i32⟩) main_call14_v2) maxsi,
    TRef.unary (TRef.of (T := ⟨S_, .i32⟩) main_c_75) (TRef.of (T := ⟨S_, .i32⟩) main_call14_v3) id,
    TRef.unary (TRef.of (T := ⟨S_, .i32⟩) main_call14_v3) (TRef.of (T := ⟨S4x40000, .i32⟩) main_call14_v4) (broadcastInDim S4x40000 ![] bcast_S_S4x40000),
    TRef.binary (TRef.of (T := ⟨S4x40000, .i32⟩) main_call14_v4) (TRef.of (T := ⟨S4x40000, .i32⟩) main_call14_v2) (TRef.of (T := ⟨S4x40000, .i32⟩) main_v194) minsi,
    binary main_v193 main_v194 main_v195 (addi : (⟨S4x40000, .i32⟩ : BufTy).Contents (Elt F) → (⟨S4x40000, .i32⟩ : BufTy).Contents (Elt F) → (⟨S4x40000, .i32⟩ : BufTy).Contents (Elt F)) ]

/-- The facts after operation 400: each buffer written so far at its stage value. -/
def facts15 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v195, val_main_v195 (F := F) x0 x3⟩ ::
  ⟨main_v194, val_main_v194 (F := F) x0 x3⟩ ::
  ⟨main_call14_v4, val_main_call14_v4 (F := F)⟩ ::
  ⟨main_call14_v3, val_main_call14_v3 (F := F)⟩ ::
  ⟨main_call14_v2, val_main_call14_v2 (F := F) x0 x3⟩ ::
  ⟨main_call14_v1, val_main_call14_v1 (F := F)⟩ ::
  ⟨main_call14_v0, val_main_call14_v0 (F := F)⟩ ::
  ⟨main_c_75, val_main_c_75 (F := F)⟩ ::
  ⟨main_c_74, val_main_c_74 (F := F)⟩ ::
  ⟨main_v193, val_main_v193 (F := F) x0 x3⟩ ::
  ⟨main_v192, val_main_v192 (F := F)⟩ ::
  ⟨main_c_73, val_main_c_73 (F := F)⟩ ::
  ⟨main_v191, val_main_v191 (F := F) x0 x3⟩ ::
  ⟨main_v190, val_main_v190 (F := F) x0 x3⟩ ::
  ⟨main_call13_v4, val_main_call13_v4 (F := F)⟩ ::
  ⟨main_call13_v3, val_main_call13_v3 (F := F)⟩ ::
  ⟨main_call13_v2, val_main_call13_v2 (F := F) x0 x3⟩ ::
  ⟨main_call13_v1, val_main_call13_v1 (F := F)⟩ ::
  ⟨main_call13_v0, val_main_call13_v0 (F := F)⟩ ::
  ⟨main_c_72, val_main_c_72 (F := F)⟩ ::
  ⟨main_c_71, val_main_c_71 (F := F)⟩ ::
  ⟨main_v189, val_main_v189 (F := F) x0 x3⟩ ::
  ⟨main_v188, val_main_v188 (F := F)⟩ ::
  ⟨main_c_70, val_main_c_70 (F := F)⟩ ::
  facts14 x0 x1 x2 x3

theorem up15 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts14 x0 x1 x2 x3) : p ∈ facts15 x0 x1 x2 x3 :=
  memUp% 24 hp

set_option maxRecDepth 8192 in
set_option maxHeartbeats 2000000 in
/-- Operations 377 … 400: each adds the fact of the buffer it writes. -/
theorem run15 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts14 x0 x1 x2 x3) 380) :
    Inv (after seg15 W) (facts15 x0 x1 x2 x3) 404 := by
  have r := res_nullary (τ := τ) (W := W) (y := main_c_70) (v := (constantI S_ 32 16#32)) (hy := ⟨by decide, rfl⟩)
  refine Inv.cons h _ _ main_c_70 (val_main_c_70 (F := F)) rfl (by decide) (r.trans ?_) (fun W h => ?_)
  · rfl
  have r := res_unary (τ := τ) (x := main_c_70) (y := main_v188) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_70 (val_main_c_70 (F := F)) (memAt% 0))
  refine Inv.cons h _ _ main_v188 (val_main_v188 (F := F)) rfl (by decide) (r.trans ?_) (fun W h => ?_)
  · rfl
  have r := res_binary (τ := τ) (a := main_v187) (b := main_v188) (y := main_v189) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v187 (val_main_v187 (F := F) x0 x3) (memUp% 2 (memAt% 0 : (⟨main_v187, val_main_v187 (F := F) x0 x3⟩ : Fact sig (Elt F)) ∈ facts14 x0 x1 x2 x3))) (h.get' main_v188 (val_main_v188 (F := F)) (memAt% 0))
  refine Inv.cons h _ _ main_v189 (val_main_v189 (F := F) x0 x3) rfl (by decide) (r.trans ?_) (fun W h => ?_)
  · rfl
  have r := res_nullary (τ := τ) (W := W) (y := main_c_71) (v := (constantI S_ 32 0#32)) (hy := ⟨by decide, rfl⟩)
  refine Inv.cons h _ _ main_c_71 (val_main_c_71 (F := F)) rfl (by decide) (r.trans ?_) (fun W h => ?_)
  · rfl
  have r := res_nullary (τ := τ) (W := W) (y := main_c_72) (v := (constantI S_ 32 15#32)) (hy := ⟨by decide, rfl⟩)
  refine Inv.cons h _ _ main_c_72 (val_main_c_72 (F := F)) rfl (by decide) (r.trans ?_) (fun W h => ?_)
  · rfl
  have r := res_tunary (τ := τ) (TRef.of (T := ⟨S_, .i32⟩) main_c_71) (TRef.of (T := ⟨S_, .i32⟩) main_call13_v0) id (h.tget (TRef.of (T := ⟨S_, .i32⟩) main_c_71) (val_main_c_71 (F := F)) (val_main_c_71 (F := F)) HEq.rfl (memAt% 1))
  refine Inv.cons h _ _ main_call13_v0 (val_main_call13_v0 (F := F)) rfl (by decide) (r.trans (toBuf_of_heq (TRef.of (T := ⟨S_, .i32⟩) main_call13_v0) (w := val_main_call13_v0 (F := F)) ?_)) (fun W h => ?_)
  · exact HEq.rfl
  have r := res_tunary (τ := τ) (TRef.of (T := ⟨S_, .i32⟩) main_call13_v0) (TRef.of (T := ⟨S4x40000, .i32⟩) main_call13_v1) (broadcastInDim S4x40000 ![] bcast_S_S4x40000) (h.tget (TRef.of (T := ⟨S_, .i32⟩) main_call13_v0) (val_main_call13_v0 (F := F)) (val_main_call13_v0 (F := F)) HEq.rfl (memAt% 0))
  refine Inv.cons h _ _ main_call13_v1 (val_main_call13_v1 (F := F)) rfl (by decide) (r.trans (toBuf_of_heq (TRef.of (T := ⟨S4x40000, .i32⟩) main_call13_v1) (w := val_main_call13_v1 (F := F)) ?_)) (fun W h => ?_)
  · exact HEq.rfl
  have r := res_tbinary (τ := τ) (TRef.of (T := ⟨S4x40000, .i32⟩) main_call13_v1) (TRef.of (T := ⟨S4x40000, .i32⟩) main_v41) (TRef.of (T := ⟨S4x40000, .i32⟩) main_call13_v2) maxsi (h.tget (TRef.of (T := ⟨S4x40000, .i32⟩) main_call13_v1) (val_main_call13_v1 (F := F)) (val_main_call13_v1 (F := F)) HEq.rfl (memAt% 0)) (h.tget (TRef.of (T := ⟨S4x40000, .i32⟩) main_v41) (val_main_v41 (F := F) x0 x3) (val_main_v41 (F := F) x0 x3) HEq.rfl (memUp% 7 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))))))
  refine Inv.cons h _ _ main_call13_v2 (val_main_call13_v2 (F := F) x0 x3) rfl (by decide) (r.trans (toBuf_of_heq (TRef.of (T := ⟨S4x40000, .i32⟩) main_call13_v2) (w := val_main_call13_v2 (F := F) x0 x3) ?_)) (fun W h => ?_)
  · exact HEq.rfl
  have r := res_tunary (τ := τ) (TRef.of (T := ⟨S_, .i32⟩) main_c_72) (TRef.of (T := ⟨S_, .i32⟩) main_call13_v3) id (h.tget (TRef.of (T := ⟨S_, .i32⟩) main_c_72) (val_main_c_72 (F := F)) (val_main_c_72 (F := F)) HEq.rfl (memAt% 3))
  refine Inv.cons h _ _ main_call13_v3 (val_main_call13_v3 (F := F)) rfl (by decide) (r.trans (toBuf_of_heq (TRef.of (T := ⟨S_, .i32⟩) main_call13_v3) (w := val_main_call13_v3 (F := F)) ?_)) (fun W h => ?_)
  · exact HEq.rfl
  have r := res_tunary (τ := τ) (TRef.of (T := ⟨S_, .i32⟩) main_call13_v3) (TRef.of (T := ⟨S4x40000, .i32⟩) main_call13_v4) (broadcastInDim S4x40000 ![] bcast_S_S4x40000) (h.tget (TRef.of (T := ⟨S_, .i32⟩) main_call13_v3) (val_main_call13_v3 (F := F)) (val_main_call13_v3 (F := F)) HEq.rfl (memAt% 0))
  refine Inv.cons h _ _ main_call13_v4 (val_main_call13_v4 (F := F)) rfl (by decide) (r.trans (toBuf_of_heq (TRef.of (T := ⟨S4x40000, .i32⟩) main_call13_v4) (w := val_main_call13_v4 (F := F)) ?_)) (fun W h => ?_)
  · exact HEq.rfl
  have r := res_tbinary (τ := τ) (TRef.of (T := ⟨S4x40000, .i32⟩) main_call13_v4) (TRef.of (T := ⟨S4x40000, .i32⟩) main_call13_v2) (TRef.of (T := ⟨S4x40000, .i32⟩) main_v190) minsi (h.tget (TRef.of (T := ⟨S4x40000, .i32⟩) main_call13_v4) (val_main_call13_v4 (F := F)) (val_main_call13_v4 (F := F)) HEq.rfl (memAt% 0)) (h.tget (TRef.of (T := ⟨S4x40000, .i32⟩) main_call13_v2) (val_main_call13_v2 (F := F) x0 x3) (val_main_call13_v2 (F := F) x0 x3) HEq.rfl (memAt% 2))
  refine Inv.cons h _ _ main_v190 (val_main_v190 (F := F) x0 x3) rfl (by decide) (r.trans (toBuf_of_heq (TRef.of (T := ⟨S4x40000, .i32⟩) main_v190) (w := val_main_v190 (F := F) x0 x3) ?_)) (fun W h => ?_)
  · exact HEq.rfl
  have r := res_binary (τ := τ) (a := main_v189) (b := main_v190) (y := main_v191) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v189 (val_main_v189 (F := F) x0 x3) (memAt% 8)) (h.get' main_v190 (val_main_v190 (F := F) x0 x3) (memAt% 0))
  refine Inv.cons h _ _ main_v191 (val_main_v191 (F := F) x0 x3) rfl (by decide) (r.trans ?_) (fun W h => ?_)
  · rfl
  have r := res_nullary (τ := τ) (W := W) (y := main_c_73) (v := (constantI S_ 32 16#32)) (hy := ⟨by decide, rfl⟩)
  refine Inv.cons h _ _ main_c_73 (val_main_c_73 (F := F)) rfl (by decide) (r.trans ?_) (fun W h => ?_)
  · rfl
  have r := res_unary (τ := τ) (x := main_c_73) (y := main_v192) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_73 (val_main_c_73 (F := F)) (memAt% 0))
  refine Inv.cons h _ _ main_v192 (val_main_v192 (F := F)) rfl (by decide) (r.trans ?_) (fun W h => ?_)
  · rfl
  have r := res_binary (τ := τ) (a := main_v191) (b := main_v192) (y := main_v193) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v191 (val_main_v191 (F := F) x0 x3) (memAt% 2)) (h.get' main_v192 (val_main_v192 (F := F)) (memAt% 0))
  refine Inv.cons h _ _ main_v193 (val_main_v193 (F := F) x0 x3) rfl (by decide) (r.trans ?_) (fun W h => ?_)
  · rfl
  have r := res_nullary (τ := τ) (W := W) (y := main_c_74) (v := (constantI S_ 32 0#32)) (hy := ⟨by decide, rfl⟩)
  refine Inv.cons h _ _ main_c_74 (val_main_c_74 (F := F)) rfl (by decide) (r.trans ?_) (fun W h => ?_)
  · rfl
  have r := res_nullary (τ := τ) (W := W) (y := main_c_75) (v := (constantI S_ 32 15#32)) (hy := ⟨by decide, rfl⟩)
  refine Inv.cons h _ _ main_c_75 (val_main_c_75 (F := F)) rfl (by decide) (r.trans ?_) (fun W h => ?_)
  · rfl
  have r := res_tunary (τ := τ) (TRef.of (T := ⟨S_, .i32⟩) main_c_74) (TRef.of (T := ⟨S_, .i32⟩) main_call14_v0) id (h.tget (TRef.of (T := ⟨S_, .i32⟩) main_c_74) (val_main_c_74 (F := F)) (val_main_c_74 (F := F)) HEq.rfl (memAt% 1))
  refine Inv.cons h _ _ main_call14_v0 (val_main_call14_v0 (F := F)) rfl (by decide) (r.trans (toBuf_of_heq (TRef.of (T := ⟨S_, .i32⟩) main_call14_v0) (w := val_main_call14_v0 (F := F)) ?_)) (fun W h => ?_)
  · exact HEq.rfl
  have r := res_tunary (τ := τ) (TRef.of (T := ⟨S_, .i32⟩) main_call14_v0) (TRef.of (T := ⟨S4x40000, .i32⟩) main_call14_v1) (broadcastInDim S4x40000 ![] bcast_S_S4x40000) (h.tget (TRef.of (T := ⟨S_, .i32⟩) main_call14_v0) (val_main_call14_v0 (F := F)) (val_main_call14_v0 (F := F)) HEq.rfl (memAt% 0))
  refine Inv.cons h _ _ main_call14_v1 (val_main_call14_v1 (F := F)) rfl (by decide) (r.trans (toBuf_of_heq (TRef.of (T := ⟨S4x40000, .i32⟩) main_call14_v1) (w := val_main_call14_v1 (F := F)) ?_)) (fun W h => ?_)
  · exact HEq.rfl
  have r := res_tbinary (τ := τ) (TRef.of (T := ⟨S4x40000, .i32⟩) main_call14_v1) (TRef.of (T := ⟨S4x40000, .i32⟩) main_v39) (TRef.of (T := ⟨S4x40000, .i32⟩) main_call14_v2) maxsi (h.tget (TRef.of (T := ⟨S4x40000, .i32⟩) main_call14_v1) (val_main_call14_v1 (F := F)) (val_main_call14_v1 (F := F)) HEq.rfl (memAt% 0)) (h.tget (TRef.of (T := ⟨S4x40000, .i32⟩) main_v39) (val_main_v39 (F := F) x0 x3) (val_main_v39 (F := F) x0 x3) HEq.rfl (memUp% 19 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3))))))))))))))))
  refine Inv.cons h _ _ main_call14_v2 (val_main_call14_v2 (F := F) x0 x3) rfl (by decide) (r.trans (toBuf_of_heq (TRef.of (T := ⟨S4x40000, .i32⟩) main_call14_v2) (w := val_main_call14_v2 (F := F) x0 x3) ?_)) (fun W h => ?_)
  · exact HEq.rfl
  have r := res_tunary (τ := τ) (TRef.of (T := ⟨S_, .i32⟩) main_c_75) (TRef.of (T := ⟨S_, .i32⟩) main_call14_v3) id (h.tget (TRef.of (T := ⟨S_, .i32⟩) main_c_75) (val_main_c_75 (F := F)) (val_main_c_75 (F := F)) HEq.rfl (memAt% 3))
  refine Inv.cons h _ _ main_call14_v3 (val_main_call14_v3 (F := F)) rfl (by decide) (r.trans (toBuf_of_heq (TRef.of (T := ⟨S_, .i32⟩) main_call14_v3) (w := val_main_call14_v3 (F := F)) ?_)) (fun W h => ?_)
  · exact HEq.rfl
  have r := res_tunary (τ := τ) (TRef.of (T := ⟨S_, .i32⟩) main_call14_v3) (TRef.of (T := ⟨S4x40000, .i32⟩) main_call14_v4) (broadcastInDim S4x40000 ![] bcast_S_S4x40000) (h.tget (TRef.of (T := ⟨S_, .i32⟩) main_call14_v3) (val_main_call14_v3 (F := F)) (val_main_call14_v3 (F := F)) HEq.rfl (memAt% 0))
  refine Inv.cons h _ _ main_call14_v4 (val_main_call14_v4 (F := F)) rfl (by decide) (r.trans (toBuf_of_heq (TRef.of (T := ⟨S4x40000, .i32⟩) main_call14_v4) (w := val_main_call14_v4 (F := F)) ?_)) (fun W h => ?_)
  · exact HEq.rfl
  have r := res_tbinary (τ := τ) (TRef.of (T := ⟨S4x40000, .i32⟩) main_call14_v4) (TRef.of (T := ⟨S4x40000, .i32⟩) main_call14_v2) (TRef.of (T := ⟨S4x40000, .i32⟩) main_v194) minsi (h.tget (TRef.of (T := ⟨S4x40000, .i32⟩) main_call14_v4) (val_main_call14_v4 (F := F)) (val_main_call14_v4 (F := F)) HEq.rfl (memAt% 0)) (h.tget (TRef.of (T := ⟨S4x40000, .i32⟩) main_call14_v2) (val_main_call14_v2 (F := F) x0 x3) (val_main_call14_v2 (F := F) x0 x3) HEq.rfl (memAt% 2))
  refine Inv.cons h _ _ main_v194 (val_main_v194 (F := F) x0 x3) rfl (by decide) (r.trans (toBuf_of_heq (TRef.of (T := ⟨S4x40000, .i32⟩) main_v194) (w := val_main_v194 (F := F) x0 x3) ?_)) (fun W h => ?_)
  · exact HEq.rfl
  have r := res_binary (τ := τ) (a := main_v193) (b := main_v194) (y := main_v195) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v193 (val_main_v193 (F := F) x0 x3) (memAt% 8)) (h.get' main_v194 (val_main_v194 (F := F) x0 x3) (memAt% 0))
  refine Inv.cons h _ _ main_v195 (val_main_v195 (F := F) x0 x3) rfl (by decide) (r.trans ?_) (fun W h => ?_)
  · rfl
  exact h

/-- Operations 401 … 424 of the line. -/
abbrev seg16 : List (HloOp τ sig (Elt F)) :=
  [ unary main_v195 main_v196 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call15_c) (constantI S_ 32 0#32),
    TRef.unary (TRef.of (T := ⟨S_, .i32⟩) main_call15_c) (TRef.of (T := ⟨S4x1x40000, .i32⟩) main_call15_v0) (broadcastInDim S4x1x40000 ![] bcast_S_S4x1x40000),
    TRef.binary (TRef.of (T := ⟨S4x1x40000, .i32⟩) main_v196) (TRef.of (T := ⟨S4x1x40000, .i32⟩) main_call15_v0) (TRef.of (T := ⟨S4x1x40000, .i1⟩) main_call15_v1) (cmpi .slt),
    TRef.nullary (TRef.of (T := ⟨S_, .i32⟩) main_call15_c_0) (constantI S_ 32 4096#32),
    TRef.unary (TRef.of (T := ⟨S_, .i32⟩) main_call15_c_0) (TRef.of (T := ⟨S4x1x40000, .i32⟩) main_call15_v2) (broadcastInDim S4x1x40000 ![] bcast_S_S4x1x40000),
    TRef.binary (TRef.of (T := ⟨S4x1x40000, .i32⟩) main_v196) (TRef.of (T := ⟨S4x1x40000, .i32⟩) main_call15_v2) (TRef.of (T := ⟨S4x1x40000, .i32⟩) main_call15_v3) addi,
    TRef.ternary (TRef.of (T := ⟨S4x1x40000, .i1⟩) main_call15_v1) (TRef.of (T := ⟨S4x1x40000, .i32⟩) main_call15_v3) (TRef.of (T := ⟨S4x1x40000, .i32⟩) main_v196) (TRef.of (T := ⟨S4x1x40000, .i32⟩) main_call15_v4) select,
    TRef.reshape (TRef.of (T := ⟨S4x1x40000, .i32⟩) main_call15_v4) (TRef.of (T := ⟨S4x40000x1, .i32⟩) main_call15_v5) rfl shapeCasts_S4x1x40000_S4x40000x1,
    TRef.nullary (TRef.of (T := ⟨S1, .i32⟩) main_call15_c_1) (constantI S1 32 4095#32),
    TRef.nullary (TRef.of (T := ⟨S_, .i32⟩) main_call15_c_2) (constantI S_ 32 0#32),
    TRef.unary (TRef.of (T := ⟨S_, .i32⟩) main_call15_c_2) (TRef.of (T := ⟨S4x40000x1, .i32⟩) main_call15_v6) (broadcastInDim S4x40000x1 ![] bcast_S_S4x40000x1),
    TRef.binary (TRef.of (T := ⟨S4x40000x1, .i32⟩) main_call15_v5) (TRef.of (T := ⟨S4x40000x1, .i32⟩) main_call15_v6) (TRef.of (T := ⟨S4x40000x1, .i1⟩) main_call15_v7) (cmpi .sge),
    TRef.unary (TRef.of (T := ⟨S1, .i32⟩) main_call15_c_1) (TRef.of (T := ⟨S1x1x1, .i32⟩) main_call15_v8) (broadcastInDim S1x1x1 ![2] bcast_S1_S1x1x1_2),
    TRef.unary (TRef.of (T := ⟨S1x1x1, .i32⟩) main_call15_v8) (TRef.of (T := ⟨S4x40000x1, .i32⟩) main_call15_v9) (broadcastInDim S4x40000x1 ![0, 1, 2] bcast_S1x1x1_S4x40000x1_0_1_2),
    TRef.binary (TRef.of (T := ⟨S4x40000x1, .i32⟩) main_call15_v5) (TRef.of (T := ⟨S4x40000x1, .i32⟩) main_call15_v9) (TRef.of (T := ⟨S4x40000x1, .i1⟩) main_call15_v10) (cmpi .sle),
    TRef.binary (TRef.of (T := ⟨S4x40000x1, .i1⟩) main_call15_v7) (TRef.of (T := ⟨S4x40000x1, .i1⟩) main_call15_v10) (TRef.of (T := ⟨S4x40000x1, .i1⟩) main_call15_v11) andi,
    TRef.nullary (TRef.of (T := ⟨S_, .i1⟩) main_call15_c_3) (constantI S_ 1 1#1),
    TRef.binary (TRef.of (T := ⟨S4x40000x1, .i1⟩) main_call15_v11) (TRef.of (T := ⟨S_, .i1⟩) main_call15_c_3) (TRef.of (T := ⟨S4x40000, .i1⟩) main_call15_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call15_v5) (TRef.of (T := ⟨S4x128x40000, .f32⟩) main_call15_v13) (fun x i => Host.gather gather_S4x128x4096_S4x40000x1_S4x128x40000_1_2_0_0_2_2_11281 x i),
    TRef.unary (TRef.of (T := ⟨S4x40000, .i1⟩) main_call15_v12) (TRef.of (T := ⟨S4x128x40000, .i1⟩) main_call15_v14) (broadcastInDim S4x128x40000 ![0, 2] bcast_S4x40000_S4x128x40000_0_2),
    TRef.nullary (TRef.of (T := ⟨S_, .f32⟩) main_call15_cst) (constant S_ .f32 0x7FC00000#32),
    TRef.unary (TRef.of (T := ⟨S_, .f32⟩) main_call15_cst) (TRef.of (T := ⟨S4x128x40000, .f32⟩) main_call15_v15) (broadcastInDim S4x128x40000 ![] bcast_S_S4x128x40000),
    TRef.ternary (TRef.of (T := ⟨S4x128x40000, .i1⟩) main_call15_v14) (TRef.of (T := ⟨S4x128x40000, .f32⟩) main_call15_v13) (TRef.of (T := ⟨S4x128x40000, .f32⟩) main_call15_v15) (TRef.of (T := ⟨S4x128x40000, .f32⟩) main_v197) select ]

/-- The facts after operation 424: each buffer written so far at its stage value. -/
def facts16 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v197, val_main_v197 (F := F) x0 x2 x3⟩ ::
  ⟨main_call15_v15, val_main_call15_v15 (F := F)⟩ ::
  ⟨main_call15_cst, val_main_call15_cst (F := F)⟩ ::
  ⟨main_call15_v14, val_main_call15_v14 (F := F) x0 x3⟩ ::
  ⟨main_call15_v13, val_main_call15_v13 (F := F) x0 x2 x3⟩ ::
  ⟨main_call15_v12, val_main_call15_v12 (F := F) x0 x3⟩ ::
  ⟨main_call15_c_3, val_main_call15_c_3 (F := F)⟩ ::
  ⟨main_call15_v11, val_main_call15_v11 (F := F) x0 x3⟩ ::
  ⟨main_call15_v10, val_main_call15_v10 (F := F) x0 x3⟩ ::
  ⟨main_call15_v9, val_main_call15_v9 (F := F)⟩ ::
  ⟨main_call15_v8, val_main_call15_v8 (F := F)⟩ ::
  ⟨main_call15_v7, val_main_call15_v7 (F := F) x0 x3⟩ ::
  ⟨main_call15_v6, val_main_call15_v6 (F := F)⟩ ::
  ⟨main_call15_c_2, val_main_call15_c_2 (F := F)⟩ ::
  ⟨main_call15_c_1, val_main_call15_c_1 (F := F)⟩ ::
  ⟨main_call15_v5, val_main_call15_v5 (F := F) x0 x3⟩ ::
  ⟨main_call15_v4, val_main_call15_v4 (F := F) x0 x3⟩ ::
  ⟨main_call15_v3, val_main_call15_v3 (F := F) x0 x3⟩ ::
  ⟨main_call15_v2, val_main_call15_v2 (F := F)⟩ ::
  ⟨main_call15_c_0, val_main_call15_c_0 (F := F)⟩ ::
  ⟨main_call15_v1, val_main_call15_v1 (F := F) x0 x3⟩ ::
  ⟨main_call15_v0, val_main_call15_v0 (F := F)⟩ ::
  ⟨main_call15_c, val_main_call15_c (F := F)⟩ ::
  ⟨main_v196, val_main_v196 (F := F) x0 x3⟩ ::
  facts15 x0 x1 x2 x3

theorem up16 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts15 x0 x1 x2 x3) : p ∈ facts16 x0 x1 x2 x3 :=
  memUp% 24 hp

set_option maxRecDepth 8192 in
set_option maxHeartbeats 2000000 in
/-- Operations 401 … 424: each adds the fact of the buffer it writes. -/
theorem run16 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts15 x0 x1 x2 x3) 404) :
    Inv (after seg16 W) (facts16 x0 x1 x2 x3) 428 := by
  have r := res_unary (τ := τ) (x := main_v195) (y := main_v196) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v195 (val_main_v195 (F := F) x0 x3) (memUp% 0 (memAt% 0 : (⟨main_v195, val_main_v195 (F := F) x0 x3⟩ : Fact sig (Elt F)) ∈ facts15 x0 x1 x2 x3)))
  refine Inv.cons h _ _ main_v196 (val_main_v196 (F := F) x0 x3) rfl (by decide) (r.trans ?_) (fun W h => ?_)
  · rfl
  have r := res_tnullary (τ := τ) (W := W) (TRef.of (T := ⟨S_, .i32⟩) main_call15_c) (constantI S_ 32 0#32)
  refine Inv.cons h _ _ main_call15_c (val_main_call15_c (F := F)) rfl (by decide) (r.trans (toBuf_of_heq (TRef.of (T := ⟨S_, .i32⟩) main_call15_c) (w := val_main_call15_c (F := F)) ?_)) (fun W h => ?_)
  · exact HEq.rfl
  have r := res_tunary (τ := τ) (TRef.of (T := ⟨S_, .i32⟩) main_call15_c) (TRef.of (T := ⟨S4x1x40000, .i32⟩) main_call15_v0) (broadcastInDim S4x1x40000 ![] bcast_S_S4x1x40000) (h.tget (TRef.of (T := ⟨S_, .i32⟩) main_call15_c) (val_main_call15_c (F := F)) (val_main_call15_c (F := F)) HEq.rfl (memAt% 0))
  refine Inv.cons h _ _ main_call15_v0 (val_main_call15_v0 (F := F)) rfl (by decide) (r.trans (toBuf_of_heq (TRef.of (T := ⟨S4x1x40000, .i32⟩) main_call15_v0) (w := val_main_call15_v0 (F := F)) ?_)) (fun W h => ?_)
  · exact HEq.rfl
  have r := res_tbinary (τ := τ) (TRef.of (T := ⟨S4x1x40000, .i32⟩) main_v196) (TRef.of (T := ⟨S4x1x40000, .i32⟩) main_call15_v0) (TRef.of (T := ⟨S4x1x40000, .i1⟩) main_call15_v1) (cmpi .slt) (h.tget (TRef.of (T := ⟨S4x1x40000, .i32⟩) main_v196) (val_main_v196 (F := F) x0 x3) (val_main_v196 (F := F) x0 x3) HEq.rfl (memAt% 2)) (h.tget (TRef.of (T := ⟨S4x1x40000, .i32⟩) main_call15_v0) (val_main_call15_v0 (F := F)) (val_main_call15_v0 (F := F)) HEq.rfl (memAt% 0))
  refine Inv.cons h _ _ main_call15_v1 (val_main_call15_v1 (F := F) x0 x3) rfl (by decide) (r.trans (toBuf_of_heq (TRef.of (T := ⟨S4x1x40000, .i1⟩) main_call15_v1) (w := val_main_call15_v1 (F := F) x0 x3) ?_)) (fun W h => ?_)
  · exact HEq.rfl
  have r := res_tnullary (τ := τ) (W := W) (TRef.of (T := ⟨S_, .i32⟩) main_call15_c_0) (constantI S_ 32 4096#32)
  refine Inv.cons h _ _ main_call15_c_0 (val_main_call15_c_0 (F := F)) rfl (by decide) (r.trans (toBuf_of_heq (TRef.of (T := ⟨S_, .i32⟩) main_call15_c_0) (w := val_main_call15_c_0 (F := F)) ?_)) (fun W h => ?_)
  · exact HEq.rfl
  have r := res_tunary (τ := τ) (TRef.of (T := ⟨S_, .i32⟩) main_call15_c_0) (TRef.of (T := ⟨S4x1x40000, .i32⟩) main_call15_v2) (broadcastInDim S4x1x40000 ![] bcast_S_S4x1x40000) (h.tget (TRef.of (T := ⟨S_, .i32⟩) main_call15_c_0) (val_main_call15_c_0 (F := F)) (val_main_call15_c_0 (F := F)) HEq.rfl (memAt% 0))
  refine Inv.cons h _ _ main_call15_v2 (val_main_call15_v2 (F := F)) rfl (by decide) (r.trans (toBuf_of_heq (TRef.of (T := ⟨S4x1x40000, .i32⟩) main_call15_v2) (w := val_main_call15_v2 (F := F)) ?_)) (fun W h => ?_)
  · exact HEq.rfl
  have r := res_tbinary (τ := τ) (TRef.of (T := ⟨S4x1x40000, .i32⟩) main_v196) (TRef.of (T := ⟨S4x1x40000, .i32⟩) main_call15_v2) (TRef.of (T := ⟨S4x1x40000, .i32⟩) main_call15_v3) addi (h.tget (TRef.of (T := ⟨S4x1x40000, .i32⟩) main_v196) (val_main_v196 (F := F) x0 x3) (val_main_v196 (F := F) x0 x3) HEq.rfl (memAt% 5)) (h.tget (TRef.of (T := ⟨S4x1x40000, .i32⟩) main_call15_v2) (val_main_call15_v2 (F := F)) (val_main_call15_v2 (F := F)) HEq.rfl (memAt% 0))
  refine Inv.cons h _ _ main_call15_v3 (val_main_call15_v3 (F := F) x0 x3) rfl (by decide) (r.trans (toBuf_of_heq (TRef.of (T := ⟨S4x1x40000, .i32⟩) main_call15_v3) (w := val_main_call15_v3 (F := F) x0 x3) ?_)) (fun W h => ?_)
  · exact HEq.rfl
  have r := res_tternary (τ := τ) (TRef.of (T := ⟨S4x1x40000, .i1⟩) main_call15_v1) (TRef.of (T := ⟨S4x1x40000, .i32⟩) main_call15_v3) (TRef.of (T := ⟨S4x1x40000, .i32⟩) main_v196) (TRef.of (T := ⟨S4x1x40000, .i32⟩) main_call15_v4) select (h.tget (TRef.of (T := ⟨S4x1x40000, .i1⟩) main_call15_v1) (val_main_call15_v1 (F := F) x0 x3) (val_main_call15_v1 (F := F) x0 x3) HEq.rfl (memAt% 3)) (h.tget (TRef.of (T := ⟨S4x1x40000, .i32⟩) main_call15_v3) (val_main_call15_v3 (F := F) x0 x3) (val_main_call15_v3 (F := F) x0 x3) HEq.rfl (memAt% 0)) (h.tget (TRef.of (T := ⟨S4x1x40000, .i32⟩) main_v196) (val_main_v196 (F := F) x0 x3) (val_main_v196 (F := F) x0 x3) HEq.rfl (memAt% 6))
  refine Inv.cons h _ _ main_call15_v4 (val_main_call15_v4 (F := F) x0 x3) rfl (by decide) (r.trans (toBuf_of_heq (TRef.of (T := ⟨S4x1x40000, .i32⟩) main_call15_v4) (w := val_main_call15_v4 (F := F) x0 x3) ?_)) (fun W h => ?_)
  · exact HEq.rfl
  have r := res_treshape (τ := τ) (TRef.of (T := ⟨S4x1x40000, .i32⟩) main_call15_v4) (TRef.of (T := ⟨S4x40000x1, .i32⟩) main_call15_v5) rfl shapeCasts_S4x1x40000_S4x40000x1 (h.tget (TRef.of (T := ⟨S4x1x40000, .i32⟩) main_call15_v4) (val_main_call15_v4 (F := F) x0 x3) (val_main_call15_v4 (F := F) x0 x3) HEq.rfl (memAt% 0))
  refine Inv.cons h _ _ main_call15_v5 (val_main_call15_v5 (F := F) x0 x3) rfl (by decide) (r.trans (toBuf_of_heq (TRef.of (T := ⟨S4x40000x1, .i32⟩) main_call15_v5) (w := val_main_call15_v5 (F := F) x0 x3) ?_)) (fun W h => ?_)
  · exact HEq.rfl
  have r := res_tnullary (τ := τ) (W := W) (TRef.of (T := ⟨S1, .i32⟩) main_call15_c_1) (constantI S1 32 4095#32)
  refine Inv.cons h _ _ main_call15_c_1 (val_main_call15_c_1 (F := F)) rfl (by decide) (r.trans (toBuf_of_heq (TRef.of (T := ⟨S1, .i32⟩) main_call15_c_1) (w := val_main_call15_c_1 (F := F)) ?_)) (fun W h => ?_)
  · exact HEq.rfl
  have r := res_tnullary (τ := τ) (W := W) (TRef.of (T := ⟨S_, .i32⟩) main_call15_c_2) (constantI S_ 32 0#32)
  refine Inv.cons h _ _ main_call15_c_2 (val_main_call15_c_2 (F := F)) rfl (by decide) (r.trans (toBuf_of_heq (TRef.of (T := ⟨S_, .i32⟩) main_call15_c_2) (w := val_main_call15_c_2 (F := F)) ?_)) (fun W h => ?_)
  · exact HEq.rfl
  have r := res_tunary (τ := τ) (TRef.of (T := ⟨S_, .i32⟩) main_call15_c_2) (TRef.of (T := ⟨S4x40000x1, .i32⟩) main_call15_v6) (broadcastInDim S4x40000x1 ![] bcast_S_S4x40000x1) (h.tget (TRef.of (T := ⟨S_, .i32⟩) main_call15_c_2) (val_main_call15_c_2 (F := F)) (val_main_call15_c_2 (F := F)) HEq.rfl (memAt% 0))
  refine Inv.cons h _ _ main_call15_v6 (val_main_call15_v6 (F := F)) rfl (by decide) (r.trans (toBuf_of_heq (TRef.of (T := ⟨S4x40000x1, .i32⟩) main_call15_v6) (w := val_main_call15_v6 (F := F)) ?_)) (fun W h => ?_)
  · exact HEq.rfl
  have r := res_tbinary (τ := τ) (TRef.of (T := ⟨S4x40000x1, .i32⟩) main_call15_v5) (TRef.of (T := ⟨S4x40000x1, .i32⟩) main_call15_v6) (TRef.of (T := ⟨S4x40000x1, .i1⟩) main_call15_v7) (cmpi .sge) (h.tget (TRef.of (T := ⟨S4x40000x1, .i32⟩) main_call15_v5) (val_main_call15_v5 (F := F) x0 x3) (val_main_call15_v5 (F := F) x0 x3) HEq.rfl (memAt% 3)) (h.tget (TRef.of (T := ⟨S4x40000x1, .i32⟩) main_call15_v6) (val_main_call15_v6 (F := F)) (val_main_call15_v6 (F := F)) HEq.rfl (memAt% 0))
  refine Inv.cons h _ _ main_call15_v7 (val_main_call15_v7 (F := F) x0 x3) rfl (by decide) (r.trans (toBuf_of_heq (TRef.of (T := ⟨S4x40000x1, .i1⟩) main_call15_v7) (w := val_main_call15_v7 (F := F) x0 x3) ?_)) (fun W h => ?_)
  · exact HEq.rfl
  have r := res_tunary (τ := τ) (TRef.of (T := ⟨S1, .i32⟩) main_call15_c_1) (TRef.of (T := ⟨S1x1x1, .i32⟩) main_call15_v8) (broadcastInDim S1x1x1 ![2] bcast_S1_S1x1x1_2) (h.tget (TRef.of (T := ⟨S1, .i32⟩) main_call15_c_1) (val_main_call15_c_1 (F := F)) (val_main_call15_c_1 (F := F)) HEq.rfl (memAt% 3))
  refine Inv.cons h _ _ main_call15_v8 (val_main_call15_v8 (F := F)) rfl (by decide) (r.trans (toBuf_of_heq (TRef.of (T := ⟨S1x1x1, .i32⟩) main_call15_v8) (w := val_main_call15_v8 (F := F)) ?_)) (fun W h => ?_)
  · exact HEq.rfl
  have r := res_tunary (τ := τ) (TRef.of (T := ⟨S1x1x1, .i32⟩) main_call15_v8) (TRef.of (T := ⟨S4x40000x1, .i32⟩) main_call15_v9) (broadcastInDim S4x40000x1 ![0, 1, 2] bcast_S1x1x1_S4x40000x1_0_1_2) (h.tget (TRef.of (T := ⟨S1x1x1, .i32⟩) main_call15_v8) (val_main_call15_v8 (F := F)) (val_main_call15_v8 (F := F)) HEq.rfl (memAt% 0))
  refine Inv.cons h _ _ main_call15_v9 (val_main_call15_v9 (F := F)) rfl (by decide) (r.trans (toBuf_of_heq (TRef.of (T := ⟨S4x40000x1, .i32⟩) main_call15_v9) (w := val_main_call15_v9 (F := F)) ?_)) (fun W h => ?_)
  · exact HEq.rfl
  have r := res_tbinary (τ := τ) (TRef.of (T := ⟨S4x40000x1, .i32⟩) main_call15_v5) (TRef.of (T := ⟨S4x40000x1, .i32⟩) main_call15_v9) (TRef.of (T := ⟨S4x40000x1, .i1⟩) main_call15_v10) (cmpi .sle) (h.tget (TRef.of (T := ⟨S4x40000x1, .i32⟩) main_call15_v5) (val_main_call15_v5 (F := F) x0 x3) (val_main_call15_v5 (F := F) x0 x3) HEq.rfl (memAt% 6)) (h.tget (TRef.of (T := ⟨S4x40000x1, .i32⟩) main_call15_v9) (val_main_call15_v9 (F := F)) (val_main_call15_v9 (F := F)) HEq.rfl (memAt% 0))
  refine Inv.cons h _ _ main_call15_v10 (val_main_call15_v10 (F := F) x0 x3) rfl (by decide) (r.trans (toBuf_of_heq (TRef.of (T := ⟨S4x40000x1, .i1⟩) main_call15_v10) (w := val_main_call15_v10 (F := F) x0 x3) ?_)) (fun W h => ?_)
  · exact HEq.rfl
  have r := res_tbinary (τ := τ) (TRef.of (T := ⟨S4x40000x1, .i1⟩) main_call15_v7) (TRef.of (T := ⟨S4x40000x1, .i1⟩) main_call15_v10) (TRef.of (T := ⟨S4x40000x1, .i1⟩) main_call15_v11) andi (h.tget (TRef.of (T := ⟨S4x40000x1, .i1⟩) main_call15_v7) (val_main_call15_v7 (F := F) x0 x3) (val_main_call15_v7 (F := F) x0 x3) HEq.rfl (memAt% 3)) (h.tget (TRef.of (T := ⟨S4x40000x1, .i1⟩) main_call15_v10) (val_main_call15_v10 (F := F) x0 x3) (val_main_call15_v10 (F := F) x0 x3) HEq.rfl (memAt% 0))
  refine Inv.cons h _ _ main_call15_v11 (val_main_call15_v11 (F := F) x0 x3) rfl (by decide) (r.trans (toBuf_of_heq (TRef.of (T := ⟨S4x40000x1, .i1⟩) main_call15_v11) (w := val_main_call15_v11 (F := F) x0 x3) ?_)) (fun W h => ?_)
  · exact HEq.rfl
  have r := res_tnullary (τ := τ) (W := W) (TRef.of (T := ⟨S_, .i1⟩) main_call15_c_3) (constantI S_ 1 1#1)
  refine Inv.cons h _ _ main_call15_c_3 (val_main_call15_c_3 (F := F)) rfl (by decide) (r.trans (toBuf_of_heq (TRef.of (T := ⟨S_, .i1⟩) main_call15_c_3) (w := val_main_call15_c_3 (F := F)) ?_)) (fun W h => ?_)
  · exact HEq.rfl
  have r := res_tbinary (τ := τ) (TRef.of (T := ⟨S4x40000x1, .i1⟩) main_call15_v11) (TRef.of (T := ⟨S_, .i1⟩) main_call15_c_3) (TRef.of (T := ⟨S4x40000, .i1⟩) main_call15_v12) (fun x v => Host.reduce IntOp.andi x v reducesTo_S4x40000x1_S4x40000_d2 h_S_) (h.tget (TRef.of (T := ⟨S4x40000x1, .i1⟩) main_call15_v11) (val_main_call15_v11 (F := F) x0 x3) (val_main_call15_v11 (F := F) x0 x3) HEq.rfl (memAt% 1)) (h.tget (TRef.of (T := ⟨S_, .i1⟩) main_call15_c_3) (val_main_call15_c_3 (F := F)) (val_main_call15_c_3 (F := F)) HEq.rfl (memAt% 0))
  refine Inv.cons h _ _ main_call15_v12 (val_main_call15_v12 (F := F) x0 x3) rfl (by decide) (r.trans (toBuf_of_heq (TRef.of (T := ⟨S4x40000, .i1⟩) main_call15_v12) (w := val_main_call15_v12 (F := F) x0 x3) ?_)) (fun W h => ?_)
  · exact HEq.rfl
  have r := res_tbinary (τ := τ) (TRef.of (T := ⟨S4x128x4096, .f32⟩) main_v44) (TRef.of (T := ⟨S4x40000x1, .i32⟩) main_call15_v5) (TRef.of (T := ⟨S4x128x40000, .f32⟩) main_call15_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 19 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3))))))))))))))))) (h.tget (TRef.of (T := ⟨S4x40000x1, .i32⟩) main_call15_v5) (val_main_call15_v5 (F := F) x0 x3) (val_main_call15_v5 (F := F) x0 x3) HEq.rfl (memAt% 10))
  refine Inv.cons h _ _ main_call15_v13 (val_main_call15_v13 (F := F) x0 x2 x3) rfl (by decide) (r.trans (toBuf_of_heq (TRef.of (T := ⟨S4x128x40000, .f32⟩) main_call15_v13) (w := val_main_call15_v13 (F := F) x0 x2 x3) ?_)) (fun W h => ?_)
  · exact HEq.rfl
  have r := res_tunary (τ := τ) (TRef.of (T := ⟨S4x40000, .i1⟩) main_call15_v12) (TRef.of (T := ⟨S4x128x40000, .i1⟩) main_call15_v14) (broadcastInDim S4x128x40000 ![0, 2] bcast_S4x40000_S4x128x40000_0_2) (h.tget (TRef.of (T := ⟨S4x40000, .i1⟩) main_call15_v12) (val_main_call15_v12 (F := F) x0 x3) (val_main_call15_v12 (F := F) x0 x3) HEq.rfl (memAt% 1))
  refine Inv.cons h _ _ main_call15_v14 (val_main_call15_v14 (F := F) x0 x3) rfl (by decide) (r.trans (toBuf_of_heq (TRef.of (T := ⟨S4x128x40000, .i1⟩) main_call15_v14) (w := val_main_call15_v14 (F := F) x0 x3) ?_)) (fun W h => ?_)
  · exact HEq.rfl
  have r := res_tnullary (τ := τ) (W := W) (TRef.of (T := ⟨S_, .f32⟩) main_call15_cst) (constant S_ .f32 0x7FC00000#32)
  refine Inv.cons h _ _ main_call15_cst (val_main_call15_cst (F := F)) rfl (by decide) (r.trans (toBuf_of_heq (TRef.of (T := ⟨S_, .f32⟩) main_call15_cst) (w := val_main_call15_cst (F := F)) ?_)) (fun W h => ?_)
  · exact HEq.rfl
  have r := res_tunary (τ := τ) (TRef.of (T := ⟨S_, .f32⟩) main_call15_cst) (TRef.of (T := ⟨S4x128x40000, .f32⟩) main_call15_v15) (broadcastInDim S4x128x40000 ![] bcast_S_S4x128x40000) (h.tget (TRef.of (T := ⟨S_, .f32⟩) main_call15_cst) (val_main_call15_cst (F := F)) (val_main_call15_cst (F := F)) HEq.rfl (memAt% 0))
  refine Inv.cons h _ _ main_call15_v15 (val_main_call15_v15 (F := F)) rfl (by decide) (r.trans (toBuf_of_heq (TRef.of (T := ⟨S4x128x40000, .f32⟩) main_call15_v15) (w := val_main_call15_v15 (F := F)) ?_)) (fun W h => ?_)
  · exact HEq.rfl
  have r := res_tternary (τ := τ) (TRef.of (T := ⟨S4x128x40000, .i1⟩) main_call15_v14) (TRef.of (T := ⟨S4x128x40000, .f32⟩) main_call15_v13) (TRef.of (T := ⟨S4x128x40000, .f32⟩) main_call15_v15) (TRef.of (T := ⟨S4x128x40000, .f32⟩) main_v197) select (h.tget (TRef.of (T := ⟨S4x128x40000, .i1⟩) main_call15_v14) (val_main_call15_v14 (F := F) x0 x3) (val_main_call15_v14 (F := F) x0 x3) HEq.rfl (memAt% 2)) (h.tget (TRef.of (T := ⟨S4x128x40000, .f32⟩) main_call15_v13) (val_main_call15_v13 (F := F) x0 x2 x3) (val_main_call15_v13 (F := F) x0 x2 x3) HEq.rfl (memAt% 3)) (h.tget (TRef.of (T := ⟨S4x128x40000, .f32⟩) main_call15_v15) (val_main_call15_v15 (F := F)) (val_main_call15_v15 (F := F)) HEq.rfl (memAt% 0))
  refine Inv.cons h _ _ main_v197 (val_main_v197 (F := F) x0 x2 x3) rfl (by decide) (r.trans (toBuf_of_heq (TRef.of (T := ⟨S4x128x40000, .f32⟩) main_v197) (w := val_main_v197 (F := F) x0 x2 x3) ?_)) (fun W h => ?_)
  · exact HEq.rfl
  exact h

/-- Operations 425 … 448 of the line. -/
abbrev seg17 : List (HloOp τ sig (Elt F)) :=
  [ unary main_v186 main_v198 (uitofp .f32 : (⟨S4x40000, .i1⟩ : BufTy).Contents (Elt F) → (⟨S4x40000, .f32⟩ : BufTy).Contents (Elt F)),
    binary main_v169 main_v198 main_v199 (mulf : (⟨S4x40000, .f32⟩ : BufTy).Contents (Elt F) → (⟨S4x40000, .f32⟩ : BufTy).Contents (Elt F) → (⟨S4x40000, .f32⟩ : BufTy).Contents (Elt F)),
    unary main_v199 main_v200 (broadcastInDim S4x1x40000 ![0, 2] bcast_S4x40000_S4x1x40000_0_2 : (⟨S4x40000, .f32⟩ : BufTy).Contents (Elt F) → (⟨S4x1x40000, .f32⟩ : BufTy).Contents (Elt F)),
    unary main_v200 main_v201 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v197 main_v201 main_v202 (mulf : (⟨S4x128x40000, .f32⟩ : BufTy).Contents (Elt F) → (⟨S4x128x40000, .f32⟩ : BufTy).Contents (Elt F) → (⟨S4x128x40000, .f32⟩ : BufTy).Contents (Elt F)),
    binary main_v165 main_v202 main_v203 (addf : (⟨S4x128x40000, .f32⟩ : BufTy).Contents (Elt F) → (⟨S4x128x40000, .f32⟩ : BufTy).Contents (Elt F) → (⟨S4x128x40000, .f32⟩ : BufTy).Contents (Elt F)),
    nullary main_cst_76 (constant S_ .f32 0x3F800000#32),
    unary main_cst_76 main_v204 (broadcastInDim S4x40000 ![] bcast_S_S4x40000 : (⟨S_, .f32⟩ : BufTy).Contents (Elt F) → (⟨S4x40000, .f32⟩ : BufTy).Contents (Elt F)),
    binary main_v204 main_v32 main_v205 (subf : (⟨S4x40000, .f32⟩ : BufTy).Contents (Elt F) → (⟨S4x40000, .f32⟩ : BufTy).Contents (Elt F) → (⟨S4x40000, .f32⟩ : BufTy).Contents (Elt F)),
    nullary main_cst_77 (constant S_ .f32 0x3F800000#32),
    unary main_cst_77 main_v206 (broadcastInDim S4x40000 ![] bcast_S_S4x40000 : (⟨S_, .f32⟩ : BufTy).Contents (Elt F) → (⟨S4x40000, .f32⟩ : BufTy).Contents (Elt F)),
    binary main_v206 main_v33 main_v207 (subf : (⟨S4x40000, .f32⟩ : BufTy).Contents (Elt F) → (⟨S4x40000, .f32⟩ : BufTy).Contents (Elt F) → (⟨S4x40000, .f32⟩ : BufTy).Contents (Elt F)),
    binary main_v205 main_v207 main_v208 (mulf : (⟨S4x40000, .f32⟩ : BufTy).Contents (Elt F) → (⟨S4x40000, .f32⟩ : BufTy).Contents (Elt F) → (⟨S4x40000, .f32⟩ : BufTy).Contents (Elt F)),
    binary main_v208 main_v34 main_v209 (mulf : (⟨S4x40000, .f32⟩ : BufTy).Contents (Elt F) → (⟨S4x40000, .f32⟩ : BufTy).Contents (Elt F) → (⟨S4x40000, .f32⟩ : BufTy).Contents (Elt F)),
    nullary main_c_78 (constantI S_ 32 0#32),
    unary main_c_78 main_v210 (broadcastInDim S4x40000 ![] bcast_S_S4x40000 : (⟨S_, .i32⟩ : BufTy).Contents (Elt F) → (⟨S4x40000, .i32⟩ : BufTy).Contents (Elt F)),
    binary main_v35 main_v210 main_v211 (cmpi .sge : (⟨S4x40000, .i32⟩ : BufTy).Contents (Elt F) → (⟨S4x40000, .i32⟩ : BufTy).Contents (Elt F) → (⟨S4x40000, .i1⟩ : BufTy).Contents (Elt F)),
    nullary main_c_79 (constantI S_ 32 16#32),
    unary main_c_79 main_v212 (broadcastInDim S4x40000 ![] bcast_S_S4x40000 : (⟨S_, .i32⟩ : BufTy).Contents (Elt F) → (⟨S4x40000, .i32⟩ : BufTy).Contents (Elt F)),
    binary main_v35 main_v212 main_v213 (cmpi .slt : (⟨S4x40000, .i32⟩ : BufTy).Contents (Elt F) → (⟨S4x40000, .i32⟩ : BufTy).Contents (Elt F) → (⟨S4x40000, .i1⟩ : BufTy).Contents (Elt F)),
    binary main_v211 main_v213 main_v214 (andi : (⟨S4x40000, .i1⟩ : BufTy).Contents (Elt F) → (⟨S4x40000, .i1⟩ : BufTy).Contents (Elt F) → (⟨S4x40000, .i1⟩ : BufTy).Contents (Elt F)),
    nullary main_c_80 (constantI S_ 32 0#32),
    unary main_c_80 main_v215 (broadcastInDim S4x40000 ![] bcast_S_S4x40000 : (⟨S_, .i32⟩ : BufTy).Contents (Elt F) → (⟨S4x40000, .i32⟩ : BufTy).Contents (Elt F)),
    binary main_v36 main_v215 main_v216 (cmpi .sge : (⟨S4x40000, .i32⟩ : BufTy).Contents (Elt F) → (⟨S4x40000, .i32⟩ : BufTy).Contents (Elt F) → (⟨S4x40000, .i1⟩ : BufTy).Contents (Elt F)) ]

/-- The facts after operation 448: each buffer written so far at its stage value. -/
def facts17 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v216, val_main_v216 (F := F) x0 x3⟩ ::
  ⟨main_v215, val_main_v215 (F := F)⟩ ::
  ⟨main_c_80, val_main_c_80 (F := F)⟩ ::
  ⟨main_v214, val_main_v214 (F := F) x0 x3⟩ ::
  ⟨main_v213, val_main_v213 (F := F) x0 x3⟩ ::
  ⟨main_v212, val_main_v212 (F := F)⟩ ::
  ⟨main_c_79, val_main_c_79 (F := F)⟩ ::
  ⟨main_v211, val_main_v211 (F := F) x0 x3⟩ ::
  ⟨main_v210, val_main_v210 (F := F)⟩ ::
  ⟨main_c_78, val_main_c_78 (F := F)⟩ ::
  ⟨main_v209, val_main_v209 (F := F) x0 x3⟩ ::
  ⟨main_v208, val_main_v208 (F := F) x0 x3⟩ ::
  ⟨main_v207, val_main_v207 (F := F) x0 x3⟩ ::
  ⟨main_v206, val_main_v206 (F := F)⟩ ::
  ⟨main_cst_77, val_main_cst_77 (F := F)⟩ ::
  ⟨main_v205, val_main_v205 (F := F) x0 x3⟩ ::
  ⟨main_v204, val_main_v204 (F := F)⟩ ::
  ⟨main_cst_76, val_main_cst_76 (F := F)⟩ ::
  ⟨main_v203, val_main_v203 (F := F) x0 x2 x3⟩ ::
  ⟨main_v202, val_main_v202 (F := F) x0 x2 x3⟩ ::
  ⟨main_v201, val_main_v201 (F := F) x0 x3⟩ ::
  ⟨main_v200, val_main_v200 (F := F) x0 x3⟩ ::
  ⟨main_v199, val_main_v199 (F := F) x0 x3⟩ ::
  ⟨main_v198, val_main_v198 (F := F) x0 x3⟩ ::
  facts16 x0 x1 x2 x3

theorem up17 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts16 x0 x1 x2 x3) : p ∈ facts17 x0 x1 x2 x3 :=
  memUp% 24 hp

set_option maxRecDepth 8192 in
set_option maxHeartbeats 2000000 in
/-- Operations 425 … 448: each adds the fact of the buffer it writes. -/
theorem run17 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts16 x0 x1 x2 x3) 428) :
    Inv (after seg17 W) (facts17 x0 x1 x2 x3) 452 := by
  have r := res_unary (τ := τ) (x := main_v186) (y := main_v198) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v186 (val_main_v186 (F := F) x0 x3) (memUp% 0 (up16 x0 x1 x2 x3 (up15 x0 x1 x2 x3 (memAt% 8 : (⟨main_v186, val_main_v186 (F := F) x0 x3⟩ : Fact sig (Elt F)) ∈ facts14 x0 x1 x2 x3)))))
  refine Inv.cons h _ _ main_v198 (val_main_v198 (F := F) x0 x3) rfl (by decide) (r.trans ?_) (fun W h => ?_)
  · rfl
  have r := res_binary (τ := τ) (a := main_v169) (b := main_v198) (y := main_v199) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v169 (val_main_v169 (F := F) x0 x3) (memUp% 1 (up16 x0 x1 x2 x3 (up15 x0 x1 x2 x3 (up14 x0 x1 x2 x3 (memAt% 6 : (⟨main_v169, val_main_v169 (F := F) x0 x3⟩ : Fact sig (Elt F)) ∈ facts13 x0 x1 x2 x3)))))) (h.get' main_v198 (val_main_v198 (F := F) x0 x3) (memAt% 0))
  refine Inv.cons h _ _ main_v199 (val_main_v199 (F := F) x0 x3) rfl (by decide) (r.trans ?_) (fun W h => ?_)
  · rfl
  have r := res_unary (τ := τ) (x := main_v199) (y := main_v200) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v199 (val_main_v199 (F := F) x0 x3) (memAt% 0))
  refine Inv.cons h _ _ main_v200 (val_main_v200 (F := F) x0 x3) rfl (by decide) (r.trans ?_) (fun W h => ?_)
  · rfl
  have r := res_unary (τ := τ) (x := main_v200) (y := main_v201) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v200 (val_main_v200 (F := F) x0 x3) (memAt% 0))
  refine Inv.cons h _ _ main_v201 (val_main_v201 (F := F) x0 x3) rfl (by decide) (r.trans ?_) (fun W h => ?_)
  · rfl
  have r := res_binary (τ := τ) (a := main_v197) (b := main_v201) (y := main_v202) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v197 (val_main_v197 (F := F) x0 x2 x3) (memUp% 4 (memAt% 0 : (⟨main_v197, val_main_v197 (F := F) x0 x2 x3⟩ : Fact sig (Elt F)) ∈ facts16 x0 x1 x2 x3))) (h.get' main_v201 (val_main_v201 (F := F) x0 x3) (memAt% 0))
  refine Inv.cons h _ _ main_v202 (val_main_v202 (F := F) x0 x2 x3) rfl (by decide) (r.trans ?_) (fun W h => ?_)
  · rfl
  have r := res_binary (τ := τ) (a := main_v165) (b := main_v202) (y := main_v203) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v165 (val_main_v165 (F := F) x0 x2 x3) (memUp% 5 (up16 x0 x1 x2 x3 (up15 x0 x1 x2 x3 (up14 x0 x1 x2 x3 (memAt% 11 : (⟨main_v165, val_main_v165 (F := F) x0 x2 x3⟩ : Fact sig (Elt F)) ∈ facts13 x0 x1 x2 x3)))))) (h.get' main_v202 (val_main_v202 (F := F) x0 x2 x3) (memAt% 0))
  refine Inv.cons h _ _ main_v203 (val_main_v203 (F := F) x0 x2 x3) rfl (by decide) (r.trans ?_) (fun W h => ?_)
  · rfl
  have r := res_nullary (τ := τ) (W := W) (y := main_cst_76) (v := (constant S_ .f32 0x3F800000#32)) (hy := ⟨by decide, rfl⟩)
  refine Inv.cons h _ _ main_cst_76 (val_main_cst_76 (F := F)) rfl (by decide) (r.trans ?_) (fun W h => ?_)
  · rfl
  have r := res_unary (τ := τ) (x := main_cst_76) (y := main_v204) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_76 (val_main_cst_76 (F := F)) (memAt% 0))
  refine Inv.cons h _ _ main_v204 (val_main_v204 (F := F)) rfl (by decide) (r.trans ?_) (fun W h => ?_)
  · rfl
  have r := res_binary (τ := τ) (a := main_v204) (b := main_v32) (y := main_v205) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v204 (val_main_v204 (F := F)) (memAt% 0)) (h.get' main_v32 (val_main_v32 (F := F) x0 x3) (memUp% 8 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3))))))))))))))))))
  refine Inv.cons h _ _ main_v205 (val_main_v205 (F := F) x0 x3) rfl (by decide) (r.trans ?_) (fun W h => ?_)
  · rfl
  have r := res_nullary (τ := τ) (W := W) (y := main_cst_77) (v := (constant S_ .f32 0x3F800000#32)) (hy := ⟨by decide, rfl⟩)
  refine Inv.cons h _ _ main_cst_77 (val_main_cst_77 (F := F)) rfl (by decide) (r.trans ?_) (fun W h => ?_)
  · rfl
  have r := res_unary (τ := τ) (x := main_cst_77) (y := main_v206) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_77 (val_main_cst_77 (F := F)) (memAt% 0))
  refine Inv.cons h _ _ main_v206 (val_main_v206 (F := F)) rfl (by decide) (r.trans ?_) (fun W h => ?_)
  · rfl
  have r := res_binary (τ := τ) (a := main_v206) (b := main_v33) (y := main_v207) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v206 (val_main_v206 (F := F)) (memAt% 0)) (h.get' main_v33 (val_main_v33 (F := F) x0 x3) (memUp% 11 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 15 : (⟨main_v33, val_main_v33 (F := F) x0 x3⟩ : Fact sig (Elt F)) ∈ facts1 x0 x1 x2 x3))))))))))))))))))
  refine Inv.cons h _ _ main_v207 (val_main_v207 (F := F) x0 x3) rfl (by decide) (r.trans ?_) (fun W h => ?_)
  · rfl
  have r := res_binary (τ := τ) (a := main_v205) (b := main_v207) (y := main_v208) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v205 (val_main_v205 (F := F) x0 x3) (memAt% 3)) (h.get' main_v207 (val_main_v207 (F := F) x0 x3) (memAt% 0))
  refine Inv.cons h _ _ main_v208 (val_main_v208 (F := F) x0 x3) rfl (by decide) (r.trans ?_) (fun W h => ?_)
  · rfl
  have r := res_binary (τ := τ) (a := main_v208) (b := main_v34) (y := main_v209) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v208 (val_main_v208 (F := F) x0 x3) (memAt% 0)) (h.get' main_v34 (val_main_v34 (F := F) x0 x3) (memUp% 13 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3))))))))))))))))))
  refine Inv.cons h _ _ main_v209 (val_main_v209 (F := F) x0 x3) rfl (by decide) (r.trans ?_) (fun W h => ?_)
  · rfl
  have r := res_nullary (τ := τ) (W := W) (y := main_c_78) (v := (constantI S_ 32 0#32)) (hy := ⟨by decide, rfl⟩)
  refine Inv.cons h _ _ main_c_78 (val_main_c_78 (F := F)) rfl (by decide) (r.trans ?_) (fun W h => ?_)
  · rfl
  have r := res_unary (τ := τ) (x := main_c_78) (y := main_v210) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_78 (val_main_c_78 (F := F)) (memAt% 0))
  refine Inv.cons h _ _ main_v210 (val_main_v210 (F := F)) rfl (by decide) (r.trans ?_) (fun W h => ?_)
  · rfl
  have r := res_binary (τ := τ) (a := main_v35) (b := main_v210) (y := main_v211) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 16 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3)))))))))))))))))) (h.get' main_v210 (val_main_v210 (F := F)) (memAt% 0))
  refine Inv.cons h _ _ main_v211 (val_main_v211 (F := F) x0 x3) rfl (by decide) (r.trans ?_) (fun W h => ?_)
  · rfl
  have r := res_nullary (τ := τ) (W := W) (y := main_c_79) (v := (constantI S_ 32 16#32)) (hy := ⟨by decide, rfl⟩)
  refine Inv.cons h _ _ main_c_79 (val_main_c_79 (F := F)) rfl (by decide) (r.trans ?_) (fun W h => ?_)
  · rfl
  have r := res_unary (τ := τ) (x := main_c_79) (y := main_v212) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_79 (val_main_c_79 (F := F)) (memAt% 0))
  refine Inv.cons h _ _ main_v212 (val_main_v212 (F := F)) rfl (by decide) (r.trans ?_) (fun W h => ?_)
  · rfl
  have r := res_binary (τ := τ) (a := main_v35) (b := main_v212) (y := main_v213) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 19 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3)))))))))))))))))) (h.get' main_v212 (val_main_v212 (F := F)) (memAt% 0))
  refine Inv.cons h _ _ main_v213 (val_main_v213 (F := F) x0 x3) rfl (by decide) (r.trans ?_) (fun W h => ?_)
  · rfl
  have r := res_binary (τ := τ) (a := main_v211) (b := main_v213) (y := main_v214) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v211 (val_main_v211 (F := F) x0 x3) (memAt% 3)) (h.get' main_v213 (val_main_v213 (F := F) x0 x3) (memAt% 0))
  refine Inv.cons h _ _ main_v214 (val_main_v214 (F := F) x0 x3) rfl (by decide) (r.trans ?_) (fun W h => ?_)
  · rfl
  have r := res_nullary (τ := τ) (W := W) (y := main_c_80) (v := (constantI S_ 32 0#32)) (hy := ⟨by decide, rfl⟩)
  refine Inv.cons h _ _ main_c_80 (val_main_c_80 (F := F)) rfl (by decide) (r.trans ?_) (fun W h => ?_)
  · rfl
  have r := res_unary (τ := τ) (x := main_c_80) (y := main_v215) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_80 (val_main_c_80 (F := F)) (memAt% 0))
  refine Inv.cons h _ _ main_v215 (val_main_v215 (F := F)) rfl (by decide) (r.trans ?_) (fun W h => ?_)
  · rfl
  have r := res_binary (τ := τ) (a := main_v36) (b := main_v215) (y := main_v216) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 23 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3)))))))))))))))))) (h.get' main_v215 (val_main_v215 (F := F)) (memAt% 0))
  refine Inv.cons h _ _ main_v216 (val_main_v216 (F := F) x0 x3) rfl (by decide) (r.trans ?_) (fun W h => ?_)
  · rfl
  exact h

/-- Operations 449 … 473 of the line. -/
abbrev seg18 : List (HloOp τ sig (Elt F)) :=
  [ binary main_v214 main_v216 main_v217 (andi : (⟨S4x40000, .i1⟩ : BufTy).Contents (Elt F) → (⟨S4x40000, .i1⟩ : BufTy).Contents (Elt F) → (⟨S4x40000, .i1⟩ : BufTy).Contents (Elt F)),
    nullary main_c_81 (constantI S_ 32 16#32),
    unary main_c_81 main_v218 (broadcastInDim S4x40000 ![] bcast_S_S4x40000 : (⟨S_, .i32⟩ : BufTy).Contents (Elt F) → (⟨S4x40000, .i32⟩ : BufTy).Contents (Elt F)),
    binary main_v36 main_v218 main_v219 (cmpi .slt : (⟨S4x40000, .i32⟩ : BufTy).Contents (Elt F) → (⟨S4x40000, .i32⟩ : BufTy).Contents (Elt F) → (⟨S4x40000, .i1⟩ : BufTy).Contents (Elt F)),
    binary main_v217 main_v219 main_v220 (andi : (⟨S4x40000, .i1⟩ : BufTy).Contents (Elt F) → (⟨S4x40000, .i1⟩ : BufTy).Contents (Elt F) → (⟨S4x40000, .i1⟩ : BufTy).Contents (Elt F)),
    nullary main_c_82 (constantI S_ 32 0#32),
    unary main_c_82 main_v221 (broadcastInDim S4x40000 ![] bcast_S_S4x40000 : (⟨S_, .i32⟩ : BufTy).Contents (Elt F) → (⟨S4x40000, .i32⟩ : BufTy).Contents (Elt F)),
    binary main_v43 main_v221 main_v222 (cmpi .sge : (⟨S4x40000, .i32⟩ : BufTy).Contents (Elt F) → (⟨S4x40000, .i32⟩ : BufTy).Contents (Elt F) → (⟨S4x40000, .i1⟩ : BufTy).Contents (Elt F)),
    binary main_v220 main_v222 main_v223 (andi : (⟨S4x40000, .i1⟩ : BufTy).Contents (Elt F) → (⟨S4x40000, .i1⟩ : BufTy).Contents (Elt F) → (⟨S4x40000, .i1⟩ : BufTy).Contents (Elt F)),
    nullary main_c_83 (constantI S_ 32 16#32),
    unary main_c_83 main_v224 (broadcastInDim S4x40000 ![] bcast_S_S4x40000 : (⟨S_, .i32⟩ : BufTy).Contents (Elt F) → (⟨S4x40000, .i32⟩ : BufTy).Contents (Elt F)),
    binary main_v43 main_v224 main_v225 (cmpi .slt : (⟨S4x40000, .i32⟩ : BufTy).Contents (Elt F) → (⟨S4x40000, .i32⟩ : BufTy).Contents (Elt F) → (⟨S4x40000, .i1⟩ : BufTy).Contents (Elt F)),
    binary main_v223 main_v225 main_v226 (andi : (⟨S4x40000, .i1⟩ : BufTy).Contents (Elt F) → (⟨S4x40000, .i1⟩ : BufTy).Contents (Elt F) → (⟨S4x40000, .i1⟩ : BufTy).Contents (Elt F)),
    nullary main_c_84 (constantI S_ 32 0#32),
    nullary main_c_85 (constantI S_ 32 15#32),
    TRef.unary (TRef.of (T := ⟨S_, .i32⟩) main_c_84) (TRef.of (T := ⟨S_, .i32⟩) main_call16_v0) id,
    TRef.unary (TRef.of (T := ⟨S_, .i32⟩) main_call16_v0) (TRef.of (T := ⟨S4x40000, .i32⟩) main_call16_v1) (broadcastInDim S4x40000 ![] bcast_S_S4x40000),
    TRef.binary (TRef.of (T := ⟨S4x40000, .i32⟩) main_call16_v1) (TRef.of (T := ⟨S4x40000, .i32⟩) main_v43) (TRef.of (T := ⟨S4x40000, .i32⟩) main_call16_v2) maxsi,
    TRef.unary (TRef.of (T := ⟨S_, .i32⟩) main_c_85) (TRef.of (T := ⟨S_, .i32⟩) main_call16_v3) id,
    TRef.unary (TRef.of (T := ⟨S_, .i32⟩) main_call16_v3) (TRef.of (T := ⟨S4x40000, .i32⟩) main_call16_v4) (broadcastInDim S4x40000 ![] bcast_S_S4x40000),
    TRef.binary (TRef.of (T := ⟨S4x40000, .i32⟩) main_call16_v4) (TRef.of (T := ⟨S4x40000, .i32⟩) main_call16_v2) (TRef.of (T := ⟨S4x40000, .i32⟩) main_v227) minsi,
    nullary main_c_86 (constantI S_ 32 16#32),
    unary main_c_86 main_v228 (broadcastInDim S4x40000 ![] bcast_S_S4x40000 : (⟨S_, .i32⟩ : BufTy).Contents (Elt F) → (⟨S4x40000, .i32⟩ : BufTy).Contents (Elt F)),
    binary main_v227 main_v228 main_v229 (muli : (⟨S4x40000, .i32⟩ : BufTy).Contents (Elt F) → (⟨S4x40000, .i32⟩ : BufTy).Contents (Elt F) → (⟨S4x40000, .i32⟩ : BufTy).Contents (Elt F)),
    nullary main_c_87 (constantI S_ 32 0#32) ]

/-- The facts after operation 473: each buffer written so far at its stage value. -/
def facts18 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_87, val_main_c_87 (F := F)⟩ ::
  ⟨main_v229, val_main_v229 (F := F) x0 x3⟩ ::
  ⟨main_v228, val_main_v228 (F := F)⟩ ::
  ⟨main_c_86, val_main_c_86 (F := F)⟩ ::
  ⟨main_v227, val_main_v227 (F := F) x0 x3⟩ ::
  ⟨main_call16_v4, val_main_call16_v4 (F := F)⟩ ::
  ⟨main_call16_v3, val_main_call16_v3 (F := F)⟩ ::
  ⟨main_call16_v2, val_main_call16_v2 (F := F) x0 x3⟩ ::
  ⟨main_call16_v1, val_main_call16_v1 (F := F)⟩ ::
  ⟨main_call16_v0, val_main_call16_v0 (F := F)⟩ ::
  ⟨main_c_85, val_main_c_85 (F := F)⟩ ::
  ⟨main_c_84, val_main_c_84 (F := F)⟩ ::
  ⟨main_v226, val_main_v226 (F := F) x0 x3⟩ ::
  ⟨main_v225, val_main_v225 (F := F) x0 x3⟩ ::
  ⟨main_v224, val_main_v224 (F := F)⟩ ::
  ⟨main_c_83, val_main_c_83 (F := F)⟩ ::
  ⟨main_v223, val_main_v223 (F := F) x0 x3⟩ ::
  ⟨main_v222, val_main_v222 (F := F) x0 x3⟩ ::
  ⟨main_v221, val_main_v221 (F := F)⟩ ::
  ⟨main_c_82, val_main_c_82 (F := F)⟩ ::
  ⟨main_v220, val_main_v220 (F := F) x0 x3⟩ ::
  ⟨main_v219, val_main_v219 (F := F) x0 x3⟩ ::
  ⟨main_v218, val_main_v218 (F := F)⟩ ::
  ⟨main_c_81, val_main_c_81 (F := F)⟩ ::
  ⟨main_v217, val_main_v217 (F := F) x0 x3⟩ ::
  facts17 x0 x1 x2 x3

theorem up18 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts17 x0 x1 x2 x3) : p ∈ facts18 x0 x1 x2 x3 :=
  memUp% 25 hp

set_option maxRecDepth 8192 in
set_option maxHeartbeats 2000000 in
/-- Operations 449 … 473: each adds the fact of the buffer it writes. -/
theorem run18 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts17 x0 x1 x2 x3) 452) :
    Inv (after seg18 W) (facts18 x0 x1 x2 x3) 477 := by
  have r := res_binary (τ := τ) (a := main_v214) (b := main_v216) (y := main_v217) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v214 (val_main_v214 (F := F) x0 x3) (memUp% 0 (memAt% 3 : (⟨main_v214, val_main_v214 (F := F) x0 x3⟩ : Fact sig (Elt F)) ∈ facts17 x0 x1 x2 x3))) (h.get' main_v216 (val_main_v216 (F := F) x0 x3) (memUp% 0 (memAt% 0 : (⟨main_v216, val_main_v216 (F := F) x0 x3⟩ : Fact sig (Elt F)) ∈ facts17 x0 x1 x2 x3)))
  refine Inv.cons h _ _ main_v217 (val_main_v217 (F := F) x0 x3) rfl (by decide) (r.trans ?_) (fun W h => ?_)
  · rfl
  have r := res_nullary (τ := τ) (W := W) (y := main_c_81) (v := (constantI S_ 32 16#32)) (hy := ⟨by decide, rfl⟩)
  refine Inv.cons h _ _ main_c_81 (val_main_c_81 (F := F)) rfl (by decide) (r.trans ?_) (fun W h => ?_)
  · rfl
  have r := res_unary (τ := τ) (x := main_c_81) (y := main_v218) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_81 (val_main_c_81 (F := F)) (memAt% 0))
  refine Inv.cons h _ _ main_v218 (val_main_v218 (F := F)) rfl (by decide) (r.trans ?_) (fun W h => ?_)
  · rfl
  have r := res_binary (τ := τ) (a := main_v36) (b := main_v218) (y := main_v219) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3))))))))))))))))))) (h.get' main_v218 (val_main_v218 (F := F)) (memAt% 0))
  refine Inv.cons h _ _ main_v219 (val_main_v219 (F := F) x0 x3) rfl (by decide) (r.trans ?_) (fun W h => ?_)
  · rfl
  have r := res_binary (τ := τ) (a := main_v217) (b := main_v219) (y := main_v220) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v217 (val_main_v217 (F := F) x0 x3) (memAt% 3)) (h.get' main_v219 (val_main_v219 (F := F) x0 x3) (memAt% 0))
  refine Inv.cons h _ _ main_v220 (val_main_v220 (F := F) x0 x3) rfl (by decide) (r.trans ?_) (fun W h => ?_)
  · rfl
  have r := res_nullary (τ := τ) (W := W) (y := main_c_82) (v := (constantI S_ 32 0#32)) (hy := ⟨by decide, rfl⟩)
  refine Inv.cons h _ _ main_c_82 (val_main_c_82 (F := F)) rfl (by decide) (r.trans ?_) (fun W h => ?_)
  · rfl
  have r := res_unary (τ := τ) (x := main_c_82) (y := main_v221) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_82 (val_main_c_82 (F := F)) (memAt% 0))
  refine Inv.cons h _ _ main_v221 (val_main_v221 (F := F)) rfl (by decide) (r.trans ?_) (fun W h => ?_)
  · rfl
  have r := res_binary (τ := τ) (a := main_v43) (b := main_v221) (y := main_v222) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 7 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3))))))))))))))))))) (h.get' main_v221 (val_main_v221 (F := F)) (memAt% 0))
  refine Inv.cons h _ _ main_v222 (val_main_v222 (F := F) x0 x3) rfl (by decide) (r.trans ?_) (fun W h => ?_)
  · rfl
  have r := res_binary (τ := τ) (a := main_v220) (b := main_v222) (y := main_v223) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v220 (val_main_v220 (F := F) x0 x3) (memAt% 3)) (h.get' main_v222 (val_main_v222 (F := F) x0 x3) (memAt% 0))
  refine Inv.cons h _ _ main_v223 (val_main_v223 (F := F) x0 x3) rfl (by decide) (r.trans ?_) (fun W h => ?_)
  · rfl
  have r := res_nullary (τ := τ) (W := W) (y := main_c_83) (v := (constantI S_ 32 16#32)) (hy := ⟨by decide, rfl⟩)
  refine Inv.cons h _ _ main_c_83 (val_main_c_83 (F := F)) rfl (by decide) (r.trans ?_) (fun W h => ?_)
  · rfl
  have r := res_unary (τ := τ) (x := main_c_83) (y := main_v224) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_83 (val_main_c_83 (F := F)) (memAt% 0))
  refine Inv.cons h _ _ main_v224 (val_main_v224 (F := F)) rfl (by decide) (r.trans ?_) (fun W h => ?_)
  · rfl
  have r := res_binary (τ := τ) (a := main_v43) (b := main_v224) (y := main_v225) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 11 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3))))))))))))))))))) (h.get' main_v224 (val_main_v224 (F := F)) (memAt% 0))
  refine Inv.cons h _ _ main_v225 (val_main_v225 (F := F) x0 x3) rfl (by decide) (r.trans ?_) (fun W h => ?_)
  · rfl
  have r := res_binary (τ := τ) (a := main_v223) (b := main_v225) (y := main_v226) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v223 (val_main_v223 (F := F) x0 x3) (memAt% 3)) (h.get' main_v225 (val_main_v225 (F := F) x0 x3) (memAt% 0))
  refine Inv.cons h _ _ main_v226 (val_main_v226 (F := F) x0 x3) rfl (by decide) (r.trans ?_) (fun W h => ?_)
  · rfl
  have r := res_nullary (τ := τ) (W := W) (y := main_c_84) (v := (constantI S_ 32 0#32)) (hy := ⟨by decide, rfl⟩)
  refine Inv.cons h _ _ main_c_84 (val_main_c_84 (F := F)) rfl (by decide) (r.trans ?_) (fun W h => ?_)
  · rfl
  have r := res_nullary (τ := τ) (W := W) (y := main_c_85) (v := (constantI S_ 32 15#32)) (hy := ⟨by decide, rfl⟩)
  refine Inv.cons h _ _ main_c_85 (val_main_c_85 (F := F)) rfl (by decide) (r.trans ?_) (fun W h => ?_)
  · rfl
  have r := res_tunary (τ := τ) (TRef.of (T := ⟨S_, .i32⟩) main_c_84) (TRef.of (T := ⟨S_, .i32⟩) main_call16_v0) id (h.tget (TRef.of (T := ⟨S_, .i32⟩) main_c_84) (val_main_c_84 (F := F)) (val_main_c_84 (F := F)) HEq.rfl (memAt% 1))
  refine Inv.cons h _ _ main_call16_v0 (val_main_call16_v0 (F := F)) rfl (by decide) (r.trans (toBuf_of_heq (TRef.of (T := ⟨S_, .i32⟩) main_call16_v0) (w := val_main_call16_v0 (F := F)) ?_)) (fun W h => ?_)
  · exact HEq.rfl
  have r := res_tunary (τ := τ) (TRef.of (T := ⟨S_, .i32⟩) main_call16_v0) (TRef.of (T := ⟨S4x40000, .i32⟩) main_call16_v1) (broadcastInDim S4x40000 ![] bcast_S_S4x40000) (h.tget (TRef.of (T := ⟨S_, .i32⟩) main_call16_v0) (val_main_call16_v0 (F := F)) (val_main_call16_v0 (F := F)) HEq.rfl (memAt% 0))
  refine Inv.cons h _ _ main_call16_v1 (val_main_call16_v1 (F := F)) rfl (by decide) (r.trans (toBuf_of_heq (TRef.of (T := ⟨S4x40000, .i32⟩) main_call16_v1) (w := val_main_call16_v1 (F := F)) ?_)) (fun W h => ?_)
  · exact HEq.rfl
  have r := res_tbinary (τ := τ) (TRef.of (T := ⟨S4x40000, .i32⟩) main_call16_v1) (TRef.of (T := ⟨S4x40000, .i32⟩) main_v43) (TRef.of (T := ⟨S4x40000, .i32⟩) main_call16_v2) maxsi (h.tget (TRef.of (T := ⟨S4x40000, .i32⟩) main_call16_v1) (val_main_call16_v1 (F := F)) (val_main_call16_v1 (F := F)) HEq.rfl (memAt% 0)) (h.tget (TRef.of (T := ⟨S4x40000, .i32⟩) main_v43) (val_main_v43 (F := F) x0 x3) (val_main_v43 (F := F) x0 x3) HEq.rfl (memUp% 17 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3)))))))))))))))))))
  refine Inv.cons h _ _ main_call16_v2 (val_main_call16_v2 (F := F) x0 x3) rfl (by decide) (r.trans (toBuf_of_heq (TRef.of (T := ⟨S4x40000, .i32⟩) main_call16_v2) (w := val_main_call16_v2 (F := F) x0 x3) ?_)) (fun W h => ?_)
  · exact HEq.rfl
  have r := res_tunary (τ := τ) (TRef.of (T := ⟨S_, .i32⟩) main_c_85) (TRef.of (T := ⟨S_, .i32⟩) main_call16_v3) id (h.tget (TRef.of (T := ⟨S_, .i32⟩) main_c_85) (val_main_c_85 (F := F)) (val_main_c_85 (F := F)) HEq.rfl (memAt% 3))
  refine Inv.cons h _ _ main_call16_v3 (val_main_call16_v3 (F := F)) rfl (by decide) (r.trans (toBuf_of_heq (TRef.of (T := ⟨S_, .i32⟩) main_call16_v3) (w := val_main_call16_v3 (F := F)) ?_)) (fun W h => ?_)
  · exact HEq.rfl
  have r := res_tunary (τ := τ) (TRef.of (T := ⟨S_, .i32⟩) main_call16_v3) (TRef.of (T := ⟨S4x40000, .i32⟩) main_call16_v4) (broadcastInDim S4x40000 ![] bcast_S_S4x40000) (h.tget (TRef.of (T := ⟨S_, .i32⟩) main_call16_v3) (val_main_call16_v3 (F := F)) (val_main_call16_v3 (F := F)) HEq.rfl (memAt% 0))
  refine Inv.cons h _ _ main_call16_v4 (val_main_call16_v4 (F := F)) rfl (by decide) (r.trans (toBuf_of_heq (TRef.of (T := ⟨S4x40000, .i32⟩) main_call16_v4) (w := val_main_call16_v4 (F := F)) ?_)) (fun W h => ?_)
  · exact HEq.rfl
  have r := res_tbinary (τ := τ) (TRef.of (T := ⟨S4x40000, .i32⟩) main_call16_v4) (TRef.of (T := ⟨S4x40000, .i32⟩) main_call16_v2) (TRef.of (T := ⟨S4x40000, .i32⟩) main_v227) minsi (h.tget (TRef.of (T := ⟨S4x40000, .i32⟩) main_call16_v4) (val_main_call16_v4 (F := F)) (val_main_call16_v4 (F := F)) HEq.rfl (memAt% 0)) (h.tget (TRef.of (T := ⟨S4x40000, .i32⟩) main_call16_v2) (val_main_call16_v2 (F := F) x0 x3) (val_main_call16_v2 (F := F) x0 x3) HEq.rfl (memAt% 2))
  refine Inv.cons h _ _ main_v227 (val_main_v227 (F := F) x0 x3) rfl (by decide) (r.trans (toBuf_of_heq (TRef.of (T := ⟨S4x40000, .i32⟩) main_v227) (w := val_main_v227 (F := F) x0 x3) ?_)) (fun W h => ?_)
  · exact HEq.rfl
  have r := res_nullary (τ := τ) (W := W) (y := main_c_86) (v := (constantI S_ 32 16#32)) (hy := ⟨by decide, rfl⟩)
  refine Inv.cons h _ _ main_c_86 (val_main_c_86 (F := F)) rfl (by decide) (r.trans ?_) (fun W h => ?_)
  · rfl
  have r := res_unary (τ := τ) (x := main_c_86) (y := main_v228) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_86 (val_main_c_86 (F := F)) (memAt% 0))
  refine Inv.cons h _ _ main_v228 (val_main_v228 (F := F)) rfl (by decide) (r.trans ?_) (fun W h => ?_)
  · rfl
  have r := res_binary (τ := τ) (a := main_v227) (b := main_v228) (y := main_v229) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v227 (val_main_v227 (F := F) x0 x3) (memAt% 2)) (h.get' main_v228 (val_main_v228 (F := F)) (memAt% 0))
  refine Inv.cons h _ _ main_v229 (val_main_v229 (F := F) x0 x3) rfl (by decide) (r.trans ?_) (fun W h => ?_)
  · rfl
  have r := res_nullary (τ := τ) (W := W) (y := main_c_87) (v := (constantI S_ 32 0#32)) (hy := ⟨by decide, rfl⟩)
  refine Inv.cons h _ _ main_c_87 (val_main_c_87 (F := F)) rfl (by decide) (r.trans ?_) (fun W h => ?_)
  · rfl
  exact h

/-- Operations 474 … 497 of the line. -/
abbrev seg19 : List (HloOp τ sig (Elt F)) :=
  [ nullary main_c_88 (constantI S_ 32 15#32),
    TRef.unary (TRef.of (T := ⟨S_, .i32⟩) main_c_87) (TRef.of (T := ⟨S_, .i32⟩) main_call17_v0) id,
    TRef.unary (TRef.of (T := ⟨S_, .i32⟩) main_call17_v0) (TRef.of (T := ⟨S4x40000, .i32⟩) main_call17_v1) (broadcastInDim S4x40000 ![] bcast_S_S4x40000),
    TRef.binary (TRef.of (T := ⟨S4x40000, .i32⟩) main_call17_v1) (TRef.of (T := ⟨S4x40000, .i32⟩) main_v36) (TRef.of (T := ⟨S4x40000, .i32⟩) main_call17_v2) maxsi,
    TRef.unary (TRef.of (T := ⟨S_, .i32⟩) main_c_88) (TRef.of (T := ⟨S_, .i32⟩) main_call17_v3) id,
    TRef.unary (TRef.of (T := ⟨S_, .i32⟩) main_call17_v3) (TRef.of (T := ⟨S4x40000, .i32⟩) main_call17_v4) (broadcastInDim S4x40000 ![] bcast_S_S4x40000),
    TRef.binary (TRef.of (T := ⟨S4x40000, .i32⟩) main_call17_v4) (TRef.of (T := ⟨S4x40000, .i32⟩) main_call17_v2) (TRef.of (T := ⟨S4x40000, .i32⟩) main_v230) minsi,
    binary main_v229 main_v230 main_v231 (addi : (⟨S4x40000, .i32⟩ : BufTy).Contents (Elt F) → (⟨S4x40000, .i32⟩ : BufTy).Contents (Elt F) → (⟨S4x40000, .i32⟩ : BufTy).Contents (Elt F)),
    nullary main_c_89 (constantI S_ 32 16#32),
    unary main_c_89 main_v232 (broadcastInDim S4x40000 ![] bcast_S_S4x40000 : (⟨S_, .i32⟩ : BufTy).Contents (Elt F) → (⟨S4x40000, .i32⟩ : BufTy).Contents (Elt F)),
    binary main_v231 main_v232 main_v233 (muli : (⟨S4x40000, .i32⟩ : BufTy).Contents (Elt F) → (⟨S4x40000, .i32⟩ : BufTy).Contents (Elt F) → (⟨S4x40000, .i32⟩ : BufTy).Contents (Elt F)),
    nullary main_c_90 (constantI S_ 32 0#32),
    nullary main_c_91 (constantI S_ 32 15#32),
    TRef.unary (TRef.of (T := ⟨S_, .i32⟩) main_c_90) (TRef.of (T := ⟨S_, .i32⟩) main_call18_v0) id,
    TRef.unary (TRef.of (T := ⟨S_, .i32⟩) main_call18_v0) (TRef.of (T := ⟨S4x40000, .i32⟩) main_call18_v1) (broadcastInDim S4x40000 ![] bcast_S_S4x40000),
    TRef.binary (TRef.of (T := ⟨S4x40000, .i32⟩) main_call18_v1) (TRef.of (T := ⟨S4x40000, .i32⟩) main_v35) (TRef.of (T := ⟨S4x40000, .i32⟩) main_call18_v2) maxsi,
    TRef.unary (TRef.of (T := ⟨S_, .i32⟩) main_c_91) (TRef.of (T := ⟨S_, .i32⟩) main_call18_v3) id,
    TRef.unary (TRef.of (T := ⟨S_, .i32⟩) main_call18_v3) (TRef.of (T := ⟨S4x40000, .i32⟩) main_call18_v4) (broadcastInDim S4x40000 ![] bcast_S_S4x40000),
    TRef.binary (TRef.of (T := ⟨S4x40000, .i32⟩) main_call18_v4) (TRef.of (T := ⟨S4x40000, .i32⟩) main_call18_v2) (TRef.of (T := ⟨S4x40000, .i32⟩) main_v234) minsi,
    binary main_v233 main_v234 main_v235 (addi : (⟨S4x40000, .i32⟩ : BufTy).Contents (Elt F) → (⟨S4x40000, .i32⟩ : BufTy).Contents (Elt F) → (⟨S4x40000, .i32⟩ : BufTy).Contents (Elt F)),
    unary main_v235 main_v236 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call19_c) (constantI S_ 32 0#32),
    TRef.unary (TRef.of (T := ⟨S_, .i32⟩) main_call19_c) (TRef.of (T := ⟨S4x1x40000, .i32⟩) main_call19_v0) (broadcastInDim S4x1x40000 ![] bcast_S_S4x1x40000),
    TRef.binary (TRef.of (T := ⟨S4x1x40000, .i32⟩) main_v236) (TRef.of (T := ⟨S4x1x40000, .i32⟩) main_call19_v0) (TRef.of (T := ⟨S4x1x40000, .i1⟩) main_call19_v1) (cmpi .slt) ]

/-- The facts after operation 497: each buffer written so far at its stage value. -/
def facts19 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call19_v1, val_main_call19_v1 (F := F) x0 x3⟩ ::
  ⟨main_call19_v0, val_main_call19_v0 (F := F)⟩ ::
  ⟨main_call19_c, val_main_call19_c (F := F)⟩ ::
  ⟨main_v236, val_main_v236 (F := F) x0 x3⟩ ::
  ⟨main_v235, val_main_v235 (F := F) x0 x3⟩ ::
  ⟨main_v234, val_main_v234 (F := F) x0 x3⟩ ::
  ⟨main_call18_v4, val_main_call18_v4 (F := F)⟩ ::
  ⟨main_call18_v3, val_main_call18_v3 (F := F)⟩ ::
  ⟨main_call18_v2, val_main_call18_v2 (F := F) x0 x3⟩ ::
  ⟨main_call18_v1, val_main_call18_v1 (F := F)⟩ ::
  ⟨main_call18_v0, val_main_call18_v0 (F := F)⟩ ::
  ⟨main_c_91, val_main_c_91 (F := F)⟩ ::
  ⟨main_c_90, val_main_c_90 (F := F)⟩ ::
  ⟨main_v233, val_main_v233 (F := F) x0 x3⟩ ::
  ⟨main_v232, val_main_v232 (F := F)⟩ ::
  ⟨main_c_89, val_main_c_89 (F := F)⟩ ::
  ⟨main_v231, val_main_v231 (F := F) x0 x3⟩ ::
  ⟨main_v230, val_main_v230 (F := F) x0 x3⟩ ::
  ⟨main_call17_v4, val_main_call17_v4 (F := F)⟩ ::
  ⟨main_call17_v3, val_main_call17_v3 (F := F)⟩ ::
  ⟨main_call17_v2, val_main_call17_v2 (F := F) x0 x3⟩ ::
  ⟨main_call17_v1, val_main_call17_v1 (F := F)⟩ ::
  ⟨main_call17_v0, val_main_call17_v0 (F := F)⟩ ::
  ⟨main_c_88, val_main_c_88 (F := F)⟩ ::
  facts18 x0 x1 x2 x3

theorem up19 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts18 x0 x1 x2 x3) : p ∈ facts19 x0 x1 x2 x3 :=
  memUp% 24 hp

set_option maxRecDepth 8192 in
set_option maxHeartbeats 2000000 in
/-- Operations 474 … 497: each adds the fact of the buffer it writes. -/
theorem run19 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts18 x0 x1 x2 x3) 477) :
    Inv (after seg19 W) (facts19 x0 x1 x2 x3) 501 := by
  have r := res_nullary (τ := τ) (W := W) (y := main_c_88) (v := (constantI S_ 32 15#32)) (hy := ⟨by decide, rfl⟩)
  refine Inv.cons h _ _ main_c_88 (val_main_c_88 (F := F)) rfl (by decide) (r.trans ?_) (fun W h => ?_)
  · rfl
  have r := res_tunary (τ := τ) (TRef.of (T := ⟨S_, .i32⟩) main_c_87) (TRef.of (T := ⟨S_, .i32⟩) main_call17_v0) id (h.tget (TRef.of (T := ⟨S_, .i32⟩) main_c_87) (val_main_c_87 (F := F)) (val_main_c_87 (F := F)) HEq.rfl (memUp% 1 (memAt% 0 : (⟨main_c_87, val_main_c_87 (F := F)⟩ : Fact sig (Elt F)) ∈ facts18 x0 x1 x2 x3)))
  refine Inv.cons h _ _ main_call17_v0 (val_main_call17_v0 (F := F)) rfl (by decide) (r.trans (toBuf_of_heq (TRef.of (T := ⟨S_, .i32⟩) main_call17_v0) (w := val_main_call17_v0 (F := F)) ?_)) (fun W h => ?_)
  · exact HEq.rfl
  have r := res_tunary (τ := τ) (TRef.of (T := ⟨S_, .i32⟩) main_call17_v0) (TRef.of (T := ⟨S4x40000, .i32⟩) main_call17_v1) (broadcastInDim S4x40000 ![] bcast_S_S4x40000) (h.tget (TRef.of (T := ⟨S_, .i32⟩) main_call17_v0) (val_main_call17_v0 (F := F)) (val_main_call17_v0 (F := F)) HEq.rfl (memAt% 0))
  refine Inv.cons h _ _ main_call17_v1 (val_main_call17_v1 (F := F)) rfl (by decide) (r.trans (toBuf_of_heq (TRef.of (T := ⟨S4x40000, .i32⟩) main_call17_v1) (w := val_main_call17_v1 (F := F)) ?_)) (fun W h => ?_)
  · exact HEq.rfl
  have r := res_tbinary (τ := τ) (TRef.of (T := ⟨S4x40000, .i32⟩) main_call17_v1) (TRef.of (T := ⟨S4x40000, .i32⟩) main_v36) (TRef.of (T := ⟨S4x40000, .i32⟩) main_call17_v2) maxsi (h.tget (TRef.of (T := ⟨S4x40000, .i32⟩) main_call17_v1) (val_main_call17_v1 (F := F)) (val_main_call17_v1 (F := F)) HEq.rfl (memAt% 0)) (h.tget (TRef.of (T := ⟨S4x40000, .i32⟩) main_v36) (val_main_v36 (F := F) x0 x3) (val_main_v36 (F := F) x0 x3) HEq.rfl (memUp% 3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3))))))))))))))))))))
  refine Inv.cons h _ _ main_call17_v2 (val_main_call17_v2 (F := F) x0 x3) rfl (by decide) (r.trans (toBuf_of_heq (TRef.of (T := ⟨S4x40000, .i32⟩) main_call17_v2) (w := val_main_call17_v2 (F := F) x0 x3) ?_)) (fun W h => ?_)
  · exact HEq.rfl
  have r := res_tunary (τ := τ) (TRef.of (T := ⟨S_, .i32⟩) main_c_88) (TRef.of (T := ⟨S_, .i32⟩) main_call17_v3) id (h.tget (TRef.of (T := ⟨S_, .i32⟩) main_c_88) (val_main_c_88 (F := F)) (val_main_c_88 (F := F)) HEq.rfl (memAt% 3))
  refine Inv.cons h _ _ main_call17_v3 (val_main_call17_v3 (F := F)) rfl (by decide) (r.trans (toBuf_of_heq (TRef.of (T := ⟨S_, .i32⟩) main_call17_v3) (w := val_main_call17_v3 (F := F)) ?_)) (fun W h => ?_)
  · exact HEq.rfl
  have r := res_tunary (τ := τ) (TRef.of (T := ⟨S_, .i32⟩) main_call17_v3) (TRef.of (T := ⟨S4x40000, .i32⟩) main_call17_v4) (broadcastInDim S4x40000 ![] bcast_S_S4x40000) (h.tget (TRef.of (T := ⟨S_, .i32⟩) main_call17_v3) (val_main_call17_v3 (F := F)) (val_main_call17_v3 (F := F)) HEq.rfl (memAt% 0))
  refine Inv.cons h _ _ main_call17_v4 (val_main_call17_v4 (F := F)) rfl (by decide) (r.trans (toBuf_of_heq (TRef.of (T := ⟨S4x40000, .i32⟩) main_call17_v4) (w := val_main_call17_v4 (F := F)) ?_)) (fun W h => ?_)
  · exact HEq.rfl
  have r := res_tbinary (τ := τ) (TRef.of (T := ⟨S4x40000, .i32⟩) main_call17_v4) (TRef.of (T := ⟨S4x40000, .i32⟩) main_call17_v2) (TRef.of (T := ⟨S4x40000, .i32⟩) main_v230) minsi (h.tget (TRef.of (T := ⟨S4x40000, .i32⟩) main_call17_v4) (val_main_call17_v4 (F := F)) (val_main_call17_v4 (F := F)) HEq.rfl (memAt% 0)) (h.tget (TRef.of (T := ⟨S4x40000, .i32⟩) main_call17_v2) (val_main_call17_v2 (F := F) x0 x3) (val_main_call17_v2 (F := F) x0 x3) HEq.rfl (memAt% 2))
  refine Inv.cons h _ _ main_v230 (val_main_v230 (F := F) x0 x3) rfl (by decide) (r.trans (toBuf_of_heq (TRef.of (T := ⟨S4x40000, .i32⟩) main_v230) (w := val_main_v230 (F := F) x0 x3) ?_)) (fun W h => ?_)
  · exact HEq.rfl
  have r := res_binary (τ := τ) (a := main_v229) (b := main_v230) (y := main_v231) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v229 (val_main_v229 (F := F) x0 x3) (memUp% 7 (memAt% 1 : (⟨main_v229, val_main_v229 (F := F) x0 x3⟩ : Fact sig (Elt F)) ∈ facts18 x0 x1 x2 x3))) (h.get' main_v230 (val_main_v230 (F := F) x0 x3) (memAt% 0))
  refine Inv.cons h _ _ main_v231 (val_main_v231 (F := F) x0 x3) rfl (by decide) (r.trans ?_) (fun W h => ?_)
  · rfl
  have r := res_nullary (τ := τ) (W := W) (y := main_c_89) (v := (constantI S_ 32 16#32)) (hy := ⟨by decide, rfl⟩)
  refine Inv.cons h _ _ main_c_89 (val_main_c_89 (F := F)) rfl (by decide) (r.trans ?_) (fun W h => ?_)
  · rfl
  have r := res_unary (τ := τ) (x := main_c_89) (y := main_v232) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_89 (val_main_c_89 (F := F)) (memAt% 0))
  refine Inv.cons h _ _ main_v232 (val_main_v232 (F := F)) rfl (by decide) (r.trans ?_) (fun W h => ?_)
  · rfl
  have r := res_binary (τ := τ) (a := main_v231) (b := main_v232) (y := main_v233) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v231 (val_main_v231 (F := F) x0 x3) (memAt% 2)) (h.get' main_v232 (val_main_v232 (F := F)) (memAt% 0))
  refine Inv.cons h _ _ main_v233 (val_main_v233 (F := F) x0 x3) rfl (by decide) (r.trans ?_) (fun W h => ?_)
  · rfl
  have r := res_nullary (τ := τ) (W := W) (y := main_c_90) (v := (constantI S_ 32 0#32)) (hy := ⟨by decide, rfl⟩)
  refine Inv.cons h _ _ main_c_90 (val_main_c_90 (F := F)) rfl (by decide) (r.trans ?_) (fun W h => ?_)
  · rfl
  have r := res_nullary (τ := τ) (W := W) (y := main_c_91) (v := (constantI S_ 32 15#32)) (hy := ⟨by decide, rfl⟩)
  refine Inv.cons h _ _ main_c_91 (val_main_c_91 (F := F)) rfl (by decide) (r.trans ?_) (fun W h => ?_)
  · rfl
  have r := res_tunary (τ := τ) (TRef.of (T := ⟨S_, .i32⟩) main_c_90) (TRef.of (T := ⟨S_, .i32⟩) main_call18_v0) id (h.tget (TRef.of (T := ⟨S_, .i32⟩) main_c_90) (val_main_c_90 (F := F)) (val_main_c_90 (F := F)) HEq.rfl (memAt% 1))
  refine Inv.cons h _ _ main_call18_v0 (val_main_call18_v0 (F := F)) rfl (by decide) (r.trans (toBuf_of_heq (TRef.of (T := ⟨S_, .i32⟩) main_call18_v0) (w := val_main_call18_v0 (F := F)) ?_)) (fun W h => ?_)
  · exact HEq.rfl
  have r := res_tunary (τ := τ) (TRef.of (T := ⟨S_, .i32⟩) main_call18_v0) (TRef.of (T := ⟨S4x40000, .i32⟩) main_call18_v1) (broadcastInDim S4x40000 ![] bcast_S_S4x40000) (h.tget (TRef.of (T := ⟨S_, .i32⟩) main_call18_v0) (val_main_call18_v0 (F := F)) (val_main_call18_v0 (F := F)) HEq.rfl (memAt% 0))
  refine Inv.cons h _ _ main_call18_v1 (val_main_call18_v1 (F := F)) rfl (by decide) (r.trans (toBuf_of_heq (TRef.of (T := ⟨S4x40000, .i32⟩) main_call18_v1) (w := val_main_call18_v1 (F := F)) ?_)) (fun W h => ?_)
  · exact HEq.rfl
  have r := res_tbinary (τ := τ) (TRef.of (T := ⟨S4x40000, .i32⟩) main_call18_v1) (TRef.of (T := ⟨S4x40000, .i32⟩) main_v35) (TRef.of (T := ⟨S4x40000, .i32⟩) main_call18_v2) maxsi (h.tget (TRef.of (T := ⟨S4x40000, .i32⟩) main_call18_v1) (val_main_call18_v1 (F := F)) (val_main_call18_v1 (F := F)) HEq.rfl (memAt% 0)) (h.tget (TRef.of (T := ⟨S4x40000, .i32⟩) main_v35) (val_main_v35 (F := F) x0 x3) (val_main_v35 (F := F) x0 x3) HEq.rfl (memUp% 15 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3))))))))))))))))))))
  refine Inv.cons h _ _ main_call18_v2 (val_main_call18_v2 (F := F) x0 x3) rfl (by decide) (r.trans (toBuf_of_heq (TRef.of (T := ⟨S4x40000, .i32⟩) main_call18_v2) (w := val_main_call18_v2 (F := F) x0 x3) ?_)) (fun W h => ?_)
  · exact HEq.rfl
  have r := res_tunary (τ := τ) (TRef.of (T := ⟨S_, .i32⟩) main_c_91) (TRef.of (T := ⟨S_, .i32⟩) main_call18_v3) id (h.tget (TRef.of (T := ⟨S_, .i32⟩) main_c_91) (val_main_c_91 (F := F)) (val_main_c_91 (F := F)) HEq.rfl (memAt% 3))
  refine Inv.cons h _ _ main_call18_v3 (val_main_call18_v3 (F := F)) rfl (by decide) (r.trans (toBuf_of_heq (TRef.of (T := ⟨S_, .i32⟩) main_call18_v3) (w := val_main_call18_v3 (F := F)) ?_)) (fun W h => ?_)
  · exact HEq.rfl
  have r := res_tunary (τ := τ) (TRef.of (T := ⟨S_, .i32⟩) main_call18_v3) (TRef.of (T := ⟨S4x40000, .i32⟩) main_call18_v4) (broadcastInDim S4x40000 ![] bcast_S_S4x40000) (h.tget (TRef.of (T := ⟨S_, .i32⟩) main_call18_v3) (val_main_call18_v3 (F := F)) (val_main_call18_v3 (F := F)) HEq.rfl (memAt% 0))
  refine Inv.cons h _ _ main_call18_v4 (val_main_call18_v4 (F := F)) rfl (by decide) (r.trans (toBuf_of_heq (TRef.of (T := ⟨S4x40000, .i32⟩) main_call18_v4) (w := val_main_call18_v4 (F := F)) ?_)) (fun W h => ?_)
  · exact HEq.rfl
  have r := res_tbinary (τ := τ) (TRef.of (T := ⟨S4x40000, .i32⟩) main_call18_v4) (TRef.of (T := ⟨S4x40000, .i32⟩) main_call18_v2) (TRef.of (T := ⟨S4x40000, .i32⟩) main_v234) minsi (h.tget (TRef.of (T := ⟨S4x40000, .i32⟩) main_call18_v4) (val_main_call18_v4 (F := F)) (val_main_call18_v4 (F := F)) HEq.rfl (memAt% 0)) (h.tget (TRef.of (T := ⟨S4x40000, .i32⟩) main_call18_v2) (val_main_call18_v2 (F := F) x0 x3) (val_main_call18_v2 (F := F) x0 x3) HEq.rfl (memAt% 2))
  refine Inv.cons h _ _ main_v234 (val_main_v234 (F := F) x0 x3) rfl (by decide) (r.trans (toBuf_of_heq (TRef.of (T := ⟨S4x40000, .i32⟩) main_v234) (w := val_main_v234 (F := F) x0 x3) ?_)) (fun W h => ?_)
  · exact HEq.rfl
  have r := res_binary (τ := τ) (a := main_v233) (b := main_v234) (y := main_v235) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v233 (val_main_v233 (F := F) x0 x3) (memAt% 8)) (h.get' main_v234 (val_main_v234 (F := F) x0 x3) (memAt% 0))
  refine Inv.cons h _ _ main_v235 (val_main_v235 (F := F) x0 x3) rfl (by decide) (r.trans ?_) (fun W h => ?_)
  · rfl
  have r := res_unary (τ := τ) (x := main_v235) (y := main_v236) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v235 (val_main_v235 (F := F) x0 x3) (memAt% 0))
  refine Inv.cons h _ _ main_v236 (val_main_v236 (F := F) x0 x3) rfl (by decide) (r.trans ?_) (fun W h => ?_)
  · rfl
  have r := res_tnullary (τ := τ) (W := W) (TRef.of (T := ⟨S_, .i32⟩) main_call19_c) (constantI S_ 32 0#32)
  refine Inv.cons h _ _ main_call19_c (val_main_call19_c (F := F)) rfl (by decide) (r.trans (toBuf_of_heq (TRef.of (T := ⟨S_, .i32⟩) main_call19_c) (w := val_main_call19_c (F := F)) ?_)) (fun W h => ?_)
  · exact HEq.rfl
  have r := res_tunary (τ := τ) (TRef.of (T := ⟨S_, .i32⟩) main_call19_c) (TRef.of (T := ⟨S4x1x40000, .i32⟩) main_call19_v0) (broadcastInDim S4x1x40000 ![] bcast_S_S4x1x40000) (h.tget (TRef.of (T := ⟨S_, .i32⟩) main_call19_c) (val_main_call19_c (F := F)) (val_main_call19_c (F := F)) HEq.rfl (memAt% 0))
  refine Inv.cons h _ _ main_call19_v0 (val_main_call19_v0 (F := F)) rfl (by decide) (r.trans (toBuf_of_heq (TRef.of (T := ⟨S4x1x40000, .i32⟩) main_call19_v0) (w := val_main_call19_v0 (F := F)) ?_)) (fun W h => ?_)
  · exact HEq.rfl
  have r := res_tbinary (τ := τ) (TRef.of (T := ⟨S4x1x40000, .i32⟩) main_v236) (TRef.of (T := ⟨S4x1x40000, .i32⟩) main_call19_v0) (TRef.of (T := ⟨S4x1x40000, .i1⟩) main_call19_v1) (cmpi .slt) (h.tget (TRef.of (T := ⟨S4x1x40000, .i32⟩) main_v236) (val_main_v236 (F := F) x0 x3) (val_main_v236 (F := F) x0 x3) HEq.rfl (memAt% 2)) (h.tget (TRef.of (T := ⟨S4x1x40000, .i32⟩) main_call19_v0) (val_main_call19_v0 (F := F)) (val_main_call19_v0 (F := F)) HEq.rfl (memAt% 0))
  refine Inv.cons h _ _ main_call19_v1 (val_main_call19_v1 (F := F) x0 x3) rfl (by decide) (r.trans (toBuf_of_heq (TRef.of (T := ⟨S4x1x40000, .i1⟩) main_call19_v1) (w := val_main_call19_v1 (F := F) x0 x3) ?_)) (fun W h => ?_)
  · exact HEq.rfl
  exact h

/-- Operations 498 … 521 of the line. -/
abbrev seg20 : List (HloOp τ sig (Elt F)) :=
  [ TRef.nullary (TRef.of (T := ⟨S_, .i32⟩) main_call19_c_0) (constantI S_ 32 4096#32),
    TRef.unary (TRef.of (T := ⟨S_, .i32⟩) main_call19_c_0) (TRef.of (T := ⟨S4x1x40000, .i32⟩) main_call19_v2) (broadcastInDim S4x1x40000 ![] bcast_S_S4x1x40000),
    TRef.binary (TRef.of (T := ⟨S4x1x40000, .i32⟩) main_v236) (TRef.of (T := ⟨S4x1x40000, .i32⟩) main_call19_v2) (TRef.of (T := ⟨S4x1x40000, .i32⟩) main_call19_v3) addi,
    TRef.ternary (TRef.of (T := ⟨S4x1x40000, .i1⟩) main_call19_v1) (TRef.of (T := ⟨S4x1x40000, .i32⟩) main_call19_v3) (TRef.of (T := ⟨S4x1x40000, .i32⟩) main_v236) (TRef.of (T := ⟨S4x1x40000, .i32⟩) main_call19_v4) select,
    TRef.reshape (TRef.of (T := ⟨S4x1x40000, .i32⟩) main_call19_v4) (TRef.of (T := ⟨S4x40000x1, .i32⟩) main_call19_v5) rfl shapeCasts_S4x1x40000_S4x40000x1,
    TRef.nullary (TRef.of (T := ⟨S1, .i32⟩) main_call19_c_1) (constantI S1 32 4095#32),
    TRef.nullary (TRef.of (T := ⟨S_, .i32⟩) main_call19_c_2) (constantI S_ 32 0#32),
    TRef.unary (TRef.of (T := ⟨S_, .i32⟩) main_call19_c_2) (TRef.of (T := ⟨S4x40000x1, .i32⟩) main_call19_v6) (broadcastInDim S4x40000x1 ![] bcast_S_S4x40000x1),
    TRef.binary (TRef.of (T := ⟨S4x40000x1, .i32⟩) main_call19_v5) (TRef.of (T := ⟨S4x40000x1, .i32⟩) main_call19_v6) (TRef.of (T := ⟨S4x40000x1, .i1⟩) main_call19_v7) (cmpi .sge),
    TRef.unary (TRef.of (T := ⟨S1, .i32⟩) main_call19_c_1) (TRef.of (T := ⟨S1x1x1, .i32⟩) main_call19_v8) (broadcastInDim S1x1x1 ![2] bcast_S1_S1x1x1_2),
    TRef.unary (TRef.of (T := ⟨S1x1x1, .i32⟩) main_call19_v8) (TRef.of (T := ⟨S4x40000x1, .i32⟩) main_call19_v9) (broadcastInDim S4x40000x1 ![0, 1, 2] bcast_S1x1x1_S4x40000x1_0_1_2),
    TRef.binary (TRef.of (T := ⟨S4x40000x1, .i32⟩) main_call19_v5) (TRef.of (T := ⟨S4x40000x1, .i32⟩) main_call19_v9) (TRef.of (T := ⟨S4x40000x1, .i1⟩) main_call19_v10) (cmpi .sle),
    TRef.binary (TRef.of (T := ⟨S4x40000x1, .i1⟩) main_call19_v7) (TRef.of (T := ⟨S4x40000x1, .i1⟩) main_call19_v10) (TRef.of (T := ⟨S4x40000x1, .i1⟩) main_call19_v11) andi,
    TRef.nullary (TRef.of (T := ⟨S_, .i1⟩) main_call19_c_3) (constantI S_ 1 1#1),
    TRef.binary (TRef.of (T := ⟨S4x40000x1, .i1⟩) main_call19_v11) (TRef.of (T := ⟨S_, .i1⟩) main_call19_c_3) (TRef.of (T := ⟨S4x40000, .i1⟩) main_call19_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call19_v5) (TRef.of (T := ⟨S4x128x40000, .f32⟩) main_call19_v13) (fun x i => Host.gather gather_S4x128x4096_S4x40000x1_S4x128x40000_1_2_0_0_2_2_11281 x i),
    TRef.unary (TRef.of (T := ⟨S4x40000, .i1⟩) main_call19_v12) (TRef.of (T := ⟨S4x128x40000, .i1⟩) main_call19_v14) (broadcastInDim S4x128x40000 ![0, 2] bcast_S4x40000_S4x128x40000_0_2),
    TRef.nullary (TRef.of (T := ⟨S_, .f32⟩) main_call19_cst) (constant S_ .f32 0x7FC00000#32),
    TRef.unary (TRef.of (T := ⟨S_, .f32⟩) main_call19_cst) (TRef.of (T := ⟨S4x128x40000, .f32⟩) main_call19_v15) (broadcastInDim S4x128x40000 ![] bcast_S_S4x128x40000),
    TRef.ternary (TRef.of (T := ⟨S4x128x40000, .i1⟩) main_call19_v14) (TRef.of (T := ⟨S4x128x40000, .f32⟩) main_call19_v13) (TRef.of (T := ⟨S4x128x40000, .f32⟩) main_call19_v15) (TRef.of (T := ⟨S4x128x40000, .f32⟩) main_v237) select,
    unary main_v226 main_v238 (uitofp .f32 : (⟨S4x40000, .i1⟩ : BufTy).Contents (Elt F) → (⟨S4x40000, .f32⟩ : BufTy).Contents (Elt F)),
    binary main_v209 main_v238 main_v239 (mulf : (⟨S4x40000, .f32⟩ : BufTy).Contents (Elt F) → (⟨S4x40000, .f32⟩ : BufTy).Contents (Elt F) → (⟨S4x40000, .f32⟩ : BufTy).Contents (Elt F)),
    unary main_v239 main_v240 (broadcastInDim S4x1x40000 ![0, 2] bcast_S4x40000_S4x1x40000_0_2 : (⟨S4x40000, .f32⟩ : BufTy).Contents (Elt F) → (⟨S4x1x40000, .f32⟩ : BufTy).Contents (Elt F)),
    unary main_v240 main_v241 (broadcastInDim S4x128x40000 ![0, 1, 2] bcast_S4x1x40000_S4x128x40000_0_1_2 : (⟨S4x1x40000, .f32⟩ : BufTy).Contents (Elt F) → (⟨S4x128x40000, .f32⟩ : BufTy).Contents (Elt F)) ]

/-- The facts after operation 521: each buffer written so far at its stage value. -/
def facts20 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v241, val_main_v241 (F := F) x0 x3⟩ ::
  ⟨main_v240, val_main_v240 (F := F) x0 x3⟩ ::
  ⟨main_v239, val_main_v239 (F := F) x0 x3⟩ ::
  ⟨main_v238, val_main_v238 (F := F) x0 x3⟩ ::
  ⟨main_v237, val_main_v237 (F := F) x0 x2 x3⟩ ::
  ⟨main_call19_v15, val_main_call19_v15 (F := F)⟩ ::
  ⟨main_call19_cst, val_main_call19_cst (F := F)⟩ ::
  ⟨main_call19_v14, val_main_call19_v14 (F := F) x0 x3⟩ ::
  ⟨main_call19_v13, val_main_call19_v13 (F := F) x0 x2 x3⟩ ::
  ⟨main_call19_v12, val_main_call19_v12 (F := F) x0 x3⟩ ::
  ⟨main_call19_c_3, val_main_call19_c_3 (F := F)⟩ ::
  ⟨main_call19_v11, val_main_call19_v11 (F := F) x0 x3⟩ ::
  ⟨main_call19_v10, val_main_call19_v10 (F := F) x0 x3⟩ ::
  ⟨main_call19_v9, val_main_call19_v9 (F := F)⟩ ::
  ⟨main_call19_v8, val_main_call19_v8 (F := F)⟩ ::
  ⟨main_call19_v7, val_main_call19_v7 (F := F) x0 x3⟩ ::
  ⟨main_call19_v6, val_main_call19_v6 (F := F)⟩ ::
  ⟨main_call19_c_2, val_main_call19_c_2 (F := F)⟩ ::
  ⟨main_call19_c_1, val_main_call19_c_1 (F := F)⟩ ::
  ⟨main_call19_v5, val_main_call19_v5 (F := F) x0 x3⟩ ::
  ⟨main_call19_v4, val_main_call19_v4 (F := F) x0 x3⟩ ::
  ⟨main_call19_v3, val_main_call19_v3 (F := F) x0 x3⟩ ::
  ⟨main_call19_v2, val_main_call19_v2 (F := F)⟩ ::
  ⟨main_call19_c_0, val_main_call19_c_0 (F := F)⟩ ::
  facts19 x0 x1 x2 x3

theorem up20 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts19 x0 x1 x2 x3) : p ∈ facts20 x0 x1 x2 x3 :=
  memUp% 24 hp

set_option maxRecDepth 8192 in
set_option maxHeartbeats 2000000 in
/-- Operations 498 … 521: each adds the fact of the buffer it writes. -/
theorem run20 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts19 x0 x1 x2 x3) 501) :
    Inv (after seg20 W) (facts20 x0 x1 x2 x3) 525 := by
  have r := res_tnullary (τ := τ) (W := W) (TRef.of (T := ⟨S_, .i32⟩) main_call19_c_0) (constantI S_ 32 4096#32)
  refine Inv.cons h _ _ main_call19_c_0 (val_main_call19_c_0 (F := F)) rfl (by decide) (r.trans (toBuf_of_heq (TRef.of (T := ⟨S_, .i32⟩) main_call19_c_0) (w := val_main_call19_c_0 (F := F)) ?_)) (fun W h => ?_)
  · exact HEq.rfl
  have r := res_tunary (τ := τ) (TRef.of (T := ⟨S_, .i32⟩) main_call19_c_0) (TRef.of (T := ⟨S4x1x40000, .i32⟩) main_call19_v2) (broadcastInDim S4x1x40000 ![] bcast_S_S4x1x40000) (h.tget (TRef.of (T := ⟨S_, .i32⟩) main_call19_c_0) (val_main_call19_c_0 (F := F)) (val_main_call19_c_0 (F := F)) HEq.rfl (memAt% 0))
  refine Inv.cons h _ _ main_call19_v2 (val_main_call19_v2 (F := F)) rfl (by decide) (r.trans (toBuf_of_heq (TRef.of (T := ⟨S4x1x40000, .i32⟩) main_call19_v2) (w := val_main_call19_v2 (F := F)) ?_)) (fun W h => ?_)
  · exact HEq.rfl
  have r := res_tbinary (τ := τ) (TRef.of (T := ⟨S4x1x40000, .i32⟩) main_v236) (TRef.of (T := ⟨S4x1x40000, .i32⟩) main_call19_v2) (TRef.of (T := ⟨S4x1x40000, .i32⟩) main_call19_v3) addi (h.tget (TRef.of (T := ⟨S4x1x40000, .i32⟩) main_v236) (val_main_v236 (F := F) x0 x3) (val_main_v236 (F := F) x0 x3) HEq.rfl (memUp% 2 (memAt% 3 : (⟨main_v236, val_main_v236 (F := F) x0 x3⟩ : Fact sig (Elt F)) ∈ facts19 x0 x1 x2 x3))) (h.tget (TRef.of (T := ⟨S4x1x40000, .i32⟩) main_call19_v2) (val_main_call19_v2 (F := F)) (val_main_call19_v2 (F := F)) HEq.rfl (memAt% 0))
  refine Inv.cons h _ _ main_call19_v3 (val_main_call19_v3 (F := F) x0 x3) rfl (by decide) (r.trans (toBuf_of_heq (TRef.of (T := ⟨S4x1x40000, .i32⟩) main_call19_v3) (w := val_main_call19_v3 (F := F) x0 x3) ?_)) (fun W h => ?_)
  · exact HEq.rfl
  have r := res_tternary (τ := τ) (TRef.of (T := ⟨S4x1x40000, .i1⟩) main_call19_v1) (TRef.of (T := ⟨S4x1x40000, .i32⟩) main_call19_v3) (TRef.of (T := ⟨S4x1x40000, .i32⟩) main_v236) (TRef.of (T := ⟨S4x1x40000, .i32⟩) main_call19_v4) select (h.tget (TRef.of (T := ⟨S4x1x40000, .i1⟩) main_call19_v1) (val_main_call19_v1 (F := F) x0 x3) (val_main_call19_v1 (F := F) x0 x3) HEq.rfl (memUp% 3 (memAt% 0 : (⟨main_call19_v1, val_main_call19_v1 (F := F) x0 x3⟩ : Fact sig (Elt F)) ∈ facts19 x0 x1 x2 x3))) (h.tget (TRef.of (T := ⟨S4x1x40000, .i32⟩) main_call19_v3) (val_main_call19_v3 (F := F) x0 x3) (val_main_call19_v3 (F := F) x0 x3) HEq.rfl (memAt% 0)) (h.tget (TRef.of (T := ⟨S4x1x40000, .i32⟩) main_v236) (val_main_v236 (F := F) x0 x3) (val_main_v236 (F := F) x0 x3) HEq.rfl (memUp% 3 (memAt% 3 : (⟨main_v236, val_main_v236 (F := F) x0 x3⟩ : Fact sig (Elt F)) ∈ facts19 x0 x1 x2 x3)))
  refine Inv.cons h _ _ main_call19_v4 (val_main_call19_v4 (F := F) x0 x3) rfl (by decide) (r.trans (toBuf_of_heq (TRef.of (T := ⟨S4x1x40000, .i32⟩) main_call19_v4) (w := val_main_call19_v4 (F := F) x0 x3) ?_)) (fun W h => ?_)
  · exact HEq.rfl
  have r := res_treshape (τ := τ) (TRef.of (T := ⟨S4x1x40000, .i32⟩) main_call19_v4) (TRef.of (T := ⟨S4x40000x1, .i32⟩) main_call19_v5) rfl shapeCasts_S4x1x40000_S4x40000x1 (h.tget (TRef.of (T := ⟨S4x1x40000, .i32⟩) main_call19_v4) (val_main_call19_v4 (F := F) x0 x3) (val_main_call19_v4 (F := F) x0 x3) HEq.rfl (memAt% 0))
  refine Inv.cons h _ _ main_call19_v5 (val_main_call19_v5 (F := F) x0 x3) rfl (by decide) (r.trans (toBuf_of_heq (TRef.of (T := ⟨S4x40000x1, .i32⟩) main_call19_v5) (w := val_main_call19_v5 (F := F) x0 x3) ?_)) (fun W h => ?_)
  · exact HEq.rfl
  have r := res_tnullary (τ := τ) (W := W) (TRef.of (T := ⟨S1, .i32⟩) main_call19_c_1) (constantI S1 32 4095#32)
  refine Inv.cons h _ _ main_call19_c_1 (val_main_call19_c_1 (F := F)) rfl (by decide) (r.trans (toBuf_of_heq (TRef.of (T := ⟨S1, .i32⟩) main_call19_c_1) (w := val_main_call19_c_1 (F := F)) ?_)) (fun W h => ?_)
  · exact HEq.rfl
  have r := res_tnullary (τ := τ) (W := W) (TRef.of (T := ⟨S_, .i32⟩) main_call19_c_2) (constantI S_ 32 0#32)
  refine Inv.cons h _ _ main_call19_c_2 (val_main_call19_c_2 (F := F)) rfl (by decide) (r.trans (toBuf_of_heq (TRef.of (T := ⟨S_, .i32⟩) main_call19_c_2) (w := val_main_call19_c_2 (F := F)) ?_)) (fun W h => ?_)
  · exact HEq.rfl
  have r := res_tunary (τ := τ) (TRef.of (T := ⟨S_, .i32⟩) main_call19_c_2) (TRef.of (T := ⟨S4x40000x1, .i32⟩) main_call19_v6) (broadcastInDim S4x40000x1 ![] bcast_S_S4x40000x1) (h.tget (TRef.of (T := ⟨S_, .i32⟩) main_call19_c_2) (val_main_call19_c_2 (F := F)) (val_main_call19_c_2 (F := F)) HEq.rfl (memAt% 0))
  refine Inv.cons h _ _ main_call19_v6 (val_main_call19_v6 (F := F)) rfl (by decide) (r.trans (toBuf_of_heq (TRef.of (T := ⟨S4x40000x1, .i32⟩) main_call19_v6) (w := val_main_call19_v6 (F := F)) ?_)) (fun W h => ?_)
  · exact HEq.rfl
  have r := res_tbinary (τ := τ) (TRef.of (T := ⟨S4x40000x1, .i32⟩) main_call19_v5) (TRef.of (T := ⟨S4x40000x1, .i32⟩) main_call19_v6) (TRef.of (T := ⟨S4x40000x1, .i1⟩) main_call19_v7) (cmpi .sge) (h.tget (TRef.of (T := ⟨S4x40000x1, .i32⟩) main_call19_v5) (val_main_call19_v5 (F := F) x0 x3) (val_main_call19_v5 (F := F) x0 x3) HEq.rfl (memAt% 3)) (h.tget (TRef.of (T := ⟨S4x40000x1, .i32⟩) main_call19_v6) (val_main_call19_v6 (F := F)) (val_main_call19_v6 (F := F)) HEq.rfl (memAt% 0))
  refine Inv.cons h _ _ main_call19_v7 (val_main_call19_v7 (F := F) x0 x3) rfl (by decide) (r.trans (toBuf_of_heq (TRef.of (T := ⟨S4x40000x1, .i1⟩) main_call19_v7) (w := val_main_call19_v7 (F := F) x0 x3) ?_)) (fun W h => ?_)
  · exact HEq.rfl
  have r := res_tunary (τ := τ) (TRef.of (T := ⟨S1, .i32⟩) main_call19_c_1) (TRef.of (T := ⟨S1x1x1, .i32⟩) main_call19_v8) (broadcastInDim S1x1x1 ![2] bcast_S1_S1x1x1_2) (h.tget (TRef.of (T := ⟨S1, .i32⟩) main_call19_c_1) (val_main_call19_c_1 (F := F)) (val_main_call19_c_1 (F := F)) HEq.rfl (memAt% 3))
  refine Inv.cons h _ _ main_call19_v8 (val_main_call19_v8 (F := F)) rfl (by decide) (r.trans (toBuf_of_heq (TRef.of (T := ⟨S1x1x1, .i32⟩) main_call19_v8) (w := val_main_call19_v8 (F := F)) ?_)) (fun W h => ?_)
  · exact HEq.rfl
  have r := res_tunary (τ := τ) (TRef.of (T := ⟨S1x1x1, .i32⟩) main_call19_v8) (TRef.of (T := ⟨S4x40000x1, .i32⟩) main_call19_v9) (broadcastInDim S4x40000x1 ![0, 1, 2] bcast_S1x1x1_S4x40000x1_0_1_2) (h.tget (TRef.of (T := ⟨S1x1x1, .i32⟩) main_call19_v8) (val_main_call19_v8 (F := F)) (val_main_call19_v8 (F := F)) HEq.rfl (memAt% 0))
  refine Inv.cons h _ _ main_call19_v9 (val_main_call19_v9 (F := F)) rfl (by decide) (r.trans (toBuf_of_heq (TRef.of (T := ⟨S4x40000x1, .i32⟩) main_call19_v9) (w := val_main_call19_v9 (F := F)) ?_)) (fun W h => ?_)
  · exact HEq.rfl
  have r := res_tbinary (τ := τ) (TRef.of (T := ⟨S4x40000x1, .i32⟩) main_call19_v5) (TRef.of (T := ⟨S4x40000x1, .i32⟩) main_call19_v9) (TRef.of (T := ⟨S4x40000x1, .i1⟩) main_call19_v10) (cmpi .sle) (h.tget (TRef.of (T := ⟨S4x40000x1, .i32⟩) main_call19_v5) (val_main_call19_v5 (F := F) x0 x3) (val_main_call19_v5 (F := F) x0 x3) HEq.rfl (memAt% 6)) (h.tget (TRef.of (T := ⟨S4x40000x1, .i32⟩) main_call19_v9) (val_main_call19_v9 (F := F)) (val_main_call19_v9 (F := F)) HEq.rfl (memAt% 0))
  refine Inv.cons h _ _ main_call19_v10 (val_main_call19_v10 (F := F) x0 x3) rfl (by decide) (r.trans (toBuf_of_heq (TRef.of (T := ⟨S4x40000x1, .i1⟩) main_call19_v10) (w := val_main_call19_v10 (F := F) x0 x3) ?_)) (fun W h => ?_)
  · exact HEq.rfl
  have r := res_tbinary (τ := τ) (TRef.of (T := ⟨S4x40000x1, .i1⟩) main_call19_v7) (TRef.of (T := ⟨S4x40000x1, .i1⟩) main_call19_v10) (TRef.of (T := ⟨S4x40000x1, .i1⟩) main_call19_v11) andi (h.tget (TRef.of (T := ⟨S4x40000x1, .i1⟩) main_call19_v7) (val_main_call19_v7 (F := F) x0 x3) (val_main_call19_v7 (F := F) x0 x3) HEq.rfl (memAt% 3)) (h.tget (TRef.of (T := ⟨S4x40000x1, .i1⟩) main_call19_v10) (val_main_call19_v10 (F := F) x0 x3) (val_main_call19_v10 (F := F) x0 x3) HEq.rfl (memAt% 0))
  refine Inv.cons h _ _ main_call19_v11 (val_main_call19_v11 (F := F) x0 x3) rfl (by decide) (r.trans (toBuf_of_heq (TRef.of (T := ⟨S4x40000x1, .i1⟩) main_call19_v11) (w := val_main_call19_v11 (F := F) x0 x3) ?_)) (fun W h => ?_)
  · exact HEq.rfl
  have r := res_tnullary (τ := τ) (W := W) (TRef.of (T := ⟨S_, .i1⟩) main_call19_c_3) (constantI S_ 1 1#1)
  refine Inv.cons h _ _ main_call19_c_3 (val_main_call19_c_3 (F := F)) rfl (by decide) (r.trans (toBuf_of_heq (TRef.of (T := ⟨S_, .i1⟩) main_call19_c_3) (w := val_main_call19_c_3 (F := F)) ?_)) (fun W h => ?_)
  · exact HEq.rfl
  have r := res_tbinary (τ := τ) (TRef.of (T := ⟨S4x40000x1, .i1⟩) main_call19_v11) (TRef.of (T := ⟨S_, .i1⟩) main_call19_c_3) (TRef.of (T := ⟨S4x40000, .i1⟩) main_call19_v12) (fun x v => Host.reduce IntOp.andi x v reducesTo_S4x40000x1_S4x40000_d2 h_S_) (h.tget (TRef.of (T := ⟨S4x40000x1, .i1⟩) main_call19_v11) (val_main_call19_v11 (F := F) x0 x3) (val_main_call19_v11 (F := F) x0 x3) HEq.rfl (memAt% 1)) (h.tget (TRef.of (T := ⟨S_, .i1⟩) main_call19_c_3) (val_main_call19_c_3 (F := F)) (val_main_call19_c_3 (F := F)) HEq.rfl (memAt% 0))
  refine Inv.cons h _ _ main_call19_v12 (val_main_call19_v12 (F := F) x0 x3) rfl (by decide) (r.trans (toBuf_of_heq (TRef.of (T := ⟨S4x40000, .i1⟩) main_call19_v12) (w := val_main_call19_v12 (F := F) x0 x3) ?_)) (fun W h => ?_)
  · exact HEq.rfl
  have r := res_tbinary (τ := τ) (TRef.of (T := ⟨S4x128x4096, .f32⟩) main_v44) (TRef.of (T := ⟨S4x40000x1, .i32⟩) main_call19_v5) (TRef.of (T := ⟨S4x128x40000, .f32⟩) main_call19_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 15 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3))))))))))))))))))))) (h.tget (TRef.of (T := ⟨S4x40000x1, .i32⟩) main_call19_v5) (val_main_call19_v5 (F := F) x0 x3) (val_main_call19_v5 (F := F) x0 x3) HEq.rfl (memAt% 10))
  refine Inv.cons h _ _ main_call19_v13 (val_main_call19_v13 (F := F) x0 x2 x3) rfl (by decide) (r.trans (toBuf_of_heq (TRef.of (T := ⟨S4x128x40000, .f32⟩) main_call19_v13) (w := val_main_call19_v13 (F := F) x0 x2 x3) ?_)) (fun W h => ?_)
  · exact HEq.rfl
  have r := res_tunary (τ := τ) (TRef.of (T := ⟨S4x40000, .i1⟩) main_call19_v12) (TRef.of (T := ⟨S4x128x40000, .i1⟩) main_call19_v14) (broadcastInDim S4x128x40000 ![0, 2] bcast_S4x40000_S4x128x40000_0_2) (h.tget (TRef.of (T := ⟨S4x40000, .i1⟩) main_call19_v12) (val_main_call19_v12 (F := F) x0 x3) (val_main_call19_v12 (F := F) x0 x3) HEq.rfl (memAt% 1))
  refine Inv.cons h _ _ main_call19_v14 (val_main_call19_v14 (F := F) x0 x3) rfl (by decide) (r.trans (toBuf_of_heq (TRef.of (T := ⟨S4x128x40000, .i1⟩) main_call19_v14) (w := val_main_call19_v14 (F := F) x0 x3) ?_)) (fun W h => ?_)
  · exact HEq.rfl
  have r := res_tnullary (τ := τ) (W := W) (TRef.of (T := ⟨S_, .f32⟩) main_call19_cst) (constant S_ .f32 0x7FC00000#32)
  refine Inv.cons h _ _ main_call19_cst (val_main_call19_cst (F := F)) rfl (by decide) (r.trans (toBuf_of_heq (TRef.of (T := ⟨S_, .f32⟩) main_call19_cst) (w := val_main_call19_cst (F := F)) ?_)) (fun W h => ?_)
  · exact HEq.rfl
  have r := res_tunary (τ := τ) (TRef.of (T := ⟨S_, .f32⟩) main_call19_cst) (TRef.of (T := ⟨S4x128x40000, .f32⟩) main_call19_v15) (broadcastInDim S4x128x40000 ![] bcast_S_S4x128x40000) (h.tget (TRef.of (T := ⟨S_, .f32⟩) main_call19_cst) (val_main_call19_cst (F := F)) (val_main_call19_cst (F := F)) HEq.rfl (memAt% 0))
  refine Inv.cons h _ _ main_call19_v15 (val_main_call19_v15 (F := F)) rfl (by decide) (r.trans (toBuf_of_heq (TRef.of (T := ⟨S4x128x40000, .f32⟩) main_call19_v15) (w := val_main_call19_v15 (F := F)) ?_)) (fun W h => ?_)
  · exact HEq.rfl
  have r := res_tternary (τ := τ) (TRef.of (T := ⟨S4x128x40000, .i1⟩) main_call19_v14) (TRef.of (T := ⟨S4x128x40000, .f32⟩) main_call19_v13) (TRef.of (T := ⟨S4x128x40000, .f32⟩) main_call19_v15) (TRef.of (T := ⟨S4x128x40000, .f32⟩) main_v237) select (h.tget (TRef.of (T := ⟨S4x128x40000, .i1⟩) main_call19_v14) (val_main_call19_v14 (F := F) x0 x3) (val_main_call19_v14 (F := F) x0 x3) HEq.rfl (memAt% 2)) (h.tget (TRef.of (T := ⟨S4x128x40000, .f32⟩) main_call19_v13) (val_main_call19_v13 (F := F) x0 x2 x3) (val_main_call19_v13 (F := F) x0 x2 x3) HEq.rfl (memAt% 3)) (h.tget (TRef.of (T := ⟨S4x128x40000, .f32⟩) main_call19_v15) (val_main_call19_v15 (F := F)) (val_main_call19_v15 (F := F)) HEq.rfl (memAt% 0))
  refine Inv.cons h _ _ main_v237 (val_main_v237 (F := F) x0 x2 x3) rfl (by decide) (r.trans (toBuf_of_heq (TRef.of (T := ⟨S4x128x40000, .f32⟩) main_v237) (w := val_main_v237 (F := F) x0 x2 x3) ?_)) (fun W h => ?_)
  · exact HEq.rfl
  have r := res_unary (τ := τ) (x := main_v226) (y := main_v238) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v226 (val_main_v226 (F := F) x0 x3) (memUp% 20 (up19 x0 x1 x2 x3 (memAt% 12 : (⟨main_v226, val_main_v226 (F := F) x0 x3⟩ : Fact sig (Elt F)) ∈ facts18 x0 x1 x2 x3))))
  refine Inv.cons h _ _ main_v238 (val_main_v238 (F := F) x0 x3) rfl (by decide) (r.trans ?_) (fun W h => ?_)
  · rfl
  have r := res_binary (τ := τ) (a := main_v209) (b := main_v238) (y := main_v239) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v209 (val_main_v209 (F := F) x0 x3) (memUp% 21 (up19 x0 x1 x2 x3 (up18 x0 x1 x2 x3 (memAt% 10 : (⟨main_v209, val_main_v209 (F := F) x0 x3⟩ : Fact sig (Elt F)) ∈ facts17 x0 x1 x2 x3))))) (h.get' main_v238 (val_main_v238 (F := F) x0 x3) (memAt% 0))
  refine Inv.cons h _ _ main_v239 (val_main_v239 (F := F) x0 x3) rfl (by decide) (r.trans ?_) (fun W h => ?_)
  · rfl
  have r := res_unary (τ := τ) (x := main_v239) (y := main_v240) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v239 (val_main_v239 (F := F) x0 x3) (memAt% 0))
  refine Inv.cons h _ _ main_v240 (val_main_v240 (F := F) x0 x3) rfl (by decide) (r.trans ?_) (fun W h => ?_)
  · rfl
  have r := res_unary (τ := τ) (x := main_v240) (y := main_v241) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v240 (val_main_v240 (F := F) x0 x3) (memAt% 0))
  refine Inv.cons h _ _ main_v241 (val_main_v241 (F := F) x0 x3) rfl (by decide) (r.trans ?_) (fun W h => ?_)
  · rfl
  exact h

/-- Operations 522 … 545 of the line. -/
abbrev seg21 : List (HloOp τ sig (Elt F)) :=
  [ binary main_v237 main_v241 main_v242 (mulf : (⟨S4x128x40000, .f32⟩ : BufTy).Contents (Elt F) → (⟨S4x128x40000, .f32⟩ : BufTy).Contents (Elt F) → (⟨S4x128x40000, .f32⟩ : BufTy).Contents (Elt F)),
    binary main_v203 main_v242 main_v243 (addf : (⟨S4x128x40000, .f32⟩ : BufTy).Contents (Elt F) → (⟨S4x128x40000, .f32⟩ : BufTy).Contents (Elt F) → (⟨S4x128x40000, .f32⟩ : BufTy).Contents (Elt F)),
    nullary main_cst_92 (constant S_ .f32 0x3F800000#32),
    unary main_cst_92 main_v244 (broadcastInDim S4x40000 ![] bcast_S_S4x40000 : (⟨S_, .f32⟩ : BufTy).Contents (Elt F) → (⟨S4x40000, .f32⟩ : BufTy).Contents (Elt F)),
    binary main_v244 main_v33 main_v245 (subf : (⟨S4x40000, .f32⟩ : BufTy).Contents (Elt F) → (⟨S4x40000, .f32⟩ : BufTy).Contents (Elt F) → (⟨S4x40000, .f32⟩ : BufTy).Contents (Elt F)),
    binary main_v32 main_v245 main_v246 (mulf : (⟨S4x40000, .f32⟩ : BufTy).Contents (Elt F) → (⟨S4x40000, .f32⟩ : BufTy).Contents (Elt F) → (⟨S4x40000, .f32⟩ : BufTy).Contents (Elt F)),
    binary main_v246 main_v34 main_v247 (mulf : (⟨S4x40000, .f32⟩ : BufTy).Contents (Elt F) → (⟨S4x40000, .f32⟩ : BufTy).Contents (Elt F) → (⟨S4x40000, .f32⟩ : BufTy).Contents (Elt F)),
    nullary main_c_93 (constantI S_ 32 0#32),
    unary main_c_93 main_v248 (broadcastInDim S4x40000 ![] bcast_S_S4x40000 : (⟨S_, .i32⟩ : BufTy).Contents (Elt F) → (⟨S4x40000, .i32⟩ : BufTy).Contents (Elt F)),
    binary main_v39 main_v248 main_v249 (cmpi .sge : (⟨S4x40000, .i32⟩ : BufTy).Contents (Elt F) → (⟨S4x40000, .i32⟩ : BufTy).Contents (Elt F) → (⟨S4x40000, .i1⟩ : BufTy).Contents (Elt F)),
    nullary main_c_94 (constantI S_ 32 16#32),
    unary main_c_94 main_v250 (broadcastInDim S4x40000 ![] bcast_S_S4x40000 : (⟨S_, .i32⟩ : BufTy).Contents (Elt F) → (⟨S4x40000, .i32⟩ : BufTy).Contents (Elt F)),
    binary main_v39 main_v250 main_v251 (cmpi .slt : (⟨S4x40000, .i32⟩ : BufTy).Contents (Elt F) → (⟨S4x40000, .i32⟩ : BufTy).Contents (Elt F) → (⟨S4x40000, .i1⟩ : BufTy).Contents (Elt F)),
    binary main_v249 main_v251 main_v252 (andi : (⟨S4x40000, .i1⟩ : BufTy).Contents (Elt F) → (⟨S4x40000, .i1⟩ : BufTy).Contents (Elt F) → (⟨S4x40000, .i1⟩ : BufTy).Contents (Elt F)),
    nullary main_c_95 (constantI S_ 32 0#32),
    unary main_c_95 main_v253 (broadcastInDim S4x40000 ![] bcast_S_S4x40000 : (⟨S_, .i32⟩ : BufTy).Contents (Elt F) → (⟨S4x40000, .i32⟩ : BufTy).Contents (Elt F)),
    binary main_v36 main_v253 main_v254 (cmpi .sge : (⟨S4x40000, .i32⟩ : BufTy).Contents (Elt F) → (⟨S4x40000, .i32⟩ : BufTy).Contents (Elt F) → (⟨S4x40000, .i1⟩ : BufTy).Contents (Elt F)),
    binary main_v252 main_v254 main_v255 (andi : (⟨S4x40000, .i1⟩ : BufTy).Contents (Elt F) → (⟨S4x40000, .i1⟩ : BufTy).Contents (Elt F) → (⟨S4x40000, .i1⟩ : BufTy).Contents (Elt F)),
    nullary main_c_96 (constantI S_ 32 16#32),
    unary main_c_96 main_v256 (broadcastInDim S4x40000 ![] bcast_S_S4x40000 : (⟨S_, .i32⟩ : BufTy).Contents (Elt F) → (⟨S4x40000, .i32⟩ : BufTy).Contents (Elt F)),
    binary main_v36 main_v256 main_v257 (cmpi .slt : (⟨S4x40000, .i32⟩ : BufTy).Contents (Elt F) → (⟨S4x40000, .i32⟩ : BufTy).Contents (Elt F) → (⟨S4x40000, .i1⟩ : BufTy).Contents (Elt F)),
    binary main_v255 main_v257 main_v258 (andi : (⟨S4x40000, .i1⟩ : BufTy).Contents (Elt F) → (⟨S4x40000, .i1⟩ : BufTy).Contents (Elt F) → (⟨S4x40000, .i1⟩ : BufTy).Contents (Elt F)),
    nullary main_c_97 (constantI S_ 32 0#32),
    unary main_c_97 main_v259 (broadcastInDim S4x40000 ![] bcast_S_S4x40000 : (⟨S_, .i32⟩ : BufTy).Contents (Elt F) → (⟨S4x40000, .i32⟩ : BufTy).Contents (Elt F)) ]

/-- The facts after operation 545: each buffer written so far at its stage value. -/
def facts21 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v259, val_main_v259 (F := F)⟩ ::
  ⟨main_c_97, val_main_c_97 (F := F)⟩ ::
  ⟨main_v258, val_main_v258 (F := F) x0 x3⟩ ::
  ⟨main_v257, val_main_v257 (F := F) x0 x3⟩ ::
  ⟨main_v256, val_main_v256 (F := F)⟩ ::
  ⟨main_c_96, val_main_c_96 (F := F)⟩ ::
  ⟨main_v255, val_main_v255 (F := F) x0 x3⟩ ::
  ⟨main_v254, val_main_v254 (F := F) x0 x3⟩ ::
  ⟨main_v253, val_main_v253 (F := F)⟩ ::
  ⟨main_c_95, val_main_c_95 (F := F)⟩ ::
  ⟨main_v252, val_main_v252 (F := F) x0 x3⟩ ::
  ⟨main_v251, val_main_v251 (F := F) x0 x3⟩ ::
  ⟨main_v250, val_main_v250 (F := F)⟩ ::
  ⟨main_c_94, val_main_c_94 (F := F)⟩ ::
  ⟨main_v249, val_main_v249 (F := F) x0 x3⟩ ::
  ⟨main_v248, val_main_v248 (F := F)⟩ ::
  ⟨main_c_93, val_main_c_93 (F := F)⟩ ::
  ⟨main_v247, val_main_v247 (F := F) x0 x3⟩ ::
  ⟨main_v246, val_main_v246 (F := F) x0 x3⟩ ::
  ⟨main_v245, val_main_v245 (F := F) x0 x3⟩ ::
  ⟨main_v244, val_main_v244 (F := F)⟩ ::
  ⟨main_cst_92, val_main_cst_92 (F := F)⟩ ::
  ⟨main_v243, val_main_v243 (F := F) x0 x2 x3⟩ ::
  ⟨main_v242, val_main_v242 (F := F) x0 x2 x3⟩ ::
  facts20 x0 x1 x2 x3

theorem up21 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts20 x0 x1 x2 x3) : p ∈ facts21 x0 x1 x2 x3 :=
  memUp% 24 hp

set_option maxRecDepth 8192 in
set_option maxHeartbeats 2000000 in
/-- Operations 522 … 545: each adds the fact of the buffer it writes. -/
theorem run21 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts20 x0 x1 x2 x3) 525) :
    Inv (after seg21 W) (facts21 x0 x1 x2 x3) 549 := by
  have r := res_binary (τ := τ) (a := main_v237) (b := main_v241) (y := main_v242) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v237 (val_main_v237 (F := F) x0 x2 x3) (memUp% 0 (memAt% 4 : (⟨main_v237, val_main_v237 (F := F) x0 x2 x3⟩ : Fact sig (Elt F)) ∈ facts20 x0 x1 x2 x3))) (h.get' main_v241 (val_main_v241 (F := F) x0 x3) (memUp% 0 (memAt% 0 : (⟨main_v241, val_main_v241 (F := F) x0 x3⟩ : Fact sig (Elt F)) ∈ facts20 x0 x1 x2 x3)))
  refine Inv.cons h _ _ main_v242 (val_main_v242 (F := F) x0 x2 x3) rfl (by decide) (r.trans ?_) (fun W h => ?_)
  · rfl
  have r := res_binary (τ := τ) (a := main_v203) (b := main_v242) (y := main_v243) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v203 (val_main_v203 (F := F) x0 x2 x3) (memUp% 1 (up20 x0 x1 x2 x3 (up19 x0 x1 x2 x3 (up18 x0 x1 x2 x3 (memAt% 18 : (⟨main_v203, val_main_v203 (F := F) x0 x2 x3⟩ : Fact sig (Elt F)) ∈ facts17 x0 x1 x2 x3)))))) (h.get' main_v242 (val_main_v242 (F := F) x0 x2 x3) (memAt% 0))
  refine Inv.cons h _ _ main_v243 (val_main_v243 (F := F) x0 x2 x3) rfl (by decide) (r.trans ?_) (fun W h => ?_)
  · rfl
  have r := res_nullary (τ := τ) (W := W) (y := main_cst_92) (v := (constant S_ .f32 0x3F800000#32)) (hy := ⟨by decide, rfl⟩)
  refine Inv.cons h _ _ main_cst_92 (val_main_cst_92 (F := F)) rfl (by decide) (r.trans ?_) (fun W h => ?_)
  · rfl
  have r := res_unary (τ := τ) (x := main_cst_92) (y := main_v244) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_92 (val_main_cst_92 (F := F)) (memAt% 0))
  refine Inv.cons h _ _ main_v244 (val_main_v244 (F := F)) rfl (by decide) (r.trans ?_) (fun W h => ?_)
  · rfl
  have r := res_binary (τ := τ) (a := main_v244) (b := main_v33) (y := main_v245) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v244 (val_main_v244 (F := F)) (memAt% 0)) (h.get' main_v33 (val_main_v33 (F := F) x0 x3) (memUp% 4 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 15 : (⟨main_v33, val_main_v33 (F := F) x0 x3⟩ : Fact sig (Elt F)) ∈ facts1 x0 x1 x2 x3))))))))))))))))))))))
  refine Inv.cons h _ _ main_v245 (val_main_v245 (F := F) x0 x3) rfl (by decide) (r.trans ?_) (fun W h => ?_)
  · rfl
  have r := res_binary (τ := τ) (a := main_v32) (b := main_v245) (y := main_v246) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v32 (val_main_v32 (F := F) x0 x3) (memUp% 5 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3)))))))))))))))))))))) (h.get' main_v245 (val_main_v245 (F := F) x0 x3) (memAt% 0))
  refine Inv.cons h _ _ main_v246 (val_main_v246 (F := F) x0 x3) rfl (by decide) (r.trans ?_) (fun W h => ?_)
  · rfl
  have r := res_binary (τ := τ) (a := main_v246) (b := main_v34) (y := main_v247) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v246 (val_main_v246 (F := F) x0 x3) (memAt% 0)) (h.get' main_v34 (val_main_v34 (F := F) x0 x3) (memUp% 6 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3))))))))))))))))))))))
  refine Inv.cons h _ _ main_v247 (val_main_v247 (F := F) x0 x3) rfl (by decide) (r.trans ?_) (fun W h => ?_)
  · rfl
  have r := res_nullary (τ := τ) (W := W) (y := main_c_93) (v := (constantI S_ 32 0#32)) (hy := ⟨by decide, rfl⟩)
  refine Inv.cons h _ _ main_c_93 (val_main_c_93 (F := F)) rfl (by decide) (r.trans ?_) (fun W h => ?_)
  · rfl
  have r := res_unary (τ := τ) (x := main_c_93) (y := main_v248) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_93 (val_main_c_93 (F := F)) (memAt% 0))
  refine Inv.cons h _ _ main_v248 (val_main_v248 (F := F)) rfl (by decide) (r.trans ?_) (fun W h => ?_)
  · rfl
  have r := res_binary (τ := τ) (a := main_v39) (b := main_v248) (y := main_v249) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 9 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3)))))))))))))))))))))) (h.get' main_v248 (val_main_v248 (F := F)) (memAt% 0))
  refine Inv.cons h _ _ main_v249 (val_main_v249 (F := F) x0 x3) rfl (by decide) (r.trans ?_) (fun W h => ?_)
  · rfl
  have r := res_nullary (τ := τ) (W := W) (y := main_c_94) (v := (constantI S_ 32 16#32)) (hy := ⟨by decide, rfl⟩)
  refine Inv.cons h _ _ main_c_94 (val_main_c_94 (F := F)) rfl (by decide) (r.trans ?_) (fun W h => ?_)
  · rfl
  have r := res_unary (τ := τ) (x := main_c_94) (y := main_v250) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_94 (val_main_c_94 (F := F)) (memAt% 0))
  refine Inv.cons h _ _ main_v250 (val_main_v250 (F := F)) rfl (by decide) (r.trans ?_) (fun W h => ?_)
  · rfl
  have r := res_binary (τ := τ) (a := main_v39) (b := main_v250) (y := main_v251) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 12 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3)))))))))))))))))))))) (h.get' main_v250 (val_main_v250 (F := F)) (memAt% 0))
  refine Inv.cons h _ _ main_v251 (val_main_v251 (F := F) x0 x3) rfl (by decide) (r.trans ?_) (fun W h => ?_)
  · rfl
  have r := res_binary (τ := τ) (a := main_v249) (b := main_v251) (y := main_v252) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v249 (val_main_v249 (F := F) x0 x3) (memAt% 3)) (h.get' main_v251 (val_main_v251 (F := F) x0 x3) (memAt% 0))
  refine Inv.cons h _ _ main_v252 (val_main_v252 (F := F) x0 x3) rfl (by decide) (r.trans ?_) (fun W h => ?_)
  · rfl
  have r := res_nullary (τ := τ) (W := W) (y := main_c_95) (v := (constantI S_ 32 0#32)) (hy := ⟨by decide, rfl⟩)
  refine Inv.cons h _ _ main_c_95 (val_main_c_95 (F := F)) rfl (by decide) (r.trans ?_) (fun W h => ?_)
  · rfl
  have r := res_unary (τ := τ) (x := main_c_95) (y := main_v253) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_95 (val_main_c_95 (F := F)) (memAt% 0))
  refine Inv.cons h _ _ main_v253 (val_main_v253 (F := F)) rfl (by decide) (r.trans ?_) (fun W h => ?_)
  · rfl
  have r := res_binary (τ := τ) (a := main_v36) (b := main_v253) (y := main_v254) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 16 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3)))))))))))))))))))))) (h.get' main_v253 (val_main_v253 (F := F)) (memAt% 0))
  refine Inv.cons h _ _ main_v254 (val_main_v254 (F := F) x0 x3) rfl (by decide) (r.trans ?_) (fun W h => ?_)
  · rfl
  have r := res_binary (τ := τ) (a := main_v252) (b := main_v254) (y := main_v255) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v252 (val_main_v252 (F := F) x0 x3) (memAt% 3)) (h.get' main_v254 (val_main_v254 (F := F) x0 x3) (memAt% 0))
  refine Inv.cons h _ _ main_v255 (val_main_v255 (F := F) x0 x3) rfl (by decide) (r.trans ?_) (fun W h => ?_)
  · rfl
  have r := res_nullary (τ := τ) (W := W) (y := main_c_96) (v := (constantI S_ 32 16#32)) (hy := ⟨by decide, rfl⟩)
  refine Inv.cons h _ _ main_c_96 (val_main_c_96 (F := F)) rfl (by decide) (r.trans ?_) (fun W h => ?_)
  · rfl
  have r := res_unary (τ := τ) (x := main_c_96) (y := main_v256) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_96 (val_main_c_96 (F := F)) (memAt% 0))
  refine Inv.cons h _ _ main_v256 (val_main_v256 (F := F)) rfl (by decide) (r.trans ?_) (fun W h => ?_)
  · rfl
  have r := res_binary (τ := τ) (a := main_v36) (b := main_v256) (y := main_v257) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v36 (val_main_v36 (F := F) x0 x3) (memUp% 20 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3)))))))))))))))))))))) (h.get' main_v256 (val_main_v256 (F := F)) (memAt% 0))
  refine Inv.cons h _ _ main_v257 (val_main_v257 (F := F) x0 x3) rfl (by decide) (r.trans ?_) (fun W h => ?_)
  · rfl
  have r := res_binary (τ := τ) (a := main_v255) (b := main_v257) (y := main_v258) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v255 (val_main_v255 (F := F) x0 x3) (memAt% 3)) (h.get' main_v257 (val_main_v257 (F := F) x0 x3) (memAt% 0))
  refine Inv.cons h _ _ main_v258 (val_main_v258 (F := F) x0 x3) rfl (by decide) (r.trans ?_) (fun W h => ?_)
  · rfl
  have r := res_nullary (τ := τ) (W := W) (y := main_c_97) (v := (constantI S_ 32 0#32)) (hy := ⟨by decide, rfl⟩)
  refine Inv.cons h _ _ main_c_97 (val_main_c_97 (F := F)) rfl (by decide) (r.trans ?_) (fun W h => ?_)
  · rfl
  have r := res_unary (τ := τ) (x := main_c_97) (y := main_v259) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_97 (val_main_c_97 (F := F)) (memAt% 0))
  refine Inv.cons h _ _ main_v259 (val_main_v259 (F := F)) rfl (by decide) (r.trans ?_) (fun W h => ?_)
  · rfl
  exact h

end Cert.ReferenceIdeal.Line

end
-- ==== Proof.RefLineC.lean ====
/-
  The reference's straight line read stage by stage, operations 546 … 792: after each stretch every buffer
  written so far holds its stage value (the stage functions of the arguments), each operation's step by one unfolding
  of its stage's definition.
-/
import proofs.«120255_j59700045415095_2_alg».proof.Proof.RefLineB

noncomputable section

namespace Cert.ReferenceIdeal.Line

open Cert.ReferenceIdeal Cert.ReferenceIdeal.Gen Cert.ReferenceIdeal.Read Cert.HostLine Idealize.ShloMosaic Idealize.ShloMosaic.TcCoe Idealize.SL.Sem Idealize.ShloMosaic.StableHlo

variable {F : FTy → Type} [FloatOps F]

/-- Operations 546 … 570 of the line. -/
abbrev seg22 : List (HloOp τ sig (Elt F)) :=
  [ binary main_v43 main_v259 main_v260 (cmpi .sge : (⟨S4x40000, .i32⟩ : BufTy).Contents (Elt F) → (⟨S4x40000, .i32⟩ : BufTy).Contents (Elt F) → (⟨S4x40000, .i1⟩ : BufTy).Contents (Elt F)),
    binary main_v258 main_v260 main_v261 (andi : (⟨S4x40000, .i1⟩ : BufTy).Contents (Elt F) → (⟨S4x40000, .i1⟩ : BufTy).Contents (Elt F) → (⟨S4x40000, .i1⟩ : BufTy).Contents (Elt F)),
    nullary main_c_98 (constantI S_ 32 16#32),
    unary main_c_98 main_v262 (broadcastInDim S4x40000 ![] bcast_S_S4x40000 : (⟨S_, .i32⟩ : BufTy).Contents (Elt F) → (⟨S4x40000, .i32⟩ : BufTy).Contents (Elt F)),
    binary main_v43 main_v262 main_v263 (cmpi .slt : (⟨S4x40000, .i32⟩ : BufTy).Contents (Elt F) → (⟨S4x40000, .i32⟩ : BufTy).Contents (Elt F) → (⟨S4x40000, .i1⟩ : BufTy).Contents (Elt F)),
    binary main_v261 main_v263 main_v264 (andi : (⟨S4x40000, .i1⟩ : BufTy).Contents (Elt F) → (⟨S4x40000, .i1⟩ : BufTy).Contents (Elt F) → (⟨S4x40000, .i1⟩ : BufTy).Contents (Elt F)),
    nullary main_c_99 (constantI S_ 32 0#32),
    nullary main_c_100 (constantI S_ 32 15#32),
    TRef.unary (TRef.of (T := ⟨S_, .i32⟩) main_c_99) (TRef.of (T := ⟨S_, .i32⟩) main_call20_v0) id,
    TRef.unary (TRef.of (T := ⟨S_, .i32⟩) main_call20_v0) (TRef.of (T := ⟨S4x40000, .i32⟩) main_call20_v1) (broadcastInDim S4x40000 ![] bcast_S_S4x40000),
    TRef.binary (TRef.of (T := ⟨S4x40000, .i32⟩) main_call20_v1) (TRef.of (T := ⟨S4x40000, .i32⟩) main_v43) (TRef.of (T := ⟨S4x40000, .i32⟩) main_call20_v2) maxsi,
    TRef.unary (TRef.of (T := ⟨S_, .i32⟩) main_c_100) (TRef.of (T := ⟨S_, .i32⟩) main_call20_v3) id,
    TRef.unary (TRef.of (T := ⟨S_, .i32⟩) main_call20_v3) (TRef.of (T := ⟨S4x40000, .i32⟩) main_call20_v4) (broadcastInDim S4x40000 ![] bcast_S_S4x40000),
    TRef.binary (TRef.of (T := ⟨S4x40000, .i32⟩) main_call20_v4) (TRef.of (T := ⟨S4x40000, .i32⟩) main_call20_v2) (TRef.of (T := ⟨S4x40000, .i32⟩) main_v265) minsi,
    nullary main_c_101 (constantI S_ 32 16#32),
    unary main_c_101 main_v266 (broadcastInDim S4x40000 ![] bcast_S_S4x40000 : (⟨S_, .i32⟩ : BufTy).Contents (Elt F) → (⟨S4x40000, .i32⟩ : BufTy).Contents (Elt F)),
    binary main_v265 main_v266 main_v267 (muli : (⟨S4x40000, .i32⟩ : BufTy).Contents (Elt F) → (⟨S4x40000, .i32⟩ : BufTy).Contents (Elt F) → (⟨S4x40000, .i32⟩ : BufTy).Contents (Elt F)),
    nullary main_c_102 (constantI S_ 32 0#32),
    nullary main_c_103 (constantI S_ 32 15#32),
    TRef.unary (TRef.of (T := ⟨S_, .i32⟩) main_c_102) (TRef.of (T := ⟨S_, .i32⟩) main_call21_v0) id,
    TRef.unary (TRef.of (T := ⟨S_, .i32⟩) main_call21_v0) (TRef.of (T := ⟨S4x40000, .i32⟩) main_call21_v1) (broadcastInDim S4x40000 ![] bcast_S_S4x40000),
    TRef.binary (TRef.of (T := ⟨S4x40000, .i32⟩) main_call21_v1) (TRef.of (T := ⟨S4x40000, .i32⟩) main_v36) (TRef.of (T := ⟨S4x40000, .i32⟩) main_call21_v2) maxsi,
    TRef.unary (TRef.of (T := ⟨S_, .i32⟩) main_c_103) (TRef.of (T := ⟨S_, .i32⟩) main_call21_v3) id,
    TRef.unary (TRef.of (T := ⟨S_, .i32⟩) main_call21_v3) (TRef.of (T := ⟨S4x40000, .i32⟩) main_call21_v4) (broadcastInDim S4x40000 ![] bcast_S_S4x40000),
    TRef.binary (TRef.of (T := ⟨S4x40000, .i32⟩) main_call21_v4) (TRef.of (T := ⟨S4x40000, .i32⟩) main_call21_v2) (TRef.of (T := ⟨S4x40000, .i32⟩) main_v268) minsi ]

/-- The facts after operation 570: each buffer written so far at its stage value. -/
def facts22 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v268, val_main_v268 (F := F) x0 x3⟩ ::
  ⟨main_call21_v4, val_main_call21_v4 (F := F)⟩ ::
  ⟨main_call21_v3, val_main_call21_v3 (F := F)⟩ ::
  ⟨main_call21_v2, val_main_call21_v2 (F := F) x0 x3⟩ ::
  ⟨main_call21_v1, val_main_call21_v1 (F := F)⟩ ::
  ⟨main_call21_v0, val_main_call21_v0 (F := F)⟩ ::
  ⟨main_c_103, val_main_c_103 (F := F)⟩ ::
  ⟨main_c_102, val_main_c_102 (F := F)⟩ ::
  ⟨main_v267, val_main_v267 (F := F) x0 x3⟩ ::
  ⟨main_v266, val_main_v266 (F := F)⟩ ::
  ⟨main_c_101, val_main_c_101 (F := F)⟩ ::
  ⟨main_v265, val_main_v265 (F := F) x0 x3⟩ ::
  ⟨main_call20_v4, val_main_call20_v4 (F := F)⟩ ::
  ⟨main_call20_v3, val_main_call20_v3 (F := F)⟩ ::
  ⟨main_call20_v2, val_main_call20_v2 (F := F) x0 x3⟩ ::
  ⟨main_call20_v1, val_main_call20_v1 (F := F)⟩ ::
  ⟨main_call20_v0, val_main_call20_v0 (F := F)⟩ ::
  ⟨main_c_100, val_main_c_100 (F := F)⟩ ::
  ⟨main_c_99, val_main_c_99 (F := F)⟩ ::
  ⟨main_v264, val_main_v264 (F := F) x0 x3⟩ ::
  ⟨main_v263, val_main_v263 (F := F) x0 x3⟩ ::
  ⟨main_v262, val_main_v262 (F := F)⟩ ::
  ⟨main_c_98, val_main_c_98 (F := F)⟩ ::
  ⟨main_v261, val_main_v261 (F := F) x0 x3⟩ ::
  ⟨main_v260, val_main_v260 (F := F) x0 x3⟩ ::
  facts21 x0 x1 x2 x3

theorem up22 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts21 x0 x1 x2 x3) : p ∈ facts22 x0 x1 x2 x3 :=
  memUp% 25 hp

set_option maxRecDepth 8192 in
set_option maxHeartbeats 2000000 in
/-- Operations 546 … 570: each adds the fact of the buffer it writes. -/
theorem run22 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts21 x0 x1 x2 x3) 549) :
    Inv (after seg22 W) (facts22 x0 x1 x2 x3) 574 := by
  have r := res_binary (τ := τ) (a := main_v43) (b := main_v259) (y := main_v260) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 0 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3))))))))))))))))))))))) (h.get' main_v259 (val_main_v259 (F := F)) (memUp% 0 (memAt% 0 : (⟨main_v259, val_main_v259 (F := F)⟩ : Fact sig (Elt F)) ∈ facts21 x0 x1 x2 x3)))
  refine Inv.cons h _ _ main_v260 (val_main_v260 (F := F) x0 x3) rfl (by decide) (r.trans ?_) (fun W h => ?_)
  · rfl
  have r := res_binary (τ := τ) (a := main_v258) (b := main_v260) (y := main_v261) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v258 (val_main_v258 (F := F) x0 x3) (memUp% 1 (memAt% 2 : (⟨main_v258, val_main_v258 (F := F) x0 x3⟩ : Fact sig (Elt F)) ∈ facts21 x0 x1 x2 x3))) (h.get' main_v260 (val_main_v260 (F := F) x0 x3) (memAt% 0))
  refine Inv.cons h _ _ main_v261 (val_main_v261 (F := F) x0 x3) rfl (by decide) (r.trans ?_) (fun W h => ?_)
  · rfl
  have r := res_nullary (τ := τ) (W := W) (y := main_c_98) (v := (constantI S_ 32 16#32)) (hy := ⟨by decide, rfl⟩)
  refine Inv.cons h _ _ main_c_98 (val_main_c_98 (F := F)) rfl (by decide) (r.trans ?_) (fun W h => ?_)
  · rfl
  have r := res_unary (τ := τ) (x := main_c_98) (y := main_v262) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_98 (val_main_c_98 (F := F)) (memAt% 0))
  refine Inv.cons h _ _ main_v262 (val_main_v262 (F := F)) rfl (by decide) (r.trans ?_) (fun W h => ?_)
  · rfl
  have r := res_binary (τ := τ) (a := main_v43) (b := main_v262) (y := main_v263) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 4 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3))))))))))))))))))))))) (h.get' main_v262 (val_main_v262 (F := F)) (memAt% 0))
  refine Inv.cons h _ _ main_v263 (val_main_v263 (F := F) x0 x3) rfl (by decide) (r.trans ?_) (fun W h => ?_)
  · rfl
  have r := res_binary (τ := τ) (a := main_v261) (b := main_v263) (y := main_v264) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v261 (val_main_v261 (F := F) x0 x3) (memAt% 3)) (h.get' main_v263 (val_main_v263 (F := F) x0 x3) (memAt% 0))
  refine Inv.cons h _ _ main_v264 (val_main_v264 (F := F) x0 x3) rfl (by decide) (r.trans ?_) (fun W h => ?_)
  · rfl
  have r := res_nullary (τ := τ) (W := W) (y := main_c_99) (v := (constantI S_ 32 0#32)) (hy := ⟨by decide, rfl⟩)
  refine Inv.cons h _ _ main_c_99 (val_main_c_99 (F := F)) rfl (by decide) (r.trans ?_) (fun W h => ?_)
  · rfl
  have r := res_nullary (τ := τ) (W := W) (y := main_c_100) (v := (constantI S_ 32 15#32)) (hy := ⟨by decide, rfl⟩)
  refine Inv.cons h _ _ main_c_100 (val_main_c_100 (F := F)) rfl (by decide) (r.trans ?_) (fun W h => ?_)
  · rfl
  have r := res_tunary (τ := τ) (TRef.of (T := ⟨S_, .i32⟩) main_c_99) (TRef.of (T := ⟨S_, .i32⟩) main_call20_v0) id (h.tget (TRef.of (T := ⟨S_, .i32⟩) main_c_99) (val_main_c_99 (F := F)) (val_main_c_99 (F := F)) HEq.rfl (memAt% 1))
  refine Inv.cons h _ _ main_call20_v0 (val_main_call20_v0 (F := F)) rfl (by decide) (r.trans (toBuf_of_heq (TRef.of (T := ⟨S_, .i32⟩) main_call20_v0) (w := val_main_call20_v0 (F := F)) ?_)) (fun W h => ?_)
  · exact HEq.rfl
  have r := res_tunary (τ := τ) (TRef.of (T := ⟨S_, .i32⟩) main_call20_v0) (TRef.of (T := ⟨S4x40000, .i32⟩) main_call20_v1) (broadcastInDim S4x40000 ![] bcast_S_S4x40000) (h.tget (TRef.of (T := ⟨S_, .i32⟩) main_call20_v0) (val_main_call20_v0 (F := F)) (val_main_call20_v0 (F := F)) HEq.rfl (memAt% 0))
  refine Inv.cons h _ _ main_call20_v1 (val_main_call20_v1 (F := F)) rfl (by decide) (r.trans (toBuf_of_heq (TRef.of (T := ⟨S4x40000, .i32⟩) main_call20_v1) (w := val_main_call20_v1 (F := F)) ?_)) (fun W h => ?_)
  · exact HEq.rfl
  have r := res_tbinary (τ := τ) (TRef.of (T := ⟨S4x40000, .i32⟩) main_call20_v1) (TRef.of (T := ⟨S4x40000, .i32⟩) main_v43) (TRef.of (T := ⟨S4x40000, .i32⟩) main_call20_v2) maxsi (h.tget (TRef.of (T := ⟨S4x40000, .i32⟩) main_call20_v1) (val_main_call20_v1 (F := F)) (val_main_call20_v1 (F := F)) HEq.rfl (memAt% 0)) (h.tget (TRef.of (T := ⟨S4x40000, .i32⟩) main_v43) (val_main_v43 (F := F) x0 x3) (val_main_v43 (F := F) x0 x3) HEq.rfl (memUp% 10 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3)))))))))))))))))))))))
  refine Inv.cons h _ _ main_call20_v2 (val_main_call20_v2 (F := F) x0 x3) rfl (by decide) (r.trans (toBuf_of_heq (TRef.of (T := ⟨S4x40000, .i32⟩) main_call20_v2) (w := val_main_call20_v2 (F := F) x0 x3) ?_)) (fun W h => ?_)
  · exact HEq.rfl
  have r := res_tunary (τ := τ) (TRef.of (T := ⟨S_, .i32⟩) main_c_100) (TRef.of (T := ⟨S_, .i32⟩) main_call20_v3) id (h.tget (TRef.of (T := ⟨S_, .i32⟩) main_c_100) (val_main_c_100 (F := F)) (val_main_c_100 (F := F)) HEq.rfl (memAt% 3))
  refine Inv.cons h _ _ main_call20_v3 (val_main_call20_v3 (F := F)) rfl (by decide) (r.trans (toBuf_of_heq (TRef.of (T := ⟨S_, .i32⟩) main_call20_v3) (w := val_main_call20_v3 (F := F)) ?_)) (fun W h => ?_)
  · exact HEq.rfl
  have r := res_tunary (τ := τ) (TRef.of (T := ⟨S_, .i32⟩) main_call20_v3) (TRef.of (T := ⟨S4x40000, .i32⟩) main_call20_v4) (broadcastInDim S4x40000 ![] bcast_S_S4x40000) (h.tget (TRef.of (T := ⟨S_, .i32⟩) main_call20_v3) (val_main_call20_v3 (F := F)) (val_main_call20_v3 (F := F)) HEq.rfl (memAt% 0))
  refine Inv.cons h _ _ main_call20_v4 (val_main_call20_v4 (F := F)) rfl (by decide) (r.trans (toBuf_of_heq (TRef.of (T := ⟨S4x40000, .i32⟩) main_call20_v4) (w := val_main_call20_v4 (F := F)) ?_)) (fun W h => ?_)
  · exact HEq.rfl
  have r := res_tbinary (τ := τ) (TRef.of (T := ⟨S4x40000, .i32⟩) main_call20_v4) (TRef.of (T := ⟨S4x40000, .i32⟩) main_call20_v2) (TRef.of (T := ⟨S4x40000, .i32⟩) main_v265) minsi (h.tget (TRef.of (T := ⟨S4x40000, .i32⟩) main_call20_v4) (val_main_call20_v4 (F := F)) (val_main_call20_v4 (F := F)) HEq.rfl (memAt% 0)) (h.tget (TRef.of (T := ⟨S4x40000, .i32⟩) main_call20_v2) (val_main_call20_v2 (F := F) x0 x3) (val_main_call20_v2 (F := F) x0 x3) HEq.rfl (memAt% 2))
  refine Inv.cons h _ _ main_v265 (val_main_v265 (F := F) x0 x3) rfl (by decide) (r.trans (toBuf_of_heq (TRef.of (T := ⟨S4x40000, .i32⟩) main_v265) (w := val_main_v265 (F := F) x0 x3) ?_)) (fun W h => ?_)
  · exact HEq.rfl
  have r := res_nullary (τ := τ) (W := W) (y := main_c_101) (v := (constantI S_ 32 16#32)) (hy := ⟨by decide, rfl⟩)
  refine Inv.cons h _ _ main_c_101 (val_main_c_101 (F := F)) rfl (by decide) (r.trans ?_) (fun W h => ?_)
  · rfl
  have r := res_unary (τ := τ) (x := main_c_101) (y := main_v266) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_101 (val_main_c_101 (F := F)) (memAt% 0))
  refine Inv.cons h _ _ main_v266 (val_main_v266 (F := F)) rfl (by decide) (r.trans ?_) (fun W h => ?_)
  · rfl
  have r := res_binary (τ := τ) (a := main_v265) (b := main_v266) (y := main_v267) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v265 (val_main_v265 (F := F) x0 x3) (memAt% 2)) (h.get' main_v266 (val_main_v266 (F := F)) (memAt% 0))
  refine Inv.cons h _ _ main_v267 (val_main_v267 (F := F) x0 x3) rfl (by decide) (r.trans ?_) (fun W h => ?_)
  · rfl
  have r := res_nullary (τ := τ) (W := W) (y := main_c_102) (v := (constantI S_ 32 0#32)) (hy := ⟨by decide, rfl⟩)
  refine Inv.cons h _ _ main_c_102 (val_main_c_102 (F := F)) rfl (by decide) (r.trans ?_) (fun W h => ?_)
  · rfl
  have r := res_nullary (τ := τ) (W := W) (y := main_c_103) (v := (constantI S_ 32 15#32)) (hy := ⟨by decide, rfl⟩)
  refine Inv.cons h _ _ main_c_103 (val_main_c_103 (F := F)) rfl (by decide) (r.trans ?_) (fun W h => ?_)
  · rfl
  have r := res_tunary (τ := τ) (TRef.of (T := ⟨S_, .i32⟩) main_c_102) (TRef.of (T := ⟨S_, .i32⟩) main_call21_v0) id (h.tget (TRef.of (T := ⟨S_, .i32⟩) main_c_102) (val_main_c_102 (F := F)) (val_main_c_102 (F := F)) HEq.rfl (memAt% 1))
  refine Inv.cons h _ _ main_call21_v0 (val_main_call21_v0 (F := F)) rfl (by decide) (r.trans (toBuf_of_heq (TRef.of (T := ⟨S_, .i32⟩) main_call21_v0) (w := val_main_call21_v0 (F := F)) ?_)) (fun W h => ?_)
  · exact HEq.rfl
  have r := res_tunary (τ := τ) (TRef.of (T := ⟨S_, .i32⟩) main_call21_v0) (TRef.of (T := ⟨S4x40000, .i32⟩) main_call21_v1) (broadcastInDim S4x40000 ![] bcast_S_S4x40000) (h.tget (TRef.of (T := ⟨S_, .i32⟩) main_call21_v0) (val_main_call21_v0 (F := F)) (val_main_call21_v0 (F := F)) HEq.rfl (memAt% 0))
  refine Inv.cons h _ _ main_call21_v1 (val_main_call21_v1 (F := F)) rfl (by decide) (r.trans (toBuf_of_heq (TRef.of (T := ⟨S4x40000, .i32⟩) main_call21_v1) (w := val_main_call21_v1 (F := F)) ?_)) (fun W h => ?_)
  · exact HEq.rfl
  have r := res_tbinary (τ := τ) (TRef.of (T := ⟨S4x40000, .i32⟩) main_call21_v1) (TRef.of (T := ⟨S4x40000, .i32⟩) main_v36) (TRef.of (T := ⟨S4x40000, .i32⟩) main_call21_v2) maxsi (h.tget (TRef.of (T := ⟨S4x40000, .i32⟩) main_call21_v1) (val_main_call21_v1 (F := F)) (val_main_call21_v1 (F := F)) HEq.rfl (memAt% 0)) (h.tget (TRef.of (T := ⟨S4x40000, .i32⟩) main_v36) (val_main_v36 (F := F) x0 x3) (val_main_v36 (F := F) x0 x3) HEq.rfl (memUp% 21 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 12 : (⟨main_v36, val_main_v36 (F := F) x0 x3⟩ : Fact sig (Elt F)) ∈ facts1 x0 x1 x2 x3)))))))))))))))))))))))
  refine Inv.cons h _ _ main_call21_v2 (val_main_call21_v2 (F := F) x0 x3) rfl (by decide) (r.trans (toBuf_of_heq (TRef.of (T := ⟨S4x40000, .i32⟩) main_call21_v2) (w := val_main_call21_v2 (F := F) x0 x3) ?_)) (fun W h => ?_)
  · exact HEq.rfl
  have r := res_tunary (τ := τ) (TRef.of (T := ⟨S_, .i32⟩) main_c_103) (TRef.of (T := ⟨S_, .i32⟩) main_call21_v3) id (h.tget (TRef.of (T := ⟨S_, .i32⟩) main_c_103) (val_main_c_103 (F := F)) (val_main_c_103 (F := F)) HEq.rfl (memAt% 3))
  refine Inv.cons h _ _ main_call21_v3 (val_main_call21_v3 (F := F)) rfl (by decide) (r.trans (toBuf_of_heq (TRef.of (T := ⟨S_, .i32⟩) main_call21_v3) (w := val_main_call21_v3 (F := F)) ?_)) (fun W h => ?_)
  · exact HEq.rfl
  have r := res_tunary (τ := τ) (TRef.of (T := ⟨S_, .i32⟩) main_call21_v3) (TRef.of (T := ⟨S4x40000, .i32⟩) main_call21_v4) (broadcastInDim S4x40000 ![] bcast_S_S4x40000) (h.tget (TRef.of (T := ⟨S_, .i32⟩) main_call21_v3) (val_main_call21_v3 (F := F)) (val_main_call21_v3 (F := F)) HEq.rfl (memAt% 0))
  refine Inv.cons h _ _ main_call21_v4 (val_main_call21_v4 (F := F)) rfl (by decide) (r.trans (toBuf_of_heq (TRef.of (T := ⟨S4x40000, .i32⟩) main_call21_v4) (w := val_main_call21_v4 (F := F)) ?_)) (fun W h => ?_)
  · exact HEq.rfl
  have r := res_tbinary (τ := τ) (TRef.of (T := ⟨S4x40000, .i32⟩) main_call21_v4) (TRef.of (T := ⟨S4x40000, .i32⟩) main_call21_v2) (TRef.of (T := ⟨S4x40000, .i32⟩) main_v268) minsi (h.tget (TRef.of (T := ⟨S4x40000, .i32⟩) main_call21_v4) (val_main_call21_v4 (F := F)) (val_main_call21_v4 (F := F)) HEq.rfl (memAt% 0)) (h.tget (TRef.of (T := ⟨S4x40000, .i32⟩) main_call21_v2) (val_main_call21_v2 (F := F) x0 x3) (val_main_call21_v2 (F := F) x0 x3) HEq.rfl (memAt% 2))
  refine Inv.cons h _ _ main_v268 (val_main_v268 (F := F) x0 x3) rfl (by decide) (r.trans (toBuf_of_heq (TRef.of (T := ⟨S4x40000, .i32⟩) main_v268) (w := val_main_v268 (F := F) x0 x3) ?_)) (fun W h => ?_)
  · exact HEq.rfl
  exact h

/-- Operations 571 … 594 of the line. -/
abbrev seg23 : List (HloOp τ sig (Elt F)) :=
  [ binary main_v267 main_v268 main_v269 (addi : (⟨S4x40000, .i32⟩ : BufTy).Contents (Elt F) → (⟨S4x40000, .i32⟩ : BufTy).Contents (Elt F) → (⟨S4x40000, .i32⟩ : BufTy).Contents (Elt F)),
    nullary main_c_104 (constantI S_ 32 16#32),
    unary main_c_104 main_v270 (broadcastInDim S4x40000 ![] bcast_S_S4x40000 : (⟨S_, .i32⟩ : BufTy).Contents (Elt F) → (⟨S4x40000, .i32⟩ : BufTy).Contents (Elt F)),
    binary main_v269 main_v270 main_v271 (muli : (⟨S4x40000, .i32⟩ : BufTy).Contents (Elt F) → (⟨S4x40000, .i32⟩ : BufTy).Contents (Elt F) → (⟨S4x40000, .i32⟩ : BufTy).Contents (Elt F)),
    nullary main_c_105 (constantI S_ 32 0#32),
    nullary main_c_106 (constantI S_ 32 15#32),
    TRef.unary (TRef.of (T := ⟨S_, .i32⟩) main_c_105) (TRef.of (T := ⟨S_, .i32⟩) main_call22_v0) id,
    TRef.unary (TRef.of (T := ⟨S_, .i32⟩) main_call22_v0) (TRef.of (T := ⟨S4x40000, .i32⟩) main_call22_v1) (broadcastInDim S4x40000 ![] bcast_S_S4x40000),
    TRef.binary (TRef.of (T := ⟨S4x40000, .i32⟩) main_call22_v1) (TRef.of (T := ⟨S4x40000, .i32⟩) main_v39) (TRef.of (T := ⟨S4x40000, .i32⟩) main_call22_v2) maxsi,
    TRef.unary (TRef.of (T := ⟨S_, .i32⟩) main_c_106) (TRef.of (T := ⟨S_, .i32⟩) main_call22_v3) id,
    TRef.unary (TRef.of (T := ⟨S_, .i32⟩) main_call22_v3) (TRef.of (T := ⟨S4x40000, .i32⟩) main_call22_v4) (broadcastInDim S4x40000 ![] bcast_S_S4x40000),
    TRef.binary (TRef.of (T := ⟨S4x40000, .i32⟩) main_call22_v4) (TRef.of (T := ⟨S4x40000, .i32⟩) main_call22_v2) (TRef.of (T := ⟨S4x40000, .i32⟩) main_v272) minsi,
    binary main_v271 main_v272 main_v273 (addi : (⟨S4x40000, .i32⟩ : BufTy).Contents (Elt F) → (⟨S4x40000, .i32⟩ : BufTy).Contents (Elt F) → (⟨S4x40000, .i32⟩ : BufTy).Contents (Elt F)),
    unary main_v273 main_v274 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call23_c) (constantI S_ 32 0#32),
    TRef.unary (TRef.of (T := ⟨S_, .i32⟩) main_call23_c) (TRef.of (T := ⟨S4x1x40000, .i32⟩) main_call23_v0) (broadcastInDim S4x1x40000 ![] bcast_S_S4x1x40000),
    TRef.binary (TRef.of (T := ⟨S4x1x40000, .i32⟩) main_v274) (TRef.of (T := ⟨S4x1x40000, .i32⟩) main_call23_v0) (TRef.of (T := ⟨S4x1x40000, .i1⟩) main_call23_v1) (cmpi .slt),
    TRef.nullary (TRef.of (T := ⟨S_, .i32⟩) main_call23_c_0) (constantI S_ 32 4096#32),
    TRef.unary (TRef.of (T := ⟨S_, .i32⟩) main_call23_c_0) (TRef.of (T := ⟨S4x1x40000, .i32⟩) main_call23_v2) (broadcastInDim S4x1x40000 ![] bcast_S_S4x1x40000),
    TRef.binary (TRef.of (T := ⟨S4x1x40000, .i32⟩) main_v274) (TRef.of (T := ⟨S4x1x40000, .i32⟩) main_call23_v2) (TRef.of (T := ⟨S4x1x40000, .i32⟩) main_call23_v3) addi,
    TRef.ternary (TRef.of (T := ⟨S4x1x40000, .i1⟩) main_call23_v1) (TRef.of (T := ⟨S4x1x40000, .i32⟩) main_call23_v3) (TRef.of (T := ⟨S4x1x40000, .i32⟩) main_v274) (TRef.of (T := ⟨S4x1x40000, .i32⟩) main_call23_v4) select,
    TRef.reshape (TRef.of (T := ⟨S4x1x40000, .i32⟩) main_call23_v4) (TRef.of (T := ⟨S4x40000x1, .i32⟩) main_call23_v5) rfl shapeCasts_S4x1x40000_S4x40000x1,
    TRef.nullary (TRef.of (T := ⟨S1, .i32⟩) main_call23_c_1) (constantI S1 32 4095#32),
    TRef.nullary (TRef.of (T := ⟨S_, .i32⟩) main_call23_c_2) (constantI S_ 32 0#32) ]

/-- The facts after operation 594: each buffer written so far at its stage value. -/
def facts23 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call23_c_2, val_main_call23_c_2 (F := F)⟩ ::
  ⟨main_call23_c_1, val_main_call23_c_1 (F := F)⟩ ::
  ⟨main_call23_v5, val_main_call23_v5 (F := F) x0 x3⟩ ::
  ⟨main_call23_v4, val_main_call23_v4 (F := F) x0 x3⟩ ::
  ⟨main_call23_v3, val_main_call23_v3 (F := F) x0 x3⟩ ::
  ⟨main_call23_v2, val_main_call23_v2 (F := F)⟩ ::
  ⟨main_call23_c_0, val_main_call23_c_0 (F := F)⟩ ::
  ⟨main_call23_v1, val_main_call23_v1 (F := F) x0 x3⟩ ::
  ⟨main_call23_v0, val_main_call23_v0 (F := F)⟩ ::
  ⟨main_call23_c, val_main_call23_c (F := F)⟩ ::
  ⟨main_v274, val_main_v274 (F := F) x0 x3⟩ ::
  ⟨main_v273, val_main_v273 (F := F) x0 x3⟩ ::
  ⟨main_v272, val_main_v272 (F := F) x0 x3⟩ ::
  ⟨main_call22_v4, val_main_call22_v4 (F := F)⟩ ::
  ⟨main_call22_v3, val_main_call22_v3 (F := F)⟩ ::
  ⟨main_call22_v2, val_main_call22_v2 (F := F) x0 x3⟩ ::
  ⟨main_call22_v1, val_main_call22_v1 (F := F)⟩ ::
  ⟨main_call22_v0, val_main_call22_v0 (F := F)⟩ ::
  ⟨main_c_106, val_main_c_106 (F := F)⟩ ::
  ⟨main_c_105, val_main_c_105 (F := F)⟩ ::
  ⟨main_v271, val_main_v271 (F := F) x0 x3⟩ ::
  ⟨main_v270, val_main_v270 (F := F)⟩ ::
  ⟨main_c_104, val_main_c_104 (F := F)⟩ ::
  ⟨main_v269, val_main_v269 (F := F) x0 x3⟩ ::
  facts22 x0 x1 x2 x3

theorem up23 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts22 x0 x1 x2 x3) : p ∈ facts23 x0 x1 x2 x3 :=
  memUp% 24 hp

set_option maxRecDepth 8192 in
set_option maxHeartbeats 2000000 in
/-- Operations 571 … 594: each adds the fact of the buffer it writes. -/
theorem run23 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts22 x0 x1 x2 x3) 574) :
    Inv (after seg23 W) (facts23 x0 x1 x2 x3) 598 := by
  have r := res_binary (τ := τ) (a := main_v267) (b := main_v268) (y := main_v269) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v267 (val_main_v267 (F := F) x0 x3) (memUp% 0 (memAt% 8 : (⟨main_v267, val_main_v267 (F := F) x0 x3⟩ : Fact sig (Elt F)) ∈ facts22 x0 x1 x2 x3))) (h.get' main_v268 (val_main_v268 (F := F) x0 x3) (memUp% 0 (memAt% 0 : (⟨main_v268, val_main_v268 (F := F) x0 x3⟩ : Fact sig (Elt F)) ∈ facts22 x0 x1 x2 x3)))
  refine Inv.cons h _ _ main_v269 (val_main_v269 (F := F) x0 x3) rfl (by decide) (r.trans ?_) (fun W h => ?_)
  · rfl
  have r := res_nullary (τ := τ) (W := W) (y := main_c_104) (v := (constantI S_ 32 16#32)) (hy := ⟨by decide, rfl⟩)
  refine Inv.cons h _ _ main_c_104 (val_main_c_104 (F := F)) rfl (by decide) (r.trans ?_) (fun W h => ?_)
  · rfl
  have r := res_unary (τ := τ) (x := main_c_104) (y := main_v270) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_104 (val_main_c_104 (F := F)) (memAt% 0))
  refine Inv.cons h _ _ main_v270 (val_main_v270 (F := F)) rfl (by decide) (r.trans ?_) (fun W h => ?_)
  · rfl
  have r := res_binary (τ := τ) (a := main_v269) (b := main_v270) (y := main_v271) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v269 (val_main_v269 (F := F) x0 x3) (memAt% 2)) (h.get' main_v270 (val_main_v270 (F := F)) (memAt% 0))
  refine Inv.cons h _ _ main_v271 (val_main_v271 (F := F) x0 x3) rfl (by decide) (r.trans ?_) (fun W h => ?_)
  · rfl
  have r := res_nullary (τ := τ) (W := W) (y := main_c_105) (v := (constantI S_ 32 0#32)) (hy := ⟨by decide, rfl⟩)
  refine Inv.cons h _ _ main_c_105 (val_main_c_105 (F := F)) rfl (by decide) (r.trans ?_) (fun W h => ?_)
  · rfl
  have r := res_nullary (τ := τ) (W := W) (y := main_c_106) (v := (constantI S_ 32 15#32)) (hy := ⟨by decide, rfl⟩)
  refine Inv.cons h _ _ main_c_106 (val_main_c_106 (F := F)) rfl (by decide) (r.trans ?_) (fun W h => ?_)
  · rfl
  have r := res_tunary (τ := τ) (TRef.of (T := ⟨S_, .i32⟩) main_c_105) (TRef.of (T := ⟨S_, .i32⟩) main_call22_v0) id (h.tget (TRef.of (T := ⟨S_, .i32⟩) main_c_105) (val_main_c_105 (F := F)) (val_main_c_105 (F := F)) HEq.rfl (memAt% 1))
  refine Inv.cons h _ _ main_call22_v0 (val_main_call22_v0 (F := F)) rfl (by decide) (r.trans (toBuf_of_heq (TRef.of (T := ⟨S_, .i32⟩) main_call22_v0) (w := val_main_call22_v0 (F := F)) ?_)) (fun W h => ?_)
  · exact HEq.rfl
  have r := res_tunary (τ := τ) (TRef.of (T := ⟨S_, .i32⟩) main_call22_v0) (TRef.of (T := ⟨S4x40000, .i32⟩) main_call22_v1) (broadcastInDim S4x40000 ![] bcast_S_S4x40000) (h.tget (TRef.of (T := ⟨S_, .i32⟩) main_call22_v0) (val_main_call22_v0 (F := F)) (val_main_call22_v0 (F := F)) HEq.rfl (memAt% 0))
  refine Inv.cons h _ _ main_call22_v1 (val_main_call22_v1 (F := F)) rfl (by decide) (r.trans (toBuf_of_heq (TRef.of (T := ⟨S4x40000, .i32⟩) main_call22_v1) (w := val_main_call22_v1 (F := F)) ?_)) (fun W h => ?_)
  · exact HEq.rfl
  have r := res_tbinary (τ := τ) (TRef.of (T := ⟨S4x40000, .i32⟩) main_call22_v1) (TRef.of (T := ⟨S4x40000, .i32⟩) main_v39) (TRef.of (T := ⟨S4x40000, .i32⟩) main_call22_v2) maxsi (h.tget (TRef.of (T := ⟨S4x40000, .i32⟩) main_call22_v1) (val_main_call22_v1 (F := F)) (val_main_call22_v1 (F := F)) HEq.rfl (memAt% 0)) (h.tget (TRef.of (T := ⟨S4x40000, .i32⟩) main_v39) (val_main_v39 (F := F) x0 x3) (val_main_v39 (F := F) x0 x3) HEq.rfl (memUp% 8 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3))))))))))))))))))))))))
  refine Inv.cons h _ _ main_call22_v2 (val_main_call22_v2 (F := F) x0 x3) rfl (by decide) (r.trans (toBuf_of_heq (TRef.of (T := ⟨S4x40000, .i32⟩) main_call22_v2) (w := val_main_call22_v2 (F := F) x0 x3) ?_)) (fun W h => ?_)
  · exact HEq.rfl
  have r := res_tunary (τ := τ) (TRef.of (T := ⟨S_, .i32⟩) main_c_106) (TRef.of (T := ⟨S_, .i32⟩) main_call22_v3) id (h.tget (TRef.of (T := ⟨S_, .i32⟩) main_c_106) (val_main_c_106 (F := F)) (val_main_c_106 (F := F)) HEq.rfl (memAt% 3))
  refine Inv.cons h _ _ main_call22_v3 (val_main_call22_v3 (F := F)) rfl (by decide) (r.trans (toBuf_of_heq (TRef.of (T := ⟨S_, .i32⟩) main_call22_v3) (w := val_main_call22_v3 (F := F)) ?_)) (fun W h => ?_)
  · exact HEq.rfl
  have r := res_tunary (τ := τ) (TRef.of (T := ⟨S_, .i32⟩) main_call22_v3) (TRef.of (T := ⟨S4x40000, .i32⟩) main_call22_v4) (broadcastInDim S4x40000 ![] bcast_S_S4x40000) (h.tget (TRef.of (T := ⟨S_, .i32⟩) main_call22_v3) (val_main_call22_v3 (F := F)) (val_main_call22_v3 (F := F)) HEq.rfl (memAt% 0))
  refine Inv.cons h _ _ main_call22_v4 (val_main_call22_v4 (F := F)) rfl (by decide) (r.trans (toBuf_of_heq (TRef.of (T := ⟨S4x40000, .i32⟩) main_call22_v4) (w := val_main_call22_v4 (F := F)) ?_)) (fun W h => ?_)
  · exact HEq.rfl
  have r := res_tbinary (τ := τ) (TRef.of (T := ⟨S4x40000, .i32⟩) main_call22_v4) (TRef.of (T := ⟨S4x40000, .i32⟩) main_call22_v2) (TRef.of (T := ⟨S4x40000, .i32⟩) main_v272) minsi (h.tget (TRef.of (T := ⟨S4x40000, .i32⟩) main_call22_v4) (val_main_call22_v4 (F := F)) (val_main_call22_v4 (F := F)) HEq.rfl (memAt% 0)) (h.tget (TRef.of (T := ⟨S4x40000, .i32⟩) main_call22_v2) (val_main_call22_v2 (F := F) x0 x3) (val_main_call22_v2 (F := F) x0 x3) HEq.rfl (memAt% 2))
  refine Inv.cons h _ _ main_v272 (val_main_v272 (F := F) x0 x3) rfl (by decide) (r.trans (toBuf_of_heq (TRef.of (T := ⟨S4x40000, .i32⟩) main_v272) (w := val_main_v272 (F := F) x0 x3) ?_)) (fun W h => ?_)
  · exact HEq.rfl
  have r := res_binary (τ := τ) (a := main_v271) (b := main_v272) (y := main_v273) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v271 (val_main_v271 (F := F) x0 x3) (memAt% 8)) (h.get' main_v272 (val_main_v272 (F := F) x0 x3) (memAt% 0))
  refine Inv.cons h _ _ main_v273 (val_main_v273 (F := F) x0 x3) rfl (by decide) (r.trans ?_) (fun W h => ?_)
  · rfl
  have r := res_unary (τ := τ) (x := main_v273) (y := main_v274) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v273 (val_main_v273 (F := F) x0 x3) (memAt% 0))
  refine Inv.cons h _ _ main_v274 (val_main_v274 (F := F) x0 x3) rfl (by decide) (r.trans ?_) (fun W h => ?_)
  · rfl
  have r := res_tnullary (τ := τ) (W := W) (TRef.of (T := ⟨S_, .i32⟩) main_call23_c) (constantI S_ 32 0#32)
  refine Inv.cons h _ _ main_call23_c (val_main_call23_c (F := F)) rfl (by decide) (r.trans (toBuf_of_heq (TRef.of (T := ⟨S_, .i32⟩) main_call23_c) (w := val_main_call23_c (F := F)) ?_)) (fun W h => ?_)
  · exact HEq.rfl
  have r := res_tunary (τ := τ) (TRef.of (T := ⟨S_, .i32⟩) main_call23_c) (TRef.of (T := ⟨S4x1x40000, .i32⟩) main_call23_v0) (broadcastInDim S4x1x40000 ![] bcast_S_S4x1x40000) (h.tget (TRef.of (T := ⟨S_, .i32⟩) main_call23_c) (val_main_call23_c (F := F)) (val_main_call23_c (F := F)) HEq.rfl (memAt% 0))
  refine Inv.cons h _ _ main_call23_v0 (val_main_call23_v0 (F := F)) rfl (by decide) (r.trans (toBuf_of_heq (TRef.of (T := ⟨S4x1x40000, .i32⟩) main_call23_v0) (w := val_main_call23_v0 (F := F)) ?_)) (fun W h => ?_)
  · exact HEq.rfl
  have r := res_tbinary (τ := τ) (TRef.of (T := ⟨S4x1x40000, .i32⟩) main_v274) (TRef.of (T := ⟨S4x1x40000, .i32⟩) main_call23_v0) (TRef.of (T := ⟨S4x1x40000, .i1⟩) main_call23_v1) (cmpi .slt) (h.tget (TRef.of (T := ⟨S4x1x40000, .i32⟩) main_v274) (val_main_v274 (F := F) x0 x3) (val_main_v274 (F := F) x0 x3) HEq.rfl (memAt% 2)) (h.tget (TRef.of (T := ⟨S4x1x40000, .i32⟩) main_call23_v0) (val_main_call23_v0 (F := F)) (val_main_call23_v0 (F := F)) HEq.rfl (memAt% 0))
  refine Inv.cons h _ _ main_call23_v1 (val_main_call23_v1 (F := F) x0 x3) rfl (by decide) (r.trans (toBuf_of_heq (TRef.of (T := ⟨S4x1x40000, .i1⟩) main_call23_v1) (w := val_main_call23_v1 (F := F) x0 x3) ?_)) (fun W h => ?_)
  · exact HEq.rfl
  have r := res_tnullary (τ := τ) (W := W) (TRef.of (T := ⟨S_, .i32⟩) main_call23_c_0) (constantI S_ 32 4096#32)
  refine Inv.cons h _ _ main_call23_c_0 (val_main_call23_c_0 (F := F)) rfl (by decide) (r.trans (toBuf_of_heq (TRef.of (T := ⟨S_, .i32⟩) main_call23_c_0) (w := val_main_call23_c_0 (F := F)) ?_)) (fun W h => ?_)
  · exact HEq.rfl
  have r := res_tunary (τ := τ) (TRef.of (T := ⟨S_, .i32⟩) main_call23_c_0) (TRef.of (T := ⟨S4x1x40000, .i32⟩) main_call23_v2) (broadcastInDim S4x1x40000 ![] bcast_S_S4x1x40000) (h.tget (TRef.of (T := ⟨S_, .i32⟩) main_call23_c_0) (val_main_call23_c_0 (F := F)) (val_main_call23_c_0 (F := F)) HEq.rfl (memAt% 0))
  refine Inv.cons h _ _ main_call23_v2 (val_main_call23_v2 (F := F)) rfl (by decide) (r.trans (toBuf_of_heq (TRef.of (T := ⟨S4x1x40000, .i32⟩) main_call23_v2) (w := val_main_call23_v2 (F := F)) ?_)) (fun W h => ?_)
  · exact HEq.rfl
  have r := res_tbinary (τ := τ) (TRef.of (T := ⟨S4x1x40000, .i32⟩) main_v274) (TRef.of (T := ⟨S4x1x40000, .i32⟩) main_call23_v2) (TRef.of (T := ⟨S4x1x40000, .i32⟩) main_call23_v3) addi (h.tget (TRef.of (T := ⟨S4x1x40000, .i32⟩) main_v274) (val_main_v274 (F := F) x0 x3) (val_main_v274 (F := F) x0 x3) HEq.rfl (memAt% 5)) (h.tget (TRef.of (T := ⟨S4x1x40000, .i32⟩) main_call23_v2) (val_main_call23_v2 (F := F)) (val_main_call23_v2 (F := F)) HEq.rfl (memAt% 0))
  refine Inv.cons h _ _ main_call23_v3 (val_main_call23_v3 (F := F) x0 x3) rfl (by decide) (r.trans (toBuf_of_heq (TRef.of (T := ⟨S4x1x40000, .i32⟩) main_call23_v3) (w := val_main_call23_v3 (F := F) x0 x3) ?_)) (fun W h => ?_)
  · exact HEq.rfl
  have r := res_tternary (τ := τ) (TRef.of (T := ⟨S4x1x40000, .i1⟩) main_call23_v1) (TRef.of (T := ⟨S4x1x40000, .i32⟩) main_call23_v3) (TRef.of (T := ⟨S4x1x40000, .i32⟩) main_v274) (TRef.of (T := ⟨S4x1x40000, .i32⟩) main_call23_v4) select (h.tget (TRef.of (T := ⟨S4x1x40000, .i1⟩) main_call23_v1) (val_main_call23_v1 (F := F) x0 x3) (val_main_call23_v1 (F := F) x0 x3) HEq.rfl (memAt% 3)) (h.tget (TRef.of (T := ⟨S4x1x40000, .i32⟩) main_call23_v3) (val_main_call23_v3 (F := F) x0 x3) (val_main_call23_v3 (F := F) x0 x3) HEq.rfl (memAt% 0)) (h.tget (TRef.of (T := ⟨S4x1x40000, .i32⟩) main_v274) (val_main_v274 (F := F) x0 x3) (val_main_v274 (F := F) x0 x3) HEq.rfl (memAt% 6))
  refine Inv.cons h _ _ main_call23_v4 (val_main_call23_v4 (F := F) x0 x3) rfl (by decide) (r.trans (toBuf_of_heq (TRef.of (T := ⟨S4x1x40000, .i32⟩) main_call23_v4) (w := val_main_call23_v4 (F := F) x0 x3) ?_)) (fun W h => ?_)
  · exact HEq.rfl
  have r := res_treshape (τ := τ) (TRef.of (T := ⟨S4x1x40000, .i32⟩) main_call23_v4) (TRef.of (T := ⟨S4x40000x1, .i32⟩) main_call23_v5) rfl shapeCasts_S4x1x40000_S4x40000x1 (h.tget (TRef.of (T := ⟨S4x1x40000, .i32⟩) main_call23_v4) (val_main_call23_v4 (F := F) x0 x3) (val_main_call23_v4 (F := F) x0 x3) HEq.rfl (memAt% 0))
  refine Inv.cons h _ _ main_call23_v5 (val_main_call23_v5 (F := F) x0 x3) rfl (by decide) (r.trans (toBuf_of_heq (TRef.of (T := ⟨S4x40000x1, .i32⟩) main_call23_v5) (w := val_main_call23_v5 (F := F) x0 x3) ?_)) (fun W h => ?_)
  · exact HEq.rfl
  have r := res_tnullary (τ := τ) (W := W) (TRef.of (T := ⟨S1, .i32⟩) main_call23_c_1) (constantI S1 32 4095#32)
  refine Inv.cons h _ _ main_call23_c_1 (val_main_call23_c_1 (F := F)) rfl (by decide) (r.trans (toBuf_of_heq (TRef.of (T := ⟨S1, .i32⟩) main_call23_c_1) (w := val_main_call23_c_1 (F := F)) ?_)) (fun W h => ?_)
  · exact HEq.rfl
  have r := res_tnullary (τ := τ) (W := W) (TRef.of (T := ⟨S_, .i32⟩) main_call23_c_2) (constantI S_ 32 0#32)
  refine Inv.cons h _ _ main_call23_c_2 (val_main_call23_c_2 (F := F)) rfl (by decide) (r.trans (toBuf_of_heq (TRef.of (T := ⟨S_, .i32⟩) main_call23_c_2) (w := val_main_call23_c_2 (F := F)) ?_)) (fun W h => ?_)
  · exact HEq.rfl
  exact h

/-- Operations 595 … 618 of the line. -/
abbrev seg24 : List (HloOp τ sig (Elt F)) :=
  [ TRef.unary (TRef.of (T := ⟨S_, .i32⟩) main_call23_c_2) (TRef.of (T := ⟨S4x40000x1, .i32⟩) main_call23_v6) (broadcastInDim S4x40000x1 ![] bcast_S_S4x40000x1),
    TRef.binary (TRef.of (T := ⟨S4x40000x1, .i32⟩) main_call23_v5) (TRef.of (T := ⟨S4x40000x1, .i32⟩) main_call23_v6) (TRef.of (T := ⟨S4x40000x1, .i1⟩) main_call23_v7) (cmpi .sge),
    TRef.unary (TRef.of (T := ⟨S1, .i32⟩) main_call23_c_1) (TRef.of (T := ⟨S1x1x1, .i32⟩) main_call23_v8) (broadcastInDim S1x1x1 ![2] bcast_S1_S1x1x1_2),
    TRef.unary (TRef.of (T := ⟨S1x1x1, .i32⟩) main_call23_v8) (TRef.of (T := ⟨S4x40000x1, .i32⟩) main_call23_v9) (broadcastInDim S4x40000x1 ![0, 1, 2] bcast_S1x1x1_S4x40000x1_0_1_2),
    TRef.binary (TRef.of (T := ⟨S4x40000x1, .i32⟩) main_call23_v5) (TRef.of (T := ⟨S4x40000x1, .i32⟩) main_call23_v9) (TRef.of (T := ⟨S4x40000x1, .i1⟩) main_call23_v10) (cmpi .sle),
    TRef.binary (TRef.of (T := ⟨S4x40000x1, .i1⟩) main_call23_v7) (TRef.of (T := ⟨S4x40000x1, .i1⟩) main_call23_v10) (TRef.of (T := ⟨S4x40000x1, .i1⟩) main_call23_v11) andi,
    TRef.nullary (TRef.of (T := ⟨S_, .i1⟩) main_call23_c_3) (constantI S_ 1 1#1),
    TRef.binary (TRef.of (T := ⟨S4x40000x1, .i1⟩) main_call23_v11) (TRef.of (T := ⟨S_, .i1⟩) main_call23_c_3) (TRef.of (T := ⟨S4x40000, .i1⟩) main_call23_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call23_v5) (TRef.of (T := ⟨S4x128x40000, .f32⟩) main_call23_v13) (fun x i => Host.gather gather_S4x128x4096_S4x40000x1_S4x128x40000_1_2_0_0_2_2_11281 x i),
    TRef.unary (TRef.of (T := ⟨S4x40000, .i1⟩) main_call23_v12) (TRef.of (T := ⟨S4x128x40000, .i1⟩) main_call23_v14) (broadcastInDim S4x128x40000 ![0, 2] bcast_S4x40000_S4x128x40000_0_2),
    TRef.nullary (TRef.of (T := ⟨S_, .f32⟩) main_call23_cst) (constant S_ .f32 0x7FC00000#32),
    TRef.unary (TRef.of (T := ⟨S_, .f32⟩) main_call23_cst) (TRef.of (T := ⟨S4x128x40000, .f32⟩) main_call23_v15) (broadcastInDim S4x128x40000 ![] bcast_S_S4x128x40000),
    TRef.ternary (TRef.of (T := ⟨S4x128x40000, .i1⟩) main_call23_v14) (TRef.of (T := ⟨S4x128x40000, .f32⟩) main_call23_v13) (TRef.of (T := ⟨S4x128x40000, .f32⟩) main_call23_v15) (TRef.of (T := ⟨S4x128x40000, .f32⟩) main_v275) select,
    unary main_v264 main_v276 (uitofp .f32 : (⟨S4x40000, .i1⟩ : BufTy).Contents (Elt F) → (⟨S4x40000, .f32⟩ : BufTy).Contents (Elt F)),
    binary main_v247 main_v276 main_v277 (mulf : (⟨S4x40000, .f32⟩ : BufTy).Contents (Elt F) → (⟨S4x40000, .f32⟩ : BufTy).Contents (Elt F) → (⟨S4x40000, .f32⟩ : BufTy).Contents (Elt F)),
    unary main_v277 main_v278 (broadcastInDim S4x1x40000 ![0, 2] bcast_S4x40000_S4x1x40000_0_2 : (⟨S4x40000, .f32⟩ : BufTy).Contents (Elt F) → (⟨S4x1x40000, .f32⟩ : BufTy).Contents (Elt F)),
    unary main_v278 main_v279 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v275 main_v279 main_v280 (mulf : (⟨S4x128x40000, .f32⟩ : BufTy).Contents (Elt F) → (⟨S4x128x40000, .f32⟩ : BufTy).Contents (Elt F) → (⟨S4x128x40000, .f32⟩ : BufTy).Contents (Elt F)),
    binary main_v243 main_v280 main_v281 (addf : (⟨S4x128x40000, .f32⟩ : BufTy).Contents (Elt F) → (⟨S4x128x40000, .f32⟩ : BufTy).Contents (Elt F) → (⟨S4x128x40000, .f32⟩ : BufTy).Contents (Elt F)),
    nullary main_cst_107 (constant S_ .f32 0x3F800000#32),
    unary main_cst_107 main_v282 (broadcastInDim S4x40000 ![] bcast_S_S4x40000 : (⟨S_, .f32⟩ : BufTy).Contents (Elt F) → (⟨S4x40000, .f32⟩ : BufTy).Contents (Elt F)),
    binary main_v282 main_v32 main_v283 (subf : (⟨S4x40000, .f32⟩ : BufTy).Contents (Elt F) → (⟨S4x40000, .f32⟩ : BufTy).Contents (Elt F) → (⟨S4x40000, .f32⟩ : BufTy).Contents (Elt F)),
    binary main_v283 main_v33 main_v284 (mulf : (⟨S4x40000, .f32⟩ : BufTy).Contents (Elt F) → (⟨S4x40000, .f32⟩ : BufTy).Contents (Elt F) → (⟨S4x40000, .f32⟩ : BufTy).Contents (Elt F)),
    binary main_v284 main_v34 main_v285 (mulf : (⟨S4x40000, .f32⟩ : BufTy).Contents (Elt F) → (⟨S4x40000, .f32⟩ : BufTy).Contents (Elt F) → (⟨S4x40000, .f32⟩ : BufTy).Contents (Elt F)) ]

/-- The facts after operation 618: each buffer written so far at its stage value. -/
def facts24 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v285, val_main_v285 (F := F) x0 x3⟩ ::
  ⟨main_v284, val_main_v284 (F := F) x0 x3⟩ ::
  ⟨main_v283, val_main_v283 (F := F) x0 x3⟩ ::
  ⟨main_v282, val_main_v282 (F := F)⟩ ::
  ⟨main_cst_107, val_main_cst_107 (F := F)⟩ ::
  ⟨main_v281, val_main_v281 (F := F) x0 x2 x3⟩ ::
  ⟨main_v280, val_main_v280 (F := F) x0 x2 x3⟩ ::
  ⟨main_v279, val_main_v279 (F := F) x0 x3⟩ ::
  ⟨main_v278, val_main_v278 (F := F) x0 x3⟩ ::
  ⟨main_v277, val_main_v277 (F := F) x0 x3⟩ ::
  ⟨main_v276, val_main_v276 (F := F) x0 x3⟩ ::
  ⟨main_v275, val_main_v275 (F := F) x0 x2 x3⟩ ::
  ⟨main_call23_v15, val_main_call23_v15 (F := F)⟩ ::
  ⟨main_call23_cst, val_main_call23_cst (F := F)⟩ ::
  ⟨main_call23_v14, val_main_call23_v14 (F := F) x0 x3⟩ ::
  ⟨main_call23_v13, val_main_call23_v13 (F := F) x0 x2 x3⟩ ::
  ⟨main_call23_v12, val_main_call23_v12 (F := F) x0 x3⟩ ::
  ⟨main_call23_c_3, val_main_call23_c_3 (F := F)⟩ ::
  ⟨main_call23_v11, val_main_call23_v11 (F := F) x0 x3⟩ ::
  ⟨main_call23_v10, val_main_call23_v10 (F := F) x0 x3⟩ ::
  ⟨main_call23_v9, val_main_call23_v9 (F := F)⟩ ::
  ⟨main_call23_v8, val_main_call23_v8 (F := F)⟩ ::
  ⟨main_call23_v7, val_main_call23_v7 (F := F) x0 x3⟩ ::
  ⟨main_call23_v6, val_main_call23_v6 (F := F)⟩ ::
  facts23 x0 x1 x2 x3

theorem up24 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts23 x0 x1 x2 x3) : p ∈ facts24 x0 x1 x2 x3 :=
  memUp% 24 hp

set_option maxRecDepth 8192 in
set_option maxHeartbeats 2000000 in
/-- Operations 595 … 618: each adds the fact of the buffer it writes. -/
theorem run24 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts23 x0 x1 x2 x3) 598) :
    Inv (after seg24 W) (facts24 x0 x1 x2 x3) 622 := by
  have r := res_tunary (τ := τ) (TRef.of (T := ⟨S_, .i32⟩) main_call23_c_2) (TRef.of (T := ⟨S4x40000x1, .i32⟩) main_call23_v6) (broadcastInDim S4x40000x1 ![] bcast_S_S4x40000x1) (h.tget (TRef.of (T := ⟨S_, .i32⟩) main_call23_c_2) (val_main_call23_c_2 (F := F)) (val_main_call23_c_2 (F := F)) HEq.rfl (memUp% 0 (memAt% 0 : (⟨main_call23_c_2, val_main_call23_c_2 (F := F)⟩ : Fact sig (Elt F)) ∈ facts23 x0 x1 x2 x3)))
  refine Inv.cons h _ _ main_call23_v6 (val_main_call23_v6 (F := F)) rfl (by decide) (r.trans (toBuf_of_heq (TRef.of (T := ⟨S4x40000x1, .i32⟩) main_call23_v6) (w := val_main_call23_v6 (F := F)) ?_)) (fun W h => ?_)
  · exact HEq.rfl
  have r := res_tbinary (τ := τ) (TRef.of (T := ⟨S4x40000x1, .i32⟩) main_call23_v5) (TRef.of (T := ⟨S4x40000x1, .i32⟩) main_call23_v6) (TRef.of (T := ⟨S4x40000x1, .i1⟩) main_call23_v7) (cmpi .sge) (h.tget (TRef.of (T := ⟨S4x40000x1, .i32⟩) main_call23_v5) (val_main_call23_v5 (F := F) x0 x3) (val_main_call23_v5 (F := F) x0 x3) HEq.rfl (memUp% 1 (memAt% 2 : (⟨main_call23_v5, val_main_call23_v5 (F := F) x0 x3⟩ : Fact sig (Elt F)) ∈ facts23 x0 x1 x2 x3))) (h.tget (TRef.of (T := ⟨S4x40000x1, .i32⟩) main_call23_v6) (val_main_call23_v6 (F := F)) (val_main_call23_v6 (F := F)) HEq.rfl (memAt% 0))
  refine Inv.cons h _ _ main_call23_v7 (val_main_call23_v7 (F := F) x0 x3) rfl (by decide) (r.trans (toBuf_of_heq (TRef.of (T := ⟨S4x40000x1, .i1⟩) main_call23_v7) (w := val_main_call23_v7 (F := F) x0 x3) ?_)) (fun W h => ?_)
  · exact HEq.rfl
  have r := res_tunary (τ := τ) (TRef.of (T := ⟨S1, .i32⟩) main_call23_c_1) (TRef.of (T := ⟨S1x1x1, .i32⟩) main_call23_v8) (broadcastInDim S1x1x1 ![2] bcast_S1_S1x1x1_2) (h.tget (TRef.of (T := ⟨S1, .i32⟩) main_call23_c_1) (val_main_call23_c_1 (F := F)) (val_main_call23_c_1 (F := F)) HEq.rfl (memUp% 2 (memAt% 1 : (⟨main_call23_c_1, val_main_call23_c_1 (F := F)⟩ : Fact sig (Elt F)) ∈ facts23 x0 x1 x2 x3)))
  refine Inv.cons h _ _ main_call23_v8 (val_main_call23_v8 (F := F)) rfl (by decide) (r.trans (toBuf_of_heq (TRef.of (T := ⟨S1x1x1, .i32⟩) main_call23_v8) (w := val_main_call23_v8 (F := F)) ?_)) (fun W h => ?_)
  · exact HEq.rfl
  have r := res_tunary (τ := τ) (TRef.of (T := ⟨S1x1x1, .i32⟩) main_call23_v8) (TRef.of (T := ⟨S4x40000x1, .i32⟩) main_call23_v9) (broadcastInDim S4x40000x1 ![0, 1, 2] bcast_S1x1x1_S4x40000x1_0_1_2) (h.tget (TRef.of (T := ⟨S1x1x1, .i32⟩) main_call23_v8) (val_main_call23_v8 (F := F)) (val_main_call23_v8 (F := F)) HEq.rfl (memAt% 0))
  refine Inv.cons h _ _ main_call23_v9 (val_main_call23_v9 (F := F)) rfl (by decide) (r.trans (toBuf_of_heq (TRef.of (T := ⟨S4x40000x1, .i32⟩) main_call23_v9) (w := val_main_call23_v9 (F := F)) ?_)) (fun W h => ?_)
  · exact HEq.rfl
  have r := res_tbinary (τ := τ) (TRef.of (T := ⟨S4x40000x1, .i32⟩) main_call23_v5) (TRef.of (T := ⟨S4x40000x1, .i32⟩) main_call23_v9) (TRef.of (T := ⟨S4x40000x1, .i1⟩) main_call23_v10) (cmpi .sle) (h.tget (TRef.of (T := ⟨S4x40000x1, .i32⟩) main_call23_v5) (val_main_call23_v5 (F := F) x0 x3) (val_main_call23_v5 (F := F) x0 x3) HEq.rfl (memUp% 4 (memAt% 2 : (⟨main_call23_v5, val_main_call23_v5 (F := F) x0 x3⟩ : Fact sig (Elt F)) ∈ facts23 x0 x1 x2 x3))) (h.tget (TRef.of (T := ⟨S4x40000x1, .i32⟩) main_call23_v9) (val_main_call23_v9 (F := F)) (val_main_call23_v9 (F := F)) HEq.rfl (memAt% 0))
  refine Inv.cons h _ _ main_call23_v10 (val_main_call23_v10 (F := F) x0 x3) rfl (by decide) (r.trans (toBuf_of_heq (TRef.of (T := ⟨S4x40000x1, .i1⟩) main_call23_v10) (w := val_main_call23_v10 (F := F) x0 x3) ?_)) (fun W h => ?_)
  · exact HEq.rfl
  have r := res_tbinary (τ := τ) (TRef.of (T := ⟨S4x40000x1, .i1⟩) main_call23_v7) (TRef.of (T := ⟨S4x40000x1, .i1⟩) main_call23_v10) (TRef.of (T := ⟨S4x40000x1, .i1⟩) main_call23_v11) andi (h.tget (TRef.of (T := ⟨S4x40000x1, .i1⟩) main_call23_v7) (val_main_call23_v7 (F := F) x0 x3) (val_main_call23_v7 (F := F) x0 x3) HEq.rfl (memAt% 3)) (h.tget (TRef.of (T := ⟨S4x40000x1, .i1⟩) main_call23_v10) (val_main_call23_v10 (F := F) x0 x3) (val_main_call23_v10 (F := F) x0 x3) HEq.rfl (memAt% 0))
  refine Inv.cons h _ _ main_call23_v11 (val_main_call23_v11 (F := F) x0 x3) rfl (by decide) (r.trans (toBuf_of_heq (TRef.of (T := ⟨S4x40000x1, .i1⟩) main_call23_v11) (w := val_main_call23_v11 (F := F) x0 x3) ?_)) (fun W h => ?_)
  · exact HEq.rfl
  have r := res_tnullary (τ := τ) (W := W) (TRef.of (T := ⟨S_, .i1⟩) main_call23_c_3) (constantI S_ 1 1#1)
  refine Inv.cons h _ _ main_call23_c_3 (val_main_call23_c_3 (F := F)) rfl (by decide) (r.trans (toBuf_of_heq (TRef.of (T := ⟨S_, .i1⟩) main_call23_c_3) (w := val_main_call23_c_3 (F := F)) ?_)) (fun W h => ?_)
  · exact HEq.rfl
  have r := res_tbinary (τ := τ) (TRef.of (T := ⟨S4x40000x1, .i1⟩) main_call23_v11) (TRef.of (T := ⟨S_, .i1⟩) main_call23_c_3) (TRef.of (T := ⟨S4x40000, .i1⟩) main_call23_v12) (fun x v => Host.reduce IntOp.andi x v reducesTo_S4x40000x1_S4x40000_d2 h_S_) (h.tget (TRef.of (T := ⟨S4x40000x1, .i1⟩) main_call23_v11) (val_main_call23_v11 (F := F) x0 x3) (val_main_call23_v11 (F := F) x0 x3) HEq.rfl (memAt% 1)) (h.tget (TRef.of (T := ⟨S_, .i1⟩) main_call23_c_3) (val_main_call23_c_3 (F := F)) (val_main_call23_c_3 (F := F)) HEq.rfl (memAt% 0))
  refine Inv.cons h _ _ main_call23_v12 (val_main_call23_v12 (F := F) x0 x3) rfl (by decide) (r.trans (toBuf_of_heq (TRef.of (T := ⟨S4x40000, .i1⟩) main_call23_v12) (w := val_main_call23_v12 (F := F) x0 x3) ?_)) (fun W h => ?_)
  · exact HEq.rfl
  have r := res_tbinary (τ := τ) (TRef.of (T := ⟨S4x128x4096, .f32⟩) main_v44) (TRef.of (T := ⟨S4x40000x1, .i32⟩) main_call23_v5) (TRef.of (T := ⟨S4x128x40000, .f32⟩) main_call23_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 8 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3))))))))))))))))))))))))) (h.tget (TRef.of (T := ⟨S4x40000x1, .i32⟩) main_call23_v5) (val_main_call23_v5 (F := F) x0 x3) (val_main_call23_v5 (F := F) x0 x3) HEq.rfl (memUp% 8 (memAt% 2 : (⟨main_call23_v5, val_main_call23_v5 (F := F) x0 x3⟩ : Fact sig (Elt F)) ∈ facts23 x0 x1 x2 x3)))
  refine Inv.cons h _ _ main_call23_v13 (val_main_call23_v13 (F := F) x0 x2 x3) rfl (by decide) (r.trans (toBuf_of_heq (TRef.of (T := ⟨S4x128x40000, .f32⟩) main_call23_v13) (w := val_main_call23_v13 (F := F) x0 x2 x3) ?_)) (fun W h => ?_)
  · exact HEq.rfl
  have r := res_tunary (τ := τ) (TRef.of (T := ⟨S4x40000, .i1⟩) main_call23_v12) (TRef.of (T := ⟨S4x128x40000, .i1⟩) main_call23_v14) (broadcastInDim S4x128x40000 ![0, 2] bcast_S4x40000_S4x128x40000_0_2) (h.tget (TRef.of (T := ⟨S4x40000, .i1⟩) main_call23_v12) (val_main_call23_v12 (F := F) x0 x3) (val_main_call23_v12 (F := F) x0 x3) HEq.rfl (memAt% 1))
  refine Inv.cons h _ _ main_call23_v14 (val_main_call23_v14 (F := F) x0 x3) rfl (by decide) (r.trans (toBuf_of_heq (TRef.of (T := ⟨S4x128x40000, .i1⟩) main_call23_v14) (w := val_main_call23_v14 (F := F) x0 x3) ?_)) (fun W h => ?_)
  · exact HEq.rfl
  have r := res_tnullary (τ := τ) (W := W) (TRef.of (T := ⟨S_, .f32⟩) main_call23_cst) (constant S_ .f32 0x7FC00000#32)
  refine Inv.cons h _ _ main_call23_cst (val_main_call23_cst (F := F)) rfl (by decide) (r.trans (toBuf_of_heq (TRef.of (T := ⟨S_, .f32⟩) main_call23_cst) (w := val_main_call23_cst (F := F)) ?_)) (fun W h => ?_)
  · exact HEq.rfl
  have r := res_tunary (τ := τ) (TRef.of (T := ⟨S_, .f32⟩) main_call23_cst) (TRef.of (T := ⟨S4x128x40000, .f32⟩) main_call23_v15) (broadcastInDim S4x128x40000 ![] bcast_S_S4x128x40000) (h.tget (TRef.of (T := ⟨S_, .f32⟩) main_call23_cst) (val_main_call23_cst (F := F)) (val_main_call23_cst (F := F)) HEq.rfl (memAt% 0))
  refine Inv.cons h _ _ main_call23_v15 (val_main_call23_v15 (F := F)) rfl (by decide) (r.trans (toBuf_of_heq (TRef.of (T := ⟨S4x128x40000, .f32⟩) main_call23_v15) (w := val_main_call23_v15 (F := F)) ?_)) (fun W h => ?_)
  · exact HEq.rfl
  have r := res_tternary (τ := τ) (TRef.of (T := ⟨S4x128x40000, .i1⟩) main_call23_v14) (TRef.of (T := ⟨S4x128x40000, .f32⟩) main_call23_v13) (TRef.of (T := ⟨S4x128x40000, .f32⟩) main_call23_v15) (TRef.of (T := ⟨S4x128x40000, .f32⟩) main_v275) select (h.tget (TRef.of (T := ⟨S4x128x40000, .i1⟩) main_call23_v14) (val_main_call23_v14 (F := F) x0 x3) (val_main_call23_v14 (F := F) x0 x3) HEq.rfl (memAt% 2)) (h.tget (TRef.of (T := ⟨S4x128x40000, .f32⟩) main_call23_v13) (val_main_call23_v13 (F := F) x0 x2 x3) (val_main_call23_v13 (F := F) x0 x2 x3) HEq.rfl (memAt% 3)) (h.tget (TRef.of (T := ⟨S4x128x40000, .f32⟩) main_call23_v15) (val_main_call23_v15 (F := F)) (val_main_call23_v15 (F := F)) HEq.rfl (memAt% 0))
  refine Inv.cons h _ _ main_v275 (val_main_v275 (F := F) x0 x2 x3) rfl (by decide) (r.trans (toBuf_of_heq (TRef.of (T := ⟨S4x128x40000, .f32⟩) main_v275) (w := val_main_v275 (F := F) x0 x2 x3) ?_)) (fun W h => ?_)
  · exact HEq.rfl
  have r := res_unary (τ := τ) (x := main_v264) (y := main_v276) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v264 (val_main_v264 (F := F) x0 x3) (memUp% 13 (up23 x0 x1 x2 x3 (memAt% 19 : (⟨main_v264, val_main_v264 (F := F) x0 x3⟩ : Fact sig (Elt F)) ∈ facts22 x0 x1 x2 x3))))
  refine Inv.cons h _ _ main_v276 (val_main_v276 (F := F) x0 x3) rfl (by decide) (r.trans ?_) (fun W h => ?_)
  · rfl
  have r := res_binary (τ := τ) (a := main_v247) (b := main_v276) (y := main_v277) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v247 (val_main_v247 (F := F) x0 x3) (memUp% 14 (up23 x0 x1 x2 x3 (up22 x0 x1 x2 x3 (memAt% 17 : (⟨main_v247, val_main_v247 (F := F) x0 x3⟩ : Fact sig (Elt F)) ∈ facts21 x0 x1 x2 x3))))) (h.get' main_v276 (val_main_v276 (F := F) x0 x3) (memAt% 0))
  refine Inv.cons h _ _ main_v277 (val_main_v277 (F := F) x0 x3) rfl (by decide) (r.trans ?_) (fun W h => ?_)
  · rfl
  have r := res_unary (τ := τ) (x := main_v277) (y := main_v278) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v277 (val_main_v277 (F := F) x0 x3) (memAt% 0))
  refine Inv.cons h _ _ main_v278 (val_main_v278 (F := F) x0 x3) rfl (by decide) (r.trans ?_) (fun W h => ?_)
  · rfl
  have r := res_unary (τ := τ) (x := main_v278) (y := main_v279) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v278 (val_main_v278 (F := F) x0 x3) (memAt% 0))
  refine Inv.cons h _ _ main_v279 (val_main_v279 (F := F) x0 x3) rfl (by decide) (r.trans ?_) (fun W h => ?_)
  · rfl
  have r := res_binary (τ := τ) (a := main_v275) (b := main_v279) (y := main_v280) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v275 (val_main_v275 (F := F) x0 x2 x3) (memAt% 4)) (h.get' main_v279 (val_main_v279 (F := F) x0 x3) (memAt% 0))
  refine Inv.cons h _ _ main_v280 (val_main_v280 (F := F) x0 x2 x3) rfl (by decide) (r.trans ?_) (fun W h => ?_)
  · rfl
  have r := res_binary (τ := τ) (a := main_v243) (b := main_v280) (y := main_v281) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v243 (val_main_v243 (F := F) x0 x2 x3) (memUp% 18 (up23 x0 x1 x2 x3 (up22 x0 x1 x2 x3 (memAt% 22 : (⟨main_v243, val_main_v243 (F := F) x0 x2 x3⟩ : Fact sig (Elt F)) ∈ facts21 x0 x1 x2 x3))))) (h.get' main_v280 (val_main_v280 (F := F) x0 x2 x3) (memAt% 0))
  refine Inv.cons h _ _ main_v281 (val_main_v281 (F := F) x0 x2 x3) rfl (by decide) (r.trans ?_) (fun W h => ?_)
  · rfl
  have r := res_nullary (τ := τ) (W := W) (y := main_cst_107) (v := (constant S_ .f32 0x3F800000#32)) (hy := ⟨by decide, rfl⟩)
  refine Inv.cons h _ _ main_cst_107 (val_main_cst_107 (F := F)) rfl (by decide) (r.trans ?_) (fun W h => ?_)
  · rfl
  have r := res_unary (τ := τ) (x := main_cst_107) (y := main_v282) (f := (broadcastInDim S4x40000 ![] bcast_S_S4x40000 : (⟨S_, .f32⟩ : BufTy).Contents (Elt F) → (⟨S4x40000, .f32⟩ : BufTy).Contents (Elt F))) (hx := ⟨by decide, rfl⟩) (hy := ⟨by decide, rfl⟩) (h.get' main_cst_107 (val_main_cst_107 (F := F)) (memAt% 0))
  refine Inv.cons h _ _ main_v282 (val_main_v282 (F := F)) rfl (by decide) (r.trans ?_) (fun W h => ?_)
  · rfl
  have r := res_binary (τ := τ) (a := main_v282) (b := main_v32) (y := main_v283) (f := (subf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v282 (val_main_v282 (F := F)) (memAt% 0)) (h.get' main_v32 (val_main_v32 (F := F) x0 x3) (memUp% 21 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3)))))))))))))))))))))))))
  refine Inv.cons h _ _ main_v283 (val_main_v283 (F := F) x0 x3) rfl (by decide) (r.trans ?_) (fun W h => ?_)
  · rfl
  have r := res_binary (τ := τ) (a := main_v283) (b := main_v33) (y := main_v284) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v283 (val_main_v283 (F := F) x0 x3) (memAt% 0)) (h.get' main_v33 (val_main_v33 (F := F) x0 x3) (memUp% 22 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 15 : (⟨main_v33, val_main_v33 (F := F) x0 x3⟩ : Fact sig (Elt F)) ∈ facts1 x0 x1 x2 x3)))))))))))))))))))))))))
  refine Inv.cons h _ _ main_v284 (val_main_v284 (F := F) x0 x3) rfl (by decide) (r.trans ?_) (fun W h => ?_)
  · rfl
  have r := res_binary (τ := τ) (a := main_v284) (b := main_v34) (y := main_v285) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v284 (val_main_v284 (F := F) x0 x3) (memAt% 0)) (h.get' main_v34 (val_main_v34 (F := F) x0 x3) (memUp% 23 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3)))))))))))))))))))))))))
  refine Inv.cons h _ _ main_v285 (val_main_v285 (F := F) x0 x3) rfl (by decide) (r.trans ?_) (fun W h => ?_)
  · rfl
  exact h

/-- Operations 619 … 642 of the line. -/
abbrev seg25 : List (HloOp τ sig (Elt F)) :=
  [ nullary main_c_108 (constantI S_ 32 0#32),
    unary main_c_108 main_v286 (broadcastInDim S4x40000 ![] bcast_S_S4x40000 : (⟨S_, .i32⟩ : BufTy).Contents (Elt F) → (⟨S4x40000, .i32⟩ : BufTy).Contents (Elt F)),
    binary main_v35 main_v286 main_v287 (cmpi .sge : (⟨S4x40000, .i32⟩ : BufTy).Contents (Elt F) → (⟨S4x40000, .i32⟩ : BufTy).Contents (Elt F) → (⟨S4x40000, .i1⟩ : BufTy).Contents (Elt F)),
    nullary main_c_109 (constantI S_ 32 16#32),
    unary main_c_109 main_v288 (broadcastInDim S4x40000 ![] bcast_S_S4x40000 : (⟨S_, .i32⟩ : BufTy).Contents (Elt F) → (⟨S4x40000, .i32⟩ : BufTy).Contents (Elt F)),
    binary main_v35 main_v288 main_v289 (cmpi .slt : (⟨S4x40000, .i32⟩ : BufTy).Contents (Elt F) → (⟨S4x40000, .i32⟩ : BufTy).Contents (Elt F) → (⟨S4x40000, .i1⟩ : BufTy).Contents (Elt F)),
    binary main_v287 main_v289 main_v290 (andi : (⟨S4x40000, .i1⟩ : BufTy).Contents (Elt F) → (⟨S4x40000, .i1⟩ : BufTy).Contents (Elt F) → (⟨S4x40000, .i1⟩ : BufTy).Contents (Elt F)),
    nullary main_c_110 (constantI S_ 32 0#32),
    unary main_c_110 main_v291 (broadcastInDim S4x40000 ![] bcast_S_S4x40000 : (⟨S_, .i32⟩ : BufTy).Contents (Elt F) → (⟨S4x40000, .i32⟩ : BufTy).Contents (Elt F)),
    binary main_v41 main_v291 main_v292 (cmpi .sge : (⟨S4x40000, .i32⟩ : BufTy).Contents (Elt F) → (⟨S4x40000, .i32⟩ : BufTy).Contents (Elt F) → (⟨S4x40000, .i1⟩ : BufTy).Contents (Elt F)),
    binary main_v290 main_v292 main_v293 (andi : (⟨S4x40000, .i1⟩ : BufTy).Contents (Elt F) → (⟨S4x40000, .i1⟩ : BufTy).Contents (Elt F) → (⟨S4x40000, .i1⟩ : BufTy).Contents (Elt F)),
    nullary main_c_111 (constantI S_ 32 16#32),
    unary main_c_111 main_v294 (broadcastInDim S4x40000 ![] bcast_S_S4x40000 : (⟨S_, .i32⟩ : BufTy).Contents (Elt F) → (⟨S4x40000, .i32⟩ : BufTy).Contents (Elt F)),
    binary main_v41 main_v294 main_v295 (cmpi .slt : (⟨S4x40000, .i32⟩ : BufTy).Contents (Elt F) → (⟨S4x40000, .i32⟩ : BufTy).Contents (Elt F) → (⟨S4x40000, .i1⟩ : BufTy).Contents (Elt F)),
    binary main_v293 main_v295 main_v296 (andi : (⟨S4x40000, .i1⟩ : BufTy).Contents (Elt F) → (⟨S4x40000, .i1⟩ : BufTy).Contents (Elt F) → (⟨S4x40000, .i1⟩ : BufTy).Contents (Elt F)),
    nullary main_c_112 (constantI S_ 32 0#32),
    unary main_c_112 main_v297 (broadcastInDim S4x40000 ![] bcast_S_S4x40000 : (⟨S_, .i32⟩ : BufTy).Contents (Elt F) → (⟨S4x40000, .i32⟩ : BufTy).Contents (Elt F)),
    binary main_v43 main_v297 main_v298 (cmpi .sge : (⟨S4x40000, .i32⟩ : BufTy).Contents (Elt F) → (⟨S4x40000, .i32⟩ : BufTy).Contents (Elt F) → (⟨S4x40000, .i1⟩ : BufTy).Contents (Elt F)),
    binary main_v296 main_v298 main_v299 (andi : (⟨S4x40000, .i1⟩ : BufTy).Contents (Elt F) → (⟨S4x40000, .i1⟩ : BufTy).Contents (Elt F) → (⟨S4x40000, .i1⟩ : BufTy).Contents (Elt F)),
    nullary main_c_113 (constantI S_ 32 16#32),
    unary main_c_113 main_v300 (broadcastInDim S4x40000 ![] bcast_S_S4x40000 : (⟨S_, .i32⟩ : BufTy).Contents (Elt F) → (⟨S4x40000, .i32⟩ : BufTy).Contents (Elt F)),
    binary main_v43 main_v300 main_v301 (cmpi .slt : (⟨S4x40000, .i32⟩ : BufTy).Contents (Elt F) → (⟨S4x40000, .i32⟩ : BufTy).Contents (Elt F) → (⟨S4x40000, .i1⟩ : BufTy).Contents (Elt F)),
    binary main_v299 main_v301 main_v302 (andi : (⟨S4x40000, .i1⟩ : BufTy).Contents (Elt F) → (⟨S4x40000, .i1⟩ : BufTy).Contents (Elt F) → (⟨S4x40000, .i1⟩ : BufTy).Contents (Elt F)),
    nullary main_c_114 (constantI S_ 32 0#32) ]

/-- The facts after operation 642: each buffer written so far at its stage value. -/
def facts25 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_114, val_main_c_114 (F := F)⟩ ::
  ⟨main_v302, val_main_v302 (F := F) x0 x3⟩ ::
  ⟨main_v301, val_main_v301 (F := F) x0 x3⟩ ::
  ⟨main_v300, val_main_v300 (F := F)⟩ ::
  ⟨main_c_113, val_main_c_113 (F := F)⟩ ::
  ⟨main_v299, val_main_v299 (F := F) x0 x3⟩ ::
  ⟨main_v298, val_main_v298 (F := F) x0 x3⟩ ::
  ⟨main_v297, val_main_v297 (F := F)⟩ ::
  ⟨main_c_112, val_main_c_112 (F := F)⟩ ::
  ⟨main_v296, val_main_v296 (F := F) x0 x3⟩ ::
  ⟨main_v295, val_main_v295 (F := F) x0 x3⟩ ::
  ⟨main_v294, val_main_v294 (F := F)⟩ ::
  ⟨main_c_111, val_main_c_111 (F := F)⟩ ::
  ⟨main_v293, val_main_v293 (F := F) x0 x3⟩ ::
  ⟨main_v292, val_main_v292 (F := F) x0 x3⟩ ::
  ⟨main_v291, val_main_v291 (F := F)⟩ ::
  ⟨main_c_110, val_main_c_110 (F := F)⟩ ::
  ⟨main_v290, val_main_v290 (F := F) x0 x3⟩ ::
  ⟨main_v289, val_main_v289 (F := F) x0 x3⟩ ::
  ⟨main_v288, val_main_v288 (F := F)⟩ ::
  ⟨main_c_109, val_main_c_109 (F := F)⟩ ::
  ⟨main_v287, val_main_v287 (F := F) x0 x3⟩ ::
  ⟨main_v286, val_main_v286 (F := F)⟩ ::
  ⟨main_c_108, val_main_c_108 (F := F)⟩ ::
  facts24 x0 x1 x2 x3

theorem up25 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts24 x0 x1 x2 x3) : p ∈ facts25 x0 x1 x2 x3 :=
  memUp% 24 hp

set_option maxRecDepth 8192 in
set_option maxHeartbeats 2000000 in
/-- Operations 619 … 642: each adds the fact of the buffer it writes. -/
theorem run25 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts24 x0 x1 x2 x3) 622) :
    Inv (after seg25 W) (facts25 x0 x1 x2 x3) 646 := by
  have r := res_nullary (τ := τ) (W := W) (y := main_c_108) (v := (constantI S_ 32 0#32)) (hy := ⟨by decide, rfl⟩)
  refine Inv.cons h _ _ main_c_108 (val_main_c_108 (F := F)) rfl (by decide) (r.trans ?_) (fun W h => ?_)
  · rfl
  have r := res_unary (τ := τ) (x := main_c_108) (y := main_v286) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_108 (val_main_c_108 (F := F)) (memAt% 0))
  refine Inv.cons h _ _ main_v286 (val_main_v286 (F := F)) rfl (by decide) (r.trans ?_) (fun W h => ?_)
  · rfl
  have r := res_binary (τ := τ) (a := main_v35) (b := main_v286) (y := main_v287) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 2 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3)))))))))))))))))))))))))) (h.get' main_v286 (val_main_v286 (F := F)) (memAt% 0))
  refine Inv.cons h _ _ main_v287 (val_main_v287 (F := F) x0 x3) rfl (by decide) (r.trans ?_) (fun W h => ?_)
  · rfl
  have r := res_nullary (τ := τ) (W := W) (y := main_c_109) (v := (constantI S_ 32 16#32)) (hy := ⟨by decide, rfl⟩)
  refine Inv.cons h _ _ main_c_109 (val_main_c_109 (F := F)) rfl (by decide) (r.trans ?_) (fun W h => ?_)
  · rfl
  have r := res_unary (τ := τ) (x := main_c_109) (y := main_v288) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_109 (val_main_c_109 (F := F)) (memAt% 0))
  refine Inv.cons h _ _ main_v288 (val_main_v288 (F := F)) rfl (by decide) (r.trans ?_) (fun W h => ?_)
  · rfl
  have r := res_binary (τ := τ) (a := main_v35) (b := main_v288) (y := main_v289) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v35 (val_main_v35 (F := F) x0 x3) (memUp% 5 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3)))))))))))))))))))))))))) (h.get' main_v288 (val_main_v288 (F := F)) (memAt% 0))
  refine Inv.cons h _ _ main_v289 (val_main_v289 (F := F) x0 x3) rfl (by decide) (r.trans ?_) (fun W h => ?_)
  · rfl
  have r := res_binary (τ := τ) (a := main_v287) (b := main_v289) (y := main_v290) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v287 (val_main_v287 (F := F) x0 x3) (memAt% 3)) (h.get' main_v289 (val_main_v289 (F := F) x0 x3) (memAt% 0))
  refine Inv.cons h _ _ main_v290 (val_main_v290 (F := F) x0 x3) rfl (by decide) (r.trans ?_) (fun W h => ?_)
  · rfl
  have r := res_nullary (τ := τ) (W := W) (y := main_c_110) (v := (constantI S_ 32 0#32)) (hy := ⟨by decide, rfl⟩)
  refine Inv.cons h _ _ main_c_110 (val_main_c_110 (F := F)) rfl (by decide) (r.trans ?_) (fun W h => ?_)
  · rfl
  have r := res_unary (τ := τ) (x := main_c_110) (y := main_v291) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_110 (val_main_c_110 (F := F)) (memAt% 0))
  refine Inv.cons h _ _ main_v291 (val_main_v291 (F := F)) rfl (by decide) (r.trans ?_) (fun W h => ?_)
  · rfl
  have r := res_binary (τ := τ) (a := main_v41) (b := main_v291) (y := main_v292) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 9 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3)))))))))))))))))))))))))) (h.get' main_v291 (val_main_v291 (F := F)) (memAt% 0))
  refine Inv.cons h _ _ main_v292 (val_main_v292 (F := F) x0 x3) rfl (by decide) (r.trans ?_) (fun W h => ?_)
  · rfl
  have r := res_binary (τ := τ) (a := main_v290) (b := main_v292) (y := main_v293) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v290 (val_main_v290 (F := F) x0 x3) (memAt% 3)) (h.get' main_v292 (val_main_v292 (F := F) x0 x3) (memAt% 0))
  refine Inv.cons h _ _ main_v293 (val_main_v293 (F := F) x0 x3) rfl (by decide) (r.trans ?_) (fun W h => ?_)
  · rfl
  have r := res_nullary (τ := τ) (W := W) (y := main_c_111) (v := (constantI S_ 32 16#32)) (hy := ⟨by decide, rfl⟩)
  refine Inv.cons h _ _ main_c_111 (val_main_c_111 (F := F)) rfl (by decide) (r.trans ?_) (fun W h => ?_)
  · rfl
  have r := res_unary (τ := τ) (x := main_c_111) (y := main_v294) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_111 (val_main_c_111 (F := F)) (memAt% 0))
  refine Inv.cons h _ _ main_v294 (val_main_v294 (F := F)) rfl (by decide) (r.trans ?_) (fun W h => ?_)
  · rfl
  have r := res_binary (τ := τ) (a := main_v41) (b := main_v294) (y := main_v295) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 13 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3)))))))))))))))))))))))))) (h.get' main_v294 (val_main_v294 (F := F)) (memAt% 0))
  refine Inv.cons h _ _ main_v295 (val_main_v295 (F := F) x0 x3) rfl (by decide) (r.trans ?_) (fun W h => ?_)
  · rfl
  have r := res_binary (τ := τ) (a := main_v293) (b := main_v295) (y := main_v296) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v293 (val_main_v293 (F := F) x0 x3) (memAt% 3)) (h.get' main_v295 (val_main_v295 (F := F) x0 x3) (memAt% 0))
  refine Inv.cons h _ _ main_v296 (val_main_v296 (F := F) x0 x3) rfl (by decide) (r.trans ?_) (fun W h => ?_)
  · rfl
  have r := res_nullary (τ := τ) (W := W) (y := main_c_112) (v := (constantI S_ 32 0#32)) (hy := ⟨by decide, rfl⟩)
  refine Inv.cons h _ _ main_c_112 (val_main_c_112 (F := F)) rfl (by decide) (r.trans ?_) (fun W h => ?_)
  · rfl
  have r := res_unary (τ := τ) (x := main_c_112) (y := main_v297) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_112 (val_main_c_112 (F := F)) (memAt% 0))
  refine Inv.cons h _ _ main_v297 (val_main_v297 (F := F)) rfl (by decide) (r.trans ?_) (fun W h => ?_)
  · rfl
  have r := res_binary (τ := τ) (a := main_v43) (b := main_v297) (y := main_v298) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 17 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3)))))))))))))))))))))))))) (h.get' main_v297 (val_main_v297 (F := F)) (memAt% 0))
  refine Inv.cons h _ _ main_v298 (val_main_v298 (F := F) x0 x3) rfl (by decide) (r.trans ?_) (fun W h => ?_)
  · rfl
  have r := res_binary (τ := τ) (a := main_v296) (b := main_v298) (y := main_v299) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v296 (val_main_v296 (F := F) x0 x3) (memAt% 3)) (h.get' main_v298 (val_main_v298 (F := F) x0 x3) (memAt% 0))
  refine Inv.cons h _ _ main_v299 (val_main_v299 (F := F) x0 x3) rfl (by decide) (r.trans ?_) (fun W h => ?_)
  · rfl
  have r := res_nullary (τ := τ) (W := W) (y := main_c_113) (v := (constantI S_ 32 16#32)) (hy := ⟨by decide, rfl⟩)
  refine Inv.cons h _ _ main_c_113 (val_main_c_113 (F := F)) rfl (by decide) (r.trans ?_) (fun W h => ?_)
  · rfl
  have r := res_unary (τ := τ) (x := main_c_113) (y := main_v300) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_113 (val_main_c_113 (F := F)) (memAt% 0))
  refine Inv.cons h _ _ main_v300 (val_main_v300 (F := F)) rfl (by decide) (r.trans ?_) (fun W h => ?_)
  · rfl
  have r := res_binary (τ := τ) (a := main_v43) (b := main_v300) (y := main_v301) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 21 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3)))))))))))))))))))))))))) (h.get' main_v300 (val_main_v300 (F := F)) (memAt% 0))
  refine Inv.cons h _ _ main_v301 (val_main_v301 (F := F) x0 x3) rfl (by decide) (r.trans ?_) (fun W h => ?_)
  · rfl
  have r := res_binary (τ := τ) (a := main_v299) (b := main_v301) (y := main_v302) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v299 (val_main_v299 (F := F) x0 x3) (memAt% 3)) (h.get' main_v301 (val_main_v301 (F := F) x0 x3) (memAt% 0))
  refine Inv.cons h _ _ main_v302 (val_main_v302 (F := F) x0 x3) rfl (by decide) (r.trans ?_) (fun W h => ?_)
  · rfl
  have r := res_nullary (τ := τ) (W := W) (y := main_c_114) (v := (constantI S_ 32 0#32)) (hy := ⟨by decide, rfl⟩)
  refine Inv.cons h _ _ main_c_114 (val_main_c_114 (F := F)) rfl (by decide) (r.trans ?_) (fun W h => ?_)
  · rfl
  exact h

/-- Operations 643 … 669 of the line. -/
abbrev seg26 : List (HloOp τ sig (Elt F)) :=
  [ nullary main_c_115 (constantI S_ 32 15#32),
    TRef.unary (TRef.of (T := ⟨S_, .i32⟩) main_c_114) (TRef.of (T := ⟨S_, .i32⟩) main_call24_v0) id,
    TRef.unary (TRef.of (T := ⟨S_, .i32⟩) main_call24_v0) (TRef.of (T := ⟨S4x40000, .i32⟩) main_call24_v1) (broadcastInDim S4x40000 ![] bcast_S_S4x40000),
    TRef.binary (TRef.of (T := ⟨S4x40000, .i32⟩) main_call24_v1) (TRef.of (T := ⟨S4x40000, .i32⟩) main_v43) (TRef.of (T := ⟨S4x40000, .i32⟩) main_call24_v2) maxsi,
    TRef.unary (TRef.of (T := ⟨S_, .i32⟩) main_c_115) (TRef.of (T := ⟨S_, .i32⟩) main_call24_v3) id,
    TRef.unary (TRef.of (T := ⟨S_, .i32⟩) main_call24_v3) (TRef.of (T := ⟨S4x40000, .i32⟩) main_call24_v4) (broadcastInDim S4x40000 ![] bcast_S_S4x40000),
    TRef.binary (TRef.of (T := ⟨S4x40000, .i32⟩) main_call24_v4) (TRef.of (T := ⟨S4x40000, .i32⟩) main_call24_v2) (TRef.of (T := ⟨S4x40000, .i32⟩) main_v303) minsi,
    nullary main_c_116 (constantI S_ 32 16#32),
    unary main_c_116 main_v304 (broadcastInDim S4x40000 ![] bcast_S_S4x40000 : (⟨S_, .i32⟩ : BufTy).Contents (Elt F) → (⟨S4x40000, .i32⟩ : BufTy).Contents (Elt F)),
    binary main_v303 main_v304 main_v305 (muli : (⟨S4x40000, .i32⟩ : BufTy).Contents (Elt F) → (⟨S4x40000, .i32⟩ : BufTy).Contents (Elt F) → (⟨S4x40000, .i32⟩ : BufTy).Contents (Elt F)),
    nullary main_c_117 (constantI S_ 32 0#32),
    nullary main_c_118 (constantI S_ 32 15#32),
    TRef.unary (TRef.of (T := ⟨S_, .i32⟩) main_c_117) (TRef.of (T := ⟨S_, .i32⟩) main_call25_v0) id,
    TRef.unary (TRef.of (T := ⟨S_, .i32⟩) main_call25_v0) (TRef.of (T := ⟨S4x40000, .i32⟩) main_call25_v1) (broadcastInDim S4x40000 ![] bcast_S_S4x40000),
    TRef.binary (TRef.of (T := ⟨S4x40000, .i32⟩) main_call25_v1) (TRef.of (T := ⟨S4x40000, .i32⟩) main_v41) (TRef.of (T := ⟨S4x40000, .i32⟩) main_call25_v2) maxsi,
    TRef.unary (TRef.of (T := ⟨S_, .i32⟩) main_c_118) (TRef.of (T := ⟨S_, .i32⟩) main_call25_v3) id,
    TRef.unary (TRef.of (T := ⟨S_, .i32⟩) main_call25_v3) (TRef.of (T := ⟨S4x40000, .i32⟩) main_call25_v4) (broadcastInDim S4x40000 ![] bcast_S_S4x40000),
    TRef.binary (TRef.of (T := ⟨S4x40000, .i32⟩) main_call25_v4) (TRef.of (T := ⟨S4x40000, .i32⟩) main_call25_v2) (TRef.of (T := ⟨S4x40000, .i32⟩) main_v306) minsi,
    binary main_v305 main_v306 main_v307 (addi : (⟨S4x40000, .i32⟩ : BufTy).Contents (Elt F) → (⟨S4x40000, .i32⟩ : BufTy).Contents (Elt F) → (⟨S4x40000, .i32⟩ : BufTy).Contents (Elt F)),
    nullary main_c_119 (constantI S_ 32 16#32),
    unary main_c_119 main_v308 (broadcastInDim S4x40000 ![] bcast_S_S4x40000 : (⟨S_, .i32⟩ : BufTy).Contents (Elt F) → (⟨S4x40000, .i32⟩ : BufTy).Contents (Elt F)),
    binary main_v307 main_v308 main_v309 (muli : (⟨S4x40000, .i32⟩ : BufTy).Contents (Elt F) → (⟨S4x40000, .i32⟩ : BufTy).Contents (Elt F) → (⟨S4x40000, .i32⟩ : BufTy).Contents (Elt F)),
    nullary main_c_120 (constantI S_ 32 0#32),
    nullary main_c_121 (constantI S_ 32 15#32),
    TRef.unary (TRef.of (T := ⟨S_, .i32⟩) main_c_120) (TRef.of (T := ⟨S_, .i32⟩) main_call26_v0) id,
    TRef.unary (TRef.of (T := ⟨S_, .i32⟩) main_call26_v0) (TRef.of (T := ⟨S4x40000, .i32⟩) main_call26_v1) (broadcastInDim S4x40000 ![] bcast_S_S4x40000),
    TRef.binary (TRef.of (T := ⟨S4x40000, .i32⟩) main_call26_v1) (TRef.of (T := ⟨S4x40000, .i32⟩) main_v35) (TRef.of (T := ⟨S4x40000, .i32⟩) main_call26_v2) maxsi ]

/-- The facts after operation 669: each buffer written so far at its stage value. -/
def facts26 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call26_v2, val_main_call26_v2 (F := F) x0 x3⟩ ::
  ⟨main_call26_v1, val_main_call26_v1 (F := F)⟩ ::
  ⟨main_call26_v0, val_main_call26_v0 (F := F)⟩ ::
  ⟨main_c_121, val_main_c_121 (F := F)⟩ ::
  ⟨main_c_120, val_main_c_120 (F := F)⟩ ::
  ⟨main_v309, val_main_v309 (F := F) x0 x3⟩ ::
  ⟨main_v308, val_main_v308 (F := F)⟩ ::
  ⟨main_c_119, val_main_c_119 (F := F)⟩ ::
  ⟨main_v307, val_main_v307 (F := F) x0 x3⟩ ::
  ⟨main_v306, val_main_v306 (F := F) x0 x3⟩ ::
  ⟨main_call25_v4, val_main_call25_v4 (F := F)⟩ ::
  ⟨main_call25_v3, val_main_call25_v3 (F := F)⟩ ::
  ⟨main_call25_v2, val_main_call25_v2 (F := F) x0 x3⟩ ::
  ⟨main_call25_v1, val_main_call25_v1 (F := F)⟩ ::
  ⟨main_call25_v0, val_main_call25_v0 (F := F)⟩ ::
  ⟨main_c_118, val_main_c_118 (F := F)⟩ ::
  ⟨main_c_117, val_main_c_117 (F := F)⟩ ::
  ⟨main_v305, val_main_v305 (F := F) x0 x3⟩ ::
  ⟨main_v304, val_main_v304 (F := F)⟩ ::
  ⟨main_c_116, val_main_c_116 (F := F)⟩ ::
  ⟨main_v303, val_main_v303 (F := F) x0 x3⟩ ::
  ⟨main_call24_v4, val_main_call24_v4 (F := F)⟩ ::
  ⟨main_call24_v3, val_main_call24_v3 (F := F)⟩ ::
  ⟨main_call24_v2, val_main_call24_v2 (F := F) x0 x3⟩ ::
  ⟨main_call24_v1, val_main_call24_v1 (F := F)⟩ ::
  ⟨main_call24_v0, val_main_call24_v0 (F := F)⟩ ::
  ⟨main_c_115, val_main_c_115 (F := F)⟩ ::
  facts25 x0 x1 x2 x3

theorem up26 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts25 x0 x1 x2 x3) : p ∈ facts26 x0 x1 x2 x3 :=
  memUp% 27 hp

set_option maxRecDepth 8192 in
set_option maxHeartbeats 2000000 in
/-- Operations 643 … 669: each adds the fact of the buffer it writes. -/
theorem run26 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts25 x0 x1 x2 x3) 646) :
    Inv (after seg26 W) (facts26 x0 x1 x2 x3) 673 := by
  have r := res_nullary (τ := τ) (W := W) (y := main_c_115) (v := (constantI S_ 32 15#32)) (hy := ⟨by decide, rfl⟩)
  refine Inv.cons h _ _ main_c_115 (val_main_c_115 (F := F)) rfl (by decide) (r.trans ?_) (fun W h => ?_)
  · rfl
  have r := res_tunary (τ := τ) (TRef.of (T := ⟨S_, .i32⟩) main_c_114) (TRef.of (T := ⟨S_, .i32⟩) main_call24_v0) id (h.tget (TRef.of (T := ⟨S_, .i32⟩) main_c_114) (val_main_c_114 (F := F)) (val_main_c_114 (F := F)) HEq.rfl (memUp% 1 (memAt% 0 : (⟨main_c_114, val_main_c_114 (F := F)⟩ : Fact sig (Elt F)) ∈ facts25 x0 x1 x2 x3)))
  refine Inv.cons h _ _ main_call24_v0 (val_main_call24_v0 (F := F)) rfl (by decide) (r.trans (toBuf_of_heq (TRef.of (T := ⟨S_, .i32⟩) main_call24_v0) (w := val_main_call24_v0 (F := F)) ?_)) (fun W h => ?_)
  · exact HEq.rfl
  have r := res_tunary (τ := τ) (TRef.of (T := ⟨S_, .i32⟩) main_call24_v0) (TRef.of (T := ⟨S4x40000, .i32⟩) main_call24_v1) (broadcastInDim S4x40000 ![] bcast_S_S4x40000) (h.tget (TRef.of (T := ⟨S_, .i32⟩) main_call24_v0) (val_main_call24_v0 (F := F)) (val_main_call24_v0 (F := F)) HEq.rfl (memAt% 0))
  refine Inv.cons h _ _ main_call24_v1 (val_main_call24_v1 (F := F)) rfl (by decide) (r.trans (toBuf_of_heq (TRef.of (T := ⟨S4x40000, .i32⟩) main_call24_v1) (w := val_main_call24_v1 (F := F)) ?_)) (fun W h => ?_)
  · exact HEq.rfl
  have r := res_tbinary (τ := τ) (TRef.of (T := ⟨S4x40000, .i32⟩) main_call24_v1) (TRef.of (T := ⟨S4x40000, .i32⟩) main_v43) (TRef.of (T := ⟨S4x40000, .i32⟩) main_call24_v2) maxsi (h.tget (TRef.of (T := ⟨S4x40000, .i32⟩) main_call24_v1) (val_main_call24_v1 (F := F)) (val_main_call24_v1 (F := F)) HEq.rfl (memAt% 0)) (h.tget (TRef.of (T := ⟨S4x40000, .i32⟩) main_v43) (val_main_v43 (F := F) x0 x3) (val_main_v43 (F := F) x0 x3) HEq.rfl (memUp% 3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3)))))))))))))))))))))))))))
  refine Inv.cons h _ _ main_call24_v2 (val_main_call24_v2 (F := F) x0 x3) rfl (by decide) (r.trans (toBuf_of_heq (TRef.of (T := ⟨S4x40000, .i32⟩) main_call24_v2) (w := val_main_call24_v2 (F := F) x0 x3) ?_)) (fun W h => ?_)
  · exact HEq.rfl
  have r := res_tunary (τ := τ) (TRef.of (T := ⟨S_, .i32⟩) main_c_115) (TRef.of (T := ⟨S_, .i32⟩) main_call24_v3) id (h.tget (TRef.of (T := ⟨S_, .i32⟩) main_c_115) (val_main_c_115 (F := F)) (val_main_c_115 (F := F)) HEq.rfl (memAt% 3))
  refine Inv.cons h _ _ main_call24_v3 (val_main_call24_v3 (F := F)) rfl (by decide) (r.trans (toBuf_of_heq (TRef.of (T := ⟨S_, .i32⟩) main_call24_v3) (w := val_main_call24_v3 (F := F)) ?_)) (fun W h => ?_)
  · exact HEq.rfl
  have r := res_tunary (τ := τ) (TRef.of (T := ⟨S_, .i32⟩) main_call24_v3) (TRef.of (T := ⟨S4x40000, .i32⟩) main_call24_v4) (broadcastInDim S4x40000 ![] bcast_S_S4x40000) (h.tget (TRef.of (T := ⟨S_, .i32⟩) main_call24_v3) (val_main_call24_v3 (F := F)) (val_main_call24_v3 (F := F)) HEq.rfl (memAt% 0))
  refine Inv.cons h _ _ main_call24_v4 (val_main_call24_v4 (F := F)) rfl (by decide) (r.trans (toBuf_of_heq (TRef.of (T := ⟨S4x40000, .i32⟩) main_call24_v4) (w := val_main_call24_v4 (F := F)) ?_)) (fun W h => ?_)
  · exact HEq.rfl
  have r := res_tbinary (τ := τ) (TRef.of (T := ⟨S4x40000, .i32⟩) main_call24_v4) (TRef.of (T := ⟨S4x40000, .i32⟩) main_call24_v2) (TRef.of (T := ⟨S4x40000, .i32⟩) main_v303) minsi (h.tget (TRef.of (T := ⟨S4x40000, .i32⟩) main_call24_v4) (val_main_call24_v4 (F := F)) (val_main_call24_v4 (F := F)) HEq.rfl (memAt% 0)) (h.tget (TRef.of (T := ⟨S4x40000, .i32⟩) main_call24_v2) (val_main_call24_v2 (F := F) x0 x3) (val_main_call24_v2 (F := F) x0 x3) HEq.rfl (memAt% 2))
  refine Inv.cons h _ _ main_v303 (val_main_v303 (F := F) x0 x3) rfl (by decide) (r.trans (toBuf_of_heq (TRef.of (T := ⟨S4x40000, .i32⟩) main_v303) (w := val_main_v303 (F := F) x0 x3) ?_)) (fun W h => ?_)
  · exact HEq.rfl
  have r := res_nullary (τ := τ) (W := W) (y := main_c_116) (v := (constantI S_ 32 16#32)) (hy := ⟨by decide, rfl⟩)
  refine Inv.cons h _ _ main_c_116 (val_main_c_116 (F := F)) rfl (by decide) (r.trans ?_) (fun W h => ?_)
  · rfl
  have r := res_unary (τ := τ) (x := main_c_116) (y := main_v304) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_116 (val_main_c_116 (F := F)) (memAt% 0))
  refine Inv.cons h _ _ main_v304 (val_main_v304 (F := F)) rfl (by decide) (r.trans ?_) (fun W h => ?_)
  · rfl
  have r := res_binary (τ := τ) (a := main_v303) (b := main_v304) (y := main_v305) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v303 (val_main_v303 (F := F) x0 x3) (memAt% 2)) (h.get' main_v304 (val_main_v304 (F := F)) (memAt% 0))
  refine Inv.cons h _ _ main_v305 (val_main_v305 (F := F) x0 x3) rfl (by decide) (r.trans ?_) (fun W h => ?_)
  · rfl
  have r := res_nullary (τ := τ) (W := W) (y := main_c_117) (v := (constantI S_ 32 0#32)) (hy := ⟨by decide, rfl⟩)
  refine Inv.cons h _ _ main_c_117 (val_main_c_117 (F := F)) rfl (by decide) (r.trans ?_) (fun W h => ?_)
  · rfl
  have r := res_nullary (τ := τ) (W := W) (y := main_c_118) (v := (constantI S_ 32 15#32)) (hy := ⟨by decide, rfl⟩)
  refine Inv.cons h _ _ main_c_118 (val_main_c_118 (F := F)) rfl (by decide) (r.trans ?_) (fun W h => ?_)
  · rfl
  have r := res_tunary (τ := τ) (TRef.of (T := ⟨S_, .i32⟩) main_c_117) (TRef.of (T := ⟨S_, .i32⟩) main_call25_v0) id (h.tget (TRef.of (T := ⟨S_, .i32⟩) main_c_117) (val_main_c_117 (F := F)) (val_main_c_117 (F := F)) HEq.rfl (memAt% 1))
  refine Inv.cons h _ _ main_call25_v0 (val_main_call25_v0 (F := F)) rfl (by decide) (r.trans (toBuf_of_heq (TRef.of (T := ⟨S_, .i32⟩) main_call25_v0) (w := val_main_call25_v0 (F := F)) ?_)) (fun W h => ?_)
  · exact HEq.rfl
  have r := res_tunary (τ := τ) (TRef.of (T := ⟨S_, .i32⟩) main_call25_v0) (TRef.of (T := ⟨S4x40000, .i32⟩) main_call25_v1) (broadcastInDim S4x40000 ![] bcast_S_S4x40000) (h.tget (TRef.of (T := ⟨S_, .i32⟩) main_call25_v0) (val_main_call25_v0 (F := F)) (val_main_call25_v0 (F := F)) HEq.rfl (memAt% 0))
  refine Inv.cons h _ _ main_call25_v1 (val_main_call25_v1 (F := F)) rfl (by decide) (r.trans (toBuf_of_heq (TRef.of (T := ⟨S4x40000, .i32⟩) main_call25_v1) (w := val_main_call25_v1 (F := F)) ?_)) (fun W h => ?_)
  · exact HEq.rfl
  have r := res_tbinary (τ := τ) (TRef.of (T := ⟨S4x40000, .i32⟩) main_call25_v1) (TRef.of (T := ⟨S4x40000, .i32⟩) main_v41) (TRef.of (T := ⟨S4x40000, .i32⟩) main_call25_v2) maxsi (h.tget (TRef.of (T := ⟨S4x40000, .i32⟩) main_call25_v1) (val_main_call25_v1 (F := F)) (val_main_call25_v1 (F := F)) HEq.rfl (memAt% 0)) (h.tget (TRef.of (T := ⟨S4x40000, .i32⟩) main_v41) (val_main_v41 (F := F) x0 x3) (val_main_v41 (F := F) x0 x3) HEq.rfl (memUp% 14 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3)))))))))))))))))))))))))))
  refine Inv.cons h _ _ main_call25_v2 (val_main_call25_v2 (F := F) x0 x3) rfl (by decide) (r.trans (toBuf_of_heq (TRef.of (T := ⟨S4x40000, .i32⟩) main_call25_v2) (w := val_main_call25_v2 (F := F) x0 x3) ?_)) (fun W h => ?_)
  · exact HEq.rfl
  have r := res_tunary (τ := τ) (TRef.of (T := ⟨S_, .i32⟩) main_c_118) (TRef.of (T := ⟨S_, .i32⟩) main_call25_v3) id (h.tget (TRef.of (T := ⟨S_, .i32⟩) main_c_118) (val_main_c_118 (F := F)) (val_main_c_118 (F := F)) HEq.rfl (memAt% 3))
  refine Inv.cons h _ _ main_call25_v3 (val_main_call25_v3 (F := F)) rfl (by decide) (r.trans (toBuf_of_heq (TRef.of (T := ⟨S_, .i32⟩) main_call25_v3) (w := val_main_call25_v3 (F := F)) ?_)) (fun W h => ?_)
  · exact HEq.rfl
  have r := res_tunary (τ := τ) (TRef.of (T := ⟨S_, .i32⟩) main_call25_v3) (TRef.of (T := ⟨S4x40000, .i32⟩) main_call25_v4) (broadcastInDim S4x40000 ![] bcast_S_S4x40000) (h.tget (TRef.of (T := ⟨S_, .i32⟩) main_call25_v3) (val_main_call25_v3 (F := F)) (val_main_call25_v3 (F := F)) HEq.rfl (memAt% 0))
  refine Inv.cons h _ _ main_call25_v4 (val_main_call25_v4 (F := F)) rfl (by decide) (r.trans (toBuf_of_heq (TRef.of (T := ⟨S4x40000, .i32⟩) main_call25_v4) (w := val_main_call25_v4 (F := F)) ?_)) (fun W h => ?_)
  · exact HEq.rfl
  have r := res_tbinary (τ := τ) (TRef.of (T := ⟨S4x40000, .i32⟩) main_call25_v4) (TRef.of (T := ⟨S4x40000, .i32⟩) main_call25_v2) (TRef.of (T := ⟨S4x40000, .i32⟩) main_v306) minsi (h.tget (TRef.of (T := ⟨S4x40000, .i32⟩) main_call25_v4) (val_main_call25_v4 (F := F)) (val_main_call25_v4 (F := F)) HEq.rfl (memAt% 0)) (h.tget (TRef.of (T := ⟨S4x40000, .i32⟩) main_call25_v2) (val_main_call25_v2 (F := F) x0 x3) (val_main_call25_v2 (F := F) x0 x3) HEq.rfl (memAt% 2))
  refine Inv.cons h _ _ main_v306 (val_main_v306 (F := F) x0 x3) rfl (by decide) (r.trans (toBuf_of_heq (TRef.of (T := ⟨S4x40000, .i32⟩) main_v306) (w := val_main_v306 (F := F) x0 x3) ?_)) (fun W h => ?_)
  · exact HEq.rfl
  have r := res_binary (τ := τ) (a := main_v305) (b := main_v306) (y := main_v307) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v305 (val_main_v305 (F := F) x0 x3) (memAt% 8)) (h.get' main_v306 (val_main_v306 (F := F) x0 x3) (memAt% 0))
  refine Inv.cons h _ _ main_v307 (val_main_v307 (F := F) x0 x3) rfl (by decide) (r.trans ?_) (fun W h => ?_)
  · rfl
  have r := res_nullary (τ := τ) (W := W) (y := main_c_119) (v := (constantI S_ 32 16#32)) (hy := ⟨by decide, rfl⟩)
  refine Inv.cons h _ _ main_c_119 (val_main_c_119 (F := F)) rfl (by decide) (r.trans ?_) (fun W h => ?_)
  · rfl
  have r := res_unary (τ := τ) (x := main_c_119) (y := main_v308) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_119 (val_main_c_119 (F := F)) (memAt% 0))
  refine Inv.cons h _ _ main_v308 (val_main_v308 (F := F)) rfl (by decide) (r.trans ?_) (fun W h => ?_)
  · rfl
  have r := res_binary (τ := τ) (a := main_v307) (b := main_v308) (y := main_v309) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v307 (val_main_v307 (F := F) x0 x3) (memAt% 2)) (h.get' main_v308 (val_main_v308 (F := F)) (memAt% 0))
  refine Inv.cons h _ _ main_v309 (val_main_v309 (F := F) x0 x3) rfl (by decide) (r.trans ?_) (fun W h => ?_)
  · rfl
  have r := res_nullary (τ := τ) (W := W) (y := main_c_120) (v := (constantI S_ 32 0#32)) (hy := ⟨by decide, rfl⟩)
  refine Inv.cons h _ _ main_c_120 (val_main_c_120 (F := F)) rfl (by decide) (r.trans ?_) (fun W h => ?_)
  · rfl
  have r := res_nullary (τ := τ) (W := W) (y := main_c_121) (v := (constantI S_ 32 15#32)) (hy := ⟨by decide, rfl⟩)
  refine Inv.cons h _ _ main_c_121 (val_main_c_121 (F := F)) rfl (by decide) (r.trans ?_) (fun W h => ?_)
  · rfl
  have r := res_tunary (τ := τ) (TRef.of (T := ⟨S_, .i32⟩) main_c_120) (TRef.of (T := ⟨S_, .i32⟩) main_call26_v0) id (h.tget (TRef.of (T := ⟨S_, .i32⟩) main_c_120) (val_main_c_120 (F := F)) (val_main_c_120 (F := F)) HEq.rfl (memAt% 1))
  refine Inv.cons h _ _ main_call26_v0 (val_main_call26_v0 (F := F)) rfl (by decide) (r.trans (toBuf_of_heq (TRef.of (T := ⟨S_, .i32⟩) main_call26_v0) (w := val_main_call26_v0 (F := F)) ?_)) (fun W h => ?_)
  · exact HEq.rfl
  have r := res_tunary (τ := τ) (TRef.of (T := ⟨S_, .i32⟩) main_call26_v0) (TRef.of (T := ⟨S4x40000, .i32⟩) main_call26_v1) (broadcastInDim S4x40000 ![] bcast_S_S4x40000) (h.tget (TRef.of (T := ⟨S_, .i32⟩) main_call26_v0) (val_main_call26_v0 (F := F)) (val_main_call26_v0 (F := F)) HEq.rfl (memAt% 0))
  refine Inv.cons h _ _ main_call26_v1 (val_main_call26_v1 (F := F)) rfl (by decide) (r.trans (toBuf_of_heq (TRef.of (T := ⟨S4x40000, .i32⟩) main_call26_v1) (w := val_main_call26_v1 (F := F)) ?_)) (fun W h => ?_)
  · exact HEq.rfl
  have r := res_tbinary (τ := τ) (TRef.of (T := ⟨S4x40000, .i32⟩) main_call26_v1) (TRef.of (T := ⟨S4x40000, .i32⟩) main_v35) (TRef.of (T := ⟨S4x40000, .i32⟩) main_call26_v2) maxsi (h.tget (TRef.of (T := ⟨S4x40000, .i32⟩) main_call26_v1) (val_main_call26_v1 (F := F)) (val_main_call26_v1 (F := F)) HEq.rfl (memAt% 0)) (h.tget (TRef.of (T := ⟨S4x40000, .i32⟩) main_v35) (val_main_v35 (F := F) x0 x3) (val_main_v35 (F := F) x0 x3) HEq.rfl (memUp% 26 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 13 : (⟨main_v35, val_main_v35 (F := F) x0 x3⟩ : Fact sig (Elt F)) ∈ facts1 x0 x1 x2 x3)))))))))))))))))))))))))))
  refine Inv.cons h _ _ main_call26_v2 (val_main_call26_v2 (F := F) x0 x3) rfl (by decide) (r.trans (toBuf_of_heq (TRef.of (T := ⟨S4x40000, .i32⟩) main_call26_v2) (w := val_main_call26_v2 (F := F) x0 x3) ?_)) (fun W h => ?_)
  · exact HEq.rfl
  exact h

/-- Operations 670 … 696 of the line. -/
abbrev seg27 : List (HloOp τ sig (Elt F)) :=
  [ TRef.unary (TRef.of (T := ⟨S_, .i32⟩) main_c_121) (TRef.of (T := ⟨S_, .i32⟩) main_call26_v3) id,
    TRef.unary (TRef.of (T := ⟨S_, .i32⟩) main_call26_v3) (TRef.of (T := ⟨S4x40000, .i32⟩) main_call26_v4) (broadcastInDim S4x40000 ![] bcast_S_S4x40000),
    TRef.binary (TRef.of (T := ⟨S4x40000, .i32⟩) main_call26_v4) (TRef.of (T := ⟨S4x40000, .i32⟩) main_call26_v2) (TRef.of (T := ⟨S4x40000, .i32⟩) main_v310) minsi,
    binary main_v309 main_v310 main_v311 (addi : (⟨S4x40000, .i32⟩ : BufTy).Contents (Elt F) → (⟨S4x40000, .i32⟩ : BufTy).Contents (Elt F) → (⟨S4x40000, .i32⟩ : BufTy).Contents (Elt F)),
    unary main_v311 main_v312 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call27_c) (constantI S_ 32 0#32),
    TRef.unary (TRef.of (T := ⟨S_, .i32⟩) main_call27_c) (TRef.of (T := ⟨S4x1x40000, .i32⟩) main_call27_v0) (broadcastInDim S4x1x40000 ![] bcast_S_S4x1x40000),
    TRef.binary (TRef.of (T := ⟨S4x1x40000, .i32⟩) main_v312) (TRef.of (T := ⟨S4x1x40000, .i32⟩) main_call27_v0) (TRef.of (T := ⟨S4x1x40000, .i1⟩) main_call27_v1) (cmpi .slt),
    TRef.nullary (TRef.of (T := ⟨S_, .i32⟩) main_call27_c_0) (constantI S_ 32 4096#32),
    TRef.unary (TRef.of (T := ⟨S_, .i32⟩) main_call27_c_0) (TRef.of (T := ⟨S4x1x40000, .i32⟩) main_call27_v2) (broadcastInDim S4x1x40000 ![] bcast_S_S4x1x40000),
    TRef.binary (TRef.of (T := ⟨S4x1x40000, .i32⟩) main_v312) (TRef.of (T := ⟨S4x1x40000, .i32⟩) main_call27_v2) (TRef.of (T := ⟨S4x1x40000, .i32⟩) main_call27_v3) addi,
    TRef.ternary (TRef.of (T := ⟨S4x1x40000, .i1⟩) main_call27_v1) (TRef.of (T := ⟨S4x1x40000, .i32⟩) main_call27_v3) (TRef.of (T := ⟨S4x1x40000, .i32⟩) main_v312) (TRef.of (T := ⟨S4x1x40000, .i32⟩) main_call27_v4) select,
    TRef.reshape (TRef.of (T := ⟨S4x1x40000, .i32⟩) main_call27_v4) (TRef.of (T := ⟨S4x40000x1, .i32⟩) main_call27_v5) rfl shapeCasts_S4x1x40000_S4x40000x1,
    TRef.nullary (TRef.of (T := ⟨S1, .i32⟩) main_call27_c_1) (constantI S1 32 4095#32),
    TRef.nullary (TRef.of (T := ⟨S_, .i32⟩) main_call27_c_2) (constantI S_ 32 0#32),
    TRef.unary (TRef.of (T := ⟨S_, .i32⟩) main_call27_c_2) (TRef.of (T := ⟨S4x40000x1, .i32⟩) main_call27_v6) (broadcastInDim S4x40000x1 ![] bcast_S_S4x40000x1),
    TRef.binary (TRef.of (T := ⟨S4x40000x1, .i32⟩) main_call27_v5) (TRef.of (T := ⟨S4x40000x1, .i32⟩) main_call27_v6) (TRef.of (T := ⟨S4x40000x1, .i1⟩) main_call27_v7) (cmpi .sge),
    TRef.unary (TRef.of (T := ⟨S1, .i32⟩) main_call27_c_1) (TRef.of (T := ⟨S1x1x1, .i32⟩) main_call27_v8) (broadcastInDim S1x1x1 ![2] bcast_S1_S1x1x1_2),
    TRef.unary (TRef.of (T := ⟨S1x1x1, .i32⟩) main_call27_v8) (TRef.of (T := ⟨S4x40000x1, .i32⟩) main_call27_v9) (broadcastInDim S4x40000x1 ![0, 1, 2] bcast_S1x1x1_S4x40000x1_0_1_2),
    TRef.binary (TRef.of (T := ⟨S4x40000x1, .i32⟩) main_call27_v5) (TRef.of (T := ⟨S4x40000x1, .i32⟩) main_call27_v9) (TRef.of (T := ⟨S4x40000x1, .i1⟩) main_call27_v10) (cmpi .sle),
    TRef.binary (TRef.of (T := ⟨S4x40000x1, .i1⟩) main_call27_v7) (TRef.of (T := ⟨S4x40000x1, .i1⟩) main_call27_v10) (TRef.of (T := ⟨S4x40000x1, .i1⟩) main_call27_v11) andi,
    TRef.nullary (TRef.of (T := ⟨S_, .i1⟩) main_call27_c_3) (constantI S_ 1 1#1),
    TRef.binary (TRef.of (T := ⟨S4x40000x1, .i1⟩) main_call27_v11) (TRef.of (T := ⟨S_, .i1⟩) main_call27_c_3) (TRef.of (T := ⟨S4x40000, .i1⟩) main_call27_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call27_v5) (TRef.of (T := ⟨S4x128x40000, .f32⟩) main_call27_v13) (fun x i => Host.gather gather_S4x128x4096_S4x40000x1_S4x128x40000_1_2_0_0_2_2_11281 x i),
    TRef.unary (TRef.of (T := ⟨S4x40000, .i1⟩) main_call27_v12) (TRef.of (T := ⟨S4x128x40000, .i1⟩) main_call27_v14) (broadcastInDim S4x128x40000 ![0, 2] bcast_S4x40000_S4x128x40000_0_2),
    TRef.nullary (TRef.of (T := ⟨S_, .f32⟩) main_call27_cst) (constant S_ .f32 0x7FC00000#32),
    TRef.unary (TRef.of (T := ⟨S_, .f32⟩) main_call27_cst) (TRef.of (T := ⟨S4x128x40000, .f32⟩) main_call27_v15) (broadcastInDim S4x128x40000 ![] bcast_S_S4x128x40000) ]

/-- The facts after operation 696: each buffer written so far at its stage value. -/
def facts27 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call27_v15, val_main_call27_v15 (F := F)⟩ ::
  ⟨main_call27_cst, val_main_call27_cst (F := F)⟩ ::
  ⟨main_call27_v14, val_main_call27_v14 (F := F) x0 x3⟩ ::
  ⟨main_call27_v13, val_main_call27_v13 (F := F) x0 x2 x3⟩ ::
  ⟨main_call27_v12, val_main_call27_v12 (F := F) x0 x3⟩ ::
  ⟨main_call27_c_3, val_main_call27_c_3 (F := F)⟩ ::
  ⟨main_call27_v11, val_main_call27_v11 (F := F) x0 x3⟩ ::
  ⟨main_call27_v10, val_main_call27_v10 (F := F) x0 x3⟩ ::
  ⟨main_call27_v9, val_main_call27_v9 (F := F)⟩ ::
  ⟨main_call27_v8, val_main_call27_v8 (F := F)⟩ ::
  ⟨main_call27_v7, val_main_call27_v7 (F := F) x0 x3⟩ ::
  ⟨main_call27_v6, val_main_call27_v6 (F := F)⟩ ::
  ⟨main_call27_c_2, val_main_call27_c_2 (F := F)⟩ ::
  ⟨main_call27_c_1, val_main_call27_c_1 (F := F)⟩ ::
  ⟨main_call27_v5, val_main_call27_v5 (F := F) x0 x3⟩ ::
  ⟨main_call27_v4, val_main_call27_v4 (F := F) x0 x3⟩ ::
  ⟨main_call27_v3, val_main_call27_v3 (F := F) x0 x3⟩ ::
  ⟨main_call27_v2, val_main_call27_v2 (F := F)⟩ ::
  ⟨main_call27_c_0, val_main_call27_c_0 (F := F)⟩ ::
  ⟨main_call27_v1, val_main_call27_v1 (F := F) x0 x3⟩ ::
  ⟨main_call27_v0, val_main_call27_v0 (F := F)⟩ ::
  ⟨main_call27_c, val_main_call27_c (F := F)⟩ ::
  ⟨main_v312, val_main_v312 (F := F) x0 x3⟩ ::
  ⟨main_v311, val_main_v311 (F := F) x0 x3⟩ ::
  ⟨main_v310, val_main_v310 (F := F) x0 x3⟩ ::
  ⟨main_call26_v4, val_main_call26_v4 (F := F)⟩ ::
  ⟨main_call26_v3, val_main_call26_v3 (F := F)⟩ ::
  facts26 x0 x1 x2 x3

theorem up27 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts26 x0 x1 x2 x3) : p ∈ facts27 x0 x1 x2 x3 :=
  memUp% 27 hp

set_option maxRecDepth 8192 in
set_option maxHeartbeats 2000000 in
/-- Operations 670 … 696: each adds the fact of the buffer it writes. -/
theorem run27 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts26 x0 x1 x2 x3) 673) :
    Inv (after seg27 W) (facts27 x0 x1 x2 x3) 700 := by
  have r := res_tunary (τ := τ) (TRef.of (T := ⟨S_, .i32⟩) main_c_121) (TRef.of (T := ⟨S_, .i32⟩) main_call26_v3) id (h.tget (TRef.of (T := ⟨S_, .i32⟩) main_c_121) (val_main_c_121 (F := F)) (val_main_c_121 (F := F)) HEq.rfl (memUp% 0 (memAt% 3 : (⟨main_c_121, val_main_c_121 (F := F)⟩ : Fact sig (Elt F)) ∈ facts26 x0 x1 x2 x3)))
  refine Inv.cons h _ _ main_call26_v3 (val_main_call26_v3 (F := F)) rfl (by decide) (r.trans (toBuf_of_heq (TRef.of (T := ⟨S_, .i32⟩) main_call26_v3) (w := val_main_call26_v3 (F := F)) ?_)) (fun W h => ?_)
  · exact HEq.rfl
  have r := res_tunary (τ := τ) (TRef.of (T := ⟨S_, .i32⟩) main_call26_v3) (TRef.of (T := ⟨S4x40000, .i32⟩) main_call26_v4) (broadcastInDim S4x40000 ![] bcast_S_S4x40000) (h.tget (TRef.of (T := ⟨S_, .i32⟩) main_call26_v3) (val_main_call26_v3 (F := F)) (val_main_call26_v3 (F := F)) HEq.rfl (memAt% 0))
  refine Inv.cons h _ _ main_call26_v4 (val_main_call26_v4 (F := F)) rfl (by decide) (r.trans (toBuf_of_heq (TRef.of (T := ⟨S4x40000, .i32⟩) main_call26_v4) (w := val_main_call26_v4 (F := F)) ?_)) (fun W h => ?_)
  · exact HEq.rfl
  have r := res_tbinary (τ := τ) (TRef.of (T := ⟨S4x40000, .i32⟩) main_call26_v4) (TRef.of (T := ⟨S4x40000, .i32⟩) main_call26_v2) (TRef.of (T := ⟨S4x40000, .i32⟩) main_v310) minsi (h.tget (TRef.of (T := ⟨S4x40000, .i32⟩) main_call26_v4) (val_main_call26_v4 (F := F)) (val_main_call26_v4 (F := F)) HEq.rfl (memAt% 0)) (h.tget (TRef.of (T := ⟨S4x40000, .i32⟩) main_call26_v2) (val_main_call26_v2 (F := F) x0 x3) (val_main_call26_v2 (F := F) x0 x3) HEq.rfl (memUp% 2 (memAt% 0 : (⟨main_call26_v2, val_main_call26_v2 (F := F) x0 x3⟩ : Fact sig (Elt F)) ∈ facts26 x0 x1 x2 x3)))
  refine Inv.cons h _ _ main_v310 (val_main_v310 (F := F) x0 x3) rfl (by decide) (r.trans (toBuf_of_heq (TRef.of (T := ⟨S4x40000, .i32⟩) main_v310) (w := val_main_v310 (F := F) x0 x3) ?_)) (fun W h => ?_)
  · exact HEq.rfl
  have r := res_binary (τ := τ) (a := main_v309) (b := main_v310) (y := main_v311) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v309 (val_main_v309 (F := F) x0 x3) (memUp% 3 (memAt% 5 : (⟨main_v309, val_main_v309 (F := F) x0 x3⟩ : Fact sig (Elt F)) ∈ facts26 x0 x1 x2 x3))) (h.get' main_v310 (val_main_v310 (F := F) x0 x3) (memAt% 0))
  refine Inv.cons h _ _ main_v311 (val_main_v311 (F := F) x0 x3) rfl (by decide) (r.trans ?_) (fun W h => ?_)
  · rfl
  have r := res_unary (τ := τ) (x := main_v311) (y := main_v312) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v311 (val_main_v311 (F := F) x0 x3) (memAt% 0))
  refine Inv.cons h _ _ main_v312 (val_main_v312 (F := F) x0 x3) rfl (by decide) (r.trans ?_) (fun W h => ?_)
  · rfl
  have r := res_tnullary (τ := τ) (W := W) (TRef.of (T := ⟨S_, .i32⟩) main_call27_c) (constantI S_ 32 0#32)
  refine Inv.cons h _ _ main_call27_c (val_main_call27_c (F := F)) rfl (by decide) (r.trans (toBuf_of_heq (TRef.of (T := ⟨S_, .i32⟩) main_call27_c) (w := val_main_call27_c (F := F)) ?_)) (fun W h => ?_)
  · exact HEq.rfl
  have r := res_tunary (τ := τ) (TRef.of (T := ⟨S_, .i32⟩) main_call27_c) (TRef.of (T := ⟨S4x1x40000, .i32⟩) main_call27_v0) (broadcastInDim S4x1x40000 ![] bcast_S_S4x1x40000) (h.tget (TRef.of (T := ⟨S_, .i32⟩) main_call27_c) (val_main_call27_c (F := F)) (val_main_call27_c (F := F)) HEq.rfl (memAt% 0))
  refine Inv.cons h _ _ main_call27_v0 (val_main_call27_v0 (F := F)) rfl (by decide) (r.trans (toBuf_of_heq (TRef.of (T := ⟨S4x1x40000, .i32⟩) main_call27_v0) (w := val_main_call27_v0 (F := F)) ?_)) (fun W h => ?_)
  · exact HEq.rfl
  have r := res_tbinary (τ := τ) (TRef.of (T := ⟨S4x1x40000, .i32⟩) main_v312) (TRef.of (T := ⟨S4x1x40000, .i32⟩) main_call27_v0) (TRef.of (T := ⟨S4x1x40000, .i1⟩) main_call27_v1) (cmpi .slt) (h.tget (TRef.of (T := ⟨S4x1x40000, .i32⟩) main_v312) (val_main_v312 (F := F) x0 x3) (val_main_v312 (F := F) x0 x3) HEq.rfl (memAt% 2)) (h.tget (TRef.of (T := ⟨S4x1x40000, .i32⟩) main_call27_v0) (val_main_call27_v0 (F := F)) (val_main_call27_v0 (F := F)) HEq.rfl (memAt% 0))
  refine Inv.cons h _ _ main_call27_v1 (val_main_call27_v1 (F := F) x0 x3) rfl (by decide) (r.trans (toBuf_of_heq (TRef.of (T := ⟨S4x1x40000, .i1⟩) main_call27_v1) (w := val_main_call27_v1 (F := F) x0 x3) ?_)) (fun W h => ?_)
  · exact HEq.rfl
  have r := res_tnullary (τ := τ) (W := W) (TRef.of (T := ⟨S_, .i32⟩) main_call27_c_0) (constantI S_ 32 4096#32)
  refine Inv.cons h _ _ main_call27_c_0 (val_main_call27_c_0 (F := F)) rfl (by decide) (r.trans (toBuf_of_heq (TRef.of (T := ⟨S_, .i32⟩) main_call27_c_0) (w := val_main_call27_c_0 (F := F)) ?_)) (fun W h => ?_)
  · exact HEq.rfl
  have r := res_tunary (τ := τ) (TRef.of (T := ⟨S_, .i32⟩) main_call27_c_0) (TRef.of (T := ⟨S4x1x40000, .i32⟩) main_call27_v2) (broadcastInDim S4x1x40000 ![] bcast_S_S4x1x40000) (h.tget (TRef.of (T := ⟨S_, .i32⟩) main_call27_c_0) (val_main_call27_c_0 (F := F)) (val_main_call27_c_0 (F := F)) HEq.rfl (memAt% 0))
  refine Inv.cons h _ _ main_call27_v2 (val_main_call27_v2 (F := F)) rfl (by decide) (r.trans (toBuf_of_heq (TRef.of (T := ⟨S4x1x40000, .i32⟩) main_call27_v2) (w := val_main_call27_v2 (F := F)) ?_)) (fun W h => ?_)
  · exact HEq.rfl
  have r := res_tbinary (τ := τ) (TRef.of (T := ⟨S4x1x40000, .i32⟩) main_v312) (TRef.of (T := ⟨S4x1x40000, .i32⟩) main_call27_v2) (TRef.of (T := ⟨S4x1x40000, .i32⟩) main_call27_v3) addi (h.tget (TRef.of (T := ⟨S4x1x40000, .i32⟩) main_v312) (val_main_v312 (F := F) x0 x3) (val_main_v312 (F := F) x0 x3) HEq.rfl (memAt% 5)) (h.tget (TRef.of (T := ⟨S4x1x40000, .i32⟩) main_call27_v2) (val_main_call27_v2 (F := F)) (val_main_call27_v2 (F := F)) HEq.rfl (memAt% 0))
  refine Inv.cons h _ _ main_call27_v3 (val_main_call27_v3 (F := F) x0 x3) rfl (by decide) (r.trans (toBuf_of_heq (TRef.of (T := ⟨S4x1x40000, .i32⟩) main_call27_v3) (w := val_main_call27_v3 (F := F) x0 x3) ?_)) (fun W h => ?_)
  · exact HEq.rfl
  have r := res_tternary (τ := τ) (TRef.of (T := ⟨S4x1x40000, .i1⟩) main_call27_v1) (TRef.of (T := ⟨S4x1x40000, .i32⟩) main_call27_v3) (TRef.of (T := ⟨S4x1x40000, .i32⟩) main_v312) (TRef.of (T := ⟨S4x1x40000, .i32⟩) main_call27_v4) select (h.tget (TRef.of (T := ⟨S4x1x40000, .i1⟩) main_call27_v1) (val_main_call27_v1 (F := F) x0 x3) (val_main_call27_v1 (F := F) x0 x3) HEq.rfl (memAt% 3)) (h.tget (TRef.of (T := ⟨S4x1x40000, .i32⟩) main_call27_v3) (val_main_call27_v3 (F := F) x0 x3) (val_main_call27_v3 (F := F) x0 x3) HEq.rfl (memAt% 0)) (h.tget (TRef.of (T := ⟨S4x1x40000, .i32⟩) main_v312) (val_main_v312 (F := F) x0 x3) (val_main_v312 (F := F) x0 x3) HEq.rfl (memAt% 6))
  refine Inv.cons h _ _ main_call27_v4 (val_main_call27_v4 (F := F) x0 x3) rfl (by decide) (r.trans (toBuf_of_heq (TRef.of (T := ⟨S4x1x40000, .i32⟩) main_call27_v4) (w := val_main_call27_v4 (F := F) x0 x3) ?_)) (fun W h => ?_)
  · exact HEq.rfl
  have r := res_treshape (τ := τ) (TRef.of (T := ⟨S4x1x40000, .i32⟩) main_call27_v4) (TRef.of (T := ⟨S4x40000x1, .i32⟩) main_call27_v5) rfl shapeCasts_S4x1x40000_S4x40000x1 (h.tget (TRef.of (T := ⟨S4x1x40000, .i32⟩) main_call27_v4) (val_main_call27_v4 (F := F) x0 x3) (val_main_call27_v4 (F := F) x0 x3) HEq.rfl (memAt% 0))
  refine Inv.cons h _ _ main_call27_v5 (val_main_call27_v5 (F := F) x0 x3) rfl (by decide) (r.trans (toBuf_of_heq (TRef.of (T := ⟨S4x40000x1, .i32⟩) main_call27_v5) (w := val_main_call27_v5 (F := F) x0 x3) ?_)) (fun W h => ?_)
  · exact HEq.rfl
  have r := res_tnullary (τ := τ) (W := W) (TRef.of (T := ⟨S1, .i32⟩) main_call27_c_1) (constantI S1 32 4095#32)
  refine Inv.cons h _ _ main_call27_c_1 (val_main_call27_c_1 (F := F)) rfl (by decide) (r.trans (toBuf_of_heq (TRef.of (T := ⟨S1, .i32⟩) main_call27_c_1) (w := val_main_call27_c_1 (F := F)) ?_)) (fun W h => ?_)
  · exact HEq.rfl
  have r := res_tnullary (τ := τ) (W := W) (TRef.of (T := ⟨S_, .i32⟩) main_call27_c_2) (constantI S_ 32 0#32)
  refine Inv.cons h _ _ main_call27_c_2 (val_main_call27_c_2 (F := F)) rfl (by decide) (r.trans (toBuf_of_heq (TRef.of (T := ⟨S_, .i32⟩) main_call27_c_2) (w := val_main_call27_c_2 (F := F)) ?_)) (fun W h => ?_)
  · exact HEq.rfl
  have r := res_tunary (τ := τ) (TRef.of (T := ⟨S_, .i32⟩) main_call27_c_2) (TRef.of (T := ⟨S4x40000x1, .i32⟩) main_call27_v6) (broadcastInDim S4x40000x1 ![] bcast_S_S4x40000x1) (h.tget (TRef.of (T := ⟨S_, .i32⟩) main_call27_c_2) (val_main_call27_c_2 (F := F)) (val_main_call27_c_2 (F := F)) HEq.rfl (memAt% 0))
  refine Inv.cons h _ _ main_call27_v6 (val_main_call27_v6 (F := F)) rfl (by decide) (r.trans (toBuf_of_heq (TRef.of (T := ⟨S4x40000x1, .i32⟩) main_call27_v6) (w := val_main_call27_v6 (F := F)) ?_)) (fun W h => ?_)
  · exact HEq.rfl
  have r := res_tbinary (τ := τ) (TRef.of (T := ⟨S4x40000x1, .i32⟩) main_call27_v5) (TRef.of (T := ⟨S4x40000x1, .i32⟩) main_call27_v6) (TRef.of (T := ⟨S4x40000x1, .i1⟩) main_call27_v7) (cmpi .sge) (h.tget (TRef.of (T := ⟨S4x40000x1, .i32⟩) main_call27_v5) (val_main_call27_v5 (F := F) x0 x3) (val_main_call27_v5 (F := F) x0 x3) HEq.rfl (memAt% 3)) (h.tget (TRef.of (T := ⟨S4x40000x1, .i32⟩) main_call27_v6) (val_main_call27_v6 (F := F)) (val_main_call27_v6 (F := F)) HEq.rfl (memAt% 0))
  refine Inv.cons h _ _ main_call27_v7 (val_main_call27_v7 (F := F) x0 x3) rfl (by decide) (r.trans (toBuf_of_heq (TRef.of (T := ⟨S4x40000x1, .i1⟩) main_call27_v7) (w := val_main_call27_v7 (F := F) x0 x3) ?_)) (fun W h => ?_)
  · exact HEq.rfl
  have r := res_tunary (τ := τ) (TRef.of (T := ⟨S1, .i32⟩) main_call27_c_1) (TRef.of (T := ⟨S1x1x1, .i32⟩) main_call27_v8) (broadcastInDim S1x1x1 ![2] bcast_S1_S1x1x1_2) (h.tget (TRef.of (T := ⟨S1, .i32⟩) main_call27_c_1) (val_main_call27_c_1 (F := F)) (val_main_call27_c_1 (F := F)) HEq.rfl (memAt% 3))
  refine Inv.cons h _ _ main_call27_v8 (val_main_call27_v8 (F := F)) rfl (by decide) (r.trans (toBuf_of_heq (TRef.of (T := ⟨S1x1x1, .i32⟩) main_call27_v8) (w := val_main_call27_v8 (F := F)) ?_)) (fun W h => ?_)
  · exact HEq.rfl
  have r := res_tunary (τ := τ) (TRef.of (T := ⟨S1x1x1, .i32⟩) main_call27_v8) (TRef.of (T := ⟨S4x40000x1, .i32⟩) main_call27_v9) (broadcastInDim S4x40000x1 ![0, 1, 2] bcast_S1x1x1_S4x40000x1_0_1_2) (h.tget (TRef.of (T := ⟨S1x1x1, .i32⟩) main_call27_v8) (val_main_call27_v8 (F := F)) (val_main_call27_v8 (F := F)) HEq.rfl (memAt% 0))
  refine Inv.cons h _ _ main_call27_v9 (val_main_call27_v9 (F := F)) rfl (by decide) (r.trans (toBuf_of_heq (TRef.of (T := ⟨S4x40000x1, .i32⟩) main_call27_v9) (w := val_main_call27_v9 (F := F)) ?_)) (fun W h => ?_)
  · exact HEq.rfl
  have r := res_tbinary (τ := τ) (TRef.of (T := ⟨S4x40000x1, .i32⟩) main_call27_v5) (TRef.of (T := ⟨S4x40000x1, .i32⟩) main_call27_v9) (TRef.of (T := ⟨S4x40000x1, .i1⟩) main_call27_v10) (cmpi .sle) (h.tget (TRef.of (T := ⟨S4x40000x1, .i32⟩) main_call27_v5) (val_main_call27_v5 (F := F) x0 x3) (val_main_call27_v5 (F := F) x0 x3) HEq.rfl (memAt% 6)) (h.tget (TRef.of (T := ⟨S4x40000x1, .i32⟩) main_call27_v9) (val_main_call27_v9 (F := F)) (val_main_call27_v9 (F := F)) HEq.rfl (memAt% 0))
  refine Inv.cons h _ _ main_call27_v10 (val_main_call27_v10 (F := F) x0 x3) rfl (by decide) (r.trans (toBuf_of_heq (TRef.of (T := ⟨S4x40000x1, .i1⟩) main_call27_v10) (w := val_main_call27_v10 (F := F) x0 x3) ?_)) (fun W h => ?_)
  · exact HEq.rfl
  have r := res_tbinary (τ := τ) (TRef.of (T := ⟨S4x40000x1, .i1⟩) main_call27_v7) (TRef.of (T := ⟨S4x40000x1, .i1⟩) main_call27_v10) (TRef.of (T := ⟨S4x40000x1, .i1⟩) main_call27_v11) andi (h.tget (TRef.of (T := ⟨S4x40000x1, .i1⟩) main_call27_v7) (val_main_call27_v7 (F := F) x0 x3) (val_main_call27_v7 (F := F) x0 x3) HEq.rfl (memAt% 3)) (h.tget (TRef.of (T := ⟨S4x40000x1, .i1⟩) main_call27_v10) (val_main_call27_v10 (F := F) x0 x3) (val_main_call27_v10 (F := F) x0 x3) HEq.rfl (memAt% 0))
  refine Inv.cons h _ _ main_call27_v11 (val_main_call27_v11 (F := F) x0 x3) rfl (by decide) (r.trans (toBuf_of_heq (TRef.of (T := ⟨S4x40000x1, .i1⟩) main_call27_v11) (w := val_main_call27_v11 (F := F) x0 x3) ?_)) (fun W h => ?_)
  · exact HEq.rfl
  have r := res_tnullary (τ := τ) (W := W) (TRef.of (T := ⟨S_, .i1⟩) main_call27_c_3) (constantI S_ 1 1#1)
  refine Inv.cons h _ _ main_call27_c_3 (val_main_call27_c_3 (F := F)) rfl (by decide) (r.trans (toBuf_of_heq (TRef.of (T := ⟨S_, .i1⟩) main_call27_c_3) (w := val_main_call27_c_3 (F := F)) ?_)) (fun W h => ?_)
  · exact HEq.rfl
  have r := res_tbinary (τ := τ) (TRef.of (T := ⟨S4x40000x1, .i1⟩) main_call27_v11) (TRef.of (T := ⟨S_, .i1⟩) main_call27_c_3) (TRef.of (T := ⟨S4x40000, .i1⟩) main_call27_v12) (fun x v => Host.reduce IntOp.andi x v reducesTo_S4x40000x1_S4x40000_d2 h_S_) (h.tget (TRef.of (T := ⟨S4x40000x1, .i1⟩) main_call27_v11) (val_main_call27_v11 (F := F) x0 x3) (val_main_call27_v11 (F := F) x0 x3) HEq.rfl (memAt% 1)) (h.tget (TRef.of (T := ⟨S_, .i1⟩) main_call27_c_3) (val_main_call27_c_3 (F := F)) (val_main_call27_c_3 (F := F)) HEq.rfl (memAt% 0))
  refine Inv.cons h _ _ main_call27_v12 (val_main_call27_v12 (F := F) x0 x3) rfl (by decide) (r.trans (toBuf_of_heq (TRef.of (T := ⟨S4x40000, .i1⟩) main_call27_v12) (w := val_main_call27_v12 (F := F) x0 x3) ?_)) (fun W h => ?_)
  · exact HEq.rfl
  have r := res_tbinary (τ := τ) (TRef.of (T := ⟨S4x128x4096, .f32⟩) main_v44) (TRef.of (T := ⟨S4x40000x1, .i32⟩) main_call27_v5) (TRef.of (T := ⟨S4x128x40000, .f32⟩) main_call27_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 23 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3)))))))))))))))))))))))))))) (h.tget (TRef.of (T := ⟨S4x40000x1, .i32⟩) main_call27_v5) (val_main_call27_v5 (F := F) x0 x3) (val_main_call27_v5 (F := F) x0 x3) HEq.rfl (memAt% 10))
  refine Inv.cons h _ _ main_call27_v13 (val_main_call27_v13 (F := F) x0 x2 x3) rfl (by decide) (r.trans (toBuf_of_heq (TRef.of (T := ⟨S4x128x40000, .f32⟩) main_call27_v13) (w := val_main_call27_v13 (F := F) x0 x2 x3) ?_)) (fun W h => ?_)
  · exact HEq.rfl
  have r := res_tunary (τ := τ) (TRef.of (T := ⟨S4x40000, .i1⟩) main_call27_v12) (TRef.of (T := ⟨S4x128x40000, .i1⟩) main_call27_v14) (broadcastInDim S4x128x40000 ![0, 2] bcast_S4x40000_S4x128x40000_0_2) (h.tget (TRef.of (T := ⟨S4x40000, .i1⟩) main_call27_v12) (val_main_call27_v12 (F := F) x0 x3) (val_main_call27_v12 (F := F) x0 x3) HEq.rfl (memAt% 1))
  refine Inv.cons h _ _ main_call27_v14 (val_main_call27_v14 (F := F) x0 x3) rfl (by decide) (r.trans (toBuf_of_heq (TRef.of (T := ⟨S4x128x40000, .i1⟩) main_call27_v14) (w := val_main_call27_v14 (F := F) x0 x3) ?_)) (fun W h => ?_)
  · exact HEq.rfl
  have r := res_tnullary (τ := τ) (W := W) (TRef.of (T := ⟨S_, .f32⟩) main_call27_cst) (constant S_ .f32 0x7FC00000#32)
  refine Inv.cons h _ _ main_call27_cst (val_main_call27_cst (F := F)) rfl (by decide) (r.trans (toBuf_of_heq (TRef.of (T := ⟨S_, .f32⟩) main_call27_cst) (w := val_main_call27_cst (F := F)) ?_)) (fun W h => ?_)
  · exact HEq.rfl
  have r := res_tunary (τ := τ) (TRef.of (T := ⟨S_, .f32⟩) main_call27_cst) (TRef.of (T := ⟨S4x128x40000, .f32⟩) main_call27_v15) (broadcastInDim S4x128x40000 ![] bcast_S_S4x128x40000) (h.tget (TRef.of (T := ⟨S_, .f32⟩) main_call27_cst) (val_main_call27_cst (F := F)) (val_main_call27_cst (F := F)) HEq.rfl (memAt% 0))
  refine Inv.cons h _ _ main_call27_v15 (val_main_call27_v15 (F := F)) rfl (by decide) (r.trans (toBuf_of_heq (TRef.of (T := ⟨S4x128x40000, .f32⟩) main_call27_v15) (w := val_main_call27_v15 (F := F)) ?_)) (fun W h => ?_)
  · exact HEq.rfl
  exact h

/-- Operations 697 … 723 of the line. -/
abbrev seg28 : List (HloOp τ sig (Elt F)) :=
  [ TRef.ternary (TRef.of (T := ⟨S4x128x40000, .i1⟩) main_call27_v14) (TRef.of (T := ⟨S4x128x40000, .f32⟩) main_call27_v13) (TRef.of (T := ⟨S4x128x40000, .f32⟩) main_call27_v15) (TRef.of (T := ⟨S4x128x40000, .f32⟩) main_v313) select,
    unary main_v302 main_v314 (uitofp .f32 : (⟨S4x40000, .i1⟩ : BufTy).Contents (Elt F) → (⟨S4x40000, .f32⟩ : BufTy).Contents (Elt F)),
    binary main_v285 main_v314 main_v315 (mulf : (⟨S4x40000, .f32⟩ : BufTy).Contents (Elt F) → (⟨S4x40000, .f32⟩ : BufTy).Contents (Elt F) → (⟨S4x40000, .f32⟩ : BufTy).Contents (Elt F)),
    unary main_v315 main_v316 (broadcastInDim S4x1x40000 ![0, 2] bcast_S4x40000_S4x1x40000_0_2 : (⟨S4x40000, .f32⟩ : BufTy).Contents (Elt F) → (⟨S4x1x40000, .f32⟩ : BufTy).Contents (Elt F)),
    unary main_v316 main_v317 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v313 main_v317 main_v318 (mulf : (⟨S4x128x40000, .f32⟩ : BufTy).Contents (Elt F) → (⟨S4x128x40000, .f32⟩ : BufTy).Contents (Elt F) → (⟨S4x128x40000, .f32⟩ : BufTy).Contents (Elt F)),
    binary main_v281 main_v318 main_v319 (addf : (⟨S4x128x40000, .f32⟩ : BufTy).Contents (Elt F) → (⟨S4x128x40000, .f32⟩ : BufTy).Contents (Elt F) → (⟨S4x128x40000, .f32⟩ : BufTy).Contents (Elt F)),
    binary main_v32 main_v33 main_v320 (mulf : (⟨S4x40000, .f32⟩ : BufTy).Contents (Elt F) → (⟨S4x40000, .f32⟩ : BufTy).Contents (Elt F) → (⟨S4x40000, .f32⟩ : BufTy).Contents (Elt F)),
    binary main_v320 main_v34 main_v321 (mulf : (⟨S4x40000, .f32⟩ : BufTy).Contents (Elt F) → (⟨S4x40000, .f32⟩ : BufTy).Contents (Elt F) → (⟨S4x40000, .f32⟩ : BufTy).Contents (Elt F)),
    nullary main_c_122 (constantI S_ 32 0#32),
    unary main_c_122 main_v322 (broadcastInDim S4x40000 ![] bcast_S_S4x40000 : (⟨S_, .i32⟩ : BufTy).Contents (Elt F) → (⟨S4x40000, .i32⟩ : BufTy).Contents (Elt F)),
    binary main_v39 main_v322 main_v323 (cmpi .sge : (⟨S4x40000, .i32⟩ : BufTy).Contents (Elt F) → (⟨S4x40000, .i32⟩ : BufTy).Contents (Elt F) → (⟨S4x40000, .i1⟩ : BufTy).Contents (Elt F)),
    nullary main_c_123 (constantI S_ 32 16#32),
    unary main_c_123 main_v324 (broadcastInDim S4x40000 ![] bcast_S_S4x40000 : (⟨S_, .i32⟩ : BufTy).Contents (Elt F) → (⟨S4x40000, .i32⟩ : BufTy).Contents (Elt F)),
    binary main_v39 main_v324 main_v325 (cmpi .slt : (⟨S4x40000, .i32⟩ : BufTy).Contents (Elt F) → (⟨S4x40000, .i32⟩ : BufTy).Contents (Elt F) → (⟨S4x40000, .i1⟩ : BufTy).Contents (Elt F)),
    binary main_v323 main_v325 main_v326 (andi : (⟨S4x40000, .i1⟩ : BufTy).Contents (Elt F) → (⟨S4x40000, .i1⟩ : BufTy).Contents (Elt F) → (⟨S4x40000, .i1⟩ : BufTy).Contents (Elt F)),
    nullary main_c_124 (constantI S_ 32 0#32),
    unary main_c_124 main_v327 (broadcastInDim S4x40000 ![] bcast_S_S4x40000 : (⟨S_, .i32⟩ : BufTy).Contents (Elt F) → (⟨S4x40000, .i32⟩ : BufTy).Contents (Elt F)),
    binary main_v41 main_v327 main_v328 (cmpi .sge : (⟨S4x40000, .i32⟩ : BufTy).Contents (Elt F) → (⟨S4x40000, .i32⟩ : BufTy).Contents (Elt F) → (⟨S4x40000, .i1⟩ : BufTy).Contents (Elt F)),
    binary main_v326 main_v328 main_v329 (andi : (⟨S4x40000, .i1⟩ : BufTy).Contents (Elt F) → (⟨S4x40000, .i1⟩ : BufTy).Contents (Elt F) → (⟨S4x40000, .i1⟩ : BufTy).Contents (Elt F)),
    nullary main_c_125 (constantI S_ 32 16#32),
    unary main_c_125 main_v330 (broadcastInDim S4x40000 ![] bcast_S_S4x40000 : (⟨S_, .i32⟩ : BufTy).Contents (Elt F) → (⟨S4x40000, .i32⟩ : BufTy).Contents (Elt F)),
    binary main_v41 main_v330 main_v331 (cmpi .slt : (⟨S4x40000, .i32⟩ : BufTy).Contents (Elt F) → (⟨S4x40000, .i32⟩ : BufTy).Contents (Elt F) → (⟨S4x40000, .i1⟩ : BufTy).Contents (Elt F)),
    binary main_v329 main_v331 main_v332 (andi : (⟨S4x40000, .i1⟩ : BufTy).Contents (Elt F) → (⟨S4x40000, .i1⟩ : BufTy).Contents (Elt F) → (⟨S4x40000, .i1⟩ : BufTy).Contents (Elt F)),
    nullary main_c_126 (constantI S_ 32 0#32),
    unary main_c_126 main_v333 (broadcastInDim S4x40000 ![] bcast_S_S4x40000 : (⟨S_, .i32⟩ : BufTy).Contents (Elt F) → (⟨S4x40000, .i32⟩ : BufTy).Contents (Elt F)),
    binary main_v43 main_v333 main_v334 (cmpi .sge : (⟨S4x40000, .i32⟩ : BufTy).Contents (Elt F) → (⟨S4x40000, .i32⟩ : BufTy).Contents (Elt F) → (⟨S4x40000, .i1⟩ : BufTy).Contents (Elt F)) ]

/-- The facts after operation 723: each buffer written so far at its stage value. -/
def facts28 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v334, val_main_v334 (F := F) x0 x3⟩ ::
  ⟨main_v333, val_main_v333 (F := F)⟩ ::
  ⟨main_c_126, val_main_c_126 (F := F)⟩ ::
  ⟨main_v332, val_main_v332 (F := F) x0 x3⟩ ::
  ⟨main_v331, val_main_v331 (F := F) x0 x3⟩ ::
  ⟨main_v330, val_main_v330 (F := F)⟩ ::
  ⟨main_c_125, val_main_c_125 (F := F)⟩ ::
  ⟨main_v329, val_main_v329 (F := F) x0 x3⟩ ::
  ⟨main_v328, val_main_v328 (F := F) x0 x3⟩ ::
  ⟨main_v327, val_main_v327 (F := F)⟩ ::
  ⟨main_c_124, val_main_c_124 (F := F)⟩ ::
  ⟨main_v326, val_main_v326 (F := F) x0 x3⟩ ::
  ⟨main_v325, val_main_v325 (F := F) x0 x3⟩ ::
  ⟨main_v324, val_main_v324 (F := F)⟩ ::
  ⟨main_c_123, val_main_c_123 (F := F)⟩ ::
  ⟨main_v323, val_main_v323 (F := F) x0 x3⟩ ::
  ⟨main_v322, val_main_v322 (F := F)⟩ ::
  ⟨main_c_122, val_main_c_122 (F := F)⟩ ::
  ⟨main_v321, val_main_v321 (F := F) x0 x3⟩ ::
  ⟨main_v320, val_main_v320 (F := F) x0 x3⟩ ::
  ⟨main_v319, val_main_v319 (F := F) x0 x2 x3⟩ ::
  ⟨main_v318, val_main_v318 (F := F) x0 x2 x3⟩ ::
  ⟨main_v317, val_main_v317 (F := F) x0 x3⟩ ::
  ⟨main_v316, val_main_v316 (F := F) x0 x3⟩ ::
  ⟨main_v315, val_main_v315 (F := F) x0 x3⟩ ::
  ⟨main_v314, val_main_v314 (F := F) x0 x3⟩ ::
  ⟨main_v313, val_main_v313 (F := F) x0 x2 x3⟩ ::
  facts27 x0 x1 x2 x3

theorem up28 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts27 x0 x1 x2 x3) : p ∈ facts28 x0 x1 x2 x3 :=
  memUp% 27 hp

set_option maxRecDepth 8192 in
set_option maxHeartbeats 2000000 in
/-- Operations 697 … 723: each adds the fact of the buffer it writes. -/
theorem run28 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts27 x0 x1 x2 x3) 700) :
    Inv (after seg28 W) (facts28 x0 x1 x2 x3) 727 := by
  have r := res_tternary (τ := τ) (TRef.of (T := ⟨S4x128x40000, .i1⟩) main_call27_v14) (TRef.of (T := ⟨S4x128x40000, .f32⟩) main_call27_v13) (TRef.of (T := ⟨S4x128x40000, .f32⟩) main_call27_v15) (TRef.of (T := ⟨S4x128x40000, .f32⟩) main_v313) select (h.tget (TRef.of (T := ⟨S4x128x40000, .i1⟩) main_call27_v14) (val_main_call27_v14 (F := F) x0 x3) (val_main_call27_v14 (F := F) x0 x3) HEq.rfl (memUp% 0 (memAt% 2 : (⟨main_call27_v14, val_main_call27_v14 (F := F) x0 x3⟩ : Fact sig (Elt F)) ∈ facts27 x0 x1 x2 x3))) (h.tget (TRef.of (T := ⟨S4x128x40000, .f32⟩) main_call27_v13) (val_main_call27_v13 (F := F) x0 x2 x3) (val_main_call27_v13 (F := F) x0 x2 x3) HEq.rfl (memUp% 0 (memAt% 3 : (⟨main_call27_v13, val_main_call27_v13 (F := F) x0 x2 x3⟩ : Fact sig (Elt F)) ∈ facts27 x0 x1 x2 x3))) (h.tget (TRef.of (T := ⟨S4x128x40000, .f32⟩) main_call27_v15) (val_main_call27_v15 (F := F)) (val_main_call27_v15 (F := F)) HEq.rfl (memUp% 0 (memAt% 0 : (⟨main_call27_v15, val_main_call27_v15 (F := F)⟩ : Fact sig (Elt F)) ∈ facts27 x0 x1 x2 x3)))
  refine Inv.cons h _ _ main_v313 (val_main_v313 (F := F) x0 x2 x3) rfl (by decide) (r.trans (toBuf_of_heq (TRef.of (T := ⟨S4x128x40000, .f32⟩) main_v313) (w := val_main_v313 (F := F) x0 x2 x3) ?_)) (fun W h => ?_)
  · exact HEq.rfl
  have r := res_unary (τ := τ) (x := main_v302) (y := main_v314) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v302 (val_main_v302 (F := F) x0 x3) (memUp% 1 (up27 x0 x1 x2 x3 (up26 x0 x1 x2 x3 (memAt% 1 : (⟨main_v302, val_main_v302 (F := F) x0 x3⟩ : Fact sig (Elt F)) ∈ facts25 x0 x1 x2 x3)))))
  refine Inv.cons h _ _ main_v314 (val_main_v314 (F := F) x0 x3) rfl (by decide) (r.trans ?_) (fun W h => ?_)
  · rfl
  have r := res_binary (τ := τ) (a := main_v285) (b := main_v314) (y := main_v315) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v285 (val_main_v285 (F := F) x0 x3) (memUp% 2 (up27 x0 x1 x2 x3 (up26 x0 x1 x2 x3 (up25 x0 x1 x2 x3 (memAt% 0 : (⟨main_v285, val_main_v285 (F := F) x0 x3⟩ : Fact sig (Elt F)) ∈ facts24 x0 x1 x2 x3)))))) (h.get' main_v314 (val_main_v314 (F := F) x0 x3) (memAt% 0))
  refine Inv.cons h _ _ main_v315 (val_main_v315 (F := F) x0 x3) rfl (by decide) (r.trans ?_) (fun W h => ?_)
  · rfl
  have r := res_unary (τ := τ) (x := main_v315) (y := main_v316) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v315 (val_main_v315 (F := F) x0 x3) (memAt% 0))
  refine Inv.cons h _ _ main_v316 (val_main_v316 (F := F) x0 x3) rfl (by decide) (r.trans ?_) (fun W h => ?_)
  · rfl
  have r := res_unary (τ := τ) (x := main_v316) (y := main_v317) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v316 (val_main_v316 (F := F) x0 x3) (memAt% 0))
  refine Inv.cons h _ _ main_v317 (val_main_v317 (F := F) x0 x3) rfl (by decide) (r.trans ?_) (fun W h => ?_)
  · rfl
  have r := res_binary (τ := τ) (a := main_v313) (b := main_v317) (y := main_v318) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v313 (val_main_v313 (F := F) x0 x2 x3) (memAt% 4)) (h.get' main_v317 (val_main_v317 (F := F) x0 x3) (memAt% 0))
  refine Inv.cons h _ _ main_v318 (val_main_v318 (F := F) x0 x2 x3) rfl (by decide) (r.trans ?_) (fun W h => ?_)
  · rfl
  have r := res_binary (τ := τ) (a := main_v281) (b := main_v318) (y := main_v319) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v281 (val_main_v281 (F := F) x0 x2 x3) (memUp% 6 (up27 x0 x1 x2 x3 (up26 x0 x1 x2 x3 (up25 x0 x1 x2 x3 (memAt% 5 : (⟨main_v281, val_main_v281 (F := F) x0 x2 x3⟩ : Fact sig (Elt F)) ∈ facts24 x0 x1 x2 x3)))))) (h.get' main_v318 (val_main_v318 (F := F) x0 x2 x3) (memAt% 0))
  refine Inv.cons h _ _ main_v319 (val_main_v319 (F := F) x0 x2 x3) rfl (by decide) (r.trans ?_) (fun W h => ?_)
  · rfl
  have r := res_binary (τ := τ) (a := main_v32) (b := main_v33) (y := main_v320) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v32 (val_main_v32 (F := F) x0 x3) (memUp% 7 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 16 : (⟨main_v32, val_main_v32 (F := F) x0 x3⟩ : Fact sig (Elt F)) ∈ facts1 x0 x1 x2 x3))))))))))))))))))))))))))))) (h.get' main_v33 (val_main_v33 (F := F) x0 x3) (memUp% 7 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 15 : (⟨main_v33, val_main_v33 (F := F) x0 x3⟩ : Fact sig (Elt F)) ∈ facts1 x0 x1 x2 x3)))))))))))))))))))))))))))))
  refine Inv.cons h _ _ main_v320 (val_main_v320 (F := F) x0 x3) rfl (by decide) (r.trans ?_) (fun W h => ?_)
  · rfl
  have r := res_binary (τ := τ) (a := main_v320) (b := main_v34) (y := main_v321) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v320 (val_main_v320 (F := F) x0 x3) (memAt% 0)) (h.get' main_v34 (val_main_v34 (F := F) x0 x3) (memUp% 8 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 14 : (⟨main_v34, val_main_v34 (F := F) x0 x3⟩ : Fact sig (Elt F)) ∈ facts1 x0 x1 x2 x3)))))))))))))))))))))))))))))
  refine Inv.cons h _ _ main_v321 (val_main_v321 (F := F) x0 x3) rfl (by decide) (r.trans ?_) (fun W h => ?_)
  · rfl
  have r := res_nullary (τ := τ) (W := W) (y := main_c_122) (v := (constantI S_ 32 0#32)) (hy := ⟨by decide, rfl⟩)
  refine Inv.cons h _ _ main_c_122 (val_main_c_122 (F := F)) rfl (by decide) (r.trans ?_) (fun W h => ?_)
  · rfl
  have r := res_unary (τ := τ) (x := main_c_122) (y := main_v322) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_122 (val_main_c_122 (F := F)) (memAt% 0))
  refine Inv.cons h _ _ main_v322 (val_main_v322 (F := F)) rfl (by decide) (r.trans ?_) (fun W h => ?_)
  · rfl
  have r := res_binary (τ := τ) (a := main_v39) (b := main_v322) (y := main_v323) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 11 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3))))))))))))))))))))))))))))) (h.get' main_v322 (val_main_v322 (F := F)) (memAt% 0))
  refine Inv.cons h _ _ main_v323 (val_main_v323 (F := F) x0 x3) rfl (by decide) (r.trans ?_) (fun W h => ?_)
  · rfl
  have r := res_nullary (τ := τ) (W := W) (y := main_c_123) (v := (constantI S_ 32 16#32)) (hy := ⟨by decide, rfl⟩)
  refine Inv.cons h _ _ main_c_123 (val_main_c_123 (F := F)) rfl (by decide) (r.trans ?_) (fun W h => ?_)
  · rfl
  have r := res_unary (τ := τ) (x := main_c_123) (y := main_v324) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_123 (val_main_c_123 (F := F)) (memAt% 0))
  refine Inv.cons h _ _ main_v324 (val_main_v324 (F := F)) rfl (by decide) (r.trans ?_) (fun W h => ?_)
  · rfl
  have r := res_binary (τ := τ) (a := main_v39) (b := main_v324) (y := main_v325) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v39 (val_main_v39 (F := F) x0 x3) (memUp% 14 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3))))))))))))))))))))))))))))) (h.get' main_v324 (val_main_v324 (F := F)) (memAt% 0))
  refine Inv.cons h _ _ main_v325 (val_main_v325 (F := F) x0 x3) rfl (by decide) (r.trans ?_) (fun W h => ?_)
  · rfl
  have r := res_binary (τ := τ) (a := main_v323) (b := main_v325) (y := main_v326) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v323 (val_main_v323 (F := F) x0 x3) (memAt% 3)) (h.get' main_v325 (val_main_v325 (F := F) x0 x3) (memAt% 0))
  refine Inv.cons h _ _ main_v326 (val_main_v326 (F := F) x0 x3) rfl (by decide) (r.trans ?_) (fun W h => ?_)
  · rfl
  have r := res_nullary (τ := τ) (W := W) (y := main_c_124) (v := (constantI S_ 32 0#32)) (hy := ⟨by decide, rfl⟩)
  refine Inv.cons h _ _ main_c_124 (val_main_c_124 (F := F)) rfl (by decide) (r.trans ?_) (fun W h => ?_)
  · rfl
  have r := res_unary (τ := τ) (x := main_c_124) (y := main_v327) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_124 (val_main_c_124 (F := F)) (memAt% 0))
  refine Inv.cons h _ _ main_v327 (val_main_v327 (F := F)) rfl (by decide) (r.trans ?_) (fun W h => ?_)
  · rfl
  have r := res_binary (τ := τ) (a := main_v41) (b := main_v327) (y := main_v328) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 18 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))))))))))))))))))) (h.get' main_v327 (val_main_v327 (F := F)) (memAt% 0))
  refine Inv.cons h _ _ main_v328 (val_main_v328 (F := F) x0 x3) rfl (by decide) (r.trans ?_) (fun W h => ?_)
  · rfl
  have r := res_binary (τ := τ) (a := main_v326) (b := main_v328) (y := main_v329) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v326 (val_main_v326 (F := F) x0 x3) (memAt% 3)) (h.get' main_v328 (val_main_v328 (F := F) x0 x3) (memAt% 0))
  refine Inv.cons h _ _ main_v329 (val_main_v329 (F := F) x0 x3) rfl (by decide) (r.trans ?_) (fun W h => ?_)
  · rfl
  have r := res_nullary (τ := τ) (W := W) (y := main_c_125) (v := (constantI S_ 32 16#32)) (hy := ⟨by decide, rfl⟩)
  refine Inv.cons h _ _ main_c_125 (val_main_c_125 (F := F)) rfl (by decide) (r.trans ?_) (fun W h => ?_)
  · rfl
  have r := res_unary (τ := τ) (x := main_c_125) (y := main_v330) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_125 (val_main_c_125 (F := F)) (memAt% 0))
  refine Inv.cons h _ _ main_v330 (val_main_v330 (F := F)) rfl (by decide) (r.trans ?_) (fun W h => ?_)
  · rfl
  have r := res_binary (τ := τ) (a := main_v41) (b := main_v330) (y := main_v331) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v41 (val_main_v41 (F := F) x0 x3) (memUp% 22 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))))))))))))))))))) (h.get' main_v330 (val_main_v330 (F := F)) (memAt% 0))
  refine Inv.cons h _ _ main_v331 (val_main_v331 (F := F) x0 x3) rfl (by decide) (r.trans ?_) (fun W h => ?_)
  · rfl
  have r := res_binary (τ := τ) (a := main_v329) (b := main_v331) (y := main_v332) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v329 (val_main_v329 (F := F) x0 x3) (memAt% 3)) (h.get' main_v331 (val_main_v331 (F := F) x0 x3) (memAt% 0))
  refine Inv.cons h _ _ main_v332 (val_main_v332 (F := F) x0 x3) rfl (by decide) (r.trans ?_) (fun W h => ?_)
  · rfl
  have r := res_nullary (τ := τ) (W := W) (y := main_c_126) (v := (constantI S_ 32 0#32)) (hy := ⟨by decide, rfl⟩)
  refine Inv.cons h _ _ main_c_126 (val_main_c_126 (F := F)) rfl (by decide) (r.trans ?_) (fun W h => ?_)
  · rfl
  have r := res_unary (τ := τ) (x := main_c_126) (y := main_v333) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_126 (val_main_c_126 (F := F)) (memAt% 0))
  refine Inv.cons h _ _ main_v333 (val_main_v333 (F := F)) rfl (by decide) (r.trans ?_) (fun W h => ?_)
  · rfl
  have r := res_binary (τ := τ) (a := main_v43) (b := main_v333) (y := main_v334) (f := (cmpi .sge : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 26 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3))))))))))))))))))))))))))))) (h.get' main_v333 (val_main_v333 (F := F)) (memAt% 0))
  refine Inv.cons h _ _ main_v334 (val_main_v334 (F := F) x0 x3) rfl (by decide) (r.trans ?_) (fun W h => ?_)
  · rfl
  exact h

/-- Operations 724 … 749 of the line. -/
abbrev seg29 : List (HloOp τ sig (Elt F)) :=
  [ binary main_v332 main_v334 main_v335 (andi : (⟨S4x40000, .i1⟩ : BufTy).Contents (Elt F) → (⟨S4x40000, .i1⟩ : BufTy).Contents (Elt F) → (⟨S4x40000, .i1⟩ : BufTy).Contents (Elt F)),
    nullary main_c_127 (constantI S_ 32 16#32),
    unary main_c_127 main_v336 (broadcastInDim S4x40000 ![] bcast_S_S4x40000 : (⟨S_, .i32⟩ : BufTy).Contents (Elt F) → (⟨S4x40000, .i32⟩ : BufTy).Contents (Elt F)),
    binary main_v43 main_v336 main_v337 (cmpi .slt : (⟨S4x40000, .i32⟩ : BufTy).Contents (Elt F) → (⟨S4x40000, .i32⟩ : BufTy).Contents (Elt F) → (⟨S4x40000, .i1⟩ : BufTy).Contents (Elt F)),
    binary main_v335 main_v337 main_v338 (andi : (⟨S4x40000, .i1⟩ : BufTy).Contents (Elt F) → (⟨S4x40000, .i1⟩ : BufTy).Contents (Elt F) → (⟨S4x40000, .i1⟩ : BufTy).Contents (Elt F)),
    nullary main_c_128 (constantI S_ 32 0#32),
    nullary main_c_129 (constantI S_ 32 15#32),
    TRef.unary (TRef.of (T := ⟨S_, .i32⟩) main_c_128) (TRef.of (T := ⟨S_, .i32⟩) main_call28_v0) id,
    TRef.unary (TRef.of (T := ⟨S_, .i32⟩) main_call28_v0) (TRef.of (T := ⟨S4x40000, .i32⟩) main_call28_v1) (broadcastInDim S4x40000 ![] bcast_S_S4x40000),
    TRef.binary (TRef.of (T := ⟨S4x40000, .i32⟩) main_call28_v1) (TRef.of (T := ⟨S4x40000, .i32⟩) main_v43) (TRef.of (T := ⟨S4x40000, .i32⟩) main_call28_v2) maxsi,
    TRef.unary (TRef.of (T := ⟨S_, .i32⟩) main_c_129) (TRef.of (T := ⟨S_, .i32⟩) main_call28_v3) id,
    TRef.unary (TRef.of (T := ⟨S_, .i32⟩) main_call28_v3) (TRef.of (T := ⟨S4x40000, .i32⟩) main_call28_v4) (broadcastInDim S4x40000 ![] bcast_S_S4x40000),
    TRef.binary (TRef.of (T := ⟨S4x40000, .i32⟩) main_call28_v4) (TRef.of (T := ⟨S4x40000, .i32⟩) main_call28_v2) (TRef.of (T := ⟨S4x40000, .i32⟩) main_v339) minsi,
    nullary main_c_130 (constantI S_ 32 16#32),
    unary main_c_130 main_v340 (broadcastInDim S4x40000 ![] bcast_S_S4x40000 : (⟨S_, .i32⟩ : BufTy).Contents (Elt F) → (⟨S4x40000, .i32⟩ : BufTy).Contents (Elt F)),
    binary main_v339 main_v340 main_v341 (muli : (⟨S4x40000, .i32⟩ : BufTy).Contents (Elt F) → (⟨S4x40000, .i32⟩ : BufTy).Contents (Elt F) → (⟨S4x40000, .i32⟩ : BufTy).Contents (Elt F)),
    nullary main_c_131 (constantI S_ 32 0#32),
    nullary main_c_132 (constantI S_ 32 15#32),
    TRef.unary (TRef.of (T := ⟨S_, .i32⟩) main_c_131) (TRef.of (T := ⟨S_, .i32⟩) main_call29_v0) id,
    TRef.unary (TRef.of (T := ⟨S_, .i32⟩) main_call29_v0) (TRef.of (T := ⟨S4x40000, .i32⟩) main_call29_v1) (broadcastInDim S4x40000 ![] bcast_S_S4x40000),
    TRef.binary (TRef.of (T := ⟨S4x40000, .i32⟩) main_call29_v1) (TRef.of (T := ⟨S4x40000, .i32⟩) main_v41) (TRef.of (T := ⟨S4x40000, .i32⟩) main_call29_v2) maxsi,
    TRef.unary (TRef.of (T := ⟨S_, .i32⟩) main_c_132) (TRef.of (T := ⟨S_, .i32⟩) main_call29_v3) id,
    TRef.unary (TRef.of (T := ⟨S_, .i32⟩) main_call29_v3) (TRef.of (T := ⟨S4x40000, .i32⟩) main_call29_v4) (broadcastInDim S4x40000 ![] bcast_S_S4x40000),
    TRef.binary (TRef.of (T := ⟨S4x40000, .i32⟩) main_call29_v4) (TRef.of (T := ⟨S4x40000, .i32⟩) main_call29_v2) (TRef.of (T := ⟨S4x40000, .i32⟩) main_v342) minsi,
    binary main_v341 main_v342 main_v343 (addi : (⟨S4x40000, .i32⟩ : BufTy).Contents (Elt F) → (⟨S4x40000, .i32⟩ : BufTy).Contents (Elt F) → (⟨S4x40000, .i32⟩ : BufTy).Contents (Elt F)),
    nullary main_c_133 (constantI S_ 32 16#32) ]

/-- The facts after operation 749: each buffer written so far at its stage value. -/
def facts29 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_c_133, val_main_c_133 (F := F)⟩ ::
  ⟨main_v343, val_main_v343 (F := F) x0 x3⟩ ::
  ⟨main_v342, val_main_v342 (F := F) x0 x3⟩ ::
  ⟨main_call29_v4, val_main_call29_v4 (F := F)⟩ ::
  ⟨main_call29_v3, val_main_call29_v3 (F := F)⟩ ::
  ⟨main_call29_v2, val_main_call29_v2 (F := F) x0 x3⟩ ::
  ⟨main_call29_v1, val_main_call29_v1 (F := F)⟩ ::
  ⟨main_call29_v0, val_main_call29_v0 (F := F)⟩ ::
  ⟨main_c_132, val_main_c_132 (F := F)⟩ ::
  ⟨main_c_131, val_main_c_131 (F := F)⟩ ::
  ⟨main_v341, val_main_v341 (F := F) x0 x3⟩ ::
  ⟨main_v340, val_main_v340 (F := F)⟩ ::
  ⟨main_c_130, val_main_c_130 (F := F)⟩ ::
  ⟨main_v339, val_main_v339 (F := F) x0 x3⟩ ::
  ⟨main_call28_v4, val_main_call28_v4 (F := F)⟩ ::
  ⟨main_call28_v3, val_main_call28_v3 (F := F)⟩ ::
  ⟨main_call28_v2, val_main_call28_v2 (F := F) x0 x3⟩ ::
  ⟨main_call28_v1, val_main_call28_v1 (F := F)⟩ ::
  ⟨main_call28_v0, val_main_call28_v0 (F := F)⟩ ::
  ⟨main_c_129, val_main_c_129 (F := F)⟩ ::
  ⟨main_c_128, val_main_c_128 (F := F)⟩ ::
  ⟨main_v338, val_main_v338 (F := F) x0 x3⟩ ::
  ⟨main_v337, val_main_v337 (F := F) x0 x3⟩ ::
  ⟨main_v336, val_main_v336 (F := F)⟩ ::
  ⟨main_c_127, val_main_c_127 (F := F)⟩ ::
  ⟨main_v335, val_main_v335 (F := F) x0 x3⟩ ::
  facts28 x0 x1 x2 x3

theorem up29 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts28 x0 x1 x2 x3) : p ∈ facts29 x0 x1 x2 x3 :=
  memUp% 26 hp

set_option maxRecDepth 8192 in
set_option maxHeartbeats 2000000 in
/-- Operations 724 … 749: each adds the fact of the buffer it writes. -/
theorem run29 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts28 x0 x1 x2 x3) 727) :
    Inv (after seg29 W) (facts29 x0 x1 x2 x3) 753 := by
  have r := res_binary (τ := τ) (a := main_v332) (b := main_v334) (y := main_v335) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v332 (val_main_v332 (F := F) x0 x3) (memUp% 0 (memAt% 3 : (⟨main_v332, val_main_v332 (F := F) x0 x3⟩ : Fact sig (Elt F)) ∈ facts28 x0 x1 x2 x3))) (h.get' main_v334 (val_main_v334 (F := F) x0 x3) (memUp% 0 (memAt% 0 : (⟨main_v334, val_main_v334 (F := F) x0 x3⟩ : Fact sig (Elt F)) ∈ facts28 x0 x1 x2 x3)))
  refine Inv.cons h _ _ main_v335 (val_main_v335 (F := F) x0 x3) rfl (by decide) (r.trans ?_) (fun W h => ?_)
  · rfl
  have r := res_nullary (τ := τ) (W := W) (y := main_c_127) (v := (constantI S_ 32 16#32)) (hy := ⟨by decide, rfl⟩)
  refine Inv.cons h _ _ main_c_127 (val_main_c_127 (F := F)) rfl (by decide) (r.trans ?_) (fun W h => ?_)
  · rfl
  have r := res_unary (τ := τ) (x := main_c_127) (y := main_v336) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_127 (val_main_c_127 (F := F)) (memAt% 0))
  refine Inv.cons h _ _ main_v336 (val_main_v336 (F := F)) rfl (by decide) (r.trans ?_) (fun W h => ?_)
  · rfl
  have r := res_binary (τ := τ) (a := main_v43) (b := main_v336) (y := main_v337) (f := (cmpi .slt : (⟨S4x40000, .i32⟩ : BufTy).Contents (Elt F) → (⟨S4x40000, .i32⟩ : BufTy).Contents (Elt F) → (⟨S4x40000, .i1⟩ : BufTy).Contents (Elt F))) (ha := ⟨by decide, rfl⟩) (hb := ⟨by decide, rfl⟩) (hy := ⟨by decide, rfl⟩) (h.get' main_v43 (val_main_v43 (F := F) x0 x3) (memUp% 3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3)))))))))))))))))))))))))))))) (h.get' main_v336 (val_main_v336 (F := F)) (memAt% 0))
  refine Inv.cons h _ _ main_v337 (val_main_v337 (F := F) x0 x3) rfl (by decide) (r.trans ?_) (fun W h => ?_)
  · rfl
  have r := res_binary (τ := τ) (a := main_v335) (b := main_v337) (y := main_v338) (f := (andi : (⟨S4x40000, .i1⟩ : BufTy).Contents (Elt F) → (⟨S4x40000, .i1⟩ : BufTy).Contents (Elt F) → (⟨S4x40000, .i1⟩ : BufTy).Contents (Elt F))) (ha := ⟨by decide, rfl⟩) (hb := ⟨by decide, rfl⟩) (hy := ⟨by decide, rfl⟩) (h.get' main_v335 (val_main_v335 (F := F) x0 x3) (memAt% 3)) (h.get' main_v337 (val_main_v337 (F := F) x0 x3) (memAt% 0))
  refine Inv.cons h _ _ main_v338 (val_main_v338 (F := F) x0 x3) rfl (by decide) (r.trans ?_) (fun W h => ?_)
  · rfl
  have r := res_nullary (τ := τ) (W := W) (y := main_c_128) (v := (constantI S_ 32 0#32)) (hy := ⟨by decide, rfl⟩)
  refine Inv.cons h _ _ main_c_128 (val_main_c_128 (F := F)) rfl (by decide) (r.trans ?_) (fun W h => ?_)
  · rfl
  have r := res_nullary (τ := τ) (W := W) (y := main_c_129) (v := (constantI S_ 32 15#32)) (hy := ⟨by decide, rfl⟩)
  refine Inv.cons h _ _ main_c_129 (val_main_c_129 (F := F)) rfl (by decide) (r.trans ?_) (fun W h => ?_)
  · rfl
  have r := res_tunary (τ := τ) (TRef.of (T := ⟨S_, .i32⟩) main_c_128) (TRef.of (T := ⟨S_, .i32⟩) main_call28_v0) id (h.tget (TRef.of (T := ⟨S_, .i32⟩) main_c_128) (val_main_c_128 (F := F)) (val_main_c_128 (F := F)) HEq.rfl (memAt% 1))
  refine Inv.cons h _ _ main_call28_v0 (val_main_call28_v0 (F := F)) rfl (by decide) (r.trans (toBuf_of_heq (TRef.of (T := ⟨S_, .i32⟩) main_call28_v0) (w := val_main_call28_v0 (F := F)) ?_)) (fun W h => ?_)
  · exact HEq.rfl
  have r := res_tunary (τ := τ) (TRef.of (T := ⟨S_, .i32⟩) main_call28_v0) (TRef.of (T := ⟨S4x40000, .i32⟩) main_call28_v1) (broadcastInDim S4x40000 ![] bcast_S_S4x40000) (h.tget (TRef.of (T := ⟨S_, .i32⟩) main_call28_v0) (val_main_call28_v0 (F := F)) (val_main_call28_v0 (F := F)) HEq.rfl (memAt% 0))
  refine Inv.cons h _ _ main_call28_v1 (val_main_call28_v1 (F := F)) rfl (by decide) (r.trans (toBuf_of_heq (TRef.of (T := ⟨S4x40000, .i32⟩) main_call28_v1) (w := val_main_call28_v1 (F := F)) ?_)) (fun W h => ?_)
  · exact HEq.rfl
  have r := res_tbinary (τ := τ) (TRef.of (T := ⟨S4x40000, .i32⟩) main_call28_v1) (TRef.of (T := ⟨S4x40000, .i32⟩) main_v43) (TRef.of (T := ⟨S4x40000, .i32⟩) main_call28_v2) maxsi (h.tget (TRef.of (T := ⟨S4x40000, .i32⟩) main_call28_v1) (val_main_call28_v1 (F := F)) (val_main_call28_v1 (F := F)) HEq.rfl (memAt% 0)) (h.tget (TRef.of (T := ⟨S4x40000, .i32⟩) main_v43) (val_main_v43 (F := F) x0 x3) (val_main_v43 (F := F) x0 x3) HEq.rfl (memUp% 9 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 2 : (⟨main_v43, val_main_v43 (F := F) x0 x3⟩ : Fact sig (Elt F)) ∈ facts1 x0 x1 x2 x3))))))))))))))))))))))))))))))
  refine Inv.cons h _ _ main_call28_v2 (val_main_call28_v2 (F := F) x0 x3) rfl (by decide) (r.trans (toBuf_of_heq (TRef.of (T := ⟨S4x40000, .i32⟩) main_call28_v2) (w := val_main_call28_v2 (F := F) x0 x3) ?_)) (fun W h => ?_)
  · exact HEq.rfl
  have r := res_tunary (τ := τ) (TRef.of (T := ⟨S_, .i32⟩) main_c_129) (TRef.of (T := ⟨S_, .i32⟩) main_call28_v3) id (h.tget (TRef.of (T := ⟨S_, .i32⟩) main_c_129) (val_main_c_129 (F := F)) (val_main_c_129 (F := F)) HEq.rfl (memAt% 3))
  refine Inv.cons h _ _ main_call28_v3 (val_main_call28_v3 (F := F)) rfl (by decide) (r.trans (toBuf_of_heq (TRef.of (T := ⟨S_, .i32⟩) main_call28_v3) (w := val_main_call28_v3 (F := F)) ?_)) (fun W h => ?_)
  · exact HEq.rfl
  have r := res_tunary (τ := τ) (TRef.of (T := ⟨S_, .i32⟩) main_call28_v3) (TRef.of (T := ⟨S4x40000, .i32⟩) main_call28_v4) (broadcastInDim S4x40000 ![] bcast_S_S4x40000) (h.tget (TRef.of (T := ⟨S_, .i32⟩) main_call28_v3) (val_main_call28_v3 (F := F)) (val_main_call28_v3 (F := F)) HEq.rfl (memAt% 0))
  refine Inv.cons h _ _ main_call28_v4 (val_main_call28_v4 (F := F)) rfl (by decide) (r.trans (toBuf_of_heq (TRef.of (T := ⟨S4x40000, .i32⟩) main_call28_v4) (w := val_main_call28_v4 (F := F)) ?_)) (fun W h => ?_)
  · exact HEq.rfl
  have r := res_tbinary (τ := τ) (TRef.of (T := ⟨S4x40000, .i32⟩) main_call28_v4) (TRef.of (T := ⟨S4x40000, .i32⟩) main_call28_v2) (TRef.of (T := ⟨S4x40000, .i32⟩) main_v339) minsi (h.tget (TRef.of (T := ⟨S4x40000, .i32⟩) main_call28_v4) (val_main_call28_v4 (F := F)) (val_main_call28_v4 (F := F)) HEq.rfl (memAt% 0)) (h.tget (TRef.of (T := ⟨S4x40000, .i32⟩) main_call28_v2) (val_main_call28_v2 (F := F) x0 x3) (val_main_call28_v2 (F := F) x0 x3) HEq.rfl (memAt% 2))
  refine Inv.cons h _ _ main_v339 (val_main_v339 (F := F) x0 x3) rfl (by decide) (r.trans (toBuf_of_heq (TRef.of (T := ⟨S4x40000, .i32⟩) main_v339) (w := val_main_v339 (F := F) x0 x3) ?_)) (fun W h => ?_)
  · exact HEq.rfl
  have r := res_nullary (τ := τ) (W := W) (y := main_c_130) (v := (constantI S_ 32 16#32)) (hy := ⟨by decide, rfl⟩)
  refine Inv.cons h _ _ main_c_130 (val_main_c_130 (F := F)) rfl (by decide) (r.trans ?_) (fun W h => ?_)
  · rfl
  have r := res_unary (τ := τ) (x := main_c_130) (y := main_v340) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_130 (val_main_c_130 (F := F)) (memAt% 0))
  refine Inv.cons h _ _ main_v340 (val_main_v340 (F := F)) rfl (by decide) (r.trans ?_) (fun W h => ?_)
  · rfl
  have r := res_binary (τ := τ) (a := main_v339) (b := main_v340) (y := main_v341) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v339 (val_main_v339 (F := F) x0 x3) (memAt% 2)) (h.get' main_v340 (val_main_v340 (F := F)) (memAt% 0))
  refine Inv.cons h _ _ main_v341 (val_main_v341 (F := F) x0 x3) rfl (by decide) (r.trans ?_) (fun W h => ?_)
  · rfl
  have r := res_nullary (τ := τ) (W := W) (y := main_c_131) (v := (constantI S_ 32 0#32)) (hy := ⟨by decide, rfl⟩)
  refine Inv.cons h _ _ main_c_131 (val_main_c_131 (F := F)) rfl (by decide) (r.trans ?_) (fun W h => ?_)
  · rfl
  have r := res_nullary (τ := τ) (W := W) (y := main_c_132) (v := (constantI S_ 32 15#32)) (hy := ⟨by decide, rfl⟩)
  refine Inv.cons h _ _ main_c_132 (val_main_c_132 (F := F)) rfl (by decide) (r.trans ?_) (fun W h => ?_)
  · rfl
  have r := res_tunary (τ := τ) (TRef.of (T := ⟨S_, .i32⟩) main_c_131) (TRef.of (T := ⟨S_, .i32⟩) main_call29_v0) id (h.tget (TRef.of (T := ⟨S_, .i32⟩) main_c_131) (val_main_c_131 (F := F)) (val_main_c_131 (F := F)) HEq.rfl (memAt% 1))
  refine Inv.cons h _ _ main_call29_v0 (val_main_call29_v0 (F := F)) rfl (by decide) (r.trans (toBuf_of_heq (TRef.of (T := ⟨S_, .i32⟩) main_call29_v0) (w := val_main_call29_v0 (F := F)) ?_)) (fun W h => ?_)
  · exact HEq.rfl
  have r := res_tunary (τ := τ) (TRef.of (T := ⟨S_, .i32⟩) main_call29_v0) (TRef.of (T := ⟨S4x40000, .i32⟩) main_call29_v1) (broadcastInDim S4x40000 ![] bcast_S_S4x40000) (h.tget (TRef.of (T := ⟨S_, .i32⟩) main_call29_v0) (val_main_call29_v0 (F := F)) (val_main_call29_v0 (F := F)) HEq.rfl (memAt% 0))
  refine Inv.cons h _ _ main_call29_v1 (val_main_call29_v1 (F := F)) rfl (by decide) (r.trans (toBuf_of_heq (TRef.of (T := ⟨S4x40000, .i32⟩) main_call29_v1) (w := val_main_call29_v1 (F := F)) ?_)) (fun W h => ?_)
  · exact HEq.rfl
  have r := res_tbinary (τ := τ) (TRef.of (T := ⟨S4x40000, .i32⟩) main_call29_v1) (TRef.of (T := ⟨S4x40000, .i32⟩) main_v41) (TRef.of (T := ⟨S4x40000, .i32⟩) main_call29_v2) maxsi (h.tget (TRef.of (T := ⟨S4x40000, .i32⟩) main_call29_v1) (val_main_call29_v1 (F := F)) (val_main_call29_v1 (F := F)) HEq.rfl (memAt% 0)) (h.tget (TRef.of (T := ⟨S4x40000, .i32⟩) main_v41) (val_main_v41 (F := F) x0 x3) (val_main_v41 (F := F) x0 x3) HEq.rfl (memUp% 20 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 5 : (⟨main_v41, val_main_v41 (F := F) x0 x3⟩ : Fact sig (Elt F)) ∈ facts1 x0 x1 x2 x3))))))))))))))))))))))))))))))
  refine Inv.cons h _ _ main_call29_v2 (val_main_call29_v2 (F := F) x0 x3) rfl (by decide) (r.trans (toBuf_of_heq (TRef.of (T := ⟨S4x40000, .i32⟩) main_call29_v2) (w := val_main_call29_v2 (F := F) x0 x3) ?_)) (fun W h => ?_)
  · exact HEq.rfl
  have r := res_tunary (τ := τ) (TRef.of (T := ⟨S_, .i32⟩) main_c_132) (TRef.of (T := ⟨S_, .i32⟩) main_call29_v3) id (h.tget (TRef.of (T := ⟨S_, .i32⟩) main_c_132) (val_main_c_132 (F := F)) (val_main_c_132 (F := F)) HEq.rfl (memAt% 3))
  refine Inv.cons h _ _ main_call29_v3 (val_main_call29_v3 (F := F)) rfl (by decide) (r.trans (toBuf_of_heq (TRef.of (T := ⟨S_, .i32⟩) main_call29_v3) (w := val_main_call29_v3 (F := F)) ?_)) (fun W h => ?_)
  · exact HEq.rfl
  have r := res_tunary (τ := τ) (TRef.of (T := ⟨S_, .i32⟩) main_call29_v3) (TRef.of (T := ⟨S4x40000, .i32⟩) main_call29_v4) (broadcastInDim S4x40000 ![] bcast_S_S4x40000) (h.tget (TRef.of (T := ⟨S_, .i32⟩) main_call29_v3) (val_main_call29_v3 (F := F)) (val_main_call29_v3 (F := F)) HEq.rfl (memAt% 0))
  refine Inv.cons h _ _ main_call29_v4 (val_main_call29_v4 (F := F)) rfl (by decide) (r.trans (toBuf_of_heq (TRef.of (T := ⟨S4x40000, .i32⟩) main_call29_v4) (w := val_main_call29_v4 (F := F)) ?_)) (fun W h => ?_)
  · exact HEq.rfl
  have r := res_tbinary (τ := τ) (TRef.of (T := ⟨S4x40000, .i32⟩) main_call29_v4) (TRef.of (T := ⟨S4x40000, .i32⟩) main_call29_v2) (TRef.of (T := ⟨S4x40000, .i32⟩) main_v342) minsi (h.tget (TRef.of (T := ⟨S4x40000, .i32⟩) main_call29_v4) (val_main_call29_v4 (F := F)) (val_main_call29_v4 (F := F)) HEq.rfl (memAt% 0)) (h.tget (TRef.of (T := ⟨S4x40000, .i32⟩) main_call29_v2) (val_main_call29_v2 (F := F) x0 x3) (val_main_call29_v2 (F := F) x0 x3) HEq.rfl (memAt% 2))
  refine Inv.cons h _ _ main_v342 (val_main_v342 (F := F) x0 x3) rfl (by decide) (r.trans (toBuf_of_heq (TRef.of (T := ⟨S4x40000, .i32⟩) main_v342) (w := val_main_v342 (F := F) x0 x3) ?_)) (fun W h => ?_)
  · exact HEq.rfl
  have r := res_binary (τ := τ) (a := main_v341) (b := main_v342) (y := main_v343) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v341 (val_main_v341 (F := F) x0 x3) (memAt% 8)) (h.get' main_v342 (val_main_v342 (F := F) x0 x3) (memAt% 0))
  refine Inv.cons h _ _ main_v343 (val_main_v343 (F := F) x0 x3) rfl (by decide) (r.trans ?_) (fun W h => ?_)
  · rfl
  have r := res_nullary (τ := τ) (W := W) (y := main_c_133) (v := (constantI S_ 32 16#32)) (hy := ⟨by decide, rfl⟩)
  refine Inv.cons h _ _ main_c_133 (val_main_c_133 (F := F)) rfl (by decide) (r.trans ?_) (fun W h => ?_)
  · rfl
  exact h

/-- Operations 750 … 771 of the line. -/
abbrev seg30 : List (HloOp τ sig (Elt F)) :=
  [ unary main_c_133 main_v344 (broadcastInDim S4x40000 ![] bcast_S_S4x40000 : (⟨S_, .i32⟩ : BufTy).Contents (Elt F) → (⟨S4x40000, .i32⟩ : BufTy).Contents (Elt F)),
    binary main_v343 main_v344 main_v345 (muli : (⟨S4x40000, .i32⟩ : BufTy).Contents (Elt F) → (⟨S4x40000, .i32⟩ : BufTy).Contents (Elt F) → (⟨S4x40000, .i32⟩ : BufTy).Contents (Elt F)),
    nullary main_c_134 (constantI S_ 32 0#32),
    nullary main_c_135 (constantI S_ 32 15#32),
    TRef.unary (TRef.of (T := ⟨S_, .i32⟩) main_c_134) (TRef.of (T := ⟨S_, .i32⟩) main_call30_v0) id,
    TRef.unary (TRef.of (T := ⟨S_, .i32⟩) main_call30_v0) (TRef.of (T := ⟨S4x40000, .i32⟩) main_call30_v1) (broadcastInDim S4x40000 ![] bcast_S_S4x40000),
    TRef.binary (TRef.of (T := ⟨S4x40000, .i32⟩) main_call30_v1) (TRef.of (T := ⟨S4x40000, .i32⟩) main_v39) (TRef.of (T := ⟨S4x40000, .i32⟩) main_call30_v2) maxsi,
    TRef.unary (TRef.of (T := ⟨S_, .i32⟩) main_c_135) (TRef.of (T := ⟨S_, .i32⟩) main_call30_v3) id,
    TRef.unary (TRef.of (T := ⟨S_, .i32⟩) main_call30_v3) (TRef.of (T := ⟨S4x40000, .i32⟩) main_call30_v4) (broadcastInDim S4x40000 ![] bcast_S_S4x40000),
    TRef.binary (TRef.of (T := ⟨S4x40000, .i32⟩) main_call30_v4) (TRef.of (T := ⟨S4x40000, .i32⟩) main_call30_v2) (TRef.of (T := ⟨S4x40000, .i32⟩) main_v346) minsi,
    binary main_v345 main_v346 main_v347 (addi : (⟨S4x40000, .i32⟩ : BufTy).Contents (Elt F) → (⟨S4x40000, .i32⟩ : BufTy).Contents (Elt F) → (⟨S4x40000, .i32⟩ : BufTy).Contents (Elt F)),
    unary main_v347 main_v348 (broadcastInDim S4x1x40000 ![0, 2] bcast_S4x40000_S4x1x40000_0_2 : (⟨S4x40000, .i32⟩ : BufTy).Contents (Elt F) → (⟨S4x1x40000, .i32⟩ : BufTy).Contents (Elt F)),
    TRef.nullary (TRef.of (T := ⟨S_, .i32⟩) main_call31_c) (constantI S_ 32 0#32),
    TRef.unary (TRef.of (T := ⟨S_, .i32⟩) main_call31_c) (TRef.of (T := ⟨S4x1x40000, .i32⟩) main_call31_v0) (broadcastInDim S4x1x40000 ![] bcast_S_S4x1x40000),
    TRef.binary (TRef.of (T := ⟨S4x1x40000, .i32⟩) main_v348) (TRef.of (T := ⟨S4x1x40000, .i32⟩) main_call31_v0) (TRef.of (T := ⟨S4x1x40000, .i1⟩) main_call31_v1) (cmpi .slt),
    TRef.nullary (TRef.of (T := ⟨S_, .i32⟩) main_call31_c_0) (constantI S_ 32 4096#32),
    TRef.unary (TRef.of (T := ⟨S_, .i32⟩) main_call31_c_0) (TRef.of (T := ⟨S4x1x40000, .i32⟩) main_call31_v2) (broadcastInDim S4x1x40000 ![] bcast_S_S4x1x40000),
    TRef.binary (TRef.of (T := ⟨S4x1x40000, .i32⟩) main_v348) (TRef.of (T := ⟨S4x1x40000, .i32⟩) main_call31_v2) (TRef.of (T := ⟨S4x1x40000, .i32⟩) main_call31_v3) addi,
    TRef.ternary (TRef.of (T := ⟨S4x1x40000, .i1⟩) main_call31_v1) (TRef.of (T := ⟨S4x1x40000, .i32⟩) main_call31_v3) (TRef.of (T := ⟨S4x1x40000, .i32⟩) main_v348) (TRef.of (T := ⟨S4x1x40000, .i32⟩) main_call31_v4) select,
    TRef.reshape (TRef.of (T := ⟨S4x1x40000, .i32⟩) main_call31_v4) (TRef.of (T := ⟨S4x40000x1, .i32⟩) main_call31_v5) rfl shapeCasts_S4x1x40000_S4x40000x1,
    TRef.nullary (TRef.of (T := ⟨S1, .i32⟩) main_call31_c_1) (constantI S1 32 4095#32),
    TRef.nullary (TRef.of (T := ⟨S_, .i32⟩) main_call31_c_2) (constantI S_ 32 0#32) ]

/-- The facts after operation 771: each buffer written so far at its stage value. -/
def facts30 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_call31_c_2, val_main_call31_c_2 (F := F)⟩ ::
  ⟨main_call31_c_1, val_main_call31_c_1 (F := F)⟩ ::
  ⟨main_call31_v5, val_main_call31_v5 (F := F) x0 x3⟩ ::
  ⟨main_call31_v4, val_main_call31_v4 (F := F) x0 x3⟩ ::
  ⟨main_call31_v3, val_main_call31_v3 (F := F) x0 x3⟩ ::
  ⟨main_call31_v2, val_main_call31_v2 (F := F)⟩ ::
  ⟨main_call31_c_0, val_main_call31_c_0 (F := F)⟩ ::
  ⟨main_call31_v1, val_main_call31_v1 (F := F) x0 x3⟩ ::
  ⟨main_call31_v0, val_main_call31_v0 (F := F)⟩ ::
  ⟨main_call31_c, val_main_call31_c (F := F)⟩ ::
  ⟨main_v348, val_main_v348 (F := F) x0 x3⟩ ::
  ⟨main_v347, val_main_v347 (F := F) x0 x3⟩ ::
  ⟨main_v346, val_main_v346 (F := F) x0 x3⟩ ::
  ⟨main_call30_v4, val_main_call30_v4 (F := F)⟩ ::
  ⟨main_call30_v3, val_main_call30_v3 (F := F)⟩ ::
  ⟨main_call30_v2, val_main_call30_v2 (F := F) x0 x3⟩ ::
  ⟨main_call30_v1, val_main_call30_v1 (F := F)⟩ ::
  ⟨main_call30_v0, val_main_call30_v0 (F := F)⟩ ::
  ⟨main_c_135, val_main_c_135 (F := F)⟩ ::
  ⟨main_c_134, val_main_c_134 (F := F)⟩ ::
  ⟨main_v345, val_main_v345 (F := F) x0 x3⟩ ::
  ⟨main_v344, val_main_v344 (F := F)⟩ ::
  facts29 x0 x1 x2 x3

theorem up30 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts29 x0 x1 x2 x3) : p ∈ facts30 x0 x1 x2 x3 :=
  memUp% 22 hp

set_option maxRecDepth 8192 in
set_option maxHeartbeats 2000000 in
/-- Operations 750 … 771: each adds the fact of the buffer it writes. -/
theorem run30 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts29 x0 x1 x2 x3) 753) :
    Inv (after seg30 W) (facts30 x0 x1 x2 x3) 775 := by
  have r := res_unary (τ := τ) (x := main_c_133) (y := main_v344) (f := (broadcastInDim S4x40000 ![] bcast_S_S4x40000 : (⟨S_, .i32⟩ : BufTy).Contents (Elt F) → (⟨S4x40000, .i32⟩ : BufTy).Contents (Elt F))) (hx := ⟨by decide, rfl⟩) (hy := ⟨by decide, rfl⟩) (h.get' main_c_133 (val_main_c_133 (F := F)) (memUp% 0 (memAt% 0 : (⟨main_c_133, val_main_c_133 (F := F)⟩ : Fact sig (Elt F)) ∈ facts29 x0 x1 x2 x3)))
  refine Inv.cons h _ _ main_v344 (val_main_v344 (F := F)) rfl (by decide) (r.trans ?_) (fun W h => ?_)
  · rfl
  have r := res_binary (τ := τ) (a := main_v343) (b := main_v344) (y := main_v345) (f := (muli : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v343 (val_main_v343 (F := F) x0 x3) (memUp% 1 (memAt% 1 : (⟨main_v343, val_main_v343 (F := F) x0 x3⟩ : Fact sig (Elt F)) ∈ facts29 x0 x1 x2 x3))) (h.get' main_v344 (val_main_v344 (F := F)) (memAt% 0))
  refine Inv.cons h _ _ main_v345 (val_main_v345 (F := F) x0 x3) rfl (by decide) (r.trans ?_) (fun W h => ?_)
  · rfl
  have r := res_nullary (τ := τ) (W := W) (y := main_c_134) (v := (constantI S_ 32 0#32)) (hy := ⟨by decide, rfl⟩)
  refine Inv.cons h _ _ main_c_134 (val_main_c_134 (F := F)) rfl (by decide) (r.trans ?_) (fun W h => ?_)
  · rfl
  have r := res_nullary (τ := τ) (W := W) (y := main_c_135) (v := (constantI S_ 32 15#32)) (hy := ⟨by decide, rfl⟩)
  refine Inv.cons h _ _ main_c_135 (val_main_c_135 (F := F)) rfl (by decide) (r.trans ?_) (fun W h => ?_)
  · rfl
  have r := res_tunary (τ := τ) (TRef.of (T := ⟨S_, .i32⟩) main_c_134) (TRef.of (T := ⟨S_, .i32⟩) main_call30_v0) id (h.tget (TRef.of (T := ⟨S_, .i32⟩) main_c_134) (val_main_c_134 (F := F)) (val_main_c_134 (F := F)) HEq.rfl (memAt% 1))
  refine Inv.cons h _ _ main_call30_v0 (val_main_call30_v0 (F := F)) rfl (by decide) (r.trans (toBuf_of_heq (TRef.of (T := ⟨S_, .i32⟩) main_call30_v0) (w := val_main_call30_v0 (F := F)) ?_)) (fun W h => ?_)
  · exact HEq.rfl
  have r := res_tunary (τ := τ) (TRef.of (T := ⟨S_, .i32⟩) main_call30_v0) (TRef.of (T := ⟨S4x40000, .i32⟩) main_call30_v1) (broadcastInDim S4x40000 ![] bcast_S_S4x40000) (h.tget (TRef.of (T := ⟨S_, .i32⟩) main_call30_v0) (val_main_call30_v0 (F := F)) (val_main_call30_v0 (F := F)) HEq.rfl (memAt% 0))
  refine Inv.cons h _ _ main_call30_v1 (val_main_call30_v1 (F := F)) rfl (by decide) (r.trans (toBuf_of_heq (TRef.of (T := ⟨S4x40000, .i32⟩) main_call30_v1) (w := val_main_call30_v1 (F := F)) ?_)) (fun W h => ?_)
  · exact HEq.rfl
  have r := res_tbinary (τ := τ) (TRef.of (T := ⟨S4x40000, .i32⟩) main_call30_v1) (TRef.of (T := ⟨S4x40000, .i32⟩) main_v39) (TRef.of (T := ⟨S4x40000, .i32⟩) main_call30_v2) maxsi (h.tget (TRef.of (T := ⟨S4x40000, .i32⟩) main_call30_v1) (val_main_call30_v1 (F := F)) (val_main_call30_v1 (F := F)) HEq.rfl (memAt% 0)) (h.tget (TRef.of (T := ⟨S4x40000, .i32⟩) main_v39) (val_main_v39 (F := F) x0 x3) (val_main_v39 (F := F) x0 x3) HEq.rfl (memUp% 6 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 8 : (⟨main_v39, val_main_v39 (F := F) x0 x3⟩ : Fact sig (Elt F)) ∈ facts1 x0 x1 x2 x3)))))))))))))))))))))))))))))))
  refine Inv.cons h _ _ main_call30_v2 (val_main_call30_v2 (F := F) x0 x3) rfl (by decide) (r.trans (toBuf_of_heq (TRef.of (T := ⟨S4x40000, .i32⟩) main_call30_v2) (w := val_main_call30_v2 (F := F) x0 x3) ?_)) (fun W h => ?_)
  · exact HEq.rfl
  have r := res_tunary (τ := τ) (TRef.of (T := ⟨S_, .i32⟩) main_c_135) (TRef.of (T := ⟨S_, .i32⟩) main_call30_v3) id (h.tget (TRef.of (T := ⟨S_, .i32⟩) main_c_135) (val_main_c_135 (F := F)) (val_main_c_135 (F := F)) HEq.rfl (memAt% 3))
  refine Inv.cons h _ _ main_call30_v3 (val_main_call30_v3 (F := F)) rfl (by decide) (r.trans (toBuf_of_heq (TRef.of (T := ⟨S_, .i32⟩) main_call30_v3) (w := val_main_call30_v3 (F := F)) ?_)) (fun W h => ?_)
  · exact HEq.rfl
  have r := res_tunary (τ := τ) (TRef.of (T := ⟨S_, .i32⟩) main_call30_v3) (TRef.of (T := ⟨S4x40000, .i32⟩) main_call30_v4) (broadcastInDim S4x40000 ![] bcast_S_S4x40000) (h.tget (TRef.of (T := ⟨S_, .i32⟩) main_call30_v3) (val_main_call30_v3 (F := F)) (val_main_call30_v3 (F := F)) HEq.rfl (memAt% 0))
  refine Inv.cons h _ _ main_call30_v4 (val_main_call30_v4 (F := F)) rfl (by decide) (r.trans (toBuf_of_heq (TRef.of (T := ⟨S4x40000, .i32⟩) main_call30_v4) (w := val_main_call30_v4 (F := F)) ?_)) (fun W h => ?_)
  · exact HEq.rfl
  have r := res_tbinary (τ := τ) (TRef.of (T := ⟨S4x40000, .i32⟩) main_call30_v4) (TRef.of (T := ⟨S4x40000, .i32⟩) main_call30_v2) (TRef.of (T := ⟨S4x40000, .i32⟩) main_v346) minsi (h.tget (TRef.of (T := ⟨S4x40000, .i32⟩) main_call30_v4) (val_main_call30_v4 (F := F)) (val_main_call30_v4 (F := F)) HEq.rfl (memAt% 0)) (h.tget (TRef.of (T := ⟨S4x40000, .i32⟩) main_call30_v2) (val_main_call30_v2 (F := F) x0 x3) (val_main_call30_v2 (F := F) x0 x3) HEq.rfl (memAt% 2))
  refine Inv.cons h _ _ main_v346 (val_main_v346 (F := F) x0 x3) rfl (by decide) (r.trans (toBuf_of_heq (TRef.of (T := ⟨S4x40000, .i32⟩) main_v346) (w := val_main_v346 (F := F) x0 x3) ?_)) (fun W h => ?_)
  · exact HEq.rfl
  have r := res_binary (τ := τ) (a := main_v345) (b := main_v346) (y := main_v347) (f := (addi : (⟨S4x40000, .i32⟩ : BufTy).Contents (Elt F) → (⟨S4x40000, .i32⟩ : BufTy).Contents (Elt F) → (⟨S4x40000, .i32⟩ : BufTy).Contents (Elt F))) (ha := ⟨by decide, rfl⟩) (hb := ⟨by decide, rfl⟩) (hy := ⟨by decide, rfl⟩) (h.get' main_v345 (val_main_v345 (F := F) x0 x3) (memAt% 8)) (h.get' main_v346 (val_main_v346 (F := F) x0 x3) (memAt% 0))
  refine Inv.cons h _ _ main_v347 (val_main_v347 (F := F) x0 x3) rfl (by decide) (r.trans ?_) (fun W h => ?_)
  · rfl
  have r := res_unary (τ := τ) (x := main_v347) (y := main_v348) (f := (broadcastInDim S4x1x40000 ![0, 2] bcast_S4x40000_S4x1x40000_0_2 : (⟨S4x40000, .i32⟩ : BufTy).Contents (Elt F) → (⟨S4x1x40000, .i32⟩ : BufTy).Contents (Elt F))) (hx := ⟨by decide, rfl⟩) (hy := ⟨by decide, rfl⟩) (h.get' main_v347 (val_main_v347 (F := F) x0 x3) (memAt% 0))
  refine Inv.cons h _ _ main_v348 (val_main_v348 (F := F) x0 x3) rfl (by decide) (r.trans ?_) (fun W h => ?_)
  · rfl
  have r := res_tnullary (τ := τ) (W := W) (TRef.of (T := ⟨S_, .i32⟩) main_call31_c) (constantI S_ 32 0#32)
  refine Inv.cons h _ _ main_call31_c (val_main_call31_c (F := F)) rfl (by decide) (r.trans (toBuf_of_heq (TRef.of (T := ⟨S_, .i32⟩) main_call31_c) (w := val_main_call31_c (F := F)) ?_)) (fun W h => ?_)
  · exact HEq.rfl
  have r := res_tunary (τ := τ) (TRef.of (T := ⟨S_, .i32⟩) main_call31_c) (TRef.of (T := ⟨S4x1x40000, .i32⟩) main_call31_v0) (broadcastInDim S4x1x40000 ![] bcast_S_S4x1x40000) (h.tget (TRef.of (T := ⟨S_, .i32⟩) main_call31_c) (val_main_call31_c (F := F)) (val_main_call31_c (F := F)) HEq.rfl (memAt% 0))
  refine Inv.cons h _ _ main_call31_v0 (val_main_call31_v0 (F := F)) rfl (by decide) (r.trans (toBuf_of_heq (TRef.of (T := ⟨S4x1x40000, .i32⟩) main_call31_v0) (w := val_main_call31_v0 (F := F)) ?_)) (fun W h => ?_)
  · exact HEq.rfl
  have r := res_tbinary (τ := τ) (TRef.of (T := ⟨S4x1x40000, .i32⟩) main_v348) (TRef.of (T := ⟨S4x1x40000, .i32⟩) main_call31_v0) (TRef.of (T := ⟨S4x1x40000, .i1⟩) main_call31_v1) (cmpi .slt) (h.tget (TRef.of (T := ⟨S4x1x40000, .i32⟩) main_v348) (val_main_v348 (F := F) x0 x3) (val_main_v348 (F := F) x0 x3) HEq.rfl (memAt% 2)) (h.tget (TRef.of (T := ⟨S4x1x40000, .i32⟩) main_call31_v0) (val_main_call31_v0 (F := F)) (val_main_call31_v0 (F := F)) HEq.rfl (memAt% 0))
  refine Inv.cons h _ _ main_call31_v1 (val_main_call31_v1 (F := F) x0 x3) rfl (by decide) (r.trans (toBuf_of_heq (TRef.of (T := ⟨S4x1x40000, .i1⟩) main_call31_v1) (w := val_main_call31_v1 (F := F) x0 x3) ?_)) (fun W h => ?_)
  · exact HEq.rfl
  have r := res_tnullary (τ := τ) (W := W) (TRef.of (T := ⟨S_, .i32⟩) main_call31_c_0) (constantI S_ 32 4096#32)
  refine Inv.cons h _ _ main_call31_c_0 (val_main_call31_c_0 (F := F)) rfl (by decide) (r.trans (toBuf_of_heq (TRef.of (T := ⟨S_, .i32⟩) main_call31_c_0) (w := val_main_call31_c_0 (F := F)) ?_)) (fun W h => ?_)
  · exact HEq.rfl
  have r := res_tunary (τ := τ) (TRef.of (T := ⟨S_, .i32⟩) main_call31_c_0) (TRef.of (T := ⟨S4x1x40000, .i32⟩) main_call31_v2) (broadcastInDim S4x1x40000 ![] bcast_S_S4x1x40000) (h.tget (TRef.of (T := ⟨S_, .i32⟩) main_call31_c_0) (val_main_call31_c_0 (F := F)) (val_main_call31_c_0 (F := F)) HEq.rfl (memAt% 0))
  refine Inv.cons h _ _ main_call31_v2 (val_main_call31_v2 (F := F)) rfl (by decide) (r.trans (toBuf_of_heq (TRef.of (T := ⟨S4x1x40000, .i32⟩) main_call31_v2) (w := val_main_call31_v2 (F := F)) ?_)) (fun W h => ?_)
  · exact HEq.rfl
  have r := res_tbinary (τ := τ) (TRef.of (T := ⟨S4x1x40000, .i32⟩) main_v348) (TRef.of (T := ⟨S4x1x40000, .i32⟩) main_call31_v2) (TRef.of (T := ⟨S4x1x40000, .i32⟩) main_call31_v3) addi (h.tget (TRef.of (T := ⟨S4x1x40000, .i32⟩) main_v348) (val_main_v348 (F := F) x0 x3) (val_main_v348 (F := F) x0 x3) HEq.rfl (memAt% 5)) (h.tget (TRef.of (T := ⟨S4x1x40000, .i32⟩) main_call31_v2) (val_main_call31_v2 (F := F)) (val_main_call31_v2 (F := F)) HEq.rfl (memAt% 0))
  refine Inv.cons h _ _ main_call31_v3 (val_main_call31_v3 (F := F) x0 x3) rfl (by decide) (r.trans (toBuf_of_heq (TRef.of (T := ⟨S4x1x40000, .i32⟩) main_call31_v3) (w := val_main_call31_v3 (F := F) x0 x3) ?_)) (fun W h => ?_)
  · exact HEq.rfl
  have r := res_tternary (τ := τ) (TRef.of (T := ⟨S4x1x40000, .i1⟩) main_call31_v1) (TRef.of (T := ⟨S4x1x40000, .i32⟩) main_call31_v3) (TRef.of (T := ⟨S4x1x40000, .i32⟩) main_v348) (TRef.of (T := ⟨S4x1x40000, .i32⟩) main_call31_v4) select (h.tget (TRef.of (T := ⟨S4x1x40000, .i1⟩) main_call31_v1) (val_main_call31_v1 (F := F) x0 x3) (val_main_call31_v1 (F := F) x0 x3) HEq.rfl (memAt% 3)) (h.tget (TRef.of (T := ⟨S4x1x40000, .i32⟩) main_call31_v3) (val_main_call31_v3 (F := F) x0 x3) (val_main_call31_v3 (F := F) x0 x3) HEq.rfl (memAt% 0)) (h.tget (TRef.of (T := ⟨S4x1x40000, .i32⟩) main_v348) (val_main_v348 (F := F) x0 x3) (val_main_v348 (F := F) x0 x3) HEq.rfl (memAt% 6))
  refine Inv.cons h _ _ main_call31_v4 (val_main_call31_v4 (F := F) x0 x3) rfl (by decide) (r.trans (toBuf_of_heq (TRef.of (T := ⟨S4x1x40000, .i32⟩) main_call31_v4) (w := val_main_call31_v4 (F := F) x0 x3) ?_)) (fun W h => ?_)
  · exact HEq.rfl
  have r := res_treshape (τ := τ) (TRef.of (T := ⟨S4x1x40000, .i32⟩) main_call31_v4) (TRef.of (T := ⟨S4x40000x1, .i32⟩) main_call31_v5) rfl shapeCasts_S4x1x40000_S4x40000x1 (h.tget (TRef.of (T := ⟨S4x1x40000, .i32⟩) main_call31_v4) (val_main_call31_v4 (F := F) x0 x3) (val_main_call31_v4 (F := F) x0 x3) HEq.rfl (memAt% 0))
  refine Inv.cons h _ _ main_call31_v5 (val_main_call31_v5 (F := F) x0 x3) rfl (by decide) (r.trans (toBuf_of_heq (TRef.of (T := ⟨S4x40000x1, .i32⟩) main_call31_v5) (w := val_main_call31_v5 (F := F) x0 x3) ?_)) (fun W h => ?_)
  · exact HEq.rfl
  have r := res_tnullary (τ := τ) (W := W) (TRef.of (T := ⟨S1, .i32⟩) main_call31_c_1) (constantI S1 32 4095#32)
  refine Inv.cons h _ _ main_call31_c_1 (val_main_call31_c_1 (F := F)) rfl (by decide) (r.trans (toBuf_of_heq (TRef.of (T := ⟨S1, .i32⟩) main_call31_c_1) (w := val_main_call31_c_1 (F := F)) ?_)) (fun W h => ?_)
  · exact HEq.rfl
  have r := res_tnullary (τ := τ) (W := W) (TRef.of (T := ⟨S_, .i32⟩) main_call31_c_2) (constantI S_ 32 0#32)
  refine Inv.cons h _ _ main_call31_c_2 (val_main_call31_c_2 (F := F)) rfl (by decide) (r.trans (toBuf_of_heq (TRef.of (T := ⟨S_, .i32⟩) main_call31_c_2) (w := val_main_call31_c_2 (F := F)) ?_)) (fun W h => ?_)
  · exact HEq.rfl
  exact h

/-- Operations 772 … 792 of the line. -/
abbrev seg31 : List (HloOp τ sig (Elt F)) :=
  [ TRef.unary (TRef.of (T := ⟨S_, .i32⟩) main_call31_c_2) (TRef.of (T := ⟨S4x40000x1, .i32⟩) main_call31_v6) (broadcastInDim S4x40000x1 ![] bcast_S_S4x40000x1),
    TRef.binary (TRef.of (T := ⟨S4x40000x1, .i32⟩) main_call31_v5) (TRef.of (T := ⟨S4x40000x1, .i32⟩) main_call31_v6) (TRef.of (T := ⟨S4x40000x1, .i1⟩) main_call31_v7) (cmpi .sge),
    TRef.unary (TRef.of (T := ⟨S1, .i32⟩) main_call31_c_1) (TRef.of (T := ⟨S1x1x1, .i32⟩) main_call31_v8) (broadcastInDim S1x1x1 ![2] bcast_S1_S1x1x1_2),
    TRef.unary (TRef.of (T := ⟨S1x1x1, .i32⟩) main_call31_v8) (TRef.of (T := ⟨S4x40000x1, .i32⟩) main_call31_v9) (broadcastInDim S4x40000x1 ![0, 1, 2] bcast_S1x1x1_S4x40000x1_0_1_2),
    TRef.binary (TRef.of (T := ⟨S4x40000x1, .i32⟩) main_call31_v5) (TRef.of (T := ⟨S4x40000x1, .i32⟩) main_call31_v9) (TRef.of (T := ⟨S4x40000x1, .i1⟩) main_call31_v10) (cmpi .sle),
    TRef.binary (TRef.of (T := ⟨S4x40000x1, .i1⟩) main_call31_v7) (TRef.of (T := ⟨S4x40000x1, .i1⟩) main_call31_v10) (TRef.of (T := ⟨S4x40000x1, .i1⟩) main_call31_v11) andi,
    TRef.nullary (TRef.of (T := ⟨S_, .i1⟩) main_call31_c_3) (constantI S_ 1 1#1),
    TRef.binary (TRef.of (T := ⟨S4x40000x1, .i1⟩) main_call31_v11) (TRef.of (T := ⟨S_, .i1⟩) main_call31_c_3) (TRef.of (T := ⟨S4x40000, .i1⟩) main_call31_v12) (fun x v => Host.reduce IntOp.andi x v reducesTo_S4x40000x1_S4x40000_d2 h_S_),
    TRef.binary (TRef.of (T := ⟨S4x128x4096, .f32⟩) main_v44) (TRef.of (T := ⟨S4x40000x1, .i32⟩) main_call31_v5) (TRef.of (T := ⟨S4x128x40000, .f32⟩) main_call31_v13) (fun x i => Host.gather gather_S4x128x4096_S4x40000x1_S4x128x40000_1_2_0_0_2_2_11281 x i),
    TRef.unary (TRef.of (T := ⟨S4x40000, .i1⟩) main_call31_v12) (TRef.of (T := ⟨S4x128x40000, .i1⟩) main_call31_v14) (broadcastInDim S4x128x40000 ![0, 2] bcast_S4x40000_S4x128x40000_0_2),
    TRef.nullary (TRef.of (T := ⟨S_, .f32⟩) main_call31_cst) (constant S_ .f32 0x7FC00000#32),
    TRef.unary (TRef.of (T := ⟨S_, .f32⟩) main_call31_cst) (TRef.of (T := ⟨S4x128x40000, .f32⟩) main_call31_v15) (broadcastInDim S4x128x40000 ![] bcast_S_S4x128x40000),
    TRef.ternary (TRef.of (T := ⟨S4x128x40000, .i1⟩) main_call31_v14) (TRef.of (T := ⟨S4x128x40000, .f32⟩) main_call31_v13) (TRef.of (T := ⟨S4x128x40000, .f32⟩) main_call31_v15) (TRef.of (T := ⟨S4x128x40000, .f32⟩) main_v349) select,
    unary main_v338 main_v350 (uitofp .f32 : (⟨S4x40000, .i1⟩ : BufTy).Contents (Elt F) → (⟨S4x40000, .f32⟩ : BufTy).Contents (Elt F)),
    binary main_v321 main_v350 main_v351 (mulf : (⟨S4x40000, .f32⟩ : BufTy).Contents (Elt F) → (⟨S4x40000, .f32⟩ : BufTy).Contents (Elt F) → (⟨S4x40000, .f32⟩ : BufTy).Contents (Elt F)),
    unary main_v351 main_v352 (broadcastInDim S4x1x40000 ![0, 2] bcast_S4x40000_S4x1x40000_0_2 : (⟨S4x40000, .f32⟩ : BufTy).Contents (Elt F) → (⟨S4x1x40000, .f32⟩ : BufTy).Contents (Elt F)),
    unary main_v352 main_v353 (broadcastInDim S4x128x40000 ![0, 1, 2] bcast_S4x1x40000_S4x128x40000_0_1_2 : (⟨S4x1x40000, .f32⟩ : BufTy).Contents (Elt F) → (⟨S4x128x40000, .f32⟩ : BufTy).Contents (Elt F)),
    binary main_v349 main_v353 main_v354 (mulf : (⟨S4x128x40000, .f32⟩ : BufTy).Contents (Elt F) → (⟨S4x128x40000, .f32⟩ : BufTy).Contents (Elt F) → (⟨S4x128x40000, .f32⟩ : BufTy).Contents (Elt F)),
    binary main_v319 main_v354 main_v355 (addf : (⟨S4x128x40000, .f32⟩ : BufTy).Contents (Elt F) → (⟨S4x128x40000, .f32⟩ : BufTy).Contents (Elt F) → (⟨S4x128x40000, .f32⟩ : BufTy).Contents (Elt F)),
    unary main_v355 main_v356 ((transpose S4x40000x128 [0, 2, 1] · transposes_S4x128x40000_S4x40000x128_0_2_1) : (⟨S4x128x40000, .f32⟩ : BufTy).Contents (Elt F) → (⟨S4x40000x128, .f32⟩ : BufTy).Contents (Elt F)),
    nary ![main_arg0, main_v356, main_v0] main_v357 (fun u => concatenate S4x40000x259 2 [⟨S4x40000x128, u 0⟩, ⟨S4x40000x128, u 1⟩, ⟨S4x40000x3, u 2⟩] concatenates_S4x40000x128_S4x40000x128_S4x40000x3_S4x40000x259_d2) ]

/-- The facts after operation 792: each buffer written so far at its stage value. -/
def facts31 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) : List (Fact sig (Elt F)) :=
  ⟨main_v357, val_main_v357 (F := F) x0 x2 x3⟩ ::
  ⟨main_v356, val_main_v356 (F := F) x0 x2 x3⟩ ::
  ⟨main_v355, val_main_v355 (F := F) x0 x2 x3⟩ ::
  ⟨main_v354, val_main_v354 (F := F) x0 x2 x3⟩ ::
  ⟨main_v353, val_main_v353 (F := F) x0 x3⟩ ::
  ⟨main_v352, val_main_v352 (F := F) x0 x3⟩ ::
  ⟨main_v351, val_main_v351 (F := F) x0 x3⟩ ::
  ⟨main_v350, val_main_v350 (F := F) x0 x3⟩ ::
  ⟨main_v349, val_main_v349 (F := F) x0 x2 x3⟩ ::
  ⟨main_call31_v15, val_main_call31_v15 (F := F)⟩ ::
  ⟨main_call31_cst, val_main_call31_cst (F := F)⟩ ::
  ⟨main_call31_v14, val_main_call31_v14 (F := F) x0 x3⟩ ::
  ⟨main_call31_v13, val_main_call31_v13 (F := F) x0 x2 x3⟩ ::
  ⟨main_call31_v12, val_main_call31_v12 (F := F) x0 x3⟩ ::
  ⟨main_call31_c_3, val_main_call31_c_3 (F := F)⟩ ::
  ⟨main_call31_v11, val_main_call31_v11 (F := F) x0 x3⟩ ::
  ⟨main_call31_v10, val_main_call31_v10 (F := F) x0 x3⟩ ::
  ⟨main_call31_v9, val_main_call31_v9 (F := F)⟩ ::
  ⟨main_call31_v8, val_main_call31_v8 (F := F)⟩ ::
  ⟨main_call31_v7, val_main_call31_v7 (F := F) x0 x3⟩ ::
  ⟨main_call31_v6, val_main_call31_v6 (F := F)⟩ ::
  facts30 x0 x1 x2 x3

theorem up31 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) {p : Fact sig (Elt F)} (hp : p ∈ facts30 x0 x1 x2 x3) : p ∈ facts31 x0 x1 x2 x3 :=
  memUp% 21 hp

set_option maxRecDepth 8192 in
set_option maxHeartbeats 2000000 in
/-- Operations 772 … 792: each adds the fact of the buffer it writes. -/
theorem run31 (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (facts30 x0 x1 x2 x3) 775) :
    Inv (after seg31 W) (facts31 x0 x1 x2 x3) 796 := by
  have r := res_tunary (τ := τ) (TRef.of (T := ⟨S_, .i32⟩) main_call31_c_2) (TRef.of (T := ⟨S4x40000x1, .i32⟩) main_call31_v6) (broadcastInDim S4x40000x1 ![] bcast_S_S4x40000x1) (h.tget (TRef.of (T := ⟨S_, .i32⟩) main_call31_c_2) (val_main_call31_c_2 (F := F)) (val_main_call31_c_2 (F := F)) HEq.rfl (memUp% 0 (memAt% 0 : (⟨main_call31_c_2, val_main_call31_c_2 (F := F)⟩ : Fact sig (Elt F)) ∈ facts30 x0 x1 x2 x3)))
  refine Inv.cons h _ _ main_call31_v6 (val_main_call31_v6 (F := F)) rfl (by decide) (r.trans (toBuf_of_heq (TRef.of (T := ⟨S4x40000x1, .i32⟩) main_call31_v6) (w := val_main_call31_v6 (F := F)) ?_)) (fun W h => ?_)
  · exact HEq.rfl
  have r := res_tbinary (τ := τ) (TRef.of (T := ⟨S4x40000x1, .i32⟩) main_call31_v5) (TRef.of (T := ⟨S4x40000x1, .i32⟩) main_call31_v6) (TRef.of (T := ⟨S4x40000x1, .i1⟩) main_call31_v7) (cmpi .sge) (h.tget (TRef.of (T := ⟨S4x40000x1, .i32⟩) main_call31_v5) (val_main_call31_v5 (F := F) x0 x3) (val_main_call31_v5 (F := F) x0 x3) HEq.rfl (memUp% 1 (memAt% 2 : (⟨main_call31_v5, val_main_call31_v5 (F := F) x0 x3⟩ : Fact sig (Elt F)) ∈ facts30 x0 x1 x2 x3))) (h.tget (TRef.of (T := ⟨S4x40000x1, .i32⟩) main_call31_v6) (val_main_call31_v6 (F := F)) (val_main_call31_v6 (F := F)) HEq.rfl (memAt% 0))
  refine Inv.cons h _ _ main_call31_v7 (val_main_call31_v7 (F := F) x0 x3) rfl (by decide) (r.trans (toBuf_of_heq (TRef.of (T := ⟨S4x40000x1, .i1⟩) main_call31_v7) (w := val_main_call31_v7 (F := F) x0 x3) ?_)) (fun W h => ?_)
  · exact HEq.rfl
  have r := res_tunary (τ := τ) (TRef.of (T := ⟨S1, .i32⟩) main_call31_c_1) (TRef.of (T := ⟨S1x1x1, .i32⟩) main_call31_v8) (broadcastInDim S1x1x1 ![2] bcast_S1_S1x1x1_2) (h.tget (TRef.of (T := ⟨S1, .i32⟩) main_call31_c_1) (val_main_call31_c_1 (F := F)) (val_main_call31_c_1 (F := F)) HEq.rfl (memUp% 2 (memAt% 1 : (⟨main_call31_c_1, val_main_call31_c_1 (F := F)⟩ : Fact sig (Elt F)) ∈ facts30 x0 x1 x2 x3)))
  refine Inv.cons h _ _ main_call31_v8 (val_main_call31_v8 (F := F)) rfl (by decide) (r.trans (toBuf_of_heq (TRef.of (T := ⟨S1x1x1, .i32⟩) main_call31_v8) (w := val_main_call31_v8 (F := F)) ?_)) (fun W h => ?_)
  · exact HEq.rfl
  have r := res_tunary (τ := τ) (TRef.of (T := ⟨S1x1x1, .i32⟩) main_call31_v8) (TRef.of (T := ⟨S4x40000x1, .i32⟩) main_call31_v9) (broadcastInDim S4x40000x1 ![0, 1, 2] bcast_S1x1x1_S4x40000x1_0_1_2) (h.tget (TRef.of (T := ⟨S1x1x1, .i32⟩) main_call31_v8) (val_main_call31_v8 (F := F)) (val_main_call31_v8 (F := F)) HEq.rfl (memAt% 0))
  refine Inv.cons h _ _ main_call31_v9 (val_main_call31_v9 (F := F)) rfl (by decide) (r.trans (toBuf_of_heq (TRef.of (T := ⟨S4x40000x1, .i32⟩) main_call31_v9) (w := val_main_call31_v9 (F := F)) ?_)) (fun W h => ?_)
  · exact HEq.rfl
  have r := res_tbinary (τ := τ) (TRef.of (T := ⟨S4x40000x1, .i32⟩) main_call31_v5) (TRef.of (T := ⟨S4x40000x1, .i32⟩) main_call31_v9) (TRef.of (T := ⟨S4x40000x1, .i1⟩) main_call31_v10) (cmpi .sle) (h.tget (TRef.of (T := ⟨S4x40000x1, .i32⟩) main_call31_v5) (val_main_call31_v5 (F := F) x0 x3) (val_main_call31_v5 (F := F) x0 x3) HEq.rfl (memUp% 4 (memAt% 2 : (⟨main_call31_v5, val_main_call31_v5 (F := F) x0 x3⟩ : Fact sig (Elt F)) ∈ facts30 x0 x1 x2 x3))) (h.tget (TRef.of (T := ⟨S4x40000x1, .i32⟩) main_call31_v9) (val_main_call31_v9 (F := F)) (val_main_call31_v9 (F := F)) HEq.rfl (memAt% 0))
  refine Inv.cons h _ _ main_call31_v10 (val_main_call31_v10 (F := F) x0 x3) rfl (by decide) (r.trans (toBuf_of_heq (TRef.of (T := ⟨S4x40000x1, .i1⟩) main_call31_v10) (w := val_main_call31_v10 (F := F) x0 x3) ?_)) (fun W h => ?_)
  · exact HEq.rfl
  have r := res_tbinary (τ := τ) (TRef.of (T := ⟨S4x40000x1, .i1⟩) main_call31_v7) (TRef.of (T := ⟨S4x40000x1, .i1⟩) main_call31_v10) (TRef.of (T := ⟨S4x40000x1, .i1⟩) main_call31_v11) andi (h.tget (TRef.of (T := ⟨S4x40000x1, .i1⟩) main_call31_v7) (val_main_call31_v7 (F := F) x0 x3) (val_main_call31_v7 (F := F) x0 x3) HEq.rfl (memAt% 3)) (h.tget (TRef.of (T := ⟨S4x40000x1, .i1⟩) main_call31_v10) (val_main_call31_v10 (F := F) x0 x3) (val_main_call31_v10 (F := F) x0 x3) HEq.rfl (memAt% 0))
  refine Inv.cons h _ _ main_call31_v11 (val_main_call31_v11 (F := F) x0 x3) rfl (by decide) (r.trans (toBuf_of_heq (TRef.of (T := ⟨S4x40000x1, .i1⟩) main_call31_v11) (w := val_main_call31_v11 (F := F) x0 x3) ?_)) (fun W h => ?_)
  · exact HEq.rfl
  have r := res_tnullary (τ := τ) (W := W) (TRef.of (T := ⟨S_, .i1⟩) main_call31_c_3) (constantI S_ 1 1#1)
  refine Inv.cons h _ _ main_call31_c_3 (val_main_call31_c_3 (F := F)) rfl (by decide) (r.trans (toBuf_of_heq (TRef.of (T := ⟨S_, .i1⟩) main_call31_c_3) (w := val_main_call31_c_3 (F := F)) ?_)) (fun W h => ?_)
  · exact HEq.rfl
  have r := res_tbinary (τ := τ) (TRef.of (T := ⟨S4x40000x1, .i1⟩) main_call31_v11) (TRef.of (T := ⟨S_, .i1⟩) main_call31_c_3) (TRef.of (T := ⟨S4x40000, .i1⟩) main_call31_v12) (fun x v => Host.reduce IntOp.andi x v reducesTo_S4x40000x1_S4x40000_d2 h_S_) (h.tget (TRef.of (T := ⟨S4x40000x1, .i1⟩) main_call31_v11) (val_main_call31_v11 (F := F) x0 x3) (val_main_call31_v11 (F := F) x0 x3) HEq.rfl (memAt% 1)) (h.tget (TRef.of (T := ⟨S_, .i1⟩) main_call31_c_3) (val_main_call31_c_3 (F := F)) (val_main_call31_c_3 (F := F)) HEq.rfl (memAt% 0))
  refine Inv.cons h _ _ main_call31_v12 (val_main_call31_v12 (F := F) x0 x3) rfl (by decide) (r.trans (toBuf_of_heq (TRef.of (T := ⟨S4x40000, .i1⟩) main_call31_v12) (w := val_main_call31_v12 (F := F) x0 x3) ?_)) (fun W h => ?_)
  · exact HEq.rfl
  have r := res_tbinary (τ := τ) (TRef.of (T := ⟨S4x128x4096, .f32⟩) main_v44) (TRef.of (T := ⟨S4x40000x1, .i32⟩) main_call31_v5) (TRef.of (T := ⟨S4x128x40000, .f32⟩) main_call31_v13) (fun x i => Host.gather gather_S4x128x4096_S4x40000x1_S4x128x40000_1_2_0_0_2_2_11281 x i) (h.tget (TRef.of (T := ⟨S4x128x4096, .f32⟩) main_v44) (val_main_v44 (F := F) x2) (val_main_v44 (F := F) x2) HEq.rfl (memUp% 8 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (memAt% 1 : (⟨main_v44, val_main_v44 (F := F) x2⟩ : Fact sig (Elt F)) ∈ facts1 x0 x1 x2 x3)))))))))))))))))))))))))))))))) (h.tget (TRef.of (T := ⟨S4x40000x1, .i32⟩) main_call31_v5) (val_main_call31_v5 (F := F) x0 x3) (val_main_call31_v5 (F := F) x0 x3) HEq.rfl (memUp% 8 (memAt% 2 : (⟨main_call31_v5, val_main_call31_v5 (F := F) x0 x3⟩ : Fact sig (Elt F)) ∈ facts30 x0 x1 x2 x3)))
  refine Inv.cons h _ _ main_call31_v13 (val_main_call31_v13 (F := F) x0 x2 x3) rfl (by decide) (r.trans (toBuf_of_heq (TRef.of (T := ⟨S4x128x40000, .f32⟩) main_call31_v13) (w := val_main_call31_v13 (F := F) x0 x2 x3) ?_)) (fun W h => ?_)
  · exact HEq.rfl
  have r := res_tunary (τ := τ) (TRef.of (T := ⟨S4x40000, .i1⟩) main_call31_v12) (TRef.of (T := ⟨S4x128x40000, .i1⟩) main_call31_v14) (broadcastInDim S4x128x40000 ![0, 2] bcast_S4x40000_S4x128x40000_0_2) (h.tget (TRef.of (T := ⟨S4x40000, .i1⟩) main_call31_v12) (val_main_call31_v12 (F := F) x0 x3) (val_main_call31_v12 (F := F) x0 x3) HEq.rfl (memAt% 1))
  refine Inv.cons h _ _ main_call31_v14 (val_main_call31_v14 (F := F) x0 x3) rfl (by decide) (r.trans (toBuf_of_heq (TRef.of (T := ⟨S4x128x40000, .i1⟩) main_call31_v14) (w := val_main_call31_v14 (F := F) x0 x3) ?_)) (fun W h => ?_)
  · exact HEq.rfl
  have r := res_tnullary (τ := τ) (W := W) (TRef.of (T := ⟨S_, .f32⟩) main_call31_cst) (constant S_ .f32 0x7FC00000#32)
  refine Inv.cons h _ _ main_call31_cst (val_main_call31_cst (F := F)) rfl (by decide) (r.trans (toBuf_of_heq (TRef.of (T := ⟨S_, .f32⟩) main_call31_cst) (w := val_main_call31_cst (F := F)) ?_)) (fun W h => ?_)
  · exact HEq.rfl
  have r := res_tunary (τ := τ) (TRef.of (T := ⟨S_, .f32⟩) main_call31_cst) (TRef.of (T := ⟨S4x128x40000, .f32⟩) main_call31_v15) (broadcastInDim S4x128x40000 ![] bcast_S_S4x128x40000) (h.tget (TRef.of (T := ⟨S_, .f32⟩) main_call31_cst) (val_main_call31_cst (F := F)) (val_main_call31_cst (F := F)) HEq.rfl (memAt% 0))
  refine Inv.cons h _ _ main_call31_v15 (val_main_call31_v15 (F := F)) rfl (by decide) (r.trans (toBuf_of_heq (TRef.of (T := ⟨S4x128x40000, .f32⟩) main_call31_v15) (w := val_main_call31_v15 (F := F)) ?_)) (fun W h => ?_)
  · exact HEq.rfl
  have r := res_tternary (τ := τ) (TRef.of (T := ⟨S4x128x40000, .i1⟩) main_call31_v14) (TRef.of (T := ⟨S4x128x40000, .f32⟩) main_call31_v13) (TRef.of (T := ⟨S4x128x40000, .f32⟩) main_call31_v15) (TRef.of (T := ⟨S4x128x40000, .f32⟩) main_v349) select (h.tget (TRef.of (T := ⟨S4x128x40000, .i1⟩) main_call31_v14) (val_main_call31_v14 (F := F) x0 x3) (val_main_call31_v14 (F := F) x0 x3) HEq.rfl (memAt% 2)) (h.tget (TRef.of (T := ⟨S4x128x40000, .f32⟩) main_call31_v13) (val_main_call31_v13 (F := F) x0 x2 x3) (val_main_call31_v13 (F := F) x0 x2 x3) HEq.rfl (memAt% 3)) (h.tget (TRef.of (T := ⟨S4x128x40000, .f32⟩) main_call31_v15) (val_main_call31_v15 (F := F)) (val_main_call31_v15 (F := F)) HEq.rfl (memAt% 0))
  refine Inv.cons h _ _ main_v349 (val_main_v349 (F := F) x0 x2 x3) rfl (by decide) (r.trans (toBuf_of_heq (TRef.of (T := ⟨S4x128x40000, .f32⟩) main_v349) (w := val_main_v349 (F := F) x0 x2 x3) ?_)) (fun W h => ?_)
  · exact HEq.rfl
  have r := res_unary (τ := τ) (x := main_v338) (y := main_v350) (f := (uitofp .f32 : (⟨S4x40000, .i1⟩ : BufTy).Contents (Elt F) → (⟨S4x40000, .f32⟩ : BufTy).Contents (Elt F))) (hx := ⟨by decide, rfl⟩) (hy := ⟨by decide, rfl⟩) (h.get' main_v338 (val_main_v338 (F := F) x0 x3) (memUp% 13 (up30 x0 x1 x2 x3 (memAt% 21 : (⟨main_v338, val_main_v338 (F := F) x0 x3⟩ : Fact sig (Elt F)) ∈ facts29 x0 x1 x2 x3))))
  refine Inv.cons h _ _ main_v350 (val_main_v350 (F := F) x0 x3) rfl (by decide) (r.trans ?_) (fun W h => ?_)
  · rfl
  have r := res_binary (τ := τ) (a := main_v321) (b := main_v350) (y := main_v351) (f := (mulf : (⟨S4x40000, .f32⟩ : BufTy).Contents (Elt F) → (⟨S4x40000, .f32⟩ : BufTy).Contents (Elt F) → (⟨S4x40000, .f32⟩ : BufTy).Contents (Elt F))) (ha := ⟨by decide, rfl⟩) (hb := ⟨by decide, rfl⟩) (hy := ⟨by decide, rfl⟩) (h.get' main_v321 (val_main_v321 (F := F) x0 x3) (memUp% 14 (up30 x0 x1 x2 x3 (up29 x0 x1 x2 x3 (memAt% 18 : (⟨main_v321, val_main_v321 (F := F) x0 x3⟩ : Fact sig (Elt F)) ∈ facts28 x0 x1 x2 x3))))) (h.get' main_v350 (val_main_v350 (F := F) x0 x3) (memAt% 0))
  refine Inv.cons h _ _ main_v351 (val_main_v351 (F := F) x0 x3) rfl (by decide) (r.trans ?_) (fun W h => ?_)
  · rfl
  have r := res_unary (τ := τ) (x := main_v351) (y := main_v352) (f := (broadcastInDim S4x1x40000 ![0, 2] bcast_S4x40000_S4x1x40000_0_2 : (⟨S4x40000, .f32⟩ : BufTy).Contents (Elt F) → (⟨S4x1x40000, .f32⟩ : BufTy).Contents (Elt F))) (hx := ⟨by decide, rfl⟩) (hy := ⟨by decide, rfl⟩) (h.get' main_v351 (val_main_v351 (F := F) x0 x3) (memAt% 0))
  refine Inv.cons h _ _ main_v352 (val_main_v352 (F := F) x0 x3) rfl (by decide) (r.trans ?_) (fun W h => ?_)
  · rfl
  have r := res_unary (τ := τ) (x := main_v352) (y := main_v353) (f := (broadcastInDim S4x128x40000 ![0, 1, 2] bcast_S4x1x40000_S4x128x40000_0_1_2 : (⟨S4x1x40000, .f32⟩ : BufTy).Contents (Elt F) → (⟨S4x128x40000, .f32⟩ : BufTy).Contents (Elt F))) (hx := ⟨by decide, rfl⟩) (hy := ⟨by decide, rfl⟩) (h.get' main_v352 (val_main_v352 (F := F) x0 x3) (memAt% 0))
  refine Inv.cons h _ _ main_v353 (val_main_v353 (F := F) x0 x3) rfl (by decide) (r.trans ?_) (fun W h => ?_)
  · rfl
  have r := res_binary (τ := τ) (a := main_v349) (b := main_v353) (y := main_v354) (f := (mulf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v349 (val_main_v349 (F := F) x0 x2 x3) (memAt% 4)) (h.get' main_v353 (val_main_v353 (F := F) x0 x3) (memAt% 0))
  refine Inv.cons h _ _ main_v354 (val_main_v354 (F := F) x0 x2 x3) rfl (by decide) (r.trans ?_) (fun W h => ?_)
  · rfl
  have r := res_binary (τ := τ) (a := main_v319) (b := main_v354) (y := main_v355) (f := (addf : (⟨S4x128x40000, .f32⟩ : BufTy).Contents (Elt F) → (⟨S4x128x40000, .f32⟩ : BufTy).Contents (Elt F) → (⟨S4x128x40000, .f32⟩ : BufTy).Contents (Elt F))) (ha := ⟨by decide, rfl⟩) (hb := ⟨by decide, rfl⟩) (hy := ⟨by decide, rfl⟩) (h.get' main_v319 (val_main_v319 (F := F) x0 x2 x3) (memUp% 18 (up30 x0 x1 x2 x3 (up29 x0 x1 x2 x3 (memAt% 20 : (⟨main_v319, val_main_v319 (F := F) x0 x2 x3⟩ : Fact sig (Elt F)) ∈ facts28 x0 x1 x2 x3))))) (h.get' main_v354 (val_main_v354 (F := F) x0 x2 x3) (memAt% 0))
  refine Inv.cons h _ _ main_v355 (val_main_v355 (F := F) x0 x2 x3) rfl (by decide) (r.trans ?_) (fun W h => ?_)
  · rfl
  have r := res_unary (τ := τ) (x := main_v355) (y := main_v356) (f := ((transpose S4x40000x128 [0, 2, 1] · transposes_S4x128x40000_S4x40000x128_0_2_1) : (⟨S4x128x40000, .f32⟩ : BufTy).Contents (Elt F) → (⟨S4x40000x128, .f32⟩ : BufTy).Contents (Elt F))) (hx := ⟨by decide, rfl⟩) (hy := ⟨by decide, rfl⟩) (h.get' main_v355 (val_main_v355 (F := F) x0 x2 x3) (memAt% 0))
  refine Inv.cons h _ _ main_v356 (val_main_v356 (F := F) x0 x2 x3) rfl (by decide) (r.trans ?_) (fun W h => ?_)
  · rfl
  refine Inv.cons h _ _ main_v357 (val_main_v357 (F := F) x0 x2 x3) rfl (by decide) ?_ (fun W h => ?_)
  · rw [nary_result]
    show concatenate S4x40000x259 2 [⟨S4x40000x128, W (Proc.devRef .tc main_arg0)⟩, ⟨S4x40000x128, W (Proc.devRef .tc main_v356)⟩, ⟨S4x40000x3, W (Proc.devRef .tc main_v0)⟩] concatenates_S4x40000x128_S4x40000x128_S4x40000x3_S4x40000x259_d2 = _
    rw [(h.get' main_arg0 (x0) (memUp% 20 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (up0 x0 x1 x2 x3 (memAt% 3 : (⟨main_arg0, x0⟩ : Fact sig (Elt F)) ∈ factsArgs x0 x1 x2 x3)))))))))))))))))))))))))))))))))), (h.get' main_v356 (val_main_v356 (F := F) x0 x2 x3) (memAt% 0)), (h.get' main_v0 (val_main_v0 (F := F) x0 x3) (memUp% 20 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (memAt% 29 : (⟨main_v0, val_main_v0 (F := F) x0 x3⟩ : Fact sig (Elt F)) ∈ facts0 x0 x1 x2 x3)))))))))))))))))))))))))))))))))]
    rfl
  exact h

end Cert.ReferenceIdeal.Line

end
-- ==== Proof.RefFresh.lean ====
/-
  None of the reference's 792 host operations leaves a buffer with contents it does not determine: each is built as a
  constant, a function of one, two, three or several operands, or a reshape, and every such operation writes its one
  result buffer with the value its function gives, so the set of buffers left undetermined is empty by computation.
-/
import proofs.«120255_j59700045415095_2_alg».proof.Proof.RefOps

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 1000000 in
/-- One fact per operation, in the order of the list: the head's, then the rest's. -/
theorem ops_fresh_all : (ops : List (HloOp τ sig (Elt F))).Forall fun op => op.fresh = ∅ := by
  repeat' (first | refine ⟨rfl, ?_⟩ | exact rfl)

/-- Every operation of the reference's host program determines everything it writes. -/
theorem ops_fresh : ∀ op ∈ (ops (F := F)), op.fresh = ∅ :=
  List.forall_iff_forall_mem.1 ops_fresh_all

end Cert.ReferenceIdeal.Value

end
-- ==== Proof.RefLine.lean ====
/-
  The reference's run: every weakly fair execution of its straight line of 792 host operations terminates with the two
  results at their stage values of the arguments and the arguments unchanged — the line read stretch by stretch
  (the facts after each stretch: every buffer written so far at its stage value), then handed to the run of a
  straight line.
-/
import proofs.«120255_j59700045415095_2_alg».proof.Proof.RefLineC
import proofs.«120255_j59700045415095_2_alg».proof.Proof.RefOps
import proofs.«120255_j59700045415095_2_alg».proof.Proof.RefFresh

noncomputable section

namespace Cert.ReferenceIdeal.Line

open Cert.ReferenceIdeal Cert.ReferenceIdeal.Gen Cert.ReferenceIdeal.Read Cert.HostLine Idealize.ShloMosaic Idealize.ShloMosaic.TcCoe Idealize.SL.Sem Idealize.ShloMosaic.StableHlo

variable {F : FTy → Type} [FloatOps F]

open Cert.ReferenceIdeal.Value (ops main_eq scopedRefs_eq scopedSems_eq ops_sub ops_fresh)

/-- The line is its stretches in order. -/
abbrev stretches : List (HloOp τ sig (Elt F)) := seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30 ++ (seg31)))))))))))))))))))))))))))))))

set_option maxRecDepth 1000000 in
set_option maxHeartbeats 4000000 in
theorem ops_eq : (ops : List (HloOp τ sig (Elt F))) = stretches := rfl

/-- Before the line the arguments' buffers hold the arguments. -/
theorem inv_args (V : Valuation τ sig (Elt F)) :
    Inv V (factsArgs (F := F) (V (Proc.devRef .tc main_arg0)) (V (Proc.devRef .tc main_arg1)) (V (Proc.devRef .tc main_arg2)) (V (Proc.devRef .tc main_arg3))) 4 := by
  intro p hp
  unfold factsArgs at hp
  simp only [List.mem_cons, List.not_mem_nil, or_false] at hp
  rcases hp with rfl | rfl | rfl | rfl
  · exact ⟨rfl, (by decide : (main_arg3 : Ref sig .tc).idx.val < 4)⟩
  · exact ⟨rfl, (by decide : (main_arg2 : Ref sig .tc).idx.val < 4)⟩
  · exact ⟨rfl, (by decide : (main_arg1 : Ref sig .tc).idx.val < 4)⟩
  · exact ⟨rfl, (by decide : (main_arg0 : Ref sig .tc).idx.val < 4)⟩

/-- After the whole line every buffer holds its stage value. -/
theorem line (x0 : (⟨S4x40000x128, .f32⟩ : BufTy).Contents (Elt F)) (x1 : main_arg1.ty.Contents (Elt F)) (x2 : (⟨S4x128x16x16x16, .f32⟩ : BufTy).Contents (Elt F)) (x3 : (⟨S128x3, .f32⟩ : BufTy).Contents (Elt F)) (W : Valuation τ sig (Elt F)) (h : Inv W (factsArgs x0 x1 x2 x3) 4) :
    Inv (after stretches W) (facts31 x0 x1 x2 x3) 796 :=
  Inv.append (run0 x0 x1 x2 x3 W h) fun W h =>
    Inv.append (run1 x0 x1 x2 x3 W h) fun W h =>
    Inv.append (run2 x0 x1 x2 x3 W h) fun W h =>
    Inv.append (run3 x0 x1 x2 x3 W h) fun W h =>
    Inv.append (run4 x0 x1 x2 x3 W h) fun W h =>
    Inv.append (run5 x0 x1 x2 x3 W h) fun W h =>
    Inv.append (run6 x0 x1 x2 x3 W h) fun W h =>
    Inv.append (run7 x0 x1 x2 x3 W h) fun W h =>
    Inv.append (run8 x0 x1 x2 x3 W h) fun W h =>
    Inv.append (run9 x0 x1 x2 x3 W h) fun W h =>
    Inv.append (run10 x0 x1 x2 x3 W h) fun W h =>
    Inv.append (run11 x0 x1 x2 x3 W h) fun W h =>
    Inv.append (run12 x0 x1 x2 x3 W h) fun W h =>
    Inv.append (run13 x0 x1 x2 x3 W h) fun W h =>
    Inv.append (run14 x0 x1 x2 x3 W h) fun W h =>
    Inv.append (run15 x0 x1 x2 x3 W h) fun W h =>
    Inv.append (run16 x0 x1 x2 x3 W h) fun W h =>
    Inv.append (run17 x0 x1 x2 x3 W h) fun W h =>
    Inv.append (run18 x0 x1 x2 x3 W h) fun W h =>
    Inv.append (run19 x0 x1 x2 x3 W h) fun W h =>
    Inv.append (run20 x0 x1 x2 x3 W h) fun W h =>
    Inv.append (run21 x0 x1 x2 x3 W h) fun W h =>
    Inv.append (run22 x0 x1 x2 x3 W h) fun W h =>
    Inv.append (run23 x0 x1 x2 x3 W h) fun W h =>
    Inv.append (run24 x0 x1 x2 x3 W h) fun W h =>
    Inv.append (run25 x0 x1 x2 x3 W h) fun W h =>
    Inv.append (run26 x0 x1 x2 x3 W h) fun W h =>
    Inv.append (run27 x0 x1 x2 x3 W h) fun W h =>
    Inv.append (run28 x0 x1 x2 x3 W h) fun W h =>
    Inv.append (run29 x0 x1 x2 x3 W h) fun W h =>
    Inv.append (run30 x0 x1 x2 x3 W h) fun W h =>
    run31 x0 x1 x2 x3 W h

/-- On every device, from any memory with zero counters: every weakly fair execution of @main terminates with the two
    results at their stage values of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v357) = val_main_v357 (F := F) (m ((c.tc : Thread nD τ).loc main_arg0)) (m ((c.tc : Thread nD τ).loc main_arg2)) (m ((c.tc : Thread nD τ).loc main_arg3))
      ∧ r.2.mem ((c.tc : Thread nD τ).loc main_v0) = val_main_v0 (F := F) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      have I := line (F := F) _ _ _ _ _ (inv_args (launchContents m c))
      rw [← ops_eq] at I
      generalize hx0 : launchContents m c (Proc.devRef .tc main_arg0) = x0 at I
      generalize hx1 : launchContents m c (Proc.devRef .tc main_arg1) = x1 at I
      generalize hx2 : launchContents m c (Proc.devRef .tc main_arg2) = x2 at I
      generalize hx3 : launchContents m c (Proc.devRef .tc main_arg3) = x3 at I
      refine ⟨(h c main_v357).trans ((I.get' main_v357 (val_main_v357 (F := F) x0 x2 x3) (memAt% 0 : (⟨main_v357, val_main_v357 (F := F) x0 x2 x3⟩ : Fact sig (Elt F)) ∈ facts31 x0 x1 x2 x3)).trans ?_), (h c main_v0).trans ((I.get' main_v0 (val_main_v0 (F := F) x0 x3) (up31 x0 x1 x2 x3 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (memAt% 29 : (⟨main_v0, val_main_v0 (F := F) x0 x3⟩ : Fact sig (Elt F)) ∈ facts0 x0 x1 x2 x3))))))))))))))))))))))))))))))))).trans ?_),
        (h c main_arg0).trans ((I.get' main_arg0 (x0) (up31 x0 x1 x2 x3 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (up0 x0 x1 x2 x3 (memAt% 3 : (⟨main_arg0, x0⟩ : Fact sig (Elt F)) ∈ factsArgs x0 x1 x2 x3)))))))))))))))))))))))))))))))))).trans ?_), (h c main_arg1).trans ((I.get' main_arg1 (x1) (up31 x0 x1 x2 x3 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (up0 x0 x1 x2 x3 (memAt% 2 : (⟨main_arg1, x1⟩ : Fact sig (Elt F)) ∈ factsArgs x0 x1 x2 x3)))))))))))))))))))))))))))))))))).trans ?_),
        (h c main_arg2).trans ((I.get' main_arg2 (x2) (up31 x0 x1 x2 x3 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (up0 x0 x1 x2 x3 (memAt% 1 : (⟨main_arg2, x2⟩ : Fact sig (Elt F)) ∈ factsArgs x0 x1 x2 x3)))))))))))))))))))))))))))))))))).trans ?_), (h c main_arg3).trans ((I.get' main_arg3 (x3) (up31 x0 x1 x2 x3 (up30 x0 x1 x2 x3 (up29 x0 x1 x2 x3 (up28 x0 x1 x2 x3 (up27 x0 x1 x2 x3 (up26 x0 x1 x2 x3 (up25 x0 x1 x2 x3 (up24 x0 x1 x2 x3 (up23 x0 x1 x2 x3 (up22 x0 x1 x2 x3 (up21 x0 x1 x2 x3 (up20 x0 x1 x2 x3 (up19 x0 x1 x2 x3 (up18 x0 x1 x2 x3 (up17 x0 x1 x2 x3 (up16 x0 x1 x2 x3 (up15 x0 x1 x2 x3 (up14 x0 x1 x2 x3 (up13 x0 x1 x2 x3 (up12 x0 x1 x2 x3 (up11 x0 x1 x2 x3 (up10 x0 x1 x2 x3 (up9 x0 x1 x2 x3 (up8 x0 x1 x2 x3 (up7 x0 x1 x2 x3 (up6 x0 x1 x2 x3 (up5 x0 x1 x2 x3 (up4 x0 x1 x2 x3 (up3 x0 x1 x2 x3 (up2 x0 x1 x2 x3 (up1 x0 x1 x2 x3 (up0 x0 x1 x2 x3 (memAt% 0 : (⟨main_arg3, x3⟩ : Fact sig (Elt F)) ∈ factsArgs x0 x1 x2 x3)))))))))))))))))))))))))))))))))).trans ?_)⟩
      · subst hx0 hx2 hx3; rfl
      · subst hx0 hx3; rfl
      · exact hx0.symm
      · exact hx1.symm
      · exact hx2.symm
      · exact hx3.symm)
    (run_seq scopedRefs_eq scopedSems_eq defs main (fun _ => ops) main_eq (fun _ => ops_sub) m ρ (fun _ => ops_fresh))

end Cert.ReferenceIdeal.Line

end
-- ==== Proof.lean ====
/-
  The certificate: a Pallas kernel that samples a 16×16×16 volume trilinearly at positions `x · W` — the eight corner
  look-ups fused into ONE matrix product of a weighted selector row (eight superposed one-hot rows) with the
  transposed, flattened volume — against a reference that gathers the eight corner voxels and adds them with their
  weights; both return the 259-wide rows `x ‖ sample ‖ positions` and the positions.

  At the extended reals the two programs compute one function of finite arguments. The positions are the same sum
  on both sides (a matrix product into a zero accumulator against a dot_general). The sample at a row is, on the
  kernel's side, `∑ v, (∑ k, [v = i_k] · m_k) · vol v` over the 4096 voxels `v`, where the eight corners `k` have flat
  voxel numbers `i_k` (from coordinates clipped to the volume) and masked weights `m_k` (the trilinear weight where
  the corner is inside the volume, zero outside); on the reference's side it is `∑ k, vol (i_k) · (w_k · inside_k)`.
  The sifting property of a one-hot row and distributivity make them equal; distributivity needs finiteness, which
  the precondition gives (every entry of x, W and the volume is finite, hence the positions, the fractional parts and
  the weights are).

  The modules: TriSpec / TriLaws / OutSpec (the row functions, their laws, the two result arrays as functions of
  the arguments), Finite (the precondition read), KTerms / KPieces / KPayA–C / KVol / KArray (the kernel's run read:
  body, blocks, arrays), RefRows / RefTake / RefOut / RefFinal (the reference's stages read at an index) and
  LibHostLine / RefLine (the reference's run, one operation at a time).
-/
import proofs.«120255_j59700045415095_2_alg».proof.Defs
import proofs.«120255_j59700045415095_2_alg».proof.Proof.Gen.Kernel
import proofs.«120255_j59700045415095_2_alg».proof.Proof.Gen.Kernel.Frame
import proofs.«120255_j59700045415095_2_alg».proof.Proof.Gen.KernelIdeal
import proofs.«120255_j59700045415095_2_alg».proof.Proof.Gen.KernelIdeal.Frame
import proofs.«120255_j59700045415095_2_alg».proof.Proof.Gen.ReferenceIdeal
import proofs.«120255_j59700045415095_2_alg».proof.Proof.Gen.Pre_finite_inputs
import proofs.«120255_j59700045415095_2_alg».proof.Proof.Finite
import proofs.«120255_j59700045415095_2_alg».proof.Proof.KArray
import proofs.«120255_j59700045415095_2_alg».proof.Proof.RefFinal
import proofs.«120255_j59700045415095_2_alg».proof.Proof.RefLine
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Line.run (F := Ideal) m ρ)

/-- The idealization rewrote nothing. -/
theorem preserves : Cert.preserves_Kernel_KernelIdeal := trivial

/-- Both programs end with the wide array at `outK` of the arguments and the positions at `posArr`: the kernel's
    by its blocks, the reference's by its stages and the sifting law. -/
theorem algebraic : Cert.algebraic_KernelIdeal_ReferenceIdeal := by
  intro m ρ m' ρ' hpre hagree
  refine ⟨_, _, Cert.KernelIdeal.Arr.run m ρ, ?_⟩
  refine (θ_run Cert.ReferenceIdeal.defs _ _).mono
    (fun _ h c => ⟨(h c).1.trans ?_, (h c).2.1.trans ?_, (h c).2.2⟩) (Cert.ReferenceIdeal.Line.run (F := Ideal) m' ρ')
  · obtain ⟨h0, h2, h3⟩ := Cert.Finite.real_of_pre _ _ _ _ (hpre c)
    rw [Cert.ReferenceIdeal.Final.ref_out, (hagree c).1, (hagree c).2.2.1, (hagree c).2.2.2]
    exact (Cert.Tri.outK_eq_outR h0 (fun _ => h2 _) h3).symm
  · rw [Cert.ReferenceIdeal.Final.ref_pos, (hagree c).1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
